-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S1000x32 : Shape := ⟨2, ![1000, 32]⟩
abbrev S_ : Shape := ⟨0, ![]⟩

class Facts : Prop where
  bcast_S_S1000x32 : S_.BroadcastsInDim S1000x32 (![] : Fin 0 → Fin S1000x32.rank)
  reducesTo_S1000x32_S_d0_1 : S1000x32.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S1000x32 .f32) : IVec S_ 1 :=
  let main_v0 : FVec F S1000x32 .f32 := Host.absf main_arg1
  let main_cst : FVec F S_ .f32 := constant S_ .f32 0x7F800000#32
  let main_v1 : FVec F S1000x32 .f32 := broadcastInDim S1000x32 ![] bcast_S_S1000x32 main_cst
  let main_v2 : IVec S1000x32 1 := cmpf .olt main_v0 main_v1
  let main_c : IVec S_ 1 := constantI S_ 1 1#1
  let main_v3 : IVec S_ 1 := (fun x v => Host.reduce IntOp.andi x v reducesTo_S1000x32_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg0 main_v4
  let main_c_1 : IVec S_ 32 := constantI S_ 32 999#32
  let main_v6 : IVec S16384x200 32 := broadcastInDim S16384x200 ![] bcast_S_S16384x200 main_c_1
  let main_v7 : IVec S16384x200 1 := cmpi .sle main_arg0 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x200 : Shape := ⟨2, ![16384, 200]⟩
abbrev S1000x32 : Shape := ⟨2, ![1000, 32]⟩
abbrev S200x16384 : Shape := ⟨2, ![200, 16384]⟩
abbrev S32x1000 : Shape := ⟨2, ![32, 1000]⟩
abbrev S32000 : Shape := ⟨1, ![32000]⟩
abbrev S200x32x16384 : Shape := ⟨3, ![200, 32, 16384]⟩
abbrev S40x512 : Shape := ⟨2, ![40, 512]⟩
abbrev S32x256 : Shape := ⟨2, ![32, 256]⟩
abbrev S_ : Shape := ⟨0, ![]⟩
abbrev S1x32x256 : Shape := ⟨3, ![1, 32, 256]⟩
abbrev S16 : Shape := ⟨1, ![16]⟩
abbrev S1x16 : Shape := ⟨2, ![1, 16]⟩
abbrev S16384x200x32 : Shape := ⟨3, ![16384, 200, 32]⟩

abbrev nBuf : Table → Nat
  | .hbm => 7
  | .local .tc .vmem => 2
  | .local .scVector .vmem => 5
  | _ => 0

abbrev bufTy : (tb : Table) → Fin (nBuf tb) → BufTy
  | .hbm, ⟨0, _⟩ => ⟨S16384x200, .i32⟩
  | .hbm, ⟨1, _⟩ => ⟨S1000x32, .f32⟩
  | .hbm, ⟨2, _⟩ => ⟨S200x16384, .i32⟩
  | .hbm, ⟨3, _⟩ => ⟨S32x1000, .f32⟩
  | .hbm, ⟨4, _⟩ => ⟨S32000, .f32⟩
  | .hbm, ⟨5, _⟩ => ⟨S200x32x16384, .f32⟩
  | .hbm, ⟨6, _⟩ => ⟨S16384x200x32, .f32⟩
  | .local .tc .vmem, ⟨0, _⟩ => ⟨S1000x32, .f32⟩
  | .local .tc .vmem, ⟨1, _⟩ => ⟨S32x1000, .f32⟩
  | .local .scVector .vmem, ⟨0, _⟩ => ⟨S32000, .f32⟩
  | .local .scVector .vmem, ⟨1, _⟩ => ⟨S40x512, .i32⟩
  | .local .scVector .vmem, ⟨2, _⟩ => ⟨S40x512, .i32⟩
  | .local .scVector .vmem, ⟨3, _⟩ => ⟨S32x256, .f32⟩
  | .local .scVector .vmem, ⟨4, _⟩ => ⟨S32x256, .f32⟩
  | _, _ => ⟨S16384x200, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v2_scv : Ref sig .scVector := ⟨.hbm, 4, rfl⟩
abbrev main_v0_scv : Ref sig .scVector := ⟨.hbm, 2, rfl⟩
abbrev main_v3_scv : Ref sig .scVector := ⟨.hbm, 5, rfl⟩
abbrev cc0_stg0_0 : Ref sig .tc := ⟨.vmem, 0, rfl⟩
abbrev cc0_stg1_0 : Ref sig .tc := ⟨.vmem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1000x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k1_off2 (i : grid1.Coords) : Fin 2 → Nat :=
  let c40_i32 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![40, v2.toNat]
@[reducible] def k1_t1_loop : Scf.Loop 32 :=
  let c0_i32_7 : BitVec 32 := 0#32
  let c40_i32_8 : BitVec 32 := 40#32
  let v9 : BitVec 32 := Scalar.addi c0_i32_7 c40_i32_8
  let c1_i32 : BitVec 32 := 1#32
  ⟨c0_i32_7, v9, c1_i32⟩
@[reducible] def k1_t2_loop : Scf.Loop 32 :=
  let c0_i32_63 : BitVec 32 := 0#32
  let c16_i32 : BitVec 32 := 16#32
  let v45 : BitVec 32 := Scalar.addi c0_i32_63 c16_i32
  let c1_i32_64 : BitVec 32 := 1#32
  ⟨c0_i32_63, v45, c1_i32_64⟩
def k1_mult1 (k1_t2 : Fin k1_t2_loop.trips) : BitVec 32 :=
  let c0_i32_80 : BitVec 32 := 0#32
  let c0_i32_63 : BitVec 32 := 0#32
  let c1_i32_64 : BitVec 32 := 1#32
  let arg16 : BitVec 32 := Scf.iv c0_i32_63 c1_i32_64 k1_t2
  let c16_i32_79 : BitVec 32 := 16#32
  let v62 : BitVec 32 := Scalar.muli arg16 c16_i32_79
  let v63 : BitVec 32 := Scalar.addi c0_i32_80 v62
  v63
def k1_off3 (k1_t1 : Fin k1_t1_loop.trips) (k1_t2 : Fin k1_t2_loop.trips) : Fin 2 → Nat :=
  let c0_i32_7 : BitVec 32 := 0#32
  let c1_i32 : BitVec 32 := 1#32
  let arg14 : BitVec 32 := Scf.iv c0_i32_7 c1_i32 k1_t1
  let v65 : Index := Scalar.indexCast arg14
  let c0_i32_80 : BitVec 32 := 0#32
  let c0_i32_63 : BitVec 32 := 0#32
  let c1_i32_64 : BitVec 32 := 1#32
  let arg16 : BitVec 32 := Scf.iv c0_i32_63 c1_i32_64 k1_t2
  let c16_i32_79 : BitVec 32 := 16#32
  let v62 : BitVec 32 := Scalar.muli arg16 c16_i32_79
  let v63 : BitVec 32 := Scalar.addi c0_i32_80 v62
  let v64 : BitVec 32 := v63
  let v66 : Index := Scalar.indexCast v64
  ![v65.toNat, v66.toNat]

def k1_chk1 (v69 : IVec S16 32) : Prop :=
  (∀ a x, ((![v69] : Fin 1 → IVec S16 32) a x).toNat < S32000.size a)
instance k1_chk1.dec : ∀ (v69 : IVec S16 32), Decidable (k1_chk1 v69) := fun v69 => decidable_of_iff' _ (Iff.of_eq (k1_chk1.eq_1 v69))
theorem k1_idx1_inb : ∀ (v69 : IVec S16 32) (k1_hw1 : k1_chk1 v69), ∀ a x, ((![v69] : Fin 1 → IVec S16 32) a x).toNat < S32000.size a := fun v69 k1_hw1 => k1_hw1

def k1_chk2 (v72 : IVec S16 32) : Prop :=
  (∀ a x, ((![v72] : Fin 1 → IVec S16 32) a x).toNat < S32000.size a)
instance k1_chk2.dec : ∀ (v72 : IVec S16 32), Decidable (k1_chk2 v72) := fun v72 => decidable_of_iff' _ (Iff.of_eq (k1_chk2.eq_1 v72))
theorem k1_idx2_inb : ∀ (v72 : IVec S16 32) (k1_hw2 : k1_chk2 v72), ∀ a x, ((![v72] : Fin 1 → IVec S16 32) a x).toNat < S32000.size a := fun v72 k1_hw2 => k1_hw2

def k1_chk3 (v75 : IVec S16 32) : Prop :=
  (∀ a x, ((![v75] : Fin 1 → IVec S16 32) a x).toNat < S32000.size a)
instance k1_chk3.dec : ∀ (v75 : IVec S16 32), Decidable (k1_chk3 v75) := fun v75 => decidable_of_iff' _ (Iff.of_eq (k1_chk3.eq_1 v75))
theorem k1_idx3_inb : ∀ (v75 : IVec S16 32) (k1_hw3 : k1_chk3 v75), ∀ a x, ((![v75] : Fin 1 → IVec S16 32) a x).toNat < S32000.size a := fun v75 k1_hw3 => k1_hw3

def k1_chk4 (v78 : IVec S16 32) : Prop :=
  (∀ a x, ((![v78] : Fin 1 → IVec S16 32) a x).toNat < S32000.size a)
instance k1_chk4.dec : ∀ (v78 : IVec S16 32), Decidable (k1_chk4 v78) := fun v78 => decidable_of_iff' _ (Iff.of_eq (k1_chk4.eq_1 v78))
theorem k1_idx4_inb : ∀ (v78 : IVec S16 32) (k1_hw4 : k1_chk4 v78), ∀ a x, ((![v78] : Fin 1 → IVec S16 32) a x).toNat < S32000.size a := fun v78 k1_hw4 => k1_hw4

def k1_chk5 (v81 : IVec S16 32) : Prop :=
  (∀ a x, ((![v81] : Fin 1 → IVec S16 32) a x).toNat < S32000.size a)
instance k1_chk5.dec : ∀ (v81 : IVec S16 32), Decidable (k1_chk5 v81) := fun v81 => decidable_of_iff' _ (Iff.of_eq (k1_chk5.eq_1 v81))
theorem k1_idx5_inb : ∀ (v81 : IVec S16 32) (k1_hw5 : k1_chk5 v81), ∀ a x, ((![v81] : Fin 1 → IVec S16 32) a x).toNat < S32000.size a := fun v81 k1_hw5 => k1_hw5

def k1_chk6 (v84 : IVec S16 32) : Prop :=
  (∀ a x, ((![v84] : Fin 1 → IVec S16 32) a x).toNat < S32000.size a)
instance k1_chk6.dec : ∀ (v84 : IVec S16 32), Decidable (k1_chk6 v84) := fun v84 => decidable_of_iff' _ (Iff.of_eq (k1_chk6.eq_1 v84))
theorem k1_idx6_inb : ∀ (v84 : IVec S16 32) (k1_hw6 : k1_chk6 v84), ∀ a x, ((![v84] : Fin 1 → IVec S16 32) a x).toNat < S32000.size a := fun v84 k1_hw6 => k1_hw6

def k1_chk7 (v87 : IVec S16 32) : Prop :=
  (∀ a x, ((![v87] : Fin 1 → IVec S16 32) a x).toNat < S32000.size a)
instance k1_chk7.dec : ∀ (v87 : IVec S16 32), Decidable (k1_chk7 v87) := fun v87 => decidable_of_iff' _ (Iff.of_eq (k1_chk7.eq_1 v87))
theorem k1_idx7_inb : ∀ (v87 : IVec S16 32) (k1_hw7 : k1_chk7 v87), ∀ a x, ((![v87] : Fin 1 → IVec S16 32) a x).toNat < S32000.size a := fun v87 k1_hw7 => k1_hw7

def k1_chk8 (v90 : IVec S16 32) : Prop :=
  (∀ a x, ((![v90] : Fin 1 → IVec S16 32) a x).toNat < S32000.size a)
instance k1_chk8.dec : ∀ (v90 : IVec S16 32), Decidable (k1_chk8 v90) := fun v90 => decidable_of_iff' _ (Iff.of_eq (k1_chk8.eq_1 v90))
theorem k1_idx8_inb : ∀ (v90 : IVec S16 32) (k1_hw8 : k1_chk8 v90), ∀ a x, ((![v90] : Fin 1 → IVec S16 32) a x).toNat < S32000.size a := fun v90 k1_hw8 => k1_hw8

def k1_chk9 (v93 : IVec S16 32) : Prop :=
  (∀ a x, ((![v93] : Fin 1 → IVec S16 32) a x).toNat < S32000.size a)
instance k1_chk9.dec : ∀ (v93 : IVec S16 32), Decidable (k1_chk9 v93) := fun v93 => decidable_of_iff' _ (Iff.of_eq (k1_chk9.eq_1 v93))
theorem k1_idx9_inb : ∀ (v93 : IVec S16 32) (k1_hw9 : k1_chk9 v93), ∀ a x, ((![v93] : Fin 1 → IVec S16 32) a x).toNat < S32000.size a := fun v93 k1_hw9 => k1_hw9

def k1_chk10 (v96 : IVec S16 32) : Prop :=
  (∀ a x, ((![v96] : Fin 1 → IVec S16 32) a x).toNat < S32000.size a)
instance k1_chk10.dec : ∀ (v96 : IVec S16 32), Decidable (k1_chk10 v96) := fun v96 => decidable_of_iff' _ (Iff.of_eq (k1_chk10.eq_1 v96))
theorem k1_idx10_inb : ∀ (v96 : IVec S16 32) (k1_hw10 : k1_chk10 v96), ∀ a x, ((![v96] : Fin 1 → IVec S16 32) a x).toNat < S32000.size a := fun v96 k1_hw10 => k1_hw10

def k1_chk11 (v99 : IVec S16 32) : Prop :=
  (∀ a x, ((![v99] : Fin 1 → IVec S16 32) a x).toNat < S32000.size a)
instance k1_chk11.dec : ∀ (v99 : IVec S16 32), Decidable (k1_chk11 v99) := fun v99 => decidable_of_iff' _ (Iff.of_eq (k1_chk11.eq_1 v99))
theorem k1_idx11_inb : ∀ (v99 : IVec S16 32) (k1_hw11 : k1_chk11 v99), ∀ a x, ((![v99] : Fin 1 → IVec S16 32) a x).toNat < S32000.size a := fun v99 k1_hw11 => k1_hw11

def k1_chk12 (v102 : IVec S16 32) : Prop :=
  (∀ a x, ((![v102] : Fin 1 → IVec S16 32) a x).toNat < S32000.size a)
instance k1_chk12.dec : ∀ (v102 : IVec S16 32), Decidable (k1_chk12 v102) := fun v102 => decidable_of_iff' _ (Iff.of_eq (k1_chk12.eq_1 v102))
theorem k1_idx12_inb : ∀ (v102 : IVec S16 32) (k1_hw12 : k1_chk12 v102), ∀ a x, ((![v102] : Fin 1 → IVec S16 32) a x).toNat < S32000.size a := fun v102 k1_hw12 => k1_hw12

def k1_chk13 (v105 : IVec S16 32) : Prop :=
  (∀ a x, ((![v105] : Fin 1 → IVec S16 32) a x).toNat < S32000.size a)
instance k1_chk13.dec : ∀ (v105 : IVec S16 32), Decidable (k1_chk13 v105) := fun v105 => decidable_of_iff' _ (Iff.of_eq (k1_chk13.eq_1 v105))
theorem k1_idx13_inb : ∀ (v105 : IVec S16 32) (k1_hw13 : k1_chk13 v105), ∀ a x, ((![v105] : Fin 1 → IVec S16 32) a x).toNat < S32000.size a := fun v105 k1_hw13 => k1_hw13

def k1_chk14 (v108 : IVec S16 32) : Prop :=
  (∀ a x, ((![v108] : Fin 1 → IVec S16 32) a x).toNat < S32000.size a)
instance k1_chk14.dec : ∀ (v108 : IVec S16 32), Decidable (k1_chk14 v108) := fun v108 => decidable_of_iff' _ (Iff.of_eq (k1_chk14.eq_1 v108))
theorem k1_idx14_inb : ∀ (v108 : IVec S16 32) (k1_hw14 : k1_chk14 v108), ∀ a x, ((![v108] : Fin 1 → IVec S16 32) a x).toNat < S32000.size a := fun v108 k1_hw14 => k1_hw14

def k1_chk15 (v111 : IVec S16 32) : Prop :=
  (∀ a x, ((![v111] : Fin 1 → IVec S16 32) a x).toNat < S32000.size a)
instance k1_chk15.dec : ∀ (v111 : IVec S16 32), Decidable (k1_chk15 v111) := fun v111 => decidable_of_iff' _ (Iff.of_eq (k1_chk15.eq_1 v111))
theorem k1_idx15_inb : ∀ (v111 : IVec S16 32) (k1_hw15 : k1_chk15 v111), ∀ a x, ((![v111] : Fin 1 → IVec S16 32) a x).toNat < S32000.size a := fun v111 k1_hw15 => k1_hw15

def k1_chk16 (v114 : IVec S16 32) : Prop :=
  (∀ a x, ((![v114] : Fin 1 → IVec S16 32) a x).toNat < S32000.size a)
instance k1_chk16.dec : ∀ (v114 : IVec S16 32), Decidable (k1_chk16 v114) := fun v114 => decidable_of_iff' _ (Iff.of_eq (k1_chk16.eq_1 v114))
theorem k1_idx16_inb : ∀ (v114 : IVec S16 32) (k1_hw16 : k1_chk16 v114), ∀ a x, ((![v114] : Fin 1 → IVec S16 32) a x).toNat < S32000.size a := fun v114 k1_hw16 => k1_hw16

def k1_chk17 (v117 : IVec S16 32) : Prop :=
  (∀ a x, ((![v117] : Fin 1 → IVec S16 32) a x).toNat < S32000.size a)
instance k1_chk17.dec : ∀ (v117 : IVec S16 32), Decidable (k1_chk17 v117) := fun v117 => decidable_of_iff' _ (Iff.of_eq (k1_chk17.eq_1 v117))
theorem k1_idx17_inb : ∀ (v117 : IVec S16 32) (k1_hw17 : k1_chk17 v117), ∀ a x, ((![v117] : Fin 1 → IVec S16 32) a x).toNat < S32000.size a := fun v117 k1_hw17 => k1_hw17

def k1_chk18 (v120 : IVec S16 32) : Prop :=
  (∀ a x, ((![v120] : Fin 1 → IVec S16 32) a x).toNat < S32000.size a)
instance k1_chk18.dec : ∀ (v120 : IVec S16 32), Decidable (k1_chk18 v120) := fun v120 => decidable_of_iff' _ (Iff.of_eq (k1_chk18.eq_1 v120))
theorem k1_idx18_inb : ∀ (v120 : IVec S16 32) (k1_hw18 : k1_chk18 v120), ∀ a x, ((![v120] : Fin 1 → IVec S16 32) a x).toNat < S32000.size a := fun v120 k1_hw18 => k1_hw18

def k1_chk19 (v123 : IVec S16 32) : Prop :=
  (∀ a x, ((![v123] : Fin 1 → IVec S16 32) a x).toNat < S32000.size a)
instance k1_chk19.dec : ∀ (v123 : IVec S16 32), Decidable (k1_chk19 v123) := fun v123 => decidable_of_iff' _ (Iff.of_eq (k1_chk19.eq_1 v123))
theorem k1_idx19_inb : ∀ (v123 : IVec S16 32) (k1_hw19 : k1_chk19 v123), ∀ a x, ((![v123] : Fin 1 → IVec S16 32) a x).toNat < S32000.size a := fun v123 k1_hw19 => k1_hw19

def k1_chk20 (v126 : IVec S16 32) : Prop :=
  (∀ a x, ((![v126] : Fin 1 → IVec S16 32) a x).toNat < S32000.size a)
instance k1_chk20.dec : ∀ (v126 : IVec S16 32), Decidable (k1_chk20 v126) := fun v126 => decidable_of_iff' _ (Iff.of_eq (k1_chk20.eq_1 v126))
theorem k1_idx20_inb : ∀ (v126 : IVec S16 32) (k1_hw20 : k1_chk20 v126), ∀ a x, ((![v126] : Fin 1 → IVec S16 32) a x).toNat < S32000.size a := fun v126 k1_hw20 => k1_hw20

def k1_chk21 (v129 : IVec S16 32) : Prop :=
  (∀ a x, ((![v129] : Fin 1 → IVec S16 32) a x).toNat < S32000.size a)
instance k1_chk21.dec : ∀ (v129 : IVec S16 32), Decidable (k1_chk21 v129) := fun v129 => decidable_of_iff' _ (Iff.of_eq (k1_chk21.eq_1 v129))
theorem k1_idx21_inb : ∀ (v129 : IVec S16 32) (k1_hw21 : k1_chk21 v129), ∀ a x, ((![v129] : Fin 1 → IVec S16 32) a x).toNat < S32000.size a := fun v129 k1_hw21 => k1_hw21

def k1_chk22 (v132 : IVec S16 32) : Prop :=
  (∀ a x, ((![v132] : Fin 1 → IVec S16 32) a x).toNat < S32000.size a)
instance k1_chk22.dec : ∀ (v132 : IVec S16 32), Decidable (k1_chk22 v132) := fun v132 => decidable_of_iff' _ (Iff.of_eq (k1_chk22.eq_1 v132))
theorem k1_idx22_inb : ∀ (v132 : IVec S16 32) (k1_hw22 : k1_chk22 v132), ∀ a x, ((![v132] : Fin 1 → IVec S16 32) a x).toNat < S32000.size a := fun v132 k1_hw22 => k1_hw22

def k1_chk23 (v135 : IVec S16 32) : Prop :=
  (∀ a x, ((![v135] : Fin 1 → IVec S16 32) a x).toNat < S32000.size a)
instance k1_chk23.dec : ∀ (v135 : IVec S16 32), Decidable (k1_chk23 v135) := fun v135 => decidable_of_iff' _ (Iff.of_eq (k1_chk23.eq_1 v135))
theorem k1_idx23_inb : ∀ (v135 : IVec S16 32) (k1_hw23 : k1_chk23 v135), ∀ a x, ((![v135] : Fin 1 → IVec S16 32) a x).toNat < S32000.size a := fun v135 k1_hw23 => k1_hw23

def k1_chk24 (v138 : IVec S16 32) : Prop :=
  (∀ a x, ((![v138] : Fin 1 → IVec S16 32) a x).toNat < S32000.size a)
instance k1_chk24.dec : ∀ (v138 : IVec S16 32), Decidable (k1_chk24 v138) := fun v138 => decidable_of_iff' _ (Iff.of_eq (k1_chk24.eq_1 v138))
theorem k1_idx24_inb : ∀ (v138 : IVec S16 32) (k1_hw24 : k1_chk24 v138), ∀ a x, ((![v138] : Fin 1 → IVec S16 32) a x).toNat < S32000.size a := fun v138 k1_hw24 => k1_hw24

def k1_chk25 (v141 : IVec S16 32) : Prop :=
  (∀ a x, ((![v141] : Fin 1 → IVec S16 32) a x).toNat < S32000.size a)
instance k1_chk25.dec : ∀ (v141 : IVec S16 32), Decidable (k1_chk25 v141) := fun v141 => decidable_of_iff' _ (Iff.of_eq (k1_chk25.eq_1 v141))
theorem k1_idx25_inb : ∀ (v141 : IVec S16 32) (k1_hw25 : k1_chk25 v141), ∀ a x, ((![v141] : Fin 1 → IVec S16 32) a x).toNat < S32000.size a := fun v141 k1_hw25 => k1_hw25

def k1_chk26 (v144 : IVec S16 32) : Prop :=
  (∀ a x, ((![v144] : Fin 1 → IVec S16 32) a x).toNat < S32000.size a)
instance k1_chk26.dec : ∀ (v144 : IVec S16 32), Decidable (k1_chk26 v144) := fun v144 => decidable_of_iff' _ (Iff.of_eq (k1_chk26.eq_1 v144))
theorem k1_idx26_inb : ∀ (v144 : IVec S16 32) (k1_hw26 : k1_chk26 v144), ∀ a x, ((![v144] : Fin 1 → IVec S16 32) a x).toNat < S32000.size a := fun v144 k1_hw26 => k1_hw26

def k1_chk27 (v147 : IVec S16 32) : Prop :=
  (∀ a x, ((![v147] : Fin 1 → IVec S16 32) a x).toNat < S32000.size a)
instance k1_chk27.dec : ∀ (v147 : IVec S16 32), Decidable (k1_chk27 v147) := fun v147 => decidable_of_iff' _ (Iff.of_eq (k1_chk27.eq_1 v147))
theorem k1_idx27_inb : ∀ (v147 : IVec S16 32) (k1_hw27 : k1_chk27 v147), ∀ a x, ((![v147] : Fin 1 → IVec S16 32) a x).toNat < S32000.size a := fun v147 k1_hw27 => k1_hw27

def k1_chk28 (v150 : IVec S16 32) : Prop :=
  (∀ a x, ((![v150] : Fin 1 → IVec S16 32) a x).toNat < S32000.size a)
instance k1_chk28.dec : ∀ (v150 : IVec S16 32), Decidable (k1_chk28 v150) := fun v150 => decidable_of_iff' _ (Iff.of_eq (k1_chk28.eq_1 v150))
theorem k1_idx28_inb : ∀ (v150 : IVec S16 32) (k1_hw28 : k1_chk28 v150), ∀ a x, ((![v150] : Fin 1 → IVec S16 32) a x).toNat < S32000.size a := fun v150 k1_hw28 => k1_hw28

def k1_chk29 (v153 : IVec S16 32) : Prop :=
  (∀ a x, ((![v153] : Fin 1 → IVec S16 32) a x).toNat < S32000.size a)
instance k1_chk29.dec : ∀ (v153 : IVec S16 32), Decidable (k1_chk29 v153) := fun v153 => decidable_of_iff' _ (Iff.of_eq (k1_chk29.eq_1 v153))
theorem k1_idx29_inb : ∀ (v153 : IVec S16 32) (k1_hw29 : k1_chk29 v153), ∀ a x, ((![v153] : Fin 1 → IVec S16 32) a x).toNat < S32000.size a := fun v153 k1_hw29 => k1_hw29

def k1_chk30 (v156 : IVec S16 32) : Prop :=
  (∀ a x, ((![v156] : Fin 1 → IVec S16 32) a x).toNat < S32000.size a)
instance k1_chk30.dec : ∀ (v156 : IVec S16 32), Decidable (k1_chk30 v156) := fun v156 => decidable_of_iff' _ (Iff.of_eq (k1_chk30.eq_1 v156))
theorem k1_idx30_inb : ∀ (v156 : IVec S16 32) (k1_hw30 : k1_chk30 v156), ∀ a x, ((![v156] : Fin 1 → IVec S16 32) a x).toNat < S32000.size a := fun v156 k1_hw30 => k1_hw30

def k1_chk31 (v159 : IVec S16 32) : Prop :=
  (∀ a x, ((![v159] : Fin 1 → IVec S16 32) a x).toNat < S32000.size a)
instance k1_chk31.dec : ∀ (v159 : IVec S16 32), Decidable (k1_chk31 v159) := fun v159 => decidable_of_iff' _ (Iff.of_eq (k1_chk31.eq_1 v159))
theorem k1_idx31_inb : ∀ (v159 : IVec S16 32) (k1_hw31 : k1_chk31 v159), ∀ a x, ((![v159] : Fin 1 → IVec S16 32) a x).toNat < S32000.size a := fun v159 k1_hw31 => k1_hw31

def k1_chk32 (v162 : IVec S16 32) : Prop :=
  (∀ a x, ((![v162] : Fin 1 → IVec S16 32) a x).toNat < S32000.size a)
instance k1_chk32.dec : ∀ (v162 : IVec S16 32), Decidable (k1_chk32 v162) := fun v162 => decidable_of_iff' _ (Iff.of_eq (k1_chk32.eq_1 v162))
theorem k1_idx32_inb : ∀ (v162 : IVec S16 32) (k1_hw32 : k1_chk32 v162), ∀ a x, ((![v162] : Fin 1 → IVec S16 32) a x).toNat < S32000.size a := fun v162 k1_hw32 => k1_hw32
def k1_off4 (k1_t2 : Fin k1_t2_loop.trips) : Fin 2 → Nat :=
  let c0_i32_83 : BitVec 32 := 0#32
  let v165 : Index := Scalar.indexCast c0_i32_83
  let c0_i32_63 : BitVec 32 := 0#32
  let c1_i32_64 : BitVec 32 := 1#32
  let arg16 : BitVec 32 := Scf.iv c0_i32_63 c1_i32_64 k1_t2
  let c16_i32_82 : BitVec 32 := 16#32
  let v164 : BitVec 32 := Scalar.muli arg16 c16_i32_82
  let v166 : Index := Scalar.indexCast v164
  ![0, v166.toNat]
def k1_off5 (k1_t2 : Fin k1_t2_loop.trips) : Fin 2 → Nat :=
  let c1_i32_85 : BitVec 32 := 1#32
  let v169 : Index := Scalar.indexCast c1_i32_85
  let c0_i32_63 : BitVec 32 := 0#32
  let c1_i32_64 : BitVec 32 := 1#32
  let arg16 : BitVec 32 := Scf.iv c0_i32_63 c1_i32_64 k1_t2
  let c16_i32_84 : BitVec 32 := 16#32
  let v168 : BitVec 32 := Scalar.muli arg16 c16_i32_84
  let v170 : Index := Scalar.indexCast v168
  ![1, v170.toNat]
def k1_off6 (k1_t2 : Fin k1_t2_loop.trips) : Fin 2 → Nat :=
  let c2_i32_87 : BitVec 32 := 2#32
  let v173 : Index := Scalar.indexCast c2_i32_87
  let c0_i32_63 : BitVec 32 := 0#32
  let c1_i32_64 : BitVec 32 := 1#32
  let arg16 : BitVec 32 := Scf.iv c0_i32_63 c1_i32_64 k1_t2
  let c16_i32_86 : BitVec 32 := 16#32
  let v172 : BitVec 32 := Scalar.muli arg16 c16_i32_86
  let v174 : Index := Scalar.indexCast v172
  ![2, v174.toNat]
def k1_off7 (k1_t2 : Fin k1_t2_loop.trips) : Fin 2 → Nat :=
  let c3_i32 : BitVec 32 := 3#32
  let v177 : Index := Scalar.indexCast c3_i32
  let c0_i32_63 : BitVec 32 := 0#32
  let c1_i32_64 : BitVec 32 := 1#32
  let arg16 : BitVec 32 := Scf.iv c0_i32_63 c1_i32_64 k1_t2
  let c16_i32_88 : BitVec 32 := 16#32
  let v176 : BitVec 32 := Scalar.muli arg16 c16_i32_88
  let v178 : Index := Scalar.indexCast v176
  ![3, v178.toNat]
def k1_off8 (k1_t2 : Fin k1_t2_loop.trips) : Fin 2 → Nat :=
  let c4_i32 : BitVec 32 := 4#32
  let v181 : Index := Scalar.indexCast c4_i32
  let c0_i32_63 : BitVec 32 := 0#32
  let c1_i32_64 : BitVec 32 := 1#32
  let arg16 : BitVec 32 := Scf.iv c0_i32_63 c1_i32_64 k1_t2
  let c16_i32_89 : BitVec 32 := 16#32
  let v180 : BitVec 32 := Scalar.muli arg16 c16_i32_89
  let v182 : Index := Scalar.indexCast v180
  ![4, v182.toNat]
def k1_off9 (k1_t2 : Fin k1_t2_loop.trips) : Fin 2 → Nat :=
  let c5_i32 : BitVec 32 := 5#32
  let v185 : Index := Scalar.indexCast c5_i32
  let c0_i32_63 : BitVec 32 := 0#32
  let c1_i32_64 : BitVec 32 := 1#32
  let arg16 : BitVec 32 := Scf.iv c0_i32_63 c1_i32_64 k1_t2
  let c16_i32_90 : BitVec 32 := 16#32
  let v184 : BitVec 32 := Scalar.muli arg16 c16_i32_90
  let v186 : Index := Scalar.indexCast v184
  ![5, v186.toNat]
def k1_off10 (k1_t2 : Fin k1_t2_loop.trips) : Fin 2 → Nat :=
  let c6_i32 : BitVec 32 := 6#32
  let v189 : Index := Scalar.indexCast c6_i32
  let c0_i32_63 : BitVec 32 := 0#32
  let c1_i32_64 : BitVec 32 := 1#32
  let arg16 : BitVec 32 := Scf.iv c0_i32_63 c1_i32_64 k1_t2
  let c16_i32_91 : BitVec 32 := 16#32
  let v188 : BitVec 32 := Scalar.muli arg16 c16_i32_91
  let v190 : Index := Scalar.indexCast v188
  ![6, v190.toNat]
def k1_off11 (k1_t2 : Fin k1_t2_loop.trips) : Fin 2 → Nat :=
  let c7_i32 : BitVec 32 := 7#32
  let v193 : Index := Scalar.indexCast c7_i32
  let c0_i32_63 : BitVec 32 := 0#32
  let c1_i32_64 : BitVec 32 := 1#32
  let arg16 : BitVec 32 := Scf.iv c0_i32_63 c1_i32_64 k1_t2
  let c16_i32_92 : BitVec 32 := 16#32
  let v192 : BitVec 32 := Scalar.muli arg16 c16_i32_92
  let v194 : Index := Scalar.indexCast v192
  ![7, v194.toNat]
def k1_off12 (k1_t2 : Fin k1_t2_loop.trips) : Fin 2 → Nat :=
  let c8_i32 : BitVec 32 := 8#32
  let v197 : Index := Scalar.indexCast c8_i32
  let c0_i32_63 : BitVec 32 := 0#32
  let c1_i32_64 : BitVec 32 := 1#32
  let arg16 : BitVec 32 := Scf.iv c0_i32_63 c1_i32_64 k1_t2
  let c16_i32_93 : BitVec 32 := 16#32
  let v196 : BitVec 32 := Scalar.muli arg16 c16_i32_93
  let v198 : Index := Scalar.indexCast v196
  ![8, v198.toNat]
def k1_off13 (k1_t2 : Fin k1_t2_loop.trips) : Fin 2 → Nat :=
  let c9_i32 : BitVec 32 := 9#32
  let v201 : Index := Scalar.indexCast c9_i32
  let c0_i32_63 : BitVec 32 := 0#32
  let c1_i32_64 : BitVec 32 := 1#32
  let arg16 : BitVec 32 := Scf.iv c0_i32_63 c1_i32_64 k1_t2
  let c16_i32_94 : BitVec 32 := 16#32
  let v200 : BitVec 32 := Scalar.muli arg16 c16_i32_94
  let v202 : Index := Scalar.indexCast v200
  ![9, v202.toNat]
def k1_off14 (k1_t2 : Fin k1_t2_loop.trips) : Fin 2 → Nat :=
  let c10_i32 : BitVec 32 := 10#32
  let v205 : Index := Scalar.indexCast c10_i32
  let c0_i32_63 : BitVec 32 := 0#32
  let c1_i32_64 : BitVec 32 := 1#32
  let arg16 : BitVec 32 := Scf.iv c0_i32_63 c1_i32_64 k1_t2
  let c16_i32_95 : BitVec 32 := 16#32
  let v204 : BitVec 32 := Scalar.muli arg16 c16_i32_95
  let v206 : Index := Scalar.indexCast v204
  ![10, v206.toNat]
def k1_off15 (k1_t2 : Fin k1_t2_loop.trips) : Fin 2 → Nat :=
  let c11_i32 : BitVec 32 := 11#32
  let v209 : Index := Scalar.indexCast c11_i32
  let c0_i32_63 : BitVec 32 := 0#32
  let c1_i32_64 : BitVec 32 := 1#32
  let arg16 : BitVec 32 := Scf.iv c0_i32_63 c1_i32_64 k1_t2
  let c16_i32_96 : BitVec 32 := 16#32
  let v208 : BitVec 32 := Scalar.muli arg16 c16_i32_96
  let v210 : Index := Scalar.indexCast v208
  ![11, v210.toNat]
def k1_off16 (k1_t2 : Fin k1_t2_loop.trips) : Fin 2 → Nat :=
  let c12_i32 : BitVec 32 := 12#32
  let v213 : Index := Scalar.indexCast c12_i32
  let c0_i32_63 : BitVec 32 := 0#32
  let c1_i32_64 : BitVec 32 := 1#32
  let arg16 : BitVec 32 := Scf.iv c0_i32_63 c1_i32_64 k1_t2
  let c16_i32_97 : BitVec 32 := 16#32
  let v212 : BitVec 32 := Scalar.muli arg16 c16_i32_97
  let v214 : Index := Scalar.indexCast v212
  ![12, v214.toNat]
def k1_off17 (k1_t2 : Fin k1_t2_loop.trips) : Fin 2 → Nat :=
  let c13_i32 : BitVec 32 := 13#32
  let v217 : Index := Scalar.indexCast c13_i32
  let c0_i32_63 : BitVec 32 := 0#32
  let c1_i32_64 : BitVec 32 := 1#32
  let arg16 : BitVec 32 := Scf.iv c0_i32_63 c1_i32_64 k1_t2
  let c16_i32_98 : BitVec 32 := 16#32
  let v216 : BitVec 32 := Scalar.muli arg16 c16_i32_98
  let v218 : Index := Scalar.indexCast v216
  ![13, v218.toNat]
def k1_off18 (k1_t2 : Fin k1_t2_loop.trips) : Fin 2 → Nat :=
  let c14_i32 : BitVec 32 := 14#32
  let v221 : Index := Scalar.indexCast c14_i32
  let c0_i32_63 : BitVec 32 := 0#32
  let c1_i32_64 : BitVec 32 := 1#32
  let arg16 : BitVec 32 := Scf.iv c0_i32_63 c1_i32_64 k1_t2
  let c16_i32_99 : BitVec 32 := 16#32
  let v220 : BitVec 32 := Scalar.muli arg16 c16_i32_99
  let v222 : Index := Scalar.indexCast v220
  ![14, v222.toNat]
def k1_off19 (k1_t2 : Fin k1_t2_loop.trips) : Fin 2 → Nat :=
  let c15_i32 : BitVec 32 := 15#32
  let v225 : Index := Scalar.indexCast c15_i32
  let c0_i32_63 : BitVec 32 := 0#32
  let c1_i32_64 : BitVec 32 := 1#32
  let arg16 : BitVec 32 := Scf.iv c0_i32_63 c1_i32_64 k1_t2
  let c16_i32_100 : BitVec 32 := 16#32
  let v224 : BitVec 32 := Scalar.muli arg16 c16_i32_100
  let v226 : Index := Scalar.indexCast v224
  ![15, v226.toNat]
def k1_off20 (k1_t2 : Fin k1_t2_loop.trips) : Fin 2 → Nat :=
  let c16_i32_102 : BitVec 32 := 16#32
  let v229 : Index := Scalar.indexCast c16_i32_102
  let c0_i32_63 : BitVec 32 := 0#32
  let c1_i32_64 : BitVec 32 := 1#32
  let arg16 : BitVec 32 := Scf.iv c0_i32_63 c1_i32_64 k1_t2
  let c16_i32_101 : BitVec 32 := 16#32
  let v228 : BitVec 32 := Scalar.muli arg16 c16_i32_101
  let v230 : Index := Scalar.indexCast v228
  ![16, v230.toNat]
def k1_off21 (k1_t2 : Fin k1_t2_loop.trips) : Fin 2 → Nat :=
  let c17_i32 : BitVec 32 := 17#32
  let v233 : Index := Scalar.indexCast c17_i32
  let c0_i32_63 : BitVec 32 := 0#32
  let c1_i32_64 : BitVec 32 := 1#32
  let arg16 : BitVec 32 := Scf.iv c0_i32_63 c1_i32_64 k1_t2
  let c16_i32_103 : BitVec 32 := 16#32
  let v232 : BitVec 32 := Scalar.muli arg16 c16_i32_103
  let v234 : Index := Scalar.indexCast v232
  ![17, v234.toNat]
def k1_off22 (k1_t2 : Fin k1_t2_loop.trips) : Fin 2 → Nat :=
  let c18_i32 : BitVec 32 := 18#32
  let v237 : Index := Scalar.indexCast c18_i32
  let c0_i32_63 : BitVec 32 := 0#32
  let c1_i32_64 : BitVec 32 := 1#32
  let arg16 : BitVec 32 := Scf.iv c0_i32_63 c1_i32_64 k1_t2
  let c16_i32_104 : BitVec 32 := 16#32
  let v236 : BitVec 32 := Scalar.muli arg16 c16_i32_104
  let v238 : Index := Scalar.indexCast v236
  ![18, v238.toNat]
def k1_off23 (k1_t2 : Fin k1_t2_loop.trips) : Fin 2 → Nat :=
  let c19_i32 : BitVec 32 := 19#32
  let v241 : Index := Scalar.indexCast c19_i32
  let c0_i32_63 : BitVec 32 := 0#32
  let c1_i32_64 : BitVec 32 := 1#32
  let arg16 : BitVec 32 := Scf.iv c0_i32_63 c1_i32_64 k1_t2
  let c16_i32_105 : BitVec 32 := 16#32
  let v240 : BitVec 32 := Scalar.muli arg16 c16_i32_105
  let v242 : Index := Scalar.indexCast v240
  ![19, v242.toNat]
def k1_off24 (k1_t2 : Fin k1_t2_loop.trips) : Fin 2 → Nat :=
  let c20_i32 : BitVec 32 := 20#32
  let v245 : Index := Scalar.indexCast c20_i32
  let c0_i32_63 : BitVec 32 := 0#32
  let c1_i32_64 : BitVec 32 := 1#32
  let arg16 : BitVec 32 := Scf.iv c0_i32_63 c1_i32_64 k1_t2
  let c16_i32_106 : BitVec 32 := 16#32
  let v244 : BitVec 32 := Scalar.muli arg16 c16_i32_106
  let v246 : Index := Scalar.indexCast v244
  ![20, v246.toNat]
def k1_off25 (k1_t2 : Fin k1_t2_loop.trips) : Fin 2 → Nat :=
  let c21_i32 : BitVec 32 := 21#32
  let v249 : Index := Scalar.indexCast c21_i32
  let c0_i32_63 : BitVec 32 := 0#32
  let c1_i32_64 : BitVec 32 := 1#32
  let arg16 : BitVec 32 := Scf.iv c0_i32_63 c1_i32_64 k1_t2
  let c16_i32_107 : BitVec 32 := 16#32
  let v248 : BitVec 32 := Scalar.muli arg16 c16_i32_107
  let v250 : Index := Scalar.indexCast v248
  ![21, v250.toNat]
def k1_off26 (k1_t2 : Fin k1_t2_loop.trips) : Fin 2 → Nat :=
  let c22_i32 : BitVec 32 := 22#32
  let v253 : Index := Scalar.indexCast c22_i32
  let c0_i32_63 : BitVec 32 := 0#32
  let c1_i32_64 : BitVec 32 := 1#32
  let arg16 : BitVec 32 := Scf.iv c0_i32_63 c1_i32_64 k1_t2
  let c16_i32_108 : BitVec 32 := 16#32
  let v252 : BitVec 32 := Scalar.muli arg16 c16_i32_108
  let v254 : Index := Scalar.indexCast v252
  ![22, v254.toNat]
def k1_off27 (k1_t2 : Fin k1_t2_loop.trips) : Fin 2 → Nat :=
  let c23_i32 : BitVec 32 := 23#32
  let v257 : Index := Scalar.indexCast c23_i32
  let c0_i32_63 : BitVec 32 := 0#32
  let c1_i32_64 : BitVec 32 := 1#32
  let arg16 : BitVec 32 := Scf.iv c0_i32_63 c1_i32_64 k1_t2
  let c16_i32_109 : BitVec 32 := 16#32
  let v256 : BitVec 32 := Scalar.muli arg16 c16_i32_109
  let v258 : Index := Scalar.indexCast v256
  ![23, v258.toNat]
def k1_off28 (k1_t2 : Fin k1_t2_loop.trips) : Fin 2 → Nat :=
  let c24_i32 : BitVec 32 := 24#32
  let v261 : Index := Scalar.indexCast c24_i32
  let c0_i32_63 : BitVec 32 := 0#32
  let c1_i32_64 : BitVec 32 := 1#32
  let arg16 : BitVec 32 := Scf.iv c0_i32_63 c1_i32_64 k1_t2
  let c16_i32_110 : BitVec 32 := 16#32
  let v260 : BitVec 32 := Scalar.muli arg16 c16_i32_110
  let v262 : Index := Scalar.indexCast v260
  ![24, v262.toNat]
def k1_off29 (k1_t2 : Fin k1_t2_loop.trips) : Fin 2 → Nat :=
  let c25_i32 : BitVec 32 := 25#32
  let v265 : Index := Scalar.indexCast c25_i32
  let c0_i32_63 : BitVec 32 := 0#32
  let c1_i32_64 : BitVec 32 := 1#32
  let arg16 : BitVec 32 := Scf.iv c0_i32_63 c1_i32_64 k1_t2
  let c16_i32_111 : BitVec 32 := 16#32
  let v264 : BitVec 32 := Scalar.muli arg16 c16_i32_111
  let v266 : Index := Scalar.indexCast v264
  ![25, v266.toNat]
def k1_off30 (k1_t2 : Fin k1_t2_loop.trips) : Fin 2 → Nat :=
  let c26_i32 : BitVec 32 := 26#32
  let v269 : Index := Scalar.indexCast c26_i32
  let c0_i32_63 : BitVec 32 := 0#32
  let c1_i32_64 : BitVec 32 := 1#32
  let arg16 : BitVec 32 := Scf.iv c0_i32_63 c1_i32_64 k1_t2
  let c16_i32_112 : BitVec 32 := 16#32
  let v268 : BitVec 32 := Scalar.muli arg16 c16_i32_112
  let v270 : Index := Scalar.indexCast v268
  ![26, v270.toNat]
def k1_off31 (k1_t2 : Fin k1_t2_loop.trips) : Fin 2 → Nat :=
  let c27_i32 : BitVec 32 := 27#32
  let v273 : Index := Scalar.indexCast c27_i32
  let c0_i32_63 : BitVec 32 := 0#32
  let c1_i32_64 : BitVec 32 := 1#32
  let arg16 : BitVec 32 := Scf.iv c0_i32_63 c1_i32_64 k1_t2
  let c16_i32_113 : BitVec 32 := 16#32
  let v272 : BitVec 32 := Scalar.muli arg16 c16_i32_113
  let v274 : Index := Scalar.indexCast v272
  ![27, v274.toNat]
def k1_off32 (k1_t2 : Fin k1_t2_loop.trips) : Fin 2 → Nat :=
  let c28_i32 : BitVec 32 := 28#32
  let v277 : Index := Scalar.indexCast c28_i32
  let c0_i32_63 : BitVec 32 := 0#32
  let c1_i32_64 : BitVec 32 := 1#32
  let arg16 : BitVec 32 := Scf.iv c0_i32_63 c1_i32_64 k1_t2
  let c16_i32_114 : BitVec 32 := 16#32
  let v276 : BitVec 32 := Scalar.muli arg16 c16_i32_114
  let v278 : Index := Scalar.indexCast v276
  ![28, v278.toNat]
def k1_off33 (k1_t2 : Fin k1_t2_loop.trips) : Fin 2 → Nat :=
  let c29_i32 : BitVec 32 := 29#32
  let v281 : Index := Scalar.indexCast c29_i32
  let c0_i32_63 : BitVec 32 := 0#32
  let c1_i32_64 : BitVec 32 := 1#32
  let arg16 : BitVec 32 := Scf.iv c0_i32_63 c1_i32_64 k1_t2
  let c16_i32_115 : BitVec 32 := 16#32
  let v280 : BitVec 32 := Scalar.muli arg16 c16_i32_115
  let v282 : Index := Scalar.indexCast v280
  ![29, v282.toNat]
def k1_off34 (k1_t2 : Fin k1_t2_loop.trips) : Fin 2 → Nat :=
  let c30_i32 : BitVec 32 := 30#32
  let v285 : Index := Scalar.indexCast c30_i32
  let c0_i32_63 : BitVec 32 := 0#32
  let c1_i32_64 : BitVec 32 := 1#32
  let arg16 : BitVec 32 := Scf.iv c0_i32_63 c1_i32_64 k1_t2
  let c16_i32_116 : BitVec 32 := 16#32
  let v284 : BitVec 32 := Scalar.muli arg16 c16_i32_116
  let v286 : Index := Scalar.indexCast v284
  ![30, v286.toNat]
def k1_off35 (k1_t2 : Fin k1_t2_loop.trips) : Fin 2 → Nat :=
  let c31_i32 : BitVec 32 := 31#32
  let v289 : Index := Scalar.indexCast c31_i32
  let c0_i32_63 : BitVec 32 := 0#32
  let c1_i32_64 : BitVec 32 := 1#32
  let arg16 : BitVec 32 := Scf.iv c0_i32_63 c1_i32_64 k1_t2
  let c16_i32_117 : BitVec 32 := 16#32
  let v288 : BitVec 32 := Scalar.muli arg16 c16_i32_117
  let v290 : Index := Scalar.indexCast v288
  ![31, v290.toNat]
def k1_off36 (i : grid1.Coords) (k1_t1 : Fin k1_t1_loop.trips) (c0_i32_66 : BitVec 32) : Fin 3 → Nat :=
  let c0_i32_59 : BitVec 32 := 0#32
  let c0_i32_7 : BitVec 32 := 0#32
  let c1_i32 : BitVec 32 := 1#32
  let arg14 : BitVec 32 := Scf.iv c0_i32_7 c1_i32 k1_t1
  let v41 : BitVec 32 := Scalar.addi c0_i32_59 arg14
  let c0_i32_67 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v47 : BitVec 32 := Scalar.addi v2 c0_i32_66
  ![v41.toNat, 0, v47.toNat]
@[reducible] def k1_t3_loop : Scf.Loop 32 :=
  let c0_i32_72 : BitVec 32 := 0#32
  let c16_i32_73 : BitVec 32 := 16#32
  let v55 : BitVec 32 := Scalar.addi c0_i32_72 c16_i32_73
  let c1_i32_74 : BitVec 32 := 1#32
  ⟨c0_i32_72, v55, c1_i32_74⟩
def k1_mult2 (k1_t3 : Fin k1_t3_loop.trips) : BitVec 32 :=
  let c256_i32_80 : BitVec 32 := 256#32
  let c0_i32_72 : BitVec 32 := 0#32
  let c1_i32_74 : BitVec 32 := 1#32
  let arg16 : BitVec 32 := Scf.iv c0_i32_72 c1_i32_74 k1_t3
  let c16_i32_79 : BitVec 32 := 16#32
  let v62 : BitVec 32 := Scalar.muli arg16 c16_i32_79
  let v63 : BitVec 32 := Scalar.addi c256_i32_80 v62
  v63
def k1_off37 (k1_t1 : Fin k1_t1_loop.trips) (k1_t3 : Fin k1_t3_loop.trips) : Fin 2 → Nat :=
  let c0_i32_7 : BitVec 32 := 0#32
  let c1_i32 : BitVec 32 := 1#32
  let arg14 : BitVec 32 := Scf.iv c0_i32_7 c1_i32 k1_t1
  let v65 : Index := Scalar.indexCast arg14
  let c256_i32_80 : BitVec 32 := 256#32
  let c0_i32_72 : BitVec 32 := 0#32
  let c1_i32_74 : BitVec 32 := 1#32
  let arg16 : BitVec 32 := Scf.iv c0_i32_72 c1_i32_74 k1_t3
  let c16_i32_79 : BitVec 32 := 16#32
  let v62 : BitVec 32 := Scalar.muli arg16 c16_i32_79
  let v63 : BitVec 32 := Scalar.addi c256_i32_80 v62
  let v64 : BitVec 32 := v63
  let v66 : Index := Scalar.indexCast v64
  ![v65.toNat, v66.toNat]

def k1_chk33 (v69 : IVec S16 32) : Prop :=
  (∀ a x, ((![v69] : Fin 1 → IVec S16 32) a x).toNat < S32000.size a)
instance k1_chk33.dec : ∀ (v69 : IVec S16 32), Decidable (k1_chk33 v69) := fun v69 => decidable_of_iff' _ (Iff.of_eq (k1_chk33.eq_1 v69))
theorem k1_idx33_inb : ∀ (v69 : IVec S16 32) (k1_hw33 : k1_chk33 v69), ∀ a x, ((![v69] : Fin 1 → IVec S16 32) a x).toNat < S32000.size a := fun v69 k1_hw33 => k1_hw33

def k1_chk34 (v72 : IVec S16 32) : Prop :=
  (∀ a x, ((![v72] : Fin 1 → IVec S16 32) a x).toNat < S32000.size a)
instance k1_chk34.dec : ∀ (v72 : IVec S16 32), Decidable (k1_chk34 v72) := fun v72 => decidable_of_iff' _ (Iff.of_eq (k1_chk34.eq_1 v72))
theorem k1_idx34_inb : ∀ (v72 : IVec S16 32) (k1_hw34 : k1_chk34 v72), ∀ a x, ((![v72] : Fin 1 → IVec S16 32) a x).toNat < S32000.size a := fun v72 k1_hw34 => k1_hw34

def k1_chk35 (v75 : IVec S16 32) : Prop :=
  (∀ a x, ((![v75] : Fin 1 → IVec S16 32) a x).toNat < S32000.size a)
instance k1_chk35.dec : ∀ (v75 : IVec S16 32), Decidable (k1_chk35 v75) := fun v75 => decidable_of_iff' _ (Iff.of_eq (k1_chk35.eq_1 v75))
theorem k1_idx35_inb : ∀ (v75 : IVec S16 32) (k1_hw35 : k1_chk35 v75), ∀ a x, ((![v75] : Fin 1 → IVec S16 32) a x).toNat < S32000.size a := fun v75 k1_hw35 => k1_hw35

def k1_chk36 (v78 : IVec S16 32) : Prop :=
  (∀ a x, ((![v78] : Fin 1 → IVec S16 32) a x).toNat < S32000.size a)
instance k1_chk36.dec : ∀ (v78 : IVec S16 32), Decidable (k1_chk36 v78) := fun v78 => decidable_of_iff' _ (Iff.of_eq (k1_chk36.eq_1 v78))
theorem k1_idx36_inb : ∀ (v78 : IVec S16 32) (k1_hw36 : k1_chk36 v78), ∀ a x, ((![v78] : Fin 1 → IVec S16 32) a x).toNat < S32000.size a := fun v78 k1_hw36 => k1_hw36

def k1_chk37 (v81 : IVec S16 32) : Prop :=
  (∀ a x, ((![v81] : Fin 1 → IVec S16 32) a x).toNat < S32000.size a)
instance k1_chk37.dec : ∀ (v81 : IVec S16 32), Decidable (k1_chk37 v81) := fun v81 => decidable_of_iff' _ (Iff.of_eq (k1_chk37.eq_1 v81))
theorem k1_idx37_inb : ∀ (v81 : IVec S16 32) (k1_hw37 : k1_chk37 v81), ∀ a x, ((![v81] : Fin 1 → IVec S16 32) a x).toNat < S32000.size a := fun v81 k1_hw37 => k1_hw37

def k1_chk38 (v84 : IVec S16 32) : Prop :=
  (∀ a x, ((![v84] : Fin 1 → IVec S16 32) a x).toNat < S32000.size a)
instance k1_chk38.dec : ∀ (v84 : IVec S16 32), Decidable (k1_chk38 v84) := fun v84 => decidable_of_iff' _ (Iff.of_eq (k1_chk38.eq_1 v84))
theorem k1_idx38_inb : ∀ (v84 : IVec S16 32) (k1_hw38 : k1_chk38 v84), ∀ a x, ((![v84] : Fin 1 → IVec S16 32) a x).toNat < S32000.size a := fun v84 k1_hw38 => k1_hw38

def k1_chk39 (v87 : IVec S16 32) : Prop :=
  (∀ a x, ((![v87] : Fin 1 → IVec S16 32) a x).toNat < S32000.size a)
instance k1_chk39.dec : ∀ (v87 : IVec S16 32), Decidable (k1_chk39 v87) := fun v87 => decidable_of_iff' _ (Iff.of_eq (k1_chk39.eq_1 v87))
theorem k1_idx39_inb : ∀ (v87 : IVec S16 32) (k1_hw39 : k1_chk39 v87), ∀ a x, ((![v87] : Fin 1 → IVec S16 32) a x).toNat < S32000.size a := fun v87 k1_hw39 => k1_hw39

def k1_chk40 (v90 : IVec S16 32) : Prop :=
  (∀ a x, ((![v90] : Fin 1 → IVec S16 32) a x).toNat < S32000.size a)
instance k1_chk40.dec : ∀ (v90 : IVec S16 32), Decidable (k1_chk40 v90) := fun v90 => decidable_of_iff' _ (Iff.of_eq (k1_chk40.eq_1 v90))
theorem k1_idx40_inb : ∀ (v90 : IVec S16 32) (k1_hw40 : k1_chk40 v90), ∀ a x, ((![v90] : Fin 1 → IVec S16 32) a x).toNat < S32000.size a := fun v90 k1_hw40 => k1_hw40

def k1_chk41 (v93 : IVec S16 32) : Prop :=
  (∀ a x, ((![v93] : Fin 1 → IVec S16 32) a x).toNat < S32000.size a)
instance k1_chk41.dec : ∀ (v93 : IVec S16 32), Decidable (k1_chk41 v93) := fun v93 => decidable_of_iff' _ (Iff.of_eq (k1_chk41.eq_1 v93))
theorem k1_idx41_inb : ∀ (v93 : IVec S16 32) (k1_hw41 : k1_chk41 v93), ∀ a x, ((![v93] : Fin 1 → IVec S16 32) a x).toNat < S32000.size a := fun v93 k1_hw41 => k1_hw41

def k1_chk42 (v96 : IVec S16 32) : Prop :=
  (∀ a x, ((![v96] : Fin 1 → IVec S16 32) a x).toNat < S32000.size a)
instance k1_chk42.dec : ∀ (v96 : IVec S16 32), Decidable (k1_chk42 v96) := fun v96 => decidable_of_iff' _ (Iff.of_eq (k1_chk42.eq_1 v96))
theorem k1_idx42_inb : ∀ (v96 : IVec S16 32) (k1_hw42 : k1_chk42 v96), ∀ a x, ((![v96] : Fin 1 → IVec S16 32) a x).toNat < S32000.size a := fun v96 k1_hw42 => k1_hw42

def k1_chk43 (v99 : IVec S16 32) : Prop :=
  (∀ a x, ((![v99] : Fin 1 → IVec S16 32) a x).toNat < S32000.size a)
instance k1_chk43.dec : ∀ (v99 : IVec S16 32), Decidable (k1_chk43 v99) := fun v99 => decidable_of_iff' _ (Iff.of_eq (k1_chk43.eq_1 v99))
theorem k1_idx43_inb : ∀ (v99 : IVec S16 32) (k1_hw43 : k1_chk43 v99), ∀ a x, ((![v99] : Fin 1 → IVec S16 32) a x).toNat < S32000.size a := fun v99 k1_hw43 => k1_hw43

def k1_chk44 (v102 : IVec S16 32) : Prop :=
  (∀ a x, ((![v102] : Fin 1 → IVec S16 32) a x).toNat < S32000.size a)
instance k1_chk44.dec : ∀ (v102 : IVec S16 32), Decidable (k1_chk44 v102) := fun v102 => decidable_of_iff' _ (Iff.of_eq (k1_chk44.eq_1 v102))
theorem k1_idx44_inb : ∀ (v102 : IVec S16 32) (k1_hw44 : k1_chk44 v102), ∀ a x, ((![v102] : Fin 1 → IVec S16 32) a x).toNat < S32000.size a := fun v102 k1_hw44 => k1_hw44

def k1_chk45 (v105 : IVec S16 32) : Prop :=
  (∀ a x, ((![v105] : Fin 1 → IVec S16 32) a x).toNat < S32000.size a)
instance k1_chk45.dec : ∀ (v105 : IVec S16 32), Decidable (k1_chk45 v105) := fun v105 => decidable_of_iff' _ (Iff.of_eq (k1_chk45.eq_1 v105))
theorem k1_idx45_inb : ∀ (v105 : IVec S16 32) (k1_hw45 : k1_chk45 v105), ∀ a x, ((![v105] : Fin 1 → IVec S16 32) a x).toNat < S32000.size a := fun v105 k1_hw45 => k1_hw45

def k1_chk46 (v108 : IVec S16 32) : Prop :=
  (∀ a x, ((![v108] : Fin 1 → IVec S16 32) a x).toNat < S32000.size a)
instance k1_chk46.dec : ∀ (v108 : IVec S16 32), Decidable (k1_chk46 v108) := fun v108 => decidable_of_iff' _ (Iff.of_eq (k1_chk46.eq_1 v108))
theorem k1_idx46_inb : ∀ (v108 : IVec S16 32) (k1_hw46 : k1_chk46 v108), ∀ a x, ((![v108] : Fin 1 → IVec S16 32) a x).toNat < S32000.size a := fun v108 k1_hw46 => k1_hw46

def k1_chk47 (v111 : IVec S16 32) : Prop :=
  (∀ a x, ((![v111] : Fin 1 → IVec S16 32) a x).toNat < S32000.size a)
instance k1_chk47.dec : ∀ (v111 : IVec S16 32), Decidable (k1_chk47 v111) := fun v111 => decidable_of_iff' _ (Iff.of_eq (k1_chk47.eq_1 v111))
theorem k1_idx47_inb : ∀ (v111 : IVec S16 32) (k1_hw47 : k1_chk47 v111), ∀ a x, ((![v111] : Fin 1 → IVec S16 32) a x).toNat < S32000.size a := fun v111 k1_hw47 => k1_hw47

def k1_chk48 (v114 : IVec S16 32) : Prop :=
  (∀ a x, ((![v114] : Fin 1 → IVec S16 32) a x).toNat < S32000.size a)
instance k1_chk48.dec : ∀ (v114 : IVec S16 32), Decidable (k1_chk48 v114) := fun v114 => decidable_of_iff' _ (Iff.of_eq (k1_chk48.eq_1 v114))
theorem k1_idx48_inb : ∀ (v114 : IVec S16 32) (k1_hw48 : k1_chk48 v114), ∀ a x, ((![v114] : Fin 1 → IVec S16 32) a x).toNat < S32000.size a := fun v114 k1_hw48 => k1_hw48

def k1_chk49 (v117 : IVec S16 32) : Prop :=
  (∀ a x, ((![v117] : Fin 1 → IVec S16 32) a x).toNat < S32000.size a)
instance k1_chk49.dec : ∀ (v117 : IVec S16 32), Decidable (k1_chk49 v117) := fun v117 => decidable_of_iff' _ (Iff.of_eq (k1_chk49.eq_1 v117))
theorem k1_idx49_inb : ∀ (v117 : IVec S16 32) (k1_hw49 : k1_chk49 v117), ∀ a x, ((![v117] : Fin 1 → IVec S16 32) a x).toNat < S32000.size a := fun v117 k1_hw49 => k1_hw49

def k1_chk50 (v120 : IVec S16 32) : Prop :=
  (∀ a x, ((![v120] : Fin 1 → IVec S16 32) a x).toNat < S32000.size a)
instance k1_chk50.dec : ∀ (v120 : IVec S16 32), Decidable (k1_chk50 v120) := fun v120 => decidable_of_iff' _ (Iff.of_eq (k1_chk50.eq_1 v120))
theorem k1_idx50_inb : ∀ (v120 : IVec S16 32) (k1_hw50 : k1_chk50 v120), ∀ a x, ((![v120] : Fin 1 → IVec S16 32) a x).toNat < S32000.size a := fun v120 k1_hw50 => k1_hw50

def k1_chk51 (v123 : IVec S16 32) : Prop :=
  (∀ a x, ((![v123] : Fin 1 → IVec S16 32) a x).toNat < S32000.size a)
instance k1_chk51.dec : ∀ (v123 : IVec S16 32), Decidable (k1_chk51 v123) := fun v123 => decidable_of_iff' _ (Iff.of_eq (k1_chk51.eq_1 v123))
theorem k1_idx51_inb : ∀ (v123 : IVec S16 32) (k1_hw51 : k1_chk51 v123), ∀ a x, ((![v123] : Fin 1 → IVec S16 32) a x).toNat < S32000.size a := fun v123 k1_hw51 => k1_hw51

def k1_chk52 (v126 : IVec S16 32) : Prop :=
  (∀ a x, ((![v126] : Fin 1 → IVec S16 32) a x).toNat < S32000.size a)
instance k1_chk52.dec : ∀ (v126 : IVec S16 32), Decidable (k1_chk52 v126) := fun v126 => decidable_of_iff' _ (Iff.of_eq (k1_chk52.eq_1 v126))
theorem k1_idx52_inb : ∀ (v126 : IVec S16 32) (k1_hw52 : k1_chk52 v126), ∀ a x, ((![v126] : Fin 1 → IVec S16 32) a x).toNat < S32000.size a := fun v126 k1_hw52 => k1_hw52

def k1_chk53 (v129 : IVec S16 32) : Prop :=
  (∀ a x, ((![v129] : Fin 1 → IVec S16 32) a x).toNat < S32000.size a)
instance k1_chk53.dec : ∀ (v129 : IVec S16 32), Decidable (k1_chk53 v129) := fun v129 => decidable_of_iff' _ (Iff.of_eq (k1_chk53.eq_1 v129))
theorem k1_idx53_inb : ∀ (v129 : IVec S16 32) (k1_hw53 : k1_chk53 v129), ∀ a x, ((![v129] : Fin 1 → IVec S16 32) a x).toNat < S32000.size a := fun v129 k1_hw53 => k1_hw53

def k1_chk54 (v132 : IVec S16 32) : Prop :=
  (∀ a x, ((![v132] : Fin 1 → IVec S16 32) a x).toNat < S32000.size a)
instance k1_chk54.dec : ∀ (v132 : IVec S16 32), Decidable (k1_chk54 v132) := fun v132 => decidable_of_iff' _ (Iff.of_eq (k1_chk54.eq_1 v132))
theorem k1_idx54_inb : ∀ (v132 : IVec S16 32) (k1_hw54 : k1_chk54 v132), ∀ a x, ((![v132] : Fin 1 → IVec S16 32) a x).toNat < S32000.size a := fun v132 k1_hw54 => k1_hw54

def k1_chk55 (v135 : IVec S16 32) : Prop :=
  (∀ a x, ((![v135] : Fin 1 → IVec S16 32) a x).toNat < S32000.size a)
instance k1_chk55.dec : ∀ (v135 : IVec S16 32), Decidable (k1_chk55 v135) := fun v135 => decidable_of_iff' _ (Iff.of_eq (k1_chk55.eq_1 v135))
theorem k1_idx55_inb : ∀ (v135 : IVec S16 32) (k1_hw55 : k1_chk55 v135), ∀ a x, ((![v135] : Fin 1 → IVec S16 32) a x).toNat < S32000.size a := fun v135 k1_hw55 => k1_hw55

def k1_chk56 (v138 : IVec S16 32) : Prop :=
  (∀ a x, ((![v138] : Fin 1 → IVec S16 32) a x).toNat < S32000.size a)
instance k1_chk56.dec : ∀ (v138 : IVec S16 32), Decidable (k1_chk56 v138) := fun v138 => decidable_of_iff' _ (Iff.of_eq (k1_chk56.eq_1 v138))
theorem k1_idx56_inb : ∀ (v138 : IVec S16 32) (k1_hw56 : k1_chk56 v138), ∀ a x, ((![v138] : Fin 1 → IVec S16 32) a x).toNat < S32000.size a := fun v138 k1_hw56 => k1_hw56

def k1_chk57 (v141 : IVec S16 32) : Prop :=
  (∀ a x, ((![v141] : Fin 1 → IVec S16 32) a x).toNat < S32000.size a)
instance k1_chk57.dec : ∀ (v141 : IVec S16 32), Decidable (k1_chk57 v141) := fun v141 => decidable_of_iff' _ (Iff.of_eq (k1_chk57.eq_1 v141))
theorem k1_idx57_inb : ∀ (v141 : IVec S16 32) (k1_hw57 : k1_chk57 v141), ∀ a x, ((![v141] : Fin 1 → IVec S16 32) a x).toNat < S32000.size a := fun v141 k1_hw57 => k1_hw57

def k1_chk58 (v144 : IVec S16 32) : Prop :=
  (∀ a x, ((![v144] : Fin 1 → IVec S16 32) a x).toNat < S32000.size a)
instance k1_chk58.dec : ∀ (v144 : IVec S16 32), Decidable (k1_chk58 v144) := fun v144 => decidable_of_iff' _ (Iff.of_eq (k1_chk58.eq_1 v144))
theorem k1_idx58_inb : ∀ (v144 : IVec S16 32) (k1_hw58 : k1_chk58 v144), ∀ a x, ((![v144] : Fin 1 → IVec S16 32) a x).toNat < S32000.size a := fun v144 k1_hw58 => k1_hw58

def k1_chk59 (v147 : IVec S16 32) : Prop :=
  (∀ a x, ((![v147] : Fin 1 → IVec S16 32) a x).toNat < S32000.size a)
instance k1_chk59.dec : ∀ (v147 : IVec S16 32), Decidable (k1_chk59 v147) := fun v147 => decidable_of_iff' _ (Iff.of_eq (k1_chk59.eq_1 v147))
theorem k1_idx59_inb : ∀ (v147 : IVec S16 32) (k1_hw59 : k1_chk59 v147), ∀ a x, ((![v147] : Fin 1 → IVec S16 32) a x).toNat < S32000.size a := fun v147 k1_hw59 => k1_hw59

def k1_chk60 (v150 : IVec S16 32) : Prop :=
  (∀ a x, ((![v150] : Fin 1 → IVec S16 32) a x).toNat < S32000.size a)
instance k1_chk60.dec : ∀ (v150 : IVec S16 32), Decidable (k1_chk60 v150) := fun v150 => decidable_of_iff' _ (Iff.of_eq (k1_chk60.eq_1 v150))
theorem k1_idx60_inb : ∀ (v150 : IVec S16 32) (k1_hw60 : k1_chk60 v150), ∀ a x, ((![v150] : Fin 1 → IVec S16 32) a x).toNat < S32000.size a := fun v150 k1_hw60 => k1_hw60

def k1_chk61 (v153 : IVec S16 32) : Prop :=
  (∀ a x, ((![v153] : Fin 1 → IVec S16 32) a x).toNat < S32000.size a)
instance k1_chk61.dec : ∀ (v153 : IVec S16 32), Decidable (k1_chk61 v153) := fun v153 => decidable_of_iff' _ (Iff.of_eq (k1_chk61.eq_1 v153))
theorem k1_idx61_inb : ∀ (v153 : IVec S16 32) (k1_hw61 : k1_chk61 v153), ∀ a x, ((![v153] : Fin 1 → IVec S16 32) a x).toNat < S32000.size a := fun v153 k1_hw61 => k1_hw61

def k1_chk62 (v156 : IVec S16 32) : Prop :=
  (∀ a x, ((![v156] : Fin 1 → IVec S16 32) a x).toNat < S32000.size a)
instance k1_chk62.dec : ∀ (v156 : IVec S16 32), Decidable (k1_chk62 v156) := fun v156 => decidable_of_iff' _ (Iff.of_eq (k1_chk62.eq_1 v156))
theorem k1_idx62_inb : ∀ (v156 : IVec S16 32) (k1_hw62 : k1_chk62 v156), ∀ a x, ((![v156] : Fin 1 → IVec S16 32) a x).toNat < S32000.size a := fun v156 k1_hw62 => k1_hw62

def k1_chk63 (v159 : IVec S16 32) : Prop :=
  (∀ a x, ((![v159] : Fin 1 → IVec S16 32) a x).toNat < S32000.size a)
instance k1_chk63.dec : ∀ (v159 : IVec S16 32), Decidable (k1_chk63 v159) := fun v159 => decidable_of_iff' _ (Iff.of_eq (k1_chk63.eq_1 v159))
theorem k1_idx63_inb : ∀ (v159 : IVec S16 32) (k1_hw63 : k1_chk63 v159), ∀ a x, ((![v159] : Fin 1 → IVec S16 32) a x).toNat < S32000.size a := fun v159 k1_hw63 => k1_hw63

def k1_chk64 (v162 : IVec S16 32) : Prop :=
  (∀ a x, ((![v162] : Fin 1 → IVec S16 32) a x).toNat < S32000.size a)
instance k1_chk64.dec : ∀ (v162 : IVec S16 32), Decidable (k1_chk64 v162) := fun v162 => decidable_of_iff' _ (Iff.of_eq (k1_chk64.eq_1 v162))
theorem k1_idx64_inb : ∀ (v162 : IVec S16 32) (k1_hw64 : k1_chk64 v162), ∀ a x, ((![v162] : Fin 1 → IVec S16 32) a x).toNat < S32000.size a := fun v162 k1_hw64 => k1_hw64
def k1_off38 (k1_t3 : Fin k1_t3_loop.trips) : Fin 2 → Nat :=
  let c0_i32_83 : BitVec 32 := 0#32
  let v165 : Index := Scalar.indexCast c0_i32_83
  let c0_i32_72 : BitVec 32 := 0#32
  let c1_i32_74 : BitVec 32 := 1#32
  let arg16 : BitVec 32 := Scf.iv c0_i32_72 c1_i32_74 k1_t3
  let c16_i32_82 : BitVec 32 := 16#32
  let v164 : BitVec 32 := Scalar.muli arg16 c16_i32_82
  let v166 : Index := Scalar.indexCast v164
  ![0, v166.toNat]
def k1_off39 (k1_t3 : Fin k1_t3_loop.trips) : Fin 2 → Nat :=
  let c1_i32_85 : BitVec 32 := 1#32
  let v169 : Index := Scalar.indexCast c1_i32_85
  let c0_i32_72 : BitVec 32 := 0#32
  let c1_i32_74 : BitVec 32 := 1#32
  let arg16 : BitVec 32 := Scf.iv c0_i32_72 c1_i32_74 k1_t3
  let c16_i32_84 : BitVec 32 := 16#32
  let v168 : BitVec 32 := Scalar.muli arg16 c16_i32_84
  let v170 : Index := Scalar.indexCast v168
  ![1, v170.toNat]
def k1_off40 (k1_t3 : Fin k1_t3_loop.trips) : Fin 2 → Nat :=
  let c2_i32_87 : BitVec 32 := 2#32
  let v173 : Index := Scalar.indexCast c2_i32_87
  let c0_i32_72 : BitVec 32 := 0#32
  let c1_i32_74 : BitVec 32 := 1#32
  let arg16 : BitVec 32 := Scf.iv c0_i32_72 c1_i32_74 k1_t3
  let c16_i32_86 : BitVec 32 := 16#32
  let v172 : BitVec 32 := Scalar.muli arg16 c16_i32_86
  let v174 : Index := Scalar.indexCast v172
  ![2, v174.toNat]
def k1_off41 (k1_t3 : Fin k1_t3_loop.trips) : Fin 2 → Nat :=
  let c3_i32 : BitVec 32 := 3#32
  let v177 : Index := Scalar.indexCast c3_i32
  let c0_i32_72 : BitVec 32 := 0#32
  let c1_i32_74 : BitVec 32 := 1#32
  let arg16 : BitVec 32 := Scf.iv c0_i32_72 c1_i32_74 k1_t3
  let c16_i32_88 : BitVec 32 := 16#32
  let v176 : BitVec 32 := Scalar.muli arg16 c16_i32_88
  let v178 : Index := Scalar.indexCast v176
  ![3, v178.toNat]
def k1_off42 (k1_t3 : Fin k1_t3_loop.trips) : Fin 2 → Nat :=
  let c4_i32 : BitVec 32 := 4#32
  let v181 : Index := Scalar.indexCast c4_i32
  let c0_i32_72 : BitVec 32 := 0#32
  let c1_i32_74 : BitVec 32 := 1#32
  let arg16 : BitVec 32 := Scf.iv c0_i32_72 c1_i32_74 k1_t3
  let c16_i32_89 : BitVec 32 := 16#32
  let v180 : BitVec 32 := Scalar.muli arg16 c16_i32_89
  let v182 : Index := Scalar.indexCast v180
  ![4, v182.toNat]
def k1_off43 (k1_t3 : Fin k1_t3_loop.trips) : Fin 2 → Nat :=
  let c5_i32 : BitVec 32 := 5#32
  let v185 : Index := Scalar.indexCast c5_i32
  let c0_i32_72 : BitVec 32 := 0#32
  let c1_i32_74 : BitVec 32 := 1#32
  let arg16 : BitVec 32 := Scf.iv c0_i32_72 c1_i32_74 k1_t3
  let c16_i32_90 : BitVec 32 := 16#32
  let v184 : BitVec 32 := Scalar.muli arg16 c16_i32_90
  let v186 : Index := Scalar.indexCast v184
  ![5, v186.toNat]
def k1_off44 (k1_t3 : Fin k1_t3_loop.trips) : Fin 2 → Nat :=
  let c6_i32 : BitVec 32 := 6#32
  let v189 : Index := Scalar.indexCast c6_i32
  let c0_i32_72 : BitVec 32 := 0#32
  let c1_i32_74 : BitVec 32 := 1#32
  let arg16 : BitVec 32 := Scf.iv c0_i32_72 c1_i32_74 k1_t3
  let c16_i32_91 : BitVec 32 := 16#32
  let v188 : BitVec 32 := Scalar.muli arg16 c16_i32_91
  let v190 : Index := Scalar.indexCast v188
  ![6, v190.toNat]
def k1_off45 (k1_t3 : Fin k1_t3_loop.trips) : Fin 2 → Nat :=
  let c7_i32 : BitVec 32 := 7#32
  let v193 : Index := Scalar.indexCast c7_i32
  let c0_i32_72 : BitVec 32 := 0#32
  let c1_i32_74 : BitVec 32 := 1#32
  let arg16 : BitVec 32 := Scf.iv c0_i32_72 c1_i32_74 k1_t3
  let c16_i32_92 : BitVec 32 := 16#32
  let v192 : BitVec 32 := Scalar.muli arg16 c16_i32_92
  let v194 : Index := Scalar.indexCast v192
  ![7, v194.toNat]
def k1_off46 (k1_t3 : Fin k1_t3_loop.trips) : Fin 2 → Nat :=
  let c8_i32 : BitVec 32 := 8#32
  let v197 : Index := Scalar.indexCast c8_i32
  let c0_i32_72 : BitVec 32 := 0#32
  let c1_i32_74 : BitVec 32 := 1#32
  let arg16 : BitVec 32 := Scf.iv c0_i32_72 c1_i32_74 k1_t3
  let c16_i32_93 : BitVec 32 := 16#32
  let v196 : BitVec 32 := Scalar.muli arg16 c16_i32_93
  let v198 : Index := Scalar.indexCast v196
  ![8, v198.toNat]
def k1_off47 (k1_t3 : Fin k1_t3_loop.trips) : Fin 2 → Nat :=
  let c9_i32 : BitVec 32 := 9#32
  let v201 : Index := Scalar.indexCast c9_i32
  let c0_i32_72 : BitVec 32 := 0#32
  let c1_i32_74 : BitVec 32 := 1#32
  let arg16 : BitVec 32 := Scf.iv c0_i32_72 c1_i32_74 k1_t3
  let c16_i32_94 : BitVec 32 := 16#32
  let v200 : BitVec 32 := Scalar.muli arg16 c16_i32_94
  let v202 : Index := Scalar.indexCast v200
  ![9, v202.toNat]
def k1_off48 (k1_t3 : Fin k1_t3_loop.trips) : Fin 2 → Nat :=
  let c10_i32 : BitVec 32 := 10#32
  let v205 : Index := Scalar.indexCast c10_i32
  let c0_i32_72 : BitVec 32 := 0#32
  let c1_i32_74 : BitVec 32 := 1#32
  let arg16 : BitVec 32 := Scf.iv c0_i32_72 c1_i32_74 k1_t3
  let c16_i32_95 : BitVec 32 := 16#32
  let v204 : BitVec 32 := Scalar.muli arg16 c16_i32_95
  let v206 : Index := Scalar.indexCast v204
  ![10, v206.toNat]
def k1_off49 (k1_t3 : Fin k1_t3_loop.trips) : Fin 2 → Nat :=
  let c11_i32 : BitVec 32 := 11#32
  let v209 : Index := Scalar.indexCast c11_i32
  let c0_i32_72 : BitVec 32 := 0#32
  let c1_i32_74 : BitVec 32 := 1#32
  let arg16 : BitVec 32 := Scf.iv c0_i32_72 c1_i32_74 k1_t3
  let c16_i32_96 : BitVec 32 := 16#32
  let v208 : BitVec 32 := Scalar.muli arg16 c16_i32_96
  let v210 : Index := Scalar.indexCast v208
  ![11, v210.toNat]
def k1_off50 (k1_t3 : Fin k1_t3_loop.trips) : Fin 2 → Nat :=
  let c12_i32 : BitVec 32 := 12#32
  let v213 : Index := Scalar.indexCast c12_i32
  let c0_i32_72 : BitVec 32 := 0#32
  let c1_i32_74 : BitVec 32 := 1#32
  let arg16 : BitVec 32 := Scf.iv c0_i32_72 c1_i32_74 k1_t3
  let c16_i32_97 : BitVec 32 := 16#32
  let v212 : BitVec 32 := Scalar.muli arg16 c16_i32_97
  let v214 : Index := Scalar.indexCast v212
  ![12, v214.toNat]
def k1_off51 (k1_t3 : Fin k1_t3_loop.trips) : Fin 2 → Nat :=
  let c13_i32 : BitVec 32 := 13#32
  let v217 : Index := Scalar.indexCast c13_i32
  let c0_i32_72 : BitVec 32 := 0#32
  let c1_i32_74 : BitVec 32 := 1#32
  let arg16 : BitVec 32 := Scf.iv c0_i32_72 c1_i32_74 k1_t3
  let c16_i32_98 : BitVec 32 := 16#32
  let v216 : BitVec 32 := Scalar.muli arg16 c16_i32_98
  let v218 : Index := Scalar.indexCast v216
  ![13, v218.toNat]
def k1_off52 (k1_t3 : Fin k1_t3_loop.trips) : Fin 2 → Nat :=
  let c14_i32 : BitVec 32 := 14#32
  let v221 : Index := Scalar.indexCast c14_i32
  let c0_i32_72 : BitVec 32 := 0#32
  let c1_i32_74 : BitVec 32 := 1#32
  let arg16 : BitVec 32 := Scf.iv c0_i32_72 c1_i32_74 k1_t3
  let c16_i32_99 : BitVec 32 := 16#32
  let v220 : BitVec 32 := Scalar.muli arg16 c16_i32_99
  let v222 : Index := Scalar.indexCast v220
  ![14, v222.toNat]
def k1_off53 (k1_t3 : Fin k1_t3_loop.trips) : Fin 2 → Nat :=
  let c15_i32 : BitVec 32 := 15#32
  let v225 : Index := Scalar.indexCast c15_i32
  let c0_i32_72 : BitVec 32 := 0#32
  let c1_i32_74 : BitVec 32 := 1#32
  let arg16 : BitVec 32 := Scf.iv c0_i32_72 c1_i32_74 k1_t3
  let c16_i32_100 : BitVec 32 := 16#32
  let v224 : BitVec 32 := Scalar.muli arg16 c16_i32_100
  let v226 : Index := Scalar.indexCast v224
  ![15, v226.toNat]
def k1_off54 (k1_t3 : Fin k1_t3_loop.trips) : Fin 2 → Nat :=
  let c16_i32_102 : BitVec 32 := 16#32
  let v229 : Index := Scalar.indexCast c16_i32_102
  let c0_i32_72 : BitVec 32 := 0#32
  let c1_i32_74 : BitVec 32 := 1#32
  let arg16 : BitVec 32 := Scf.iv c0_i32_72 c1_i32_74 k1_t3
  let c16_i32_101 : BitVec 32 := 16#32
  let v228 : BitVec 32 := Scalar.muli arg16 c16_i32_101
  let v230 : Index := Scalar.indexCast v228
  ![16, v230.toNat]
def k1_off55 (k1_t3 : Fin k1_t3_loop.trips) : Fin 2 → Nat :=
  let c17_i32 : BitVec 32 := 17#32
  let v233 : Index := Scalar.indexCast c17_i32
  let c0_i32_72 : BitVec 32 := 0#32
  let c1_i32_74 : BitVec 32 := 1#32
  let arg16 : BitVec 32 := Scf.iv c0_i32_72 c1_i32_74 k1_t3
  let c16_i32_103 : BitVec 32 := 16#32
  let v232 : BitVec 32 := Scalar.muli arg16 c16_i32_103
  let v234 : Index := Scalar.indexCast v232
  ![17, v234.toNat]
def k1_off56 (k1_t3 : Fin k1_t3_loop.trips) : Fin 2 → Nat :=
  let c18_i32 : BitVec 32 := 18#32
  let v237 : Index := Scalar.indexCast c18_i32
  let c0_i32_72 : BitVec 32 := 0#32
  let c1_i32_74 : BitVec 32 := 1#32
  let arg16 : BitVec 32 := Scf.iv c0_i32_72 c1_i32_74 k1_t3
  let c16_i32_104 : BitVec 32 := 16#32
  let v236 : BitVec 32 := Scalar.muli arg16 c16_i32_104
  let v238 : Index := Scalar.indexCast v236
  ![18, v238.toNat]
def k1_off57 (k1_t3 : Fin k1_t3_loop.trips) : Fin 2 → Nat :=
  let c19_i32 : BitVec 32 := 19#32
  let v241 : Index := Scalar.indexCast c19_i32
  let c0_i32_72 : BitVec 32 := 0#32
  let c1_i32_74 : BitVec 32 := 1#32
  let arg16 : BitVec 32 := Scf.iv c0_i32_72 c1_i32_74 k1_t3
  let c16_i32_105 : BitVec 32 := 16#32
  let v240 : BitVec 32 := Scalar.muli arg16 c16_i32_105
  let v242 : Index := Scalar.indexCast v240
  ![19, v242.toNat]
def k1_off58 (k1_t3 : Fin k1_t3_loop.trips) : Fin 2 → Nat :=
  let c20_i32 : BitVec 32 := 20#32
  let v245 : Index := Scalar.indexCast c20_i32
  let c0_i32_72 : BitVec 32 := 0#32
  let c1_i32_74 : BitVec 32 := 1#32
  let arg16 : BitVec 32 := Scf.iv c0_i32_72 c1_i32_74 k1_t3
  let c16_i32_106 : BitVec 32 := 16#32
  let v244 : BitVec 32 := Scalar.muli arg16 c16_i32_106
  let v246 : Index := Scalar.indexCast v244
  ![20, v246.toNat]
def k1_off59 (k1_t3 : Fin k1_t3_loop.trips) : Fin 2 → Nat :=
  let c21_i32 : BitVec 32 := 21#32
  let v249 : Index := Scalar.indexCast c21_i32
  let c0_i32_72 : BitVec 32 := 0#32
  let c1_i32_74 : BitVec 32 := 1#32
  let arg16 : BitVec 32 := Scf.iv c0_i32_72 c1_i32_74 k1_t3
  let c16_i32_107 : BitVec 32 := 16#32
  let v248 : BitVec 32 := Scalar.muli arg16 c16_i32_107
  let v250 : Index := Scalar.indexCast v248
  ![21, v250.toNat]
def k1_off60 (k1_t3 : Fin k1_t3_loop.trips) : Fin 2 → Nat :=
  let c22_i32 : BitVec 32 := 22#32
  let v253 : Index := Scalar.indexCast c22_i32
  let c0_i32_72 : BitVec 32 := 0#32
  let c1_i32_74 : BitVec 32 := 1#32
  let arg16 : BitVec 32 := Scf.iv c0_i32_72 c1_i32_74 k1_t3
  let c16_i32_108 : BitVec 32 := 16#32
  let v252 : BitVec 32 := Scalar.muli arg16 c16_i32_108
  let v254 : Index := Scalar.indexCast v252
  ![22, v254.toNat]
def k1_off61 (k1_t3 : Fin k1_t3_loop.trips) : Fin 2 → Nat :=
  let c23_i32 : BitVec 32 := 23#32
  let v257 : Index := Scalar.indexCast c23_i32
  let c0_i32_72 : BitVec 32 := 0#32
  let c1_i32_74 : BitVec 32 := 1#32
  let arg16 : BitVec 32 := Scf.iv c0_i32_72 c1_i32_74 k1_t3
  let c16_i32_109 : BitVec 32 := 16#32
  let v256 : BitVec 32 := Scalar.muli arg16 c16_i32_109
  let v258 : Index := Scalar.indexCast v256
  ![23, v258.toNat]
def k1_off62 (k1_t3 : Fin k1_t3_loop.trips) : Fin 2 → Nat :=
  let c24_i32 : BitVec 32 := 24#32
  let v261 : Index := Scalar.indexCast c24_i32
  let c0_i32_72 : BitVec 32 := 0#32
  let c1_i32_74 : BitVec 32 := 1#32
  let arg16 : BitVec 32 := Scf.iv c0_i32_72 c1_i32_74 k1_t3
  let c16_i32_110 : BitVec 32 := 16#32
  let v260 : BitVec 32 := Scalar.muli arg16 c16_i32_110
  let v262 : Index := Scalar.indexCast v260
  ![24, v262.toNat]
def k1_off63 (k1_t3 : Fin k1_t3_loop.trips) : Fin 2 → Nat :=
  let c25_i32 : BitVec 32 := 25#32
  let v265 : Index := Scalar.indexCast c25_i32
  let c0_i32_72 : BitVec 32 := 0#32
  let c1_i32_74 : BitVec 32 := 1#32
  let arg16 : BitVec 32 := Scf.iv c0_i32_72 c1_i32_74 k1_t3
  let c16_i32_111 : BitVec 32 := 16#32
  let v264 : BitVec 32 := Scalar.muli arg16 c16_i32_111
  let v266 : Index := Scalar.indexCast v264
  ![25, v266.toNat]
def k1_off64 (k1_t3 : Fin k1_t3_loop.trips) : Fin 2 → Nat :=
  let c26_i32 : BitVec 32 := 26#32
  let v269 : Index := Scalar.indexCast c26_i32
  let c0_i32_72 : BitVec 32 := 0#32
  let c1_i32_74 : BitVec 32 := 1#32
  let arg16 : BitVec 32 := Scf.iv c0_i32_72 c1_i32_74 k1_t3
  let c16_i32_112 : BitVec 32 := 16#32
  let v268 : BitVec 32 := Scalar.muli arg16 c16_i32_112
  let v270 : Index := Scalar.indexCast v268
  ![26, v270.toNat]
def k1_off65 (k1_t3 : Fin k1_t3_loop.trips) : Fin 2 → Nat :=
  let c27_i32 : BitVec 32 := 27#32
  let v273 : Index := Scalar.indexCast c27_i32
  let c0_i32_72 : BitVec 32 := 0#32
  let c1_i32_74 : BitVec 32 := 1#32
  let arg16 : BitVec 32 := Scf.iv c0_i32_72 c1_i32_74 k1_t3
  let c16_i32_113 : BitVec 32 := 16#32
  let v272 : BitVec 32 := Scalar.muli arg16 c16_i32_113
  let v274 : Index := Scalar.indexCast v272
  ![27, v274.toNat]
def k1_off66 (k1_t3 : Fin k1_t3_loop.trips) : Fin 2 → Nat :=
  let c28_i32 : BitVec 32 := 28#32
  let v277 : Index := Scalar.indexCast c28_i32
  let c0_i32_72 : BitVec 32 := 0#32
  let c1_i32_74 : BitVec 32 := 1#32
  let arg16 : BitVec 32 := Scf.iv c0_i32_72 c1_i32_74 k1_t3
  let c16_i32_114 : BitVec 32 := 16#32
  let v276 : BitVec 32 := Scalar.muli arg16 c16_i32_114
  let v278 : Index := Scalar.indexCast v276
  ![28, v278.toNat]
def k1_off67 (k1_t3 : Fin k1_t3_loop.trips) : Fin 2 → Nat :=
  let c29_i32 : BitVec 32 := 29#32
  let v281 : Index := Scalar.indexCast c29_i32
  let c0_i32_72 : BitVec 32 := 0#32
  let c1_i32_74 : BitVec 32 := 1#32
  let arg16 : BitVec 32 := Scf.iv c0_i32_72 c1_i32_74 k1_t3
  let c16_i32_115 : BitVec 32 := 16#32
  let v280 : BitVec 32 := Scalar.muli arg16 c16_i32_115
  let v282 : Index := Scalar.indexCast v280
  ![29, v282.toNat]
def k1_off68 (k1_t3 : Fin k1_t3_loop.trips) : Fin 2 → Nat :=
  let c30_i32 : BitVec 32 := 30#32
  let v285 : Index := Scalar.indexCast c30_i32
  let c0_i32_72 : BitVec 32 := 0#32
  let c1_i32_74 : BitVec 32 := 1#32
  let arg16 : BitVec 32 := Scf.iv c0_i32_72 c1_i32_74 k1_t3
  let c16_i32_116 : BitVec 32 := 16#32
  let v284 : BitVec 32 := Scalar.muli arg16 c16_i32_116
  let v286 : Index := Scalar.indexCast v284
  ![30, v286.toNat]
def k1_off69 (k1_t3 : Fin k1_t3_loop.trips) : Fin 2 → Nat :=
  let c31_i32 : BitVec 32 := 31#32
  let v289 : Index := Scalar.indexCast c31_i32
  let c0_i32_72 : BitVec 32 := 0#32
  let c1_i32_74 : BitVec 32 := 1#32
  let arg16 : BitVec 32 := Scf.iv c0_i32_72 c1_i32_74 k1_t3
  let c16_i32_117 : BitVec 32 := 16#32
  let v288 : BitVec 32 := Scalar.muli arg16 c16_i32_117
  let v290 : Index := Scalar.indexCast v288
  ![31, v290.toNat]
def k1_off70 (i : grid1.Coords) : Fin 2 → Nat :=
  let c80_i32 : BitVec 32 := 80#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![80, v2.toNat]
@[reducible] def k1_t4_loop : Scf.Loop 32 :=
  let c0_i32_16 : BitVec 32 := 0#32
  let c40_i32_17 : BitVec 32 := 40#32
  let v15 : BitVec 32 := Scalar.addi c0_i32_16 c40_i32_17
  let c1_i32_18 : BitVec 32 := 1#32
  ⟨c0_i32_16, v15, c1_i32_18⟩
@[reducible] def k1_t5_loop : Scf.Loop 32 :=
  let c0_i32_66 : BitVec 32 := 0#32
  let c16_i32 : BitVec 32 := 16#32
  let v46 : BitVec 32 := Scalar.addi c0_i32_66 c16_i32
  let c1_i32_67 : BitVec 32 := 1#32
  ⟨c0_i32_66, v46, c1_i32_67⟩
def k1_mult3 (k1_t5 : Fin k1_t5_loop.trips) : BitVec 32 :=
  let c0_i32_86 : BitVec 32 := 0#32
  let c0_i32_66 : BitVec 32 := 0#32
  let c1_i32_67 : BitVec 32 := 1#32
  let arg16 : BitVec 32 := Scf.iv c0_i32_66 c1_i32_67 k1_t5
  let c16_i32_85 : BitVec 32 := 16#32
  let v64 : BitVec 32 := Scalar.muli arg16 c16_i32_85
  let v65 : BitVec 32 := Scalar.addi c0_i32_86 v64
  v65
def k1_off71 (k1_t4 : Fin k1_t4_loop.trips) (k1_t5 : Fin k1_t5_loop.trips) : Fin 2 → Nat :=
  let c0_i32_16 : BitVec 32 := 0#32
  let c1_i32_18 : BitVec 32 := 1#32
  let arg14 : BitVec 32 := Scf.iv c0_i32_16 c1_i32_18 k1_t4
  let v67 : Index := Scalar.indexCast arg14
  let c0_i32_86 : BitVec 32 := 0#32
  let c0_i32_66 : BitVec 32 := 0#32
  let c1_i32_67 : BitVec 32 := 1#32
  let arg16 : BitVec 32 := Scf.iv c0_i32_66 c1_i32_67 k1_t5
  let c16_i32_85 : BitVec 32 := 16#32
  let v64 : BitVec 32 := Scalar.muli arg16 c16_i32_85
  let v65 : BitVec 32 := Scalar.addi c0_i32_86 v64
  let v66 : BitVec 32 := v65
  let v68 : Index := Scalar.indexCast v66
  ![v67.toNat, v68.toNat]

def k1_chk65 (v71 : IVec S16 32) : Prop :=
  (∀ a x, ((![v71] : Fin 1 → IVec S16 32) a x).toNat < S32000.size a)
instance k1_chk65.dec : ∀ (v71 : IVec S16 32), Decidable (k1_chk65 v71) := fun v71 => decidable_of_iff' _ (Iff.of_eq (k1_chk65.eq_1 v71))
theorem k1_idx65_inb : ∀ (v71 : IVec S16 32) (k1_hw65 : k1_chk65 v71), ∀ a x, ((![v71] : Fin 1 → IVec S16 32) a x).toNat < S32000.size a := fun v71 k1_hw65 => k1_hw65

def k1_chk66 (v74 : IVec S16 32) : Prop :=
  (∀ a x, ((![v74] : Fin 1 → IVec S16 32) a x).toNat < S32000.size a)
instance k1_chk66.dec : ∀ (v74 : IVec S16 32), Decidable (k1_chk66 v74) := fun v74 => decidable_of_iff' _ (Iff.of_eq (k1_chk66.eq_1 v74))
theorem k1_idx66_inb : ∀ (v74 : IVec S16 32) (k1_hw66 : k1_chk66 v74), ∀ a x, ((![v74] : Fin 1 → IVec S16 32) a x).toNat < S32000.size a := fun v74 k1_hw66 => k1_hw66

def k1_chk67 (v77 : IVec S16 32) : Prop :=
  (∀ a x, ((![v77] : Fin 1 → IVec S16 32) a x).toNat < S32000.size a)
instance k1_chk67.dec : ∀ (v77 : IVec S16 32), Decidable (k1_chk67 v77) := fun v77 => decidable_of_iff' _ (Iff.of_eq (k1_chk67.eq_1 v77))
theorem k1_idx67_inb : ∀ (v77 : IVec S16 32) (k1_hw67 : k1_chk67 v77), ∀ a x, ((![v77] : Fin 1 → IVec S16 32) a x).toNat < S32000.size a := fun v77 k1_hw67 => k1_hw67

def k1_chk68 (v80 : IVec S16 32) : Prop :=
  (∀ a x, ((![v80] : Fin 1 → IVec S16 32) a x).toNat < S32000.size a)
instance k1_chk68.dec : ∀ (v80 : IVec S16 32), Decidable (k1_chk68 v80) := fun v80 => decidable_of_iff' _ (Iff.of_eq (k1_chk68.eq_1 v80))
theorem k1_idx68_inb : ∀ (v80 : IVec S16 32) (k1_hw68 : k1_chk68 v80), ∀ a x, ((![v80] : Fin 1 → IVec S16 32) a x).toNat < S32000.size a := fun v80 k1_hw68 => k1_hw68

def k1_chk69 (v83 : IVec S16 32) : Prop :=
  (∀ a x, ((![v83] : Fin 1 → IVec S16 32) a x).toNat < S32000.size a)
instance k1_chk69.dec : ∀ (v83 : IVec S16 32), Decidable (k1_chk69 v83) := fun v83 => decidable_of_iff' _ (Iff.of_eq (k1_chk69.eq_1 v83))
theorem k1_idx69_inb : ∀ (v83 : IVec S16 32) (k1_hw69 : k1_chk69 v83), ∀ a x, ((![v83] : Fin 1 → IVec S16 32) a x).toNat < S32000.size a := fun v83 k1_hw69 => k1_hw69

def k1_chk70 (v86 : IVec S16 32) : Prop :=
  (∀ a x, ((![v86] : Fin 1 → IVec S16 32) a x).toNat < S32000.size a)
instance k1_chk70.dec : ∀ (v86 : IVec S16 32), Decidable (k1_chk70 v86) := fun v86 => decidable_of_iff' _ (Iff.of_eq (k1_chk70.eq_1 v86))
theorem k1_idx70_inb : ∀ (v86 : IVec S16 32) (k1_hw70 : k1_chk70 v86), ∀ a x, ((![v86] : Fin 1 → IVec S16 32) a x).toNat < S32000.size a := fun v86 k1_hw70 => k1_hw70

def k1_chk71 (v89 : IVec S16 32) : Prop :=
  (∀ a x, ((![v89] : Fin 1 → IVec S16 32) a x).toNat < S32000.size a)
instance k1_chk71.dec : ∀ (v89 : IVec S16 32), Decidable (k1_chk71 v89) := fun v89 => decidable_of_iff' _ (Iff.of_eq (k1_chk71.eq_1 v89))
theorem k1_idx71_inb : ∀ (v89 : IVec S16 32) (k1_hw71 : k1_chk71 v89), ∀ a x, ((![v89] : Fin 1 → IVec S16 32) a x).toNat < S32000.size a := fun v89 k1_hw71 => k1_hw71

def k1_chk72 (v92 : IVec S16 32) : Prop :=
  (∀ a x, ((![v92] : Fin 1 → IVec S16 32) a x).toNat < S32000.size a)
instance k1_chk72.dec : ∀ (v92 : IVec S16 32), Decidable (k1_chk72 v92) := fun v92 => decidable_of_iff' _ (Iff.of_eq (k1_chk72.eq_1 v92))
theorem k1_idx72_inb : ∀ (v92 : IVec S16 32) (k1_hw72 : k1_chk72 v92), ∀ a x, ((![v92] : Fin 1 → IVec S16 32) a x).toNat < S32000.size a := fun v92 k1_hw72 => k1_hw72

def k1_chk73 (v95 : IVec S16 32) : Prop :=
  (∀ a x, ((![v95] : Fin 1 → IVec S16 32) a x).toNat < S32000.size a)
instance k1_chk73.dec : ∀ (v95 : IVec S16 32), Decidable (k1_chk73 v95) := fun v95 => decidable_of_iff' _ (Iff.of_eq (k1_chk73.eq_1 v95))
theorem k1_idx73_inb : ∀ (v95 : IVec S16 32) (k1_hw73 : k1_chk73 v95), ∀ a x, ((![v95] : Fin 1 → IVec S16 32) a x).toNat < S32000.size a := fun v95 k1_hw73 => k1_hw73

def k1_chk74 (v98 : IVec S16 32) : Prop :=
  (∀ a x, ((![v98] : Fin 1 → IVec S16 32) a x).toNat < S32000.size a)
instance k1_chk74.dec : ∀ (v98 : IVec S16 32), Decidable (k1_chk74 v98) := fun v98 => decidable_of_iff' _ (Iff.of_eq (k1_chk74.eq_1 v98))
theorem k1_idx74_inb : ∀ (v98 : IVec S16 32) (k1_hw74 : k1_chk74 v98), ∀ a x, ((![v98] : Fin 1 → IVec S16 32) a x).toNat < S32000.size a := fun v98 k1_hw74 => k1_hw74

def k1_chk75 (v101 : IVec S16 32) : Prop :=
  (∀ a x, ((![v101] : Fin 1 → IVec S16 32) a x).toNat < S32000.size a)
instance k1_chk75.dec : ∀ (v101 : IVec S16 32), Decidable (k1_chk75 v101) := fun v101 => decidable_of_iff' _ (Iff.of_eq (k1_chk75.eq_1 v101))
theorem k1_idx75_inb : ∀ (v101 : IVec S16 32) (k1_hw75 : k1_chk75 v101), ∀ a x, ((![v101] : Fin 1 → IVec S16 32) a x).toNat < S32000.size a := fun v101 k1_hw75 => k1_hw75

def k1_chk76 (v104 : IVec S16 32) : Prop :=
  (∀ a x, ((![v104] : Fin 1 → IVec S16 32) a x).toNat < S32000.size a)
instance k1_chk76.dec : ∀ (v104 : IVec S16 32), Decidable (k1_chk76 v104) := fun v104 => decidable_of_iff' _ (Iff.of_eq (k1_chk76.eq_1 v104))
theorem k1_idx76_inb : ∀ (v104 : IVec S16 32) (k1_hw76 : k1_chk76 v104), ∀ a x, ((![v104] : Fin 1 → IVec S16 32) a x).toNat < S32000.size a := fun v104 k1_hw76 => k1_hw76

def k1_chk77 (v107 : IVec S16 32) : Prop :=
  (∀ a x, ((![v107] : Fin 1 → IVec S16 32) a x).toNat < S32000.size a)
instance k1_chk77.dec : ∀ (v107 : IVec S16 32), Decidable (k1_chk77 v107) := fun v107 => decidable_of_iff' _ (Iff.of_eq (k1_chk77.eq_1 v107))
theorem k1_idx77_inb : ∀ (v107 : IVec S16 32) (k1_hw77 : k1_chk77 v107), ∀ a x, ((![v107] : Fin 1 → IVec S16 32) a x).toNat < S32000.size a := fun v107 k1_hw77 => k1_hw77

def k1_chk78 (v110 : IVec S16 32) : Prop :=
  (∀ a x, ((![v110] : Fin 1 → IVec S16 32) a x).toNat < S32000.size a)
instance k1_chk78.dec : ∀ (v110 : IVec S16 32), Decidable (k1_chk78 v110) := fun v110 => decidable_of_iff' _ (Iff.of_eq (k1_chk78.eq_1 v110))
theorem k1_idx78_inb : ∀ (v110 : IVec S16 32) (k1_hw78 : k1_chk78 v110), ∀ a x, ((![v110] : Fin 1 → IVec S16 32) a x).toNat < S32000.size a := fun v110 k1_hw78 => k1_hw78

def k1_chk79 (v113 : IVec S16 32) : Prop :=
  (∀ a x, ((![v113] : Fin 1 → IVec S16 32) a x).toNat < S32000.size a)
instance k1_chk79.dec : ∀ (v113 : IVec S16 32), Decidable (k1_chk79 v113) := fun v113 => decidable_of_iff' _ (Iff.of_eq (k1_chk79.eq_1 v113))
theorem k1_idx79_inb : ∀ (v113 : IVec S16 32) (k1_hw79 : k1_chk79 v113), ∀ a x, ((![v113] : Fin 1 → IVec S16 32) a x).toNat < S32000.size a := fun v113 k1_hw79 => k1_hw79

def k1_chk80 (v116 : IVec S16 32) : Prop :=
  (∀ a x, ((![v116] : Fin 1 → IVec S16 32) a x).toNat < S32000.size a)
instance k1_chk80.dec : ∀ (v116 : IVec S16 32), Decidable (k1_chk80 v116) := fun v116 => decidable_of_iff' _ (Iff.of_eq (k1_chk80.eq_1 v116))
theorem k1_idx80_inb : ∀ (v116 : IVec S16 32) (k1_hw80 : k1_chk80 v116), ∀ a x, ((![v116] : Fin 1 → IVec S16 32) a x).toNat < S32000.size a := fun v116 k1_hw80 => k1_hw80

def k1_chk81 (v119 : IVec S16 32) : Prop :=
  (∀ a x, ((![v119] : Fin 1 → IVec S16 32) a x).toNat < S32000.size a)
instance k1_chk81.dec : ∀ (v119 : IVec S16 32), Decidable (k1_chk81 v119) := fun v119 => decidable_of_iff' _ (Iff.of_eq (k1_chk81.eq_1 v119))
theorem k1_idx81_inb : ∀ (v119 : IVec S16 32) (k1_hw81 : k1_chk81 v119), ∀ a x, ((![v119] : Fin 1 → IVec S16 32) a x).toNat < S32000.size a := fun v119 k1_hw81 => k1_hw81

def k1_chk82 (v122 : IVec S16 32) : Prop :=
  (∀ a x, ((![v122] : Fin 1 → IVec S16 32) a x).toNat < S32000.size a)
instance k1_chk82.dec : ∀ (v122 : IVec S16 32), Decidable (k1_chk82 v122) := fun v122 => decidable_of_iff' _ (Iff.of_eq (k1_chk82.eq_1 v122))
theorem k1_idx82_inb : ∀ (v122 : IVec S16 32) (k1_hw82 : k1_chk82 v122), ∀ a x, ((![v122] : Fin 1 → IVec S16 32) a x).toNat < S32000.size a := fun v122 k1_hw82 => k1_hw82

def k1_chk83 (v125 : IVec S16 32) : Prop :=
  (∀ a x, ((![v125] : Fin 1 → IVec S16 32) a x).toNat < S32000.size a)
instance k1_chk83.dec : ∀ (v125 : IVec S16 32), Decidable (k1_chk83 v125) := fun v125 => decidable_of_iff' _ (Iff.of_eq (k1_chk83.eq_1 v125))
theorem k1_idx83_inb : ∀ (v125 : IVec S16 32) (k1_hw83 : k1_chk83 v125), ∀ a x, ((![v125] : Fin 1 → IVec S16 32) a x).toNat < S32000.size a := fun v125 k1_hw83 => k1_hw83

def k1_chk84 (v128 : IVec S16 32) : Prop :=
  (∀ a x, ((![v128] : Fin 1 → IVec S16 32) a x).toNat < S32000.size a)
instance k1_chk84.dec : ∀ (v128 : IVec S16 32), Decidable (k1_chk84 v128) := fun v128 => decidable_of_iff' _ (Iff.of_eq (k1_chk84.eq_1 v128))
theorem k1_idx84_inb : ∀ (v128 : IVec S16 32) (k1_hw84 : k1_chk84 v128), ∀ a x, ((![v128] : Fin 1 → IVec S16 32) a x).toNat < S32000.size a := fun v128 k1_hw84 => k1_hw84

def k1_chk85 (v131 : IVec S16 32) : Prop :=
  (∀ a x, ((![v131] : Fin 1 → IVec S16 32) a x).toNat < S32000.size a)
instance k1_chk85.dec : ∀ (v131 : IVec S16 32), Decidable (k1_chk85 v131) := fun v131 => decidable_of_iff' _ (Iff.of_eq (k1_chk85.eq_1 v131))
theorem k1_idx85_inb : ∀ (v131 : IVec S16 32) (k1_hw85 : k1_chk85 v131), ∀ a x, ((![v131] : Fin 1 → IVec S16 32) a x).toNat < S32000.size a := fun v131 k1_hw85 => k1_hw85

def k1_chk86 (v134 : IVec S16 32) : Prop :=
  (∀ a x, ((![v134] : Fin 1 → IVec S16 32) a x).toNat < S32000.size a)
instance k1_chk86.dec : ∀ (v134 : IVec S16 32), Decidable (k1_chk86 v134) := fun v134 => decidable_of_iff' _ (Iff.of_eq (k1_chk86.eq_1 v134))
theorem k1_idx86_inb : ∀ (v134 : IVec S16 32) (k1_hw86 : k1_chk86 v134), ∀ a x, ((![v134] : Fin 1 → IVec S16 32) a x).toNat < S32000.size a := fun v134 k1_hw86 => k1_hw86

def k1_chk87 (v137 : IVec S16 32) : Prop :=
  (∀ a x, ((![v137] : Fin 1 → IVec S16 32) a x).toNat < S32000.size a)
instance k1_chk87.dec : ∀ (v137 : IVec S16 32), Decidable (k1_chk87 v137) := fun v137 => decidable_of_iff' _ (Iff.of_eq (k1_chk87.eq_1 v137))
theorem k1_idx87_inb : ∀ (v137 : IVec S16 32) (k1_hw87 : k1_chk87 v137), ∀ a x, ((![v137] : Fin 1 → IVec S16 32) a x).toNat < S32000.size a := fun v137 k1_hw87 => k1_hw87

def k1_chk88 (v140 : IVec S16 32) : Prop :=
  (∀ a x, ((![v140] : Fin 1 → IVec S16 32) a x).toNat < S32000.size a)
instance k1_chk88.dec : ∀ (v140 : IVec S16 32), Decidable (k1_chk88 v140) := fun v140 => decidable_of_iff' _ (Iff.of_eq (k1_chk88.eq_1 v140))
theorem k1_idx88_inb : ∀ (v140 : IVec S16 32) (k1_hw88 : k1_chk88 v140), ∀ a x, ((![v140] : Fin 1 → IVec S16 32) a x).toNat < S32000.size a := fun v140 k1_hw88 => k1_hw88

def k1_chk89 (v143 : IVec S16 32) : Prop :=
  (∀ a x, ((![v143] : Fin 1 → IVec S16 32) a x).toNat < S32000.size a)
instance k1_chk89.dec : ∀ (v143 : IVec S16 32), Decidable (k1_chk89 v143) := fun v143 => decidable_of_iff' _ (Iff.of_eq (k1_chk89.eq_1 v143))
theorem k1_idx89_inb : ∀ (v143 : IVec S16 32) (k1_hw89 : k1_chk89 v143), ∀ a x, ((![v143] : Fin 1 → IVec S16 32) a x).toNat < S32000.size a := fun v143 k1_hw89 => k1_hw89

def k1_chk90 (v146 : IVec S16 32) : Prop :=
  (∀ a x, ((![v146] : Fin 1 → IVec S16 32) a x).toNat < S32000.size a)
instance k1_chk90.dec : ∀ (v146 : IVec S16 32), Decidable (k1_chk90 v146) := fun v146 => decidable_of_iff' _ (Iff.of_eq (k1_chk90.eq_1 v146))
theorem k1_idx90_inb : ∀ (v146 : IVec S16 32) (k1_hw90 : k1_chk90 v146), ∀ a x, ((![v146] : Fin 1 → IVec S16 32) a x).toNat < S32000.size a := fun v146 k1_hw90 => k1_hw90

def k1_chk91 (v149 : IVec S16 32) : Prop :=
  (∀ a x, ((![v149] : Fin 1 → IVec S16 32) a x).toNat < S32000.size a)
instance k1_chk91.dec : ∀ (v149 : IVec S16 32), Decidable (k1_chk91 v149) := fun v149 => decidable_of_iff' _ (Iff.of_eq (k1_chk91.eq_1 v149))
theorem k1_idx91_inb : ∀ (v149 : IVec S16 32) (k1_hw91 : k1_chk91 v149), ∀ a x, ((![v149] : Fin 1 → IVec S16 32) a x).toNat < S32000.size a := fun v149 k1_hw91 => k1_hw91

def k1_chk92 (v152 : IVec S16 32) : Prop :=
  (∀ a x, ((![v152] : Fin 1 → IVec S16 32) a x).toNat < S32000.size a)
instance k1_chk92.dec : ∀ (v152 : IVec S16 32), Decidable (k1_chk92 v152) := fun v152 => decidable_of_iff' _ (Iff.of_eq (k1_chk92.eq_1 v152))
theorem k1_idx92_inb : ∀ (v152 : IVec S16 32) (k1_hw92 : k1_chk92 v152), ∀ a x, ((![v152] : Fin 1 → IVec S16 32) a x).toNat < S32000.size a := fun v152 k1_hw92 => k1_hw92

def k1_chk93 (v155 : IVec S16 32) : Prop :=
  (∀ a x, ((![v155] : Fin 1 → IVec S16 32) a x).toNat < S32000.size a)
instance k1_chk93.dec : ∀ (v155 : IVec S16 32), Decidable (k1_chk93 v155) := fun v155 => decidable_of_iff' _ (Iff.of_eq (k1_chk93.eq_1 v155))
theorem k1_idx93_inb : ∀ (v155 : IVec S16 32) (k1_hw93 : k1_chk93 v155), ∀ a x, ((![v155] : Fin 1 → IVec S16 32) a x).toNat < S32000.size a := fun v155 k1_hw93 => k1_hw93

def k1_chk94 (v158 : IVec S16 32) : Prop :=
  (∀ a x, ((![v158] : Fin 1 → IVec S16 32) a x).toNat < S32000.size a)
instance k1_chk94.dec : ∀ (v158 : IVec S16 32), Decidable (k1_chk94 v158) := fun v158 => decidable_of_iff' _ (Iff.of_eq (k1_chk94.eq_1 v158))
theorem k1_idx94_inb : ∀ (v158 : IVec S16 32) (k1_hw94 : k1_chk94 v158), ∀ a x, ((![v158] : Fin 1 → IVec S16 32) a x).toNat < S32000.size a := fun v158 k1_hw94 => k1_hw94

def k1_chk95 (v161 : IVec S16 32) : Prop :=
  (∀ a x, ((![v161] : Fin 1 → IVec S16 32) a x).toNat < S32000.size a)
instance k1_chk95.dec : ∀ (v161 : IVec S16 32), Decidable (k1_chk95 v161) := fun v161 => decidable_of_iff' _ (Iff.of_eq (k1_chk95.eq_1 v161))
theorem k1_idx95_inb : ∀ (v161 : IVec S16 32) (k1_hw95 : k1_chk95 v161), ∀ a x, ((![v161] : Fin 1 → IVec S16 32) a x).toNat < S32000.size a := fun v161 k1_hw95 => k1_hw95

def k1_chk96 (v164 : IVec S16 32) : Prop :=
  (∀ a x, ((![v164] : Fin 1 → IVec S16 32) a x).toNat < S32000.size a)
instance k1_chk96.dec : ∀ (v164 : IVec S16 32), Decidable (k1_chk96 v164) := fun v164 => decidable_of_iff' _ (Iff.of_eq (k1_chk96.eq_1 v164))
theorem k1_idx96_inb : ∀ (v164 : IVec S16 32) (k1_hw96 : k1_chk96 v164), ∀ a x, ((![v164] : Fin 1 → IVec S16 32) a x).toNat < S32000.size a := fun v164 k1_hw96 => k1_hw96
def k1_off72 (k1_t5 : Fin k1_t5_loop.trips) : Fin 2 → Nat :=
  let c0_i32_89 : BitVec 32 := 0#32
  let v167 : Index := Scalar.indexCast c0_i32_89
  let c0_i32_66 : BitVec 32 := 0#32
  let c1_i32_67 : BitVec 32 := 1#32
  let arg16 : BitVec 32 := Scf.iv c0_i32_66 c1_i32_67 k1_t5
  let c16_i32_88 : BitVec 32 := 16#32
  let v166 : BitVec 32 := Scalar.muli arg16 c16_i32_88
  let v168 : Index := Scalar.indexCast v166
  ![0, v168.toNat]
def k1_off73 (k1_t5 : Fin k1_t5_loop.trips) : Fin 2 → Nat :=
  let c1_i32_91 : BitVec 32 := 1#32
  let v171 : Index := Scalar.indexCast c1_i32_91
  let c0_i32_66 : BitVec 32 := 0#32
  let c1_i32_67 : BitVec 32 := 1#32
  let arg16 : BitVec 32 := Scf.iv c0_i32_66 c1_i32_67 k1_t5
  let c16_i32_90 : BitVec 32 := 16#32
  let v170 : BitVec 32 := Scalar.muli arg16 c16_i32_90
  let v172 : Index := Scalar.indexCast v170
  ![1, v172.toNat]
def k1_off74 (k1_t5 : Fin k1_t5_loop.trips) : Fin 2 → Nat :=
  let c2_i32_93 : BitVec 32 := 2#32
  let v175 : Index := Scalar.indexCast c2_i32_93
  let c0_i32_66 : BitVec 32 := 0#32
  let c1_i32_67 : BitVec 32 := 1#32
  let arg16 : BitVec 32 := Scf.iv c0_i32_66 c1_i32_67 k1_t5
  let c16_i32_92 : BitVec 32 := 16#32
  let v174 : BitVec 32 := Scalar.muli arg16 c16_i32_92
  let v176 : Index := Scalar.indexCast v174
  ![2, v176.toNat]
def k1_off75 (k1_t5 : Fin k1_t5_loop.trips) : Fin 2 → Nat :=
  let c3_i32 : BitVec 32 := 3#32
  let v179 : Index := Scalar.indexCast c3_i32
  let c0_i32_66 : BitVec 32 := 0#32
  let c1_i32_67 : BitVec 32 := 1#32
  let arg16 : BitVec 32 := Scf.iv c0_i32_66 c1_i32_67 k1_t5
  let c16_i32_94 : BitVec 32 := 16#32
  let v178 : BitVec 32 := Scalar.muli arg16 c16_i32_94
  let v180 : Index := Scalar.indexCast v178
  ![3, v180.toNat]
def k1_off76 (k1_t5 : Fin k1_t5_loop.trips) : Fin 2 → Nat :=
  let c4_i32 : BitVec 32 := 4#32
  let v183 : Index := Scalar.indexCast c4_i32
  let c0_i32_66 : BitVec 32 := 0#32
  let c1_i32_67 : BitVec 32 := 1#32
  let arg16 : BitVec 32 := Scf.iv c0_i32_66 c1_i32_67 k1_t5
  let c16_i32_95 : BitVec 32 := 16#32
  let v182 : BitVec 32 := Scalar.muli arg16 c16_i32_95
  let v184 : Index := Scalar.indexCast v182
  ![4, v184.toNat]
def k1_off77 (k1_t5 : Fin k1_t5_loop.trips) : Fin 2 → Nat :=
  let c5_i32 : BitVec 32 := 5#32
  let v187 : Index := Scalar.indexCast c5_i32
  let c0_i32_66 : BitVec 32 := 0#32
  let c1_i32_67 : BitVec 32 := 1#32
  let arg16 : BitVec 32 := Scf.iv c0_i32_66 c1_i32_67 k1_t5
  let c16_i32_96 : BitVec 32 := 16#32
  let v186 : BitVec 32 := Scalar.muli arg16 c16_i32_96
  let v188 : Index := Scalar.indexCast v186
  ![5, v188.toNat]
def k1_off78 (k1_t5 : Fin k1_t5_loop.trips) : Fin 2 → Nat :=
  let c6_i32 : BitVec 32 := 6#32
  let v191 : Index := Scalar.indexCast c6_i32
  let c0_i32_66 : BitVec 32 := 0#32
  let c1_i32_67 : BitVec 32 := 1#32
  let arg16 : BitVec 32 := Scf.iv c0_i32_66 c1_i32_67 k1_t5
  let c16_i32_97 : BitVec 32 := 16#32
  let v190 : BitVec 32 := Scalar.muli arg16 c16_i32_97
  let v192 : Index := Scalar.indexCast v190
  ![6, v192.toNat]
def k1_off79 (k1_t5 : Fin k1_t5_loop.trips) : Fin 2 → Nat :=
  let c7_i32 : BitVec 32 := 7#32
  let v195 : Index := Scalar.indexCast c7_i32
  let c0_i32_66 : BitVec 32 := 0#32
  let c1_i32_67 : BitVec 32 := 1#32
  let arg16 : BitVec 32 := Scf.iv c0_i32_66 c1_i32_67 k1_t5
  let c16_i32_98 : BitVec 32 := 16#32
  let v194 : BitVec 32 := Scalar.muli arg16 c16_i32_98
  let v196 : Index := Scalar.indexCast v194
  ![7, v196.toNat]
def k1_off80 (k1_t5 : Fin k1_t5_loop.trips) : Fin 2 → Nat :=
  let c8_i32 : BitVec 32 := 8#32
  let v199 : Index := Scalar.indexCast c8_i32
  let c0_i32_66 : BitVec 32 := 0#32
  let c1_i32_67 : BitVec 32 := 1#32
  let arg16 : BitVec 32 := Scf.iv c0_i32_66 c1_i32_67 k1_t5
  let c16_i32_99 : BitVec 32 := 16#32
  let v198 : BitVec 32 := Scalar.muli arg16 c16_i32_99
  let v200 : Index := Scalar.indexCast v198
  ![8, v200.toNat]
def k1_off81 (k1_t5 : Fin k1_t5_loop.trips) : Fin 2 → Nat :=
  let c9_i32 : BitVec 32 := 9#32
  let v203 : Index := Scalar.indexCast c9_i32
  let c0_i32_66 : BitVec 32 := 0#32
  let c1_i32_67 : BitVec 32 := 1#32
  let arg16 : BitVec 32 := Scf.iv c0_i32_66 c1_i32_67 k1_t5
  let c16_i32_100 : BitVec 32 := 16#32
  let v202 : BitVec 32 := Scalar.muli arg16 c16_i32_100
  let v204 : Index := Scalar.indexCast v202
  ![9, v204.toNat]
def k1_off82 (k1_t5 : Fin k1_t5_loop.trips) : Fin 2 → Nat :=
  let c10_i32 : BitVec 32 := 10#32
  let v207 : Index := Scalar.indexCast c10_i32
  let c0_i32_66 : BitVec 32 := 0#32
  let c1_i32_67 : BitVec 32 := 1#32
  let arg16 : BitVec 32 := Scf.iv c0_i32_66 c1_i32_67 k1_t5
  let c16_i32_101 : BitVec 32 := 16#32
  let v206 : BitVec 32 := Scalar.muli arg16 c16_i32_101
  let v208 : Index := Scalar.indexCast v206
  ![10, v208.toNat]
def k1_off83 (k1_t5 : Fin k1_t5_loop.trips) : Fin 2 → Nat :=
  let c11_i32 : BitVec 32 := 11#32
  let v211 : Index := Scalar.indexCast c11_i32
  let c0_i32_66 : BitVec 32 := 0#32
  let c1_i32_67 : BitVec 32 := 1#32
  let arg16 : BitVec 32 := Scf.iv c0_i32_66 c1_i32_67 k1_t5
  let c16_i32_102 : BitVec 32 := 16#32
  let v210 : BitVec 32 := Scalar.muli arg16 c16_i32_102
  let v212 : Index := Scalar.indexCast v210
  ![11, v212.toNat]
def k1_off84 (k1_t5 : Fin k1_t5_loop.trips) : Fin 2 → Nat :=
  let c12_i32 : BitVec 32 := 12#32
  let v215 : Index := Scalar.indexCast c12_i32
  let c0_i32_66 : BitVec 32 := 0#32
  let c1_i32_67 : BitVec 32 := 1#32
  let arg16 : BitVec 32 := Scf.iv c0_i32_66 c1_i32_67 k1_t5
  let c16_i32_103 : BitVec 32 := 16#32
  let v214 : BitVec 32 := Scalar.muli arg16 c16_i32_103
  let v216 : Index := Scalar.indexCast v214
  ![12, v216.toNat]
def k1_off85 (k1_t5 : Fin k1_t5_loop.trips) : Fin 2 → Nat :=
  let c13_i32 : BitVec 32 := 13#32
  let v219 : Index := Scalar.indexCast c13_i32
  let c0_i32_66 : BitVec 32 := 0#32
  let c1_i32_67 : BitVec 32 := 1#32
  let arg16 : BitVec 32 := Scf.iv c0_i32_66 c1_i32_67 k1_t5
  let c16_i32_104 : BitVec 32 := 16#32
  let v218 : BitVec 32 := Scalar.muli arg16 c16_i32_104
  let v220 : Index := Scalar.indexCast v218
  ![13, v220.toNat]
def k1_off86 (k1_t5 : Fin k1_t5_loop.trips) : Fin 2 → Nat :=
  let c14_i32 : BitVec 32 := 14#32
  let v223 : Index := Scalar.indexCast c14_i32
  let c0_i32_66 : BitVec 32 := 0#32
  let c1_i32_67 : BitVec 32 := 1#32
  let arg16 : BitVec 32 := Scf.iv c0_i32_66 c1_i32_67 k1_t5
  let c16_i32_105 : BitVec 32 := 16#32
  let v222 : BitVec 32 := Scalar.muli arg16 c16_i32_105
  let v224 : Index := Scalar.indexCast v222
  ![14, v224.toNat]
def k1_off87 (k1_t5 : Fin k1_t5_loop.trips) : Fin 2 → Nat :=
  let c15_i32 : BitVec 32 := 15#32
  let v227 : Index := Scalar.indexCast c15_i32
  let c0_i32_66 : BitVec 32 := 0#32
  let c1_i32_67 : BitVec 32 := 1#32
  let arg16 : BitVec 32 := Scf.iv c0_i32_66 c1_i32_67 k1_t5
  let c16_i32_106 : BitVec 32 := 16#32
  let v226 : BitVec 32 := Scalar.muli arg16 c16_i32_106
  let v228 : Index := Scalar.indexCast v226
  ![15, v228.toNat]
def k1_off88 (k1_t5 : Fin k1_t5_loop.trips) : Fin 2 → Nat :=
  let c16_i32_108 : BitVec 32 := 16#32
  let v231 : Index := Scalar.indexCast c16_i32_108
  let c0_i32_66 : BitVec 32 := 0#32
  let c1_i32_67 : BitVec 32 := 1#32
  let arg16 : BitVec 32 := Scf.iv c0_i32_66 c1_i32_67 k1_t5
  let c16_i32_107 : BitVec 32 := 16#32
  let v230 : BitVec 32 := Scalar.muli arg16 c16_i32_107
  let v232 : Index := Scalar.indexCast v230
  ![16, v232.toNat]
def k1_off89 (k1_t5 : Fin k1_t5_loop.trips) : Fin 2 → Nat :=
  let c17_i32 : BitVec 32 := 17#32
  let v235 : Index := Scalar.indexCast c17_i32
  let c0_i32_66 : BitVec 32 := 0#32
  let c1_i32_67 : BitVec 32 := 1#32
  let arg16 : BitVec 32 := Scf.iv c0_i32_66 c1_i32_67 k1_t5
  let c16_i32_109 : BitVec 32 := 16#32
  let v234 : BitVec 32 := Scalar.muli arg16 c16_i32_109
  let v236 : Index := Scalar.indexCast v234
  ![17, v236.toNat]
def k1_off90 (k1_t5 : Fin k1_t5_loop.trips) : Fin 2 → Nat :=
  let c18_i32 : BitVec 32 := 18#32
  let v239 : Index := Scalar.indexCast c18_i32
  let c0_i32_66 : BitVec 32 := 0#32
  let c1_i32_67 : BitVec 32 := 1#32
  let arg16 : BitVec 32 := Scf.iv c0_i32_66 c1_i32_67 k1_t5
  let c16_i32_110 : BitVec 32 := 16#32
  let v238 : BitVec 32 := Scalar.muli arg16 c16_i32_110
  let v240 : Index := Scalar.indexCast v238
  ![18, v240.toNat]
def k1_off91 (k1_t5 : Fin k1_t5_loop.trips) : Fin 2 → Nat :=
  let c19_i32 : BitVec 32 := 19#32
  let v243 : Index := Scalar.indexCast c19_i32
  let c0_i32_66 : BitVec 32 := 0#32
  let c1_i32_67 : BitVec 32 := 1#32
  let arg16 : BitVec 32 := Scf.iv c0_i32_66 c1_i32_67 k1_t5
  let c16_i32_111 : BitVec 32 := 16#32
  let v242 : BitVec 32 := Scalar.muli arg16 c16_i32_111
  let v244 : Index := Scalar.indexCast v242
  ![19, v244.toNat]
def k1_off92 (k1_t5 : Fin k1_t5_loop.trips) : Fin 2 → Nat :=
  let c20_i32 : BitVec 32 := 20#32
  let v247 : Index := Scalar.indexCast c20_i32
  let c0_i32_66 : BitVec 32 := 0#32
  let c1_i32_67 : BitVec 32 := 1#32
  let arg16 : BitVec 32 := Scf.iv c0_i32_66 c1_i32_67 k1_t5
  let c16_i32_112 : BitVec 32 := 16#32
  let v246 : BitVec 32 := Scalar.muli arg16 c16_i32_112
  let v248 : Index := Scalar.indexCast v246
  ![20, v248.toNat]
def k1_off93 (k1_t5 : Fin k1_t5_loop.trips) : Fin 2 → Nat :=
  let c21_i32 : BitVec 32 := 21#32
  let v251 : Index := Scalar.indexCast c21_i32
  let c0_i32_66 : BitVec 32 := 0#32
  let c1_i32_67 : BitVec 32 := 1#32
  let arg16 : BitVec 32 := Scf.iv c0_i32_66 c1_i32_67 k1_t5
  let c16_i32_113 : BitVec 32 := 16#32
  let v250 : BitVec 32 := Scalar.muli arg16 c16_i32_113
  let v252 : Index := Scalar.indexCast v250
  ![21, v252.toNat]
def k1_off94 (k1_t5 : Fin k1_t5_loop.trips) : Fin 2 → Nat :=
  let c22_i32 : BitVec 32 := 22#32
  let v255 : Index := Scalar.indexCast c22_i32
  let c0_i32_66 : BitVec 32 := 0#32
  let c1_i32_67 : BitVec 32 := 1#32
  let arg16 : BitVec 32 := Scf.iv c0_i32_66 c1_i32_67 k1_t5
  let c16_i32_114 : BitVec 32 := 16#32
  let v254 : BitVec 32 := Scalar.muli arg16 c16_i32_114
  let v256 : Index := Scalar.indexCast v254
  ![22, v256.toNat]
def k1_off95 (k1_t5 : Fin k1_t5_loop.trips) : Fin 2 → Nat :=
  let c23_i32 : BitVec 32 := 23#32
  let v259 : Index := Scalar.indexCast c23_i32
  let c0_i32_66 : BitVec 32 := 0#32
  let c1_i32_67 : BitVec 32 := 1#32
  let arg16 : BitVec 32 := Scf.iv c0_i32_66 c1_i32_67 k1_t5
  let c16_i32_115 : BitVec 32 := 16#32
  let v258 : BitVec 32 := Scalar.muli arg16 c16_i32_115
  let v260 : Index := Scalar.indexCast v258
  ![23, v260.toNat]
def k1_off96 (k1_t5 : Fin k1_t5_loop.trips) : Fin 2 → Nat :=
  let c24_i32 : BitVec 32 := 24#32
  let v263 : Index := Scalar.indexCast c24_i32
  let c0_i32_66 : BitVec 32 := 0#32
  let c1_i32_67 : BitVec 32 := 1#32
  let arg16 : BitVec 32 := Scf.iv c0_i32_66 c1_i32_67 k1_t5
  let c16_i32_116 : BitVec 32 := 16#32
  let v262 : BitVec 32 := Scalar.muli arg16 c16_i32_116
  let v264 : Index := Scalar.indexCast v262
  ![24, v264.toNat]
def k1_off97 (k1_t5 : Fin k1_t5_loop.trips) : Fin 2 → Nat :=
  let c25_i32 : BitVec 32 := 25#32
  let v267 : Index := Scalar.indexCast c25_i32
  let c0_i32_66 : BitVec 32 := 0#32
  let c1_i32_67 : BitVec 32 := 1#32
  let arg16 : BitVec 32 := Scf.iv c0_i32_66 c1_i32_67 k1_t5
  let c16_i32_117 : BitVec 32 := 16#32
  let v266 : BitVec 32 := Scalar.muli arg16 c16_i32_117
  let v268 : Index := Scalar.indexCast v266
  ![25, v268.toNat]
def k1_off98 (k1_t5 : Fin k1_t5_loop.trips) : Fin 2 → Nat :=
  let c26_i32 : BitVec 32 := 26#32
  let v271 : Index := Scalar.indexCast c26_i32
  let c0_i32_66 : BitVec 32 := 0#32
  let c1_i32_67 : BitVec 32 := 1#32
  let arg16 : BitVec 32 := Scf.iv c0_i32_66 c1_i32_67 k1_t5
  let c16_i32_118 : BitVec 32 := 16#32
  let v270 : BitVec 32 := Scalar.muli arg16 c16_i32_118
  let v272 : Index := Scalar.indexCast v270
  ![26, v272.toNat]
def k1_off99 (k1_t5 : Fin k1_t5_loop.trips) : Fin 2 → Nat :=
  let c27_i32 : BitVec 32 := 27#32
  let v275 : Index := Scalar.indexCast c27_i32
  let c0_i32_66 : BitVec 32 := 0#32
  let c1_i32_67 : BitVec 32 := 1#32
  let arg16 : BitVec 32 := Scf.iv c0_i32_66 c1_i32_67 k1_t5
  let c16_i32_119 : BitVec 32 := 16#32
  let v274 : BitVec 32 := Scalar.muli arg16 c16_i32_119
  let v276 : Index := Scalar.indexCast v274
  ![27, v276.toNat]
def k1_off100 (k1_t5 : Fin k1_t5_loop.trips) : Fin 2 → Nat :=
  let c28_i32 : BitVec 32 := 28#32
  let v279 : Index := Scalar.indexCast c28_i32
  let c0_i32_66 : BitVec 32 := 0#32
  let c1_i32_67 : BitVec 32 := 1#32
  let arg16 : BitVec 32 := Scf.iv c0_i32_66 c1_i32_67 k1_t5
  let c16_i32_120 : BitVec 32 := 16#32
  let v278 : BitVec 32 := Scalar.muli arg16 c16_i32_120
  let v280 : Index := Scalar.indexCast v278
  ![28, v280.toNat]
def k1_off101 (k1_t5 : Fin k1_t5_loop.trips) : Fin 2 → Nat :=
  let c29_i32 : BitVec 32 := 29#32
  let v283 : Index := Scalar.indexCast c29_i32
  let c0_i32_66 : BitVec 32 := 0#32
  let c1_i32_67 : BitVec 32 := 1#32
  let arg16 : BitVec 32 := Scf.iv c0_i32_66 c1_i32_67 k1_t5
  let c16_i32_121 : BitVec 32 := 16#32
  let v282 : BitVec 32 := Scalar.muli arg16 c16_i32_121
  let v284 : Index := Scalar.indexCast v282
  ![29, v284.toNat]
def k1_off102 (k1_t5 : Fin k1_t5_loop.trips) : Fin 2 → Nat :=
  let c30_i32 : BitVec 32 := 30#32
  let v287 : Index := Scalar.indexCast c30_i32
  let c0_i32_66 : BitVec 32 := 0#32
  let c1_i32_67 : BitVec 32 := 1#32
  let arg16 : BitVec 32 := Scf.iv c0_i32_66 c1_i32_67 k1_t5
  let c16_i32_122 : BitVec 32 := 16#32
  let v286 : BitVec 32 := Scalar.muli arg16 c16_i32_122
  let v288 : Index := Scalar.indexCast v286
  ![30, v288.toNat]
def k1_off103 (k1_t5 : Fin k1_t5_loop.trips) : Fin 2 → Nat :=
  let c31_i32 : BitVec 32 := 31#32
  let v291 : Index := Scalar.indexCast c31_i32
  let c0_i32_66 : BitVec 32 := 0#32
  let c1_i32_67 : BitVec 32 := 1#32
  let arg16 : BitVec 32 := Scf.iv c0_i32_66 c1_i32_67 k1_t5
  let c16_i32_123 : BitVec 32 := 16#32
  let v290 : BitVec 32 := Scalar.muli arg16 c16_i32_123
  let v292 : Index := Scalar.indexCast v290
  ![31, v292.toNat]
def k1_off104 (i : grid1.Coords) (k1_t4 : Fin k1_t4_loop.trips) (c0_i32_69 : BitVec 32) : Fin 3 → Nat :=
  let c40_i32_59 : BitVec 32 := 40#32
  let c0_i32_16 : BitVec 32 := 0#32
  let c1_i32_18 : BitVec 32 := 1#32
  let arg14 : BitVec 32 := Scf.iv c0_i32_16 c1_i32_18 k1_t4
  let v41 : BitVec 32 := Scalar.addi c40_i32_59 arg14
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v48 : BitVec 32 := Scalar.addi v2 c0_i32_69
  ![v41.toNat, 0, v48.toNat]
@[reducible] def k1_t6_loop : Scf.Loop 32 :=
  let c0_i32_78 : BitVec 32 := 0#32
  let c16_i32_79 : BitVec 32 := 16#32
  let v57 : BitVec 32 := Scalar.addi c0_i32_78 c16_i32_79
  let c1_i32_80 : BitVec 32 := 1#32
  ⟨c0_i32_78, v57, c1_i32_80⟩
def k1_mult4 (k1_t6 : Fin k1_t6_loop.trips) : BitVec 32 :=
  let c256_i32_86 : BitVec 32 := 256#32
  let c0_i32_78 : BitVec 32 := 0#32
  let c1_i32_80 : BitVec 32 := 1#32
  let arg16 : BitVec 32 := Scf.iv c0_i32_78 c1_i32_80 k1_t6
  let c16_i32_85 : BitVec 32 := 16#32
  let v64 : BitVec 32 := Scalar.muli arg16 c16_i32_85
  let v65 : BitVec 32 := Scalar.addi c256_i32_86 v64
  v65
def k1_off105 (k1_t4 : Fin k1_t4_loop.trips) (k1_t6 : Fin k1_t6_loop.trips) : Fin 2 → Nat :=
  let c0_i32_16 : BitVec 32 := 0#32
  let c1_i32_18 : BitVec 32 := 1#32
  let arg14 : BitVec 32 := Scf.iv c0_i32_16 c1_i32_18 k1_t4
  let v67 : Index := Scalar.indexCast arg14
  let c256_i32_86 : BitVec 32 := 256#32
  let c0_i32_78 : BitVec 32 := 0#32
  let c1_i32_80 : BitVec 32 := 1#32
  let arg16 : BitVec 32 := Scf.iv c0_i32_78 c1_i32_80 k1_t6
  let c16_i32_85 : BitVec 32 := 16#32
  let v64 : BitVec 32 := Scalar.muli arg16 c16_i32_85
  let v65 : BitVec 32 := Scalar.addi c256_i32_86 v64
  let v66 : BitVec 32 := v65
  let v68 : Index := Scalar.indexCast v66
  ![v67.toNat, v68.toNat]

def k1_chk97 (v71 : IVec S16 32) : Prop :=
  (∀ a x, ((![v71] : Fin 1 → IVec S16 32) a x).toNat < S32000.size a)
instance k1_chk97.dec : ∀ (v71 : IVec S16 32), Decidable (k1_chk97 v71) := fun v71 => decidable_of_iff' _ (Iff.of_eq (k1_chk97.eq_1 v71))
theorem k1_idx97_inb : ∀ (v71 : IVec S16 32) (k1_hw97 : k1_chk97 v71), ∀ a x, ((![v71] : Fin 1 → IVec S16 32) a x).toNat < S32000.size a := fun v71 k1_hw97 => k1_hw97

def k1_chk98 (v74 : IVec S16 32) : Prop :=
  (∀ a x, ((![v74] : Fin 1 → IVec S16 32) a x).toNat < S32000.size a)
instance k1_chk98.dec : ∀ (v74 : IVec S16 32), Decidable (k1_chk98 v74) := fun v74 => decidable_of_iff' _ (Iff.of_eq (k1_chk98.eq_1 v74))
theorem k1_idx98_inb : ∀ (v74 : IVec S16 32) (k1_hw98 : k1_chk98 v74), ∀ a x, ((![v74] : Fin 1 → IVec S16 32) a x).toNat < S32000.size a := fun v74 k1_hw98 => k1_hw98

def k1_chk99 (v77 : IVec S16 32) : Prop :=
  (∀ a x, ((![v77] : Fin 1 → IVec S16 32) a x).toNat < S32000.size a)
instance k1_chk99.dec : ∀ (v77 : IVec S16 32), Decidable (k1_chk99 v77) := fun v77 => decidable_of_iff' _ (Iff.of_eq (k1_chk99.eq_1 v77))
theorem k1_idx99_inb : ∀ (v77 : IVec S16 32) (k1_hw99 : k1_chk99 v77), ∀ a x, ((![v77] : Fin 1 → IVec S16 32) a x).toNat < S32000.size a := fun v77 k1_hw99 => k1_hw99

def k1_chk100 (v80 : IVec S16 32) : Prop :=
  (∀ a x, ((![v80] : Fin 1 → IVec S16 32) a x).toNat < S32000.size a)
instance k1_chk100.dec : ∀ (v80 : IVec S16 32), Decidable (k1_chk100 v80) := fun v80 => decidable_of_iff' _ (Iff.of_eq (k1_chk100.eq_1 v80))
theorem k1_idx100_inb : ∀ (v80 : IVec S16 32) (k1_hw100 : k1_chk100 v80), ∀ a x, ((![v80] : Fin 1 → IVec S16 32) a x).toNat < S32000.size a := fun v80 k1_hw100 => k1_hw100

def k1_chk101 (v83 : IVec S16 32) : Prop :=
  (∀ a x, ((![v83] : Fin 1 → IVec S16 32) a x).toNat < S32000.size a)
instance k1_chk101.dec : ∀ (v83 : IVec S16 32), Decidable (k1_chk101 v83) := fun v83 => decidable_of_iff' _ (Iff.of_eq (k1_chk101.eq_1 v83))
theorem k1_idx101_inb : ∀ (v83 : IVec S16 32) (k1_hw101 : k1_chk101 v83), ∀ a x, ((![v83] : Fin 1 → IVec S16 32) a x).toNat < S32000.size a := fun v83 k1_hw101 => k1_hw101

def k1_chk102 (v86 : IVec S16 32) : Prop :=
  (∀ a x, ((![v86] : Fin 1 → IVec S16 32) a x).toNat < S32000.size a)
instance k1_chk102.dec : ∀ (v86 : IVec S16 32), Decidable (k1_chk102 v86) := fun v86 => decidable_of_iff' _ (Iff.of_eq (k1_chk102.eq_1 v86))
theorem k1_idx102_inb : ∀ (v86 : IVec S16 32) (k1_hw102 : k1_chk102 v86), ∀ a x, ((![v86] : Fin 1 → IVec S16 32) a x).toNat < S32000.size a := fun v86 k1_hw102 => k1_hw102

def k1_chk103 (v89 : IVec S16 32) : Prop :=
  (∀ a x, ((![v89] : Fin 1 → IVec S16 32) a x).toNat < S32000.size a)
instance k1_chk103.dec : ∀ (v89 : IVec S16 32), Decidable (k1_chk103 v89) := fun v89 => decidable_of_iff' _ (Iff.of_eq (k1_chk103.eq_1 v89))
theorem k1_idx103_inb : ∀ (v89 : IVec S16 32) (k1_hw103 : k1_chk103 v89), ∀ a x, ((![v89] : Fin 1 → IVec S16 32) a x).toNat < S32000.size a := fun v89 k1_hw103 => k1_hw103

def k1_chk104 (v92 : IVec S16 32) : Prop :=
  (∀ a x, ((![v92] : Fin 1 → IVec S16 32) a x).toNat < S32000.size a)
instance k1_chk104.dec : ∀ (v92 : IVec S16 32), Decidable (k1_chk104 v92) := fun v92 => decidable_of_iff' _ (Iff.of_eq (k1_chk104.eq_1 v92))
theorem k1_idx104_inb : ∀ (v92 : IVec S16 32) (k1_hw104 : k1_chk104 v92), ∀ a x, ((![v92] : Fin 1 → IVec S16 32) a x).toNat < S32000.size a := fun v92 k1_hw104 => k1_hw104

def k1_chk105 (v95 : IVec S16 32) : Prop :=
  (∀ a x, ((![v95] : Fin 1 → IVec S16 32) a x).toNat < S32000.size a)
instance k1_chk105.dec : ∀ (v95 : IVec S16 32), Decidable (k1_chk105 v95) := fun v95 => decidable_of_iff' _ (Iff.of_eq (k1_chk105.eq_1 v95))
theorem k1_idx105_inb : ∀ (v95 : IVec S16 32) (k1_hw105 : k1_chk105 v95), ∀ a x, ((![v95] : Fin 1 → IVec S16 32) a x).toNat < S32000.size a := fun v95 k1_hw105 => k1_hw105

def k1_chk106 (v98 : IVec S16 32) : Prop :=
  (∀ a x, ((![v98] : Fin 1 → IVec S16 32) a x).toNat < S32000.size a)
instance k1_chk106.dec : ∀ (v98 : IVec S16 32), Decidable (k1_chk106 v98) := fun v98 => decidable_of_iff' _ (Iff.of_eq (k1_chk106.eq_1 v98))
theorem k1_idx106_inb : ∀ (v98 : IVec S16 32) (k1_hw106 : k1_chk106 v98), ∀ a x, ((![v98] : Fin 1 → IVec S16 32) a x).toNat < S32000.size a := fun v98 k1_hw106 => k1_hw106

def k1_chk107 (v101 : IVec S16 32) : Prop :=
  (∀ a x, ((![v101] : Fin 1 → IVec S16 32) a x).toNat < S32000.size a)
instance k1_chk107.dec : ∀ (v101 : IVec S16 32), Decidable (k1_chk107 v101) := fun v101 => decidable_of_iff' _ (Iff.of_eq (k1_chk107.eq_1 v101))
theorem k1_idx107_inb : ∀ (v101 : IVec S16 32) (k1_hw107 : k1_chk107 v101), ∀ a x, ((![v101] : Fin 1 → IVec S16 32) a x).toNat < S32000.size a := fun v101 k1_hw107 => k1_hw107

def k1_chk108 (v104 : IVec S16 32) : Prop :=
  (∀ a x, ((![v104] : Fin 1 → IVec S16 32) a x).toNat < S32000.size a)
instance k1_chk108.dec : ∀ (v104 : IVec S16 32), Decidable (k1_chk108 v104) := fun v104 => decidable_of_iff' _ (Iff.of_eq (k1_chk108.eq_1 v104))
theorem k1_idx108_inb : ∀ (v104 : IVec S16 32) (k1_hw108 : k1_chk108 v104), ∀ a x, ((![v104] : Fin 1 → IVec S16 32) a x).toNat < S32000.size a := fun v104 k1_hw108 => k1_hw108

def k1_chk109 (v107 : IVec S16 32) : Prop :=
  (∀ a x, ((![v107] : Fin 1 → IVec S16 32) a x).toNat < S32000.size a)
instance k1_chk109.dec : ∀ (v107 : IVec S16 32), Decidable (k1_chk109 v107) := fun v107 => decidable_of_iff' _ (Iff.of_eq (k1_chk109.eq_1 v107))
theorem k1_idx109_inb : ∀ (v107 : IVec S16 32) (k1_hw109 : k1_chk109 v107), ∀ a x, ((![v107] : Fin 1 → IVec S16 32) a x).toNat < S32000.size a := fun v107 k1_hw109 => k1_hw109

def k1_chk110 (v110 : IVec S16 32) : Prop :=
  (∀ a x, ((![v110] : Fin 1 → IVec S16 32) a x).toNat < S32000.size a)
instance k1_chk110.dec : ∀ (v110 : IVec S16 32), Decidable (k1_chk110 v110) := fun v110 => decidable_of_iff' _ (Iff.of_eq (k1_chk110.eq_1 v110))
theorem k1_idx110_inb : ∀ (v110 : IVec S16 32) (k1_hw110 : k1_chk110 v110), ∀ a x, ((![v110] : Fin 1 → IVec S16 32) a x).toNat < S32000.size a := fun v110 k1_hw110 => k1_hw110

def k1_chk111 (v113 : IVec S16 32) : Prop :=
  (∀ a x, ((![v113] : Fin 1 → IVec S16 32) a x).toNat < S32000.size a)
instance k1_chk111.dec : ∀ (v113 : IVec S16 32), Decidable (k1_chk111 v113) := fun v113 => decidable_of_iff' _ (Iff.of_eq (k1_chk111.eq_1 v113))
theorem k1_idx111_inb : ∀ (v113 : IVec S16 32) (k1_hw111 : k1_chk111 v113), ∀ a x, ((![v113] : Fin 1 → IVec S16 32) a x).toNat < S32000.size a := fun v113 k1_hw111 => k1_hw111

def k1_chk112 (v116 : IVec S16 32) : Prop :=
  (∀ a x, ((![v116] : Fin 1 → IVec S16 32) a x).toNat < S32000.size a)
instance k1_chk112.dec : ∀ (v116 : IVec S16 32), Decidable (k1_chk112 v116) := fun v116 => decidable_of_iff' _ (Iff.of_eq (k1_chk112.eq_1 v116))
theorem k1_idx112_inb : ∀ (v116 : IVec S16 32) (k1_hw112 : k1_chk112 v116), ∀ a x, ((![v116] : Fin 1 → IVec S16 32) a x).toNat < S32000.size a := fun v116 k1_hw112 => k1_hw112

def k1_chk113 (v119 : IVec S16 32) : Prop :=
  (∀ a x, ((![v119] : Fin 1 → IVec S16 32) a x).toNat < S32000.size a)
instance k1_chk113.dec : ∀ (v119 : IVec S16 32), Decidable (k1_chk113 v119) := fun v119 => decidable_of_iff' _ (Iff.of_eq (k1_chk113.eq_1 v119))
theorem k1_idx113_inb : ∀ (v119 : IVec S16 32) (k1_hw113 : k1_chk113 v119), ∀ a x, ((![v119] : Fin 1 → IVec S16 32) a x).toNat < S32000.size a := fun v119 k1_hw113 => k1_hw113

def k1_chk114 (v122 : IVec S16 32) : Prop :=
  (∀ a x, ((![v122] : Fin 1 → IVec S16 32) a x).toNat < S32000.size a)
instance k1_chk114.dec : ∀ (v122 : IVec S16 32), Decidable (k1_chk114 v122) := fun v122 => decidable_of_iff' _ (Iff.of_eq (k1_chk114.eq_1 v122))
theorem k1_idx114_inb : ∀ (v122 : IVec S16 32) (k1_hw114 : k1_chk114 v122), ∀ a x, ((![v122] : Fin 1 → IVec S16 32) a x).toNat < S32000.size a := fun v122 k1_hw114 => k1_hw114

def k1_chk115 (v125 : IVec S16 32) : Prop :=
  (∀ a x, ((![v125] : Fin 1 → IVec S16 32) a x).toNat < S32000.size a)
instance k1_chk115.dec : ∀ (v125 : IVec S16 32), Decidable (k1_chk115 v125) := fun v125 => decidable_of_iff' _ (Iff.of_eq (k1_chk115.eq_1 v125))
theorem k1_idx115_inb : ∀ (v125 : IVec S16 32) (k1_hw115 : k1_chk115 v125), ∀ a x, ((![v125] : Fin 1 → IVec S16 32) a x).toNat < S32000.size a := fun v125 k1_hw115 => k1_hw115

def k1_chk116 (v128 : IVec S16 32) : Prop :=
  (∀ a x, ((![v128] : Fin 1 → IVec S16 32) a x).toNat < S32000.size a)
instance k1_chk116.dec : ∀ (v128 : IVec S16 32), Decidable (k1_chk116 v128) := fun v128 => decidable_of_iff' _ (Iff.of_eq (k1_chk116.eq_1 v128))
theorem k1_idx116_inb : ∀ (v128 : IVec S16 32) (k1_hw116 : k1_chk116 v128), ∀ a x, ((![v128] : Fin 1 → IVec S16 32) a x).toNat < S32000.size a := fun v128 k1_hw116 => k1_hw116

def k1_chk117 (v131 : IVec S16 32) : Prop :=
  (∀ a x, ((![v131] : Fin 1 → IVec S16 32) a x).toNat < S32000.size a)
instance k1_chk117.dec : ∀ (v131 : IVec S16 32), Decidable (k1_chk117 v131) := fun v131 => decidable_of_iff' _ (Iff.of_eq (k1_chk117.eq_1 v131))
theorem k1_idx117_inb : ∀ (v131 : IVec S16 32) (k1_hw117 : k1_chk117 v131), ∀ a x, ((![v131] : Fin 1 → IVec S16 32) a x).toNat < S32000.size a := fun v131 k1_hw117 => k1_hw117

def k1_chk118 (v134 : IVec S16 32) : Prop :=
  (∀ a x, ((![v134] : Fin 1 → IVec S16 32) a x).toNat < S32000.size a)
instance k1_chk118.dec : ∀ (v134 : IVec S16 32), Decidable (k1_chk118 v134) := fun v134 => decidable_of_iff' _ (Iff.of_eq (k1_chk118.eq_1 v134))
theorem k1_idx118_inb : ∀ (v134 : IVec S16 32) (k1_hw118 : k1_chk118 v134), ∀ a x, ((![v134] : Fin 1 → IVec S16 32) a x).toNat < S32000.size a := fun v134 k1_hw118 => k1_hw118

def k1_chk119 (v137 : IVec S16 32) : Prop :=
  (∀ a x, ((![v137] : Fin 1 → IVec S16 32) a x).toNat < S32000.size a)
instance k1_chk119.dec : ∀ (v137 : IVec S16 32), Decidable (k1_chk119 v137) := fun v137 => decidable_of_iff' _ (Iff.of_eq (k1_chk119.eq_1 v137))
theorem k1_idx119_inb : ∀ (v137 : IVec S16 32) (k1_hw119 : k1_chk119 v137), ∀ a x, ((![v137] : Fin 1 → IVec S16 32) a x).toNat < S32000.size a := fun v137 k1_hw119 => k1_hw119

def k1_chk120 (v140 : IVec S16 32) : Prop :=
  (∀ a x, ((![v140] : Fin 1 → IVec S16 32) a x).toNat < S32000.size a)
instance k1_chk120.dec : ∀ (v140 : IVec S16 32), Decidable (k1_chk120 v140) := fun v140 => decidable_of_iff' _ (Iff.of_eq (k1_chk120.eq_1 v140))
theorem k1_idx120_inb : ∀ (v140 : IVec S16 32) (k1_hw120 : k1_chk120 v140), ∀ a x, ((![v140] : Fin 1 → IVec S16 32) a x).toNat < S32000.size a := fun v140 k1_hw120 => k1_hw120

def k1_chk121 (v143 : IVec S16 32) : Prop :=
  (∀ a x, ((![v143] : Fin 1 → IVec S16 32) a x).toNat < S32000.size a)
instance k1_chk121.dec : ∀ (v143 : IVec S16 32), Decidable (k1_chk121 v143) := fun v143 => decidable_of_iff' _ (Iff.of_eq (k1_chk121.eq_1 v143))
theorem k1_idx121_inb : ∀ (v143 : IVec S16 32) (k1_hw121 : k1_chk121 v143), ∀ a x, ((![v143] : Fin 1 → IVec S16 32) a x).toNat < S32000.size a := fun v143 k1_hw121 => k1_hw121

def k1_chk122 (v146 : IVec S16 32) : Prop :=
  (∀ a x, ((![v146] : Fin 1 → IVec S16 32) a x).toNat < S32000.size a)
instance k1_chk122.dec : ∀ (v146 : IVec S16 32), Decidable (k1_chk122 v146) := fun v146 => decidable_of_iff' _ (Iff.of_eq (k1_chk122.eq_1 v146))
theorem k1_idx122_inb : ∀ (v146 : IVec S16 32) (k1_hw122 : k1_chk122 v146), ∀ a x, ((![v146] : Fin 1 → IVec S16 32) a x).toNat < S32000.size a := fun v146 k1_hw122 => k1_hw122

def k1_chk123 (v149 : IVec S16 32) : Prop :=
  (∀ a x, ((![v149] : Fin 1 → IVec S16 32) a x).toNat < S32000.size a)
instance k1_chk123.dec : ∀ (v149 : IVec S16 32), Decidable (k1_chk123 v149) := fun v149 => decidable_of_iff' _ (Iff.of_eq (k1_chk123.eq_1 v149))
theorem k1_idx123_inb : ∀ (v149 : IVec S16 32) (k1_hw123 : k1_chk123 v149), ∀ a x, ((![v149] : Fin 1 → IVec S16 32) a x).toNat < S32000.size a := fun v149 k1_hw123 => k1_hw123

def k1_chk124 (v152 : IVec S16 32) : Prop :=
  (∀ a x, ((![v152] : Fin 1 → IVec S16 32) a x).toNat < S32000.size a)
instance k1_chk124.dec : ∀ (v152 : IVec S16 32), Decidable (k1_chk124 v152) := fun v152 => decidable_of_iff' _ (Iff.of_eq (k1_chk124.eq_1 v152))
theorem k1_idx124_inb : ∀ (v152 : IVec S16 32) (k1_hw124 : k1_chk124 v152), ∀ a x, ((![v152] : Fin 1 → IVec S16 32) a x).toNat < S32000.size a := fun v152 k1_hw124 => k1_hw124

def k1_chk125 (v155 : IVec S16 32) : Prop :=
  (∀ a x, ((![v155] : Fin 1 → IVec S16 32) a x).toNat < S32000.size a)
instance k1_chk125.dec : ∀ (v155 : IVec S16 32), Decidable (k1_chk125 v155) := fun v155 => decidable_of_iff' _ (Iff.of_eq (k1_chk125.eq_1 v155))
theorem k1_idx125_inb : ∀ (v155 : IVec S16 32) (k1_hw125 : k1_chk125 v155), ∀ a x, ((![v155] : Fin 1 → IVec S16 32) a x).toNat < S32000.size a := fun v155 k1_hw125 => k1_hw125

def k1_chk126 (v158 : IVec S16 32) : Prop :=
  (∀ a x, ((![v158] : Fin 1 → IVec S16 32) a x).toNat < S32000.size a)
instance k1_chk126.dec : ∀ (v158 : IVec S16 32), Decidable (k1_chk126 v158) := fun v158 => decidable_of_iff' _ (Iff.of_eq (k1_chk126.eq_1 v158))
theorem k1_idx126_inb : ∀ (v158 : IVec S16 32) (k1_hw126 : k1_chk126 v158), ∀ a x, ((![v158] : Fin 1 → IVec S16 32) a x).toNat < S32000.size a := fun v158 k1_hw126 => k1_hw126

def k1_chk127 (v161 : IVec S16 32) : Prop :=
  (∀ a x, ((![v161] : Fin 1 → IVec S16 32) a x).toNat < S32000.size a)
instance k1_chk127.dec : ∀ (v161 : IVec S16 32), Decidable (k1_chk127 v161) := fun v161 => decidable_of_iff' _ (Iff.of_eq (k1_chk127.eq_1 v161))
theorem k1_idx127_inb : ∀ (v161 : IVec S16 32) (k1_hw127 : k1_chk127 v161), ∀ a x, ((![v161] : Fin 1 → IVec S16 32) a x).toNat < S32000.size a := fun v161 k1_hw127 => k1_hw127

def k1_chk128 (v164 : IVec S16 32) : Prop :=
  (∀ a x, ((![v164] : Fin 1 → IVec S16 32) a x).toNat < S32000.size a)
instance k1_chk128.dec : ∀ (v164 : IVec S16 32), Decidable (k1_chk128 v164) := fun v164 => decidable_of_iff' _ (Iff.of_eq (k1_chk128.eq_1 v164))
theorem k1_idx128_inb : ∀ (v164 : IVec S16 32) (k1_hw128 : k1_chk128 v164), ∀ a x, ((![v164] : Fin 1 → IVec S16 32) a x).toNat < S32000.size a := fun v164 k1_hw128 => k1_hw128
def k1_off106 (k1_t6 : Fin k1_t6_loop.trips) : Fin 2 → Nat :=
  let c0_i32_89 : BitVec 32 := 0#32
  let v167 : Index := Scalar.indexCast c0_i32_89
  let c0_i32_78 : BitVec 32 := 0#32
  let c1_i32_80 : BitVec 32 := 1#32
  let arg16 : BitVec 32 := Scf.iv c0_i32_78 c1_i32_80 k1_t6
  let c16_i32_88 : BitVec 32 := 16#32
  let v166 : BitVec 32 := Scalar.muli arg16 c16_i32_88
  let v168 : Index := Scalar.indexCast v166
  ![0, v168.toNat]
def k1_off107 (k1_t6 : Fin k1_t6_loop.trips) : Fin 2 → Nat :=
  let c1_i32_91 : BitVec 32 := 1#32
  let v171 : Index := Scalar.indexCast c1_i32_91
  let c0_i32_78 : BitVec 32 := 0#32
  let c1_i32_80 : BitVec 32 := 1#32
  let arg16 : BitVec 32 := Scf.iv c0_i32_78 c1_i32_80 k1_t6
  let c16_i32_90 : BitVec 32 := 16#32
  let v170 : BitVec 32 := Scalar.muli arg16 c16_i32_90
  let v172 : Index := Scalar.indexCast v170
  ![1, v172.toNat]
def k1_off108 (k1_t6 : Fin k1_t6_loop.trips) : Fin 2 → Nat :=
  let c2_i32_93 : BitVec 32 := 2#32
  let v175 : Index := Scalar.indexCast c2_i32_93
  let c0_i32_78 : BitVec 32 := 0#32
  let c1_i32_80 : BitVec 32 := 1#32
  let arg16 : BitVec 32 := Scf.iv c0_i32_78 c1_i32_80 k1_t6
  let c16_i32_92 : BitVec 32 := 16#32
  let v174 : BitVec 32 := Scalar.muli arg16 c16_i32_92
  let v176 : Index := Scalar.indexCast v174
  ![2, v176.toNat]
def k1_off109 (k1_t6 : Fin k1_t6_loop.trips) : Fin 2 → Nat :=
  let c3_i32 : BitVec 32 := 3#32
  let v179 : Index := Scalar.indexCast c3_i32
  let c0_i32_78 : BitVec 32 := 0#32
  let c1_i32_80 : BitVec 32 := 1#32
  let arg16 : BitVec 32 := Scf.iv c0_i32_78 c1_i32_80 k1_t6
  let c16_i32_94 : BitVec 32 := 16#32
  let v178 : BitVec 32 := Scalar.muli arg16 c16_i32_94
  let v180 : Index := Scalar.indexCast v178
  ![3, v180.toNat]
def k1_off110 (k1_t6 : Fin k1_t6_loop.trips) : Fin 2 → Nat :=
  let c4_i32 : BitVec 32 := 4#32
  let v183 : Index := Scalar.indexCast c4_i32
  let c0_i32_78 : BitVec 32 := 0#32
  let c1_i32_80 : BitVec 32 := 1#32
  let arg16 : BitVec 32 := Scf.iv c0_i32_78 c1_i32_80 k1_t6
  let c16_i32_95 : BitVec 32 := 16#32
  let v182 : BitVec 32 := Scalar.muli arg16 c16_i32_95
  let v184 : Index := Scalar.indexCast v182
  ![4, v184.toNat]
def k1_off111 (k1_t6 : Fin k1_t6_loop.trips) : Fin 2 → Nat :=
  let c5_i32 : BitVec 32 := 5#32
  let v187 : Index := Scalar.indexCast c5_i32
  let c0_i32_78 : BitVec 32 := 0#32
  let c1_i32_80 : BitVec 32 := 1#32
  let arg16 : BitVec 32 := Scf.iv c0_i32_78 c1_i32_80 k1_t6
  let c16_i32_96 : BitVec 32 := 16#32
  let v186 : BitVec 32 := Scalar.muli arg16 c16_i32_96
  let v188 : Index := Scalar.indexCast v186
  ![5, v188.toNat]
def k1_off112 (k1_t6 : Fin k1_t6_loop.trips) : Fin 2 → Nat :=
  let c6_i32 : BitVec 32 := 6#32
  let v191 : Index := Scalar.indexCast c6_i32
  let c0_i32_78 : BitVec 32 := 0#32
  let c1_i32_80 : BitVec 32 := 1#32
  let arg16 : BitVec 32 := Scf.iv c0_i32_78 c1_i32_80 k1_t6
  let c16_i32_97 : BitVec 32 := 16#32
  let v190 : BitVec 32 := Scalar.muli arg16 c16_i32_97
  let v192 : Index := Scalar.indexCast v190
  ![6, v192.toNat]
def k1_off113 (k1_t6 : Fin k1_t6_loop.trips) : Fin 2 → Nat :=
  let c7_i32 : BitVec 32 := 7#32
  let v195 : Index := Scalar.indexCast c7_i32
  let c0_i32_78 : BitVec 32 := 0#32
  let c1_i32_80 : BitVec 32 := 1#32
  let arg16 : BitVec 32 := Scf.iv c0_i32_78 c1_i32_80 k1_t6
  let c16_i32_98 : BitVec 32 := 16#32
  let v194 : BitVec 32 := Scalar.muli arg16 c16_i32_98
  let v196 : Index := Scalar.indexCast v194
  ![7, v196.toNat]
def k1_off114 (k1_t6 : Fin k1_t6_loop.trips) : Fin 2 → Nat :=
  let c8_i32 : BitVec 32 := 8#32
  let v199 : Index := Scalar.indexCast c8_i32
  let c0_i32_78 : BitVec 32 := 0#32
  let c1_i32_80 : BitVec 32 := 1#32
  let arg16 : BitVec 32 := Scf.iv c0_i32_78 c1_i32_80 k1_t6
  let c16_i32_99 : BitVec 32 := 16#32
  let v198 : BitVec 32 := Scalar.muli arg16 c16_i32_99
  let v200 : Index := Scalar.indexCast v198
  ![8, v200.toNat]
def k1_off115 (k1_t6 : Fin k1_t6_loop.trips) : Fin 2 → Nat :=
  let c9_i32 : BitVec 32 := 9#32
  let v203 : Index := Scalar.indexCast c9_i32
  let c0_i32_78 : BitVec 32 := 0#32
  let c1_i32_80 : BitVec 32 := 1#32
  let arg16 : BitVec 32 := Scf.iv c0_i32_78 c1_i32_80 k1_t6
  let c16_i32_100 : BitVec 32 := 16#32
  let v202 : BitVec 32 := Scalar.muli arg16 c16_i32_100
  let v204 : Index := Scalar.indexCast v202
  ![9, v204.toNat]
def k1_off116 (k1_t6 : Fin k1_t6_loop.trips) : Fin 2 → Nat :=
  let c10_i32 : BitVec 32 := 10#32
  let v207 : Index := Scalar.indexCast c10_i32
  let c0_i32_78 : BitVec 32 := 0#32
  let c1_i32_80 : BitVec 32 := 1#32
  let arg16 : BitVec 32 := Scf.iv c0_i32_78 c1_i32_80 k1_t6
  let c16_i32_101 : BitVec 32 := 16#32
  let v206 : BitVec 32 := Scalar.muli arg16 c16_i32_101
  let v208 : Index := Scalar.indexCast v206
  ![10, v208.toNat]
def k1_off117 (k1_t6 : Fin k1_t6_loop.trips) : Fin 2 → Nat :=
  let c11_i32 : BitVec 32 := 11#32
  let v211 : Index := Scalar.indexCast c11_i32
  let c0_i32_78 : BitVec 32 := 0#32
  let c1_i32_80 : BitVec 32 := 1#32
  let arg16 : BitVec 32 := Scf.iv c0_i32_78 c1_i32_80 k1_t6
  let c16_i32_102 : BitVec 32 := 16#32
  let v210 : BitVec 32 := Scalar.muli arg16 c16_i32_102
  let v212 : Index := Scalar.indexCast v210
  ![11, v212.toNat]
def k1_off118 (k1_t6 : Fin k1_t6_loop.trips) : Fin 2 → Nat :=
  let c12_i32 : BitVec 32 := 12#32
  let v215 : Index := Scalar.indexCast c12_i32
  let c0_i32_78 : BitVec 32 := 0#32
  let c1_i32_80 : BitVec 32 := 1#32
  let arg16 : BitVec 32 := Scf.iv c0_i32_78 c1_i32_80 k1_t6
  let c16_i32_103 : BitVec 32 := 16#32
  let v214 : BitVec 32 := Scalar.muli arg16 c16_i32_103
  let v216 : Index := Scalar.indexCast v214
  ![12, v216.toNat]
def k1_off119 (k1_t6 : Fin k1_t6_loop.trips) : Fin 2 → Nat :=
  let c13_i32 : BitVec 32 := 13#32
  let v219 : Index := Scalar.indexCast c13_i32
  let c0_i32_78 : BitVec 32 := 0#32
  let c1_i32_80 : BitVec 32 := 1#32
  let arg16 : BitVec 32 := Scf.iv c0_i32_78 c1_i32_80 k1_t6
  let c16_i32_104 : BitVec 32 := 16#32
  let v218 : BitVec 32 := Scalar.muli arg16 c16_i32_104
  let v220 : Index := Scalar.indexCast v218
  ![13, v220.toNat]
def k1_off120 (k1_t6 : Fin k1_t6_loop.trips) : Fin 2 → Nat :=
  let c14_i32 : BitVec 32 := 14#32
  let v223 : Index := Scalar.indexCast c14_i32
  let c0_i32_78 : BitVec 32 := 0#32
  let c1_i32_80 : BitVec 32 := 1#32
  let arg16 : BitVec 32 := Scf.iv c0_i32_78 c1_i32_80 k1_t6
  let c16_i32_105 : BitVec 32 := 16#32
  let v222 : BitVec 32 := Scalar.muli arg16 c16_i32_105
  let v224 : Index := Scalar.indexCast v222
  ![14, v224.toNat]
def k1_off121 (k1_t6 : Fin k1_t6_loop.trips) : Fin 2 → Nat :=
  let c15_i32 : BitVec 32 := 15#32
  let v227 : Index := Scalar.indexCast c15_i32
  let c0_i32_78 : BitVec 32 := 0#32
  let c1_i32_80 : BitVec 32 := 1#32
  let arg16 : BitVec 32 := Scf.iv c0_i32_78 c1_i32_80 k1_t6
  let c16_i32_106 : BitVec 32 := 16#32
  let v226 : BitVec 32 := Scalar.muli arg16 c16_i32_106
  let v228 : Index := Scalar.indexCast v226
  ![15, v228.toNat]
def k1_off122 (k1_t6 : Fin k1_t6_loop.trips) : Fin 2 → Nat :=
  let c16_i32_108 : BitVec 32 := 16#32
  let v231 : Index := Scalar.indexCast c16_i32_108
  let c0_i32_78 : BitVec 32 := 0#32
  let c1_i32_80 : BitVec 32 := 1#32
  let arg16 : BitVec 32 := Scf.iv c0_i32_78 c1_i32_80 k1_t6
  let c16_i32_107 : BitVec 32 := 16#32
  let v230 : BitVec 32 := Scalar.muli arg16 c16_i32_107
  let v232 : Index := Scalar.indexCast v230
  ![16, v232.toNat]
def k1_off123 (k1_t6 : Fin k1_t6_loop.trips) : Fin 2 → Nat :=
  let c17_i32 : BitVec 32 := 17#32
  let v235 : Index := Scalar.indexCast c17_i32
  let c0_i32_78 : BitVec 32 := 0#32
  let c1_i32_80 : BitVec 32 := 1#32
  let arg16 : BitVec 32 := Scf.iv c0_i32_78 c1_i32_80 k1_t6
  let c16_i32_109 : BitVec 32 := 16#32
  let v234 : BitVec 32 := Scalar.muli arg16 c16_i32_109
  let v236 : Index := Scalar.indexCast v234
  ![17, v236.toNat]
def k1_off124 (k1_t6 : Fin k1_t6_loop.trips) : Fin 2 → Nat :=
  let c18_i32 : BitVec 32 := 18#32
  let v239 : Index := Scalar.indexCast c18_i32
  let c0_i32_78 : BitVec 32 := 0#32
  let c1_i32_80 : BitVec 32 := 1#32
  let arg16 : BitVec 32 := Scf.iv c0_i32_78 c1_i32_80 k1_t6
  let c16_i32_110 : BitVec 32 := 16#32
  let v238 : BitVec 32 := Scalar.muli arg16 c16_i32_110
  let v240 : Index := Scalar.indexCast v238
  ![18, v240.toNat]
def k1_off125 (k1_t6 : Fin k1_t6_loop.trips) : Fin 2 → Nat :=
  let c19_i32 : BitVec 32 := 19#32
  let v243 : Index := Scalar.indexCast c19_i32
  let c0_i32_78 : BitVec 32 := 0#32
  let c1_i32_80 : BitVec 32 := 1#32
  let arg16 : BitVec 32 := Scf.iv c0_i32_78 c1_i32_80 k1_t6
  let c16_i32_111 : BitVec 32 := 16#32
  let v242 : BitVec 32 := Scalar.muli arg16 c16_i32_111
  let v244 : Index := Scalar.indexCast v242
  ![19, v244.toNat]
def k1_off126 (k1_t6 : Fin k1_t6_loop.trips) : Fin 2 → Nat :=
  let c20_i32 : BitVec 32 := 20#32
  let v247 : Index := Scalar.indexCast c20_i32
  let c0_i32_78 : BitVec 32 := 0#32
  let c1_i32_80 : BitVec 32 := 1#32
  let arg16 : BitVec 32 := Scf.iv c0_i32_78 c1_i32_80 k1_t6
  let c16_i32_112 : BitVec 32 := 16#32
  let v246 : BitVec 32 := Scalar.muli arg16 c16_i32_112
  let v248 : Index := Scalar.indexCast v246
  ![20, v248.toNat]
def k1_off127 (k1_t6 : Fin k1_t6_loop.trips) : Fin 2 → Nat :=
  let c21_i32 : BitVec 32 := 21#32
  let v251 : Index := Scalar.indexCast c21_i32
  let c0_i32_78 : BitVec 32 := 0#32
  let c1_i32_80 : BitVec 32 := 1#32
  let arg16 : BitVec 32 := Scf.iv c0_i32_78 c1_i32_80 k1_t6
  let c16_i32_113 : BitVec 32 := 16#32
  let v250 : BitVec 32 := Scalar.muli arg16 c16_i32_113
  let v252 : Index := Scalar.indexCast v250
  ![21, v252.toNat]
def k1_off128 (k1_t6 : Fin k1_t6_loop.trips) : Fin 2 → Nat :=
  let c22_i32 : BitVec 32 := 22#32
  let v255 : Index := Scalar.indexCast c22_i32
  let c0_i32_78 : BitVec 32 := 0#32
  let c1_i32_80 : BitVec 32 := 1#32
  let arg16 : BitVec 32 := Scf.iv c0_i32_78 c1_i32_80 k1_t6
  let c16_i32_114 : BitVec 32 := 16#32
  let v254 : BitVec 32 := Scalar.muli arg16 c16_i32_114
  let v256 : Index := Scalar.indexCast v254
  ![22, v256.toNat]
def k1_off129 (k1_t6 : Fin k1_t6_loop.trips) : Fin 2 → Nat :=
  let c23_i32 : BitVec 32 := 23#32
  let v259 : Index := Scalar.indexCast c23_i32
  let c0_i32_78 : BitVec 32 := 0#32
  let c1_i32_80 : BitVec 32 := 1#32
  let arg16 : BitVec 32 := Scf.iv c0_i32_78 c1_i32_80 k1_t6
  let c16_i32_115 : BitVec 32 := 16#32
  let v258 : BitVec 32 := Scalar.muli arg16 c16_i32_115
  let v260 : Index := Scalar.indexCast v258
  ![23, v260.toNat]
def k1_off130 (k1_t6 : Fin k1_t6_loop.trips) : Fin 2 → Nat :=
  let c24_i32 : BitVec 32 := 24#32
  let v263 : Index := Scalar.indexCast c24_i32
  let c0_i32_78 : BitVec 32 := 0#32
  let c1_i32_80 : BitVec 32 := 1#32
  let arg16 : BitVec 32 := Scf.iv c0_i32_78 c1_i32_80 k1_t6
  let c16_i32_116 : BitVec 32 := 16#32
  let v262 : BitVec 32 := Scalar.muli arg16 c16_i32_116
  let v264 : Index := Scalar.indexCast v262
  ![24, v264.toNat]
def k1_off131 (k1_t6 : Fin k1_t6_loop.trips) : Fin 2 → Nat :=
  let c25_i32 : BitVec 32 := 25#32
  let v267 : Index := Scalar.indexCast c25_i32
  let c0_i32_78 : BitVec 32 := 0#32
  let c1_i32_80 : BitVec 32 := 1#32
  let arg16 : BitVec 32 := Scf.iv c0_i32_78 c1_i32_80 k1_t6
  let c16_i32_117 : BitVec 32 := 16#32
  let v266 : BitVec 32 := Scalar.muli arg16 c16_i32_117
  let v268 : Index := Scalar.indexCast v266
  ![25, v268.toNat]
def k1_off132 (k1_t6 : Fin k1_t6_loop.trips) : Fin 2 → Nat :=
  let c26_i32 : BitVec 32 := 26#32
  let v271 : Index := Scalar.indexCast c26_i32
  let c0_i32_78 : BitVec 32 := 0#32
  let c1_i32_80 : BitVec 32 := 1#32
  let arg16 : BitVec 32 := Scf.iv c0_i32_78 c1_i32_80 k1_t6
  let c16_i32_118 : BitVec 32 := 16#32
  let v270 : BitVec 32 := Scalar.muli arg16 c16_i32_118
  let v272 : Index := Scalar.indexCast v270
  ![26, v272.toNat]
def k1_off133 (k1_t6 : Fin k1_t6_loop.trips) : Fin 2 → Nat :=
  let c27_i32 : BitVec 32 := 27#32
  let v275 : Index := Scalar.indexCast c27_i32
  let c0_i32_78 : BitVec 32 := 0#32
  let c1_i32_80 : BitVec 32 := 1#32
  let arg16 : BitVec 32 := Scf.iv c0_i32_78 c1_i32_80 k1_t6
  let c16_i32_119 : BitVec 32 := 16#32
  let v274 : BitVec 32 := Scalar.muli arg16 c16_i32_119
  let v276 : Index := Scalar.indexCast v274
  ![27, v276.toNat]
def k1_off134 (k1_t6 : Fin k1_t6_loop.trips) : Fin 2 → Nat :=
  let c28_i32 : BitVec 32 := 28#32
  let v279 : Index := Scalar.indexCast c28_i32
  let c0_i32_78 : BitVec 32 := 0#32
  let c1_i32_80 : BitVec 32 := 1#32
  let arg16 : BitVec 32 := Scf.iv c0_i32_78 c1_i32_80 k1_t6
  let c16_i32_120 : BitVec 32 := 16#32
  let v278 : BitVec 32 := Scalar.muli arg16 c16_i32_120
  let v280 : Index := Scalar.indexCast v278
  ![28, v280.toNat]
def k1_off135 (k1_t6 : Fin k1_t6_loop.trips) : Fin 2 → Nat :=
  let c29_i32 : BitVec 32 := 29#32
  let v283 : Index := Scalar.indexCast c29_i32
  let c0_i32_78 : BitVec 32 := 0#32
  let c1_i32_80 : BitVec 32 := 1#32
  let arg16 : BitVec 32 := Scf.iv c0_i32_78 c1_i32_80 k1_t6
  let c16_i32_121 : BitVec 32 := 16#32
  let v282 : BitVec 32 := Scalar.muli arg16 c16_i32_121
  let v284 : Index := Scalar.indexCast v282
  ![29, v284.toNat]
def k1_off136 (k1_t6 : Fin k1_t6_loop.trips) : Fin 2 → Nat :=
  let c30_i32 : BitVec 32 := 30#32
  let v287 : Index := Scalar.indexCast c30_i32
  let c0_i32_78 : BitVec 32 := 0#32
  let c1_i32_80 : BitVec 32 := 1#32
  let arg16 : BitVec 32 := Scf.iv c0_i32_78 c1_i32_80 k1_t6
  let c16_i32_122 : BitVec 32 := 16#32
  let v286 : BitVec 32 := Scalar.muli arg16 c16_i32_122
  let v288 : Index := Scalar.indexCast v286
  ![30, v288.toNat]
def k1_off137 (k1_t6 : Fin k1_t6_loop.trips) : Fin 2 → Nat :=
  let c31_i32 : BitVec 32 := 31#32
  let v291 : Index := Scalar.indexCast c31_i32
  let c0_i32_78 : BitVec 32 := 0#32
  let c1_i32_80 : BitVec 32 := 1#32
  let arg16 : BitVec 32 := Scf.iv c0_i32_78 c1_i32_80 k1_t6
  let c16_i32_123 : BitVec 32 := 16#32
  let v290 : BitVec 32 := Scalar.muli arg16 c16_i32_123
  let v292 : Index := Scalar.indexCast v290
  ![31, v292.toNat]
def k1_off138 (i : grid1.Coords) : Fin 2 → Nat :=
  let c120_i32 : BitVec 32 := 120#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![120, v2.toNat]
@[reducible] def k1_t7_loop : Scf.Loop 32 :=
  let c0_i32_26 : BitVec 32 := 0#32
  let c40_i32_27 : BitVec 32 := 40#32
  let v21 : BitVec 32 := Scalar.addi c0_i32_26 c40_i32_27
  let c1_i32_28 : BitVec 32 := 1#32
  ⟨c0_i32_26, v21, c1_i32_28⟩
@[reducible] def k1_t8_loop : Scf.Loop 32 :=
  let c0_i32_66 : BitVec 32 := 0#32
  let c16_i32 : BitVec 32 := 16#32
  let v46 : BitVec 32 := Scalar.addi c0_i32_66 c16_i32
  let c1_i32_67 : BitVec 32 := 1#32
  ⟨c0_i32_66, v46, c1_i32_67⟩
def k1_mult5 (k1_t8 : Fin k1_t8_loop.trips) : BitVec 32 :=
  let c0_i32_86 : BitVec 32 := 0#32
  let c0_i32_66 : BitVec 32 := 0#32
  let c1_i32_67 : BitVec 32 := 1#32
  let arg16 : BitVec 32 := Scf.iv c0_i32_66 c1_i32_67 k1_t8
  let c16_i32_85 : BitVec 32 := 16#32
  let v64 : BitVec 32 := Scalar.muli arg16 c16_i32_85
  let v65 : BitVec 32 := Scalar.addi c0_i32_86 v64
  v65
def k1_off139 (k1_t7 : Fin k1_t7_loop.trips) (k1_t8 : Fin k1_t8_loop.trips) : Fin 2 → Nat :=
  let c0_i32_26 : BitVec 32 := 0#32
  let c1_i32_28 : BitVec 32 := 1#32
  let arg14 : BitVec 32 := Scf.iv c0_i32_26 c1_i32_28 k1_t7
  let v67 : Index := Scalar.indexCast arg14
  let c0_i32_86 : BitVec 32 := 0#32
  let c0_i32_66 : BitVec 32 := 0#32
  let c1_i32_67 : BitVec 32 := 1#32
  let arg16 : BitVec 32 := Scf.iv c0_i32_66 c1_i32_67 k1_t8
  let c16_i32_85 : BitVec 32 := 16#32
  let v64 : BitVec 32 := Scalar.muli arg16 c16_i32_85
  let v65 : BitVec 32 := Scalar.addi c0_i32_86 v64
  let v66 : BitVec 32 := v65
  let v68 : Index := Scalar.indexCast v66
  ![v67.toNat, v68.toNat]

def k1_chk129 (v71 : IVec S16 32) : Prop :=
  (∀ a x, ((![v71] : Fin 1 → IVec S16 32) a x).toNat < S32000.size a)
instance k1_chk129.dec : ∀ (v71 : IVec S16 32), Decidable (k1_chk129 v71) := fun v71 => decidable_of_iff' _ (Iff.of_eq (k1_chk129.eq_1 v71))
theorem k1_idx129_inb : ∀ (v71 : IVec S16 32) (k1_hw129 : k1_chk129 v71), ∀ a x, ((![v71] : Fin 1 → IVec S16 32) a x).toNat < S32000.size a := fun v71 k1_hw129 => k1_hw129

def k1_chk130 (v74 : IVec S16 32) : Prop :=
  (∀ a x, ((![v74] : Fin 1 → IVec S16 32) a x).toNat < S32000.size a)
instance k1_chk130.dec : ∀ (v74 : IVec S16 32), Decidable (k1_chk130 v74) := fun v74 => decidable_of_iff' _ (Iff.of_eq (k1_chk130.eq_1 v74))
theorem k1_idx130_inb : ∀ (v74 : IVec S16 32) (k1_hw130 : k1_chk130 v74), ∀ a x, ((![v74] : Fin 1 → IVec S16 32) a x).toNat < S32000.size a := fun v74 k1_hw130 => k1_hw130

def k1_chk131 (v77 : IVec S16 32) : Prop :=
  (∀ a x, ((![v77] : Fin 1 → IVec S16 32) a x).toNat < S32000.size a)
instance k1_chk131.dec : ∀ (v77 : IVec S16 32), Decidable (k1_chk131 v77) := fun v77 => decidable_of_iff' _ (Iff.of_eq (k1_chk131.eq_1 v77))
theorem k1_idx131_inb : ∀ (v77 : IVec S16 32) (k1_hw131 : k1_chk131 v77), ∀ a x, ((![v77] : Fin 1 → IVec S16 32) a x).toNat < S32000.size a := fun v77 k1_hw131 => k1_hw131

def k1_chk132 (v80 : IVec S16 32) : Prop :=
  (∀ a x, ((![v80] : Fin 1 → IVec S16 32) a x).toNat < S32000.size a)
instance k1_chk132.dec : ∀ (v80 : IVec S16 32), Decidable (k1_chk132 v80) := fun v80 => decidable_of_iff' _ (Iff.of_eq (k1_chk132.eq_1 v80))
theorem k1_idx132_inb : ∀ (v80 : IVec S16 32) (k1_hw132 : k1_chk132 v80), ∀ a x, ((![v80] : Fin 1 → IVec S16 32) a x).toNat < S32000.size a := fun v80 k1_hw132 => k1_hw132

def k1_chk133 (v83 : IVec S16 32) : Prop :=
  (∀ a x, ((![v83] : Fin 1 → IVec S16 32) a x).toNat < S32000.size a)
instance k1_chk133.dec : ∀ (v83 : IVec S16 32), Decidable (k1_chk133 v83) := fun v83 => decidable_of_iff' _ (Iff.of_eq (k1_chk133.eq_1 v83))
theorem k1_idx133_inb : ∀ (v83 : IVec S16 32) (k1_hw133 : k1_chk133 v83), ∀ a x, ((![v83] : Fin 1 → IVec S16 32) a x).toNat < S32000.size a := fun v83 k1_hw133 => k1_hw133

def k1_chk134 (v86 : IVec S16 32) : Prop :=
  (∀ a x, ((![v86] : Fin 1 → IVec S16 32) a x).toNat < S32000.size a)
instance k1_chk134.dec : ∀ (v86 : IVec S16 32), Decidable (k1_chk134 v86) := fun v86 => decidable_of_iff' _ (Iff.of_eq (k1_chk134.eq_1 v86))
theorem k1_idx134_inb : ∀ (v86 : IVec S16 32) (k1_hw134 : k1_chk134 v86), ∀ a x, ((![v86] : Fin 1 → IVec S16 32) a x).toNat < S32000.size a := fun v86 k1_hw134 => k1_hw134

def k1_chk135 (v89 : IVec S16 32) : Prop :=
  (∀ a x, ((![v89] : Fin 1 → IVec S16 32) a x).toNat < S32000.size a)
instance k1_chk135.dec : ∀ (v89 : IVec S16 32), Decidable (k1_chk135 v89) := fun v89 => decidable_of_iff' _ (Iff.of_eq (k1_chk135.eq_1 v89))
theorem k1_idx135_inb : ∀ (v89 : IVec S16 32) (k1_hw135 : k1_chk135 v89), ∀ a x, ((![v89] : Fin 1 → IVec S16 32) a x).toNat < S32000.size a := fun v89 k1_hw135 => k1_hw135

def k1_chk136 (v92 : IVec S16 32) : Prop :=
  (∀ a x, ((![v92] : Fin 1 → IVec S16 32) a x).toNat < S32000.size a)
instance k1_chk136.dec : ∀ (v92 : IVec S16 32), Decidable (k1_chk136 v92) := fun v92 => decidable_of_iff' _ (Iff.of_eq (k1_chk136.eq_1 v92))
theorem k1_idx136_inb : ∀ (v92 : IVec S16 32) (k1_hw136 : k1_chk136 v92), ∀ a x, ((![v92] : Fin 1 → IVec S16 32) a x).toNat < S32000.size a := fun v92 k1_hw136 => k1_hw136

def k1_chk137 (v95 : IVec S16 32) : Prop :=
  (∀ a x, ((![v95] : Fin 1 → IVec S16 32) a x).toNat < S32000.size a)
instance k1_chk137.dec : ∀ (v95 : IVec S16 32), Decidable (k1_chk137 v95) := fun v95 => decidable_of_iff' _ (Iff.of_eq (k1_chk137.eq_1 v95))
theorem k1_idx137_inb : ∀ (v95 : IVec S16 32) (k1_hw137 : k1_chk137 v95), ∀ a x, ((![v95] : Fin 1 → IVec S16 32) a x).toNat < S32000.size a := fun v95 k1_hw137 => k1_hw137

def k1_chk138 (v98 : IVec S16 32) : Prop :=
  (∀ a x, ((![v98] : Fin 1 → IVec S16 32) a x).toNat < S32000.size a)
instance k1_chk138.dec : ∀ (v98 : IVec S16 32), Decidable (k1_chk138 v98) := fun v98 => decidable_of_iff' _ (Iff.of_eq (k1_chk138.eq_1 v98))
theorem k1_idx138_inb : ∀ (v98 : IVec S16 32) (k1_hw138 : k1_chk138 v98), ∀ a x, ((![v98] : Fin 1 → IVec S16 32) a x).toNat < S32000.size a := fun v98 k1_hw138 => k1_hw138

def k1_chk139 (v101 : IVec S16 32) : Prop :=
  (∀ a x, ((![v101] : Fin 1 → IVec S16 32) a x).toNat < S32000.size a)
instance k1_chk139.dec : ∀ (v101 : IVec S16 32), Decidable (k1_chk139 v101) := fun v101 => decidable_of_iff' _ (Iff.of_eq (k1_chk139.eq_1 v101))
theorem k1_idx139_inb : ∀ (v101 : IVec S16 32) (k1_hw139 : k1_chk139 v101), ∀ a x, ((![v101] : Fin 1 → IVec S16 32) a x).toNat < S32000.size a := fun v101 k1_hw139 => k1_hw139

def k1_chk140 (v104 : IVec S16 32) : Prop :=
  (∀ a x, ((![v104] : Fin 1 → IVec S16 32) a x).toNat < S32000.size a)
instance k1_chk140.dec : ∀ (v104 : IVec S16 32), Decidable (k1_chk140 v104) := fun v104 => decidable_of_iff' _ (Iff.of_eq (k1_chk140.eq_1 v104))
theorem k1_idx140_inb : ∀ (v104 : IVec S16 32) (k1_hw140 : k1_chk140 v104), ∀ a x, ((![v104] : Fin 1 → IVec S16 32) a x).toNat < S32000.size a := fun v104 k1_hw140 => k1_hw140

def k1_chk141 (v107 : IVec S16 32) : Prop :=
  (∀ a x, ((![v107] : Fin 1 → IVec S16 32) a x).toNat < S32000.size a)
instance k1_chk141.dec : ∀ (v107 : IVec S16 32), Decidable (k1_chk141 v107) := fun v107 => decidable_of_iff' _ (Iff.of_eq (k1_chk141.eq_1 v107))
theorem k1_idx141_inb : ∀ (v107 : IVec S16 32) (k1_hw141 : k1_chk141 v107), ∀ a x, ((![v107] : Fin 1 → IVec S16 32) a x).toNat < S32000.size a := fun v107 k1_hw141 => k1_hw141

def k1_chk142 (v110 : IVec S16 32) : Prop :=
  (∀ a x, ((![v110] : Fin 1 → IVec S16 32) a x).toNat < S32000.size a)
instance k1_chk142.dec : ∀ (v110 : IVec S16 32), Decidable (k1_chk142 v110) := fun v110 => decidable_of_iff' _ (Iff.of_eq (k1_chk142.eq_1 v110))
theorem k1_idx142_inb : ∀ (v110 : IVec S16 32) (k1_hw142 : k1_chk142 v110), ∀ a x, ((![v110] : Fin 1 → IVec S16 32) a x).toNat < S32000.size a := fun v110 k1_hw142 => k1_hw142

def k1_chk143 (v113 : IVec S16 32) : Prop :=
  (∀ a x, ((![v113] : Fin 1 → IVec S16 32) a x).toNat < S32000.size a)
instance k1_chk143.dec : ∀ (v113 : IVec S16 32), Decidable (k1_chk143 v113) := fun v113 => decidable_of_iff' _ (Iff.of_eq (k1_chk143.eq_1 v113))
theorem k1_idx143_inb : ∀ (v113 : IVec S16 32) (k1_hw143 : k1_chk143 v113), ∀ a x, ((![v113] : Fin 1 → IVec S16 32) a x).toNat < S32000.size a := fun v113 k1_hw143 => k1_hw143

def k1_chk144 (v116 : IVec S16 32) : Prop :=
  (∀ a x, ((![v116] : Fin 1 → IVec S16 32) a x).toNat < S32000.size a)
instance k1_chk144.dec : ∀ (v116 : IVec S16 32), Decidable (k1_chk144 v116) := fun v116 => decidable_of_iff' _ (Iff.of_eq (k1_chk144.eq_1 v116))
theorem k1_idx144_inb : ∀ (v116 : IVec S16 32) (k1_hw144 : k1_chk144 v116), ∀ a x, ((![v116] : Fin 1 → IVec S16 32) a x).toNat < S32000.size a := fun v116 k1_hw144 => k1_hw144

def k1_chk145 (v119 : IVec S16 32) : Prop :=
  (∀ a x, ((![v119] : Fin 1 → IVec S16 32) a x).toNat < S32000.size a)
instance k1_chk145.dec : ∀ (v119 : IVec S16 32), Decidable (k1_chk145 v119) := fun v119 => decidable_of_iff' _ (Iff.of_eq (k1_chk145.eq_1 v119))
theorem k1_idx145_inb : ∀ (v119 : IVec S16 32) (k1_hw145 : k1_chk145 v119), ∀ a x, ((![v119] : Fin 1 → IVec S16 32) a x).toNat < S32000.size a := fun v119 k1_hw145 => k1_hw145

def k1_chk146 (v122 : IVec S16 32) : Prop :=
  (∀ a x, ((![v122] : Fin 1 → IVec S16 32) a x).toNat < S32000.size a)
instance k1_chk146.dec : ∀ (v122 : IVec S16 32), Decidable (k1_chk146 v122) := fun v122 => decidable_of_iff' _ (Iff.of_eq (k1_chk146.eq_1 v122))
theorem k1_idx146_inb : ∀ (v122 : IVec S16 32) (k1_hw146 : k1_chk146 v122), ∀ a x, ((![v122] : Fin 1 → IVec S16 32) a x).toNat < S32000.size a := fun v122 k1_hw146 => k1_hw146

def k1_chk147 (v125 : IVec S16 32) : Prop :=
  (∀ a x, ((![v125] : Fin 1 → IVec S16 32) a x).toNat < S32000.size a)
instance k1_chk147.dec : ∀ (v125 : IVec S16 32), Decidable (k1_chk147 v125) := fun v125 => decidable_of_iff' _ (Iff.of_eq (k1_chk147.eq_1 v125))
theorem k1_idx147_inb : ∀ (v125 : IVec S16 32) (k1_hw147 : k1_chk147 v125), ∀ a x, ((![v125] : Fin 1 → IVec S16 32) a x).toNat < S32000.size a := fun v125 k1_hw147 => k1_hw147

def k1_chk148 (v128 : IVec S16 32) : Prop :=
  (∀ a x, ((![v128] : Fin 1 → IVec S16 32) a x).toNat < S32000.size a)
instance k1_chk148.dec : ∀ (v128 : IVec S16 32), Decidable (k1_chk148 v128) := fun v128 => decidable_of_iff' _ (Iff.of_eq (k1_chk148.eq_1 v128))
theorem k1_idx148_inb : ∀ (v128 : IVec S16 32) (k1_hw148 : k1_chk148 v128), ∀ a x, ((![v128] : Fin 1 → IVec S16 32) a x).toNat < S32000.size a := fun v128 k1_hw148 => k1_hw148

def k1_chk149 (v131 : IVec S16 32) : Prop :=
  (∀ a x, ((![v131] : Fin 1 → IVec S16 32) a x).toNat < S32000.size a)
instance k1_chk149.dec : ∀ (v131 : IVec S16 32), Decidable (k1_chk149 v131) := fun v131 => decidable_of_iff' _ (Iff.of_eq (k1_chk149.eq_1 v131))
theorem k1_idx149_inb : ∀ (v131 : IVec S16 32) (k1_hw149 : k1_chk149 v131), ∀ a x, ((![v131] : Fin 1 → IVec S16 32) a x).toNat < S32000.size a := fun v131 k1_hw149 => k1_hw149

def k1_chk150 (v134 : IVec S16 32) : Prop :=
  (∀ a x, ((![v134] : Fin 1 → IVec S16 32) a x).toNat < S32000.size a)
instance k1_chk150.dec : ∀ (v134 : IVec S16 32), Decidable (k1_chk150 v134) := fun v134 => decidable_of_iff' _ (Iff.of_eq (k1_chk150.eq_1 v134))
theorem k1_idx150_inb : ∀ (v134 : IVec S16 32) (k1_hw150 : k1_chk150 v134), ∀ a x, ((![v134] : Fin 1 → IVec S16 32) a x).toNat < S32000.size a := fun v134 k1_hw150 => k1_hw150

def k1_chk151 (v137 : IVec S16 32) : Prop :=
  (∀ a x, ((![v137] : Fin 1 → IVec S16 32) a x).toNat < S32000.size a)
instance k1_chk151.dec : ∀ (v137 : IVec S16 32), Decidable (k1_chk151 v137) := fun v137 => decidable_of_iff' _ (Iff.of_eq (k1_chk151.eq_1 v137))
theorem k1_idx151_inb : ∀ (v137 : IVec S16 32) (k1_hw151 : k1_chk151 v137), ∀ a x, ((![v137] : Fin 1 → IVec S16 32) a x).toNat < S32000.size a := fun v137 k1_hw151 => k1_hw151

def k1_chk152 (v140 : IVec S16 32) : Prop :=
  (∀ a x, ((![v140] : Fin 1 → IVec S16 32) a x).toNat < S32000.size a)
instance k1_chk152.dec : ∀ (v140 : IVec S16 32), Decidable (k1_chk152 v140) := fun v140 => decidable_of_iff' _ (Iff.of_eq (k1_chk152.eq_1 v140))
theorem k1_idx152_inb : ∀ (v140 : IVec S16 32) (k1_hw152 : k1_chk152 v140), ∀ a x, ((![v140] : Fin 1 → IVec S16 32) a x).toNat < S32000.size a := fun v140 k1_hw152 => k1_hw152

def k1_chk153 (v143 : IVec S16 32) : Prop :=
  (∀ a x, ((![v143] : Fin 1 → IVec S16 32) a x).toNat < S32000.size a)
instance k1_chk153.dec : ∀ (v143 : IVec S16 32), Decidable (k1_chk153 v143) := fun v143 => decidable_of_iff' _ (Iff.of_eq (k1_chk153.eq_1 v143))
theorem k1_idx153_inb : ∀ (v143 : IVec S16 32) (k1_hw153 : k1_chk153 v143), ∀ a x, ((![v143] : Fin 1 → IVec S16 32) a x).toNat < S32000.size a := fun v143 k1_hw153 => k1_hw153

def k1_chk154 (v146 : IVec S16 32) : Prop :=
  (∀ a x, ((![v146] : Fin 1 → IVec S16 32) a x).toNat < S32000.size a)
instance k1_chk154.dec : ∀ (v146 : IVec S16 32), Decidable (k1_chk154 v146) := fun v146 => decidable_of_iff' _ (Iff.of_eq (k1_chk154.eq_1 v146))
theorem k1_idx154_inb : ∀ (v146 : IVec S16 32) (k1_hw154 : k1_chk154 v146), ∀ a x, ((![v146] : Fin 1 → IVec S16 32) a x).toNat < S32000.size a := fun v146 k1_hw154 => k1_hw154

def k1_chk155 (v149 : IVec S16 32) : Prop :=
  (∀ a x, ((![v149] : Fin 1 → IVec S16 32) a x).toNat < S32000.size a)
instance k1_chk155.dec : ∀ (v149 : IVec S16 32), Decidable (k1_chk155 v149) := fun v149 => decidable_of_iff' _ (Iff.of_eq (k1_chk155.eq_1 v149))
theorem k1_idx155_inb : ∀ (v149 : IVec S16 32) (k1_hw155 : k1_chk155 v149), ∀ a x, ((![v149] : Fin 1 → IVec S16 32) a x).toNat < S32000.size a := fun v149 k1_hw155 => k1_hw155

def k1_chk156 (v152 : IVec S16 32) : Prop :=
  (∀ a x, ((![v152] : Fin 1 → IVec S16 32) a x).toNat < S32000.size a)
instance k1_chk156.dec : ∀ (v152 : IVec S16 32), Decidable (k1_chk156 v152) := fun v152 => decidable_of_iff' _ (Iff.of_eq (k1_chk156.eq_1 v152))
theorem k1_idx156_inb : ∀ (v152 : IVec S16 32) (k1_hw156 : k1_chk156 v152), ∀ a x, ((![v152] : Fin 1 → IVec S16 32) a x).toNat < S32000.size a := fun v152 k1_hw156 => k1_hw156

def k1_chk157 (v155 : IVec S16 32) : Prop :=
  (∀ a x, ((![v155] : Fin 1 → IVec S16 32) a x).toNat < S32000.size a)
instance k1_chk157.dec : ∀ (v155 : IVec S16 32), Decidable (k1_chk157 v155) := fun v155 => decidable_of_iff' _ (Iff.of_eq (k1_chk157.eq_1 v155))
theorem k1_idx157_inb : ∀ (v155 : IVec S16 32) (k1_hw157 : k1_chk157 v155), ∀ a x, ((![v155] : Fin 1 → IVec S16 32) a x).toNat < S32000.size a := fun v155 k1_hw157 => k1_hw157

def k1_chk158 (v158 : IVec S16 32) : Prop :=
  (∀ a x, ((![v158] : Fin 1 → IVec S16 32) a x).toNat < S32000.size a)
instance k1_chk158.dec : ∀ (v158 : IVec S16 32), Decidable (k1_chk158 v158) := fun v158 => decidable_of_iff' _ (Iff.of_eq (k1_chk158.eq_1 v158))
theorem k1_idx158_inb : ∀ (v158 : IVec S16 32) (k1_hw158 : k1_chk158 v158), ∀ a x, ((![v158] : Fin 1 → IVec S16 32) a x).toNat < S32000.size a := fun v158 k1_hw158 => k1_hw158

def k1_chk159 (v161 : IVec S16 32) : Prop :=
  (∀ a x, ((![v161] : Fin 1 → IVec S16 32) a x).toNat < S32000.size a)
instance k1_chk159.dec : ∀ (v161 : IVec S16 32), Decidable (k1_chk159 v161) := fun v161 => decidable_of_iff' _ (Iff.of_eq (k1_chk159.eq_1 v161))
theorem k1_idx159_inb : ∀ (v161 : IVec S16 32) (k1_hw159 : k1_chk159 v161), ∀ a x, ((![v161] : Fin 1 → IVec S16 32) a x).toNat < S32000.size a := fun v161 k1_hw159 => k1_hw159

def k1_chk160 (v164 : IVec S16 32) : Prop :=
  (∀ a x, ((![v164] : Fin 1 → IVec S16 32) a x).toNat < S32000.size a)
instance k1_chk160.dec : ∀ (v164 : IVec S16 32), Decidable (k1_chk160 v164) := fun v164 => decidable_of_iff' _ (Iff.of_eq (k1_chk160.eq_1 v164))
theorem k1_idx160_inb : ∀ (v164 : IVec S16 32) (k1_hw160 : k1_chk160 v164), ∀ a x, ((![v164] : Fin 1 → IVec S16 32) a x).toNat < S32000.size a := fun v164 k1_hw160 => k1_hw160
def k1_off140 (k1_t8 : Fin k1_t8_loop.trips) : Fin 2 → Nat :=
  let c0_i32_89 : BitVec 32 := 0#32
  let v167 : Index := Scalar.indexCast c0_i32_89
  let c0_i32_66 : BitVec 32 := 0#32
  let c1_i32_67 : BitVec 32 := 1#32
  let arg16 : BitVec 32 := Scf.iv c0_i32_66 c1_i32_67 k1_t8
  let c16_i32_88 : BitVec 32 := 16#32
  let v166 : BitVec 32 := Scalar.muli arg16 c16_i32_88
  let v168 : Index := Scalar.indexCast v166
  ![0, v168.toNat]
def k1_off141 (k1_t8 : Fin k1_t8_loop.trips) : Fin 2 → Nat :=
  let c1_i32_91 : BitVec 32 := 1#32
  let v171 : Index := Scalar.indexCast c1_i32_91
  let c0_i32_66 : BitVec 32 := 0#32
  let c1_i32_67 : BitVec 32 := 1#32
  let arg16 : BitVec 32 := Scf.iv c0_i32_66 c1_i32_67 k1_t8
  let c16_i32_90 : BitVec 32 := 16#32
  let v170 : BitVec 32 := Scalar.muli arg16 c16_i32_90
  let v172 : Index := Scalar.indexCast v170
  ![1, v172.toNat]
def k1_off142 (k1_t8 : Fin k1_t8_loop.trips) : Fin 2 → Nat :=
  let c2_i32_93 : BitVec 32 := 2#32
  let v175 : Index := Scalar.indexCast c2_i32_93
  let c0_i32_66 : BitVec 32 := 0#32
  let c1_i32_67 : BitVec 32 := 1#32
  let arg16 : BitVec 32 := Scf.iv c0_i32_66 c1_i32_67 k1_t8
  let c16_i32_92 : BitVec 32 := 16#32
  let v174 : BitVec 32 := Scalar.muli arg16 c16_i32_92
  let v176 : Index := Scalar.indexCast v174
  ![2, v176.toNat]
def k1_off143 (k1_t8 : Fin k1_t8_loop.trips) : Fin 2 → Nat :=
  let c3_i32 : BitVec 32 := 3#32
  let v179 : Index := Scalar.indexCast c3_i32
  let c0_i32_66 : BitVec 32 := 0#32
  let c1_i32_67 : BitVec 32 := 1#32
  let arg16 : BitVec 32 := Scf.iv c0_i32_66 c1_i32_67 k1_t8
  let c16_i32_94 : BitVec 32 := 16#32
  let v178 : BitVec 32 := Scalar.muli arg16 c16_i32_94
  let v180 : Index := Scalar.indexCast v178
  ![3, v180.toNat]
def k1_off144 (k1_t8 : Fin k1_t8_loop.trips) : Fin 2 → Nat :=
  let c4_i32 : BitVec 32 := 4#32
  let v183 : Index := Scalar.indexCast c4_i32
  let c0_i32_66 : BitVec 32 := 0#32
  let c1_i32_67 : BitVec 32 := 1#32
  let arg16 : BitVec 32 := Scf.iv c0_i32_66 c1_i32_67 k1_t8
  let c16_i32_95 : BitVec 32 := 16#32
  let v182 : BitVec 32 := Scalar.muli arg16 c16_i32_95
  let v184 : Index := Scalar.indexCast v182
  ![4, v184.toNat]
def k1_off145 (k1_t8 : Fin k1_t8_loop.trips) : Fin 2 → Nat :=
  let c5_i32 : BitVec 32 := 5#32
  let v187 : Index := Scalar.indexCast c5_i32
  let c0_i32_66 : BitVec 32 := 0#32
  let c1_i32_67 : BitVec 32 := 1#32
  let arg16 : BitVec 32 := Scf.iv c0_i32_66 c1_i32_67 k1_t8
  let c16_i32_96 : BitVec 32 := 16#32
  let v186 : BitVec 32 := Scalar.muli arg16 c16_i32_96
  let v188 : Index := Scalar.indexCast v186
  ![5, v188.toNat]
def k1_off146 (k1_t8 : Fin k1_t8_loop.trips) : Fin 2 → Nat :=
  let c6_i32 : BitVec 32 := 6#32
  let v191 : Index := Scalar.indexCast c6_i32
  let c0_i32_66 : BitVec 32 := 0#32
  let c1_i32_67 : BitVec 32 := 1#32
  let arg16 : BitVec 32 := Scf.iv c0_i32_66 c1_i32_67 k1_t8
  let c16_i32_97 : BitVec 32 := 16#32
  let v190 : BitVec 32 := Scalar.muli arg16 c16_i32_97
  let v192 : Index := Scalar.indexCast v190
  ![6, v192.toNat]
def k1_off147 (k1_t8 : Fin k1_t8_loop.trips) : Fin 2 → Nat :=
  let c7_i32 : BitVec 32 := 7#32
  let v195 : Index := Scalar.indexCast c7_i32
  let c0_i32_66 : BitVec 32 := 0#32
  let c1_i32_67 : BitVec 32 := 1#32
  let arg16 : BitVec 32 := Scf.iv c0_i32_66 c1_i32_67 k1_t8
  let c16_i32_98 : BitVec 32 := 16#32
  let v194 : BitVec 32 := Scalar.muli arg16 c16_i32_98
  let v196 : Index := Scalar.indexCast v194
  ![7, v196.toNat]
def k1_off148 (k1_t8 : Fin k1_t8_loop.trips) : Fin 2 → Nat :=
  let c8_i32 : BitVec 32 := 8#32
  let v199 : Index := Scalar.indexCast c8_i32
  let c0_i32_66 : BitVec 32 := 0#32
  let c1_i32_67 : BitVec 32 := 1#32
  let arg16 : BitVec 32 := Scf.iv c0_i32_66 c1_i32_67 k1_t8
  let c16_i32_99 : BitVec 32 := 16#32
  let v198 : BitVec 32 := Scalar.muli arg16 c16_i32_99
  let v200 : Index := Scalar.indexCast v198
  ![8, v200.toNat]
def k1_off149 (k1_t8 : Fin k1_t8_loop.trips) : Fin 2 → Nat :=
  let c9_i32 : BitVec 32 := 9#32
  let v203 : Index := Scalar.indexCast c9_i32
  let c0_i32_66 : BitVec 32 := 0#32
  let c1_i32_67 : BitVec 32 := 1#32
  let arg16 : BitVec 32 := Scf.iv c0_i32_66 c1_i32_67 k1_t8
  let c16_i32_100 : BitVec 32 := 16#32
  let v202 : BitVec 32 := Scalar.muli arg16 c16_i32_100
  let v204 : Index := Scalar.indexCast v202
  ![9, v204.toNat]
def k1_off150 (k1_t8 : Fin k1_t8_loop.trips) : Fin 2 → Nat :=
  let c10_i32 : BitVec 32 := 10#32
  let v207 : Index := Scalar.indexCast c10_i32
  let c0_i32_66 : BitVec 32 := 0#32
  let c1_i32_67 : BitVec 32 := 1#32
  let arg16 : BitVec 32 := Scf.iv c0_i32_66 c1_i32_67 k1_t8
  let c16_i32_101 : BitVec 32 := 16#32
  let v206 : BitVec 32 := Scalar.muli arg16 c16_i32_101
  let v208 : Index := Scalar.indexCast v206
  ![10, v208.toNat]
def k1_off151 (k1_t8 : Fin k1_t8_loop.trips) : Fin 2 → Nat :=
  let c11_i32 : BitVec 32 := 11#32
  let v211 : Index := Scalar.indexCast c11_i32
  let c0_i32_66 : BitVec 32 := 0#32
  let c1_i32_67 : BitVec 32 := 1#32
  let arg16 : BitVec 32 := Scf.iv c0_i32_66 c1_i32_67 k1_t8
  let c16_i32_102 : BitVec 32 := 16#32
  let v210 : BitVec 32 := Scalar.muli arg16 c16_i32_102
  let v212 : Index := Scalar.indexCast v210
  ![11, v212.toNat]
def k1_off152 (k1_t8 : Fin k1_t8_loop.trips) : Fin 2 → Nat :=
  let c12_i32 : BitVec 32 := 12#32
  let v215 : Index := Scalar.indexCast c12_i32
  let c0_i32_66 : BitVec 32 := 0#32
  let c1_i32_67 : BitVec 32 := 1#32
  let arg16 : BitVec 32 := Scf.iv c0_i32_66 c1_i32_67 k1_t8
  let c16_i32_103 : BitVec 32 := 16#32
  let v214 : BitVec 32 := Scalar.muli arg16 c16_i32_103
  let v216 : Index := Scalar.indexCast v214
  ![12, v216.toNat]
def k1_off153 (k1_t8 : Fin k1_t8_loop.trips) : Fin 2 → Nat :=
  let c13_i32 : BitVec 32 := 13#32
  let v219 : Index := Scalar.indexCast c13_i32
  let c0_i32_66 : BitVec 32 := 0#32
  let c1_i32_67 : BitVec 32 := 1#32
  let arg16 : BitVec 32 := Scf.iv c0_i32_66 c1_i32_67 k1_t8
  let c16_i32_104 : BitVec 32 := 16#32
  let v218 : BitVec 32 := Scalar.muli arg16 c16_i32_104
  let v220 : Index := Scalar.indexCast v218
  ![13, v220.toNat]
def k1_off154 (k1_t8 : Fin k1_t8_loop.trips) : Fin 2 → Nat :=
  let c14_i32 : BitVec 32 := 14#32
  let v223 : Index := Scalar.indexCast c14_i32
  let c0_i32_66 : BitVec 32 := 0#32
  let c1_i32_67 : BitVec 32 := 1#32
  let arg16 : BitVec 32 := Scf.iv c0_i32_66 c1_i32_67 k1_t8
  let c16_i32_105 : BitVec 32 := 16#32
  let v222 : BitVec 32 := Scalar.muli arg16 c16_i32_105
  let v224 : Index := Scalar.indexCast v222
  ![14, v224.toNat]
def k1_off155 (k1_t8 : Fin k1_t8_loop.trips) : Fin 2 → Nat :=
  let c15_i32 : BitVec 32 := 15#32
  let v227 : Index := Scalar.indexCast c15_i32
  let c0_i32_66 : BitVec 32 := 0#32
  let c1_i32_67 : BitVec 32 := 1#32
  let arg16 : BitVec 32 := Scf.iv c0_i32_66 c1_i32_67 k1_t8
  let c16_i32_106 : BitVec 32 := 16#32
  let v226 : BitVec 32 := Scalar.muli arg16 c16_i32_106
  let v228 : Index := Scalar.indexCast v226
  ![15, v228.toNat]
def k1_off156 (k1_t8 : Fin k1_t8_loop.trips) : Fin 2 → Nat :=
  let c16_i32_108 : BitVec 32 := 16#32
  let v231 : Index := Scalar.indexCast c16_i32_108
  let c0_i32_66 : BitVec 32 := 0#32
  let c1_i32_67 : BitVec 32 := 1#32
  let arg16 : BitVec 32 := Scf.iv c0_i32_66 c1_i32_67 k1_t8
  let c16_i32_107 : BitVec 32 := 16#32
  let v230 : BitVec 32 := Scalar.muli arg16 c16_i32_107
  let v232 : Index := Scalar.indexCast v230
  ![16, v232.toNat]
def k1_off157 (k1_t8 : Fin k1_t8_loop.trips) : Fin 2 → Nat :=
  let c17_i32 : BitVec 32 := 17#32
  let v235 : Index := Scalar.indexCast c17_i32
  let c0_i32_66 : BitVec 32 := 0#32
  let c1_i32_67 : BitVec 32 := 1#32
  let arg16 : BitVec 32 := Scf.iv c0_i32_66 c1_i32_67 k1_t8
  let c16_i32_109 : BitVec 32 := 16#32
  let v234 : BitVec 32 := Scalar.muli arg16 c16_i32_109
  let v236 : Index := Scalar.indexCast v234
  ![17, v236.toNat]
def k1_off158 (k1_t8 : Fin k1_t8_loop.trips) : Fin 2 → Nat :=
  let c18_i32 : BitVec 32 := 18#32
  let v239 : Index := Scalar.indexCast c18_i32
  let c0_i32_66 : BitVec 32 := 0#32
  let c1_i32_67 : BitVec 32 := 1#32
  let arg16 : BitVec 32 := Scf.iv c0_i32_66 c1_i32_67 k1_t8
  let c16_i32_110 : BitVec 32 := 16#32
  let v238 : BitVec 32 := Scalar.muli arg16 c16_i32_110
  let v240 : Index := Scalar.indexCast v238
  ![18, v240.toNat]
def k1_off159 (k1_t8 : Fin k1_t8_loop.trips) : Fin 2 → Nat :=
  let c19_i32 : BitVec 32 := 19#32
  let v243 : Index := Scalar.indexCast c19_i32
  let c0_i32_66 : BitVec 32 := 0#32
  let c1_i32_67 : BitVec 32 := 1#32
  let arg16 : BitVec 32 := Scf.iv c0_i32_66 c1_i32_67 k1_t8
  let c16_i32_111 : BitVec 32 := 16#32
  let v242 : BitVec 32 := Scalar.muli arg16 c16_i32_111
  let v244 : Index := Scalar.indexCast v242
  ![19, v244.toNat]
def k1_off160 (k1_t8 : Fin k1_t8_loop.trips) : Fin 2 → Nat :=
  let c20_i32 : BitVec 32 := 20#32
  let v247 : Index := Scalar.indexCast c20_i32
  let c0_i32_66 : BitVec 32 := 0#32
  let c1_i32_67 : BitVec 32 := 1#32
  let arg16 : BitVec 32 := Scf.iv c0_i32_66 c1_i32_67 k1_t8
  let c16_i32_112 : BitVec 32 := 16#32
  let v246 : BitVec 32 := Scalar.muli arg16 c16_i32_112
  let v248 : Index := Scalar.indexCast v246
  ![20, v248.toNat]
def k1_off161 (k1_t8 : Fin k1_t8_loop.trips) : Fin 2 → Nat :=
  let c21_i32 : BitVec 32 := 21#32
  let v251 : Index := Scalar.indexCast c21_i32
  let c0_i32_66 : BitVec 32 := 0#32
  let c1_i32_67 : BitVec 32 := 1#32
  let arg16 : BitVec 32 := Scf.iv c0_i32_66 c1_i32_67 k1_t8
  let c16_i32_113 : BitVec 32 := 16#32
  let v250 : BitVec 32 := Scalar.muli arg16 c16_i32_113
  let v252 : Index := Scalar.indexCast v250
  ![21, v252.toNat]
def k1_off162 (k1_t8 : Fin k1_t8_loop.trips) : Fin 2 → Nat :=
  let c22_i32 : BitVec 32 := 22#32
  let v255 : Index := Scalar.indexCast c22_i32
  let c0_i32_66 : BitVec 32 := 0#32
  let c1_i32_67 : BitVec 32 := 1#32
  let arg16 : BitVec 32 := Scf.iv c0_i32_66 c1_i32_67 k1_t8
  let c16_i32_114 : BitVec 32 := 16#32
  let v254 : BitVec 32 := Scalar.muli arg16 c16_i32_114
  let v256 : Index := Scalar.indexCast v254
  ![22, v256.toNat]
def k1_off163 (k1_t8 : Fin k1_t8_loop.trips) : Fin 2 → Nat :=
  let c23_i32 : BitVec 32 := 23#32
  let v259 : Index := Scalar.indexCast c23_i32
  let c0_i32_66 : BitVec 32 := 0#32
  let c1_i32_67 : BitVec 32 := 1#32
  let arg16 : BitVec 32 := Scf.iv c0_i32_66 c1_i32_67 k1_t8
  let c16_i32_115 : BitVec 32 := 16#32
  let v258 : BitVec 32 := Scalar.muli arg16 c16_i32_115
  let v260 : Index := Scalar.indexCast v258
  ![23, v260.toNat]
def k1_off164 (k1_t8 : Fin k1_t8_loop.trips) : Fin 2 → Nat :=
  let c24_i32 : BitVec 32 := 24#32
  let v263 : Index := Scalar.indexCast c24_i32
  let c0_i32_66 : BitVec 32 := 0#32
  let c1_i32_67 : BitVec 32 := 1#32
  let arg16 : BitVec 32 := Scf.iv c0_i32_66 c1_i32_67 k1_t8
  let c16_i32_116 : BitVec 32 := 16#32
  let v262 : BitVec 32 := Scalar.muli arg16 c16_i32_116
  let v264 : Index := Scalar.indexCast v262
  ![24, v264.toNat]
def k1_off165 (k1_t8 : Fin k1_t8_loop.trips) : Fin 2 → Nat :=
  let c25_i32 : BitVec 32 := 25#32
  let v267 : Index := Scalar.indexCast c25_i32
  let c0_i32_66 : BitVec 32 := 0#32
  let c1_i32_67 : BitVec 32 := 1#32
  let arg16 : BitVec 32 := Scf.iv c0_i32_66 c1_i32_67 k1_t8
  let c16_i32_117 : BitVec 32 := 16#32
  let v266 : BitVec 32 := Scalar.muli arg16 c16_i32_117
  let v268 : Index := Scalar.indexCast v266
  ![25, v268.toNat]
def k1_off166 (k1_t8 : Fin k1_t8_loop.trips) : Fin 2 → Nat :=
  let c26_i32 : BitVec 32 := 26#32
  let v271 : Index := Scalar.indexCast c26_i32
  let c0_i32_66 : BitVec 32 := 0#32
  let c1_i32_67 : BitVec 32 := 1#32
  let arg16 : BitVec 32 := Scf.iv c0_i32_66 c1_i32_67 k1_t8
  let c16_i32_118 : BitVec 32 := 16#32
  let v270 : BitVec 32 := Scalar.muli arg16 c16_i32_118
  let v272 : Index := Scalar.indexCast v270
  ![26, v272.toNat]
def k1_off167 (k1_t8 : Fin k1_t8_loop.trips) : Fin 2 → Nat :=
  let c27_i32 : BitVec 32 := 27#32
  let v275 : Index := Scalar.indexCast c27_i32
  let c0_i32_66 : BitVec 32 := 0#32
  let c1_i32_67 : BitVec 32 := 1#32
  let arg16 : BitVec 32 := Scf.iv c0_i32_66 c1_i32_67 k1_t8
  let c16_i32_119 : BitVec 32 := 16#32
  let v274 : BitVec 32 := Scalar.muli arg16 c16_i32_119
  let v276 : Index := Scalar.indexCast v274
  ![27, v276.toNat]
def k1_off168 (k1_t8 : Fin k1_t8_loop.trips) : Fin 2 → Nat :=
  let c28_i32 : BitVec 32 := 28#32
  let v279 : Index := Scalar.indexCast c28_i32
  let c0_i32_66 : BitVec 32 := 0#32
  let c1_i32_67 : BitVec 32 := 1#32
  let arg16 : BitVec 32 := Scf.iv c0_i32_66 c1_i32_67 k1_t8
  let c16_i32_120 : BitVec 32 := 16#32
  let v278 : BitVec 32 := Scalar.muli arg16 c16_i32_120
  let v280 : Index := Scalar.indexCast v278
  ![28, v280.toNat]
def k1_off169 (k1_t8 : Fin k1_t8_loop.trips) : Fin 2 → Nat :=
  let c29_i32 : BitVec 32 := 29#32
  let v283 : Index := Scalar.indexCast c29_i32
  let c0_i32_66 : BitVec 32 := 0#32
  let c1_i32_67 : BitVec 32 := 1#32
  let arg16 : BitVec 32 := Scf.iv c0_i32_66 c1_i32_67 k1_t8
  let c16_i32_121 : BitVec 32 := 16#32
  let v282 : BitVec 32 := Scalar.muli arg16 c16_i32_121
  let v284 : Index := Scalar.indexCast v282
  ![29, v284.toNat]
def k1_off170 (k1_t8 : Fin k1_t8_loop.trips) : Fin 2 → Nat :=
  let c30_i32 : BitVec 32 := 30#32
  let v287 : Index := Scalar.indexCast c30_i32
  let c0_i32_66 : BitVec 32 := 0#32
  let c1_i32_67 : BitVec 32 := 1#32
  let arg16 : BitVec 32 := Scf.iv c0_i32_66 c1_i32_67 k1_t8
  let c16_i32_122 : BitVec 32 := 16#32
  let v286 : BitVec 32 := Scalar.muli arg16 c16_i32_122
  let v288 : Index := Scalar.indexCast v286
  ![30, v288.toNat]
def k1_off171 (k1_t8 : Fin k1_t8_loop.trips) : Fin 2 → Nat :=
  let c31_i32 : BitVec 32 := 31#32
  let v291 : Index := Scalar.indexCast c31_i32
  let c0_i32_66 : BitVec 32 := 0#32
  let c1_i32_67 : BitVec 32 := 1#32
  let arg16 : BitVec 32 := Scf.iv c0_i32_66 c1_i32_67 k1_t8
  let c16_i32_123 : BitVec 32 := 16#32
  let v290 : BitVec 32 := Scalar.muli arg16 c16_i32_123
  let v292 : Index := Scalar.indexCast v290
  ![31, v292.toNat]
def k1_off172 (i : grid1.Coords) (k1_t7 : Fin k1_t7_loop.trips) (c0_i32_69 : BitVec 32) : Fin 3 → Nat :=
  let c80_i32_59 : BitVec 32 := 80#32
  let c0_i32_26 : BitVec 32 := 0#32
  let c1_i32_28 : BitVec 32 := 1#32
  let arg14 : BitVec 32 := Scf.iv c0_i32_26 c1_i32_28 k1_t7
  let v41 : BitVec 32 := Scalar.addi c80_i32_59 arg14
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v48 : BitVec 32 := Scalar.addi v2 c0_i32_69
  ![v41.toNat, 0, v48.toNat]
@[reducible] def k1_t9_loop : Scf.Loop 32 :=
  let c0_i32_78 : BitVec 32 := 0#32
  let c16_i32_79 : BitVec 32 := 16#32
  let v57 : BitVec 32 := Scalar.addi c0_i32_78 c16_i32_79
  let c1_i32_80 : BitVec 32 := 1#32
  ⟨c0_i32_78, v57, c1_i32_80⟩
def k1_mult6 (k1_t9 : Fin k1_t9_loop.trips) : BitVec 32 :=
  let c256_i32_86 : BitVec 32 := 256#32
  let c0_i32_78 : BitVec 32 := 0#32
  let c1_i32_80 : BitVec 32 := 1#32
  let arg16 : BitVec 32 := Scf.iv c0_i32_78 c1_i32_80 k1_t9
  let c16_i32_85 : BitVec 32 := 16#32
  let v64 : BitVec 32 := Scalar.muli arg16 c16_i32_85
  let v65 : BitVec 32 := Scalar.addi c256_i32_86 v64
  v65
def k1_off173 (k1_t7 : Fin k1_t7_loop.trips) (k1_t9 : Fin k1_t9_loop.trips) : Fin 2 → Nat :=
  let c0_i32_26 : BitVec 32 := 0#32
  let c1_i32_28 : BitVec 32 := 1#32
  let arg14 : BitVec 32 := Scf.iv c0_i32_26 c1_i32_28 k1_t7
  let v67 : Index := Scalar.indexCast arg14
  let c256_i32_86 : BitVec 32 := 256#32
  let c0_i32_78 : BitVec 32 := 0#32
  let c1_i32_80 : BitVec 32 := 1#32
  let arg16 : BitVec 32 := Scf.iv c0_i32_78 c1_i32_80 k1_t9
  let c16_i32_85 : BitVec 32 := 16#32
  let v64 : BitVec 32 := Scalar.muli arg16 c16_i32_85
  let v65 : BitVec 32 := Scalar.addi c256_i32_86 v64
  let v66 : BitVec 32 := v65
  let v68 : Index := Scalar.indexCast v66
  ![v67.toNat, v68.toNat]

def k1_chk161 (v71 : IVec S16 32) : Prop :=
  (∀ a x, ((![v71] : Fin 1 → IVec S16 32) a x).toNat < S32000.size a)
instance k1_chk161.dec : ∀ (v71 : IVec S16 32), Decidable (k1_chk161 v71) := fun v71 => decidable_of_iff' _ (Iff.of_eq (k1_chk161.eq_1 v71))
theorem k1_idx161_inb : ∀ (v71 : IVec S16 32) (k1_hw161 : k1_chk161 v71), ∀ a x, ((![v71] : Fin 1 → IVec S16 32) a x).toNat < S32000.size a := fun v71 k1_hw161 => k1_hw161

def k1_chk162 (v74 : IVec S16 32) : Prop :=
  (∀ a x, ((![v74] : Fin 1 → IVec S16 32) a x).toNat < S32000.size a)
instance k1_chk162.dec : ∀ (v74 : IVec S16 32), Decidable (k1_chk162 v74) := fun v74 => decidable_of_iff' _ (Iff.of_eq (k1_chk162.eq_1 v74))
theorem k1_idx162_inb : ∀ (v74 : IVec S16 32) (k1_hw162 : k1_chk162 v74), ∀ a x, ((![v74] : Fin 1 → IVec S16 32) a x).toNat < S32000.size a := fun v74 k1_hw162 => k1_hw162

def k1_chk163 (v77 : IVec S16 32) : Prop :=
  (∀ a x, ((![v77] : Fin 1 → IVec S16 32) a x).toNat < S32000.size a)
instance k1_chk163.dec : ∀ (v77 : IVec S16 32), Decidable (k1_chk163 v77) := fun v77 => decidable_of_iff' _ (Iff.of_eq (k1_chk163.eq_1 v77))
theorem k1_idx163_inb : ∀ (v77 : IVec S16 32) (k1_hw163 : k1_chk163 v77), ∀ a x, ((![v77] : Fin 1 → IVec S16 32) a x).toNat < S32000.size a := fun v77 k1_hw163 => k1_hw163

def k1_chk164 (v80 : IVec S16 32) : Prop :=
  (∀ a x, ((![v80] : Fin 1 → IVec S16 32) a x).toNat < S32000.size a)
instance k1_chk164.dec : ∀ (v80 : IVec S16 32), Decidable (k1_chk164 v80) := fun v80 => decidable_of_iff' _ (Iff.of_eq (k1_chk164.eq_1 v80))
theorem k1_idx164_inb : ∀ (v80 : IVec S16 32) (k1_hw164 : k1_chk164 v80), ∀ a x, ((![v80] : Fin 1 → IVec S16 32) a x).toNat < S32000.size a := fun v80 k1_hw164 => k1_hw164

def k1_chk165 (v83 : IVec S16 32) : Prop :=
  (∀ a x, ((![v83] : Fin 1 → IVec S16 32) a x).toNat < S32000.size a)
instance k1_chk165.dec : ∀ (v83 : IVec S16 32), Decidable (k1_chk165 v83) := fun v83 => decidable_of_iff' _ (Iff.of_eq (k1_chk165.eq_1 v83))
theorem k1_idx165_inb : ∀ (v83 : IVec S16 32) (k1_hw165 : k1_chk165 v83), ∀ a x, ((![v83] : Fin 1 → IVec S16 32) a x).toNat < S32000.size a := fun v83 k1_hw165 => k1_hw165

def k1_chk166 (v86 : IVec S16 32) : Prop :=
  (∀ a x, ((![v86] : Fin 1 → IVec S16 32) a x).toNat < S32000.size a)
instance k1_chk166.dec : ∀ (v86 : IVec S16 32), Decidable (k1_chk166 v86) := fun v86 => decidable_of_iff' _ (Iff.of_eq (k1_chk166.eq_1 v86))
theorem k1_idx166_inb : ∀ (v86 : IVec S16 32) (k1_hw166 : k1_chk166 v86), ∀ a x, ((![v86] : Fin 1 → IVec S16 32) a x).toNat < S32000.size a := fun v86 k1_hw166 => k1_hw166

def k1_chk167 (v89 : IVec S16 32) : Prop :=
  (∀ a x, ((![v89] : Fin 1 → IVec S16 32) a x).toNat < S32000.size a)
instance k1_chk167.dec : ∀ (v89 : IVec S16 32), Decidable (k1_chk167 v89) := fun v89 => decidable_of_iff' _ (Iff.of_eq (k1_chk167.eq_1 v89))
theorem k1_idx167_inb : ∀ (v89 : IVec S16 32) (k1_hw167 : k1_chk167 v89), ∀ a x, ((![v89] : Fin 1 → IVec S16 32) a x).toNat < S32000.size a := fun v89 k1_hw167 => k1_hw167

def k1_chk168 (v92 : IVec S16 32) : Prop :=
  (∀ a x, ((![v92] : Fin 1 → IVec S16 32) a x).toNat < S32000.size a)
instance k1_chk168.dec : ∀ (v92 : IVec S16 32), Decidable (k1_chk168 v92) := fun v92 => decidable_of_iff' _ (Iff.of_eq (k1_chk168.eq_1 v92))
theorem k1_idx168_inb : ∀ (v92 : IVec S16 32) (k1_hw168 : k1_chk168 v92), ∀ a x, ((![v92] : Fin 1 → IVec S16 32) a x).toNat < S32000.size a := fun v92 k1_hw168 => k1_hw168

def k1_chk169 (v95 : IVec S16 32) : Prop :=
  (∀ a x, ((![v95] : Fin 1 → IVec S16 32) a x).toNat < S32000.size a)
instance k1_chk169.dec : ∀ (v95 : IVec S16 32), Decidable (k1_chk169 v95) := fun v95 => decidable_of_iff' _ (Iff.of_eq (k1_chk169.eq_1 v95))
theorem k1_idx169_inb : ∀ (v95 : IVec S16 32) (k1_hw169 : k1_chk169 v95), ∀ a x, ((![v95] : Fin 1 → IVec S16 32) a x).toNat < S32000.size a := fun v95 k1_hw169 => k1_hw169

def k1_chk170 (v98 : IVec S16 32) : Prop :=
  (∀ a x, ((![v98] : Fin 1 → IVec S16 32) a x).toNat < S32000.size a)
instance k1_chk170.dec : ∀ (v98 : IVec S16 32), Decidable (k1_chk170 v98) := fun v98 => decidable_of_iff' _ (Iff.of_eq (k1_chk170.eq_1 v98))
theorem k1_idx170_inb : ∀ (v98 : IVec S16 32) (k1_hw170 : k1_chk170 v98), ∀ a x, ((![v98] : Fin 1 → IVec S16 32) a x).toNat < S32000.size a := fun v98 k1_hw170 => k1_hw170

def k1_chk171 (v101 : IVec S16 32) : Prop :=
  (∀ a x, ((![v101] : Fin 1 → IVec S16 32) a x).toNat < S32000.size a)
instance k1_chk171.dec : ∀ (v101 : IVec S16 32), Decidable (k1_chk171 v101) := fun v101 => decidable_of_iff' _ (Iff.of_eq (k1_chk171.eq_1 v101))
theorem k1_idx171_inb : ∀ (v101 : IVec S16 32) (k1_hw171 : k1_chk171 v101), ∀ a x, ((![v101] : Fin 1 → IVec S16 32) a x).toNat < S32000.size a := fun v101 k1_hw171 => k1_hw171

def k1_chk172 (v104 : IVec S16 32) : Prop :=
  (∀ a x, ((![v104] : Fin 1 → IVec S16 32) a x).toNat < S32000.size a)
instance k1_chk172.dec : ∀ (v104 : IVec S16 32), Decidable (k1_chk172 v104) := fun v104 => decidable_of_iff' _ (Iff.of_eq (k1_chk172.eq_1 v104))
theorem k1_idx172_inb : ∀ (v104 : IVec S16 32) (k1_hw172 : k1_chk172 v104), ∀ a x, ((![v104] : Fin 1 → IVec S16 32) a x).toNat < S32000.size a := fun v104 k1_hw172 => k1_hw172

def k1_chk173 (v107 : IVec S16 32) : Prop :=
  (∀ a x, ((![v107] : Fin 1 → IVec S16 32) a x).toNat < S32000.size a)
instance k1_chk173.dec : ∀ (v107 : IVec S16 32), Decidable (k1_chk173 v107) := fun v107 => decidable_of_iff' _ (Iff.of_eq (k1_chk173.eq_1 v107))
theorem k1_idx173_inb : ∀ (v107 : IVec S16 32) (k1_hw173 : k1_chk173 v107), ∀ a x, ((![v107] : Fin 1 → IVec S16 32) a x).toNat < S32000.size a := fun v107 k1_hw173 => k1_hw173

def k1_chk174 (v110 : IVec S16 32) : Prop :=
  (∀ a x, ((![v110] : Fin 1 → IVec S16 32) a x).toNat < S32000.size a)
instance k1_chk174.dec : ∀ (v110 : IVec S16 32), Decidable (k1_chk174 v110) := fun v110 => decidable_of_iff' _ (Iff.of_eq (k1_chk174.eq_1 v110))
theorem k1_idx174_inb : ∀ (v110 : IVec S16 32) (k1_hw174 : k1_chk174 v110), ∀ a x, ((![v110] : Fin 1 → IVec S16 32) a x).toNat < S32000.size a := fun v110 k1_hw174 => k1_hw174

def k1_chk175 (v113 : IVec S16 32) : Prop :=
  (∀ a x, ((![v113] : Fin 1 → IVec S16 32) a x).toNat < S32000.size a)
instance k1_chk175.dec : ∀ (v113 : IVec S16 32), Decidable (k1_chk175 v113) := fun v113 => decidable_of_iff' _ (Iff.of_eq (k1_chk175.eq_1 v113))
theorem k1_idx175_inb : ∀ (v113 : IVec S16 32) (k1_hw175 : k1_chk175 v113), ∀ a x, ((![v113] : Fin 1 → IVec S16 32) a x).toNat < S32000.size a := fun v113 k1_hw175 => k1_hw175

def k1_chk176 (v116 : IVec S16 32) : Prop :=
  (∀ a x, ((![v116] : Fin 1 → IVec S16 32) a x).toNat < S32000.size a)
instance k1_chk176.dec : ∀ (v116 : IVec S16 32), Decidable (k1_chk176 v116) := fun v116 => decidable_of_iff' _ (Iff.of_eq (k1_chk176.eq_1 v116))
theorem k1_idx176_inb : ∀ (v116 : IVec S16 32) (k1_hw176 : k1_chk176 v116), ∀ a x, ((![v116] : Fin 1 → IVec S16 32) a x).toNat < S32000.size a := fun v116 k1_hw176 => k1_hw176

def k1_chk177 (v119 : IVec S16 32) : Prop :=
  (∀ a x, ((![v119] : Fin 1 → IVec S16 32) a x).toNat < S32000.size a)
instance k1_chk177.dec : ∀ (v119 : IVec S16 32), Decidable (k1_chk177 v119) := fun v119 => decidable_of_iff' _ (Iff.of_eq (k1_chk177.eq_1 v119))
theorem k1_idx177_inb : ∀ (v119 : IVec S16 32) (k1_hw177 : k1_chk177 v119), ∀ a x, ((![v119] : Fin 1 → IVec S16 32) a x).toNat < S32000.size a := fun v119 k1_hw177 => k1_hw177

def k1_chk178 (v122 : IVec S16 32) : Prop :=
  (∀ a x, ((![v122] : Fin 1 → IVec S16 32) a x).toNat < S32000.size a)
instance k1_chk178.dec : ∀ (v122 : IVec S16 32), Decidable (k1_chk178 v122) := fun v122 => decidable_of_iff' _ (Iff.of_eq (k1_chk178.eq_1 v122))
theorem k1_idx178_inb : ∀ (v122 : IVec S16 32) (k1_hw178 : k1_chk178 v122), ∀ a x, ((![v122] : Fin 1 → IVec S16 32) a x).toNat < S32000.size a := fun v122 k1_hw178 => k1_hw178

def k1_chk179 (v125 : IVec S16 32) : Prop :=
  (∀ a x, ((![v125] : Fin 1 → IVec S16 32) a x).toNat < S32000.size a)
instance k1_chk179.dec : ∀ (v125 : IVec S16 32), Decidable (k1_chk179 v125) := fun v125 => decidable_of_iff' _ (Iff.of_eq (k1_chk179.eq_1 v125))
theorem k1_idx179_inb : ∀ (v125 : IVec S16 32) (k1_hw179 : k1_chk179 v125), ∀ a x, ((![v125] : Fin 1 → IVec S16 32) a x).toNat < S32000.size a := fun v125 k1_hw179 => k1_hw179

def k1_chk180 (v128 : IVec S16 32) : Prop :=
  (∀ a x, ((![v128] : Fin 1 → IVec S16 32) a x).toNat < S32000.size a)
instance k1_chk180.dec : ∀ (v128 : IVec S16 32), Decidable (k1_chk180 v128) := fun v128 => decidable_of_iff' _ (Iff.of_eq (k1_chk180.eq_1 v128))
theorem k1_idx180_inb : ∀ (v128 : IVec S16 32) (k1_hw180 : k1_chk180 v128), ∀ a x, ((![v128] : Fin 1 → IVec S16 32) a x).toNat < S32000.size a := fun v128 k1_hw180 => k1_hw180

def k1_chk181 (v131 : IVec S16 32) : Prop :=
  (∀ a x, ((![v131] : Fin 1 → IVec S16 32) a x).toNat < S32000.size a)
instance k1_chk181.dec : ∀ (v131 : IVec S16 32), Decidable (k1_chk181 v131) := fun v131 => decidable_of_iff' _ (Iff.of_eq (k1_chk181.eq_1 v131))
theorem k1_idx181_inb : ∀ (v131 : IVec S16 32) (k1_hw181 : k1_chk181 v131), ∀ a x, ((![v131] : Fin 1 → IVec S16 32) a x).toNat < S32000.size a := fun v131 k1_hw181 => k1_hw181

def k1_chk182 (v134 : IVec S16 32) : Prop :=
  (∀ a x, ((![v134] : Fin 1 → IVec S16 32) a x).toNat < S32000.size a)
instance k1_chk182.dec : ∀ (v134 : IVec S16 32), Decidable (k1_chk182 v134) := fun v134 => decidable_of_iff' _ (Iff.of_eq (k1_chk182.eq_1 v134))
theorem k1_idx182_inb : ∀ (v134 : IVec S16 32) (k1_hw182 : k1_chk182 v134), ∀ a x, ((![v134] : Fin 1 → IVec S16 32) a x).toNat < S32000.size a := fun v134 k1_hw182 => k1_hw182

def k1_chk183 (v137 : IVec S16 32) : Prop :=
  (∀ a x, ((![v137] : Fin 1 → IVec S16 32) a x).toNat < S32000.size a)
instance k1_chk183.dec : ∀ (v137 : IVec S16 32), Decidable (k1_chk183 v137) := fun v137 => decidable_of_iff' _ (Iff.of_eq (k1_chk183.eq_1 v137))
theorem k1_idx183_inb : ∀ (v137 : IVec S16 32) (k1_hw183 : k1_chk183 v137), ∀ a x, ((![v137] : Fin 1 → IVec S16 32) a x).toNat < S32000.size a := fun v137 k1_hw183 => k1_hw183

def k1_chk184 (v140 : IVec S16 32) : Prop :=
  (∀ a x, ((![v140] : Fin 1 → IVec S16 32) a x).toNat < S32000.size a)
instance k1_chk184.dec : ∀ (v140 : IVec S16 32), Decidable (k1_chk184 v140) := fun v140 => decidable_of_iff' _ (Iff.of_eq (k1_chk184.eq_1 v140))
theorem k1_idx184_inb : ∀ (v140 : IVec S16 32) (k1_hw184 : k1_chk184 v140), ∀ a x, ((![v140] : Fin 1 → IVec S16 32) a x).toNat < S32000.size a := fun v140 k1_hw184 => k1_hw184

def k1_chk185 (v143 : IVec S16 32) : Prop :=
  (∀ a x, ((![v143] : Fin 1 → IVec S16 32) a x).toNat < S32000.size a)
instance k1_chk185.dec : ∀ (v143 : IVec S16 32), Decidable (k1_chk185 v143) := fun v143 => decidable_of_iff' _ (Iff.of_eq (k1_chk185.eq_1 v143))
theorem k1_idx185_inb : ∀ (v143 : IVec S16 32) (k1_hw185 : k1_chk185 v143), ∀ a x, ((![v143] : Fin 1 → IVec S16 32) a x).toNat < S32000.size a := fun v143 k1_hw185 => k1_hw185

def k1_chk186 (v146 : IVec S16 32) : Prop :=
  (∀ a x, ((![v146] : Fin 1 → IVec S16 32) a x).toNat < S32000.size a)
instance k1_chk186.dec : ∀ (v146 : IVec S16 32), Decidable (k1_chk186 v146) := fun v146 => decidable_of_iff' _ (Iff.of_eq (k1_chk186.eq_1 v146))
theorem k1_idx186_inb : ∀ (v146 : IVec S16 32) (k1_hw186 : k1_chk186 v146), ∀ a x, ((![v146] : Fin 1 → IVec S16 32) a x).toNat < S32000.size a := fun v146 k1_hw186 => k1_hw186

def k1_chk187 (v149 : IVec S16 32) : Prop :=
  (∀ a x, ((![v149] : Fin 1 → IVec S16 32) a x).toNat < S32000.size a)
instance k1_chk187.dec : ∀ (v149 : IVec S16 32), Decidable (k1_chk187 v149) := fun v149 => decidable_of_iff' _ (Iff.of_eq (k1_chk187.eq_1 v149))
theorem k1_idx187_inb : ∀ (v149 : IVec S16 32) (k1_hw187 : k1_chk187 v149), ∀ a x, ((![v149] : Fin 1 → IVec S16 32) a x).toNat < S32000.size a := fun v149 k1_hw187 => k1_hw187

def k1_chk188 (v152 : IVec S16 32) : Prop :=
  (∀ a x, ((![v152] : Fin 1 → IVec S16 32) a x).toNat < S32000.size a)
instance k1_chk188.dec : ∀ (v152 : IVec S16 32), Decidable (k1_chk188 v152) := fun v152 => decidable_of_iff' _ (Iff.of_eq (k1_chk188.eq_1 v152))
theorem k1_idx188_inb : ∀ (v152 : IVec S16 32) (k1_hw188 : k1_chk188 v152), ∀ a x, ((![v152] : Fin 1 → IVec S16 32) a x).toNat < S32000.size a := fun v152 k1_hw188 => k1_hw188

def k1_chk189 (v155 : IVec S16 32) : Prop :=
  (∀ a x, ((![v155] : Fin 1 → IVec S16 32) a x).toNat < S32000.size a)
instance k1_chk189.dec : ∀ (v155 : IVec S16 32), Decidable (k1_chk189 v155) := fun v155 => decidable_of_iff' _ (Iff.of_eq (k1_chk189.eq_1 v155))
theorem k1_idx189_inb : ∀ (v155 : IVec S16 32) (k1_hw189 : k1_chk189 v155), ∀ a x, ((![v155] : Fin 1 → IVec S16 32) a x).toNat < S32000.size a := fun v155 k1_hw189 => k1_hw189

def k1_chk190 (v158 : IVec S16 32) : Prop :=
  (∀ a x, ((![v158] : Fin 1 → IVec S16 32) a x).toNat < S32000.size a)
instance k1_chk190.dec : ∀ (v158 : IVec S16 32), Decidable (k1_chk190 v158) := fun v158 => decidable_of_iff' _ (Iff.of_eq (k1_chk190.eq_1 v158))
theorem k1_idx190_inb : ∀ (v158 : IVec S16 32) (k1_hw190 : k1_chk190 v158), ∀ a x, ((![v158] : Fin 1 → IVec S16 32) a x).toNat < S32000.size a := fun v158 k1_hw190 => k1_hw190

def k1_chk191 (v161 : IVec S16 32) : Prop :=
  (∀ a x, ((![v161] : Fin 1 → IVec S16 32) a x).toNat < S32000.size a)
instance k1_chk191.dec : ∀ (v161 : IVec S16 32), Decidable (k1_chk191 v161) := fun v161 => decidable_of_iff' _ (Iff.of_eq (k1_chk191.eq_1 v161))
theorem k1_idx191_inb : ∀ (v161 : IVec S16 32) (k1_hw191 : k1_chk191 v161), ∀ a x, ((![v161] : Fin 1 → IVec S16 32) a x).toNat < S32000.size a := fun v161 k1_hw191 => k1_hw191

def k1_chk192 (v164 : IVec S16 32) : Prop :=
  (∀ a x, ((![v164] : Fin 1 → IVec S16 32) a x).toNat < S32000.size a)
instance k1_chk192.dec : ∀ (v164 : IVec S16 32), Decidable (k1_chk192 v164) := fun v164 => decidable_of_iff' _ (Iff.of_eq (k1_chk192.eq_1 v164))
theorem k1_idx192_inb : ∀ (v164 : IVec S16 32) (k1_hw192 : k1_chk192 v164), ∀ a x, ((![v164] : Fin 1 → IVec S16 32) a x).toNat < S32000.size a := fun v164 k1_hw192 => k1_hw192
def k1_off174 (k1_t9 : Fin k1_t9_loop.trips) : Fin 2 → Nat :=
  let c0_i32_89 : BitVec 32 := 0#32
  let v167 : Index := Scalar.indexCast c0_i32_89
  let c0_i32_78 : BitVec 32 := 0#32
  let c1_i32_80 : BitVec 32 := 1#32
  let arg16 : BitVec 32 := Scf.iv c0_i32_78 c1_i32_80 k1_t9
  let c16_i32_88 : BitVec 32 := 16#32
  let v166 : BitVec 32 := Scalar.muli arg16 c16_i32_88
  let v168 : Index := Scalar.indexCast v166
  ![0, v168.toNat]
def k1_off175 (k1_t9 : Fin k1_t9_loop.trips) : Fin 2 → Nat :=
  let c1_i32_91 : BitVec 32 := 1#32
  let v171 : Index := Scalar.indexCast c1_i32_91
  let c0_i32_78 : BitVec 32 := 0#32
  let c1_i32_80 : BitVec 32 := 1#32
  let arg16 : BitVec 32 := Scf.iv c0_i32_78 c1_i32_80 k1_t9
  let c16_i32_90 : BitVec 32 := 16#32
  let v170 : BitVec 32 := Scalar.muli arg16 c16_i32_90
  let v172 : Index := Scalar.indexCast v170
  ![1, v172.toNat]
def k1_off176 (k1_t9 : Fin k1_t9_loop.trips) : Fin 2 → Nat :=
  let c2_i32_93 : BitVec 32 := 2#32
  let v175 : Index := Scalar.indexCast c2_i32_93
  let c0_i32_78 : BitVec 32 := 0#32
  let c1_i32_80 : BitVec 32 := 1#32
  let arg16 : BitVec 32 := Scf.iv c0_i32_78 c1_i32_80 k1_t9
  let c16_i32_92 : BitVec 32 := 16#32
  let v174 : BitVec 32 := Scalar.muli arg16 c16_i32_92
  let v176 : Index := Scalar.indexCast v174
  ![2, v176.toNat]
def k1_off177 (k1_t9 : Fin k1_t9_loop.trips) : Fin 2 → Nat :=
  let c3_i32 : BitVec 32 := 3#32
  let v179 : Index := Scalar.indexCast c3_i32
  let c0_i32_78 : BitVec 32 := 0#32
  let c1_i32_80 : BitVec 32 := 1#32
  let arg16 : BitVec 32 := Scf.iv c0_i32_78 c1_i32_80 k1_t9
  let c16_i32_94 : BitVec 32 := 16#32
  let v178 : BitVec 32 := Scalar.muli arg16 c16_i32_94
  let v180 : Index := Scalar.indexCast v178
  ![3, v180.toNat]
def k1_off178 (k1_t9 : Fin k1_t9_loop.trips) : Fin 2 → Nat :=
  let c4_i32 : BitVec 32 := 4#32
  let v183 : Index := Scalar.indexCast c4_i32
  let c0_i32_78 : BitVec 32 := 0#32
  let c1_i32_80 : BitVec 32 := 1#32
  let arg16 : BitVec 32 := Scf.iv c0_i32_78 c1_i32_80 k1_t9
  let c16_i32_95 : BitVec 32 := 16#32
  let v182 : BitVec 32 := Scalar.muli arg16 c16_i32_95
  let v184 : Index := Scalar.indexCast v182
  ![4, v184.toNat]
def k1_off179 (k1_t9 : Fin k1_t9_loop.trips) : Fin 2 → Nat :=
  let c5_i32 : BitVec 32 := 5#32
  let v187 : Index := Scalar.indexCast c5_i32
  let c0_i32_78 : BitVec 32 := 0#32
  let c1_i32_80 : BitVec 32 := 1#32
  let arg16 : BitVec 32 := Scf.iv c0_i32_78 c1_i32_80 k1_t9
  let c16_i32_96 : BitVec 32 := 16#32
  let v186 : BitVec 32 := Scalar.muli arg16 c16_i32_96
  let v188 : Index := Scalar.indexCast v186
  ![5, v188.toNat]
def k1_off180 (k1_t9 : Fin k1_t9_loop.trips) : Fin 2 → Nat :=
  let c6_i32 : BitVec 32 := 6#32
  let v191 : Index := Scalar.indexCast c6_i32
  let c0_i32_78 : BitVec 32 := 0#32
  let c1_i32_80 : BitVec 32 := 1#32
  let arg16 : BitVec 32 := Scf.iv c0_i32_78 c1_i32_80 k1_t9
  let c16_i32_97 : BitVec 32 := 16#32
  let v190 : BitVec 32 := Scalar.muli arg16 c16_i32_97
  let v192 : Index := Scalar.indexCast v190
  ![6, v192.toNat]
def k1_off181 (k1_t9 : Fin k1_t9_loop.trips) : Fin 2 → Nat :=
  let c7_i32 : BitVec 32 := 7#32
  let v195 : Index := Scalar.indexCast c7_i32
  let c0_i32_78 : BitVec 32 := 0#32
  let c1_i32_80 : BitVec 32 := 1#32
  let arg16 : BitVec 32 := Scf.iv c0_i32_78 c1_i32_80 k1_t9
  let c16_i32_98 : BitVec 32 := 16#32
  let v194 : BitVec 32 := Scalar.muli arg16 c16_i32_98
  let v196 : Index := Scalar.indexCast v194
  ![7, v196.toNat]
def k1_off182 (k1_t9 : Fin k1_t9_loop.trips) : Fin 2 → Nat :=
  let c8_i32 : BitVec 32 := 8#32
  let v199 : Index := Scalar.indexCast c8_i32
  let c0_i32_78 : BitVec 32 := 0#32
  let c1_i32_80 : BitVec 32 := 1#32
  let arg16 : BitVec 32 := Scf.iv c0_i32_78 c1_i32_80 k1_t9
  let c16_i32_99 : BitVec 32 := 16#32
  let v198 : BitVec 32 := Scalar.muli arg16 c16_i32_99
  let v200 : Index := Scalar.indexCast v198
  ![8, v200.toNat]
def k1_off183 (k1_t9 : Fin k1_t9_loop.trips) : Fin 2 → Nat :=
  let c9_i32 : BitVec 32 := 9#32
  let v203 : Index := Scalar.indexCast c9_i32
  let c0_i32_78 : BitVec 32 := 0#32
  let c1_i32_80 : BitVec 32 := 1#32
  let arg16 : BitVec 32 := Scf.iv c0_i32_78 c1_i32_80 k1_t9
  let c16_i32_100 : BitVec 32 := 16#32
  let v202 : BitVec 32 := Scalar.muli arg16 c16_i32_100
  let v204 : Index := Scalar.indexCast v202
  ![9, v204.toNat]
def k1_off184 (k1_t9 : Fin k1_t9_loop.trips) : Fin 2 → Nat :=
  let c10_i32 : BitVec 32 := 10#32
  let v207 : Index := Scalar.indexCast c10_i32
  let c0_i32_78 : BitVec 32 := 0#32
  let c1_i32_80 : BitVec 32 := 1#32
  let arg16 : BitVec 32 := Scf.iv c0_i32_78 c1_i32_80 k1_t9
  let c16_i32_101 : BitVec 32 := 16#32
  let v206 : BitVec 32 := Scalar.muli arg16 c16_i32_101
  let v208 : Index := Scalar.indexCast v206
  ![10, v208.toNat]
def k1_off185 (k1_t9 : Fin k1_t9_loop.trips) : Fin 2 → Nat :=
  let c11_i32 : BitVec 32 := 11#32
  let v211 : Index := Scalar.indexCast c11_i32
  let c0_i32_78 : BitVec 32 := 0#32
  let c1_i32_80 : BitVec 32 := 1#32
  let arg16 : BitVec 32 := Scf.iv c0_i32_78 c1_i32_80 k1_t9
  let c16_i32_102 : BitVec 32 := 16#32
  let v210 : BitVec 32 := Scalar.muli arg16 c16_i32_102
  let v212 : Index := Scalar.indexCast v210
  ![11, v212.toNat]
def k1_off186 (k1_t9 : Fin k1_t9_loop.trips) : Fin 2 → Nat :=
  let c12_i32 : BitVec 32 := 12#32
  let v215 : Index := Scalar.indexCast c12_i32
  let c0_i32_78 : BitVec 32 := 0#32
  let c1_i32_80 : BitVec 32 := 1#32
  let arg16 : BitVec 32 := Scf.iv c0_i32_78 c1_i32_80 k1_t9
  let c16_i32_103 : BitVec 32 := 16#32
  let v214 : BitVec 32 := Scalar.muli arg16 c16_i32_103
  let v216 : Index := Scalar.indexCast v214
  ![12, v216.toNat]
def k1_off187 (k1_t9 : Fin k1_t9_loop.trips) : Fin 2 → Nat :=
  let c13_i32 : BitVec 32 := 13#32
  let v219 : Index := Scalar.indexCast c13_i32
  let c0_i32_78 : BitVec 32 := 0#32
  let c1_i32_80 : BitVec 32 := 1#32
  let arg16 : BitVec 32 := Scf.iv c0_i32_78 c1_i32_80 k1_t9
  let c16_i32_104 : BitVec 32 := 16#32
  let v218 : BitVec 32 := Scalar.muli arg16 c16_i32_104
  let v220 : Index := Scalar.indexCast v218
  ![13, v220.toNat]
def k1_off188 (k1_t9 : Fin k1_t9_loop.trips) : Fin 2 → Nat :=
  let c14_i32 : BitVec 32 := 14#32
  let v223 : Index := Scalar.indexCast c14_i32
  let c0_i32_78 : BitVec 32 := 0#32
  let c1_i32_80 : BitVec 32 := 1#32
  let arg16 : BitVec 32 := Scf.iv c0_i32_78 c1_i32_80 k1_t9
  let c16_i32_105 : BitVec 32 := 16#32
  let v222 : BitVec 32 := Scalar.muli arg16 c16_i32_105
  let v224 : Index := Scalar.indexCast v222
  ![14, v224.toNat]
def k1_off189 (k1_t9 : Fin k1_t9_loop.trips) : Fin 2 → Nat :=
  let c15_i32 : BitVec 32 := 15#32
  let v227 : Index := Scalar.indexCast c15_i32
  let c0_i32_78 : BitVec 32 := 0#32
  let c1_i32_80 : BitVec 32 := 1#32
  let arg16 : BitVec 32 := Scf.iv c0_i32_78 c1_i32_80 k1_t9
  let c16_i32_106 : BitVec 32 := 16#32
  let v226 : BitVec 32 := Scalar.muli arg16 c16_i32_106
  let v228 : Index := Scalar.indexCast v226
  ![15, v228.toNat]
def k1_off190 (k1_t9 : Fin k1_t9_loop.trips) : Fin 2 → Nat :=
  let c16_i32_108 : BitVec 32 := 16#32
  let v231 : Index := Scalar.indexCast c16_i32_108
  let c0_i32_78 : BitVec 32 := 0#32
  let c1_i32_80 : BitVec 32 := 1#32
  let arg16 : BitVec 32 := Scf.iv c0_i32_78 c1_i32_80 k1_t9
  let c16_i32_107 : BitVec 32 := 16#32
  let v230 : BitVec 32 := Scalar.muli arg16 c16_i32_107
  let v232 : Index := Scalar.indexCast v230
  ![16, v232.toNat]
def k1_off191 (k1_t9 : Fin k1_t9_loop.trips) : Fin 2 → Nat :=
  let c17_i32 : BitVec 32 := 17#32
  let v235 : Index := Scalar.indexCast c17_i32
  let c0_i32_78 : BitVec 32 := 0#32
  let c1_i32_80 : BitVec 32 := 1#32
  let arg16 : BitVec 32 := Scf.iv c0_i32_78 c1_i32_80 k1_t9
  let c16_i32_109 : BitVec 32 := 16#32
  let v234 : BitVec 32 := Scalar.muli arg16 c16_i32_109
  let v236 : Index := Scalar.indexCast v234
  ![17, v236.toNat]
def k1_off192 (k1_t9 : Fin k1_t9_loop.trips) : Fin 2 → Nat :=
  let c18_i32 : BitVec 32 := 18#32
  let v239 : Index := Scalar.indexCast c18_i32
  let c0_i32_78 : BitVec 32 := 0#32
  let c1_i32_80 : BitVec 32 := 1#32
  let arg16 : BitVec 32 := Scf.iv c0_i32_78 c1_i32_80 k1_t9
  let c16_i32_110 : BitVec 32 := 16#32
  let v238 : BitVec 32 := Scalar.muli arg16 c16_i32_110
  let v240 : Index := Scalar.indexCast v238
  ![18, v240.toNat]
def k1_off193 (k1_t9 : Fin k1_t9_loop.trips) : Fin 2 → Nat :=
  let c19_i32 : BitVec 32 := 19#32
  let v243 : Index := Scalar.indexCast c19_i32
  let c0_i32_78 : BitVec 32 := 0#32
  let c1_i32_80 : BitVec 32 := 1#32
  let arg16 : BitVec 32 := Scf.iv c0_i32_78 c1_i32_80 k1_t9
  let c16_i32_111 : BitVec 32 := 16#32
  let v242 : BitVec 32 := Scalar.muli arg16 c16_i32_111
  let v244 : Index := Scalar.indexCast v242
  ![19, v244.toNat]
def k1_off194 (k1_t9 : Fin k1_t9_loop.trips) : Fin 2 → Nat :=
  let c20_i32 : BitVec 32 := 20#32
  let v247 : Index := Scalar.indexCast c20_i32
  let c0_i32_78 : BitVec 32 := 0#32
  let c1_i32_80 : BitVec 32 := 1#32
  let arg16 : BitVec 32 := Scf.iv c0_i32_78 c1_i32_80 k1_t9
  let c16_i32_112 : BitVec 32 := 16#32
  let v246 : BitVec 32 := Scalar.muli arg16 c16_i32_112
  let v248 : Index := Scalar.indexCast v246
  ![20, v248.toNat]
def k1_off195 (k1_t9 : Fin k1_t9_loop.trips) : Fin 2 → Nat :=
  let c21_i32 : BitVec 32 := 21#32
  let v251 : Index := Scalar.indexCast c21_i32
  let c0_i32_78 : BitVec 32 := 0#32
  let c1_i32_80 : BitVec 32 := 1#32
  let arg16 : BitVec 32 := Scf.iv c0_i32_78 c1_i32_80 k1_t9
  let c16_i32_113 : BitVec 32 := 16#32
  let v250 : BitVec 32 := Scalar.muli arg16 c16_i32_113
  let v252 : Index := Scalar.indexCast v250
  ![21, v252.toNat]
def k1_off196 (k1_t9 : Fin k1_t9_loop.trips) : Fin 2 → Nat :=
  let c22_i32 : BitVec 32 := 22#32
  let v255 : Index := Scalar.indexCast c22_i32
  let c0_i32_78 : BitVec 32 := 0#32
  let c1_i32_80 : BitVec 32 := 1#32
  let arg16 : BitVec 32 := Scf.iv c0_i32_78 c1_i32_80 k1_t9
  let c16_i32_114 : BitVec 32 := 16#32
  let v254 : BitVec 32 := Scalar.muli arg16 c16_i32_114
  let v256 : Index := Scalar.indexCast v254
  ![22, v256.toNat]
def k1_off197 (k1_t9 : Fin k1_t9_loop.trips) : Fin 2 → Nat :=
  let c23_i32 : BitVec 32 := 23#32
  let v259 : Index := Scalar.indexCast c23_i32
  let c0_i32_78 : BitVec 32 := 0#32
  let c1_i32_80 : BitVec 32 := 1#32
  let arg16 : BitVec 32 := Scf.iv c0_i32_78 c1_i32_80 k1_t9
  let c16_i32_115 : BitVec 32 := 16#32
  let v258 : BitVec 32 := Scalar.muli arg16 c16_i32_115
  let v260 : Index := Scalar.indexCast v258
  ![23, v260.toNat]
def k1_off198 (k1_t9 : Fin k1_t9_loop.trips) : Fin 2 → Nat :=
  let c24_i32 : BitVec 32 := 24#32
  let v263 : Index := Scalar.indexCast c24_i32
  let c0_i32_78 : BitVec 32 := 0#32
  let c1_i32_80 : BitVec 32 := 1#32
  let arg16 : BitVec 32 := Scf.iv c0_i32_78 c1_i32_80 k1_t9
  let c16_i32_116 : BitVec 32 := 16#32
  let v262 : BitVec 32 := Scalar.muli arg16 c16_i32_116
  let v264 : Index := Scalar.indexCast v262
  ![24, v264.toNat]
def k1_off199 (k1_t9 : Fin k1_t9_loop.trips) : Fin 2 → Nat :=
  let c25_i32 : BitVec 32 := 25#32
  let v267 : Index := Scalar.indexCast c25_i32
  let c0_i32_78 : BitVec 32 := 0#32
  let c1_i32_80 : BitVec 32 := 1#32
  let arg16 : BitVec 32 := Scf.iv c0_i32_78 c1_i32_80 k1_t9
  let c16_i32_117 : BitVec 32 := 16#32
  let v266 : BitVec 32 := Scalar.muli arg16 c16_i32_117
  let v268 : Index := Scalar.indexCast v266
  ![25, v268.toNat]
def k1_off200 (k1_t9 : Fin k1_t9_loop.trips) : Fin 2 → Nat :=
  let c26_i32 : BitVec 32 := 26#32
  let v271 : Index := Scalar.indexCast c26_i32
  let c0_i32_78 : BitVec 32 := 0#32
  let c1_i32_80 : BitVec 32 := 1#32
  let arg16 : BitVec 32 := Scf.iv c0_i32_78 c1_i32_80 k1_t9
  let c16_i32_118 : BitVec 32 := 16#32
  let v270 : BitVec 32 := Scalar.muli arg16 c16_i32_118
  let v272 : Index := Scalar.indexCast v270
  ![26, v272.toNat]
def k1_off201 (k1_t9 : Fin k1_t9_loop.trips) : Fin 2 → Nat :=
  let c27_i32 : BitVec 32 := 27#32
  let v275 : Index := Scalar.indexCast c27_i32
  let c0_i32_78 : BitVec 32 := 0#32
  let c1_i32_80 : BitVec 32 := 1#32
  let arg16 : BitVec 32 := Scf.iv c0_i32_78 c1_i32_80 k1_t9
  let c16_i32_119 : BitVec 32 := 16#32
  let v274 : BitVec 32 := Scalar.muli arg16 c16_i32_119
  let v276 : Index := Scalar.indexCast v274
  ![27, v276.toNat]
def k1_off202 (k1_t9 : Fin k1_t9_loop.trips) : Fin 2 → Nat :=
  let c28_i32 : BitVec 32 := 28#32
  let v279 : Index := Scalar.indexCast c28_i32
  let c0_i32_78 : BitVec 32 := 0#32
  let c1_i32_80 : BitVec 32 := 1#32
  let arg16 : BitVec 32 := Scf.iv c0_i32_78 c1_i32_80 k1_t9
  let c16_i32_120 : BitVec 32 := 16#32
  let v278 : BitVec 32 := Scalar.muli arg16 c16_i32_120
  let v280 : Index := Scalar.indexCast v278
  ![28, v280.toNat]
def k1_off203 (k1_t9 : Fin k1_t9_loop.trips) : Fin 2 → Nat :=
  let c29_i32 : BitVec 32 := 29#32
  let v283 : Index := Scalar.indexCast c29_i32
  let c0_i32_78 : BitVec 32 := 0#32
  let c1_i32_80 : BitVec 32 := 1#32
  let arg16 : BitVec 32 := Scf.iv c0_i32_78 c1_i32_80 k1_t9
  let c16_i32_121 : BitVec 32 := 16#32
  let v282 : BitVec 32 := Scalar.muli arg16 c16_i32_121
  let v284 : Index := Scalar.indexCast v282
  ![29, v284.toNat]
def k1_off204 (k1_t9 : Fin k1_t9_loop.trips) : Fin 2 → Nat :=
  let c30_i32 : BitVec 32 := 30#32
  let v287 : Index := Scalar.indexCast c30_i32
  let c0_i32_78 : BitVec 32 := 0#32
  let c1_i32_80 : BitVec 32 := 1#32
  let arg16 : BitVec 32 := Scf.iv c0_i32_78 c1_i32_80 k1_t9
  let c16_i32_122 : BitVec 32 := 16#32
  let v286 : BitVec 32 := Scalar.muli arg16 c16_i32_122
  let v288 : Index := Scalar.indexCast v286
  ![30, v288.toNat]
def k1_off205 (k1_t9 : Fin k1_t9_loop.trips) : Fin 2 → Nat :=
  let c31_i32 : BitVec 32 := 31#32
  let v291 : Index := Scalar.indexCast c31_i32
  let c0_i32_78 : BitVec 32 := 0#32
  let c1_i32_80 : BitVec 32 := 1#32
  let arg16 : BitVec 32 := Scf.iv c0_i32_78 c1_i32_80 k1_t9
  let c16_i32_123 : BitVec 32 := 16#32
  let v290 : BitVec 32 := Scalar.muli arg16 c16_i32_123
  let v292 : Index := Scalar.indexCast v290
  ![31, v292.toNat]
def k1_off206 (i : grid1.Coords) : Fin 2 → Nat :=
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![160, v2.toNat]
@[reducible] def k1_t10_loop : Scf.Loop 32 :=
  let c0_i32_36 : BitVec 32 := 0#32
  let c40_i32_37 : BitVec 32 := 40#32
  let v27 : BitVec 32 := Scalar.addi c0_i32_36 c40_i32_37
  let c1_i32_38 : BitVec 32 := 1#32
  ⟨c0_i32_36, v27, c1_i32_38⟩
@[reducible] def k1_t11_loop : Scf.Loop 32 :=
  let c0_i32_66 : BitVec 32 := 0#32
  let c16_i32 : BitVec 32 := 16#32
  let v46 : BitVec 32 := Scalar.addi c0_i32_66 c16_i32
  let c1_i32_67 : BitVec 32 := 1#32
  ⟨c0_i32_66, v46, c1_i32_67⟩
def k1_mult7 (k1_t11 : Fin k1_t11_loop.trips) : BitVec 32 :=
  let c0_i32_86 : BitVec 32 := 0#32
  let c0_i32_66 : BitVec 32 := 0#32
  let c1_i32_67 : BitVec 32 := 1#32
  let arg16 : BitVec 32 := Scf.iv c0_i32_66 c1_i32_67 k1_t11
  let c16_i32_85 : BitVec 32 := 16#32
  let v64 : BitVec 32 := Scalar.muli arg16 c16_i32_85
  let v65 : BitVec 32 := Scalar.addi c0_i32_86 v64
  v65
def k1_off207 (k1_t10 : Fin k1_t10_loop.trips) (k1_t11 : Fin k1_t11_loop.trips) : Fin 2 → Nat :=
  let c0_i32_36 : BitVec 32 := 0#32
  let c1_i32_38 : BitVec 32 := 1#32
  let arg14 : BitVec 32 := Scf.iv c0_i32_36 c1_i32_38 k1_t10
  let v67 : Index := Scalar.indexCast arg14
  let c0_i32_86 : BitVec 32 := 0#32
  let c0_i32_66 : BitVec 32 := 0#32
  let c1_i32_67 : BitVec 32 := 1#32
  let arg16 : BitVec 32 := Scf.iv c0_i32_66 c1_i32_67 k1_t11
  let c16_i32_85 : BitVec 32 := 16#32
  let v64 : BitVec 32 := Scalar.muli arg16 c16_i32_85
  let v65 : BitVec 32 := Scalar.addi c0_i32_86 v64
  let v66 : BitVec 32 := v65
  let v68 : Index := Scalar.indexCast v66
  ![v67.toNat, v68.toNat]

def k1_chk193 (v71 : IVec S16 32) : Prop :=
  (∀ a x, ((![v71] : Fin 1 → IVec S16 32) a x).toNat < S32000.size a)
instance k1_chk193.dec : ∀ (v71 : IVec S16 32), Decidable (k1_chk193 v71) := fun v71 => decidable_of_iff' _ (Iff.of_eq (k1_chk193.eq_1 v71))
theorem k1_idx193_inb : ∀ (v71 : IVec S16 32) (k1_hw193 : k1_chk193 v71), ∀ a x, ((![v71] : Fin 1 → IVec S16 32) a x).toNat < S32000.size a := fun v71 k1_hw193 => k1_hw193

def k1_chk194 (v74 : IVec S16 32) : Prop :=
  (∀ a x, ((![v74] : Fin 1 → IVec S16 32) a x).toNat < S32000.size a)
instance k1_chk194.dec : ∀ (v74 : IVec S16 32), Decidable (k1_chk194 v74) := fun v74 => decidable_of_iff' _ (Iff.of_eq (k1_chk194.eq_1 v74))
theorem k1_idx194_inb : ∀ (v74 : IVec S16 32) (k1_hw194 : k1_chk194 v74), ∀ a x, ((![v74] : Fin 1 → IVec S16 32) a x).toNat < S32000.size a := fun v74 k1_hw194 => k1_hw194

def k1_chk195 (v77 : IVec S16 32) : Prop :=
  (∀ a x, ((![v77] : Fin 1 → IVec S16 32) a x).toNat < S32000.size a)
instance k1_chk195.dec : ∀ (v77 : IVec S16 32), Decidable (k1_chk195 v77) := fun v77 => decidable_of_iff' _ (Iff.of_eq (k1_chk195.eq_1 v77))
theorem k1_idx195_inb : ∀ (v77 : IVec S16 32) (k1_hw195 : k1_chk195 v77), ∀ a x, ((![v77] : Fin 1 → IVec S16 32) a x).toNat < S32000.size a := fun v77 k1_hw195 => k1_hw195

def k1_chk196 (v80 : IVec S16 32) : Prop :=
  (∀ a x, ((![v80] : Fin 1 → IVec S16 32) a x).toNat < S32000.size a)
instance k1_chk196.dec : ∀ (v80 : IVec S16 32), Decidable (k1_chk196 v80) := fun v80 => decidable_of_iff' _ (Iff.of_eq (k1_chk196.eq_1 v80))
theorem k1_idx196_inb : ∀ (v80 : IVec S16 32) (k1_hw196 : k1_chk196 v80), ∀ a x, ((![v80] : Fin 1 → IVec S16 32) a x).toNat < S32000.size a := fun v80 k1_hw196 => k1_hw196

def k1_chk197 (v83 : IVec S16 32) : Prop :=
  (∀ a x, ((![v83] : Fin 1 → IVec S16 32) a x).toNat < S32000.size a)
instance k1_chk197.dec : ∀ (v83 : IVec S16 32), Decidable (k1_chk197 v83) := fun v83 => decidable_of_iff' _ (Iff.of_eq (k1_chk197.eq_1 v83))
theorem k1_idx197_inb : ∀ (v83 : IVec S16 32) (k1_hw197 : k1_chk197 v83), ∀ a x, ((![v83] : Fin 1 → IVec S16 32) a x).toNat < S32000.size a := fun v83 k1_hw197 => k1_hw197

def k1_chk198 (v86 : IVec S16 32) : Prop :=
  (∀ a x, ((![v86] : Fin 1 → IVec S16 32) a x).toNat < S32000.size a)
instance k1_chk198.dec : ∀ (v86 : IVec S16 32), Decidable (k1_chk198 v86) := fun v86 => decidable_of_iff' _ (Iff.of_eq (k1_chk198.eq_1 v86))
theorem k1_idx198_inb : ∀ (v86 : IVec S16 32) (k1_hw198 : k1_chk198 v86), ∀ a x, ((![v86] : Fin 1 → IVec S16 32) a x).toNat < S32000.size a := fun v86 k1_hw198 => k1_hw198

def k1_chk199 (v89 : IVec S16 32) : Prop :=
  (∀ a x, ((![v89] : Fin 1 → IVec S16 32) a x).toNat < S32000.size a)
instance k1_chk199.dec : ∀ (v89 : IVec S16 32), Decidable (k1_chk199 v89) := fun v89 => decidable_of_iff' _ (Iff.of_eq (k1_chk199.eq_1 v89))
theorem k1_idx199_inb : ∀ (v89 : IVec S16 32) (k1_hw199 : k1_chk199 v89), ∀ a x, ((![v89] : Fin 1 → IVec S16 32) a x).toNat < S32000.size a := fun v89 k1_hw199 => k1_hw199

def k1_chk200 (v92 : IVec S16 32) : Prop :=
  (∀ a x, ((![v92] : Fin 1 → IVec S16 32) a x).toNat < S32000.size a)
instance k1_chk200.dec : ∀ (v92 : IVec S16 32), Decidable (k1_chk200 v92) := fun v92 => decidable_of_iff' _ (Iff.of_eq (k1_chk200.eq_1 v92))
theorem k1_idx200_inb : ∀ (v92 : IVec S16 32) (k1_hw200 : k1_chk200 v92), ∀ a x, ((![v92] : Fin 1 → IVec S16 32) a x).toNat < S32000.size a := fun v92 k1_hw200 => k1_hw200

def k1_chk201 (v95 : IVec S16 32) : Prop :=
  (∀ a x, ((![v95] : Fin 1 → IVec S16 32) a x).toNat < S32000.size a)
instance k1_chk201.dec : ∀ (v95 : IVec S16 32), Decidable (k1_chk201 v95) := fun v95 => decidable_of_iff' _ (Iff.of_eq (k1_chk201.eq_1 v95))
theorem k1_idx201_inb : ∀ (v95 : IVec S16 32) (k1_hw201 : k1_chk201 v95), ∀ a x, ((![v95] : Fin 1 → IVec S16 32) a x).toNat < S32000.size a := fun v95 k1_hw201 => k1_hw201

def k1_chk202 (v98 : IVec S16 32) : Prop :=
  (∀ a x, ((![v98] : Fin 1 → IVec S16 32) a x).toNat < S32000.size a)
instance k1_chk202.dec : ∀ (v98 : IVec S16 32), Decidable (k1_chk202 v98) := fun v98 => decidable_of_iff' _ (Iff.of_eq (k1_chk202.eq_1 v98))
theorem k1_idx202_inb : ∀ (v98 : IVec S16 32) (k1_hw202 : k1_chk202 v98), ∀ a x, ((![v98] : Fin 1 → IVec S16 32) a x).toNat < S32000.size a := fun v98 k1_hw202 => k1_hw202

def k1_chk203 (v101 : IVec S16 32) : Prop :=
  (∀ a x, ((![v101] : Fin 1 → IVec S16 32) a x).toNat < S32000.size a)
instance k1_chk203.dec : ∀ (v101 : IVec S16 32), Decidable (k1_chk203 v101) := fun v101 => decidable_of_iff' _ (Iff.of_eq (k1_chk203.eq_1 v101))
theorem k1_idx203_inb : ∀ (v101 : IVec S16 32) (k1_hw203 : k1_chk203 v101), ∀ a x, ((![v101] : Fin 1 → IVec S16 32) a x).toNat < S32000.size a := fun v101 k1_hw203 => k1_hw203

def k1_chk204 (v104 : IVec S16 32) : Prop :=
  (∀ a x, ((![v104] : Fin 1 → IVec S16 32) a x).toNat < S32000.size a)
instance k1_chk204.dec : ∀ (v104 : IVec S16 32), Decidable (k1_chk204 v104) := fun v104 => decidable_of_iff' _ (Iff.of_eq (k1_chk204.eq_1 v104))
theorem k1_idx204_inb : ∀ (v104 : IVec S16 32) (k1_hw204 : k1_chk204 v104), ∀ a x, ((![v104] : Fin 1 → IVec S16 32) a x).toNat < S32000.size a := fun v104 k1_hw204 => k1_hw204

def k1_chk205 (v107 : IVec S16 32) : Prop :=
  (∀ a x, ((![v107] : Fin 1 → IVec S16 32) a x).toNat < S32000.size a)
instance k1_chk205.dec : ∀ (v107 : IVec S16 32), Decidable (k1_chk205 v107) := fun v107 => decidable_of_iff' _ (Iff.of_eq (k1_chk205.eq_1 v107))
theorem k1_idx205_inb : ∀ (v107 : IVec S16 32) (k1_hw205 : k1_chk205 v107), ∀ a x, ((![v107] : Fin 1 → IVec S16 32) a x).toNat < S32000.size a := fun v107 k1_hw205 => k1_hw205

def k1_chk206 (v110 : IVec S16 32) : Prop :=
  (∀ a x, ((![v110] : Fin 1 → IVec S16 32) a x).toNat < S32000.size a)
instance k1_chk206.dec : ∀ (v110 : IVec S16 32), Decidable (k1_chk206 v110) := fun v110 => decidable_of_iff' _ (Iff.of_eq (k1_chk206.eq_1 v110))
theorem k1_idx206_inb : ∀ (v110 : IVec S16 32) (k1_hw206 : k1_chk206 v110), ∀ a x, ((![v110] : Fin 1 → IVec S16 32) a x).toNat < S32000.size a := fun v110 k1_hw206 => k1_hw206

def k1_chk207 (v113 : IVec S16 32) : Prop :=
  (∀ a x, ((![v113] : Fin 1 → IVec S16 32) a x).toNat < S32000.size a)
instance k1_chk207.dec : ∀ (v113 : IVec S16 32), Decidable (k1_chk207 v113) := fun v113 => decidable_of_iff' _ (Iff.of_eq (k1_chk207.eq_1 v113))
theorem k1_idx207_inb : ∀ (v113 : IVec S16 32) (k1_hw207 : k1_chk207 v113), ∀ a x, ((![v113] : Fin 1 → IVec S16 32) a x).toNat < S32000.size a := fun v113 k1_hw207 => k1_hw207

def k1_chk208 (v116 : IVec S16 32) : Prop :=
  (∀ a x, ((![v116] : Fin 1 → IVec S16 32) a x).toNat < S32000.size a)
instance k1_chk208.dec : ∀ (v116 : IVec S16 32), Decidable (k1_chk208 v116) := fun v116 => decidable_of_iff' _ (Iff.of_eq (k1_chk208.eq_1 v116))
theorem k1_idx208_inb : ∀ (v116 : IVec S16 32) (k1_hw208 : k1_chk208 v116), ∀ a x, ((![v116] : Fin 1 → IVec S16 32) a x).toNat < S32000.size a := fun v116 k1_hw208 => k1_hw208

def k1_chk209 (v119 : IVec S16 32) : Prop :=
  (∀ a x, ((![v119] : Fin 1 → IVec S16 32) a x).toNat < S32000.size a)
instance k1_chk209.dec : ∀ (v119 : IVec S16 32), Decidable (k1_chk209 v119) := fun v119 => decidable_of_iff' _ (Iff.of_eq (k1_chk209.eq_1 v119))
theorem k1_idx209_inb : ∀ (v119 : IVec S16 32) (k1_hw209 : k1_chk209 v119), ∀ a x, ((![v119] : Fin 1 → IVec S16 32) a x).toNat < S32000.size a := fun v119 k1_hw209 => k1_hw209

def k1_chk210 (v122 : IVec S16 32) : Prop :=
  (∀ a x, ((![v122] : Fin 1 → IVec S16 32) a x).toNat < S32000.size a)
instance k1_chk210.dec : ∀ (v122 : IVec S16 32), Decidable (k1_chk210 v122) := fun v122 => decidable_of_iff' _ (Iff.of_eq (k1_chk210.eq_1 v122))
theorem k1_idx210_inb : ∀ (v122 : IVec S16 32) (k1_hw210 : k1_chk210 v122), ∀ a x, ((![v122] : Fin 1 → IVec S16 32) a x).toNat < S32000.size a := fun v122 k1_hw210 => k1_hw210

def k1_chk211 (v125 : IVec S16 32) : Prop :=
  (∀ a x, ((![v125] : Fin 1 → IVec S16 32) a x).toNat < S32000.size a)
instance k1_chk211.dec : ∀ (v125 : IVec S16 32), Decidable (k1_chk211 v125) := fun v125 => decidable_of_iff' _ (Iff.of_eq (k1_chk211.eq_1 v125))
theorem k1_idx211_inb : ∀ (v125 : IVec S16 32) (k1_hw211 : k1_chk211 v125), ∀ a x, ((![v125] : Fin 1 → IVec S16 32) a x).toNat < S32000.size a := fun v125 k1_hw211 => k1_hw211

def k1_chk212 (v128 : IVec S16 32) : Prop :=
  (∀ a x, ((![v128] : Fin 1 → IVec S16 32) a x).toNat < S32000.size a)
instance k1_chk212.dec : ∀ (v128 : IVec S16 32), Decidable (k1_chk212 v128) := fun v128 => decidable_of_iff' _ (Iff.of_eq (k1_chk212.eq_1 v128))
theorem k1_idx212_inb : ∀ (v128 : IVec S16 32) (k1_hw212 : k1_chk212 v128), ∀ a x, ((![v128] : Fin 1 → IVec S16 32) a x).toNat < S32000.size a := fun v128 k1_hw212 => k1_hw212

def k1_chk213 (v131 : IVec S16 32) : Prop :=
  (∀ a x, ((![v131] : Fin 1 → IVec S16 32) a x).toNat < S32000.size a)
instance k1_chk213.dec : ∀ (v131 : IVec S16 32), Decidable (k1_chk213 v131) := fun v131 => decidable_of_iff' _ (Iff.of_eq (k1_chk213.eq_1 v131))
theorem k1_idx213_inb : ∀ (v131 : IVec S16 32) (k1_hw213 : k1_chk213 v131), ∀ a x, ((![v131] : Fin 1 → IVec S16 32) a x).toNat < S32000.size a := fun v131 k1_hw213 => k1_hw213

def k1_chk214 (v134 : IVec S16 32) : Prop :=
  (∀ a x, ((![v134] : Fin 1 → IVec S16 32) a x).toNat < S32000.size a)
instance k1_chk214.dec : ∀ (v134 : IVec S16 32), Decidable (k1_chk214 v134) := fun v134 => decidable_of_iff' _ (Iff.of_eq (k1_chk214.eq_1 v134))
theorem k1_idx214_inb : ∀ (v134 : IVec S16 32) (k1_hw214 : k1_chk214 v134), ∀ a x, ((![v134] : Fin 1 → IVec S16 32) a x).toNat < S32000.size a := fun v134 k1_hw214 => k1_hw214

def k1_chk215 (v137 : IVec S16 32) : Prop :=
  (∀ a x, ((![v137] : Fin 1 → IVec S16 32) a x).toNat < S32000.size a)
instance k1_chk215.dec : ∀ (v137 : IVec S16 32), Decidable (k1_chk215 v137) := fun v137 => decidable_of_iff' _ (Iff.of_eq (k1_chk215.eq_1 v137))
theorem k1_idx215_inb : ∀ (v137 : IVec S16 32) (k1_hw215 : k1_chk215 v137), ∀ a x, ((![v137] : Fin 1 → IVec S16 32) a x).toNat < S32000.size a := fun v137 k1_hw215 => k1_hw215

def k1_chk216 (v140 : IVec S16 32) : Prop :=
  (∀ a x, ((![v140] : Fin 1 → IVec S16 32) a x).toNat < S32000.size a)
instance k1_chk216.dec : ∀ (v140 : IVec S16 32), Decidable (k1_chk216 v140) := fun v140 => decidable_of_iff' _ (Iff.of_eq (k1_chk216.eq_1 v140))
theorem k1_idx216_inb : ∀ (v140 : IVec S16 32) (k1_hw216 : k1_chk216 v140), ∀ a x, ((![v140] : Fin 1 → IVec S16 32) a x).toNat < S32000.size a := fun v140 k1_hw216 => k1_hw216

def k1_chk217 (v143 : IVec S16 32) : Prop :=
  (∀ a x, ((![v143] : Fin 1 → IVec S16 32) a x).toNat < S32000.size a)
instance k1_chk217.dec : ∀ (v143 : IVec S16 32), Decidable (k1_chk217 v143) := fun v143 => decidable_of_iff' _ (Iff.of_eq (k1_chk217.eq_1 v143))
theorem k1_idx217_inb : ∀ (v143 : IVec S16 32) (k1_hw217 : k1_chk217 v143), ∀ a x, ((![v143] : Fin 1 → IVec S16 32) a x).toNat < S32000.size a := fun v143 k1_hw217 => k1_hw217

def k1_chk218 (v146 : IVec S16 32) : Prop :=
  (∀ a x, ((![v146] : Fin 1 → IVec S16 32) a x).toNat < S32000.size a)
instance k1_chk218.dec : ∀ (v146 : IVec S16 32), Decidable (k1_chk218 v146) := fun v146 => decidable_of_iff' _ (Iff.of_eq (k1_chk218.eq_1 v146))
theorem k1_idx218_inb : ∀ (v146 : IVec S16 32) (k1_hw218 : k1_chk218 v146), ∀ a x, ((![v146] : Fin 1 → IVec S16 32) a x).toNat < S32000.size a := fun v146 k1_hw218 => k1_hw218

def k1_chk219 (v149 : IVec S16 32) : Prop :=
  (∀ a x, ((![v149] : Fin 1 → IVec S16 32) a x).toNat < S32000.size a)
instance k1_chk219.dec : ∀ (v149 : IVec S16 32), Decidable (k1_chk219 v149) := fun v149 => decidable_of_iff' _ (Iff.of_eq (k1_chk219.eq_1 v149))
theorem k1_idx219_inb : ∀ (v149 : IVec S16 32) (k1_hw219 : k1_chk219 v149), ∀ a x, ((![v149] : Fin 1 → IVec S16 32) a x).toNat < S32000.size a := fun v149 k1_hw219 => k1_hw219

def k1_chk220 (v152 : IVec S16 32) : Prop :=
  (∀ a x, ((![v152] : Fin 1 → IVec S16 32) a x).toNat < S32000.size a)
instance k1_chk220.dec : ∀ (v152 : IVec S16 32), Decidable (k1_chk220 v152) := fun v152 => decidable_of_iff' _ (Iff.of_eq (k1_chk220.eq_1 v152))
theorem k1_idx220_inb : ∀ (v152 : IVec S16 32) (k1_hw220 : k1_chk220 v152), ∀ a x, ((![v152] : Fin 1 → IVec S16 32) a x).toNat < S32000.size a := fun v152 k1_hw220 => k1_hw220

def k1_chk221 (v155 : IVec S16 32) : Prop :=
  (∀ a x, ((![v155] : Fin 1 → IVec S16 32) a x).toNat < S32000.size a)
instance k1_chk221.dec : ∀ (v155 : IVec S16 32), Decidable (k1_chk221 v155) := fun v155 => decidable_of_iff' _ (Iff.of_eq (k1_chk221.eq_1 v155))
theorem k1_idx221_inb : ∀ (v155 : IVec S16 32) (k1_hw221 : k1_chk221 v155), ∀ a x, ((![v155] : Fin 1 → IVec S16 32) a x).toNat < S32000.size a := fun v155 k1_hw221 => k1_hw221

def k1_chk222 (v158 : IVec S16 32) : Prop :=
  (∀ a x, ((![v158] : Fin 1 → IVec S16 32) a x).toNat < S32000.size a)
instance k1_chk222.dec : ∀ (v158 : IVec S16 32), Decidable (k1_chk222 v158) := fun v158 => decidable_of_iff' _ (Iff.of_eq (k1_chk222.eq_1 v158))
theorem k1_idx222_inb : ∀ (v158 : IVec S16 32) (k1_hw222 : k1_chk222 v158), ∀ a x, ((![v158] : Fin 1 → IVec S16 32) a x).toNat < S32000.size a := fun v158 k1_hw222 => k1_hw222

def k1_chk223 (v161 : IVec S16 32) : Prop :=
  (∀ a x, ((![v161] : Fin 1 → IVec S16 32) a x).toNat < S32000.size a)
instance k1_chk223.dec : ∀ (v161 : IVec S16 32), Decidable (k1_chk223 v161) := fun v161 => decidable_of_iff' _ (Iff.of_eq (k1_chk223.eq_1 v161))
theorem k1_idx223_inb : ∀ (v161 : IVec S16 32) (k1_hw223 : k1_chk223 v161), ∀ a x, ((![v161] : Fin 1 → IVec S16 32) a x).toNat < S32000.size a := fun v161 k1_hw223 => k1_hw223

def k1_chk224 (v164 : IVec S16 32) : Prop :=
  (∀ a x, ((![v164] : Fin 1 → IVec S16 32) a x).toNat < S32000.size a)
instance k1_chk224.dec : ∀ (v164 : IVec S16 32), Decidable (k1_chk224 v164) := fun v164 => decidable_of_iff' _ (Iff.of_eq (k1_chk224.eq_1 v164))
theorem k1_idx224_inb : ∀ (v164 : IVec S16 32) (k1_hw224 : k1_chk224 v164), ∀ a x, ((![v164] : Fin 1 → IVec S16 32) a x).toNat < S32000.size a := fun v164 k1_hw224 => k1_hw224
def k1_off208 (k1_t11 : Fin k1_t11_loop.trips) : Fin 2 → Nat :=
  let c0_i32_89 : BitVec 32 := 0#32
  let v167 : Index := Scalar.indexCast c0_i32_89
  let c0_i32_66 : BitVec 32 := 0#32
  let c1_i32_67 : BitVec 32 := 1#32
  let arg16 : BitVec 32 := Scf.iv c0_i32_66 c1_i32_67 k1_t11
  let c16_i32_88 : BitVec 32 := 16#32
  let v166 : BitVec 32 := Scalar.muli arg16 c16_i32_88
  let v168 : Index := Scalar.indexCast v166
  ![0, v168.toNat]
def k1_off209 (k1_t11 : Fin k1_t11_loop.trips) : Fin 2 → Nat :=
  let c1_i32_91 : BitVec 32 := 1#32
  let v171 : Index := Scalar.indexCast c1_i32_91
  let c0_i32_66 : BitVec 32 := 0#32
  let c1_i32_67 : BitVec 32 := 1#32
  let arg16 : BitVec 32 := Scf.iv c0_i32_66 c1_i32_67 k1_t11
  let c16_i32_90 : BitVec 32 := 16#32
  let v170 : BitVec 32 := Scalar.muli arg16 c16_i32_90
  let v172 : Index := Scalar.indexCast v170
  ![1, v172.toNat]
def k1_off210 (k1_t11 : Fin k1_t11_loop.trips) : Fin 2 → Nat :=
  let c2_i32_93 : BitVec 32 := 2#32
  let v175 : Index := Scalar.indexCast c2_i32_93
  let c0_i32_66 : BitVec 32 := 0#32
  let c1_i32_67 : BitVec 32 := 1#32
  let arg16 : BitVec 32 := Scf.iv c0_i32_66 c1_i32_67 k1_t11
  let c16_i32_92 : BitVec 32 := 16#32
  let v174 : BitVec 32 := Scalar.muli arg16 c16_i32_92
  let v176 : Index := Scalar.indexCast v174
  ![2, v176.toNat]
def k1_off211 (k1_t11 : Fin k1_t11_loop.trips) : Fin 2 → Nat :=
  let c3_i32 : BitVec 32 := 3#32
  let v179 : Index := Scalar.indexCast c3_i32
  let c0_i32_66 : BitVec 32 := 0#32
  let c1_i32_67 : BitVec 32 := 1#32
  let arg16 : BitVec 32 := Scf.iv c0_i32_66 c1_i32_67 k1_t11
  let c16_i32_94 : BitVec 32 := 16#32
  let v178 : BitVec 32 := Scalar.muli arg16 c16_i32_94
  let v180 : Index := Scalar.indexCast v178
  ![3, v180.toNat]
def k1_off212 (k1_t11 : Fin k1_t11_loop.trips) : Fin 2 → Nat :=
  let c4_i32 : BitVec 32 := 4#32
  let v183 : Index := Scalar.indexCast c4_i32
  let c0_i32_66 : BitVec 32 := 0#32
  let c1_i32_67 : BitVec 32 := 1#32
  let arg16 : BitVec 32 := Scf.iv c0_i32_66 c1_i32_67 k1_t11
  let c16_i32_95 : BitVec 32 := 16#32
  let v182 : BitVec 32 := Scalar.muli arg16 c16_i32_95
  let v184 : Index := Scalar.indexCast v182
  ![4, v184.toNat]
def k1_off213 (k1_t11 : Fin k1_t11_loop.trips) : Fin 2 → Nat :=
  let c5_i32 : BitVec 32 := 5#32
  let v187 : Index := Scalar.indexCast c5_i32
  let c0_i32_66 : BitVec 32 := 0#32
  let c1_i32_67 : BitVec 32 := 1#32
  let arg16 : BitVec 32 := Scf.iv c0_i32_66 c1_i32_67 k1_t11
  let c16_i32_96 : BitVec 32 := 16#32
  let v186 : BitVec 32 := Scalar.muli arg16 c16_i32_96
  let v188 : Index := Scalar.indexCast v186
  ![5, v188.toNat]
def k1_off214 (k1_t11 : Fin k1_t11_loop.trips) : Fin 2 → Nat :=
  let c6_i32 : BitVec 32 := 6#32
  let v191 : Index := Scalar.indexCast c6_i32
  let c0_i32_66 : BitVec 32 := 0#32
  let c1_i32_67 : BitVec 32 := 1#32
  let arg16 : BitVec 32 := Scf.iv c0_i32_66 c1_i32_67 k1_t11
  let c16_i32_97 : BitVec 32 := 16#32
  let v190 : BitVec 32 := Scalar.muli arg16 c16_i32_97
  let v192 : Index := Scalar.indexCast v190
  ![6, v192.toNat]
def k1_off215 (k1_t11 : Fin k1_t11_loop.trips) : Fin 2 → Nat :=
  let c7_i32 : BitVec 32 := 7#32
  let v195 : Index := Scalar.indexCast c7_i32
  let c0_i32_66 : BitVec 32 := 0#32
  let c1_i32_67 : BitVec 32 := 1#32
  let arg16 : BitVec 32 := Scf.iv c0_i32_66 c1_i32_67 k1_t11
  let c16_i32_98 : BitVec 32 := 16#32
  let v194 : BitVec 32 := Scalar.muli arg16 c16_i32_98
  let v196 : Index := Scalar.indexCast v194
  ![7, v196.toNat]
def k1_off216 (k1_t11 : Fin k1_t11_loop.trips) : Fin 2 → Nat :=
  let c8_i32 : BitVec 32 := 8#32
  let v199 : Index := Scalar.indexCast c8_i32
  let c0_i32_66 : BitVec 32 := 0#32
  let c1_i32_67 : BitVec 32 := 1#32
  let arg16 : BitVec 32 := Scf.iv c0_i32_66 c1_i32_67 k1_t11
  let c16_i32_99 : BitVec 32 := 16#32
  let v198 : BitVec 32 := Scalar.muli arg16 c16_i32_99
  let v200 : Index := Scalar.indexCast v198
  ![8, v200.toNat]
def k1_off217 (k1_t11 : Fin k1_t11_loop.trips) : Fin 2 → Nat :=
  let c9_i32 : BitVec 32 := 9#32
  let v203 : Index := Scalar.indexCast c9_i32
  let c0_i32_66 : BitVec 32 := 0#32
  let c1_i32_67 : BitVec 32 := 1#32
  let arg16 : BitVec 32 := Scf.iv c0_i32_66 c1_i32_67 k1_t11
  let c16_i32_100 : BitVec 32 := 16#32
  let v202 : BitVec 32 := Scalar.muli arg16 c16_i32_100
  let v204 : Index := Scalar.indexCast v202
  ![9, v204.toNat]
def k1_off218 (k1_t11 : Fin k1_t11_loop.trips) : Fin 2 → Nat :=
  let c10_i32 : BitVec 32 := 10#32
  let v207 : Index := Scalar.indexCast c10_i32
  let c0_i32_66 : BitVec 32 := 0#32
  let c1_i32_67 : BitVec 32 := 1#32
  let arg16 : BitVec 32 := Scf.iv c0_i32_66 c1_i32_67 k1_t11
  let c16_i32_101 : BitVec 32 := 16#32
  let v206 : BitVec 32 := Scalar.muli arg16 c16_i32_101
  let v208 : Index := Scalar.indexCast v206
  ![10, v208.toNat]
def k1_off219 (k1_t11 : Fin k1_t11_loop.trips) : Fin 2 → Nat :=
  let c11_i32 : BitVec 32 := 11#32
  let v211 : Index := Scalar.indexCast c11_i32
  let c0_i32_66 : BitVec 32 := 0#32
  let c1_i32_67 : BitVec 32 := 1#32
  let arg16 : BitVec 32 := Scf.iv c0_i32_66 c1_i32_67 k1_t11
  let c16_i32_102 : BitVec 32 := 16#32
  let v210 : BitVec 32 := Scalar.muli arg16 c16_i32_102
  let v212 : Index := Scalar.indexCast v210
  ![11, v212.toNat]
def k1_off220 (k1_t11 : Fin k1_t11_loop.trips) : Fin 2 → Nat :=
  let c12_i32 : BitVec 32 := 12#32
  let v215 : Index := Scalar.indexCast c12_i32
  let c0_i32_66 : BitVec 32 := 0#32
  let c1_i32_67 : BitVec 32 := 1#32
  let arg16 : BitVec 32 := Scf.iv c0_i32_66 c1_i32_67 k1_t11
  let c16_i32_103 : BitVec 32 := 16#32
  let v214 : BitVec 32 := Scalar.muli arg16 c16_i32_103
  let v216 : Index := Scalar.indexCast v214
  ![12, v216.toNat]
def k1_off221 (k1_t11 : Fin k1_t11_loop.trips) : Fin 2 → Nat :=
  let c13_i32 : BitVec 32 := 13#32
  let v219 : Index := Scalar.indexCast c13_i32
  let c0_i32_66 : BitVec 32 := 0#32
  let c1_i32_67 : BitVec 32 := 1#32
  let arg16 : BitVec 32 := Scf.iv c0_i32_66 c1_i32_67 k1_t11
  let c16_i32_104 : BitVec 32 := 16#32
  let v218 : BitVec 32 := Scalar.muli arg16 c16_i32_104
  let v220 : Index := Scalar.indexCast v218
  ![13, v220.toNat]
def k1_off222 (k1_t11 : Fin k1_t11_loop.trips) : Fin 2 → Nat :=
  let c14_i32 : BitVec 32 := 14#32
  let v223 : Index := Scalar.indexCast c14_i32
  let c0_i32_66 : BitVec 32 := 0#32
  let c1_i32_67 : BitVec 32 := 1#32
  let arg16 : BitVec 32 := Scf.iv c0_i32_66 c1_i32_67 k1_t11
  let c16_i32_105 : BitVec 32 := 16#32
  let v222 : BitVec 32 := Scalar.muli arg16 c16_i32_105
  let v224 : Index := Scalar.indexCast v222
  ![14, v224.toNat]
def k1_off223 (k1_t11 : Fin k1_t11_loop.trips) : Fin 2 → Nat :=
  let c15_i32 : BitVec 32 := 15#32
  let v227 : Index := Scalar.indexCast c15_i32
  let c0_i32_66 : BitVec 32 := 0#32
  let c1_i32_67 : BitVec 32 := 1#32
  let arg16 : BitVec 32 := Scf.iv c0_i32_66 c1_i32_67 k1_t11
  let c16_i32_106 : BitVec 32 := 16#32
  let v226 : BitVec 32 := Scalar.muli arg16 c16_i32_106
  let v228 : Index := Scalar.indexCast v226
  ![15, v228.toNat]
def k1_off224 (k1_t11 : Fin k1_t11_loop.trips) : Fin 2 → Nat :=
  let c16_i32_108 : BitVec 32 := 16#32
  let v231 : Index := Scalar.indexCast c16_i32_108
  let c0_i32_66 : BitVec 32 := 0#32
  let c1_i32_67 : BitVec 32 := 1#32
  let arg16 : BitVec 32 := Scf.iv c0_i32_66 c1_i32_67 k1_t11
  let c16_i32_107 : BitVec 32 := 16#32
  let v230 : BitVec 32 := Scalar.muli arg16 c16_i32_107
  let v232 : Index := Scalar.indexCast v230
  ![16, v232.toNat]
def k1_off225 (k1_t11 : Fin k1_t11_loop.trips) : Fin 2 → Nat :=
  let c17_i32 : BitVec 32 := 17#32
  let v235 : Index := Scalar.indexCast c17_i32
  let c0_i32_66 : BitVec 32 := 0#32
  let c1_i32_67 : BitVec 32 := 1#32
  let arg16 : BitVec 32 := Scf.iv c0_i32_66 c1_i32_67 k1_t11
  let c16_i32_109 : BitVec 32 := 16#32
  let v234 : BitVec 32 := Scalar.muli arg16 c16_i32_109
  let v236 : Index := Scalar.indexCast v234
  ![17, v236.toNat]
def k1_off226 (k1_t11 : Fin k1_t11_loop.trips) : Fin 2 → Nat :=
  let c18_i32 : BitVec 32 := 18#32
  let v239 : Index := Scalar.indexCast c18_i32
  let c0_i32_66 : BitVec 32 := 0#32
  let c1_i32_67 : BitVec 32 := 1#32
  let arg16 : BitVec 32 := Scf.iv c0_i32_66 c1_i32_67 k1_t11
  let c16_i32_110 : BitVec 32 := 16#32
  let v238 : BitVec 32 := Scalar.muli arg16 c16_i32_110
  let v240 : Index := Scalar.indexCast v238
  ![18, v240.toNat]
def k1_off227 (k1_t11 : Fin k1_t11_loop.trips) : Fin 2 → Nat :=
  let c19_i32 : BitVec 32 := 19#32
  let v243 : Index := Scalar.indexCast c19_i32
  let c0_i32_66 : BitVec 32 := 0#32
  let c1_i32_67 : BitVec 32 := 1#32
  let arg16 : BitVec 32 := Scf.iv c0_i32_66 c1_i32_67 k1_t11
  let c16_i32_111 : BitVec 32 := 16#32
  let v242 : BitVec 32 := Scalar.muli arg16 c16_i32_111
  let v244 : Index := Scalar.indexCast v242
  ![19, v244.toNat]
def k1_off228 (k1_t11 : Fin k1_t11_loop.trips) : Fin 2 → Nat :=
  let c20_i32 : BitVec 32 := 20#32
  let v247 : Index := Scalar.indexCast c20_i32
  let c0_i32_66 : BitVec 32 := 0#32
  let c1_i32_67 : BitVec 32 := 1#32
  let arg16 : BitVec 32 := Scf.iv c0_i32_66 c1_i32_67 k1_t11
  let c16_i32_112 : BitVec 32 := 16#32
  let v246 : BitVec 32 := Scalar.muli arg16 c16_i32_112
  let v248 : Index := Scalar.indexCast v246
  ![20, v248.toNat]
def k1_off229 (k1_t11 : Fin k1_t11_loop.trips) : Fin 2 → Nat :=
  let c21_i32 : BitVec 32 := 21#32
  let v251 : Index := Scalar.indexCast c21_i32
  let c0_i32_66 : BitVec 32 := 0#32
  let c1_i32_67 : BitVec 32 := 1#32
  let arg16 : BitVec 32 := Scf.iv c0_i32_66 c1_i32_67 k1_t11
  let c16_i32_113 : BitVec 32 := 16#32
  let v250 : BitVec 32 := Scalar.muli arg16 c16_i32_113
  let v252 : Index := Scalar.indexCast v250
  ![21, v252.toNat]
def k1_off230 (k1_t11 : Fin k1_t11_loop.trips) : Fin 2 → Nat :=
  let c22_i32 : BitVec 32 := 22#32
  let v255 : Index := Scalar.indexCast c22_i32
  let c0_i32_66 : BitVec 32 := 0#32
  let c1_i32_67 : BitVec 32 := 1#32
  let arg16 : BitVec 32 := Scf.iv c0_i32_66 c1_i32_67 k1_t11
  let c16_i32_114 : BitVec 32 := 16#32
  let v254 : BitVec 32 := Scalar.muli arg16 c16_i32_114
  let v256 : Index := Scalar.indexCast v254
  ![22, v256.toNat]
def k1_off231 (k1_t11 : Fin k1_t11_loop.trips) : Fin 2 → Nat :=
  let c23_i32 : BitVec 32 := 23#32
  let v259 : Index := Scalar.indexCast c23_i32
  let c0_i32_66 : BitVec 32 := 0#32
  let c1_i32_67 : BitVec 32 := 1#32
  let arg16 : BitVec 32 := Scf.iv c0_i32_66 c1_i32_67 k1_t11
  let c16_i32_115 : BitVec 32 := 16#32
  let v258 : BitVec 32 := Scalar.muli arg16 c16_i32_115
  let v260 : Index := Scalar.indexCast v258
  ![23, v260.toNat]
def k1_off232 (k1_t11 : Fin k1_t11_loop.trips) : Fin 2 → Nat :=
  let c24_i32 : BitVec 32 := 24#32
  let v263 : Index := Scalar.indexCast c24_i32
  let c0_i32_66 : BitVec 32 := 0#32
  let c1_i32_67 : BitVec 32 := 1#32
  let arg16 : BitVec 32 := Scf.iv c0_i32_66 c1_i32_67 k1_t11
  let c16_i32_116 : BitVec 32 := 16#32
  let v262 : BitVec 32 := Scalar.muli arg16 c16_i32_116
  let v264 : Index := Scalar.indexCast v262
  ![24, v264.toNat]
def k1_off233 (k1_t11 : Fin k1_t11_loop.trips) : Fin 2 → Nat :=
  let c25_i32 : BitVec 32 := 25#32
  let v267 : Index := Scalar.indexCast c25_i32
  let c0_i32_66 : BitVec 32 := 0#32
  let c1_i32_67 : BitVec 32 := 1#32
  let arg16 : BitVec 32 := Scf.iv c0_i32_66 c1_i32_67 k1_t11
  let c16_i32_117 : BitVec 32 := 16#32
  let v266 : BitVec 32 := Scalar.muli arg16 c16_i32_117
  let v268 : Index := Scalar.indexCast v266
  ![25, v268.toNat]
def k1_off234 (k1_t11 : Fin k1_t11_loop.trips) : Fin 2 → Nat :=
  let c26_i32 : BitVec 32 := 26#32
  let v271 : Index := Scalar.indexCast c26_i32
  let c0_i32_66 : BitVec 32 := 0#32
  let c1_i32_67 : BitVec 32 := 1#32
  let arg16 : BitVec 32 := Scf.iv c0_i32_66 c1_i32_67 k1_t11
  let c16_i32_118 : BitVec 32 := 16#32
  let v270 : BitVec 32 := Scalar.muli arg16 c16_i32_118
  let v272 : Index := Scalar.indexCast v270
  ![26, v272.toNat]
def k1_off235 (k1_t11 : Fin k1_t11_loop.trips) : Fin 2 → Nat :=
  let c27_i32 : BitVec 32 := 27#32
  let v275 : Index := Scalar.indexCast c27_i32
  let c0_i32_66 : BitVec 32 := 0#32
  let c1_i32_67 : BitVec 32 := 1#32
  let arg16 : BitVec 32 := Scf.iv c0_i32_66 c1_i32_67 k1_t11
  let c16_i32_119 : BitVec 32 := 16#32
  let v274 : BitVec 32 := Scalar.muli arg16 c16_i32_119
  let v276 : Index := Scalar.indexCast v274
  ![27, v276.toNat]
def k1_off236 (k1_t11 : Fin k1_t11_loop.trips) : Fin 2 → Nat :=
  let c28_i32 : BitVec 32 := 28#32
  let v279 : Index := Scalar.indexCast c28_i32
  let c0_i32_66 : BitVec 32 := 0#32
  let c1_i32_67 : BitVec 32 := 1#32
  let arg16 : BitVec 32 := Scf.iv c0_i32_66 c1_i32_67 k1_t11
  let c16_i32_120 : BitVec 32 := 16#32
  let v278 : BitVec 32 := Scalar.muli arg16 c16_i32_120
  let v280 : Index := Scalar.indexCast v278
  ![28, v280.toNat]
def k1_off237 (k1_t11 : Fin k1_t11_loop.trips) : Fin 2 → Nat :=
  let c29_i32 : BitVec 32 := 29#32
  let v283 : Index := Scalar.indexCast c29_i32
  let c0_i32_66 : BitVec 32 := 0#32
  let c1_i32_67 : BitVec 32 := 1#32
  let arg16 : BitVec 32 := Scf.iv c0_i32_66 c1_i32_67 k1_t11
  let c16_i32_121 : BitVec 32 := 16#32
  let v282 : BitVec 32 := Scalar.muli arg16 c16_i32_121
  let v284 : Index := Scalar.indexCast v282
  ![29, v284.toNat]
def k1_off238 (k1_t11 : Fin k1_t11_loop.trips) : Fin 2 → Nat :=
  let c30_i32 : BitVec 32 := 30#32
  let v287 : Index := Scalar.indexCast c30_i32
  let c0_i32_66 : BitVec 32 := 0#32
  let c1_i32_67 : BitVec 32 := 1#32
  let arg16 : BitVec 32 := Scf.iv c0_i32_66 c1_i32_67 k1_t11
  let c16_i32_122 : BitVec 32 := 16#32
  let v286 : BitVec 32 := Scalar.muli arg16 c16_i32_122
  let v288 : Index := Scalar.indexCast v286
  ![30, v288.toNat]
def k1_off239 (k1_t11 : Fin k1_t11_loop.trips) : Fin 2 → Nat :=
  let c31_i32 : BitVec 32 := 31#32
  let v291 : Index := Scalar.indexCast c31_i32
  let c0_i32_66 : BitVec 32 := 0#32
  let c1_i32_67 : BitVec 32 := 1#32
  let arg16 : BitVec 32 := Scf.iv c0_i32_66 c1_i32_67 k1_t11
  let c16_i32_123 : BitVec 32 := 16#32
  let v290 : BitVec 32 := Scalar.muli arg16 c16_i32_123
  let v292 : Index := Scalar.indexCast v290
  ![31, v292.toNat]
def k1_off240 (i : grid1.Coords) (k1_t10 : Fin k1_t10_loop.trips) (c0_i32_69 : BitVec 32) : Fin 3 → Nat :=
  let c120_i32_59 : BitVec 32 := 120#32
  let c0_i32_36 : BitVec 32 := 0#32
  let c1_i32_38 : BitVec 32 := 1#32
  let arg14 : BitVec 32 := Scf.iv c0_i32_36 c1_i32_38 k1_t10
  let v41 : BitVec 32 := Scalar.addi c120_i32_59 arg14
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v48 : BitVec 32 := Scalar.addi v2 c0_i32_69
  ![v41.toNat, 0, v48.toNat]
@[reducible] def k1_t12_loop : Scf.Loop 32 :=
  let c0_i32_78 : BitVec 32 := 0#32
  let c16_i32_79 : BitVec 32 := 16#32
  let v57 : BitVec 32 := Scalar.addi c0_i32_78 c16_i32_79
  let c1_i32_80 : BitVec 32 := 1#32
  ⟨c0_i32_78, v57, c1_i32_80⟩
def k1_mult8 (k1_t12 : Fin k1_t12_loop.trips) : BitVec 32 :=
  let c256_i32_86 : BitVec 32 := 256#32
  let c0_i32_78 : BitVec 32 := 0#32
  let c1_i32_80 : BitVec 32 := 1#32
  let arg16 : BitVec 32 := Scf.iv c0_i32_78 c1_i32_80 k1_t12
  let c16_i32_85 : BitVec 32 := 16#32
  let v64 : BitVec 32 := Scalar.muli arg16 c16_i32_85
  let v65 : BitVec 32 := Scalar.addi c256_i32_86 v64
  v65
def k1_off241 (k1_t10 : Fin k1_t10_loop.trips) (k1_t12 : Fin k1_t12_loop.trips) : Fin 2 → Nat :=
  let c0_i32_36 : BitVec 32 := 0#32
  let c1_i32_38 : BitVec 32 := 1#32
  let arg14 : BitVec 32 := Scf.iv c0_i32_36 c1_i32_38 k1_t10
  let v67 : Index := Scalar.indexCast arg14
  let c256_i32_86 : BitVec 32 := 256#32
  let c0_i32_78 : BitVec 32 := 0#32
  let c1_i32_80 : BitVec 32 := 1#32
  let arg16 : BitVec 32 := Scf.iv c0_i32_78 c1_i32_80 k1_t12
  let c16_i32_85 : BitVec 32 := 16#32
  let v64 : BitVec 32 := Scalar.muli arg16 c16_i32_85
  let v65 : BitVec 32 := Scalar.addi c256_i32_86 v64
  let v66 : BitVec 32 := v65
  let v68 : Index := Scalar.indexCast v66
  ![v67.toNat, v68.toNat]

def k1_chk225 (v71 : IVec S16 32) : Prop :=
  (∀ a x, ((![v71] : Fin 1 → IVec S16 32) a x).toNat < S32000.size a)
instance k1_chk225.dec : ∀ (v71 : IVec S16 32), Decidable (k1_chk225 v71) := fun v71 => decidable_of_iff' _ (Iff.of_eq (k1_chk225.eq_1 v71))
theorem k1_idx225_inb : ∀ (v71 : IVec S16 32) (k1_hw225 : k1_chk225 v71), ∀ a x, ((![v71] : Fin 1 → IVec S16 32) a x).toNat < S32000.size a := fun v71 k1_hw225 => k1_hw225

def k1_chk226 (v74 : IVec S16 32) : Prop :=
  (∀ a x, ((![v74] : Fin 1 → IVec S16 32) a x).toNat < S32000.size a)
instance k1_chk226.dec : ∀ (v74 : IVec S16 32), Decidable (k1_chk226 v74) := fun v74 => decidable_of_iff' _ (Iff.of_eq (k1_chk226.eq_1 v74))
theorem k1_idx226_inb : ∀ (v74 : IVec S16 32) (k1_hw226 : k1_chk226 v74), ∀ a x, ((![v74] : Fin 1 → IVec S16 32) a x).toNat < S32000.size a := fun v74 k1_hw226 => k1_hw226

def k1_chk227 (v77 : IVec S16 32) : Prop :=
  (∀ a x, ((![v77] : Fin 1 → IVec S16 32) a x).toNat < S32000.size a)
instance k1_chk227.dec : ∀ (v77 : IVec S16 32), Decidable (k1_chk227 v77) := fun v77 => decidable_of_iff' _ (Iff.of_eq (k1_chk227.eq_1 v77))
theorem k1_idx227_inb : ∀ (v77 : IVec S16 32) (k1_hw227 : k1_chk227 v77), ∀ a x, ((![v77] : Fin 1 → IVec S16 32) a x).toNat < S32000.size a := fun v77 k1_hw227 => k1_hw227

def k1_chk228 (v80 : IVec S16 32) : Prop :=
  (∀ a x, ((![v80] : Fin 1 → IVec S16 32) a x).toNat < S32000.size a)
instance k1_chk228.dec : ∀ (v80 : IVec S16 32), Decidable (k1_chk228 v80) := fun v80 => decidable_of_iff' _ (Iff.of_eq (k1_chk228.eq_1 v80))
theorem k1_idx228_inb : ∀ (v80 : IVec S16 32) (k1_hw228 : k1_chk228 v80), ∀ a x, ((![v80] : Fin 1 → IVec S16 32) a x).toNat < S32000.size a := fun v80 k1_hw228 => k1_hw228

def k1_chk229 (v83 : IVec S16 32) : Prop :=
  (∀ a x, ((![v83] : Fin 1 → IVec S16 32) a x).toNat < S32000.size a)
instance k1_chk229.dec : ∀ (v83 : IVec S16 32), Decidable (k1_chk229 v83) := fun v83 => decidable_of_iff' _ (Iff.of_eq (k1_chk229.eq_1 v83))
theorem k1_idx229_inb : ∀ (v83 : IVec S16 32) (k1_hw229 : k1_chk229 v83), ∀ a x, ((![v83] : Fin 1 → IVec S16 32) a x).toNat < S32000.size a := fun v83 k1_hw229 => k1_hw229

def k1_chk230 (v86 : IVec S16 32) : Prop :=
  (∀ a x, ((![v86] : Fin 1 → IVec S16 32) a x).toNat < S32000.size a)
instance k1_chk230.dec : ∀ (v86 : IVec S16 32), Decidable (k1_chk230 v86) := fun v86 => decidable_of_iff' _ (Iff.of_eq (k1_chk230.eq_1 v86))
theorem k1_idx230_inb : ∀ (v86 : IVec S16 32) (k1_hw230 : k1_chk230 v86), ∀ a x, ((![v86] : Fin 1 → IVec S16 32) a x).toNat < S32000.size a := fun v86 k1_hw230 => k1_hw230

def k1_chk231 (v89 : IVec S16 32) : Prop :=
  (∀ a x, ((![v89] : Fin 1 → IVec S16 32) a x).toNat < S32000.size a)
instance k1_chk231.dec : ∀ (v89 : IVec S16 32), Decidable (k1_chk231 v89) := fun v89 => decidable_of_iff' _ (Iff.of_eq (k1_chk231.eq_1 v89))
theorem k1_idx231_inb : ∀ (v89 : IVec S16 32) (k1_hw231 : k1_chk231 v89), ∀ a x, ((![v89] : Fin 1 → IVec S16 32) a x).toNat < S32000.size a := fun v89 k1_hw231 => k1_hw231

def k1_chk232 (v92 : IVec S16 32) : Prop :=
  (∀ a x, ((![v92] : Fin 1 → IVec S16 32) a x).toNat < S32000.size a)
instance k1_chk232.dec : ∀ (v92 : IVec S16 32), Decidable (k1_chk232 v92) := fun v92 => decidable_of_iff' _ (Iff.of_eq (k1_chk232.eq_1 v92))
theorem k1_idx232_inb : ∀ (v92 : IVec S16 32) (k1_hw232 : k1_chk232 v92), ∀ a x, ((![v92] : Fin 1 → IVec S16 32) a x).toNat < S32000.size a := fun v92 k1_hw232 => k1_hw232

def k1_chk233 (v95 : IVec S16 32) : Prop :=
  (∀ a x, ((![v95] : Fin 1 → IVec S16 32) a x).toNat < S32000.size a)
instance k1_chk233.dec : ∀ (v95 : IVec S16 32), Decidable (k1_chk233 v95) := fun v95 => decidable_of_iff' _ (Iff.of_eq (k1_chk233.eq_1 v95))
theorem k1_idx233_inb : ∀ (v95 : IVec S16 32) (k1_hw233 : k1_chk233 v95), ∀ a x, ((![v95] : Fin 1 → IVec S16 32) a x).toNat < S32000.size a := fun v95 k1_hw233 => k1_hw233

def k1_chk234 (v98 : IVec S16 32) : Prop :=
  (∀ a x, ((![v98] : Fin 1 → IVec S16 32) a x).toNat < S32000.size a)
instance k1_chk234.dec : ∀ (v98 : IVec S16 32), Decidable (k1_chk234 v98) := fun v98 => decidable_of_iff' _ (Iff.of_eq (k1_chk234.eq_1 v98))
theorem k1_idx234_inb : ∀ (v98 : IVec S16 32) (k1_hw234 : k1_chk234 v98), ∀ a x, ((![v98] : Fin 1 → IVec S16 32) a x).toNat < S32000.size a := fun v98 k1_hw234 => k1_hw234

def k1_chk235 (v101 : IVec S16 32) : Prop :=
  (∀ a x, ((![v101] : Fin 1 → IVec S16 32) a x).toNat < S32000.size a)
instance k1_chk235.dec : ∀ (v101 : IVec S16 32), Decidable (k1_chk235 v101) := fun v101 => decidable_of_iff' _ (Iff.of_eq (k1_chk235.eq_1 v101))
theorem k1_idx235_inb : ∀ (v101 : IVec S16 32) (k1_hw235 : k1_chk235 v101), ∀ a x, ((![v101] : Fin 1 → IVec S16 32) a x).toNat < S32000.size a := fun v101 k1_hw235 => k1_hw235

def k1_chk236 (v104 : IVec S16 32) : Prop :=
  (∀ a x, ((![v104] : Fin 1 → IVec S16 32) a x).toNat < S32000.size a)
instance k1_chk236.dec : ∀ (v104 : IVec S16 32), Decidable (k1_chk236 v104) := fun v104 => decidable_of_iff' _ (Iff.of_eq (k1_chk236.eq_1 v104))
theorem k1_idx236_inb : ∀ (v104 : IVec S16 32) (k1_hw236 : k1_chk236 v104), ∀ a x, ((![v104] : Fin 1 → IVec S16 32) a x).toNat < S32000.size a := fun v104 k1_hw236 => k1_hw236

def k1_chk237 (v107 : IVec S16 32) : Prop :=
  (∀ a x, ((![v107] : Fin 1 → IVec S16 32) a x).toNat < S32000.size a)
instance k1_chk237.dec : ∀ (v107 : IVec S16 32), Decidable (k1_chk237 v107) := fun v107 => decidable_of_iff' _ (Iff.of_eq (k1_chk237.eq_1 v107))
theorem k1_idx237_inb : ∀ (v107 : IVec S16 32) (k1_hw237 : k1_chk237 v107), ∀ a x, ((![v107] : Fin 1 → IVec S16 32) a x).toNat < S32000.size a := fun v107 k1_hw237 => k1_hw237

def k1_chk238 (v110 : IVec S16 32) : Prop :=
  (∀ a x, ((![v110] : Fin 1 → IVec S16 32) a x).toNat < S32000.size a)
instance k1_chk238.dec : ∀ (v110 : IVec S16 32), Decidable (k1_chk238 v110) := fun v110 => decidable_of_iff' _ (Iff.of_eq (k1_chk238.eq_1 v110))
theorem k1_idx238_inb : ∀ (v110 : IVec S16 32) (k1_hw238 : k1_chk238 v110), ∀ a x, ((![v110] : Fin 1 → IVec S16 32) a x).toNat < S32000.size a := fun v110 k1_hw238 => k1_hw238

def k1_chk239 (v113 : IVec S16 32) : Prop :=
  (∀ a x, ((![v113] : Fin 1 → IVec S16 32) a x).toNat < S32000.size a)
instance k1_chk239.dec : ∀ (v113 : IVec S16 32), Decidable (k1_chk239 v113) := fun v113 => decidable_of_iff' _ (Iff.of_eq (k1_chk239.eq_1 v113))
theorem k1_idx239_inb : ∀ (v113 : IVec S16 32) (k1_hw239 : k1_chk239 v113), ∀ a x, ((![v113] : Fin 1 → IVec S16 32) a x).toNat < S32000.size a := fun v113 k1_hw239 => k1_hw239

def k1_chk240 (v116 : IVec S16 32) : Prop :=
  (∀ a x, ((![v116] : Fin 1 → IVec S16 32) a x).toNat < S32000.size a)
instance k1_chk240.dec : ∀ (v116 : IVec S16 32), Decidable (k1_chk240 v116) := fun v116 => decidable_of_iff' _ (Iff.of_eq (k1_chk240.eq_1 v116))
theorem k1_idx240_inb : ∀ (v116 : IVec S16 32) (k1_hw240 : k1_chk240 v116), ∀ a x, ((![v116] : Fin 1 → IVec S16 32) a x).toNat < S32000.size a := fun v116 k1_hw240 => k1_hw240

def k1_chk241 (v119 : IVec S16 32) : Prop :=
  (∀ a x, ((![v119] : Fin 1 → IVec S16 32) a x).toNat < S32000.size a)
instance k1_chk241.dec : ∀ (v119 : IVec S16 32), Decidable (k1_chk241 v119) := fun v119 => decidable_of_iff' _ (Iff.of_eq (k1_chk241.eq_1 v119))
theorem k1_idx241_inb : ∀ (v119 : IVec S16 32) (k1_hw241 : k1_chk241 v119), ∀ a x, ((![v119] : Fin 1 → IVec S16 32) a x).toNat < S32000.size a := fun v119 k1_hw241 => k1_hw241

def k1_chk242 (v122 : IVec S16 32) : Prop :=
  (∀ a x, ((![v122] : Fin 1 → IVec S16 32) a x).toNat < S32000.size a)
instance k1_chk242.dec : ∀ (v122 : IVec S16 32), Decidable (k1_chk242 v122) := fun v122 => decidable_of_iff' _ (Iff.of_eq (k1_chk242.eq_1 v122))
theorem k1_idx242_inb : ∀ (v122 : IVec S16 32) (k1_hw242 : k1_chk242 v122), ∀ a x, ((![v122] : Fin 1 → IVec S16 32) a x).toNat < S32000.size a := fun v122 k1_hw242 => k1_hw242

def k1_chk243 (v125 : IVec S16 32) : Prop :=
  (∀ a x, ((![v125] : Fin 1 → IVec S16 32) a x).toNat < S32000.size a)
instance k1_chk243.dec : ∀ (v125 : IVec S16 32), Decidable (k1_chk243 v125) := fun v125 => decidable_of_iff' _ (Iff.of_eq (k1_chk243.eq_1 v125))
theorem k1_idx243_inb : ∀ (v125 : IVec S16 32) (k1_hw243 : k1_chk243 v125), ∀ a x, ((![v125] : Fin 1 → IVec S16 32) a x).toNat < S32000.size a := fun v125 k1_hw243 => k1_hw243

def k1_chk244 (v128 : IVec S16 32) : Prop :=
  (∀ a x, ((![v128] : Fin 1 → IVec S16 32) a x).toNat < S32000.size a)
instance k1_chk244.dec : ∀ (v128 : IVec S16 32), Decidable (k1_chk244 v128) := fun v128 => decidable_of_iff' _ (Iff.of_eq (k1_chk244.eq_1 v128))
theorem k1_idx244_inb : ∀ (v128 : IVec S16 32) (k1_hw244 : k1_chk244 v128), ∀ a x, ((![v128] : Fin 1 → IVec S16 32) a x).toNat < S32000.size a := fun v128 k1_hw244 => k1_hw244

def k1_chk245 (v131 : IVec S16 32) : Prop :=
  (∀ a x, ((![v131] : Fin 1 → IVec S16 32) a x).toNat < S32000.size a)
instance k1_chk245.dec : ∀ (v131 : IVec S16 32), Decidable (k1_chk245 v131) := fun v131 => decidable_of_iff' _ (Iff.of_eq (k1_chk245.eq_1 v131))
theorem k1_idx245_inb : ∀ (v131 : IVec S16 32) (k1_hw245 : k1_chk245 v131), ∀ a x, ((![v131] : Fin 1 → IVec S16 32) a x).toNat < S32000.size a := fun v131 k1_hw245 => k1_hw245

def k1_chk246 (v134 : IVec S16 32) : Prop :=
  (∀ a x, ((![v134] : Fin 1 → IVec S16 32) a x).toNat < S32000.size a)
instance k1_chk246.dec : ∀ (v134 : IVec S16 32), Decidable (k1_chk246 v134) := fun v134 => decidable_of_iff' _ (Iff.of_eq (k1_chk246.eq_1 v134))
theorem k1_idx246_inb : ∀ (v134 : IVec S16 32) (k1_hw246 : k1_chk246 v134), ∀ a x, ((![v134] : Fin 1 → IVec S16 32) a x).toNat < S32000.size a := fun v134 k1_hw246 => k1_hw246

def k1_chk247 (v137 : IVec S16 32) : Prop :=
  (∀ a x, ((![v137] : Fin 1 → IVec S16 32) a x).toNat < S32000.size a)
instance k1_chk247.dec : ∀ (v137 : IVec S16 32), Decidable (k1_chk247 v137) := fun v137 => decidable_of_iff' _ (Iff.of_eq (k1_chk247.eq_1 v137))
theorem k1_idx247_inb : ∀ (v137 : IVec S16 32) (k1_hw247 : k1_chk247 v137), ∀ a x, ((![v137] : Fin 1 → IVec S16 32) a x).toNat < S32000.size a := fun v137 k1_hw247 => k1_hw247

def k1_chk248 (v140 : IVec S16 32) : Prop :=
  (∀ a x, ((![v140] : Fin 1 → IVec S16 32) a x).toNat < S32000.size a)
instance k1_chk248.dec : ∀ (v140 : IVec S16 32), Decidable (k1_chk248 v140) := fun v140 => decidable_of_iff' _ (Iff.of_eq (k1_chk248.eq_1 v140))
theorem k1_idx248_inb : ∀ (v140 : IVec S16 32) (k1_hw248 : k1_chk248 v140), ∀ a x, ((![v140] : Fin 1 → IVec S16 32) a x).toNat < S32000.size a := fun v140 k1_hw248 => k1_hw248

def k1_chk249 (v143 : IVec S16 32) : Prop :=
  (∀ a x, ((![v143] : Fin 1 → IVec S16 32) a x).toNat < S32000.size a)
instance k1_chk249.dec : ∀ (v143 : IVec S16 32), Decidable (k1_chk249 v143) := fun v143 => decidable_of_iff' _ (Iff.of_eq (k1_chk249.eq_1 v143))
theorem k1_idx249_inb : ∀ (v143 : IVec S16 32) (k1_hw249 : k1_chk249 v143), ∀ a x, ((![v143] : Fin 1 → IVec S16 32) a x).toNat < S32000.size a := fun v143 k1_hw249 => k1_hw249

def k1_chk250 (v146 : IVec S16 32) : Prop :=
  (∀ a x, ((![v146] : Fin 1 → IVec S16 32) a x).toNat < S32000.size a)
instance k1_chk250.dec : ∀ (v146 : IVec S16 32), Decidable (k1_chk250 v146) := fun v146 => decidable_of_iff' _ (Iff.of_eq (k1_chk250.eq_1 v146))
theorem k1_idx250_inb : ∀ (v146 : IVec S16 32) (k1_hw250 : k1_chk250 v146), ∀ a x, ((![v146] : Fin 1 → IVec S16 32) a x).toNat < S32000.size a := fun v146 k1_hw250 => k1_hw250

def k1_chk251 (v149 : IVec S16 32) : Prop :=
  (∀ a x, ((![v149] : Fin 1 → IVec S16 32) a x).toNat < S32000.size a)
instance k1_chk251.dec : ∀ (v149 : IVec S16 32), Decidable (k1_chk251 v149) := fun v149 => decidable_of_iff' _ (Iff.of_eq (k1_chk251.eq_1 v149))
theorem k1_idx251_inb : ∀ (v149 : IVec S16 32) (k1_hw251 : k1_chk251 v149), ∀ a x, ((![v149] : Fin 1 → IVec S16 32) a x).toNat < S32000.size a := fun v149 k1_hw251 => k1_hw251

def k1_chk252 (v152 : IVec S16 32) : Prop :=
  (∀ a x, ((![v152] : Fin 1 → IVec S16 32) a x).toNat < S32000.size a)
instance k1_chk252.dec : ∀ (v152 : IVec S16 32), Decidable (k1_chk252 v152) := fun v152 => decidable_of_iff' _ (Iff.of_eq (k1_chk252.eq_1 v152))
theorem k1_idx252_inb : ∀ (v152 : IVec S16 32) (k1_hw252 : k1_chk252 v152), ∀ a x, ((![v152] : Fin 1 → IVec S16 32) a x).toNat < S32000.size a := fun v152 k1_hw252 => k1_hw252

def k1_chk253 (v155 : IVec S16 32) : Prop :=
  (∀ a x, ((![v155] : Fin 1 → IVec S16 32) a x).toNat < S32000.size a)
instance k1_chk253.dec : ∀ (v155 : IVec S16 32), Decidable (k1_chk253 v155) := fun v155 => decidable_of_iff' _ (Iff.of_eq (k1_chk253.eq_1 v155))
theorem k1_idx253_inb : ∀ (v155 : IVec S16 32) (k1_hw253 : k1_chk253 v155), ∀ a x, ((![v155] : Fin 1 → IVec S16 32) a x).toNat < S32000.size a := fun v155 k1_hw253 => k1_hw253

def k1_chk254 (v158 : IVec S16 32) : Prop :=
  (∀ a x, ((![v158] : Fin 1 → IVec S16 32) a x).toNat < S32000.size a)
instance k1_chk254.dec : ∀ (v158 : IVec S16 32), Decidable (k1_chk254 v158) := fun v158 => decidable_of_iff' _ (Iff.of_eq (k1_chk254.eq_1 v158))
theorem k1_idx254_inb : ∀ (v158 : IVec S16 32) (k1_hw254 : k1_chk254 v158), ∀ a x, ((![v158] : Fin 1 → IVec S16 32) a x).toNat < S32000.size a := fun v158 k1_hw254 => k1_hw254

def k1_chk255 (v161 : IVec S16 32) : Prop :=
  (∀ a x, ((![v161] : Fin 1 → IVec S16 32) a x).toNat < S32000.size a)
instance k1_chk255.dec : ∀ (v161 : IVec S16 32), Decidable (k1_chk255 v161) := fun v161 => decidable_of_iff' _ (Iff.of_eq (k1_chk255.eq_1 v161))
theorem k1_idx255_inb : ∀ (v161 : IVec S16 32) (k1_hw255 : k1_chk255 v161), ∀ a x, ((![v161] : Fin 1 → IVec S16 32) a x).toNat < S32000.size a := fun v161 k1_hw255 => k1_hw255

def k1_chk256 (v164 : IVec S16 32) : Prop :=
  (∀ a x, ((![v164] : Fin 1 → IVec S16 32) a x).toNat < S32000.size a)
instance k1_chk256.dec : ∀ (v164 : IVec S16 32), Decidable (k1_chk256 v164) := fun v164 => decidable_of_iff' _ (Iff.of_eq (k1_chk256.eq_1 v164))
theorem k1_idx256_inb : ∀ (v164 : IVec S16 32) (k1_hw256 : k1_chk256 v164), ∀ a x, ((![v164] : Fin 1 → IVec S16 32) a x).toNat < S32000.size a := fun v164 k1_hw256 => k1_hw256
def k1_off242 (k1_t12 : Fin k1_t12_loop.trips) : Fin 2 → Nat :=
  let c0_i32_89 : BitVec 32 := 0#32
  let v167 : Index := Scalar.indexCast c0_i32_89
  let c0_i32_78 : BitVec 32 := 0#32
  let c1_i32_80 : BitVec 32 := 1#32
  let arg16 : BitVec 32 := Scf.iv c0_i32_78 c1_i32_80 k1_t12
  let c16_i32_88 : BitVec 32 := 16#32
  let v166 : BitVec 32 := Scalar.muli arg16 c16_i32_88
  let v168 : Index := Scalar.indexCast v166
  ![0, v168.toNat]
def k1_off243 (k1_t12 : Fin k1_t12_loop.trips) : Fin 2 → Nat :=
  let c1_i32_91 : BitVec 32 := 1#32
  let v171 : Index := Scalar.indexCast c1_i32_91
  let c0_i32_78 : BitVec 32 := 0#32
  let c1_i32_80 : BitVec 32 := 1#32
  let arg16 : BitVec 32 := Scf.iv c0_i32_78 c1_i32_80 k1_t12
  let c16_i32_90 : BitVec 32 := 16#32
  let v170 : BitVec 32 := Scalar.muli arg16 c16_i32_90
  let v172 : Index := Scalar.indexCast v170
  ![1, v172.toNat]
def k1_off244 (k1_t12 : Fin k1_t12_loop.trips) : Fin 2 → Nat :=
  let c2_i32_93 : BitVec 32 := 2#32
  let v175 : Index := Scalar.indexCast c2_i32_93
  let c0_i32_78 : BitVec 32 := 0#32
  let c1_i32_80 : BitVec 32 := 1#32
  let arg16 : BitVec 32 := Scf.iv c0_i32_78 c1_i32_80 k1_t12
  let c16_i32_92 : BitVec 32 := 16#32
  let v174 : BitVec 32 := Scalar.muli arg16 c16_i32_92
  let v176 : Index := Scalar.indexCast v174
  ![2, v176.toNat]
def k1_off245 (k1_t12 : Fin k1_t12_loop.trips) : Fin 2 → Nat :=
  let c3_i32 : BitVec 32 := 3#32
  let v179 : Index := Scalar.indexCast c3_i32
  let c0_i32_78 : BitVec 32 := 0#32
  let c1_i32_80 : BitVec 32 := 1#32
  let arg16 : BitVec 32 := Scf.iv c0_i32_78 c1_i32_80 k1_t12
  let c16_i32_94 : BitVec 32 := 16#32
  let v178 : BitVec 32 := Scalar.muli arg16 c16_i32_94
  let v180 : Index := Scalar.indexCast v178
  ![3, v180.toNat]
def k1_off246 (k1_t12 : Fin k1_t12_loop.trips) : Fin 2 → Nat :=
  let c4_i32 : BitVec 32 := 4#32
  let v183 : Index := Scalar.indexCast c4_i32
  let c0_i32_78 : BitVec 32 := 0#32
  let c1_i32_80 : BitVec 32 := 1#32
  let arg16 : BitVec 32 := Scf.iv c0_i32_78 c1_i32_80 k1_t12
  let c16_i32_95 : BitVec 32 := 16#32
  let v182 : BitVec 32 := Scalar.muli arg16 c16_i32_95
  let v184 : Index := Scalar.indexCast v182
  ![4, v184.toNat]
def k1_off247 (k1_t12 : Fin k1_t12_loop.trips) : Fin 2 → Nat :=
  let c5_i32 : BitVec 32 := 5#32
  let v187 : Index := Scalar.indexCast c5_i32
  let c0_i32_78 : BitVec 32 := 0#32
  let c1_i32_80 : BitVec 32 := 1#32
  let arg16 : BitVec 32 := Scf.iv c0_i32_78 c1_i32_80 k1_t12
  let c16_i32_96 : BitVec 32 := 16#32
  let v186 : BitVec 32 := Scalar.muli arg16 c16_i32_96
  let v188 : Index := Scalar.indexCast v186
  ![5, v188.toNat]
def k1_off248 (k1_t12 : Fin k1_t12_loop.trips) : Fin 2 → Nat :=
  let c6_i32 : BitVec 32 := 6#32
  let v191 : Index := Scalar.indexCast c6_i32
  let c0_i32_78 : BitVec 32 := 0#32
  let c1_i32_80 : BitVec 32 := 1#32
  let arg16 : BitVec 32 := Scf.iv c0_i32_78 c1_i32_80 k1_t12
  let c16_i32_97 : BitVec 32 := 16#32
  let v190 : BitVec 32 := Scalar.muli arg16 c16_i32_97
  let v192 : Index := Scalar.indexCast v190
  ![6, v192.toNat]
def k1_off249 (k1_t12 : Fin k1_t12_loop.trips) : Fin 2 → Nat :=
  let c7_i32 : BitVec 32 := 7#32
  let v195 : Index := Scalar.indexCast c7_i32
  let c0_i32_78 : BitVec 32 := 0#32
  let c1_i32_80 : BitVec 32 := 1#32
  let arg16 : BitVec 32 := Scf.iv c0_i32_78 c1_i32_80 k1_t12
  let c16_i32_98 : BitVec 32 := 16#32
  let v194 : BitVec 32 := Scalar.muli arg16 c16_i32_98
  let v196 : Index := Scalar.indexCast v194
  ![7, v196.toNat]
def k1_off250 (k1_t12 : Fin k1_t12_loop.trips) : Fin 2 → Nat :=
  let c8_i32 : BitVec 32 := 8#32
  let v199 : Index := Scalar.indexCast c8_i32
  let c0_i32_78 : BitVec 32 := 0#32
  let c1_i32_80 : BitVec 32 := 1#32
  let arg16 : BitVec 32 := Scf.iv c0_i32_78 c1_i32_80 k1_t12
  let c16_i32_99 : BitVec 32 := 16#32
  let v198 : BitVec 32 := Scalar.muli arg16 c16_i32_99
  let v200 : Index := Scalar.indexCast v198
  ![8, v200.toNat]
def k1_off251 (k1_t12 : Fin k1_t12_loop.trips) : Fin 2 → Nat :=
  let c9_i32 : BitVec 32 := 9#32
  let v203 : Index := Scalar.indexCast c9_i32
  let c0_i32_78 : BitVec 32 := 0#32
  let c1_i32_80 : BitVec 32 := 1#32
  let arg16 : BitVec 32 := Scf.iv c0_i32_78 c1_i32_80 k1_t12
  let c16_i32_100 : BitVec 32 := 16#32
  let v202 : BitVec 32 := Scalar.muli arg16 c16_i32_100
  let v204 : Index := Scalar.indexCast v202
  ![9, v204.toNat]
def k1_off252 (k1_t12 : Fin k1_t12_loop.trips) : Fin 2 → Nat :=
  let c10_i32 : BitVec 32 := 10#32
  let v207 : Index := Scalar.indexCast c10_i32
  let c0_i32_78 : BitVec 32 := 0#32
  let c1_i32_80 : BitVec 32 := 1#32
  let arg16 : BitVec 32 := Scf.iv c0_i32_78 c1_i32_80 k1_t12
  let c16_i32_101 : BitVec 32 := 16#32
  let v206 : BitVec 32 := Scalar.muli arg16 c16_i32_101
  let v208 : Index := Scalar.indexCast v206
  ![10, v208.toNat]
def k1_off253 (k1_t12 : Fin k1_t12_loop.trips) : Fin 2 → Nat :=
  let c11_i32 : BitVec 32 := 11#32
  let v211 : Index := Scalar.indexCast c11_i32
  let c0_i32_78 : BitVec 32 := 0#32
  let c1_i32_80 : BitVec 32 := 1#32
  let arg16 : BitVec 32 := Scf.iv c0_i32_78 c1_i32_80 k1_t12
  let c16_i32_102 : BitVec 32 := 16#32
  let v210 : BitVec 32 := Scalar.muli arg16 c16_i32_102
  let v212 : Index := Scalar.indexCast v210
  ![11, v212.toNat]
def k1_off254 (k1_t12 : Fin k1_t12_loop.trips) : Fin 2 → Nat :=
  let c12_i32 : BitVec 32 := 12#32
  let v215 : Index := Scalar.indexCast c12_i32
  let c0_i32_78 : BitVec 32 := 0#32
  let c1_i32_80 : BitVec 32 := 1#32
  let arg16 : BitVec 32 := Scf.iv c0_i32_78 c1_i32_80 k1_t12
  let c16_i32_103 : BitVec 32 := 16#32
  let v214 : BitVec 32 := Scalar.muli arg16 c16_i32_103
  let v216 : Index := Scalar.indexCast v214
  ![12, v216.toNat]
def k1_off255 (k1_t12 : Fin k1_t12_loop.trips) : Fin 2 → Nat :=
  let c13_i32 : BitVec 32 := 13#32
  let v219 : Index := Scalar.indexCast c13_i32
  let c0_i32_78 : BitVec 32 := 0#32
  let c1_i32_80 : BitVec 32 := 1#32
  let arg16 : BitVec 32 := Scf.iv c0_i32_78 c1_i32_80 k1_t12
  let c16_i32_104 : BitVec 32 := 16#32
  let v218 : BitVec 32 := Scalar.muli arg16 c16_i32_104
  let v220 : Index := Scalar.indexCast v218
  ![13, v220.toNat]
def k1_off256 (k1_t12 : Fin k1_t12_loop.trips) : Fin 2 → Nat :=
  let c14_i32 : BitVec 32 := 14#32
  let v223 : Index := Scalar.indexCast c14_i32
  let c0_i32_78 : BitVec 32 := 0#32
  let c1_i32_80 : BitVec 32 := 1#32
  let arg16 : BitVec 32 := Scf.iv c0_i32_78 c1_i32_80 k1_t12
  let c16_i32_105 : BitVec 32 := 16#32
  let v222 : BitVec 32 := Scalar.muli arg16 c16_i32_105
  let v224 : Index := Scalar.indexCast v222
  ![14, v224.toNat]
def k1_off257 (k1_t12 : Fin k1_t12_loop.trips) : Fin 2 → Nat :=
  let c15_i32 : BitVec 32 := 15#32
  let v227 : Index := Scalar.indexCast c15_i32
  let c0_i32_78 : BitVec 32 := 0#32
  let c1_i32_80 : BitVec 32 := 1#32
  let arg16 : BitVec 32 := Scf.iv c0_i32_78 c1_i32_80 k1_t12
  let c16_i32_106 : BitVec 32 := 16#32
  let v226 : BitVec 32 := Scalar.muli arg16 c16_i32_106
  let v228 : Index := Scalar.indexCast v226
  ![15, v228.toNat]
def k1_off258 (k1_t12 : Fin k1_t12_loop.trips) : Fin 2 → Nat :=
  let c16_i32_108 : BitVec 32 := 16#32
  let v231 : Index := Scalar.indexCast c16_i32_108
  let c0_i32_78 : BitVec 32 := 0#32
  let c1_i32_80 : BitVec 32 := 1#32
  let arg16 : BitVec 32 := Scf.iv c0_i32_78 c1_i32_80 k1_t12
  let c16_i32_107 : BitVec 32 := 16#32
  let v230 : BitVec 32 := Scalar.muli arg16 c16_i32_107
  let v232 : Index := Scalar.indexCast v230
  ![16, v232.toNat]
def k1_off259 (k1_t12 : Fin k1_t12_loop.trips) : Fin 2 → Nat :=
  let c17_i32 : BitVec 32 := 17#32
  let v235 : Index := Scalar.indexCast c17_i32
  let c0_i32_78 : BitVec 32 := 0#32
  let c1_i32_80 : BitVec 32 := 1#32
  let arg16 : BitVec 32 := Scf.iv c0_i32_78 c1_i32_80 k1_t12
  let c16_i32_109 : BitVec 32 := 16#32
  let v234 : BitVec 32 := Scalar.muli arg16 c16_i32_109
  let v236 : Index := Scalar.indexCast v234
  ![17, v236.toNat]
def k1_off260 (k1_t12 : Fin k1_t12_loop.trips) : Fin 2 → Nat :=
  let c18_i32 : BitVec 32 := 18#32
  let v239 : Index := Scalar.indexCast c18_i32
  let c0_i32_78 : BitVec 32 := 0#32
  let c1_i32_80 : BitVec 32 := 1#32
  let arg16 : BitVec 32 := Scf.iv c0_i32_78 c1_i32_80 k1_t12
  let c16_i32_110 : BitVec 32 := 16#32
  let v238 : BitVec 32 := Scalar.muli arg16 c16_i32_110
  let v240 : Index := Scalar.indexCast v238
  ![18, v240.toNat]
def k1_off261 (k1_t12 : Fin k1_t12_loop.trips) : Fin 2 → Nat :=
  let c19_i32 : BitVec 32 := 19#32
  let v243 : Index := Scalar.indexCast c19_i32
  let c0_i32_78 : BitVec 32 := 0#32
  let c1_i32_80 : BitVec 32 := 1#32
  let arg16 : BitVec 32 := Scf.iv c0_i32_78 c1_i32_80 k1_t12
  let c16_i32_111 : BitVec 32 := 16#32
  let v242 : BitVec 32 := Scalar.muli arg16 c16_i32_111
  let v244 : Index := Scalar.indexCast v242
  ![19, v244.toNat]
def k1_off262 (k1_t12 : Fin k1_t12_loop.trips) : Fin 2 → Nat :=
  let c20_i32 : BitVec 32 := 20#32
  let v247 : Index := Scalar.indexCast c20_i32
  let c0_i32_78 : BitVec 32 := 0#32
  let c1_i32_80 : BitVec 32 := 1#32
  let arg16 : BitVec 32 := Scf.iv c0_i32_78 c1_i32_80 k1_t12
  let c16_i32_112 : BitVec 32 := 16#32
  let v246 : BitVec 32 := Scalar.muli arg16 c16_i32_112
  let v248 : Index := Scalar.indexCast v246
  ![20, v248.toNat]
def k1_off263 (k1_t12 : Fin k1_t12_loop.trips) : Fin 2 → Nat :=
  let c21_i32 : BitVec 32 := 21#32
  let v251 : Index := Scalar.indexCast c21_i32
  let c0_i32_78 : BitVec 32 := 0#32
  let c1_i32_80 : BitVec 32 := 1#32
  let arg16 : BitVec 32 := Scf.iv c0_i32_78 c1_i32_80 k1_t12
  let c16_i32_113 : BitVec 32 := 16#32
  let v250 : BitVec 32 := Scalar.muli arg16 c16_i32_113
  let v252 : Index := Scalar.indexCast v250
  ![21, v252.toNat]
def k1_off264 (k1_t12 : Fin k1_t12_loop.trips) : Fin 2 → Nat :=
  let c22_i32 : BitVec 32 := 22#32
  let v255 : Index := Scalar.indexCast c22_i32
  let c0_i32_78 : BitVec 32 := 0#32
  let c1_i32_80 : BitVec 32 := 1#32
  let arg16 : BitVec 32 := Scf.iv c0_i32_78 c1_i32_80 k1_t12
  let c16_i32_114 : BitVec 32 := 16#32
  let v254 : BitVec 32 := Scalar.muli arg16 c16_i32_114
  let v256 : Index := Scalar.indexCast v254
  ![22, v256.toNat]
def k1_off265 (k1_t12 : Fin k1_t12_loop.trips) : Fin 2 → Nat :=
  let c23_i32 : BitVec 32 := 23#32
  let v259 : Index := Scalar.indexCast c23_i32
  let c0_i32_78 : BitVec 32 := 0#32
  let c1_i32_80 : BitVec 32 := 1#32
  let arg16 : BitVec 32 := Scf.iv c0_i32_78 c1_i32_80 k1_t12
  let c16_i32_115 : BitVec 32 := 16#32
  let v258 : BitVec 32 := Scalar.muli arg16 c16_i32_115
  let v260 : Index := Scalar.indexCast v258
  ![23, v260.toNat]
def k1_off266 (k1_t12 : Fin k1_t12_loop.trips) : Fin 2 → Nat :=
  let c24_i32 : BitVec 32 := 24#32
  let v263 : Index := Scalar.indexCast c24_i32
  let c0_i32_78 : BitVec 32 := 0#32
  let c1_i32_80 : BitVec 32 := 1#32
  let arg16 : BitVec 32 := Scf.iv c0_i32_78 c1_i32_80 k1_t12
  let c16_i32_116 : BitVec 32 := 16#32
  let v262 : BitVec 32 := Scalar.muli arg16 c16_i32_116
  let v264 : Index := Scalar.indexCast v262
  ![24, v264.toNat]
def k1_off267 (k1_t12 : Fin k1_t12_loop.trips) : Fin 2 → Nat :=
  let c25_i32 : BitVec 32 := 25#32
  let v267 : Index := Scalar.indexCast c25_i32
  let c0_i32_78 : BitVec 32 := 0#32
  let c1_i32_80 : BitVec 32 := 1#32
  let arg16 : BitVec 32 := Scf.iv c0_i32_78 c1_i32_80 k1_t12
  let c16_i32_117 : BitVec 32 := 16#32
  let v266 : BitVec 32 := Scalar.muli arg16 c16_i32_117
  let v268 : Index := Scalar.indexCast v266
  ![25, v268.toNat]
def k1_off268 (k1_t12 : Fin k1_t12_loop.trips) : Fin 2 → Nat :=
  let c26_i32 : BitVec 32 := 26#32
  let v271 : Index := Scalar.indexCast c26_i32
  let c0_i32_78 : BitVec 32 := 0#32
  let c1_i32_80 : BitVec 32 := 1#32
  let arg16 : BitVec 32 := Scf.iv c0_i32_78 c1_i32_80 k1_t12
  let c16_i32_118 : BitVec 32 := 16#32
  let v270 : BitVec 32 := Scalar.muli arg16 c16_i32_118
  let v272 : Index := Scalar.indexCast v270
  ![26, v272.toNat]
def k1_off269 (k1_t12 : Fin k1_t12_loop.trips) : Fin 2 → Nat :=
  let c27_i32 : BitVec 32 := 27#32
  let v275 : Index := Scalar.indexCast c27_i32
  let c0_i32_78 : BitVec 32 := 0#32
  let c1_i32_80 : BitVec 32 := 1#32
  let arg16 : BitVec 32 := Scf.iv c0_i32_78 c1_i32_80 k1_t12
  let c16_i32_119 : BitVec 32 := 16#32
  let v274 : BitVec 32 := Scalar.muli arg16 c16_i32_119
  let v276 : Index := Scalar.indexCast v274
  ![27, v276.toNat]
def k1_off270 (k1_t12 : Fin k1_t12_loop.trips) : Fin 2 → Nat :=
  let c28_i32 : BitVec 32 := 28#32
  let v279 : Index := Scalar.indexCast c28_i32
  let c0_i32_78 : BitVec 32 := 0#32
  let c1_i32_80 : BitVec 32 := 1#32
  let arg16 : BitVec 32 := Scf.iv c0_i32_78 c1_i32_80 k1_t12
  let c16_i32_120 : BitVec 32 := 16#32
  let v278 : BitVec 32 := Scalar.muli arg16 c16_i32_120
  let v280 : Index := Scalar.indexCast v278
  ![28, v280.toNat]
def k1_off271 (k1_t12 : Fin k1_t12_loop.trips) : Fin 2 → Nat :=
  let c29_i32 : BitVec 32 := 29#32
  let v283 : Index := Scalar.indexCast c29_i32
  let c0_i32_78 : BitVec 32 := 0#32
  let c1_i32_80 : BitVec 32 := 1#32
  let arg16 : BitVec 32 := Scf.iv c0_i32_78 c1_i32_80 k1_t12
  let c16_i32_121 : BitVec 32 := 16#32
  let v282 : BitVec 32 := Scalar.muli arg16 c16_i32_121
  let v284 : Index := Scalar.indexCast v282
  ![29, v284.toNat]
def k1_off272 (k1_t12 : Fin k1_t12_loop.trips) : Fin 2 → Nat :=
  let c30_i32 : BitVec 32 := 30#32
  let v287 : Index := Scalar.indexCast c30_i32
  let c0_i32_78 : BitVec 32 := 0#32
  let c1_i32_80 : BitVec 32 := 1#32
  let arg16 : BitVec 32 := Scf.iv c0_i32_78 c1_i32_80 k1_t12
  let c16_i32_122 : BitVec 32 := 16#32
  let v286 : BitVec 32 := Scalar.muli arg16 c16_i32_122
  let v288 : Index := Scalar.indexCast v286
  ![30, v288.toNat]
def k1_off273 (k1_t12 : Fin k1_t12_loop.trips) : Fin 2 → Nat :=
  let c31_i32 : BitVec 32 := 31#32
  let v291 : Index := Scalar.indexCast c31_i32
  let c0_i32_78 : BitVec 32 := 0#32
  let c1_i32_80 : BitVec 32 := 1#32
  let arg16 : BitVec 32 := Scf.iv c0_i32_78 c1_i32_80 k1_t12
  let c16_i32_123 : BitVec 32 := 16#32
  let v290 : BitVec 32 := Scalar.muli arg16 c16_i32_123
  let v292 : Index := Scalar.indexCast v290
  ![31, v292.toNat]
@[reducible] def k1_t13_loop : Scf.Loop 32 :=
  let c0_i32_45 : BitVec 32 := 0#32
  let c40_i32_46 : BitVec 32 := 40#32
  let v31 : BitVec 32 := Scalar.addi c0_i32_45 c40_i32_46
  let c1_i32_47 : BitVec 32 := 1#32
  ⟨c0_i32_45, v31, c1_i32_47⟩
@[reducible] def k1_t14_loop : Scf.Loop 32 :=
  let c0_i32_66 : BitVec 32 := 0#32
  let c16_i32 : BitVec 32 := 16#32
  let v46 : BitVec 32 := Scalar.addi c0_i32_66 c16_i32
  let c1_i32_67 : BitVec 32 := 1#32
  ⟨c0_i32_66, v46, c1_i32_67⟩
def k1_mult9 (k1_t14 : Fin k1_t14_loop.trips) : BitVec 32 :=
  let c0_i32_86 : BitVec 32 := 0#32
  let c0_i32_66 : BitVec 32 := 0#32
  let c1_i32_67 : BitVec 32 := 1#32
  let arg16 : BitVec 32 := Scf.iv c0_i32_66 c1_i32_67 k1_t14
  let c16_i32_85 : BitVec 32 := 16#32
  let v64 : BitVec 32 := Scalar.muli arg16 c16_i32_85
  let v65 : BitVec 32 := Scalar.addi c0_i32_86 v64
  v65
def k1_off274 (k1_t13 : Fin k1_t13_loop.trips) (k1_t14 : Fin k1_t14_loop.trips) : Fin 2 → Nat :=
  let c0_i32_45 : BitVec 32 := 0#32
  let c1_i32_47 : BitVec 32 := 1#32
  let arg14 : BitVec 32 := Scf.iv c0_i32_45 c1_i32_47 k1_t13
  let v67 : Index := Scalar.indexCast arg14
  let c0_i32_86 : BitVec 32 := 0#32
  let c0_i32_66 : BitVec 32 := 0#32
  let c1_i32_67 : BitVec 32 := 1#32
  let arg16 : BitVec 32 := Scf.iv c0_i32_66 c1_i32_67 k1_t14
  let c16_i32_85 : BitVec 32 := 16#32
  let v64 : BitVec 32 := Scalar.muli arg16 c16_i32_85
  let v65 : BitVec 32 := Scalar.addi c0_i32_86 v64
  let v66 : BitVec 32 := v65
  let v68 : Index := Scalar.indexCast v66
  ![v67.toNat, v68.toNat]

def k1_chk257 (v71 : IVec S16 32) : Prop :=
  (∀ a x, ((![v71] : Fin 1 → IVec S16 32) a x).toNat < S32000.size a)
instance k1_chk257.dec : ∀ (v71 : IVec S16 32), Decidable (k1_chk257 v71) := fun v71 => decidable_of_iff' _ (Iff.of_eq (k1_chk257.eq_1 v71))
theorem k1_idx257_inb : ∀ (v71 : IVec S16 32) (k1_hw257 : k1_chk257 v71), ∀ a x, ((![v71] : Fin 1 → IVec S16 32) a x).toNat < S32000.size a := fun v71 k1_hw257 => k1_hw257

def k1_chk258 (v74 : IVec S16 32) : Prop :=
  (∀ a x, ((![v74] : Fin 1 → IVec S16 32) a x).toNat < S32000.size a)
instance k1_chk258.dec : ∀ (v74 : IVec S16 32), Decidable (k1_chk258 v74) := fun v74 => decidable_of_iff' _ (Iff.of_eq (k1_chk258.eq_1 v74))
theorem k1_idx258_inb : ∀ (v74 : IVec S16 32) (k1_hw258 : k1_chk258 v74), ∀ a x, ((![v74] : Fin 1 → IVec S16 32) a x).toNat < S32000.size a := fun v74 k1_hw258 => k1_hw258

def k1_chk259 (v77 : IVec S16 32) : Prop :=
  (∀ a x, ((![v77] : Fin 1 → IVec S16 32) a x).toNat < S32000.size a)
instance k1_chk259.dec : ∀ (v77 : IVec S16 32), Decidable (k1_chk259 v77) := fun v77 => decidable_of_iff' _ (Iff.of_eq (k1_chk259.eq_1 v77))
theorem k1_idx259_inb : ∀ (v77 : IVec S16 32) (k1_hw259 : k1_chk259 v77), ∀ a x, ((![v77] : Fin 1 → IVec S16 32) a x).toNat < S32000.size a := fun v77 k1_hw259 => k1_hw259

def k1_chk260 (v80 : IVec S16 32) : Prop :=
  (∀ a x, ((![v80] : Fin 1 → IVec S16 32) a x).toNat < S32000.size a)
instance k1_chk260.dec : ∀ (v80 : IVec S16 32), Decidable (k1_chk260 v80) := fun v80 => decidable_of_iff' _ (Iff.of_eq (k1_chk260.eq_1 v80))
theorem k1_idx260_inb : ∀ (v80 : IVec S16 32) (k1_hw260 : k1_chk260 v80), ∀ a x, ((![v80] : Fin 1 → IVec S16 32) a x).toNat < S32000.size a := fun v80 k1_hw260 => k1_hw260

def k1_chk261 (v83 : IVec S16 32) : Prop :=
  (∀ a x, ((![v83] : Fin 1 → IVec S16 32) a x).toNat < S32000.size a)
instance k1_chk261.dec : ∀ (v83 : IVec S16 32), Decidable (k1_chk261 v83) := fun v83 => decidable_of_iff' _ (Iff.of_eq (k1_chk261.eq_1 v83))
theorem k1_idx261_inb : ∀ (v83 : IVec S16 32) (k1_hw261 : k1_chk261 v83), ∀ a x, ((![v83] : Fin 1 → IVec S16 32) a x).toNat < S32000.size a := fun v83 k1_hw261 => k1_hw261

def k1_chk262 (v86 : IVec S16 32) : Prop :=
  (∀ a x, ((![v86] : Fin 1 → IVec S16 32) a x).toNat < S32000.size a)
instance k1_chk262.dec : ∀ (v86 : IVec S16 32), Decidable (k1_chk262 v86) := fun v86 => decidable_of_iff' _ (Iff.of_eq (k1_chk262.eq_1 v86))
theorem k1_idx262_inb : ∀ (v86 : IVec S16 32) (k1_hw262 : k1_chk262 v86), ∀ a x, ((![v86] : Fin 1 → IVec S16 32) a x).toNat < S32000.size a := fun v86 k1_hw262 => k1_hw262

def k1_chk263 (v89 : IVec S16 32) : Prop :=
  (∀ a x, ((![v89] : Fin 1 → IVec S16 32) a x).toNat < S32000.size a)
instance k1_chk263.dec : ∀ (v89 : IVec S16 32), Decidable (k1_chk263 v89) := fun v89 => decidable_of_iff' _ (Iff.of_eq (k1_chk263.eq_1 v89))
theorem k1_idx263_inb : ∀ (v89 : IVec S16 32) (k1_hw263 : k1_chk263 v89), ∀ a x, ((![v89] : Fin 1 → IVec S16 32) a x).toNat < S32000.size a := fun v89 k1_hw263 => k1_hw263

def k1_chk264 (v92 : IVec S16 32) : Prop :=
  (∀ a x, ((![v92] : Fin 1 → IVec S16 32) a x).toNat < S32000.size a)
instance k1_chk264.dec : ∀ (v92 : IVec S16 32), Decidable (k1_chk264 v92) := fun v92 => decidable_of_iff' _ (Iff.of_eq (k1_chk264.eq_1 v92))
theorem k1_idx264_inb : ∀ (v92 : IVec S16 32) (k1_hw264 : k1_chk264 v92), ∀ a x, ((![v92] : Fin 1 → IVec S16 32) a x).toNat < S32000.size a := fun v92 k1_hw264 => k1_hw264

def k1_chk265 (v95 : IVec S16 32) : Prop :=
  (∀ a x, ((![v95] : Fin 1 → IVec S16 32) a x).toNat < S32000.size a)
instance k1_chk265.dec : ∀ (v95 : IVec S16 32), Decidable (k1_chk265 v95) := fun v95 => decidable_of_iff' _ (Iff.of_eq (k1_chk265.eq_1 v95))
theorem k1_idx265_inb : ∀ (v95 : IVec S16 32) (k1_hw265 : k1_chk265 v95), ∀ a x, ((![v95] : Fin 1 → IVec S16 32) a x).toNat < S32000.size a := fun v95 k1_hw265 => k1_hw265

def k1_chk266 (v98 : IVec S16 32) : Prop :=
  (∀ a x, ((![v98] : Fin 1 → IVec S16 32) a x).toNat < S32000.size a)
instance k1_chk266.dec : ∀ (v98 : IVec S16 32), Decidable (k1_chk266 v98) := fun v98 => decidable_of_iff' _ (Iff.of_eq (k1_chk266.eq_1 v98))
theorem k1_idx266_inb : ∀ (v98 : IVec S16 32) (k1_hw266 : k1_chk266 v98), ∀ a x, ((![v98] : Fin 1 → IVec S16 32) a x).toNat < S32000.size a := fun v98 k1_hw266 => k1_hw266

def k1_chk267 (v101 : IVec S16 32) : Prop :=
  (∀ a x, ((![v101] : Fin 1 → IVec S16 32) a x).toNat < S32000.size a)
instance k1_chk267.dec : ∀ (v101 : IVec S16 32), Decidable (k1_chk267 v101) := fun v101 => decidable_of_iff' _ (Iff.of_eq (k1_chk267.eq_1 v101))
theorem k1_idx267_inb : ∀ (v101 : IVec S16 32) (k1_hw267 : k1_chk267 v101), ∀ a x, ((![v101] : Fin 1 → IVec S16 32) a x).toNat < S32000.size a := fun v101 k1_hw267 => k1_hw267

def k1_chk268 (v104 : IVec S16 32) : Prop :=
  (∀ a x, ((![v104] : Fin 1 → IVec S16 32) a x).toNat < S32000.size a)
instance k1_chk268.dec : ∀ (v104 : IVec S16 32), Decidable (k1_chk268 v104) := fun v104 => decidable_of_iff' _ (Iff.of_eq (k1_chk268.eq_1 v104))
theorem k1_idx268_inb : ∀ (v104 : IVec S16 32) (k1_hw268 : k1_chk268 v104), ∀ a x, ((![v104] : Fin 1 → IVec S16 32) a x).toNat < S32000.size a := fun v104 k1_hw268 => k1_hw268

def k1_chk269 (v107 : IVec S16 32) : Prop :=
  (∀ a x, ((![v107] : Fin 1 → IVec S16 32) a x).toNat < S32000.size a)
instance k1_chk269.dec : ∀ (v107 : IVec S16 32), Decidable (k1_chk269 v107) := fun v107 => decidable_of_iff' _ (Iff.of_eq (k1_chk269.eq_1 v107))
theorem k1_idx269_inb : ∀ (v107 : IVec S16 32) (k1_hw269 : k1_chk269 v107), ∀ a x, ((![v107] : Fin 1 → IVec S16 32) a x).toNat < S32000.size a := fun v107 k1_hw269 => k1_hw269

def k1_chk270 (v110 : IVec S16 32) : Prop :=
  (∀ a x, ((![v110] : Fin 1 → IVec S16 32) a x).toNat < S32000.size a)
instance k1_chk270.dec : ∀ (v110 : IVec S16 32), Decidable (k1_chk270 v110) := fun v110 => decidable_of_iff' _ (Iff.of_eq (k1_chk270.eq_1 v110))
theorem k1_idx270_inb : ∀ (v110 : IVec S16 32) (k1_hw270 : k1_chk270 v110), ∀ a x, ((![v110] : Fin 1 → IVec S16 32) a x).toNat < S32000.size a := fun v110 k1_hw270 => k1_hw270

def k1_chk271 (v113 : IVec S16 32) : Prop :=
  (∀ a x, ((![v113] : Fin 1 → IVec S16 32) a x).toNat < S32000.size a)
instance k1_chk271.dec : ∀ (v113 : IVec S16 32), Decidable (k1_chk271 v113) := fun v113 => decidable_of_iff' _ (Iff.of_eq (k1_chk271.eq_1 v113))
theorem k1_idx271_inb : ∀ (v113 : IVec S16 32) (k1_hw271 : k1_chk271 v113), ∀ a x, ((![v113] : Fin 1 → IVec S16 32) a x).toNat < S32000.size a := fun v113 k1_hw271 => k1_hw271

def k1_chk272 (v116 : IVec S16 32) : Prop :=
  (∀ a x, ((![v116] : Fin 1 → IVec S16 32) a x).toNat < S32000.size a)
instance k1_chk272.dec : ∀ (v116 : IVec S16 32), Decidable (k1_chk272 v116) := fun v116 => decidable_of_iff' _ (Iff.of_eq (k1_chk272.eq_1 v116))
theorem k1_idx272_inb : ∀ (v116 : IVec S16 32) (k1_hw272 : k1_chk272 v116), ∀ a x, ((![v116] : Fin 1 → IVec S16 32) a x).toNat < S32000.size a := fun v116 k1_hw272 => k1_hw272

def k1_chk273 (v119 : IVec S16 32) : Prop :=
  (∀ a x, ((![v119] : Fin 1 → IVec S16 32) a x).toNat < S32000.size a)
instance k1_chk273.dec : ∀ (v119 : IVec S16 32), Decidable (k1_chk273 v119) := fun v119 => decidable_of_iff' _ (Iff.of_eq (k1_chk273.eq_1 v119))
theorem k1_idx273_inb : ∀ (v119 : IVec S16 32) (k1_hw273 : k1_chk273 v119), ∀ a x, ((![v119] : Fin 1 → IVec S16 32) a x).toNat < S32000.size a := fun v119 k1_hw273 => k1_hw273

def k1_chk274 (v122 : IVec S16 32) : Prop :=
  (∀ a x, ((![v122] : Fin 1 → IVec S16 32) a x).toNat < S32000.size a)
instance k1_chk274.dec : ∀ (v122 : IVec S16 32), Decidable (k1_chk274 v122) := fun v122 => decidable_of_iff' _ (Iff.of_eq (k1_chk274.eq_1 v122))
theorem k1_idx274_inb : ∀ (v122 : IVec S16 32) (k1_hw274 : k1_chk274 v122), ∀ a x, ((![v122] : Fin 1 → IVec S16 32) a x).toNat < S32000.size a := fun v122 k1_hw274 => k1_hw274

def k1_chk275 (v125 : IVec S16 32) : Prop :=
  (∀ a x, ((![v125] : Fin 1 → IVec S16 32) a x).toNat < S32000.size a)
instance k1_chk275.dec : ∀ (v125 : IVec S16 32), Decidable (k1_chk275 v125) := fun v125 => decidable_of_iff' _ (Iff.of_eq (k1_chk275.eq_1 v125))
theorem k1_idx275_inb : ∀ (v125 : IVec S16 32) (k1_hw275 : k1_chk275 v125), ∀ a x, ((![v125] : Fin 1 → IVec S16 32) a x).toNat < S32000.size a := fun v125 k1_hw275 => k1_hw275

def k1_chk276 (v128 : IVec S16 32) : Prop :=
  (∀ a x, ((![v128] : Fin 1 → IVec S16 32) a x).toNat < S32000.size a)
instance k1_chk276.dec : ∀ (v128 : IVec S16 32), Decidable (k1_chk276 v128) := fun v128 => decidable_of_iff' _ (Iff.of_eq (k1_chk276.eq_1 v128))
theorem k1_idx276_inb : ∀ (v128 : IVec S16 32) (k1_hw276 : k1_chk276 v128), ∀ a x, ((![v128] : Fin 1 → IVec S16 32) a x).toNat < S32000.size a := fun v128 k1_hw276 => k1_hw276

def k1_chk277 (v131 : IVec S16 32) : Prop :=
  (∀ a x, ((![v131] : Fin 1 → IVec S16 32) a x).toNat < S32000.size a)
instance k1_chk277.dec : ∀ (v131 : IVec S16 32), Decidable (k1_chk277 v131) := fun v131 => decidable_of_iff' _ (Iff.of_eq (k1_chk277.eq_1 v131))
theorem k1_idx277_inb : ∀ (v131 : IVec S16 32) (k1_hw277 : k1_chk277 v131), ∀ a x, ((![v131] : Fin 1 → IVec S16 32) a x).toNat < S32000.size a := fun v131 k1_hw277 => k1_hw277

def k1_chk278 (v134 : IVec S16 32) : Prop :=
  (∀ a x, ((![v134] : Fin 1 → IVec S16 32) a x).toNat < S32000.size a)
instance k1_chk278.dec : ∀ (v134 : IVec S16 32), Decidable (k1_chk278 v134) := fun v134 => decidable_of_iff' _ (Iff.of_eq (k1_chk278.eq_1 v134))
theorem k1_idx278_inb : ∀ (v134 : IVec S16 32) (k1_hw278 : k1_chk278 v134), ∀ a x, ((![v134] : Fin 1 → IVec S16 32) a x).toNat < S32000.size a := fun v134 k1_hw278 => k1_hw278

def k1_chk279 (v137 : IVec S16 32) : Prop :=
  (∀ a x, ((![v137] : Fin 1 → IVec S16 32) a x).toNat < S32000.size a)
instance k1_chk279.dec : ∀ (v137 : IVec S16 32), Decidable (k1_chk279 v137) := fun v137 => decidable_of_iff' _ (Iff.of_eq (k1_chk279.eq_1 v137))
theorem k1_idx279_inb : ∀ (v137 : IVec S16 32) (k1_hw279 : k1_chk279 v137), ∀ a x, ((![v137] : Fin 1 → IVec S16 32) a x).toNat < S32000.size a := fun v137 k1_hw279 => k1_hw279

def k1_chk280 (v140 : IVec S16 32) : Prop :=
  (∀ a x, ((![v140] : Fin 1 → IVec S16 32) a x).toNat < S32000.size a)
instance k1_chk280.dec : ∀ (v140 : IVec S16 32), Decidable (k1_chk280 v140) := fun v140 => decidable_of_iff' _ (Iff.of_eq (k1_chk280.eq_1 v140))
theorem k1_idx280_inb : ∀ (v140 : IVec S16 32) (k1_hw280 : k1_chk280 v140), ∀ a x, ((![v140] : Fin 1 → IVec S16 32) a x).toNat < S32000.size a := fun v140 k1_hw280 => k1_hw280

def k1_chk281 (v143 : IVec S16 32) : Prop :=
  (∀ a x, ((![v143] : Fin 1 → IVec S16 32) a x).toNat < S32000.size a)
instance k1_chk281.dec : ∀ (v143 : IVec S16 32), Decidable (k1_chk281 v143) := fun v143 => decidable_of_iff' _ (Iff.of_eq (k1_chk281.eq_1 v143))
theorem k1_idx281_inb : ∀ (v143 : IVec S16 32) (k1_hw281 : k1_chk281 v143), ∀ a x, ((![v143] : Fin 1 → IVec S16 32) a x).toNat < S32000.size a := fun v143 k1_hw281 => k1_hw281

def k1_chk282 (v146 : IVec S16 32) : Prop :=
  (∀ a x, ((![v146] : Fin 1 → IVec S16 32) a x).toNat < S32000.size a)
instance k1_chk282.dec : ∀ (v146 : IVec S16 32), Decidable (k1_chk282 v146) := fun v146 => decidable_of_iff' _ (Iff.of_eq (k1_chk282.eq_1 v146))
theorem k1_idx282_inb : ∀ (v146 : IVec S16 32) (k1_hw282 : k1_chk282 v146), ∀ a x, ((![v146] : Fin 1 → IVec S16 32) a x).toNat < S32000.size a := fun v146 k1_hw282 => k1_hw282

def k1_chk283 (v149 : IVec S16 32) : Prop :=
  (∀ a x, ((![v149] : Fin 1 → IVec S16 32) a x).toNat < S32000.size a)
instance k1_chk283.dec : ∀ (v149 : IVec S16 32), Decidable (k1_chk283 v149) := fun v149 => decidable_of_iff' _ (Iff.of_eq (k1_chk283.eq_1 v149))
theorem k1_idx283_inb : ∀ (v149 : IVec S16 32) (k1_hw283 : k1_chk283 v149), ∀ a x, ((![v149] : Fin 1 → IVec S16 32) a x).toNat < S32000.size a := fun v149 k1_hw283 => k1_hw283

def k1_chk284 (v152 : IVec S16 32) : Prop :=
  (∀ a x, ((![v152] : Fin 1 → IVec S16 32) a x).toNat < S32000.size a)
instance k1_chk284.dec : ∀ (v152 : IVec S16 32), Decidable (k1_chk284 v152) := fun v152 => decidable_of_iff' _ (Iff.of_eq (k1_chk284.eq_1 v152))
theorem k1_idx284_inb : ∀ (v152 : IVec S16 32) (k1_hw284 : k1_chk284 v152), ∀ a x, ((![v152] : Fin 1 → IVec S16 32) a x).toNat < S32000.size a := fun v152 k1_hw284 => k1_hw284

def k1_chk285 (v155 : IVec S16 32) : Prop :=
  (∀ a x, ((![v155] : Fin 1 → IVec S16 32) a x).toNat < S32000.size a)
instance k1_chk285.dec : ∀ (v155 : IVec S16 32), Decidable (k1_chk285 v155) := fun v155 => decidable_of_iff' _ (Iff.of_eq (k1_chk285.eq_1 v155))
theorem k1_idx285_inb : ∀ (v155 : IVec S16 32) (k1_hw285 : k1_chk285 v155), ∀ a x, ((![v155] : Fin 1 → IVec S16 32) a x).toNat < S32000.size a := fun v155 k1_hw285 => k1_hw285

def k1_chk286 (v158 : IVec S16 32) : Prop :=
  (∀ a x, ((![v158] : Fin 1 → IVec S16 32) a x).toNat < S32000.size a)
instance k1_chk286.dec : ∀ (v158 : IVec S16 32), Decidable (k1_chk286 v158) := fun v158 => decidable_of_iff' _ (Iff.of_eq (k1_chk286.eq_1 v158))
theorem k1_idx286_inb : ∀ (v158 : IVec S16 32) (k1_hw286 : k1_chk286 v158), ∀ a x, ((![v158] : Fin 1 → IVec S16 32) a x).toNat < S32000.size a := fun v158 k1_hw286 => k1_hw286

def k1_chk287 (v161 : IVec S16 32) : Prop :=
  (∀ a x, ((![v161] : Fin 1 → IVec S16 32) a x).toNat < S32000.size a)
instance k1_chk287.dec : ∀ (v161 : IVec S16 32), Decidable (k1_chk287 v161) := fun v161 => decidable_of_iff' _ (Iff.of_eq (k1_chk287.eq_1 v161))
theorem k1_idx287_inb : ∀ (v161 : IVec S16 32) (k1_hw287 : k1_chk287 v161), ∀ a x, ((![v161] : Fin 1 → IVec S16 32) a x).toNat < S32000.size a := fun v161 k1_hw287 => k1_hw287

def k1_chk288 (v164 : IVec S16 32) : Prop :=
  (∀ a x, ((![v164] : Fin 1 → IVec S16 32) a x).toNat < S32000.size a)
instance k1_chk288.dec : ∀ (v164 : IVec S16 32), Decidable (k1_chk288 v164) := fun v164 => decidable_of_iff' _ (Iff.of_eq (k1_chk288.eq_1 v164))
theorem k1_idx288_inb : ∀ (v164 : IVec S16 32) (k1_hw288 : k1_chk288 v164), ∀ a x, ((![v164] : Fin 1 → IVec S16 32) a x).toNat < S32000.size a := fun v164 k1_hw288 => k1_hw288
def k1_off275 (k1_t14 : Fin k1_t14_loop.trips) : Fin 2 → Nat :=
  let c0_i32_89 : BitVec 32 := 0#32
  let v167 : Index := Scalar.indexCast c0_i32_89
  let c0_i32_66 : BitVec 32 := 0#32
  let c1_i32_67 : BitVec 32 := 1#32
  let arg16 : BitVec 32 := Scf.iv c0_i32_66 c1_i32_67 k1_t14
  let c16_i32_88 : BitVec 32 := 16#32
  let v166 : BitVec 32 := Scalar.muli arg16 c16_i32_88
  let v168 : Index := Scalar.indexCast v166
  ![0, v168.toNat]
def k1_off276 (k1_t14 : Fin k1_t14_loop.trips) : Fin 2 → Nat :=
  let c1_i32_91 : BitVec 32 := 1#32
  let v171 : Index := Scalar.indexCast c1_i32_91
  let c0_i32_66 : BitVec 32 := 0#32
  let c1_i32_67 : BitVec 32 := 1#32
  let arg16 : BitVec 32 := Scf.iv c0_i32_66 c1_i32_67 k1_t14
  let c16_i32_90 : BitVec 32 := 16#32
  let v170 : BitVec 32 := Scalar.muli arg16 c16_i32_90
  let v172 : Index := Scalar.indexCast v170
  ![1, v172.toNat]
def k1_off277 (k1_t14 : Fin k1_t14_loop.trips) : Fin 2 → Nat :=
  let c2_i32_93 : BitVec 32 := 2#32
  let v175 : Index := Scalar.indexCast c2_i32_93
  let c0_i32_66 : BitVec 32 := 0#32
  let c1_i32_67 : BitVec 32 := 1#32
  let arg16 : BitVec 32 := Scf.iv c0_i32_66 c1_i32_67 k1_t14
  let c16_i32_92 : BitVec 32 := 16#32
  let v174 : BitVec 32 := Scalar.muli arg16 c16_i32_92
  let v176 : Index := Scalar.indexCast v174
  ![2, v176.toNat]
def k1_off278 (k1_t14 : Fin k1_t14_loop.trips) : Fin 2 → Nat :=
  let c3_i32 : BitVec 32 := 3#32
  let v179 : Index := Scalar.indexCast c3_i32
  let c0_i32_66 : BitVec 32 := 0#32
  let c1_i32_67 : BitVec 32 := 1#32
  let arg16 : BitVec 32 := Scf.iv c0_i32_66 c1_i32_67 k1_t14
  let c16_i32_94 : BitVec 32 := 16#32
  let v178 : BitVec 32 := Scalar.muli arg16 c16_i32_94
  let v180 : Index := Scalar.indexCast v178
  ![3, v180.toNat]
def k1_off279 (k1_t14 : Fin k1_t14_loop.trips) : Fin 2 → Nat :=
  let c4_i32 : BitVec 32 := 4#32
  let v183 : Index := Scalar.indexCast c4_i32
  let c0_i32_66 : BitVec 32 := 0#32
  let c1_i32_67 : BitVec 32 := 1#32
  let arg16 : BitVec 32 := Scf.iv c0_i32_66 c1_i32_67 k1_t14
  let c16_i32_95 : BitVec 32 := 16#32
  let v182 : BitVec 32 := Scalar.muli arg16 c16_i32_95
  let v184 : Index := Scalar.indexCast v182
  ![4, v184.toNat]
def k1_off280 (k1_t14 : Fin k1_t14_loop.trips) : Fin 2 → Nat :=
  let c5_i32 : BitVec 32 := 5#32
  let v187 : Index := Scalar.indexCast c5_i32
  let c0_i32_66 : BitVec 32 := 0#32
  let c1_i32_67 : BitVec 32 := 1#32
  let arg16 : BitVec 32 := Scf.iv c0_i32_66 c1_i32_67 k1_t14
  let c16_i32_96 : BitVec 32 := 16#32
  let v186 : BitVec 32 := Scalar.muli arg16 c16_i32_96
  let v188 : Index := Scalar.indexCast v186
  ![5, v188.toNat]
def k1_off281 (k1_t14 : Fin k1_t14_loop.trips) : Fin 2 → Nat :=
  let c6_i32 : BitVec 32 := 6#32
  let v191 : Index := Scalar.indexCast c6_i32
  let c0_i32_66 : BitVec 32 := 0#32
  let c1_i32_67 : BitVec 32 := 1#32
  let arg16 : BitVec 32 := Scf.iv c0_i32_66 c1_i32_67 k1_t14
  let c16_i32_97 : BitVec 32 := 16#32
  let v190 : BitVec 32 := Scalar.muli arg16 c16_i32_97
  let v192 : Index := Scalar.indexCast v190
  ![6, v192.toNat]
def k1_off282 (k1_t14 : Fin k1_t14_loop.trips) : Fin 2 → Nat :=
  let c7_i32 : BitVec 32 := 7#32
  let v195 : Index := Scalar.indexCast c7_i32
  let c0_i32_66 : BitVec 32 := 0#32
  let c1_i32_67 : BitVec 32 := 1#32
  let arg16 : BitVec 32 := Scf.iv c0_i32_66 c1_i32_67 k1_t14
  let c16_i32_98 : BitVec 32 := 16#32
  let v194 : BitVec 32 := Scalar.muli arg16 c16_i32_98
  let v196 : Index := Scalar.indexCast v194
  ![7, v196.toNat]
def k1_off283 (k1_t14 : Fin k1_t14_loop.trips) : Fin 2 → Nat :=
  let c8_i32 : BitVec 32 := 8#32
  let v199 : Index := Scalar.indexCast c8_i32
  let c0_i32_66 : BitVec 32 := 0#32
  let c1_i32_67 : BitVec 32 := 1#32
  let arg16 : BitVec 32 := Scf.iv c0_i32_66 c1_i32_67 k1_t14
  let c16_i32_99 : BitVec 32 := 16#32
  let v198 : BitVec 32 := Scalar.muli arg16 c16_i32_99
  let v200 : Index := Scalar.indexCast v198
  ![8, v200.toNat]
def k1_off284 (k1_t14 : Fin k1_t14_loop.trips) : Fin 2 → Nat :=
  let c9_i32 : BitVec 32 := 9#32
  let v203 : Index := Scalar.indexCast c9_i32
  let c0_i32_66 : BitVec 32 := 0#32
  let c1_i32_67 : BitVec 32 := 1#32
  let arg16 : BitVec 32 := Scf.iv c0_i32_66 c1_i32_67 k1_t14
  let c16_i32_100 : BitVec 32 := 16#32
  let v202 : BitVec 32 := Scalar.muli arg16 c16_i32_100
  let v204 : Index := Scalar.indexCast v202
  ![9, v204.toNat]
def k1_off285 (k1_t14 : Fin k1_t14_loop.trips) : Fin 2 → Nat :=
  let c10_i32 : BitVec 32 := 10#32
  let v207 : Index := Scalar.indexCast c10_i32
  let c0_i32_66 : BitVec 32 := 0#32
  let c1_i32_67 : BitVec 32 := 1#32
  let arg16 : BitVec 32 := Scf.iv c0_i32_66 c1_i32_67 k1_t14
  let c16_i32_101 : BitVec 32 := 16#32
  let v206 : BitVec 32 := Scalar.muli arg16 c16_i32_101
  let v208 : Index := Scalar.indexCast v206
  ![10, v208.toNat]
def k1_off286 (k1_t14 : Fin k1_t14_loop.trips) : Fin 2 → Nat :=
  let c11_i32 : BitVec 32 := 11#32
  let v211 : Index := Scalar.indexCast c11_i32
  let c0_i32_66 : BitVec 32 := 0#32
  let c1_i32_67 : BitVec 32 := 1#32
  let arg16 : BitVec 32 := Scf.iv c0_i32_66 c1_i32_67 k1_t14
  let c16_i32_102 : BitVec 32 := 16#32
  let v210 : BitVec 32 := Scalar.muli arg16 c16_i32_102
  let v212 : Index := Scalar.indexCast v210
  ![11, v212.toNat]
def k1_off287 (k1_t14 : Fin k1_t14_loop.trips) : Fin 2 → Nat :=
  let c12_i32 : BitVec 32 := 12#32
  let v215 : Index := Scalar.indexCast c12_i32
  let c0_i32_66 : BitVec 32 := 0#32
  let c1_i32_67 : BitVec 32 := 1#32
  let arg16 : BitVec 32 := Scf.iv c0_i32_66 c1_i32_67 k1_t14
  let c16_i32_103 : BitVec 32 := 16#32
  let v214 : BitVec 32 := Scalar.muli arg16 c16_i32_103
  let v216 : Index := Scalar.indexCast v214
  ![12, v216.toNat]
def k1_off288 (k1_t14 : Fin k1_t14_loop.trips) : Fin 2 → Nat :=
  let c13_i32 : BitVec 32 := 13#32
  let v219 : Index := Scalar.indexCast c13_i32
  let c0_i32_66 : BitVec 32 := 0#32
  let c1_i32_67 : BitVec 32 := 1#32
  let arg16 : BitVec 32 := Scf.iv c0_i32_66 c1_i32_67 k1_t14
  let c16_i32_104 : BitVec 32 := 16#32
  let v218 : BitVec 32 := Scalar.muli arg16 c16_i32_104
  let v220 : Index := Scalar.indexCast v218
  ![13, v220.toNat]
def k1_off289 (k1_t14 : Fin k1_t14_loop.trips) : Fin 2 → Nat :=
  let c14_i32 : BitVec 32 := 14#32
  let v223 : Index := Scalar.indexCast c14_i32
  let c0_i32_66 : BitVec 32 := 0#32
  let c1_i32_67 : BitVec 32 := 1#32
  let arg16 : BitVec 32 := Scf.iv c0_i32_66 c1_i32_67 k1_t14
  let c16_i32_105 : BitVec 32 := 16#32
  let v222 : BitVec 32 := Scalar.muli arg16 c16_i32_105
  let v224 : Index := Scalar.indexCast v222
  ![14, v224.toNat]
def k1_off290 (k1_t14 : Fin k1_t14_loop.trips) : Fin 2 → Nat :=
  let c15_i32 : BitVec 32 := 15#32
  let v227 : Index := Scalar.indexCast c15_i32
  let c0_i32_66 : BitVec 32 := 0#32
  let c1_i32_67 : BitVec 32 := 1#32
  let arg16 : BitVec 32 := Scf.iv c0_i32_66 c1_i32_67 k1_t14
  let c16_i32_106 : BitVec 32 := 16#32
  let v226 : BitVec 32 := Scalar.muli arg16 c16_i32_106
  let v228 : Index := Scalar.indexCast v226
  ![15, v228.toNat]
def k1_off291 (k1_t14 : Fin k1_t14_loop.trips) : Fin 2 → Nat :=
  let c16_i32_108 : BitVec 32 := 16#32
  let v231 : Index := Scalar.indexCast c16_i32_108
  let c0_i32_66 : BitVec 32 := 0#32
  let c1_i32_67 : BitVec 32 := 1#32
  let arg16 : BitVec 32 := Scf.iv c0_i32_66 c1_i32_67 k1_t14
  let c16_i32_107 : BitVec 32 := 16#32
  let v230 : BitVec 32 := Scalar.muli arg16 c16_i32_107
  let v232 : Index := Scalar.indexCast v230
  ![16, v232.toNat]
def k1_off292 (k1_t14 : Fin k1_t14_loop.trips) : Fin 2 → Nat :=
  let c17_i32 : BitVec 32 := 17#32
  let v235 : Index := Scalar.indexCast c17_i32
  let c0_i32_66 : BitVec 32 := 0#32
  let c1_i32_67 : BitVec 32 := 1#32
  let arg16 : BitVec 32 := Scf.iv c0_i32_66 c1_i32_67 k1_t14
  let c16_i32_109 : BitVec 32 := 16#32
  let v234 : BitVec 32 := Scalar.muli arg16 c16_i32_109
  let v236 : Index := Scalar.indexCast v234
  ![17, v236.toNat]
def k1_off293 (k1_t14 : Fin k1_t14_loop.trips) : Fin 2 → Nat :=
  let c18_i32 : BitVec 32 := 18#32
  let v239 : Index := Scalar.indexCast c18_i32
  let c0_i32_66 : BitVec 32 := 0#32
  let c1_i32_67 : BitVec 32 := 1#32
  let arg16 : BitVec 32 := Scf.iv c0_i32_66 c1_i32_67 k1_t14
  let c16_i32_110 : BitVec 32 := 16#32
  let v238 : BitVec 32 := Scalar.muli arg16 c16_i32_110
  let v240 : Index := Scalar.indexCast v238
  ![18, v240.toNat]
def k1_off294 (k1_t14 : Fin k1_t14_loop.trips) : Fin 2 → Nat :=
  let c19_i32 : BitVec 32 := 19#32
  let v243 : Index := Scalar.indexCast c19_i32
  let c0_i32_66 : BitVec 32 := 0#32
  let c1_i32_67 : BitVec 32 := 1#32
  let arg16 : BitVec 32 := Scf.iv c0_i32_66 c1_i32_67 k1_t14
  let c16_i32_111 : BitVec 32 := 16#32
  let v242 : BitVec 32 := Scalar.muli arg16 c16_i32_111
  let v244 : Index := Scalar.indexCast v242
  ![19, v244.toNat]
def k1_off295 (k1_t14 : Fin k1_t14_loop.trips) : Fin 2 → Nat :=
  let c20_i32 : BitVec 32 := 20#32
  let v247 : Index := Scalar.indexCast c20_i32
  let c0_i32_66 : BitVec 32 := 0#32
  let c1_i32_67 : BitVec 32 := 1#32
  let arg16 : BitVec 32 := Scf.iv c0_i32_66 c1_i32_67 k1_t14
  let c16_i32_112 : BitVec 32 := 16#32
  let v246 : BitVec 32 := Scalar.muli arg16 c16_i32_112
  let v248 : Index := Scalar.indexCast v246
  ![20, v248.toNat]
def k1_off296 (k1_t14 : Fin k1_t14_loop.trips) : Fin 2 → Nat :=
  let c21_i32 : BitVec 32 := 21#32
  let v251 : Index := Scalar.indexCast c21_i32
  let c0_i32_66 : BitVec 32 := 0#32
  let c1_i32_67 : BitVec 32 := 1#32
  let arg16 : BitVec 32 := Scf.iv c0_i32_66 c1_i32_67 k1_t14
  let c16_i32_113 : BitVec 32 := 16#32
  let v250 : BitVec 32 := Scalar.muli arg16 c16_i32_113
  let v252 : Index := Scalar.indexCast v250
  ![21, v252.toNat]
def k1_off297 (k1_t14 : Fin k1_t14_loop.trips) : Fin 2 → Nat :=
  let c22_i32 : BitVec 32 := 22#32
  let v255 : Index := Scalar.indexCast c22_i32
  let c0_i32_66 : BitVec 32 := 0#32
  let c1_i32_67 : BitVec 32 := 1#32
  let arg16 : BitVec 32 := Scf.iv c0_i32_66 c1_i32_67 k1_t14
  let c16_i32_114 : BitVec 32 := 16#32
  let v254 : BitVec 32 := Scalar.muli arg16 c16_i32_114
  let v256 : Index := Scalar.indexCast v254
  ![22, v256.toNat]
def k1_off298 (k1_t14 : Fin k1_t14_loop.trips) : Fin 2 → Nat :=
  let c23_i32 : BitVec 32 := 23#32
  let v259 : Index := Scalar.indexCast c23_i32
  let c0_i32_66 : BitVec 32 := 0#32
  let c1_i32_67 : BitVec 32 := 1#32
  let arg16 : BitVec 32 := Scf.iv c0_i32_66 c1_i32_67 k1_t14
  let c16_i32_115 : BitVec 32 := 16#32
  let v258 : BitVec 32 := Scalar.muli arg16 c16_i32_115
  let v260 : Index := Scalar.indexCast v258
  ![23, v260.toNat]
def k1_off299 (k1_t14 : Fin k1_t14_loop.trips) : Fin 2 → Nat :=
  let c24_i32 : BitVec 32 := 24#32
  let v263 : Index := Scalar.indexCast c24_i32
  let c0_i32_66 : BitVec 32 := 0#32
  let c1_i32_67 : BitVec 32 := 1#32
  let arg16 : BitVec 32 := Scf.iv c0_i32_66 c1_i32_67 k1_t14
  let c16_i32_116 : BitVec 32 := 16#32
  let v262 : BitVec 32 := Scalar.muli arg16 c16_i32_116
  let v264 : Index := Scalar.indexCast v262
  ![24, v264.toNat]
def k1_off300 (k1_t14 : Fin k1_t14_loop.trips) : Fin 2 → Nat :=
  let c25_i32 : BitVec 32 := 25#32
  let v267 : Index := Scalar.indexCast c25_i32
  let c0_i32_66 : BitVec 32 := 0#32
  let c1_i32_67 : BitVec 32 := 1#32
  let arg16 : BitVec 32 := Scf.iv c0_i32_66 c1_i32_67 k1_t14
  let c16_i32_117 : BitVec 32 := 16#32
  let v266 : BitVec 32 := Scalar.muli arg16 c16_i32_117
  let v268 : Index := Scalar.indexCast v266
  ![25, v268.toNat]
def k1_off301 (k1_t14 : Fin k1_t14_loop.trips) : Fin 2 → Nat :=
  let c26_i32 : BitVec 32 := 26#32
  let v271 : Index := Scalar.indexCast c26_i32
  let c0_i32_66 : BitVec 32 := 0#32
  let c1_i32_67 : BitVec 32 := 1#32
  let arg16 : BitVec 32 := Scf.iv c0_i32_66 c1_i32_67 k1_t14
  let c16_i32_118 : BitVec 32 := 16#32
  let v270 : BitVec 32 := Scalar.muli arg16 c16_i32_118
  let v272 : Index := Scalar.indexCast v270
  ![26, v272.toNat]
def k1_off302 (k1_t14 : Fin k1_t14_loop.trips) : Fin 2 → Nat :=
  let c27_i32 : BitVec 32 := 27#32
  let v275 : Index := Scalar.indexCast c27_i32
  let c0_i32_66 : BitVec 32 := 0#32
  let c1_i32_67 : BitVec 32 := 1#32
  let arg16 : BitVec 32 := Scf.iv c0_i32_66 c1_i32_67 k1_t14
  let c16_i32_119 : BitVec 32 := 16#32
  let v274 : BitVec 32 := Scalar.muli arg16 c16_i32_119
  let v276 : Index := Scalar.indexCast v274
  ![27, v276.toNat]
def k1_off303 (k1_t14 : Fin k1_t14_loop.trips) : Fin 2 → Nat :=
  let c28_i32 : BitVec 32 := 28#32
  let v279 : Index := Scalar.indexCast c28_i32
  let c0_i32_66 : BitVec 32 := 0#32
  let c1_i32_67 : BitVec 32 := 1#32
  let arg16 : BitVec 32 := Scf.iv c0_i32_66 c1_i32_67 k1_t14
  let c16_i32_120 : BitVec 32 := 16#32
  let v278 : BitVec 32 := Scalar.muli arg16 c16_i32_120
  let v280 : Index := Scalar.indexCast v278
  ![28, v280.toNat]
def k1_off304 (k1_t14 : Fin k1_t14_loop.trips) : Fin 2 → Nat :=
  let c29_i32 : BitVec 32 := 29#32
  let v283 : Index := Scalar.indexCast c29_i32
  let c0_i32_66 : BitVec 32 := 0#32
  let c1_i32_67 : BitVec 32 := 1#32
  let arg16 : BitVec 32 := Scf.iv c0_i32_66 c1_i32_67 k1_t14
  let c16_i32_121 : BitVec 32 := 16#32
  let v282 : BitVec 32 := Scalar.muli arg16 c16_i32_121
  let v284 : Index := Scalar.indexCast v282
  ![29, v284.toNat]
def k1_off305 (k1_t14 : Fin k1_t14_loop.trips) : Fin 2 → Nat :=
  let c30_i32 : BitVec 32 := 30#32
  let v287 : Index := Scalar.indexCast c30_i32
  let c0_i32_66 : BitVec 32 := 0#32
  let c1_i32_67 : BitVec 32 := 1#32
  let arg16 : BitVec 32 := Scf.iv c0_i32_66 c1_i32_67 k1_t14
  let c16_i32_122 : BitVec 32 := 16#32
  let v286 : BitVec 32 := Scalar.muli arg16 c16_i32_122
  let v288 : Index := Scalar.indexCast v286
  ![30, v288.toNat]
def k1_off306 (k1_t14 : Fin k1_t14_loop.trips) : Fin 2 → Nat :=
  let c31_i32 : BitVec 32 := 31#32
  let v291 : Index := Scalar.indexCast c31_i32
  let c0_i32_66 : BitVec 32 := 0#32
  let c1_i32_67 : BitVec 32 := 1#32
  let arg16 : BitVec 32 := Scf.iv c0_i32_66 c1_i32_67 k1_t14
  let c16_i32_123 : BitVec 32 := 16#32
  let v290 : BitVec 32 := Scalar.muli arg16 c16_i32_123
  let v292 : Index := Scalar.indexCast v290
  ![31, v292.toNat]
def k1_off307 (i : grid1.Coords) (k1_t13 : Fin k1_t13_loop.trips) (c0_i32_69 : BitVec 32) : Fin 3 → Nat :=
  let c160_i32_59 : BitVec 32 := 160#32
  let c0_i32_45 : BitVec 32 := 0#32
  let c1_i32_47 : BitVec 32 := 1#32
  let arg14 : BitVec 32 := Scf.iv c0_i32_45 c1_i32_47 k1_t13
  let v41 : BitVec 32 := Scalar.addi c160_i32_59 arg14
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v48 : BitVec 32 := Scalar.addi v2 c0_i32_69
  ![v41.toNat, 0, v48.toNat]
@[reducible] def k1_t15_loop : Scf.Loop 32 :=
  let c0_i32_78 : BitVec 32 := 0#32
  let c16_i32_79 : BitVec 32 := 16#32
  let v57 : BitVec 32 := Scalar.addi c0_i32_78 c16_i32_79
  let c1_i32_80 : BitVec 32 := 1#32
  ⟨c0_i32_78, v57, c1_i32_80⟩
def k1_mult10 (k1_t15 : Fin k1_t15_loop.trips) : BitVec 32 :=
  let c256_i32_86 : BitVec 32 := 256#32
  let c0_i32_78 : BitVec 32 := 0#32
  let c1_i32_80 : BitVec 32 := 1#32
  let arg16 : BitVec 32 := Scf.iv c0_i32_78 c1_i32_80 k1_t15
  let c16_i32_85 : BitVec 32 := 16#32
  let v64 : BitVec 32 := Scalar.muli arg16 c16_i32_85
  let v65 : BitVec 32 := Scalar.addi c256_i32_86 v64
  v65
def k1_off308 (k1_t13 : Fin k1_t13_loop.trips) (k1_t15 : Fin k1_t15_loop.trips) : Fin 2 → Nat :=
  let c0_i32_45 : BitVec 32 := 0#32
  let c1_i32_47 : BitVec 32 := 1#32
  let arg14 : BitVec 32 := Scf.iv c0_i32_45 c1_i32_47 k1_t13
  let v67 : Index := Scalar.indexCast arg14
  let c256_i32_86 : BitVec 32 := 256#32
  let c0_i32_78 : BitVec 32 := 0#32
  let c1_i32_80 : BitVec 32 := 1#32
  let arg16 : BitVec 32 := Scf.iv c0_i32_78 c1_i32_80 k1_t15
  let c16_i32_85 : BitVec 32 := 16#32
  let v64 : BitVec 32 := Scalar.muli arg16 c16_i32_85
  let v65 : BitVec 32 := Scalar.addi c256_i32_86 v64
  let v66 : BitVec 32 := v65
  let v68 : Index := Scalar.indexCast v66
  ![v67.toNat, v68.toNat]

def k1_chk289 (v71 : IVec S16 32) : Prop :=
  (∀ a x, ((![v71] : Fin 1 → IVec S16 32) a x).toNat < S32000.size a)
instance k1_chk289.dec : ∀ (v71 : IVec S16 32), Decidable (k1_chk289 v71) := fun v71 => decidable_of_iff' _ (Iff.of_eq (k1_chk289.eq_1 v71))
theorem k1_idx289_inb : ∀ (v71 : IVec S16 32) (k1_hw289 : k1_chk289 v71), ∀ a x, ((![v71] : Fin 1 → IVec S16 32) a x).toNat < S32000.size a := fun v71 k1_hw289 => k1_hw289

def k1_chk290 (v74 : IVec S16 32) : Prop :=
  (∀ a x, ((![v74] : Fin 1 → IVec S16 32) a x).toNat < S32000.size a)
instance k1_chk290.dec : ∀ (v74 : IVec S16 32), Decidable (k1_chk290 v74) := fun v74 => decidable_of_iff' _ (Iff.of_eq (k1_chk290.eq_1 v74))
theorem k1_idx290_inb : ∀ (v74 : IVec S16 32) (k1_hw290 : k1_chk290 v74), ∀ a x, ((![v74] : Fin 1 → IVec S16 32) a x).toNat < S32000.size a := fun v74 k1_hw290 => k1_hw290

def k1_chk291 (v77 : IVec S16 32) : Prop :=
  (∀ a x, ((![v77] : Fin 1 → IVec S16 32) a x).toNat < S32000.size a)
instance k1_chk291.dec : ∀ (v77 : IVec S16 32), Decidable (k1_chk291 v77) := fun v77 => decidable_of_iff' _ (Iff.of_eq (k1_chk291.eq_1 v77))
theorem k1_idx291_inb : ∀ (v77 : IVec S16 32) (k1_hw291 : k1_chk291 v77), ∀ a x, ((![v77] : Fin 1 → IVec S16 32) a x).toNat < S32000.size a := fun v77 k1_hw291 => k1_hw291

def k1_chk292 (v80 : IVec S16 32) : Prop :=
  (∀ a x, ((![v80] : Fin 1 → IVec S16 32) a x).toNat < S32000.size a)
instance k1_chk292.dec : ∀ (v80 : IVec S16 32), Decidable (k1_chk292 v80) := fun v80 => decidable_of_iff' _ (Iff.of_eq (k1_chk292.eq_1 v80))
theorem k1_idx292_inb : ∀ (v80 : IVec S16 32) (k1_hw292 : k1_chk292 v80), ∀ a x, ((![v80] : Fin 1 → IVec S16 32) a x).toNat < S32000.size a := fun v80 k1_hw292 => k1_hw292

def k1_chk293 (v83 : IVec S16 32) : Prop :=
  (∀ a x, ((![v83] : Fin 1 → IVec S16 32) a x).toNat < S32000.size a)
instance k1_chk293.dec : ∀ (v83 : IVec S16 32), Decidable (k1_chk293 v83) := fun v83 => decidable_of_iff' _ (Iff.of_eq (k1_chk293.eq_1 v83))
theorem k1_idx293_inb : ∀ (v83 : IVec S16 32) (k1_hw293 : k1_chk293 v83), ∀ a x, ((![v83] : Fin 1 → IVec S16 32) a x).toNat < S32000.size a := fun v83 k1_hw293 => k1_hw293

def k1_chk294 (v86 : IVec S16 32) : Prop :=
  (∀ a x, ((![v86] : Fin 1 → IVec S16 32) a x).toNat < S32000.size a)
instance k1_chk294.dec : ∀ (v86 : IVec S16 32), Decidable (k1_chk294 v86) := fun v86 => decidable_of_iff' _ (Iff.of_eq (k1_chk294.eq_1 v86))
theorem k1_idx294_inb : ∀ (v86 : IVec S16 32) (k1_hw294 : k1_chk294 v86), ∀ a x, ((![v86] : Fin 1 → IVec S16 32) a x).toNat < S32000.size a := fun v86 k1_hw294 => k1_hw294

def k1_chk295 (v89 : IVec S16 32) : Prop :=
  (∀ a x, ((![v89] : Fin 1 → IVec S16 32) a x).toNat < S32000.size a)
instance k1_chk295.dec : ∀ (v89 : IVec S16 32), Decidable (k1_chk295 v89) := fun v89 => decidable_of_iff' _ (Iff.of_eq (k1_chk295.eq_1 v89))
theorem k1_idx295_inb : ∀ (v89 : IVec S16 32) (k1_hw295 : k1_chk295 v89), ∀ a x, ((![v89] : Fin 1 → IVec S16 32) a x).toNat < S32000.size a := fun v89 k1_hw295 => k1_hw295

def k1_chk296 (v92 : IVec S16 32) : Prop :=
  (∀ a x, ((![v92] : Fin 1 → IVec S16 32) a x).toNat < S32000.size a)
instance k1_chk296.dec : ∀ (v92 : IVec S16 32), Decidable (k1_chk296 v92) := fun v92 => decidable_of_iff' _ (Iff.of_eq (k1_chk296.eq_1 v92))
theorem k1_idx296_inb : ∀ (v92 : IVec S16 32) (k1_hw296 : k1_chk296 v92), ∀ a x, ((![v92] : Fin 1 → IVec S16 32) a x).toNat < S32000.size a := fun v92 k1_hw296 => k1_hw296

def k1_chk297 (v95 : IVec S16 32) : Prop :=
  (∀ a x, ((![v95] : Fin 1 → IVec S16 32) a x).toNat < S32000.size a)
instance k1_chk297.dec : ∀ (v95 : IVec S16 32), Decidable (k1_chk297 v95) := fun v95 => decidable_of_iff' _ (Iff.of_eq (k1_chk297.eq_1 v95))
theorem k1_idx297_inb : ∀ (v95 : IVec S16 32) (k1_hw297 : k1_chk297 v95), ∀ a x, ((![v95] : Fin 1 → IVec S16 32) a x).toNat < S32000.size a := fun v95 k1_hw297 => k1_hw297

def k1_chk298 (v98 : IVec S16 32) : Prop :=
  (∀ a x, ((![v98] : Fin 1 → IVec S16 32) a x).toNat < S32000.size a)
instance k1_chk298.dec : ∀ (v98 : IVec S16 32), Decidable (k1_chk298 v98) := fun v98 => decidable_of_iff' _ (Iff.of_eq (k1_chk298.eq_1 v98))
theorem k1_idx298_inb : ∀ (v98 : IVec S16 32) (k1_hw298 : k1_chk298 v98), ∀ a x, ((![v98] : Fin 1 → IVec S16 32) a x).toNat < S32000.size a := fun v98 k1_hw298 => k1_hw298

def k1_chk299 (v101 : IVec S16 32) : Prop :=
  (∀ a x, ((![v101] : Fin 1 → IVec S16 32) a x).toNat < S32000.size a)
instance k1_chk299.dec : ∀ (v101 : IVec S16 32), Decidable (k1_chk299 v101) := fun v101 => decidable_of_iff' _ (Iff.of_eq (k1_chk299.eq_1 v101))
theorem k1_idx299_inb : ∀ (v101 : IVec S16 32) (k1_hw299 : k1_chk299 v101), ∀ a x, ((![v101] : Fin 1 → IVec S16 32) a x).toNat < S32000.size a := fun v101 k1_hw299 => k1_hw299

def k1_chk300 (v104 : IVec S16 32) : Prop :=
  (∀ a x, ((![v104] : Fin 1 → IVec S16 32) a x).toNat < S32000.size a)
instance k1_chk300.dec : ∀ (v104 : IVec S16 32), Decidable (k1_chk300 v104) := fun v104 => decidable_of_iff' _ (Iff.of_eq (k1_chk300.eq_1 v104))
theorem k1_idx300_inb : ∀ (v104 : IVec S16 32) (k1_hw300 : k1_chk300 v104), ∀ a x, ((![v104] : Fin 1 → IVec S16 32) a x).toNat < S32000.size a := fun v104 k1_hw300 => k1_hw300

def k1_chk301 (v107 : IVec S16 32) : Prop :=
  (∀ a x, ((![v107] : Fin 1 → IVec S16 32) a x).toNat < S32000.size a)
instance k1_chk301.dec : ∀ (v107 : IVec S16 32), Decidable (k1_chk301 v107) := fun v107 => decidable_of_iff' _ (Iff.of_eq (k1_chk301.eq_1 v107))
theorem k1_idx301_inb : ∀ (v107 : IVec S16 32) (k1_hw301 : k1_chk301 v107), ∀ a x, ((![v107] : Fin 1 → IVec S16 32) a x).toNat < S32000.size a := fun v107 k1_hw301 => k1_hw301

def k1_chk302 (v110 : IVec S16 32) : Prop :=
  (∀ a x, ((![v110] : Fin 1 → IVec S16 32) a x).toNat < S32000.size a)
instance k1_chk302.dec : ∀ (v110 : IVec S16 32), Decidable (k1_chk302 v110) := fun v110 => decidable_of_iff' _ (Iff.of_eq (k1_chk302.eq_1 v110))
theorem k1_idx302_inb : ∀ (v110 : IVec S16 32) (k1_hw302 : k1_chk302 v110), ∀ a x, ((![v110] : Fin 1 → IVec S16 32) a x).toNat < S32000.size a := fun v110 k1_hw302 => k1_hw302

def k1_chk303 (v113 : IVec S16 32) : Prop :=
  (∀ a x, ((![v113] : Fin 1 → IVec S16 32) a x).toNat < S32000.size a)
instance k1_chk303.dec : ∀ (v113 : IVec S16 32), Decidable (k1_chk303 v113) := fun v113 => decidable_of_iff' _ (Iff.of_eq (k1_chk303.eq_1 v113))
theorem k1_idx303_inb : ∀ (v113 : IVec S16 32) (k1_hw303 : k1_chk303 v113), ∀ a x, ((![v113] : Fin 1 → IVec S16 32) a x).toNat < S32000.size a := fun v113 k1_hw303 => k1_hw303

def k1_chk304 (v116 : IVec S16 32) : Prop :=
  (∀ a x, ((![v116] : Fin 1 → IVec S16 32) a x).toNat < S32000.size a)
instance k1_chk304.dec : ∀ (v116 : IVec S16 32), Decidable (k1_chk304 v116) := fun v116 => decidable_of_iff' _ (Iff.of_eq (k1_chk304.eq_1 v116))
theorem k1_idx304_inb : ∀ (v116 : IVec S16 32) (k1_hw304 : k1_chk304 v116), ∀ a x, ((![v116] : Fin 1 → IVec S16 32) a x).toNat < S32000.size a := fun v116 k1_hw304 => k1_hw304

def k1_chk305 (v119 : IVec S16 32) : Prop :=
  (∀ a x, ((![v119] : Fin 1 → IVec S16 32) a x).toNat < S32000.size a)
instance k1_chk305.dec : ∀ (v119 : IVec S16 32), Decidable (k1_chk305 v119) := fun v119 => decidable_of_iff' _ (Iff.of_eq (k1_chk305.eq_1 v119))
theorem k1_idx305_inb : ∀ (v119 : IVec S16 32) (k1_hw305 : k1_chk305 v119), ∀ a x, ((![v119] : Fin 1 → IVec S16 32) a x).toNat < S32000.size a := fun v119 k1_hw305 => k1_hw305

def k1_chk306 (v122 : IVec S16 32) : Prop :=
  (∀ a x, ((![v122] : Fin 1 → IVec S16 32) a x).toNat < S32000.size a)
instance k1_chk306.dec : ∀ (v122 : IVec S16 32), Decidable (k1_chk306 v122) := fun v122 => decidable_of_iff' _ (Iff.of_eq (k1_chk306.eq_1 v122))
theorem k1_idx306_inb : ∀ (v122 : IVec S16 32) (k1_hw306 : k1_chk306 v122), ∀ a x, ((![v122] : Fin 1 → IVec S16 32) a x).toNat < S32000.size a := fun v122 k1_hw306 => k1_hw306

def k1_chk307 (v125 : IVec S16 32) : Prop :=
  (∀ a x, ((![v125] : Fin 1 → IVec S16 32) a x).toNat < S32000.size a)
instance k1_chk307.dec : ∀ (v125 : IVec S16 32), Decidable (k1_chk307 v125) := fun v125 => decidable_of_iff' _ (Iff.of_eq (k1_chk307.eq_1 v125))
theorem k1_idx307_inb : ∀ (v125 : IVec S16 32) (k1_hw307 : k1_chk307 v125), ∀ a x, ((![v125] : Fin 1 → IVec S16 32) a x).toNat < S32000.size a := fun v125 k1_hw307 => k1_hw307

def k1_chk308 (v128 : IVec S16 32) : Prop :=
  (∀ a x, ((![v128] : Fin 1 → IVec S16 32) a x).toNat < S32000.size a)
instance k1_chk308.dec : ∀ (v128 : IVec S16 32), Decidable (k1_chk308 v128) := fun v128 => decidable_of_iff' _ (Iff.of_eq (k1_chk308.eq_1 v128))
theorem k1_idx308_inb : ∀ (v128 : IVec S16 32) (k1_hw308 : k1_chk308 v128), ∀ a x, ((![v128] : Fin 1 → IVec S16 32) a x).toNat < S32000.size a := fun v128 k1_hw308 => k1_hw308

def k1_chk309 (v131 : IVec S16 32) : Prop :=
  (∀ a x, ((![v131] : Fin 1 → IVec S16 32) a x).toNat < S32000.size a)
instance k1_chk309.dec : ∀ (v131 : IVec S16 32), Decidable (k1_chk309 v131) := fun v131 => decidable_of_iff' _ (Iff.of_eq (k1_chk309.eq_1 v131))
theorem k1_idx309_inb : ∀ (v131 : IVec S16 32) (k1_hw309 : k1_chk309 v131), ∀ a x, ((![v131] : Fin 1 → IVec S16 32) a x).toNat < S32000.size a := fun v131 k1_hw309 => k1_hw309

def k1_chk310 (v134 : IVec S16 32) : Prop :=
  (∀ a x, ((![v134] : Fin 1 → IVec S16 32) a x).toNat < S32000.size a)
instance k1_chk310.dec : ∀ (v134 : IVec S16 32), Decidable (k1_chk310 v134) := fun v134 => decidable_of_iff' _ (Iff.of_eq (k1_chk310.eq_1 v134))
theorem k1_idx310_inb : ∀ (v134 : IVec S16 32) (k1_hw310 : k1_chk310 v134), ∀ a x, ((![v134] : Fin 1 → IVec S16 32) a x).toNat < S32000.size a := fun v134 k1_hw310 => k1_hw310

def k1_chk311 (v137 : IVec S16 32) : Prop :=
  (∀ a x, ((![v137] : Fin 1 → IVec S16 32) a x).toNat < S32000.size a)
instance k1_chk311.dec : ∀ (v137 : IVec S16 32), Decidable (k1_chk311 v137) := fun v137 => decidable_of_iff' _ (Iff.of_eq (k1_chk311.eq_1 v137))
theorem k1_idx311_inb : ∀ (v137 : IVec S16 32) (k1_hw311 : k1_chk311 v137), ∀ a x, ((![v137] : Fin 1 → IVec S16 32) a x).toNat < S32000.size a := fun v137 k1_hw311 => k1_hw311

def k1_chk312 (v140 : IVec S16 32) : Prop :=
  (∀ a x, ((![v140] : Fin 1 → IVec S16 32) a x).toNat < S32000.size a)
instance k1_chk312.dec : ∀ (v140 : IVec S16 32), Decidable (k1_chk312 v140) := fun v140 => decidable_of_iff' _ (Iff.of_eq (k1_chk312.eq_1 v140))
theorem k1_idx312_inb : ∀ (v140 : IVec S16 32) (k1_hw312 : k1_chk312 v140), ∀ a x, ((![v140] : Fin 1 → IVec S16 32) a x).toNat < S32000.size a := fun v140 k1_hw312 => k1_hw312

def k1_chk313 (v143 : IVec S16 32) : Prop :=
  (∀ a x, ((![v143] : Fin 1 → IVec S16 32) a x).toNat < S32000.size a)
instance k1_chk313.dec : ∀ (v143 : IVec S16 32), Decidable (k1_chk313 v143) := fun v143 => decidable_of_iff' _ (Iff.of_eq (k1_chk313.eq_1 v143))
theorem k1_idx313_inb : ∀ (v143 : IVec S16 32) (k1_hw313 : k1_chk313 v143), ∀ a x, ((![v143] : Fin 1 → IVec S16 32) a x).toNat < S32000.size a := fun v143 k1_hw313 => k1_hw313

def k1_chk314 (v146 : IVec S16 32) : Prop :=
  (∀ a x, ((![v146] : Fin 1 → IVec S16 32) a x).toNat < S32000.size a)
instance k1_chk314.dec : ∀ (v146 : IVec S16 32), Decidable (k1_chk314 v146) := fun v146 => decidable_of_iff' _ (Iff.of_eq (k1_chk314.eq_1 v146))
theorem k1_idx314_inb : ∀ (v146 : IVec S16 32) (k1_hw314 : k1_chk314 v146), ∀ a x, ((![v146] : Fin 1 → IVec S16 32) a x).toNat < S32000.size a := fun v146 k1_hw314 => k1_hw314

def k1_chk315 (v149 : IVec S16 32) : Prop :=
  (∀ a x, ((![v149] : Fin 1 → IVec S16 32) a x).toNat < S32000.size a)
instance k1_chk315.dec : ∀ (v149 : IVec S16 32), Decidable (k1_chk315 v149) := fun v149 => decidable_of_iff' _ (Iff.of_eq (k1_chk315.eq_1 v149))
theorem k1_idx315_inb : ∀ (v149 : IVec S16 32) (k1_hw315 : k1_chk315 v149), ∀ a x, ((![v149] : Fin 1 → IVec S16 32) a x).toNat < S32000.size a := fun v149 k1_hw315 => k1_hw315

def k1_chk316 (v152 : IVec S16 32) : Prop :=
  (∀ a x, ((![v152] : Fin 1 → IVec S16 32) a x).toNat < S32000.size a)
instance k1_chk316.dec : ∀ (v152 : IVec S16 32), Decidable (k1_chk316 v152) := fun v152 => decidable_of_iff' _ (Iff.of_eq (k1_chk316.eq_1 v152))
theorem k1_idx316_inb : ∀ (v152 : IVec S16 32) (k1_hw316 : k1_chk316 v152), ∀ a x, ((![v152] : Fin 1 → IVec S16 32) a x).toNat < S32000.size a := fun v152 k1_hw316 => k1_hw316

def k1_chk317 (v155 : IVec S16 32) : Prop :=
  (∀ a x, ((![v155] : Fin 1 → IVec S16 32) a x).toNat < S32000.size a)
instance k1_chk317.dec : ∀ (v155 : IVec S16 32), Decidable (k1_chk317 v155) := fun v155 => decidable_of_iff' _ (Iff.of_eq (k1_chk317.eq_1 v155))
theorem k1_idx317_inb : ∀ (v155 : IVec S16 32) (k1_hw317 : k1_chk317 v155), ∀ a x, ((![v155] : Fin 1 → IVec S16 32) a x).toNat < S32000.size a := fun v155 k1_hw317 => k1_hw317

def k1_chk318 (v158 : IVec S16 32) : Prop :=
  (∀ a x, ((![v158] : Fin 1 → IVec S16 32) a x).toNat < S32000.size a)
instance k1_chk318.dec : ∀ (v158 : IVec S16 32), Decidable (k1_chk318 v158) := fun v158 => decidable_of_iff' _ (Iff.of_eq (k1_chk318.eq_1 v158))
theorem k1_idx318_inb : ∀ (v158 : IVec S16 32) (k1_hw318 : k1_chk318 v158), ∀ a x, ((![v158] : Fin 1 → IVec S16 32) a x).toNat < S32000.size a := fun v158 k1_hw318 => k1_hw318

def k1_chk319 (v161 : IVec S16 32) : Prop :=
  (∀ a x, ((![v161] : Fin 1 → IVec S16 32) a x).toNat < S32000.size a)
instance k1_chk319.dec : ∀ (v161 : IVec S16 32), Decidable (k1_chk319 v161) := fun v161 => decidable_of_iff' _ (Iff.of_eq (k1_chk319.eq_1 v161))
theorem k1_idx319_inb : ∀ (v161 : IVec S16 32) (k1_hw319 : k1_chk319 v161), ∀ a x, ((![v161] : Fin 1 → IVec S16 32) a x).toNat < S32000.size a := fun v161 k1_hw319 => k1_hw319

def k1_chk320 (v164 : IVec S16 32) : Prop :=
  (∀ a x, ((![v164] : Fin 1 → IVec S16 32) a x).toNat < S32000.size a)
instance k1_chk320.dec : ∀ (v164 : IVec S16 32), Decidable (k1_chk320 v164) := fun v164 => decidable_of_iff' _ (Iff.of_eq (k1_chk320.eq_1 v164))
theorem k1_idx320_inb : ∀ (v164 : IVec S16 32) (k1_hw320 : k1_chk320 v164), ∀ a x, ((![v164] : Fin 1 → IVec S16 32) a x).toNat < S32000.size a := fun v164 k1_hw320 => k1_hw320
def k1_off309 (k1_t15 : Fin k1_t15_loop.trips) : Fin 2 → Nat :=
  let c0_i32_89 : BitVec 32 := 0#32
  let v167 : Index := Scalar.indexCast c0_i32_89
  let c0_i32_78 : BitVec 32 := 0#32
  let c1_i32_80 : BitVec 32 := 1#32
  let arg16 : BitVec 32 := Scf.iv c0_i32_78 c1_i32_80 k1_t15
  let c16_i32_88 : BitVec 32 := 16#32
  let v166 : BitVec 32 := Scalar.muli arg16 c16_i32_88
  let v168 : Index := Scalar.indexCast v166
  ![0, v168.toNat]
def k1_off310 (k1_t15 : Fin k1_t15_loop.trips) : Fin 2 → Nat :=
  let c1_i32_91 : BitVec 32 := 1#32
  let v171 : Index := Scalar.indexCast c1_i32_91
  let c0_i32_78 : BitVec 32 := 0#32
  let c1_i32_80 : BitVec 32 := 1#32
  let arg16 : BitVec 32 := Scf.iv c0_i32_78 c1_i32_80 k1_t15
  let c16_i32_90 : BitVec 32 := 16#32
  let v170 : BitVec 32 := Scalar.muli arg16 c16_i32_90
  let v172 : Index := Scalar.indexCast v170
  ![1, v172.toNat]
def k1_off311 (k1_t15 : Fin k1_t15_loop.trips) : Fin 2 → Nat :=
  let c2_i32_93 : BitVec 32 := 2#32
  let v175 : Index := Scalar.indexCast c2_i32_93
  let c0_i32_78 : BitVec 32 := 0#32
  let c1_i32_80 : BitVec 32 := 1#32
  let arg16 : BitVec 32 := Scf.iv c0_i32_78 c1_i32_80 k1_t15
  let c16_i32_92 : BitVec 32 := 16#32
  let v174 : BitVec 32 := Scalar.muli arg16 c16_i32_92
  let v176 : Index := Scalar.indexCast v174
  ![2, v176.toNat]
def k1_off312 (k1_t15 : Fin k1_t15_loop.trips) : Fin 2 → Nat :=
  let c3_i32 : BitVec 32 := 3#32
  let v179 : Index := Scalar.indexCast c3_i32
  let c0_i32_78 : BitVec 32 := 0#32
  let c1_i32_80 : BitVec 32 := 1#32
  let arg16 : BitVec 32 := Scf.iv c0_i32_78 c1_i32_80 k1_t15
  let c16_i32_94 : BitVec 32 := 16#32
  let v178 : BitVec 32 := Scalar.muli arg16 c16_i32_94
  let v180 : Index := Scalar.indexCast v178
  ![3, v180.toNat]
def k1_off313 (k1_t15 : Fin k1_t15_loop.trips) : Fin 2 → Nat :=
  let c4_i32 : BitVec 32 := 4#32
  let v183 : Index := Scalar.indexCast c4_i32
  let c0_i32_78 : BitVec 32 := 0#32
  let c1_i32_80 : BitVec 32 := 1#32
  let arg16 : BitVec 32 := Scf.iv c0_i32_78 c1_i32_80 k1_t15
  let c16_i32_95 : BitVec 32 := 16#32
  let v182 : BitVec 32 := Scalar.muli arg16 c16_i32_95
  let v184 : Index := Scalar.indexCast v182
  ![4, v184.toNat]
def k1_off314 (k1_t15 : Fin k1_t15_loop.trips) : Fin 2 → Nat :=
  let c5_i32 : BitVec 32 := 5#32
  let v187 : Index := Scalar.indexCast c5_i32
  let c0_i32_78 : BitVec 32 := 0#32
  let c1_i32_80 : BitVec 32 := 1#32
  let arg16 : BitVec 32 := Scf.iv c0_i32_78 c1_i32_80 k1_t15
  let c16_i32_96 : BitVec 32 := 16#32
  let v186 : BitVec 32 := Scalar.muli arg16 c16_i32_96
  let v188 : Index := Scalar.indexCast v186
  ![5, v188.toNat]
def k1_off315 (k1_t15 : Fin k1_t15_loop.trips) : Fin 2 → Nat :=
  let c6_i32 : BitVec 32 := 6#32
  let v191 : Index := Scalar.indexCast c6_i32
  let c0_i32_78 : BitVec 32 := 0#32
  let c1_i32_80 : BitVec 32 := 1#32
  let arg16 : BitVec 32 := Scf.iv c0_i32_78 c1_i32_80 k1_t15
  let c16_i32_97 : BitVec 32 := 16#32
  let v190 : BitVec 32 := Scalar.muli arg16 c16_i32_97
  let v192 : Index := Scalar.indexCast v190
  ![6, v192.toNat]
def k1_off316 (k1_t15 : Fin k1_t15_loop.trips) : Fin 2 → Nat :=
  let c7_i32 : BitVec 32 := 7#32
  let v195 : Index := Scalar.indexCast c7_i32
  let c0_i32_78 : BitVec 32 := 0#32
  let c1_i32_80 : BitVec 32 := 1#32
  let arg16 : BitVec 32 := Scf.iv c0_i32_78 c1_i32_80 k1_t15
  let c16_i32_98 : BitVec 32 := 16#32
  let v194 : BitVec 32 := Scalar.muli arg16 c16_i32_98
  let v196 : Index := Scalar.indexCast v194
  ![7, v196.toNat]
def k1_off317 (k1_t15 : Fin k1_t15_loop.trips) : Fin 2 → Nat :=
  let c8_i32 : BitVec 32 := 8#32
  let v199 : Index := Scalar.indexCast c8_i32
  let c0_i32_78 : BitVec 32 := 0#32
  let c1_i32_80 : BitVec 32 := 1#32
  let arg16 : BitVec 32 := Scf.iv c0_i32_78 c1_i32_80 k1_t15
  let c16_i32_99 : BitVec 32 := 16#32
  let v198 : BitVec 32 := Scalar.muli arg16 c16_i32_99
  let v200 : Index := Scalar.indexCast v198
  ![8, v200.toNat]
def k1_off318 (k1_t15 : Fin k1_t15_loop.trips) : Fin 2 → Nat :=
  let c9_i32 : BitVec 32 := 9#32
  let v203 : Index := Scalar.indexCast c9_i32
  let c0_i32_78 : BitVec 32 := 0#32
  let c1_i32_80 : BitVec 32 := 1#32
  let arg16 : BitVec 32 := Scf.iv c0_i32_78 c1_i32_80 k1_t15
  let c16_i32_100 : BitVec 32 := 16#32
  let v202 : BitVec 32 := Scalar.muli arg16 c16_i32_100
  let v204 : Index := Scalar.indexCast v202
  ![9, v204.toNat]
def k1_off319 (k1_t15 : Fin k1_t15_loop.trips) : Fin 2 → Nat :=
  let c10_i32 : BitVec 32 := 10#32
  let v207 : Index := Scalar.indexCast c10_i32
  let c0_i32_78 : BitVec 32 := 0#32
  let c1_i32_80 : BitVec 32 := 1#32
  let arg16 : BitVec 32 := Scf.iv c0_i32_78 c1_i32_80 k1_t15
  let c16_i32_101 : BitVec 32 := 16#32
  let v206 : BitVec 32 := Scalar.muli arg16 c16_i32_101
  let v208 : Index := Scalar.indexCast v206
  ![10, v208.toNat]
def k1_off320 (k1_t15 : Fin k1_t15_loop.trips) : Fin 2 → Nat :=
  let c11_i32 : BitVec 32 := 11#32
  let v211 : Index := Scalar.indexCast c11_i32
  let c0_i32_78 : BitVec 32 := 0#32
  let c1_i32_80 : BitVec 32 := 1#32
  let arg16 : BitVec 32 := Scf.iv c0_i32_78 c1_i32_80 k1_t15
  let c16_i32_102 : BitVec 32 := 16#32
  let v210 : BitVec 32 := Scalar.muli arg16 c16_i32_102
  let v212 : Index := Scalar.indexCast v210
  ![11, v212.toNat]
def k1_off321 (k1_t15 : Fin k1_t15_loop.trips) : Fin 2 → Nat :=
  let c12_i32 : BitVec 32 := 12#32
  let v215 : Index := Scalar.indexCast c12_i32
  let c0_i32_78 : BitVec 32 := 0#32
  let c1_i32_80 : BitVec 32 := 1#32
  let arg16 : BitVec 32 := Scf.iv c0_i32_78 c1_i32_80 k1_t15
  let c16_i32_103 : BitVec 32 := 16#32
  let v214 : BitVec 32 := Scalar.muli arg16 c16_i32_103
  let v216 : Index := Scalar.indexCast v214
  ![12, v216.toNat]
def k1_off322 (k1_t15 : Fin k1_t15_loop.trips) : Fin 2 → Nat :=
  let c13_i32 : BitVec 32 := 13#32
  let v219 : Index := Scalar.indexCast c13_i32
  let c0_i32_78 : BitVec 32 := 0#32
  let c1_i32_80 : BitVec 32 := 1#32
  let arg16 : BitVec 32 := Scf.iv c0_i32_78 c1_i32_80 k1_t15
  let c16_i32_104 : BitVec 32 := 16#32
  let v218 : BitVec 32 := Scalar.muli arg16 c16_i32_104
  let v220 : Index := Scalar.indexCast v218
  ![13, v220.toNat]
def k1_off323 (k1_t15 : Fin k1_t15_loop.trips) : Fin 2 → Nat :=
  let c14_i32 : BitVec 32 := 14#32
  let v223 : Index := Scalar.indexCast c14_i32
  let c0_i32_78 : BitVec 32 := 0#32
  let c1_i32_80 : BitVec 32 := 1#32
  let arg16 : BitVec 32 := Scf.iv c0_i32_78 c1_i32_80 k1_t15
  let c16_i32_105 : BitVec 32 := 16#32
  let v222 : BitVec 32 := Scalar.muli arg16 c16_i32_105
  let v224 : Index := Scalar.indexCast v222
  ![14, v224.toNat]
def k1_off324 (k1_t15 : Fin k1_t15_loop.trips) : Fin 2 → Nat :=
  let c15_i32 : BitVec 32 := 15#32
  let v227 : Index := Scalar.indexCast c15_i32
  let c0_i32_78 : BitVec 32 := 0#32
  let c1_i32_80 : BitVec 32 := 1#32
  let arg16 : BitVec 32 := Scf.iv c0_i32_78 c1_i32_80 k1_t15
  let c16_i32_106 : BitVec 32 := 16#32
  let v226 : BitVec 32 := Scalar.muli arg16 c16_i32_106
  let v228 : Index := Scalar.indexCast v226
  ![15, v228.toNat]
def k1_off325 (k1_t15 : Fin k1_t15_loop.trips) : Fin 2 → Nat :=
  let c16_i32_108 : BitVec 32 := 16#32
  let v231 : Index := Scalar.indexCast c16_i32_108
  let c0_i32_78 : BitVec 32 := 0#32
  let c1_i32_80 : BitVec 32 := 1#32
  let arg16 : BitVec 32 := Scf.iv c0_i32_78 c1_i32_80 k1_t15
  let c16_i32_107 : BitVec 32 := 16#32
  let v230 : BitVec 32 := Scalar.muli arg16 c16_i32_107
  let v232 : Index := Scalar.indexCast v230
  ![16, v232.toNat]
def k1_off326 (k1_t15 : Fin k1_t15_loop.trips) : Fin 2 → Nat :=
  let c17_i32 : BitVec 32 := 17#32
  let v235 : Index := Scalar.indexCast c17_i32
  let c0_i32_78 : BitVec 32 := 0#32
  let c1_i32_80 : BitVec 32 := 1#32
  let arg16 : BitVec 32 := Scf.iv c0_i32_78 c1_i32_80 k1_t15
  let c16_i32_109 : BitVec 32 := 16#32
  let v234 : BitVec 32 := Scalar.muli arg16 c16_i32_109
  let v236 : Index := Scalar.indexCast v234
  ![17, v236.toNat]
def k1_off327 (k1_t15 : Fin k1_t15_loop.trips) : Fin 2 → Nat :=
  let c18_i32 : BitVec 32 := 18#32
  let v239 : Index := Scalar.indexCast c18_i32
  let c0_i32_78 : BitVec 32 := 0#32
  let c1_i32_80 : BitVec 32 := 1#32
  let arg16 : BitVec 32 := Scf.iv c0_i32_78 c1_i32_80 k1_t15
  let c16_i32_110 : BitVec 32 := 16#32
  let v238 : BitVec 32 := Scalar.muli arg16 c16_i32_110
  let v240 : Index := Scalar.indexCast v238
  ![18, v240.toNat]
def k1_off328 (k1_t15 : Fin k1_t15_loop.trips) : Fin 2 → Nat :=
  let c19_i32 : BitVec 32 := 19#32
  let v243 : Index := Scalar.indexCast c19_i32
  let c0_i32_78 : BitVec 32 := 0#32
  let c1_i32_80 : BitVec 32 := 1#32
  let arg16 : BitVec 32 := Scf.iv c0_i32_78 c1_i32_80 k1_t15
  let c16_i32_111 : BitVec 32 := 16#32
  let v242 : BitVec 32 := Scalar.muli arg16 c16_i32_111
  let v244 : Index := Scalar.indexCast v242
  ![19, v244.toNat]
def k1_off329 (k1_t15 : Fin k1_t15_loop.trips) : Fin 2 → Nat :=
  let c20_i32 : BitVec 32 := 20#32
  let v247 : Index := Scalar.indexCast c20_i32
  let c0_i32_78 : BitVec 32 := 0#32
  let c1_i32_80 : BitVec 32 := 1#32
  let arg16 : BitVec 32 := Scf.iv c0_i32_78 c1_i32_80 k1_t15
  let c16_i32_112 : BitVec 32 := 16#32
  let v246 : BitVec 32 := Scalar.muli arg16 c16_i32_112
  let v248 : Index := Scalar.indexCast v246
  ![20, v248.toNat]
def k1_off330 (k1_t15 : Fin k1_t15_loop.trips) : Fin 2 → Nat :=
  let c21_i32 : BitVec 32 := 21#32
  let v251 : Index := Scalar.indexCast c21_i32
  let c0_i32_78 : BitVec 32 := 0#32
  let c1_i32_80 : BitVec 32 := 1#32
  let arg16 : BitVec 32 := Scf.iv c0_i32_78 c1_i32_80 k1_t15
  let c16_i32_113 : BitVec 32 := 16#32
  let v250 : BitVec 32 := Scalar.muli arg16 c16_i32_113
  let v252 : Index := Scalar.indexCast v250
  ![21, v252.toNat]
def k1_off331 (k1_t15 : Fin k1_t15_loop.trips) : Fin 2 → Nat :=
  let c22_i32 : BitVec 32 := 22#32
  let v255 : Index := Scalar.indexCast c22_i32
  let c0_i32_78 : BitVec 32 := 0#32
  let c1_i32_80 : BitVec 32 := 1#32
  let arg16 : BitVec 32 := Scf.iv c0_i32_78 c1_i32_80 k1_t15
  let c16_i32_114 : BitVec 32 := 16#32
  let v254 : BitVec 32 := Scalar.muli arg16 c16_i32_114
  let v256 : Index := Scalar.indexCast v254
  ![22, v256.toNat]
def k1_off332 (k1_t15 : Fin k1_t15_loop.trips) : Fin 2 → Nat :=
  let c23_i32 : BitVec 32 := 23#32
  let v259 : Index := Scalar.indexCast c23_i32
  let c0_i32_78 : BitVec 32 := 0#32
  let c1_i32_80 : BitVec 32 := 1#32
  let arg16 : BitVec 32 := Scf.iv c0_i32_78 c1_i32_80 k1_t15
  let c16_i32_115 : BitVec 32 := 16#32
  let v258 : BitVec 32 := Scalar.muli arg16 c16_i32_115
  let v260 : Index := Scalar.indexCast v258
  ![23, v260.toNat]
def k1_off333 (k1_t15 : Fin k1_t15_loop.trips) : Fin 2 → Nat :=
  let c24_i32 : BitVec 32 := 24#32
  let v263 : Index := Scalar.indexCast c24_i32
  let c0_i32_78 : BitVec 32 := 0#32
  let c1_i32_80 : BitVec 32 := 1#32
  let arg16 : BitVec 32 := Scf.iv c0_i32_78 c1_i32_80 k1_t15
  let c16_i32_116 : BitVec 32 := 16#32
  let v262 : BitVec 32 := Scalar.muli arg16 c16_i32_116
  let v264 : Index := Scalar.indexCast v262
  ![24, v264.toNat]
def k1_off334 (k1_t15 : Fin k1_t15_loop.trips) : Fin 2 → Nat :=
  let c25_i32 : BitVec 32 := 25#32
  let v267 : Index := Scalar.indexCast c25_i32
  let c0_i32_78 : BitVec 32 := 0#32
  let c1_i32_80 : BitVec 32 := 1#32
  let arg16 : BitVec 32 := Scf.iv c0_i32_78 c1_i32_80 k1_t15
  let c16_i32_117 : BitVec 32 := 16#32
  let v266 : BitVec 32 := Scalar.muli arg16 c16_i32_117
  let v268 : Index := Scalar.indexCast v266
  ![25, v268.toNat]
def k1_off335 (k1_t15 : Fin k1_t15_loop.trips) : Fin 2 → Nat :=
  let c26_i32 : BitVec 32 := 26#32
  let v271 : Index := Scalar.indexCast c26_i32
  let c0_i32_78 : BitVec 32 := 0#32
  let c1_i32_80 : BitVec 32 := 1#32
  let arg16 : BitVec 32 := Scf.iv c0_i32_78 c1_i32_80 k1_t15
  let c16_i32_118 : BitVec 32 := 16#32
  let v270 : BitVec 32 := Scalar.muli arg16 c16_i32_118
  let v272 : Index := Scalar.indexCast v270
  ![26, v272.toNat]
def k1_off336 (k1_t15 : Fin k1_t15_loop.trips) : Fin 2 → Nat :=
  let c27_i32 : BitVec 32 := 27#32
  let v275 : Index := Scalar.indexCast c27_i32
  let c0_i32_78 : BitVec 32 := 0#32
  let c1_i32_80 : BitVec 32 := 1#32
  let arg16 : BitVec 32 := Scf.iv c0_i32_78 c1_i32_80 k1_t15
  let c16_i32_119 : BitVec 32 := 16#32
  let v274 : BitVec 32 := Scalar.muli arg16 c16_i32_119
  let v276 : Index := Scalar.indexCast v274
  ![27, v276.toNat]
def k1_off337 (k1_t15 : Fin k1_t15_loop.trips) : Fin 2 → Nat :=
  let c28_i32 : BitVec 32 := 28#32
  let v279 : Index := Scalar.indexCast c28_i32
  let c0_i32_78 : BitVec 32 := 0#32
  let c1_i32_80 : BitVec 32 := 1#32
  let arg16 : BitVec 32 := Scf.iv c0_i32_78 c1_i32_80 k1_t15
  let c16_i32_120 : BitVec 32 := 16#32
  let v278 : BitVec 32 := Scalar.muli arg16 c16_i32_120
  let v280 : Index := Scalar.indexCast v278
  ![28, v280.toNat]
def k1_off338 (k1_t15 : Fin k1_t15_loop.trips) : Fin 2 → Nat :=
  let c29_i32 : BitVec 32 := 29#32
  let v283 : Index := Scalar.indexCast c29_i32
  let c0_i32_78 : BitVec 32 := 0#32
  let c1_i32_80 : BitVec 32 := 1#32
  let arg16 : BitVec 32 := Scf.iv c0_i32_78 c1_i32_80 k1_t15
  let c16_i32_121 : BitVec 32 := 16#32
  let v282 : BitVec 32 := Scalar.muli arg16 c16_i32_121
  let v284 : Index := Scalar.indexCast v282
  ![29, v284.toNat]
def k1_off339 (k1_t15 : Fin k1_t15_loop.trips) : Fin 2 → Nat :=
  let c30_i32 : BitVec 32 := 30#32
  let v287 : Index := Scalar.indexCast c30_i32
  let c0_i32_78 : BitVec 32 := 0#32
  let c1_i32_80 : BitVec 32 := 1#32
  let arg16 : BitVec 32 := Scf.iv c0_i32_78 c1_i32_80 k1_t15
  let c16_i32_122 : BitVec 32 := 16#32
  let v286 : BitVec 32 := Scalar.muli arg16 c16_i32_122
  let v288 : Index := Scalar.indexCast v286
  ![30, v288.toNat]
def k1_off340 (k1_t15 : Fin k1_t15_loop.trips) : Fin 2 → Nat :=
  let c31_i32 : BitVec 32 := 31#32
  let v291 : Index := Scalar.indexCast c31_i32
  let c0_i32_78 : BitVec 32 := 0#32
  let c1_i32_80 : BitVec 32 := 1#32
  let arg16 : BitVec 32 := Scf.iv c0_i32_78 c1_i32_80 k1_t15
  let c16_i32_123 : BitVec 32 := 16#32
  let v290 : BitVec 32 := Scalar.muli arg16 c16_i32_123
  let v292 : Index := Scalar.indexCast v290
  ![31, v292.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x200_S200x16384_1_0 : S16384x200.Transposes [1, 0] S200x16384
  inb_S1000x32_S1000x32_0_0 : ∀ a, (![0, 0] : Fin 2 → Nat) a + S1000x32.size a ≤ S1000x32.size a
  h_S1000x32 : 0 < S1000x32.numel
  transposes_S1000x32_p1_0_S32x1000 : S1000x32.Transposes [1, 0] S32x1000
  inb_S32x1000_S32x1000_0_0 : ∀ a, (![0, 0] : Fin 2 → Nat) a + S32x1000.size a ≤ S32x1000.size a
  h_S32x1000 : 0 < S32x1000.numel
  shapeCasts_S32x1000_S32000 : S32x1000.ShapeCasts S32000
  inb_S200x16384_S40x512_0_0 : ∀ a, (![0, 0] : Fin 2 → Nat) a + S40x512.size a ≤ S200x16384.size a
  inb_S200x32x16384_S1x32x256_0_0_0 : ∀ a, (![0, 0, 0] : Fin 3 → Nat) a + S1x32x256.size a ≤ S200x32x16384.size a
  squeezes_S1x32x256_S32x256 : S1x32x256.Squeezes S32x256
  h_S1x16 : 0 < S1x16.numel
  shapeCasts_S1x16_S16 : S1x16.ShapeCasts S16
  h_S32000 : 0 < S32000.numel
  shapeCasts_S16_S1x16 : S16.ShapeCasts S1x16
  transposes_S200x32x16384_S16384x200x32_2_0_1 : S200x32x16384.Transposes [2, 0, 1] S16384x200x32
  hcc1_scratch5 : 2 + S_.numel ≤ 7
  hcc1_scratch6 : 3 + S_.numel ≤ 7
  hcc1_scratch7 : 4 + S_.numel ≤ 7
  hcc1_scratch8 : 5 + S_.numel ≤ 7
  hcc1_scoped0 : 6 + S_.numel ≤ 7
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hcore1 : grid1.bound 0 ≤ τ.nSC
  hsub1 : grid1.bound 1 ≤ τ.nSub
  k1_off1_inb : ∀ i : grid1.Coords, ∀ a, (k1_off1 i) a + S40x512.size a ≤ S200x16384.size a
  k1_off2_inb : ∀ i : grid1.Coords, ∀ a, (k1_off2 i) a + S40x512.size a ≤ S200x16384.size a
  k1_t1_ok : k1_t1_loop.OK
  k1_t2_ok : k1_t2_loop.OK
  k1_mult1_dvd : ∀ k1_t2 : Fin k1_t2_loop.trips, 16 ∣ (k1_mult1 k1_t2).toNat
  k1_off3_inb : ∀ (k1_t1 : Fin k1_t1_loop.trips) (k1_t2 : Fin k1_t2_loop.trips), ∀ a, (k1_off3 k1_t1 k1_t2) a + S1x16.size a ≤ S40x512.size a
  k1_off4_inb : ∀ k1_t2 : Fin k1_t2_loop.trips, ∀ a, (k1_off4 k1_t2) a + S1x16.size a ≤ S32x256.size a
  k1_off5_inb : ∀ k1_t2 : Fin k1_t2_loop.trips, ∀ a, (k1_off5 k1_t2) a + S1x16.size a ≤ S32x256.size a
  k1_off6_inb : ∀ k1_t2 : Fin k1_t2_loop.trips, ∀ a, (k1_off6 k1_t2) a + S1x16.size a ≤ S32x256.size a
  k1_off7_inb : ∀ k1_t2 : Fin k1_t2_loop.trips, ∀ a, (k1_off7 k1_t2) a + S1x16.size a ≤ S32x256.size a
  k1_off8_inb : ∀ k1_t2 : Fin k1_t2_loop.trips, ∀ a, (k1_off8 k1_t2) a + S1x16.size a ≤ S32x256.size a
  k1_off9_inb : ∀ k1_t2 : Fin k1_t2_loop.trips, ∀ a, (k1_off9 k1_t2) a + S1x16.size a ≤ S32x256.size a
  k1_off10_inb : ∀ k1_t2 : Fin k1_t2_loop.trips, ∀ a, (k1_off10 k1_t2) a + S1x16.size a ≤ S32x256.size a
  k1_off11_inb : ∀ k1_t2 : Fin k1_t2_loop.trips, ∀ a, (k1_off11 k1_t2) a + S1x16.size a ≤ S32x256.size a
  k1_off12_inb : ∀ k1_t2 : Fin k1_t2_loop.trips, ∀ a, (k1_off12 k1_t2) a + S1x16.size a ≤ S32x256.size a
  k1_off13_inb : ∀ k1_t2 : Fin k1_t2_loop.trips, ∀ a, (k1_off13 k1_t2) a + S1x16.size a ≤ S32x256.size a
  k1_off14_inb : ∀ k1_t2 : Fin k1_t2_loop.trips, ∀ a, (k1_off14 k1_t2) a + S1x16.size a ≤ S32x256.size a
  k1_off15_inb : ∀ k1_t2 : Fin k1_t2_loop.trips, ∀ a, (k1_off15 k1_t2) a + S1x16.size a ≤ S32x256.size a
  k1_off16_inb : ∀ k1_t2 : Fin k1_t2_loop.trips, ∀ a, (k1_off16 k1_t2) a + S1x16.size a ≤ S32x256.size a
  k1_off17_inb : ∀ k1_t2 : Fin k1_t2_loop.trips, ∀ a, (k1_off17 k1_t2) a + S1x16.size a ≤ S32x256.size a
  k1_off18_inb : ∀ k1_t2 : Fin k1_t2_loop.trips, ∀ a, (k1_off18 k1_t2) a + S1x16.size a ≤ S32x256.size a
  k1_off19_inb : ∀ k1_t2 : Fin k1_t2_loop.trips, ∀ a, (k1_off19 k1_t2) a + S1x16.size a ≤ S32x256.size a
  k1_off20_inb : ∀ k1_t2 : Fin k1_t2_loop.trips, ∀ a, (k1_off20 k1_t2) a + S1x16.size a ≤ S32x256.size a
  k1_off21_inb : ∀ k1_t2 : Fin k1_t2_loop.trips, ∀ a, (k1_off21 k1_t2) a + S1x16.size a ≤ S32x256.size a
  k1_off22_inb : ∀ k1_t2 : Fin k1_t2_loop.trips, ∀ a, (k1_off22 k1_t2) a + S1x16.size a ≤ S32x256.size a
  k1_off23_inb : ∀ k1_t2 : Fin k1_t2_loop.trips, ∀ a, (k1_off23 k1_t2) a + S1x16.size a ≤ S32x256.size a
  k1_off24_inb : ∀ k1_t2 : Fin k1_t2_loop.trips, ∀ a, (k1_off24 k1_t2) a + S1x16.size a ≤ S32x256.size a
  k1_off25_inb : ∀ k1_t2 : Fin k1_t2_loop.trips, ∀ a, (k1_off25 k1_t2) a + S1x16.size a ≤ S32x256.size a
  k1_off26_inb : ∀ k1_t2 : Fin k1_t2_loop.trips, ∀ a, (k1_off26 k1_t2) a + S1x16.size a ≤ S32x256.size a
  k1_off27_inb : ∀ k1_t2 : Fin k1_t2_loop.trips, ∀ a, (k1_off27 k1_t2) a + S1x16.size a ≤ S32x256.size a
  k1_off28_inb : ∀ k1_t2 : Fin k1_t2_loop.trips, ∀ a, (k1_off28 k1_t2) a + S1x16.size a ≤ S32x256.size a
  k1_off29_inb : ∀ k1_t2 : Fin k1_t2_loop.trips, ∀ a, (k1_off29 k1_t2) a + S1x16.size a ≤ S32x256.size a
  k1_off30_inb : ∀ k1_t2 : Fin k1_t2_loop.trips, ∀ a, (k1_off30 k1_t2) a + S1x16.size a ≤ S32x256.size a
  k1_off31_inb : ∀ k1_t2 : Fin k1_t2_loop.trips, ∀ a, (k1_off31 k1_t2) a + S1x16.size a ≤ S32x256.size a
  k1_off32_inb : ∀ k1_t2 : Fin k1_t2_loop.trips, ∀ a, (k1_off32 k1_t2) a + S1x16.size a ≤ S32x256.size a
  k1_off33_inb : ∀ k1_t2 : Fin k1_t2_loop.trips, ∀ a, (k1_off33 k1_t2) a + S1x16.size a ≤ S32x256.size a
  k1_off34_inb : ∀ k1_t2 : Fin k1_t2_loop.trips, ∀ a, (k1_off34 k1_t2) a + S1x16.size a ≤ S32x256.size a
  k1_off35_inb : ∀ k1_t2 : Fin k1_t2_loop.trips, ∀ a, (k1_off35 k1_t2) a + S1x16.size a ≤ S32x256.size a
  k1_off36_inb : ∀ (i : grid1.Coords) (k1_t1 : Fin k1_t1_loop.trips), ∀ (r : Fin 2), ∀ a, (k1_off36 i k1_t1 (BitVec.ofNat 32 (256 * r.val))) a + S1x32x256.size a ≤ S200x32x16384.size a
  k1_t3_ok : k1_t3_loop.OK
  k1_mult2_dvd : ∀ k1_t3 : Fin k1_t3_loop.trips, 16 ∣ (k1_mult2 k1_t3).toNat
  k1_off37_inb : ∀ (k1_t1 : Fin k1_t1_loop.trips) (k1_t3 : Fin k1_t3_loop.trips), ∀ a, (k1_off37 k1_t1 k1_t3) a + S1x16.size a ≤ S40x512.size a
  k1_off38_inb : ∀ k1_t3 : Fin k1_t3_loop.trips, ∀ a, (k1_off38 k1_t3) a + S1x16.size a ≤ S32x256.size a
  k1_off39_inb : ∀ k1_t3 : Fin k1_t3_loop.trips, ∀ a, (k1_off39 k1_t3) a + S1x16.size a ≤ S32x256.size a
  k1_off40_inb : ∀ k1_t3 : Fin k1_t3_loop.trips, ∀ a, (k1_off40 k1_t3) a + S1x16.size a ≤ S32x256.size a
  k1_off41_inb : ∀ k1_t3 : Fin k1_t3_loop.trips, ∀ a, (k1_off41 k1_t3) a + S1x16.size a ≤ S32x256.size a
  k1_off42_inb : ∀ k1_t3 : Fin k1_t3_loop.trips, ∀ a, (k1_off42 k1_t3) a + S1x16.size a ≤ S32x256.size a
  k1_off43_inb : ∀ k1_t3 : Fin k1_t3_loop.trips, ∀ a, (k1_off43 k1_t3) a + S1x16.size a ≤ S32x256.size a
  k1_off44_inb : ∀ k1_t3 : Fin k1_t3_loop.trips, ∀ a, (k1_off44 k1_t3) a + S1x16.size a ≤ S32x256.size a
  k1_off45_inb : ∀ k1_t3 : Fin k1_t3_loop.trips, ∀ a, (k1_off45 k1_t3) a + S1x16.size a ≤ S32x256.size a
  k1_off46_inb : ∀ k1_t3 : Fin k1_t3_loop.trips, ∀ a, (k1_off46 k1_t3) a + S1x16.size a ≤ S32x256.size a
  k1_off47_inb : ∀ k1_t3 : Fin k1_t3_loop.trips, ∀ a, (k1_off47 k1_t3) a + S1x16.size a ≤ S32x256.size a
  k1_off48_inb : ∀ k1_t3 : Fin k1_t3_loop.trips, ∀ a, (k1_off48 k1_t3) a + S1x16.size a ≤ S32x256.size a
  k1_off49_inb : ∀ k1_t3 : Fin k1_t3_loop.trips, ∀ a, (k1_off49 k1_t3) a + S1x16.size a ≤ S32x256.size a
  k1_off50_inb : ∀ k1_t3 : Fin k1_t3_loop.trips, ∀ a, (k1_off50 k1_t3) a + S1x16.size a ≤ S32x256.size a
  k1_off51_inb : ∀ k1_t3 : Fin k1_t3_loop.trips, ∀ a, (k1_off51 k1_t3) a + S1x16.size a ≤ S32x256.size a
  k1_off52_inb : ∀ k1_t3 : Fin k1_t3_loop.trips, ∀ a, (k1_off52 k1_t3) a + S1x16.size a ≤ S32x256.size a
  k1_off53_inb : ∀ k1_t3 : Fin k1_t3_loop.trips, ∀ a, (k1_off53 k1_t3) a + S1x16.size a ≤ S32x256.size a
  k1_off54_inb : ∀ k1_t3 : Fin k1_t3_loop.trips, ∀ a, (k1_off54 k1_t3) a + S1x16.size a ≤ S32x256.size a
  k1_off55_inb : ∀ k1_t3 : Fin k1_t3_loop.trips, ∀ a, (k1_off55 k1_t3) a + S1x16.size a ≤ S32x256.size a
  k1_off56_inb : ∀ k1_t3 : Fin k1_t3_loop.trips, ∀ a, (k1_off56 k1_t3) a + S1x16.size a ≤ S32x256.size a
  k1_off57_inb : ∀ k1_t3 : Fin k1_t3_loop.trips, ∀ a, (k1_off57 k1_t3) a + S1x16.size a ≤ S32x256.size a
  k1_off58_inb : ∀ k1_t3 : Fin k1_t3_loop.trips, ∀ a, (k1_off58 k1_t3) a + S1x16.size a ≤ S32x256.size a
  k1_off59_inb : ∀ k1_t3 : Fin k1_t3_loop.trips, ∀ a, (k1_off59 k1_t3) a + S1x16.size a ≤ S32x256.size a
  k1_off60_inb : ∀ k1_t3 : Fin k1_t3_loop.trips, ∀ a, (k1_off60 k1_t3) a + S1x16.size a ≤ S32x256.size a
  k1_off61_inb : ∀ k1_t3 : Fin k1_t3_loop.trips, ∀ a, (k1_off61 k1_t3) a + S1x16.size a ≤ S32x256.size a
  k1_off62_inb : ∀ k1_t3 : Fin k1_t3_loop.trips, ∀ a, (k1_off62 k1_t3) a + S1x16.size a ≤ S32x256.size a
  k1_off63_inb : ∀ k1_t3 : Fin k1_t3_loop.trips, ∀ a, (k1_off63 k1_t3) a + S1x16.size a ≤ S32x256.size a
  k1_off64_inb : ∀ k1_t3 : Fin k1_t3_loop.trips, ∀ a, (k1_off64 k1_t3) a + S1x16.size a ≤ S32x256.size a
  k1_off65_inb : ∀ k1_t3 : Fin k1_t3_loop.trips, ∀ a, (k1_off65 k1_t3) a + S1x16.size a ≤ S32x256.size a
  k1_off66_inb : ∀ k1_t3 : Fin k1_t3_loop.trips, ∀ a, (k1_off66 k1_t3) a + S1x16.size a ≤ S32x256.size a
  k1_off67_inb : ∀ k1_t3 : Fin k1_t3_loop.trips, ∀ a, (k1_off67 k1_t3) a + S1x16.size a ≤ S32x256.size a
  k1_off68_inb : ∀ k1_t3 : Fin k1_t3_loop.trips, ∀ a, (k1_off68 k1_t3) a + S1x16.size a ≤ S32x256.size a
  k1_off69_inb : ∀ k1_t3 : Fin k1_t3_loop.trips, ∀ a, (k1_off69 k1_t3) a + S1x16.size a ≤ S32x256.size a
  k1_off70_inb : ∀ i : grid1.Coords, ∀ a, (k1_off70 i) a + S40x512.size a ≤ S200x16384.size a
  k1_t4_ok : k1_t4_loop.OK
  k1_t5_ok : k1_t5_loop.OK
  k1_mult3_dvd : ∀ k1_t5 : Fin k1_t5_loop.trips, 16 ∣ (k1_mult3 k1_t5).toNat
  k1_off71_inb : ∀ (k1_t4 : Fin k1_t4_loop.trips) (k1_t5 : Fin k1_t5_loop.trips), ∀ a, (k1_off71 k1_t4 k1_t5) a + S1x16.size a ≤ S40x512.size a
  k1_off72_inb : ∀ k1_t5 : Fin k1_t5_loop.trips, ∀ a, (k1_off72 k1_t5) a + S1x16.size a ≤ S32x256.size a
  k1_off73_inb : ∀ k1_t5 : Fin k1_t5_loop.trips, ∀ a, (k1_off73 k1_t5) a + S1x16.size a ≤ S32x256.size a
  k1_off74_inb : ∀ k1_t5 : Fin k1_t5_loop.trips, ∀ a, (k1_off74 k1_t5) a + S1x16.size a ≤ S32x256.size a
  k1_off75_inb : ∀ k1_t5 : Fin k1_t5_loop.trips, ∀ a, (k1_off75 k1_t5) a + S1x16.size a ≤ S32x256.size a
  k1_off76_inb : ∀ k1_t5 : Fin k1_t5_loop.trips, ∀ a, (k1_off76 k1_t5) a + S1x16.size a ≤ S32x256.size a
  k1_off77_inb : ∀ k1_t5 : Fin k1_t5_loop.trips, ∀ a, (k1_off77 k1_t5) a + S1x16.size a ≤ S32x256.size a
  k1_off78_inb : ∀ k1_t5 : Fin k1_t5_loop.trips, ∀ a, (k1_off78 k1_t5) a + S1x16.size a ≤ S32x256.size a
  k1_off79_inb : ∀ k1_t5 : Fin k1_t5_loop.trips, ∀ a, (k1_off79 k1_t5) a + S1x16.size a ≤ S32x256.size a
  k1_off80_inb : ∀ k1_t5 : Fin k1_t5_loop.trips, ∀ a, (k1_off80 k1_t5) a + S1x16.size a ≤ S32x256.size a
  k1_off81_inb : ∀ k1_t5 : Fin k1_t5_loop.trips, ∀ a, (k1_off81 k1_t5) a + S1x16.size a ≤ S32x256.size a
  k1_off82_inb : ∀ k1_t5 : Fin k1_t5_loop.trips, ∀ a, (k1_off82 k1_t5) a + S1x16.size a ≤ S32x256.size a
  k1_off83_inb : ∀ k1_t5 : Fin k1_t5_loop.trips, ∀ a, (k1_off83 k1_t5) a + S1x16.size a ≤ S32x256.size a
  k1_off84_inb : ∀ k1_t5 : Fin k1_t5_loop.trips, ∀ a, (k1_off84 k1_t5) a + S1x16.size a ≤ S32x256.size a
  k1_off85_inb : ∀ k1_t5 : Fin k1_t5_loop.trips, ∀ a, (k1_off85 k1_t5) a + S1x16.size a ≤ S32x256.size a
  k1_off86_inb : ∀ k1_t5 : Fin k1_t5_loop.trips, ∀ a, (k1_off86 k1_t5) a + S1x16.size a ≤ S32x256.size a
  k1_off87_inb : ∀ k1_t5 : Fin k1_t5_loop.trips, ∀ a, (k1_off87 k1_t5) a + S1x16.size a ≤ S32x256.size a
  k1_off88_inb : ∀ k1_t5 : Fin k1_t5_loop.trips, ∀ a, (k1_off88 k1_t5) a + S1x16.size a ≤ S32x256.size a
  k1_off89_inb : ∀ k1_t5 : Fin k1_t5_loop.trips, ∀ a, (k1_off89 k1_t5) a + S1x16.size a ≤ S32x256.size a
  k1_off90_inb : ∀ k1_t5 : Fin k1_t5_loop.trips, ∀ a, (k1_off90 k1_t5) a + S1x16.size a ≤ S32x256.size a
  k1_off91_inb : ∀ k1_t5 : Fin k1_t5_loop.trips, ∀ a, (k1_off91 k1_t5) a + S1x16.size a ≤ S32x256.size a
  k1_off92_inb : ∀ k1_t5 : Fin k1_t5_loop.trips, ∀ a, (k1_off92 k1_t5) a + S1x16.size a ≤ S32x256.size a
  k1_off93_inb : ∀ k1_t5 : Fin k1_t5_loop.trips, ∀ a, (k1_off93 k1_t5) a + S1x16.size a ≤ S32x256.size a
  k1_off94_inb : ∀ k1_t5 : Fin k1_t5_loop.trips, ∀ a, (k1_off94 k1_t5) a + S1x16.size a ≤ S32x256.size a
  k1_off95_inb : ∀ k1_t5 : Fin k1_t5_loop.trips, ∀ a, (k1_off95 k1_t5) a + S1x16.size a ≤ S32x256.size a
  k1_off96_inb : ∀ k1_t5 : Fin k1_t5_loop.trips, ∀ a, (k1_off96 k1_t5) a + S1x16.size a ≤ S32x256.size a
  k1_off97_inb : ∀ k1_t5 : Fin k1_t5_loop.trips, ∀ a, (k1_off97 k1_t5) a + S1x16.size a ≤ S32x256.size a
  k1_off98_inb : ∀ k1_t5 : Fin k1_t5_loop.trips, ∀ a, (k1_off98 k1_t5) a + S1x16.size a ≤ S32x256.size a
  k1_off99_inb : ∀ k1_t5 : Fin k1_t5_loop.trips, ∀ a, (k1_off99 k1_t5) a + S1x16.size a ≤ S32x256.size a
  k1_off100_inb : ∀ k1_t5 : Fin k1_t5_loop.trips, ∀ a, (k1_off100 k1_t5) a + S1x16.size a ≤ S32x256.size a
  k1_off101_inb : ∀ k1_t5 : Fin k1_t5_loop.trips, ∀ a, (k1_off101 k1_t5) a + S1x16.size a ≤ S32x256.size a
  k1_off102_inb : ∀ k1_t5 : Fin k1_t5_loop.trips, ∀ a, (k1_off102 k1_t5) a + S1x16.size a ≤ S32x256.size a
  k1_off103_inb : ∀ k1_t5 : Fin k1_t5_loop.trips, ∀ a, (k1_off103 k1_t5) a + S1x16.size a ≤ S32x256.size a
  k1_off104_inb : ∀ (i : grid1.Coords) (k1_t4 : Fin k1_t4_loop.trips), ∀ (r : Fin 2), ∀ a, (k1_off104 i k1_t4 (BitVec.ofNat 32 (256 * r.val))) a + S1x32x256.size a ≤ S200x32x16384.size a
  k1_t6_ok : k1_t6_loop.OK
  k1_mult4_dvd : ∀ k1_t6 : Fin k1_t6_loop.trips, 16 ∣ (k1_mult4 k1_t6).toNat
  k1_off105_inb : ∀ (k1_t4 : Fin k1_t4_loop.trips) (k1_t6 : Fin k1_t6_loop.trips), ∀ a, (k1_off105 k1_t4 k1_t6) a + S1x16.size a ≤ S40x512.size a
  k1_off106_inb : ∀ k1_t6 : Fin k1_t6_loop.trips, ∀ a, (k1_off106 k1_t6) a + S1x16.size a ≤ S32x256.size a
  k1_off107_inb : ∀ k1_t6 : Fin k1_t6_loop.trips, ∀ a, (k1_off107 k1_t6) a + S1x16.size a ≤ S32x256.size a
  k1_off108_inb : ∀ k1_t6 : Fin k1_t6_loop.trips, ∀ a, (k1_off108 k1_t6) a + S1x16.size a ≤ S32x256.size a
  k1_off109_inb : ∀ k1_t6 : Fin k1_t6_loop.trips, ∀ a, (k1_off109 k1_t6) a + S1x16.size a ≤ S32x256.size a
  k1_off110_inb : ∀ k1_t6 : Fin k1_t6_loop.trips, ∀ a, (k1_off110 k1_t6) a + S1x16.size a ≤ S32x256.size a
  k1_off111_inb : ∀ k1_t6 : Fin k1_t6_loop.trips, ∀ a, (k1_off111 k1_t6) a + S1x16.size a ≤ S32x256.size a
  k1_off112_inb : ∀ k1_t6 : Fin k1_t6_loop.trips, ∀ a, (k1_off112 k1_t6) a + S1x16.size a ≤ S32x256.size a
  k1_off113_inb : ∀ k1_t6 : Fin k1_t6_loop.trips, ∀ a, (k1_off113 k1_t6) a + S1x16.size a ≤ S32x256.size a
  k1_off114_inb : ∀ k1_t6 : Fin k1_t6_loop.trips, ∀ a, (k1_off114 k1_t6) a + S1x16.size a ≤ S32x256.size a
  k1_off115_inb : ∀ k1_t6 : Fin k1_t6_loop.trips, ∀ a, (k1_off115 k1_t6) a + S1x16.size a ≤ S32x256.size a
  k1_off116_inb : ∀ k1_t6 : Fin k1_t6_loop.trips, ∀ a, (k1_off116 k1_t6) a + S1x16.size a ≤ S32x256.size a
  k1_off117_inb : ∀ k1_t6 : Fin k1_t6_loop.trips, ∀ a, (k1_off117 k1_t6) a + S1x16.size a ≤ S32x256.size a
  k1_off118_inb : ∀ k1_t6 : Fin k1_t6_loop.trips, ∀ a, (k1_off118 k1_t6) a + S1x16.size a ≤ S32x256.size a
  k1_off119_inb : ∀ k1_t6 : Fin k1_t6_loop.trips, ∀ a, (k1_off119 k1_t6) a + S1x16.size a ≤ S32x256.size a
  k1_off120_inb : ∀ k1_t6 : Fin k1_t6_loop.trips, ∀ a, (k1_off120 k1_t6) a + S1x16.size a ≤ S32x256.size a
  k1_off121_inb : ∀ k1_t6 : Fin k1_t6_loop.trips, ∀ a, (k1_off121 k1_t6) a + S1x16.size a ≤ S32x256.size a
  k1_off122_inb : ∀ k1_t6 : Fin k1_t6_loop.trips, ∀ a, (k1_off122 k1_t6) a + S1x16.size a ≤ S32x256.size a
  k1_off123_inb : ∀ k1_t6 : Fin k1_t6_loop.trips, ∀ a, (k1_off123 k1_t6) a + S1x16.size a ≤ S32x256.size a
  k1_off124_inb : ∀ k1_t6 : Fin k1_t6_loop.trips, ∀ a, (k1_off124 k1_t6) a + S1x16.size a ≤ S32x256.size a
  k1_off125_inb : ∀ k1_t6 : Fin k1_t6_loop.trips, ∀ a, (k1_off125 k1_t6) a + S1x16.size a ≤ S32x256.size a
  k1_off126_inb : ∀ k1_t6 : Fin k1_t6_loop.trips, ∀ a, (k1_off126 k1_t6) a + S1x16.size a ≤ S32x256.size a
  k1_off127_inb : ∀ k1_t6 : Fin k1_t6_loop.trips, ∀ a, (k1_off127 k1_t6) a + S1x16.size a ≤ S32x256.size a
  k1_off128_inb : ∀ k1_t6 : Fin k1_t6_loop.trips, ∀ a, (k1_off128 k1_t6) a + S1x16.size a ≤ S32x256.size a
  k1_off129_inb : ∀ k1_t6 : Fin k1_t6_loop.trips, ∀ a, (k1_off129 k1_t6) a + S1x16.size a ≤ S32x256.size a
  k1_off130_inb : ∀ k1_t6 : Fin k1_t6_loop.trips, ∀ a, (k1_off130 k1_t6) a + S1x16.size a ≤ S32x256.size a
  k1_off131_inb : ∀ k1_t6 : Fin k1_t6_loop.trips, ∀ a, (k1_off131 k1_t6) a + S1x16.size a ≤ S32x256.size a
  k1_off132_inb : ∀ k1_t6 : Fin k1_t6_loop.trips, ∀ a, (k1_off132 k1_t6) a + S1x16.size a ≤ S32x256.size a
  k1_off133_inb : ∀ k1_t6 : Fin k1_t6_loop.trips, ∀ a, (k1_off133 k1_t6) a + S1x16.size a ≤ S32x256.size a
  k1_off134_inb : ∀ k1_t6 : Fin k1_t6_loop.trips, ∀ a, (k1_off134 k1_t6) a + S1x16.size a ≤ S32x256.size a
  k1_off135_inb : ∀ k1_t6 : Fin k1_t6_loop.trips, ∀ a, (k1_off135 k1_t6) a + S1x16.size a ≤ S32x256.size a
  k1_off136_inb : ∀ k1_t6 : Fin k1_t6_loop.trips, ∀ a, (k1_off136 k1_t6) a + S1x16.size a ≤ S32x256.size a
  k1_off137_inb : ∀ k1_t6 : Fin k1_t6_loop.trips, ∀ a, (k1_off137 k1_t6) a + S1x16.size a ≤ S32x256.size a
  k1_off138_inb : ∀ i : grid1.Coords, ∀ a, (k1_off138 i) a + S40x512.size a ≤ S200x16384.size a
  k1_t7_ok : k1_t7_loop.OK
  k1_t8_ok : k1_t8_loop.OK
  k1_mult5_dvd : ∀ k1_t8 : Fin k1_t8_loop.trips, 16 ∣ (k1_mult5 k1_t8).toNat
  k1_off139_inb : ∀ (k1_t7 : Fin k1_t7_loop.trips) (k1_t8 : Fin k1_t8_loop.trips), ∀ a, (k1_off139 k1_t7 k1_t8) a + S1x16.size a ≤ S40x512.size a
  k1_off140_inb : ∀ k1_t8 : Fin k1_t8_loop.trips, ∀ a, (k1_off140 k1_t8) a + S1x16.size a ≤ S32x256.size a
  k1_off141_inb : ∀ k1_t8 : Fin k1_t8_loop.trips, ∀ a, (k1_off141 k1_t8) a + S1x16.size a ≤ S32x256.size a
  k1_off142_inb : ∀ k1_t8 : Fin k1_t8_loop.trips, ∀ a, (k1_off142 k1_t8) a + S1x16.size a ≤ S32x256.size a
  k1_off143_inb : ∀ k1_t8 : Fin k1_t8_loop.trips, ∀ a, (k1_off143 k1_t8) a + S1x16.size a ≤ S32x256.size a
  k1_off144_inb : ∀ k1_t8 : Fin k1_t8_loop.trips, ∀ a, (k1_off144 k1_t8) a + S1x16.size a ≤ S32x256.size a
  k1_off145_inb : ∀ k1_t8 : Fin k1_t8_loop.trips, ∀ a, (k1_off145 k1_t8) a + S1x16.size a ≤ S32x256.size a
  k1_off146_inb : ∀ k1_t8 : Fin k1_t8_loop.trips, ∀ a, (k1_off146 k1_t8) a + S1x16.size a ≤ S32x256.size a
  k1_off147_inb : ∀ k1_t8 : Fin k1_t8_loop.trips, ∀ a, (k1_off147 k1_t8) a + S1x16.size a ≤ S32x256.size a
  k1_off148_inb : ∀ k1_t8 : Fin k1_t8_loop.trips, ∀ a, (k1_off148 k1_t8) a + S1x16.size a ≤ S32x256.size a
  k1_off149_inb : ∀ k1_t8 : Fin k1_t8_loop.trips, ∀ a, (k1_off149 k1_t8) a + S1x16.size a ≤ S32x256.size a
  k1_off150_inb : ∀ k1_t8 : Fin k1_t8_loop.trips, ∀ a, (k1_off150 k1_t8) a + S1x16.size a ≤ S32x256.size a
  k1_off151_inb : ∀ k1_t8 : Fin k1_t8_loop.trips, ∀ a, (k1_off151 k1_t8) a + S1x16.size a ≤ S32x256.size a
  k1_off152_inb : ∀ k1_t8 : Fin k1_t8_loop.trips, ∀ a, (k1_off152 k1_t8) a + S1x16.size a ≤ S32x256.size a
  k1_off153_inb : ∀ k1_t8 : Fin k1_t8_loop.trips, ∀ a, (k1_off153 k1_t8) a + S1x16.size a ≤ S32x256.size a
  k1_off154_inb : ∀ k1_t8 : Fin k1_t8_loop.trips, ∀ a, (k1_off154 k1_t8) a + S1x16.size a ≤ S32x256.size a
  k1_off155_inb : ∀ k1_t8 : Fin k1_t8_loop.trips, ∀ a, (k1_off155 k1_t8) a + S1x16.size a ≤ S32x256.size a
  k1_off156_inb : ∀ k1_t8 : Fin k1_t8_loop.trips, ∀ a, (k1_off156 k1_t8) a + S1x16.size a ≤ S32x256.size a
  k1_off157_inb : ∀ k1_t8 : Fin k1_t8_loop.trips, ∀ a, (k1_off157 k1_t8) a + S1x16.size a ≤ S32x256.size a
  k1_off158_inb : ∀ k1_t8 : Fin k1_t8_loop.trips, ∀ a, (k1_off158 k1_t8) a + S1x16.size a ≤ S32x256.size a
  k1_off159_inb : ∀ k1_t8 : Fin k1_t8_loop.trips, ∀ a, (k1_off159 k1_t8) a + S1x16.size a ≤ S32x256.size a
  k1_off160_inb : ∀ k1_t8 : Fin k1_t8_loop.trips, ∀ a, (k1_off160 k1_t8) a + S1x16.size a ≤ S32x256.size a
  k1_off161_inb : ∀ k1_t8 : Fin k1_t8_loop.trips, ∀ a, (k1_off161 k1_t8) a + S1x16.size a ≤ S32x256.size a
  k1_off162_inb : ∀ k1_t8 : Fin k1_t8_loop.trips, ∀ a, (k1_off162 k1_t8) a + S1x16.size a ≤ S32x256.size a
  k1_off163_inb : ∀ k1_t8 : Fin k1_t8_loop.trips, ∀ a, (k1_off163 k1_t8) a + S1x16.size a ≤ S32x256.size a
  k1_off164_inb : ∀ k1_t8 : Fin k1_t8_loop.trips, ∀ a, (k1_off164 k1_t8) a + S1x16.size a ≤ S32x256.size a
  k1_off165_inb : ∀ k1_t8 : Fin k1_t8_loop.trips, ∀ a, (k1_off165 k1_t8) a + S1x16.size a ≤ S32x256.size a
  k1_off166_inb : ∀ k1_t8 : Fin k1_t8_loop.trips, ∀ a, (k1_off166 k1_t8) a + S1x16.size a ≤ S32x256.size a
  k1_off167_inb : ∀ k1_t8 : Fin k1_t8_loop.trips, ∀ a, (k1_off167 k1_t8) a + S1x16.size a ≤ S32x256.size a
  k1_off168_inb : ∀ k1_t8 : Fin k1_t8_loop.trips, ∀ a, (k1_off168 k1_t8) a + S1x16.size a ≤ S32x256.size a
  k1_off169_inb : ∀ k1_t8 : Fin k1_t8_loop.trips, ∀ a, (k1_off169 k1_t8) a + S1x16.size a ≤ S32x256.size a
  k1_off170_inb : ∀ k1_t8 : Fin k1_t8_loop.trips, ∀ a, (k1_off170 k1_t8) a + S1x16.size a ≤ S32x256.size a
  k1_off171_inb : ∀ k1_t8 : Fin k1_t8_loop.trips, ∀ a, (k1_off171 k1_t8) a + S1x16.size a ≤ S32x256.size a
  k1_off172_inb : ∀ (i : grid1.Coords) (k1_t7 : Fin k1_t7_loop.trips), ∀ (r : Fin 2), ∀ a, (k1_off172 i k1_t7 (BitVec.ofNat 32 (256 * r.val))) a + S1x32x256.size a ≤ S200x32x16384.size a
  k1_t9_ok : k1_t9_loop.OK
  k1_mult6_dvd : ∀ k1_t9 : Fin k1_t9_loop.trips, 16 ∣ (k1_mult6 k1_t9).toNat
  k1_off173_inb : ∀ (k1_t7 : Fin k1_t7_loop.trips) (k1_t9 : Fin k1_t9_loop.trips), ∀ a, (k1_off173 k1_t7 k1_t9) a + S1x16.size a ≤ S40x512.size a
  k1_off174_inb : ∀ k1_t9 : Fin k1_t9_loop.trips, ∀ a, (k1_off174 k1_t9) a + S1x16.size a ≤ S32x256.size a
  k1_off175_inb : ∀ k1_t9 : Fin k1_t9_loop.trips, ∀ a, (k1_off175 k1_t9) a + S1x16.size a ≤ S32x256.size a
  k1_off176_inb : ∀ k1_t9 : Fin k1_t9_loop.trips, ∀ a, (k1_off176 k1_t9) a + S1x16.size a ≤ S32x256.size a
  k1_off177_inb : ∀ k1_t9 : Fin k1_t9_loop.trips, ∀ a, (k1_off177 k1_t9) a + S1x16.size a ≤ S32x256.size a
  k1_off178_inb : ∀ k1_t9 : Fin k1_t9_loop.trips, ∀ a, (k1_off178 k1_t9) a + S1x16.size a ≤ S32x256.size a
  k1_off179_inb : ∀ k1_t9 : Fin k1_t9_loop.trips, ∀ a, (k1_off179 k1_t9) a + S1x16.size a ≤ S32x256.size a
  k1_off180_inb : ∀ k1_t9 : Fin k1_t9_loop.trips, ∀ a, (k1_off180 k1_t9) a + S1x16.size a ≤ S32x256.size a
  k1_off181_inb : ∀ k1_t9 : Fin k1_t9_loop.trips, ∀ a, (k1_off181 k1_t9) a + S1x16.size a ≤ S32x256.size a
  k1_off182_inb : ∀ k1_t9 : Fin k1_t9_loop.trips, ∀ a, (k1_off182 k1_t9) a + S1x16.size a ≤ S32x256.size a
  k1_off183_inb : ∀ k1_t9 : Fin k1_t9_loop.trips, ∀ a, (k1_off183 k1_t9) a + S1x16.size a ≤ S32x256.size a
  k1_off184_inb : ∀ k1_t9 : Fin k1_t9_loop.trips, ∀ a, (k1_off184 k1_t9) a + S1x16.size a ≤ S32x256.size a
  k1_off185_inb : ∀ k1_t9 : Fin k1_t9_loop.trips, ∀ a, (k1_off185 k1_t9) a + S1x16.size a ≤ S32x256.size a
  k1_off186_inb : ∀ k1_t9 : Fin k1_t9_loop.trips, ∀ a, (k1_off186 k1_t9) a + S1x16.size a ≤ S32x256.size a
  k1_off187_inb : ∀ k1_t9 : Fin k1_t9_loop.trips, ∀ a, (k1_off187 k1_t9) a + S1x16.size a ≤ S32x256.size a
  k1_off188_inb : ∀ k1_t9 : Fin k1_t9_loop.trips, ∀ a, (k1_off188 k1_t9) a + S1x16.size a ≤ S32x256.size a
  k1_off189_inb : ∀ k1_t9 : Fin k1_t9_loop.trips, ∀ a, (k1_off189 k1_t9) a + S1x16.size a ≤ S32x256.size a
  k1_off190_inb : ∀ k1_t9 : Fin k1_t9_loop.trips, ∀ a, (k1_off190 k1_t9) a + S1x16.size a ≤ S32x256.size a
  k1_off191_inb : ∀ k1_t9 : Fin k1_t9_loop.trips, ∀ a, (k1_off191 k1_t9) a + S1x16.size a ≤ S32x256.size a
  k1_off192_inb : ∀ k1_t9 : Fin k1_t9_loop.trips, ∀ a, (k1_off192 k1_t9) a + S1x16.size a ≤ S32x256.size a
  k1_off193_inb : ∀ k1_t9 : Fin k1_t9_loop.trips, ∀ a, (k1_off193 k1_t9) a + S1x16.size a ≤ S32x256.size a
  k1_off194_inb : ∀ k1_t9 : Fin k1_t9_loop.trips, ∀ a, (k1_off194 k1_t9) a + S1x16.size a ≤ S32x256.size a
  k1_off195_inb : ∀ k1_t9 : Fin k1_t9_loop.trips, ∀ a, (k1_off195 k1_t9) a + S1x16.size a ≤ S32x256.size a
  k1_off196_inb : ∀ k1_t9 : Fin k1_t9_loop.trips, ∀ a, (k1_off196 k1_t9) a + S1x16.size a ≤ S32x256.size a
  k1_off197_inb : ∀ k1_t9 : Fin k1_t9_loop.trips, ∀ a, (k1_off197 k1_t9) a + S1x16.size a ≤ S32x256.size a
  k1_off198_inb : ∀ k1_t9 : Fin k1_t9_loop.trips, ∀ a, (k1_off198 k1_t9) a + S1x16.size a ≤ S32x256.size a
  k1_off199_inb : ∀ k1_t9 : Fin k1_t9_loop.trips, ∀ a, (k1_off199 k1_t9) a + S1x16.size a ≤ S32x256.size a
  k1_off200_inb : ∀ k1_t9 : Fin k1_t9_loop.trips, ∀ a, (k1_off200 k1_t9) a + S1x16.size a ≤ S32x256.size a
  k1_off201_inb : ∀ k1_t9 : Fin k1_t9_loop.trips, ∀ a, (k1_off201 k1_t9) a + S1x16.size a ≤ S32x256.size a
  k1_off202_inb : ∀ k1_t9 : Fin k1_t9_loop.trips, ∀ a, (k1_off202 k1_t9) a + S1x16.size a ≤ S32x256.size a
  k1_off203_inb : ∀ k1_t9 : Fin k1_t9_loop.trips, ∀ a, (k1_off203 k1_t9) a + S1x16.size a ≤ S32x256.size a
  k1_off204_inb : ∀ k1_t9 : Fin k1_t9_loop.trips, ∀ a, (k1_off204 k1_t9) a + S1x16.size a ≤ S32x256.size a
  k1_off205_inb : ∀ k1_t9 : Fin k1_t9_loop.trips, ∀ a, (k1_off205 k1_t9) a + S1x16.size a ≤ S32x256.size a
  k1_off206_inb : ∀ i : grid1.Coords, ∀ a, (k1_off206 i) a + S40x512.size a ≤ S200x16384.size a
  k1_t10_ok : k1_t10_loop.OK
  k1_t11_ok : k1_t11_loop.OK
  k1_mult7_dvd : ∀ k1_t11 : Fin k1_t11_loop.trips, 16 ∣ (k1_mult7 k1_t11).toNat
  k1_off207_inb : ∀ (k1_t10 : Fin k1_t10_loop.trips) (k1_t11 : Fin k1_t11_loop.trips), ∀ a, (k1_off207 k1_t10 k1_t11) a + S1x16.size a ≤ S40x512.size a
  k1_off208_inb : ∀ k1_t11 : Fin k1_t11_loop.trips, ∀ a, (k1_off208 k1_t11) a + S1x16.size a ≤ S32x256.size a
  k1_off209_inb : ∀ k1_t11 : Fin k1_t11_loop.trips, ∀ a, (k1_off209 k1_t11) a + S1x16.size a ≤ S32x256.size a
  k1_off210_inb : ∀ k1_t11 : Fin k1_t11_loop.trips, ∀ a, (k1_off210 k1_t11) a + S1x16.size a ≤ S32x256.size a
  k1_off211_inb : ∀ k1_t11 : Fin k1_t11_loop.trips, ∀ a, (k1_off211 k1_t11) a + S1x16.size a ≤ S32x256.size a
  k1_off212_inb : ∀ k1_t11 : Fin k1_t11_loop.trips, ∀ a, (k1_off212 k1_t11) a + S1x16.size a ≤ S32x256.size a
  k1_off213_inb : ∀ k1_t11 : Fin k1_t11_loop.trips, ∀ a, (k1_off213 k1_t11) a + S1x16.size a ≤ S32x256.size a
  k1_off214_inb : ∀ k1_t11 : Fin k1_t11_loop.trips, ∀ a, (k1_off214 k1_t11) a + S1x16.size a ≤ S32x256.size a
  k1_off215_inb : ∀ k1_t11 : Fin k1_t11_loop.trips, ∀ a, (k1_off215 k1_t11) a + S1x16.size a ≤ S32x256.size a
  k1_off216_inb : ∀ k1_t11 : Fin k1_t11_loop.trips, ∀ a, (k1_off216 k1_t11) a + S1x16.size a ≤ S32x256.size a
  k1_off217_inb : ∀ k1_t11 : Fin k1_t11_loop.trips, ∀ a, (k1_off217 k1_t11) a + S1x16.size a ≤ S32x256.size a
  k1_off218_inb : ∀ k1_t11 : Fin k1_t11_loop.trips, ∀ a, (k1_off218 k1_t11) a + S1x16.size a ≤ S32x256.size a
  k1_off219_inb : ∀ k1_t11 : Fin k1_t11_loop.trips, ∀ a, (k1_off219 k1_t11) a + S1x16.size a ≤ S32x256.size a
  k1_off220_inb : ∀ k1_t11 : Fin k1_t11_loop.trips, ∀ a, (k1_off220 k1_t11) a + S1x16.size a ≤ S32x256.size a
  k1_off221_inb : ∀ k1_t11 : Fin k1_t11_loop.trips, ∀ a, (k1_off221 k1_t11) a + S1x16.size a ≤ S32x256.size a
  k1_off222_inb : ∀ k1_t11 : Fin k1_t11_loop.trips, ∀ a, (k1_off222 k1_t11) a + S1x16.size a ≤ S32x256.size a
  k1_off223_inb : ∀ k1_t11 : Fin k1_t11_loop.trips, ∀ a, (k1_off223 k1_t11) a + S1x16.size a ≤ S32x256.size a
  k1_off224_inb : ∀ k1_t11 : Fin k1_t11_loop.trips, ∀ a, (k1_off224 k1_t11) a + S1x16.size a ≤ S32x256.size a
  k1_off225_inb : ∀ k1_t11 : Fin k1_t11_loop.trips, ∀ a, (k1_off225 k1_t11) a + S1x16.size a ≤ S32x256.size a
  k1_off226_inb : ∀ k1_t11 : Fin k1_t11_loop.trips, ∀ a, (k1_off226 k1_t11) a + S1x16.size a ≤ S32x256.size a
  k1_off227_inb : ∀ k1_t11 : Fin k1_t11_loop.trips, ∀ a, (k1_off227 k1_t11) a + S1x16.size a ≤ S32x256.size a
  k1_off228_inb : ∀ k1_t11 : Fin k1_t11_loop.trips, ∀ a, (k1_off228 k1_t11) a + S1x16.size a ≤ S32x256.size a
  k1_off229_inb : ∀ k1_t11 : Fin k1_t11_loop.trips, ∀ a, (k1_off229 k1_t11) a + S1x16.size a ≤ S32x256.size a
  k1_off230_inb : ∀ k1_t11 : Fin k1_t11_loop.trips, ∀ a, (k1_off230 k1_t11) a + S1x16.size a ≤ S32x256.size a
  k1_off231_inb : ∀ k1_t11 : Fin k1_t11_loop.trips, ∀ a, (k1_off231 k1_t11) a + S1x16.size a ≤ S32x256.size a
  k1_off232_inb : ∀ k1_t11 : Fin k1_t11_loop.trips, ∀ a, (k1_off232 k1_t11) a + S1x16.size a ≤ S32x256.size a
  k1_off233_inb : ∀ k1_t11 : Fin k1_t11_loop.trips, ∀ a, (k1_off233 k1_t11) a + S1x16.size a ≤ S32x256.size a
  k1_off234_inb : ∀ k1_t11 : Fin k1_t11_loop.trips, ∀ a, (k1_off234 k1_t11) a + S1x16.size a ≤ S32x256.size a
  k1_off235_inb : ∀ k1_t11 : Fin k1_t11_loop.trips, ∀ a, (k1_off235 k1_t11) a + S1x16.size a ≤ S32x256.size a
  k1_off236_inb : ∀ k1_t11 : Fin k1_t11_loop.trips, ∀ a, (k1_off236 k1_t11) a + S1x16.size a ≤ S32x256.size a
  k1_off237_inb : ∀ k1_t11 : Fin k1_t11_loop.trips, ∀ a, (k1_off237 k1_t11) a + S1x16.size a ≤ S32x256.size a
  k1_off238_inb : ∀ k1_t11 : Fin k1_t11_loop.trips, ∀ a, (k1_off238 k1_t11) a + S1x16.size a ≤ S32x256.size a
  k1_off239_inb : ∀ k1_t11 : Fin k1_t11_loop.trips, ∀ a, (k1_off239 k1_t11) a + S1x16.size a ≤ S32x256.size a
  k1_off240_inb : ∀ (i : grid1.Coords) (k1_t10 : Fin k1_t10_loop.trips), ∀ (r : Fin 2), ∀ a, (k1_off240 i k1_t10 (BitVec.ofNat 32 (256 * r.val))) a + S1x32x256.size a ≤ S200x32x16384.size a
  k1_t12_ok : k1_t12_loop.OK
  k1_mult8_dvd : ∀ k1_t12 : Fin k1_t12_loop.trips, 16 ∣ (k1_mult8 k1_t12).toNat
  k1_off241_inb : ∀ (k1_t10 : Fin k1_t10_loop.trips) (k1_t12 : Fin k1_t12_loop.trips), ∀ a, (k1_off241 k1_t10 k1_t12) a + S1x16.size a ≤ S40x512.size a
  k1_off242_inb : ∀ k1_t12 : Fin k1_t12_loop.trips, ∀ a, (k1_off242 k1_t12) a + S1x16.size a ≤ S32x256.size a
  k1_off243_inb : ∀ k1_t12 : Fin k1_t12_loop.trips, ∀ a, (k1_off243 k1_t12) a + S1x16.size a ≤ S32x256.size a
  k1_off244_inb : ∀ k1_t12 : Fin k1_t12_loop.trips, ∀ a, (k1_off244 k1_t12) a + S1x16.size a ≤ S32x256.size a
  k1_off245_inb : ∀ k1_t12 : Fin k1_t12_loop.trips, ∀ a, (k1_off245 k1_t12) a + S1x16.size a ≤ S32x256.size a
  k1_off246_inb : ∀ k1_t12 : Fin k1_t12_loop.trips, ∀ a, (k1_off246 k1_t12) a + S1x16.size a ≤ S32x256.size a
  k1_off247_inb : ∀ k1_t12 : Fin k1_t12_loop.trips, ∀ a, (k1_off247 k1_t12) a + S1x16.size a ≤ S32x256.size a
  k1_off248_inb : ∀ k1_t12 : Fin k1_t12_loop.trips, ∀ a, (k1_off248 k1_t12) a + S1x16.size a ≤ S32x256.size a
  k1_off249_inb : ∀ k1_t12 : Fin k1_t12_loop.trips, ∀ a, (k1_off249 k1_t12) a + S1x16.size a ≤ S32x256.size a
  k1_off250_inb : ∀ k1_t12 : Fin k1_t12_loop.trips, ∀ a, (k1_off250 k1_t12) a + S1x16.size a ≤ S32x256.size a
  k1_off251_inb : ∀ k1_t12 : Fin k1_t12_loop.trips, ∀ a, (k1_off251 k1_t12) a + S1x16.size a ≤ S32x256.size a
  k1_off252_inb : ∀ k1_t12 : Fin k1_t12_loop.trips, ∀ a, (k1_off252 k1_t12) a + S1x16.size a ≤ S32x256.size a
  k1_off253_inb : ∀ k1_t12 : Fin k1_t12_loop.trips, ∀ a, (k1_off253 k1_t12) a + S1x16.size a ≤ S32x256.size a
  k1_off254_inb : ∀ k1_t12 : Fin k1_t12_loop.trips, ∀ a, (k1_off254 k1_t12) a + S1x16.size a ≤ S32x256.size a
  k1_off255_inb : ∀ k1_t12 : Fin k1_t12_loop.trips, ∀ a, (k1_off255 k1_t12) a + S1x16.size a ≤ S32x256.size a
  k1_off256_inb : ∀ k1_t12 : Fin k1_t12_loop.trips, ∀ a, (k1_off256 k1_t12) a + S1x16.size a ≤ S32x256.size a
  k1_off257_inb : ∀ k1_t12 : Fin k1_t12_loop.trips, ∀ a, (k1_off257 k1_t12) a + S1x16.size a ≤ S32x256.size a
  k1_off258_inb : ∀ k1_t12 : Fin k1_t12_loop.trips, ∀ a, (k1_off258 k1_t12) a + S1x16.size a ≤ S32x256.size a
  k1_off259_inb : ∀ k1_t12 : Fin k1_t12_loop.trips, ∀ a, (k1_off259 k1_t12) a + S1x16.size a ≤ S32x256.size a
  k1_off260_inb : ∀ k1_t12 : Fin k1_t12_loop.trips, ∀ a, (k1_off260 k1_t12) a + S1x16.size a ≤ S32x256.size a
  k1_off261_inb : ∀ k1_t12 : Fin k1_t12_loop.trips, ∀ a, (k1_off261 k1_t12) a + S1x16.size a ≤ S32x256.size a
  k1_off262_inb : ∀ k1_t12 : Fin k1_t12_loop.trips, ∀ a, (k1_off262 k1_t12) a + S1x16.size a ≤ S32x256.size a
  k1_off263_inb : ∀ k1_t12 : Fin k1_t12_loop.trips, ∀ a, (k1_off263 k1_t12) a + S1x16.size a ≤ S32x256.size a
  k1_off264_inb : ∀ k1_t12 : Fin k1_t12_loop.trips, ∀ a, (k1_off264 k1_t12) a + S1x16.size a ≤ S32x256.size a
  k1_off265_inb : ∀ k1_t12 : Fin k1_t12_loop.trips, ∀ a, (k1_off265 k1_t12) a + S1x16.size a ≤ S32x256.size a
  k1_off266_inb : ∀ k1_t12 : Fin k1_t12_loop.trips, ∀ a, (k1_off266 k1_t12) a + S1x16.size a ≤ S32x256.size a
  k1_off267_inb : ∀ k1_t12 : Fin k1_t12_loop.trips, ∀ a, (k1_off267 k1_t12) a + S1x16.size a ≤ S32x256.size a
  k1_off268_inb : ∀ k1_t12 : Fin k1_t12_loop.trips, ∀ a, (k1_off268 k1_t12) a + S1x16.size a ≤ S32x256.size a
  k1_off269_inb : ∀ k1_t12 : Fin k1_t12_loop.trips, ∀ a, (k1_off269 k1_t12) a + S1x16.size a ≤ S32x256.size a
  k1_off270_inb : ∀ k1_t12 : Fin k1_t12_loop.trips, ∀ a, (k1_off270 k1_t12) a + S1x16.size a ≤ S32x256.size a
  k1_off271_inb : ∀ k1_t12 : Fin k1_t12_loop.trips, ∀ a, (k1_off271 k1_t12) a + S1x16.size a ≤ S32x256.size a
  k1_off272_inb : ∀ k1_t12 : Fin k1_t12_loop.trips, ∀ a, (k1_off272 k1_t12) a + S1x16.size a ≤ S32x256.size a
  k1_off273_inb : ∀ k1_t12 : Fin k1_t12_loop.trips, ∀ a, (k1_off273 k1_t12) a + S1x16.size a ≤ S32x256.size a
  k1_t13_ok : k1_t13_loop.OK
  k1_t14_ok : k1_t14_loop.OK
  k1_mult9_dvd : ∀ k1_t14 : Fin k1_t14_loop.trips, 16 ∣ (k1_mult9 k1_t14).toNat
  k1_off274_inb : ∀ (k1_t13 : Fin k1_t13_loop.trips) (k1_t14 : Fin k1_t14_loop.trips), ∀ a, (k1_off274 k1_t13 k1_t14) a + S1x16.size a ≤ S40x512.size a
  k1_off275_inb : ∀ k1_t14 : Fin k1_t14_loop.trips, ∀ a, (k1_off275 k1_t14) a + S1x16.size a ≤ S32x256.size a
  k1_off276_inb : ∀ k1_t14 : Fin k1_t14_loop.trips, ∀ a, (k1_off276 k1_t14) a + S1x16.size a ≤ S32x256.size a
  k1_off277_inb : ∀ k1_t14 : Fin k1_t14_loop.trips, ∀ a, (k1_off277 k1_t14) a + S1x16.size a ≤ S32x256.size a
  k1_off278_inb : ∀ k1_t14 : Fin k1_t14_loop.trips, ∀ a, (k1_off278 k1_t14) a + S1x16.size a ≤ S32x256.size a
  k1_off279_inb : ∀ k1_t14 : Fin k1_t14_loop.trips, ∀ a, (k1_off279 k1_t14) a + S1x16.size a ≤ S32x256.size a
  k1_off280_inb : ∀ k1_t14 : Fin k1_t14_loop.trips, ∀ a, (k1_off280 k1_t14) a + S1x16.size a ≤ S32x256.size a
  k1_off281_inb : ∀ k1_t14 : Fin k1_t14_loop.trips, ∀ a, (k1_off281 k1_t14) a + S1x16.size a ≤ S32x256.size a
  k1_off282_inb : ∀ k1_t14 : Fin k1_t14_loop.trips, ∀ a, (k1_off282 k1_t14) a + S1x16.size a ≤ S32x256.size a
  k1_off283_inb : ∀ k1_t14 : Fin k1_t14_loop.trips, ∀ a, (k1_off283 k1_t14) a + S1x16.size a ≤ S32x256.size a
  k1_off284_inb : ∀ k1_t14 : Fin k1_t14_loop.trips, ∀ a, (k1_off284 k1_t14) a + S1x16.size a ≤ S32x256.size a
  k1_off285_inb : ∀ k1_t14 : Fin k1_t14_loop.trips, ∀ a, (k1_off285 k1_t14) a + S1x16.size a ≤ S32x256.size a
  k1_off286_inb : ∀ k1_t14 : Fin k1_t14_loop.trips, ∀ a, (k1_off286 k1_t14) a + S1x16.size a ≤ S32x256.size a
  k1_off287_inb : ∀ k1_t14 : Fin k1_t14_loop.trips, ∀ a, (k1_off287 k1_t14) a + S1x16.size a ≤ S32x256.size a
  k1_off288_inb : ∀ k1_t14 : Fin k1_t14_loop.trips, ∀ a, (k1_off288 k1_t14) a + S1x16.size a ≤ S32x256.size a
  k1_off289_inb : ∀ k1_t14 : Fin k1_t14_loop.trips, ∀ a, (k1_off289 k1_t14) a + S1x16.size a ≤ S32x256.size a
  k1_off290_inb : ∀ k1_t14 : Fin k1_t14_loop.trips, ∀ a, (k1_off290 k1_t14) a + S1x16.size a ≤ S32x256.size a
  k1_off291_inb : ∀ k1_t14 : Fin k1_t14_loop.trips, ∀ a, (k1_off291 k1_t14) a + S1x16.size a ≤ S32x256.size a
  k1_off292_inb : ∀ k1_t14 : Fin k1_t14_loop.trips, ∀ a, (k1_off292 k1_t14) a + S1x16.size a ≤ S32x256.size a
  k1_off293_inb : ∀ k1_t14 : Fin k1_t14_loop.trips, ∀ a, (k1_off293 k1_t14) a + S1x16.size a ≤ S32x256.size a
  k1_off294_inb : ∀ k1_t14 : Fin k1_t14_loop.trips, ∀ a, (k1_off294 k1_t14) a + S1x16.size a ≤ S32x256.size a
  k1_off295_inb : ∀ k1_t14 : Fin k1_t14_loop.trips, ∀ a, (k1_off295 k1_t14) a + S1x16.size a ≤ S32x256.size a
  k1_off296_inb : ∀ k1_t14 : Fin k1_t14_loop.trips, ∀ a, (k1_off296 k1_t14) a + S1x16.size a ≤ S32x256.size a
  k1_off297_inb : ∀ k1_t14 : Fin k1_t14_loop.trips, ∀ a, (k1_off297 k1_t14) a + S1x16.size a ≤ S32x256.size a
  k1_off298_inb : ∀ k1_t14 : Fin k1_t14_loop.trips, ∀ a, (k1_off298 k1_t14) a + S1x16.size a ≤ S32x256.size a
  k1_off299_inb : ∀ k1_t14 : Fin k1_t14_loop.trips, ∀ a, (k1_off299 k1_t14) a + S1x16.size a ≤ S32x256.size a
  k1_off300_inb : ∀ k1_t14 : Fin k1_t14_loop.trips, ∀ a, (k1_off300 k1_t14) a + S1x16.size a ≤ S32x256.size a
  k1_off301_inb : ∀ k1_t14 : Fin k1_t14_loop.trips, ∀ a, (k1_off301 k1_t14) a + S1x16.size a ≤ S32x256.size a
  k1_off302_inb : ∀ k1_t14 : Fin k1_t14_loop.trips, ∀ a, (k1_off302 k1_t14) a + S1x16.size a ≤ S32x256.size a
  k1_off303_inb : ∀ k1_t14 : Fin k1_t14_loop.trips, ∀ a, (k1_off303 k1_t14) a + S1x16.size a ≤ S32x256.size a
  k1_off304_inb : ∀ k1_t14 : Fin k1_t14_loop.trips, ∀ a, (k1_off304 k1_t14) a + S1x16.size a ≤ S32x256.size a
  k1_off305_inb : ∀ k1_t14 : Fin k1_t14_loop.trips, ∀ a, (k1_off305 k1_t14) a + S1x16.size a ≤ S32x256.size a
  k1_off306_inb : ∀ k1_t14 : Fin k1_t14_loop.trips, ∀ a, (k1_off306 k1_t14) a + S1x16.size a ≤ S32x256.size a
  k1_off307_inb : ∀ (i : grid1.Coords) (k1_t13 : Fin k1_t13_loop.trips), ∀ (r : Fin 2), ∀ a, (k1_off307 i k1_t13 (BitVec.ofNat 32 (256 * r.val))) a + S1x32x256.size a ≤ S200x32x16384.size a
  k1_t15_ok : k1_t15_loop.OK
  k1_mult10_dvd : ∀ k1_t15 : Fin k1_t15_loop.trips, 16 ∣ (k1_mult10 k1_t15).toNat
  k1_off308_inb : ∀ (k1_t13 : Fin k1_t13_loop.trips) (k1_t15 : Fin k1_t15_loop.trips), ∀ a, (k1_off308 k1_t13 k1_t15) a + S1x16.size a ≤ S40x512.size a
  k1_off309_inb : ∀ k1_t15 : Fin k1_t15_loop.trips, ∀ a, (k1_off309 k1_t15) a + S1x16.size a ≤ S32x256.size a
  k1_off310_inb : ∀ k1_t15 : Fin k1_t15_loop.trips, ∀ a, (k1_off310 k1_t15) a + S1x16.size a ≤ S32x256.size a
  k1_off311_inb : ∀ k1_t15 : Fin k1_t15_loop.trips, ∀ a, (k1_off311 k1_t15) a + S1x16.size a ≤ S32x256.size a
  k1_off312_inb : ∀ k1_t15 : Fin k1_t15_loop.trips, ∀ a, (k1_off312 k1_t15) a + S1x16.size a ≤ S32x256.size a
  k1_off313_inb : ∀ k1_t15 : Fin k1_t15_loop.trips, ∀ a, (k1_off313 k1_t15) a + S1x16.size a ≤ S32x256.size a
  k1_off314_inb : ∀ k1_t15 : Fin k1_t15_loop.trips, ∀ a, (k1_off314 k1_t15) a + S1x16.size a ≤ S32x256.size a
  k1_off315_inb : ∀ k1_t15 : Fin k1_t15_loop.trips, ∀ a, (k1_off315 k1_t15) a + S1x16.size a ≤ S32x256.size a
  k1_off316_inb : ∀ k1_t15 : Fin k1_t15_loop.trips, ∀ a, (k1_off316 k1_t15) a + S1x16.size a ≤ S32x256.size a
  k1_off317_inb : ∀ k1_t15 : Fin k1_t15_loop.trips, ∀ a, (k1_off317 k1_t15) a + S1x16.size a ≤ S32x256.size a
  k1_off318_inb : ∀ k1_t15 : Fin k1_t15_loop.trips, ∀ a, (k1_off318 k1_t15) a + S1x16.size a ≤ S32x256.size a
  k1_off319_inb : ∀ k1_t15 : Fin k1_t15_loop.trips, ∀ a, (k1_off319 k1_t15) a + S1x16.size a ≤ S32x256.size a
  k1_off320_inb : ∀ k1_t15 : Fin k1_t15_loop.trips, ∀ a, (k1_off320 k1_t15) a + S1x16.size a ≤ S32x256.size a
  k1_off321_inb : ∀ k1_t15 : Fin k1_t15_loop.trips, ∀ a, (k1_off321 k1_t15) a + S1x16.size a ≤ S32x256.size a
  k1_off322_inb : ∀ k1_t15 : Fin k1_t15_loop.trips, ∀ a, (k1_off322 k1_t15) a + S1x16.size a ≤ S32x256.size a
  k1_off323_inb : ∀ k1_t15 : Fin k1_t15_loop.trips, ∀ a, (k1_off323 k1_t15) a + S1x16.size a ≤ S32x256.size a
  k1_off324_inb : ∀ k1_t15 : Fin k1_t15_loop.trips, ∀ a, (k1_off324 k1_t15) a + S1x16.size a ≤ S32x256.size a
  k1_off325_inb : ∀ k1_t15 : Fin k1_t15_loop.trips, ∀ a, (k1_off325 k1_t15) a + S1x16.size a ≤ S32x256.size a
  k1_off326_inb : ∀ k1_t15 : Fin k1_t15_loop.trips, ∀ a, (k1_off326 k1_t15) a + S1x16.size a ≤ S32x256.size a
  k1_off327_inb : ∀ k1_t15 : Fin k1_t15_loop.trips, ∀ a, (k1_off327 k1_t15) a + S1x16.size a ≤ S32x256.size a
  k1_off328_inb : ∀ k1_t15 : Fin k1_t15_loop.trips, ∀ a, (k1_off328 k1_t15) a + S1x16.size a ≤ S32x256.size a
  k1_off329_inb : ∀ k1_t15 : Fin k1_t15_loop.trips, ∀ a, (k1_off329 k1_t15) a + S1x16.size a ≤ S32x256.size a
  k1_off330_inb : ∀ k1_t15 : Fin k1_t15_loop.trips, ∀ a, (k1_off330 k1_t15) a + S1x16.size a ≤ S32x256.size a
  k1_off331_inb : ∀ k1_t15 : Fin k1_t15_loop.trips, ∀ a, (k1_off331 k1_t15) a + S1x16.size a ≤ S32x256.size a
  k1_off332_inb : ∀ k1_t15 : Fin k1_t15_loop.trips, ∀ a, (k1_off332 k1_t15) a + S1x16.size a ≤ S32x256.size a
  k1_off333_inb : ∀ k1_t15 : Fin k1_t15_loop.trips, ∀ a, (k1_off333 k1_t15) a + S1x16.size a ≤ S32x256.size a
  k1_off334_inb : ∀ k1_t15 : Fin k1_t15_loop.trips, ∀ a, (k1_off334 k1_t15) a + S1x16.size a ≤ S32x256.size a
  k1_off335_inb : ∀ k1_t15 : Fin k1_t15_loop.trips, ∀ a, (k1_off335 k1_t15) a + S1x16.size a ≤ S32x256.size a
  k1_off336_inb : ∀ k1_t15 : Fin k1_t15_loop.trips, ∀ a, (k1_off336 k1_t15) a + S1x16.size a ≤ S32x256.size a
  k1_off337_inb : ∀ k1_t15 : Fin k1_t15_loop.trips, ∀ a, (k1_off337 k1_t15) a + S1x16.size a ≤ S32x256.size a
  k1_off338_inb : ∀ k1_t15 : Fin k1_t15_loop.trips, ∀ a, (k1_off338 k1_t15) a + S1x16.size a ≤ S32x256.size a
  k1_off339_inb : ∀ k1_t15 : Fin k1_t15_loop.trips, ∀ a, (k1_off339 k1_t15) a + S1x16.size a ≤ S32x256.size a
  k1_off340_inb : ∀ k1_t15 : Fin k1_t15_loop.trips, ∀ a, (k1_off340 k1_t15) a + S1x16.size a ≤ S32x256.size a

variable [Facts₀]

abbrev cc1_scratch5 : DmaSems sig S_ := SemArray.consecutive 2 S_ hcc1_scratch5
abbrev cc1_scratch6 : DmaSems sig S_ := SemArray.consecutive 3 S_ hcc1_scratch6
abbrev cc1_scratch7 : DmaSems sig S_ := SemArray.consecutive 4 S_ hcc1_scratch7
abbrev cc1_scratch8 : DmaSems sig S_ := SemArray.consecutive 5 S_ hcc1_scratch8
abbrev cc1_scoped0 : DmaSems sig S_ := SemArray.consecutive 6 S_ hcc1_scoped0

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x200 : Shape := ⟨2, ![16384, 200]⟩
abbrev S1000x32 : Shape := ⟨2, ![1000, 32]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x32 : Shape := ⟨3, ![16384, 200, 32]⟩

abbrev nBuf : Space → Nat
  | .hbm => 28
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000x32, .f32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200x32, .f32⟩
  | .hbm, ⟨21, _⟩ => ⟨S16384x200x32, .i1⟩
  | .hbm, ⟨22, _⟩ => ⟨S_, .f32⟩
  | .hbm, ⟨23, _⟩ => ⟨S16384x200x32, .f32⟩
  | .hbm, ⟨24, _⟩ => ⟨S16384x200x32, .f32⟩
  | .hbm, ⟨25, _⟩ => ⟨S_, .f32⟩
  | .hbm, ⟨26, _⟩ => ⟨S16384x200x32, .f32⟩
  | .hbm, ⟨27, _⟩ => ⟨S16384x200x32, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x32_0_1 : S16384x200.BroadcastsInDim S16384x200x32 (![0, 1] : Fin 2 → Fin S16384x200x32.rank)
  bcast_S_S16384x200x32 : S_.BroadcastsInDim S16384x200x32 (![] : Fin 0 → Fin S16384x200x32.rank)
  gather_S1000x32_S16384x200x1_S16384x200x32_2_0_n_n_0_2_132_wf : GatherDims.WF S1000x32 S16384x200x1 S16384x200x32 [2] [0] [] [0] [] 2 ![1, 32]

variable [Facts₀]

def gather_S1000x32_S16384x200x1_S16384x200x32_2_0_n_n_0_2_132 : GatherDims S1000x32 S16384x200x1 S16384x200x32 where
  offsetDims := [2]
  collapsedSliceDims := [0]
  operandBatchingDims := []
  startIndicesBatchingDims := []
  startIndexMap := [0]
  indexVectorDim := 2
  sliceSizes := ![1, 32]
  wf := gather_S1000x32_S16384x200x1_S16384x200x32_2_0_n_n_0_2_132_wf

class Facts : Prop extends Facts₀ where

variable [Facts]
-- ==== Proof.RangeOfPre.lean ====
/-
  The printed precondition `input_domain`, read back at an index. The function is the conjunction of two
  `all`-reductions: every table entry is finite, and every index word x[b, s] satisfies 0 ≤ x[b, s] ≤ 999 as a signed
  32-bit integer. From the claim that the function's one result word is 1 we recover the second conjunct element by
  element: the final `and` being 1 makes both reductions 1; a reduction by `and` over all axes that is 1 met a 1 at every
  operand index; the operand at index j is `and (x j ≥ₛ 0) (x j ≤ₛ 999)`, the two constants being rank-0 arrays broadcast
  to the index array's shape. The statement is generic in the float model: the float half of the precondition is not used.
-/
import proofs.«203934_g28930899706482_cont_9to1_1937_23_alg».proof.Pre_input_domain
import proofs.«203934_g28930899706482_cont_9to1_1937_23_alg».proof.Proof.Gen.Pre_input_domain
import Idealize.ShloMosaic.Lib.ReduceAll
import Idealize.ShloMosaic.Lib.IdealHost

namespace Cert.Pre_input_domain.Range

open Idealize.ShloMosaic Idealize.ShloMosaic.ValueIdx Cert.Pre_input_domain Cert.Pre_input_domain.Gen

/-- A rank-0 array has one index. -/
instance : Subsingleton S_.Idx := ⟨fun a b => funext fun d => d.elim0⟩

/-- The precondition decoded: every index word lies in [0, 999] as a signed integer. -/
theorem range_of_pre {F : FTy → Type} [FloatOps F] (x : IVec S16384x200 32) (t : FVec F S1000x32 .f32)
    (h : Cert.Pre_input_domain.fn (F := F) x t = fun _ => 1#1) :
    ∀ j, 0 ≤ (x j).toInt ∧ (x j).toInt ≤ 999 := by
  intro j
  have e := congrFun h ix0
  unfold Cert.Pre_input_domain.fn at e
  -- the last operation is an elementwise `and` of the two reductions
  obtain ⟨-, e9⟩ := IntOp.andi_eq_one.1 e
  -- the second reduction is over all axes: its operand is 1 at j
  have e8 := Host.reduce_andi_all _ _ _ _ _ e9 j
  -- the operand at j: both comparisons hold
  obtain ⟨e5, e7⟩ := IntOp.andi_eq_one.1 e8
  have h5 := IntOp.cmpi_sge.1 e5
  have h7 := IntOp.cmpi_sle.1 e7
  rw [broadcastInDim_scalar_apply] at h5 h7
  -- the two constants as signed integers
  have c0 : (constantI S_ 32 (0#32) ix0).toInt = 0 := by decide
  have c999 : (constantI S_ 32 (999#32) ix0).toInt = 999 := by decide
  rw [c0] at h5
  rw [c999] at h7
  exact ⟨h5, h7⟩

end Cert.Pre_input_domain.Range
-- ==== Proof.RefRun.lean ====
/-
  The reference program's run, read back. @main calls the outlined function `_take` (which calls `_where`) and then scales
  the result: unfolding the two functions at their calls, @main is one straight line of 26 host operations over buffers of
  its own, so every weakly fair execution terminates with each buffer at the fold of the operations over the launch
  contents. The fold at the result buffer is the composed pure term `refOut x t` of the two arguments:

    wrap x    = where(x < 0, x + 1000, x)                      (negative indices count from the end)
    idx x     = wrap x with a trailing unit axis                (the gather's index vectors, of length one)
    ok x      = all over the unit axis of (0 ≤ idx x ≤ 999)     (the index is inside the table)
    taken x t = where(ok x, gather t (idx x), NaN)              (row idx x[b, s] of the table, or NaN out of range)
    refOut x t = taken x t * 0x40B504F3                         (the float32 nearest to √32)

  The argument buffers are written by no operation and keep their contents.
-/
import proofs.«203934_g28930899706482_cont_9to1_1937_23_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The index with negative values wrapped: where(x < 0, x + 1000, x). -/
def wrap (x : IVec S16384x200 32) : IVec S16384x200 32 :=
  select (cmpi .slt x (broadcastInDim S16384x200 ![] bcast_S_S16384x200 (constantI S_ 32 0#32)))
    (addi x (broadcastInDim S16384x200 ![] bcast_S_S16384x200 (constantI S_ 32 1000#32))) x

/-- The wrapped index as an array of index vectors of length one. -/
def idx (x : IVec S16384x200 32) : IVec S16384x200x1 32 :=
  broadcastInDim S16384x200x1 ![0, 1] bcast_S16384x200_S16384x200x1_0_1 (wrap x)

/-- Whether each index vector lies inside the table: every component in [0, 999], signed. -/
def ok (x : IVec S16384x200 32) : IVec S16384x200 1 :=
  Host.reduce IntOp.andi
    (andi (cmpi .sge (idx x) (broadcastInDim S16384x200x1 ![] bcast_S_S16384x200x1 (constantI S_ 32 0#32)))
      (cmpi .sle (idx x) (broadcastInDim S16384x200x1 ![0, 1, 2] bcast_S1x1x1_S16384x200x1_0_1_2
        (broadcastInDim S1x1x1 ![2] bcast_S1_S1x1x1_2 (constantI S1 32 999#32)))))
    (constantI S_ 1 1#1) reducesTo_S16384x200x1_S16384x200_d2 h_S_

/-- The rows taken: the gathered row where the index is inside the table, NaN elsewhere. -/
def taken (x : IVec S16384x200 32) (t : FVec F S1000x32 .f32) : FVec F S16384x200x32 .f32 :=
  select (broadcastInDim S16384x200x32 ![0, 1] bcast_S16384x200_S16384x200x32_0_1 (ok x))
    (Host.gather gather_S1000x32_S16384x200x1_S16384x200x32_2_0_n_n_0_2_132 t (idx x))
    (broadcastInDim S16384x200x32 ![] bcast_S_S16384x200x32 (constant S_ .f32 0x7FC00000#32))

/-- The reference's result as a pure term of its two arguments. -/
def refOut (x : IVec S16384x200 32) (t : FVec F S1000x32 .f32) : FVec F S16384x200x32 .f32 :=
  mulf (taken x t) (broadcastInDim S16384x200x32 ![] bcast_S_S16384x200x32 (constant S_ .f32 0x40B504F3#32))

/-! ## @main as a straight line -/

/-- @main's 26 operations, in order, as the two functions' bodies spell them (over the calls' typed references):
    `_take`'s twenty-three (with `_where`'s select in its place) over the call's buffers, then the scale constant, its
    broadcast and the product. -/
abbrev opsT : List (HloOp τ sig (Elt F)) :=
  [ TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 1000#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 999#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S1000x32_S16384x200x1_S16384x200x32_2_0_n_n_0_2_132 x i),
    TRef.unary main_call0.v12 main_call0.v14 (broadcastInDim S16384x200x32 ![0, 1] bcast_S16384x200_S16384x200x32_0_1),
    TRef.nullary main_call0.cst (constant S_ .f32 0x7FC00000#32),
    TRef.unary main_call0.cst main_call0.v15 (broadcastInDim S16384x200x32 ![] bcast_S_S16384x200x32),
    TRef.ternary main_call0.v14 main_call0.v13 main_call0.v15 main_call0.v16 select,
    nullary main_cst (constant S_ .f32 0x40B504F3#32),
    unary main_cst main_v1 (broadcastInDim S16384x200x32 ![] bcast_S_S16384x200x32 : (⟨S_, .f32⟩ : BufTy).Contents (Elt F) → (⟨S16384x200x32, .f32⟩ : BufTy).Contents (Elt F)),
    binary main_v0 main_v1 main_v2 (mulf : (⟨S16384x200x32, .f32⟩ : BufTy).Contents (Elt F) → (⟨S16384x200x32, .f32⟩ : BufTy).Contents (Elt F) → (⟨S16384x200x32, .f32⟩ : BufTy).Contents (Elt F)) ]

set_option maxRecDepth 1024 in
/-- @main is that straight line: the two functions' definitions unfolded at their calls, both sides are one chain of
    host steps once sequencing is reassociated. -/
theorem main_eqT (c : Dev nD) : main (F := F) c = seq opsT := by
  simp only [main, fn_take.body, fn_where.body, seq, bind_assoc, pure_bind]

/-- The same 26 operations over the buffers themselves: a typed reference to a literal buffer carries the buffer's own
    type, so moving a value along that equation is the identity. -/
abbrev ops : List (HloOp τ sig (Elt F)) :=
  [ nullary main_call0_c (constantI S_ 32 0#32),
    unary main_call0_c main_call0_v0 (broadcastInDim S16384x200 ![] bcast_S_S16384x200),
    binary main_arg0 main_call0_v0 main_call0_v1 (cmpi .slt),
    nullary main_call0_c_0 (constantI S_ 32 1000#32),
    unary main_call0_c_0 main_call0_v2 (broadcastInDim S16384x200 ![] bcast_S_S16384x200),
    binary main_arg0 main_call0_v2 main_call0_v3 addi,
    ternary main_call0_v1 main_call0_v3 main_arg0 main_call0_v4 select,
    unary main_call0_v4 main_call0_v5 (broadcastInDim S16384x200x1 ![0, 1] bcast_S16384x200_S16384x200x1_0_1),
    nullary main_call0_c_1 (constantI S1 32 999#32),
    nullary main_call0_c_2 (constantI S_ 32 0#32),
    unary main_call0_c_2 main_call0_v6 (broadcastInDim S16384x200x1 ![] bcast_S_S16384x200x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S16384x200x1 ![0, 1, 2] bcast_S1x1x1_S16384x200x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S16384x200x1_S16384x200_d2 h_S_),
    binary main_arg1 main_call0_v5 main_call0_v13 (fun x i => Host.gather gather_S1000x32_S16384x200x1_S16384x200x32_2_0_n_n_0_2_132 x i),
    unary main_call0_v12 main_call0_v14 (broadcastInDim S16384x200x32 ![0, 1] bcast_S16384x200_S16384x200x32_0_1),
    nullary main_call0_cst (constant S_ .f32 0x7FC00000#32),
    unary main_call0_cst main_call0_v15 (broadcastInDim S16384x200x32 ![] bcast_S_S16384x200x32 : (⟨S_, .f32⟩ : BufTy).Contents (Elt F) → (⟨S16384x200x32, .f32⟩ : BufTy).Contents (Elt F)),
    ternary main_call0_v14 main_call0_v13 main_call0_v15 main_v0 select,
    nullary main_cst (constant S_ .f32 0x40B504F3#32),
    unary main_cst main_v1 (broadcastInDim S16384x200x32 ![] bcast_S_S16384x200x32 : (⟨S_, .f32⟩ : BufTy).Contents (Elt F) → (⟨S16384x200x32, .f32⟩ : BufTy).Contents (Elt F)),
    binary main_v0 main_v1 main_v2 (mulf : (⟨S16384x200x32, .f32⟩ : BufTy).Contents (Elt F) → (⟨S16384x200x32, .f32⟩ : BufTy).Contents (Elt F) → (⟨S16384x200x32, .f32⟩ : BufTy).Contents (Elt F)) ]

attribute [local irreducible] Host.reduce Host.gather in
/-- The two spellings are the same list, operation by operation (the reduction and the gather stay folded: the
    comparison never looks inside them). -/
theorem opsT_eq : (opsT : List (HloOp τ sig (Elt F))) = ops := by
  unfold opsT ops
  refine congrArg₂ List.cons rfl ?_ -- 1
  refine congrArg₂ List.cons rfl ?_ -- 2
  refine congrArg₂ List.cons rfl ?_ -- 3
  refine congrArg₂ List.cons rfl ?_ -- 4
  refine congrArg₂ List.cons rfl ?_ -- 5
  refine congrArg₂ List.cons rfl ?_ -- 6
  refine congrArg₂ List.cons rfl ?_ -- 7
  refine congrArg₂ List.cons rfl ?_ -- 8
  refine congrArg₂ List.cons rfl ?_ -- 9
  refine congrArg₂ List.cons rfl ?_ -- 10
  refine congrArg₂ List.cons rfl ?_ -- 11
  refine congrArg₂ List.cons rfl ?_ -- 12
  refine congrArg₂ List.cons rfl ?_ -- 13
  refine congrArg₂ List.cons rfl ?_ -- 14
  refine congrArg₂ List.cons rfl ?_ -- 15
  refine congrArg₂ List.cons rfl ?_ -- 16
  refine congrArg₂ List.cons rfl ?_ -- 17
  refine congrArg₂ List.cons rfl ?_ -- 18
  refine congrArg₂ List.cons rfl ?_ -- 19
  refine congrArg₂ List.cons rfl ?_ -- 20
  refine congrArg₂ List.cons rfl ?_ -- 21
  refine congrArg₂ List.cons rfl ?_ -- 22
  refine congrArg₂ List.cons rfl ?_ -- 23
  refine congrArg₂ List.cons rfl ?_ -- 24
  refine congrArg₂ List.cons rfl ?_ -- 25
  refine congrArg₂ List.cons rfl ?_ -- 26
  rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

/-- The fold at the result buffer is the composed term: the fold unrolled, each operation's result at its own buffer is its
    function's value and at any other buffer what was there. -/
theorem out_eq (V : Valuation τ sig (Elt F)) :
    after ops V (main_v2 : DevRef τ sig) = refOut (V (main_arg0 : DevRef τ sig)) (V (main_arg1 : DevRef τ sig)) := by
  unfold refOut taken ok idx wrap
  after_results_simp

/-- No operation writes the index argument. -/
theorem arg0_eq (V : Valuation τ sig (Elt F)) :
    after ops V (main_arg0 : DevRef τ sig) = V (main_arg0 : DevRef τ sig) := by
  after_results_simp

/-- No operation writes the table argument. -/
theorem arg1_eq (V : Valuation τ sig (Elt F)) :
    after ops V (main_arg1 : DevRef τ sig) = V (main_arg1 : DevRef τ sig) := by
  after_results_simp

/-- On every device, for any float values, from any memory with zero counters: every weakly fair execution of @main
    terminates with the result buffer at the composed term of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v2) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m ρ)

/-- The run's frame alone: @main terminates and leaves its two arguments as they were. -/
theorem run_frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.ReferenceIdeal.RefValue

end
-- ==== Proof.RefRead.lean ====
/-
  The reference's composed term read at an index, for indices inside the table. With every index word x[b, s] in [0, 999]
  as a signed integer: the wrap where(x < 0, x + 1000, x) is the identity (the word is not negative); the range mask, an
  and-reduction over the unit axis of 0 ≤ idx ≤ 999, is 1; the select therefore takes the gathered value; and the gather,
  whose start index is read signed and clamped into [0, 999], reads row x[b, s] of the table at column d (the clamp does
  nothing and the signed reading of the word is its unsigned one). At the ideal instance the product with the broadcast
  constant is the extended reals' product with the constant's value.
-/
import proofs.«203934_g28930899706482_cont_9to1_1937_23_alg».proof.Proof.RefRun
import Idealize.ShloMosaic.Lib.ValueIdx
import Idealize.ShloMosaic.Lib.IdealHost
import Idealize.ShloMosaic.Lib.ReduceAll
import Idealize.ShloMosaic.Lib.Pipeline.Value

noncomputable section

namespace Cert.ReferenceIdeal.RefValue

open Cert.ReferenceIdeal Cert.ReferenceIdeal.Gen Idealize.ShloMosaic Idealize.ShloMosaic.ValueIdx Idealize.SL.Sem

variable {F : FTy → Type} [FloatOps F]

/-! ## Words -/

/-- A word in [0, 999] as a signed integer is below 1000 as a natural number, and its signed reading is its unsigned one. -/
theorem toInt_eq_toNat_of_range {w : BitVec 32} (h : 0 ≤ w.toInt ∧ w.toInt ≤ 999) : w.toInt = (w.toNat : Int) ∧ w.toNat < 1000 := by
  have h32 := w.isLt
  rw [BitVec.toInt_eq_toNat_cond] at h ⊢
  split at h <;> rename_i hlt
  · rw [if_pos hlt]; exact ⟨rfl, by omega⟩
  · omega

theorem toNat_lt_of_range {w : BitVec 32} (h : 0 ≤ w.toInt ∧ w.toInt ≤ 999) : w.toNat < 1000 :=
  (toInt_eq_toNat_of_range h).2

/-! ## An and-reduction over words that are all 1 -/

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_one f l _ (IntOp.andi_eq_one.2 ⟨h, hl a (List.mem_cons_self ..)⟩) (fun n hn => hl n (List.mem_cons_of_mem _ hn))

/-- A reduction by `and` from the initial value 1 of an array whose every word is 1 is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_one x _ _ hi (fun i _ => hx i)

/-! ## The term read at an index -/

/-- In range the wrap is the identity: a nonnegative index is not below zero. -/
theorem wrap_apply (x : IVec S16384x200 32) (j : S16384x200.Idx) (h0 : 0 ≤ (x j).toInt) : wrap x j = x j := by
  have hc : cmpi .slt x (broadcastInDim S16384x200 ![] bcast_S_S16384x200 (constantI S_ 32 0#32)) j = 0#1 := by
    refine eq_zero_of_ne_one fun h => ?_
    have h' := IntOp.cmpi_slt.1 h
    rw [broadcastInDim_scalar_apply] at h'
    have c0 : (constantI S_ 32 (0#32) ix0).toInt = 0 := by decide
    omega
  show Scalar.select (cmpi .slt x (broadcastInDim S16384x200 ![] bcast_S_S16384x200 (constantI S_ 32 0#32)) j) _ _ = _
  rw [hc, select_zero]

/-- The index vectors have one component: the wrapped index. -/
theorem idx_apply (x : IVec S16384x200 32) (b : Fin 16384) (s : Fin 200) (k : Fin 1) :
    idx x (ix3 b s k) = wrap x (ix2 b s) := by
  unfold idx
  exact broadcastInDim_apply _ _ _ _ (ix2 b s) (fun a => by fin_cases a <;> rfl)

/-- In range every index vector lies inside the table. -/
theorem ok_apply (x : IVec S16384x200 32) (hx : ∀ j, 0 ≤ (x j).toInt ∧ (x j).toInt ≤ 999) (j : S16384x200.Idx) :
    ok x j = 1#1 := by
  unfold ok
  refine reduce_andi_one _ _ _ _ _ rfl fun i => ?_
  obtain ⟨b, s, k, rfl⟩ : ∃ b s k, i = ix3 b s k := ⟨i 0, i 1, i 2, eq_ix3 i⟩
  refine IntOp.andi_eq_one.2 ⟨IntOp.cmpi_sge.2 ?_, IntOp.cmpi_sle.2 ?_⟩
  · rw [broadcastInDim_scalar_apply, idx_apply, wrap_apply x _ (hx _).1]
    have c0 : (constantI S_ 32 (0#32) ix0).toInt = 0 := by decide
    rw [c0]; exact (hx _).1
  · rw [idx_apply, wrap_apply x _ (hx _).1]
    show (x (ix2 b s)).toInt ≤ (999#32 : BitVec 32).toInt
    have c999 : (999#32 : BitVec 32).toInt = 999 := by decide
    rw [c999]; exact (hx _).2

/-! ## The gather read at an index -/

/-- The gather read at (b, s, d): the table at row idx[b, s, 0], read signed and clamped into [0, 999], and column d. The
    table's axis 0 is collapsed and named by the start index map, so its coordinate is the clamped start; axis 1 is the
    result's offset axis, so its coordinate is d. -/
theorem gather_apply {α : Type} (t : S1000x32.Idx → α) (i : IVec S16384x200x1 32) (b : Fin 16384) (s : Fin 200) (d : Fin 32) :
    Host.gather gather_S1000x32_S16384x200x1_S16384x200x32_2_0_n_n_0_2_132 t i (ix3 b s d)
      = t (ix2 (⟨min (i (ix3 b s 0)).toInt.toNat 999, by omega⟩ : Fin 1000) d) := by
  unfold Host.gather
  congr 1
  funext a
  refine Fin.ext ?_
  match a with
  | ⟨0, _⟩ =>
    show gather_S1000x32_S16384x200x1_S16384x200x32_2_0_n_n_0_2_132.start (ix3 b s d) i 0 + gather_S1000x32_S16384x200x1_S16384x200x32_2_0_n_n_0_2_132.batchCoord (ix3 b s d) 0 + gather_S1000x32_S16384x200x1_S16384x200x32_2_0_n_n_0_2_132.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x32_S16384x200x1_S16384x200x32_2_0_n_n_0_2_132.startIndexMap from List.mem_singleton.mpr rfl)]
    have hsi : gather_S1000x32_S16384x200x1_S16384x200x32_2_0_n_n_0_2_132.siIdx (ix3 b s d) ⟨List.idxOf (0 : Fin 2) gather_S1000x32_S16384x200x1_S16384x200x32_2_0_n_n_0_2_132.startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  | ⟨1, _⟩ =>
    show gather_S1000x32_S16384x200x1_S16384x200x32_2_0_n_n_0_2_132.start (ix3 b s d) i 1 + gather_S1000x32_S16384x200x1_S16384x200x32_2_0_n_n_0_2_132.batchCoord (ix3 b s d) 1 + gather_S1000x32_S16384x200x1_S16384x200x32_2_0_n_n_0_2_132.offCoord (ix3 b s d) 1 = d.val
    rw [GatherDims.batchCoord_eq_zero _ _ _ List.not_mem_nil]
    have hst : gather_S1000x32_S16384x200x1_S16384x200x32_2_0_n_n_0_2_132.start (ix3 b s d) i 1 = 0 := by
      unfold GatherDims.start
      rw [dif_neg (show (1 : Fin 2) ∉ gather_S1000x32_S16384x200x1_S16384x200x32_2_0_n_n_0_2_132.startIndexMap from by decide)]
    have hk : (1 : Fin 2) ∈ gather_S1000x32_S16384x200x1_S16384x200x32_2_0_n_n_0_2_132.sKept := (GatherDims.mem_sKept _ _).mpr ⟨by decide, List.not_mem_nil⟩
    rw [hst]
    unfold GatherDims.offCoord
    rw [dif_pos hk]
    simp only [Nat.zero_add]
    rfl

/-- In range the rows taken are the table's rows at the index words: the mask is 1, the select takes the gathered row, the
    wrap is the identity and the clamp does nothing. -/
theorem taken_apply (x : IVec S16384x200 32) (t : FVec F S1000x32 .f32) (hx : ∀ j, 0 ≤ (x j).toInt ∧ (x j).toInt ≤ 999)
    (b : Fin 16384) (s : Fin 200) (d : Fin 32) :
    taken x t (ix3 b s d) = t (ix2 (⟨(x (ix2 b s)).toNat, toNat_lt_of_range (hx _)⟩ : Fin 1000) d) := by
  have hm : broadcastInDim S16384x200x32 ![0, 1] bcast_S16384x200_S16384x200x32_0_1 (ok x) (ix3 b s d) = 1#1 := by
    rw [broadcastInDim_apply _ _ _ _ (ix2 b s) (fun a => by fin_cases a <;> rfl)]
    exact ok_apply x hx _
  have hi : idx x (ix3 b s 0) = x (ix2 b s) := by rw [idx_apply, wrap_apply x _ (hx _).1]
  have key : (⟨min (idx x (ix3 b s 0)).toInt.toNat 999, by omega⟩ : Fin 1000)
      = ⟨(x (ix2 b s)).toNat, toNat_lt_of_range (hx _)⟩ := by
    refine Fin.ext ?_
    show min (idx x (ix3 b s 0)).toInt.toNat 999 = (x (ix2 b s)).toNat
    obtain ⟨e, hlt⟩ := toInt_eq_toNat_of_range (hx (ix2 b s))
    rw [hi, e, Int.toNat_natCast]
    omega
  unfold taken
  rw [select_apply, hm, select_one, gather_apply]
  exact congrArg (fun r => t (ix2 r d)) key

/-- THE REFERENCE'S RESULT AT (b, s, d), for in-range indices, at the ideal instance: the table's entry at row x[b, s] and
    column d times the constant whose bit pattern is 0x40B504F3. -/
theorem refOut_apply (x : IVec S16384x200 32) (t : FVec Ideal S1000x32 .f32) (hx : ∀ j, 0 ≤ (x j).toInt ∧ (x j).toInt ≤ 999)
    (b : Fin 16384) (s : Fin 200) (d : Fin 32) :
    refOut x t (ix3 b s d)
      = t (ix2 (⟨(x (ix2 b s)).toNat, toNat_lt_of_range (hx _)⟩ : Fin 1000) d) * Ideal.ofBits .f32 0x40B504F3#32 := by
  unfold refOut
  rw [mulf_apply, taken_apply x t hx, broadcastInDim_scalar_apply, constant_apply]

end Cert.ReferenceIdeal.RefValue

end
-- ==== Proof.KI.Setup.lean ====
/-
  The program as the SparseCore launch theorem sees it, the ghost state, and what the one SparseCore call hands
  over. The kernel computes out_t[s, d, b] = flat[xt[s, b] + 1000 d] with xt the transposed indices and flat the
  flattened scaled transposed table; vector subcore (c, i) writes the 512 columns b ∈ [512 (2 i + c), +512) of out_t
  and only reads xt and flat, so the call lends every subcore a read share of xt and of flat, whole, and its own
  column block of out_t.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«203934_g28930899706482_cont_9to1_1937_23_alg».proof.Proof.Gen.KernelIdeal
import proofs.«203934_g28930899706482_cont_9to1_1937_23_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The TensorCore pallas_call's staging cells live in the pipeline library's rounds algebra. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP; infer_instance

/-! ## The arrays -/

/-- The index array x, the table, the transposed indices, the scaled transposed table, its flattening, the
    kernel's output out_t and the result, as locations of device d. -/
abbrev xLoc (d : Dev nD) : Loc nD τ sig := (SparseCore.T d).loc main_arg0
abbrev tbLoc (d : Dev nD) : Loc nD τ sig := (SparseCore.T d).loc main_arg1
abbrev xtLoc (d : Dev nD) : Loc nD τ sig := (SparseCore.T d).loc main_v0
abbrev tsLoc (d : Dev nD) : Loc nD τ sig := (SparseCore.T d).loc main_v1
abbrev flLoc (d : Dev nD) : Loc nD τ sig := (SparseCore.T d).loc main_v2
abbrev oLoc (d : Dev nD) : Loc nD τ sig := (SparseCore.T d).loc main_v3
abbrev resLoc (d : Dev nD) : Loc nD τ sig := (SparseCore.T d).loc main_v4

variable [FloatOps F]

/-- xt = x transposed. -/
def XT (x : IVec S16384x200 32) : IVec S200x16384 32 := transpose S200x16384 [1, 0] x transposes_S16384x200_S200x16384_1_0
/-- The scaled transposed table: entry (d, v) is table (v, d) times the literal. -/
def TS (t : FVec F S1000x32 .f32) : FVec F S32x1000 .f32 := k0_pay1 t
/-- Its flattening: entry 1000 d + v. -/
def FL (t : FVec F S1000x32 .f32) : FVec F S32000 .f32 := shapeCast S32000 (TS t) shapeCasts_S32x1000_S32000
/-- out_t (s, d, b) = flat (xt (s, b) + 1000 d) (the index taken modulo the table's size, so that the function is total). -/
def OUT (x : IVec S16384x200 32) (t : FVec F S1000x32 .f32) : FVec F S200x32x16384 .f32 :=
  fun j => FL t (ValueIdx.ix1 ⟨((XT x (ValueIdx.ix2 (j 0) (j 2))).toNat + 1000 * (j 1).val) % 32000, Nat.mod_lt _ (by decide)⟩)
/-- The result: out_t with the batch axis first. -/
def RES (x : IVec S16384x200 32) (t : FVec F S1000x32 .f32) : FVec F S16384x200x32 .f32 :=
  transpose S16384x200x32 [2, 0, 1] (OUT x t) transposes_S200x32x16384_S16384x200x32_2_0_1

end Cert.Proof.KI

end
-- ==== Proof.KI.ValueEq.lean ====
/-
  The kernel's closed form and the reference's agree. The kernel's result at (b, s, d) is out_t at (s, d, b), which is
  the flattened scaled transposed table at position xt (s, b) + 1000 d; xt (s, b) is the index word x (b, s), and for a
  word v below 1000 and d below 32 that position is below 32000 and is row-major position (d, v) of the scaled
  transposed table, whose entry there is table (v, d) times the constant. This is the reference's value at (b, s, d).
-/
import proofs.«203934_g28930899706482_cont_9to1_1937_23_alg».proof.Proof.KI.Setup
import proofs.«203934_g28930899706482_cont_9to1_1937_23_alg».proof.Proof.RefRead

noncomputable section

namespace Cert.Proof.KI

open Cert.KernelIdeal Cert.KernelIdeal.Gen

open Idealize.ShloMosaic Idealize.ShloMosaic.ValueIdx Idealize.SL.Sem

/-! ## Each layout step read at an index -/

/-- The transposed indices at (s, b) are the indices at (b, s). -/
theorem xt_apply (x : IVec S16384x200 32) (s : Fin 200) (b : Fin 16384) : XT x (ix2 s b) = x (ix2 b s) := by
  unfold XT
  exact transpose_apply _ x _ _ _ fun c => match c with | ⟨0, _⟩ => rfl | ⟨1, _⟩ => rfl

section AnyInstance
variable {F : FTy → Type} [FloatOps F]

/-- The flattening at position 1000 d + v is the scaled transposed table at (d, v). -/
theorem fl_apply (t : FVec F S1000x32 .f32) (d : Fin 32) (v : Fin 1000) (n : Fin 32000) (hn : n.val = v.val + 1000 * d.val) :
    FL t (ix1 n) = TS t (ix2 d v) := by
  unfold FL
  refine shapeCast_apply (TS t) _ _ (ix2 d v) ?_
  rw [Shape.rowMajor_val_two, Shape.rowMajor_val_one]
  show d.val * 1000 + v.val = n.val
  omega

/-- out_t at (s, d, b), for an index word below 1000: the position needs no reduction modulo the table's size. -/
theorem out_apply_inrange (x : IVec S16384x200 32) (t : FVec F S1000x32 .f32) (s : Fin 200) (d : Fin 32) (b : Fin 16384)
    (h : (x (ix2 b s)).toNat < 1000) :
    OUT x t (ix3 s d b)
      = FL t (ix1 ⟨(XT x (ix2 s b)).toNat + 1000 * d.val, by have := d.isLt; rw [xt_apply]; omega⟩) := by
  have hd := d.isLt
  have hlt : (XT x (ix2 s b)).toNat + 1000 * d.val < 32000 := by rw [xt_apply]; omega
  show FL t (ix1 ⟨((XT x (ix2 s b)).toNat + 1000 * d.val) % 32000, _⟩) = _
  exact congrArg (fun n => FL t (ix1 n)) (Fin.ext (Nat.mod_eq_of_lt hlt))

/-- The result at (b, s, d) is out_t at (s, d, b). -/
theorem res_out (x : IVec S16384x200 32) (t : FVec F S1000x32 .f32) (b : Fin 16384) (s : Fin 200) (d : Fin 32) :
    RES x t (ix3 b s d) = OUT x t (ix3 s d b) := by
  unfold RES
  exact transpose_apply _ (OUT x t) _ _ _ fun c => match c with | ⟨0, _⟩ => rfl | ⟨1, _⟩ => rfl | ⟨2, _⟩ => rfl

end AnyInstance

/-! ## At the ideal instance -/

/-- The scaled transposed table at (d, v) is the table at (v, d) times the constant. -/
theorem ts_apply (t : FVec Ideal S1000x32 .f32) (d : Fin 32) (v : Fin 1000) :
    TS (F := Ideal) t (ix2 d v) = t (ix2 v d) * Ideal.ofBits .f32 0x40B504F3#32 := by
  unfold TS k0_pay1
  show mulf (transpose S32x1000 [1, 0] t transposes_S1000x32_p1_0_S32x1000)
      (broadcast S32x1000 (Scalar.ofBits .f32 0x40B504F3#32)) (ix2 d v) = _
  rw [mulf_apply, broadcast_apply,
    transpose_apply [1, 0] t transposes_S1000x32_p1_0_S32x1000 (ix2 d v) (ix2 v d)
      (fun c => match c with | ⟨0, _⟩ => rfl | ⟨1, _⟩ => rfl)]
  rfl

/-- The kernel's closed form at (b, s, d), for index words in [0, 999]. -/
theorem res_apply (x : IVec S16384x200 32) (t : FVec Ideal S1000x32 .f32) (hx : ∀ j, 0 ≤ (x j).toInt ∧ (x j).toInt ≤ 999)
    (b : Fin 16384) (s : Fin 200) (d : Fin 32) :
    RES (F := Ideal) x t (ix3 b s d)
      = t (ix2 (⟨(x (ix2 b s)).toNat, Cert.ReferenceIdeal.RefValue.toNat_lt_of_range (hx _)⟩ : Fin 1000) d)
          * Ideal.ofBits .f32 0x40B504F3#32 := by
  have hv : (x (ix2 b s)).toNat < 1000 := Cert.ReferenceIdeal.RefValue.toNat_lt_of_range (hx _)
  rw [res_out, out_apply_inrange x t s d b hv,
    fl_apply t d ⟨(x (ix2 b s)).toNat, hv⟩ _ (by show (XT x (ix2 s b)).toNat + 1000 * d.val = _; rw [xt_apply]),
    ts_apply]

/-- The kernel's closed form is the reference's. -/
theorem res_eq_ref (x : IVec S16384x200 32) (t : FVec Ideal S1000x32 .f32) (hx : ∀ j, 0 ≤ (x j).toInt ∧ (x j).toInt ≤ 999) :
    RES (F := Ideal) x t = Cert.ReferenceIdeal.RefValue.refOut x t := by
  funext j
  obtain ⟨b, s, d, rfl⟩ : ∃ (b : Fin 16384) (s : Fin 200) (d : Fin 32), j = ix3 b s d := ⟨j 0, j 1, j 2, eq_ix3 j⟩
  rw [res_apply x t hx, Cert.ReferenceIdeal.RefValue.refOut_apply x t hx]

end Cert.Proof.KI

end
-- ==== Proof.KI.TileCommon.lean ====
/-
  A vector subcore's task, common part: the thread, the scratch buffers, and the pure facts behind the gathers'
  range checks. An index word below 1000 plus a row offset 1000 c with c ≤ 31 is below 32000, the size of the
  flattened table.
-/
import proofs.«203934_g28930899706482_cont_9to1_1937_23_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- The SparseCore and vector subcore of grid coordinates L, and the subcore's thread on device d. -/
abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

/-- Every word of a staged index block is a row number of the table: below 1000. -/
def XsOK (fx : S40x512.Idx → BitVec 32) : Prop := ∀ j, (fx j).toNat < 1000

omit [FloatOps F] in
/-- Lanes loaded from the first staged index block are words of it. -/
theorem ldrow0_lt (d : Dev nD) (L : grid1.Coords) (fx : Buf (Elt F) ((xs0W).view.loc (thrV d L))) (hfx : XsOK fx)
    (R : LoadRect S40x512) (x : R.shape.Idx) :
    BitVec.toNat ((xs0W).view.readAt (Elt F) R fx x) < 1000 := by
  simp only [View.readAt_apply, Memref.view_whole, View.read_whole]
  exact hfx _
omit [FloatOps F] in
/-- Lanes loaded from the second staged index block are words of it. -/
theorem ldrow1_lt (d : Dev nD) (L : grid1.Coords) (fx : Buf (Elt F) ((xs1W).view.loc (thrV d L))) (hfx : XsOK fx)
    (R : LoadRect S40x512) (x : R.shape.Idx) :
    BitVec.toNat ((xs1W).view.readAt (Elt F) R fx x) < 1000 := by
  simp only [View.readAt_apply, Memref.view_whole, View.read_whole]
  exact hfx _

omit [FloatOps F] in
/-- A word below 1000 plus a constant at most 31000 is below 32000, lane by lane. -/
theorem chk_addi (v : IVec S16 32) (c : BitVec 32) (hv : ∀ x, (v x).toNat < 1000) (hc : c.toNat ≤ 31000) :
    ∀ a x, ((![addi v (broadcast S16 c)] : Fin 1 → IVec S16 32) a x).toNat < S32000.size a := by
  intro a x
  obtain rfl : a = 0 := Subsingleton.elim _ _
  show (IntOp.addi (v x) c).toNat < 32000
  have h1 := hv x
  simp only [IntOp.addi, BitVec.toNat_add]
  omega

end Cert.Proof.KI

end
-- ==== Proof.KI.Pieces.lean ====
/-
  The column block of out_t that one vector subcore writes, cut into the 400 pieces its copies write: piece
  (i1, k) is row i1, all 32 table columns, batch columns [col0 + 256 k, col0 + 256 k + 256), where
  col0 = 512 (2 i + c) for vector subcore i of SparseCore c. The pieces are pairwise disjoint and their union is the
  subcore's block, rows [0, 200) × columns [0, 32) × batch columns [col0, col0 + 512).
-/
import proofs.«203934_g28930899706482_cont_9to1_1937_23_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The first batch column of the subcore at grid coordinates L. -/
def col0 (L : grid1.Coords) : Nat := 1024 * (L 1).val + 512 * (L 0).val

theorem col0_le (L : grid1.Coords) : col0 L + 512 ≤ 16384 := by
  have h0 : (L 0).val < 2 := (L 0).isLt
  have h1 : (L 1).val < 16 := (L 1).isLt
  unfold col0; omega

theorem pieceRect_inb (L : grid1.Coords) (i1 : Fin 200) (k : Fin 2) :
    ∀ a, (![i1.val, 0, col0 L + 256 * k.val] : Fin 3 → Nat) a + S1x32x256.size a ≤ S200x32x16384.size a := by
  have h := col0_le L
  have hi := i1.isLt
  have hk := k.isLt
  intro a; fin_cases a <;> simp <;> omega

/-- Piece (i1, k) as a rectangle of out_t. -/
abbrev pieceRect (L : grid1.Coords) (i1 : Fin 200) (k : Fin 2) : Rect S200x32x16384 :=
  Rect.unit (s := S200x32x16384) ![i1.val, 0, col0 L + 256 * k.val] S1x32x256.size (pieceRect_inb L i1 k)

/-- Its elements. -/
def pset (L : grid1.Coords) (i1 : Fin 200) (k : Fin 2) : Finset S200x32x16384.Idx := (pieceRect L i1 k).set

abbrev tileShape : Shape := ⟨3, ![200, 32, 512]⟩

theorem tileRect_inb (L : grid1.Coords) : ∀ a, (![0, 0, col0 L] : Fin 3 → Nat) a + tileShape.size a ≤ S200x32x16384.size a := by
  have h := col0_le L
  intro a; fin_cases a <;> simp <;> omega

/-- The subcore's whole block. -/
abbrev tileRect (L : grid1.Coords) : Rect S200x32x16384 := Rect.unit (s := S200x32x16384) ![0, 0, col0 L] tileShape.size (tileRect_inb L)
def tset (L : grid1.Coords) : Finset S200x32x16384.Idx := (tileRect L).set

/-- Grid coordinates from a SparseCore and a vector subcore of the call's grid, as the body table builds them. -/
def coordsV (c : Fin (grid1.bound 0)) (s : Fin (grid1.bound 1)) : grid1.Coords :=
  fun | 0 => c | 1 => s | ⟨_ + 2, h⟩ => absurd h (Nat.not_lt.2 (Nat.le_add_left _ _))

/-- The block of SparseCore c: its sixteen subcores' blocks together. -/
def cset (c : Fin (grid1.bound 0)) : Finset S200x32x16384.Idx :=
  (Finset.univ : Finset (Fin (grid1.bound 1))).biUnion fun i => tset (coordsV c i)

/-- A piece held at some contents. -/
def P1 (d : Dev nD) (L : grid1.Coords) (p : Fin 200 × Fin 2) : sProp 𝕄 := iprop(∃ f, oLoc d ↦[pset L p.1 p.2]{fullShare} f)
/-- All 400 pieces. -/
def AllPieces (d : Dev nD) (L : grid1.Coords) : sProp 𝕄 := bigSep (Finset.univ : Finset (Fin 200 × Fin 2)) (P1 (F := F) d L)
/-- All pieces but the two of row n - 1 (all of them when n = 0): what the subcore holds while the copies of row
    n - 1 are in flight. -/
def Pieces (d : Dev nD) (L : grid1.Coords) (n : Nat) : sProp 𝕄 :=
  bigSep (Finset.univ : Finset (Fin 200 × Fin 2)) fun p => if p.1.val + 1 = n then iprop(emp) else P1 (F := F) d L p

end Cert.Proof.KI

end
-- ==== Proof.KI.PiecesK.lean ====
/-
  The pieces of a subcore's block, slot by slot: the copies of output chunk k write the pieces (i1, k), one row
  i1 after another, so while the copy of row n - 1 is in flight the subcore holds every piece of slot k but that one.
-/
import proofs.«203934_g28930899706482_cont_9to1_1937_23_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- Piece (i, k) at some contents, for a row number given as a natural number (nothing when it is no row). -/
def P1n (d : Dev nD) (L : grid1.Coords) (i : Nat) (k : Fin 2) : sProp 𝕄 :=
  if h : i < 200 then P1 (F := F) d L (⟨i, h⟩, k) else iprop(emp)
/-- All 200 pieces of slot k. -/
def AllK (d : Dev nD) (L : grid1.Coords) (k : Fin 2) : sProp 𝕄 := bigSep (Finset.univ : Finset (Fin 200)) fun i => P1 (F := F) d L (i, k)
/-- All pieces of slot k but the one of row n - 1 (all of them when n = 0). -/
def PiecesK (d : Dev nD) (L : grid1.Coords) (k : Fin 2) (n : Nat) : sProp 𝕄 :=
  bigSep (Finset.univ : Finset (Fin 200)) fun i => if i.val + 1 = n then iprop(emp) else P1 (F := F) d L (i, k)

end Cert.Proof.KI

end
-- ==== Proof.KI.RowCommon.lean ====
/-
  A vector subcore's row loops, common part. Output chunk k (32 table columns by 256 batch columns) is copied to
  piece (i1, k) of out_t on the chunk's own semaphore; the copy of row i1 is waited for only before the chunk is
  written again, at row i1 + 1, so between two trips of a row loop each chunk's copy is in flight. What the
  subcore then holds of a flight: that whatever the copy lands in its piece, the piece is held afterwards.
-/
import proofs.«203934_g28930899706482_cont_9to1_1937_23_alg».proof.Proof.KI.TileCommon
import proofs.«203934_g28930899706482_cont_9to1_1937_23_alg».proof.Proof.KI.PiecesK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- A piece of out_t as the kernel slices it: the 1 × 32 × 256 box at the given offsets, its unit axis squeezed. -/
abbrev pieceM (off : Fin 3 → Nat) (inb : ∀ a, off a + S1x32x256.size a ≤ S200x32x16384.size a) : Memref sig .scVector .hbm S32x256 .f32 :=
  ((oW).slice (Rect.unit (s := S200x32x16384) off S1x32x256.size inb) (fun _ => rfl)).squeeze S32x256 squeezes_S1x32x256_S32x256

omit [FloatOps F] in
/-- Its elements are the box's. -/
theorem set_pieceM (off : Fin 3 → Nat) (inb : ∀ a, off a + S1x32x256.size a ≤ S200x32x16384.size a) :
    (pieceM off inb).view.set = (Rect.unit (s := S200x32x16384) off S1x32x256.size inb).set := by
  show (((oW).view.slice (Rect.unit (s := S200x32x16384) off S1x32x256.size inb)).reshape S32x256 squeezes_S1x32x256_S32x256.numel_eq).set = _
  rw [View.set_reshape, View.set_slice]
  exact Finset.map_refl

omit [FloatOps F] in
theorem rect_eq_of_off {off off' : Fin 3 → Nat} (h : off = off') (inb : ∀ a, off a + S1x32x256.size a ≤ S200x32x16384.size a)
    (inb' : ∀ a, off' a + S1x32x256.size a ≤ S200x32x16384.size a) :
    Rect.unit (s := S200x32x16384) off S1x32x256.size inb = Rect.unit (s := S200x32x16384) off' S1x32x256.size inb' := by
  subst h; rfl

omit [FloatOps F] in
/-- A piece sliced at the closed-form offsets of piece (i1, k) has that piece's elements. -/
theorem set_pieceM_of (L : grid1.Coords) (i1 : Fin 200) (k : Fin 2) (off : Fin 3 → Nat)
    (inb : ∀ a, off a + S1x32x256.size a ≤ S200x32x16384.size a) (h : off = ![i1.val, 0, col0 L + 256 * k.val]) :
    (pieceM off inb).view.set = pset L i1 k :=
  (set_pieceM off inb).trans (by rw [rect_eq_of_off h inb (pieceRect_inb L i1 k)]; rfl)

/-- The copy of output chunk 0 into the piece `pc` of out_t, in flight on the chunk's semaphore: at its landing the
    piece holds the chunk's contents and the chunk comes back. -/
def OutFlight0 (d : Dev nD) (L : grid1.Coords) (pc : Memref sig .scVector .hbm S32x256 .f32) : sProp 𝕄 :=
  iprop(∃ (p : Buf (Elt F) (pc.view.loc (thrV d L))) (fo : Buf (Elt F) ((oc0W).view.loc (thrV d L))),
     Transfers.Flight countersEmb (thrV d L) (SemLoc.dma cc1_scratch7.sem) default 262144
       iprop((pc.view.loc (thrV d L) ↦[pc.view.set]{fullShare} pc.view.writes (Elt F) p [⟨Rect.whole S32x256, ReadAs.same.apply ((oc0W).view.read (Elt F) fo)⟩])
          ∗ ((oc0W).view.loc (thrV d L) ↦[(oc0W).view.set]{fullShare} fo)))
/-- The same for output chunk 1. -/
def OutFlight1 (d : Dev nD) (L : grid1.Coords) (pc : Memref sig .scVector .hbm S32x256 .f32) : sProp 𝕄 :=
  iprop(∃ (p : Buf (Elt F) (pc.view.loc (thrV d L))) (fo : Buf (Elt F) ((oc1W).view.loc (thrV d L))),
     Transfers.Flight countersEmb (thrV d L) (SemLoc.dma cc1_scratch8.sem) default 262144
       iprop((pc.view.loc (thrV d L) ↦[pc.view.set]{fullShare} pc.view.writes (Elt F) p [⟨Rect.whole S32x256, ReadAs.same.apply ((oc1W).view.read (Elt F) fo)⟩])
          ∗ ((oc1W).view.loc (thrV d L) ↦[(oc1W).view.set]{fullShare} fo)))

/-- Chunk 0's copy of row i in flight, into some spelling of piece (i, 0): whatever lands, piece (i, 0) is held. -/
def OutFlightAt0 (d : Dev nD) (L : grid1.Coords) (i : Nat) : sProp 𝕄 :=
  iprop(∃ pc : Memref sig .scVector .hbm S32x256 .f32,
    ⌜∀ f, (pc.view.loc (thrV d L) ↦[pc.view.set]{fullShare} f : sProp 𝕄) ⊢ P1n d L i 0⌝ ∗ OutFlight0 d L pc)
def OutFlightAt1 (d : Dev nD) (L : grid1.Coords) (i : Nat) : sProp 𝕄 :=
  iprop(∃ pc : Memref sig .scVector .hbm S32x256 .f32,
    ⌜∀ f, (pc.view.loc (thrV d L) ↦[pc.view.set]{fullShare} f : sProp 𝕄) ⊢ P1n d L i 1⌝ ∗ OutFlight1 d L pc)

omit [FloatOps F] in
/-- A chunk held by its own elements is the chunk held whole. -/
theorem pts_oc0 (d : Dev nD) (L : grid1.Coords) (f : Buf (Elt F) ((oc0W).view.loc (thrV d L))) :
    ((oc0W).view.loc (thrV d L) ↦[(oc0W).view.set]{fullShare} f : sProp 𝕄) = ((oc0W).view.loc (thrV d L) ↦{fullShare} f) := by
  have h : ((oc0W).view.loc (thrV d L) ↦[(oc0W).view.set]{fullShare} f : sProp 𝕄) = ((thrV d L).loc cc1_scratch3 ↦{fullShare} f) := by
    simp only [Memref.view_whole, View.set_whole]
  exact h
omit [FloatOps F] in
theorem pts_oc1 (d : Dev nD) (L : grid1.Coords) (f : Buf (Elt F) ((oc1W).view.loc (thrV d L))) :
    ((oc1W).view.loc (thrV d L) ↦[(oc1W).view.set]{fullShare} f : sProp 𝕄) = ((oc1W).view.loc (thrV d L) ↦{fullShare} f) := by
  have h : ((oc1W).view.loc (thrV d L) ↦[(oc1W).view.set]{fullShare} f : sProp 𝕄) = ((thrV d L).loc cc1_scratch4 ↦{fullShare} f) := by
    simp only [Memref.view_whole, View.set_whole]
  exact h

omit [FloatOps F] in
/-- A sliced piece at the closed-form offsets of piece (i, k), held by its own elements at any contents, is piece (i, k) held. -/
theorem land_pieceM (d : Dev nD) (L : grid1.Coords) (i : Nat) (hi : i < 200) (k : Fin 2) (off : Fin 3 → Nat)
    (inb : ∀ a, off a + S1x32x256.size a ≤ S200x32x16384.size a) (h : off = ![i, 0, col0 L + 256 * k.val])
    (f : Buf (Elt F) (oLoc d)) :
    ((pieceM off inb).view.loc (thrV d L) ↦[(pieceM off inb).view.set]{fullShare} f : sProp 𝕄) ⊢ P1n d L i k := by
  rw [set_pieceM_of L ⟨i, hi⟩ k off inb h]
  unfold P1n; rw [dif_pos hi]; unfold P1
  iintro H; iexists f; iexact H

omit [FloatOps F] in
/-- and piece (i, k) held is the sliced piece held by its own elements, at some contents. -/
theorem take_pieceM (d : Dev nD) (L : grid1.Coords) (i : Nat) (hi : i < 200) (k : Fin 2) (off : Fin 3 → Nat)
    (inb : ∀ a, off a + S1x32x256.size a ≤ S200x32x16384.size a) (h : off = ![i, 0, col0 L + 256 * k.val]) :
    (P1n (F := F) d L i k : sProp 𝕄) ⊢ iprop(∃ f : Buf (Elt F) (oLoc d), (pieceM off inb).view.loc (thrV d L) ↦[(pieceM off inb).view.set]{fullShare} f) := by
  rw [set_pieceM_of L ⟨i, hi⟩ k off inb h]
  unfold P1n; rw [dif_pos hi]; unfold P1
  exact BI.Entails.refl _

end Cert.Proof.KI

end
-- ==== Proof.KI.Group0.lean ====
/-
  The group loops of stage 0: for each of sixteen groups of sixteen batch columns of a 256-column chunk, the
  staged indices xs[r, 256 k + 16 g + lane] are loaded and, for each of the 32 table columns c, the flattened
  table is gathered at index + 1000 c into row c, columns [16 g, 16 g + 16), of the output chunk.
-/
import proofs.«203934_g28930899706482_cont_9to1_1937_23_alg».proof.Proof.KI.TileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- What a trip of the group loop t2 keeps: the flattened table and the staged index block unchanged, the
    output chunk at some contents. -/
def inv_t2 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc0W).view.loc (thrV d L) ↦{fullShare} fo)

set_option maxRecDepth 65536 in
/-- One trip of t2: sixteen index words are loaded, thirty-two gathers read the table at them plus 1000 c
    (each in range: the words are below 1000), and the thirty-two gathered vectors are stored into the chunk. -/
theorem trip_t2 (d : Dev nD) (L : grid1.Coords) (r : Fin k1_t1_loop.trips) (arg14 : BitVec 32)
    (ft : Buf (Elt F) ((tvW).view.loc (thrV d L))) (fx : Buf (Elt F) ((xs0W).view.loc (thrV d L))) (hfx : XsOK fx)
    (g : Fin k1_t2_loop.trips) (acc : BitVec 32) :
    inv_t2 d L ft fx g acc
      ⊢ wp frame (wpE (defs₀ (F := F)) 𝒱₀ (thrV d L) none) Set.univ
          (k1_t2_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t2 d L ft fx (g.val + 1)) := by
  unfold k1_t2_body
  simp only [k1_part1_eq_skeleton, k1_part2_eq_skeleton, k1_part3_eq_skeleton]
  unfold k1_part1_skel k1_part2_skel k1_part3_skel
  simp only [SparseCore.vectorLoadIdx_bind (c := thrV d L)]
  unfold inv_t2
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

/-- What a trip of the group loop t3 keeps: the flattened table and the staged index block unchanged, the
    output chunk at some contents. -/
def inv_t3 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc1W).view.loc (thrV d L) ↦{fullShare} fo)

set_option maxRecDepth 65536 in
/-- One trip of t3: sixteen index words are loaded, thirty-two gathers read the table at them plus 1000 c
    (each in range: the words are below 1000), and the thirty-two gathered vectors are stored into the chunk. -/
theorem trip_t3 (d : Dev nD) (L : grid1.Coords) (r : Fin k1_t1_loop.trips) (arg14 : BitVec 32)
    (ft : Buf (Elt F) ((tvW).view.loc (thrV d L))) (fx : Buf (Elt F) ((xs0W).view.loc (thrV d L))) (hfx : XsOK fx)
    (g : Fin k1_t3_loop.trips) (acc : BitVec 32) :
    inv_t3 d L ft fx g acc
      ⊢ wp frame (wpE (defs₀ (F := F)) 𝒱₀ (thrV d L) none) Set.univ
          (k1_t3_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t3 d L ft fx (g.val + 1)) := by
  unfold k1_t3_body
  simp only [k1_part8_eq_skeleton, k1_part9_eq_skeleton, k1_part10_eq_skeleton]
  unfold k1_part8_skel k1_part9_skel k1_part10_skel
  simp only [SparseCore.vectorLoadIdx_bind (c := thrV d L)]
  unfold inv_t3
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

end Cert.Proof.KI

end
-- ==== Proof.KI.PiecesKLemmas.lean ====
/-
  One piece of a slot is taken out of, and put back into, the separating conjunction of that slot's pieces, and all
  pieces of a subcore's block are the pieces of slot 0 and those of slot 1.
-/
import proofs.«203934_g28930899706482_cont_9to1_1937_23_alg».proof.Proof.KI.PiecesK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Taking one piece out of a slot's pieces -/

/-- A separating conjunction over a finite type with the summand at r first, the others kept under a
    conjunction in which the summands at a predicate p, true at r only, are left out. -/
theorem bigSep_univ_hole {I : Type} [Fintype I] [DecidableEq I] (Φ : I → sProp 𝕄) (r : I) (p : I → Prop) [DecidablePred p]
    (hr : p r) (hne : ∀ i, i ≠ r → ¬ p i) :
    bigSep Finset.univ Φ = iprop(Φ r ∗ bigSep Finset.univ fun i => if p i then iprop(emp) else Φ i) := by
  have a1 : bigSep Finset.univ Φ = BI.sep (Φ r) (bigSep (Finset.univ.erase r) Φ) := bigSep_univ_split r
  have a2 : bigSep Finset.univ (fun i => if p i then (iprop(emp) : sProp 𝕄) else Φ i)
      = BI.sep (if p r then (iprop(emp) : sProp 𝕄) else Φ r)
          (bigSep (Finset.univ.erase r) (fun i => if p i then (iprop(emp) : sProp 𝕄) else Φ i)) := bigSep_univ_split r
  have a3 : (if p r then (iprop(emp) : sProp 𝕄) else Φ r) = iprop(emp) := if_pos hr
  have a4 : bigSep (Finset.univ.erase r) (fun i => if p i then (iprop(emp) : sProp 𝕄) else Φ i) = bigSep (Finset.univ.erase r) Φ :=
    bigSep_congr fun i hi => if_neg (hne i (Finset.mem_erase.mp hi).1)
  have a5 : ∀ R : sProp 𝕄, BI.sep (iprop(emp) : sProp 𝕄) R = R := fun R => equiv_iff.mp emp_sep
  rw [a1, a2, a3, a4, a5]; rfl

/-- No piece belongs to row -1: with n = 0 nothing is left out. -/
theorem piecesK_zero (d : Dev nD) (L : grid1.Coords) (k : Fin 2) : PiecesK (F := F) d L k 0 = AllK d L k := by
  unfold PiecesK AllK
  exact bigSep_congr fun i _ => if_neg (Nat.succ_ne_zero _)

/-- A slot's pieces are the piece of row n - 1 and the others. -/
theorem piecesK_split_eq (d : Dev nD) (L : grid1.Coords) (k : Fin 2) (n : Nat) (hn : 0 < n) (hn' : n ≤ 200) :
    AllK (F := F) d L k = iprop(P1n d L (n - 1) k ∗ PiecesK d L k n) := by
  have hr : n - 1 < 200 := by omega
  have e : P1n (F := F) d L (n - 1) k = P1 d L (⟨n - 1, hr⟩, k) := dif_pos hr
  rw [e]
  exact bigSep_univ_hole (fun i : Fin 200 => P1 (F := F) d L (i, k)) ⟨n - 1, hr⟩ (fun i => i.val + 1 = n)
    (by show n - 1 + 1 = n; omega) (fun i hi h => hi (Fin.ext (by show i.val = n - 1; omega)))

theorem piecesK_split (d : Dev nD) (L : grid1.Coords) (k : Fin 2) (n : Nat) (hn : 0 < n) (hn' : n ≤ 200) :
    AllK (F := F) d L k ⊣⊢ iprop(PiecesK d L k n ∗ P1n d L (n - 1) k) := by
  rw [piecesK_split_eq d L k n hn hn']
  constructor
  · iintro ⟨H0, HP⟩
    isplitl [HP]; · iexact HP
    iexact H0
  · iintro ⟨HP, H0⟩
    isplitl [H0]; · iexact H0
    iexact HP

theorem piecesK_split_mp (d : Dev nD) (L : grid1.Coords) (k : Fin 2) (n : Nat) (hn : 0 < n) (hn' : n ≤ 200) :
    AllK (F := F) d L k ⊢ iprop(PiecesK d L k n ∗ P1n d L (n - 1) k) := (piecesK_split d L k n hn hn').1
theorem piecesK_split_mpr (d : Dev nD) (L : grid1.Coords) (k : Fin 2) (n : Nat) (hn : 0 < n) (hn' : n ≤ 200) :
    iprop(PiecesK d L k n ∗ P1n d L (n - 1) k) ⊢ AllK (F := F) d L k := (piecesK_split d L k n hn hn').2

/-- All pieces are the pieces of slot 0 and those of slot 1. -/
theorem all_slots_eq (d : Dev nD) (L : grid1.Coords) : AllPieces (F := F) d L = iprop(AllK d L 0 ∗ AllK d L 1) := by
  unfold AllPieces AllK
  rw [bigSep_univ_prod (P1 (F := F) d L), bigSep_univ_comm (fun (a : Fin 200) (b : Fin 2) => P1 (F := F) d L (a, b)), bigSep_univ_two]

theorem all_slots (d : Dev nD) (L : grid1.Coords) : AllPieces (F := F) d L ⊣⊢ iprop(AllK d L 0 ∗ AllK d L 1) := by
  rw [all_slots_eq d L]

end Cert.Proof.KI

end
-- ==== Proof.KI.Row0.lean ====
/-
  The row loop of stage 0: rows 0 to 39 of out_t. Its first trip finds both chunks free (nothing was copied yet)
  and waits for nothing; every later trip is as in the other stages.
-/
import proofs.«203934_g28930899706482_cont_9to1_1937_23_alg».proof.Proof.KI.RowCommon
import proofs.«203934_g28930899706482_cont_9to1_1937_23_alg».proof.Proof.KI.Group0
import proofs.«203934_g28930899706482_cont_9to1_1937_23_alg».proof.Proof.KI.PiecesKLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- The guard of the two waits of a row of stage 0: the row is not the first. -/
abbrev condR (r : Fin k1_t1_loop.trips) : BitVec 1 := Scalar.cmpi .ne (Scalar.extui (Scalar.cmpi .sgt (Scf.iv 0#32 1#32 r) 0#32)) 0#32
omit [FloatOps F] in
theorem condR_iff : ∀ r : Fin k1_t1_loop.trips, (condR r = 1#1 ↔ r.val ≠ 0) := by decide +kernel

/-- Chunk 0 before row n of out_t: free, its semaphore at zero, when nothing has been copied yet; else its copy of
    row n - 1 in flight. -/
def SlotSt0 (d : Dev nD) (L : grid1.Coords) (n : Nat) : sProp 𝕄 :=
  if n = 0 then iprop(semVal (thrV d L, SemLoc.dma cc1_scratch7.sem) 0 ∗ ∃ f, (oc0W).view.loc (thrV d L) ↦{fullShare} f)
  else OutFlightAt0 d L (n - 1)
def SlotSt1 (d : Dev nD) (L : grid1.Coords) (n : Nat) : sProp 𝕄 :=
  if n = 0 then iprop(semVal (thrV d L, SemLoc.dma cc1_scratch8.sem) 0 ∗ ∃ f, (oc1W).view.loc (thrV d L) ↦{fullShare} f)
  else OutFlightAt1 d L (n - 1)

/-- Between two trips of the row loop of stage 0, before row r. -/
def rowInv0 (d : Dev nD) (L : grid1.Coords) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ SlotSt0 d L r ∗ SlotSt1 d L r
    ∗ PiecesK d L 0 r ∗ PiecesK d L 1 r
    ∗ ∃ W', ⌜∀ p ∈ W', p ∈ W ∨ p.2 = none⌝ ∗ owes (thrV d L) O W')

set_option maxRecDepth 65536 in
/-- Row r of stage 0. -/
theorem row_t1 (d : Dev nD) (L : grid1.Coords) (ft : Buf (Elt F) ((tvW).view.loc (thrV d L))) (fx : Buf (Elt F) ((xs0W).view.loc (thrV d L))) (hfx : XsOK fx)
    (O : CellTallies nD τ sig (HIx 1)) (W : Waits sig (HIx 1)) (r : Fin k1_t1_loop.trips) (acc : BitVec 32) :
    rowInv0 d L ft fx O W r acc
      ⊢ wp frame (wpE (defs₀ (F := F)) 𝒱₀ (thrV d L) none) Set.univ
          (k1_t1_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r acc)
          (rowInv0 d L ft fx O W (r.val + 1)) := by
  have hr : r.val < 40 := lt_of_lt_of_le r.isLt k1_t1_abs.2.1
  have hoff0 : k1_off36 L r 0#32 = ![r.val, 0, col0 L + 256 * (0 : Fin 2).val] := by
    have h := k1_off36_eq L r 0; simpa [col0] using h
  have hoff1 : k1_off36 L r 256#32 = ![r.val, 0, col0 L + 256 * (1 : Fin 2).val] := by
    have h := k1_off36_eq L r 1; simpa [col0] using h
  by_cases h0 : r.val = 0
  · -- the first row: both chunks free, no wait
    have hc : ¬ (condR r = 1#1) := fun h => (condR_iff r).mp h h0
    have e0 : PiecesK (F := F) d L 0 r.val = AllK d L 0 := by rw [h0]; exact piecesK_zero d L 0
    have e1 : PiecesK (F := F) d L 1 r.val = AllK d L 1 := by rw [h0]; exact piecesK_zero d L 1
    unfold k1_t1_body rowInv0 SlotSt0 SlotSt1
    rw [if_pos h0, if_pos h0, if_neg (Nat.succ_ne_zero _), if_neg (Nat.succ_ne_zero _), Nat.add_sub_cancel]
    iintro ⟨#Hmw, Ht, Hx, ⟨Hs0, %fo0, Ho0⟩, ⟨Hs1, %fo1, Ho1⟩, HP0, HP1, %W', %hW', HO⟩
    ihave Hall0 := (Entails.of_eq e0) $$ HP0
    ihave Hsp0 := (piecesK_split_mp (F := F) d L 0 (r.val + 1) (by omega) (by omega)) $$ Hall0
    icases Hsp0 with ⟨HP0, Hp0⟩
    ihave Hp0 := (Entails.of_eq (congrArg (fun n => (P1n (F := F) d L n 0 : sProp 𝕄)) (show r.val + 1 - 1 = r.val by omega))) $$ Hp0
    ihave Hp0' := (take_pieceM (F := F) d L r.val (by omega) 0 (k1_off36 L r 0#32) (k1_off36_inb L r 0) hoff0) $$ Hp0
    icases Hp0' with ⟨%p0, Hp0⟩
    ihave Hall1 := (Entails.of_eq e1) $$ HP1
    ihave Hsp1 := (piecesK_split_mp (F := F) d L 1 (r.val + 1) (by omega) (by omega)) $$ Hall1
    icases Hsp1 with ⟨HP1, Hp1⟩
    ihave Hp1 := (Entails.of_eq (congrArg (fun n => (P1n (F := F) d L n 1 : sProp 𝕄)) (show r.val + 1 - 1 = r.val by omega))) $$ Hp1
    ihave Hp1' := (take_pieceM (F := F) d L r.val (by omega) 1 (k1_off36 L r 256#32) (k1_off36_inb L r 1) hoff1) $$ Hp1
    icases Hp1' with ⟨%p1, Hp1⟩
    sl_exec
    sl_for (inv_t2 d L ft fx) $$ [Ht Hx Ho0]
    case region => intro k acc; exact trip_t2 d L r _ ft fx hfx k acc
    · unfold inv_t2
      isplitl [Ht]; · iexact Ht
      isplitl [Hx]; · iexact Hx
      iexists _; iexact Ho0
    iintro %a0 HI
    unfold inv_t2
    icases HI with ⟨Ht, Hx, %fo0', Ho0⟩
    sl_exec
    sl_for (inv_t3 d L ft fx) $$ [Ht Hx Ho1]
    case region => intro k acc; exact trip_t3 d L r _ ft fx hfx k acc
    · unfold inv_t3
      isplitl [Ht]; · iexact Ht
      isplitl [Hx]; · iexact Hx
      iexists _; iexact Ho1
    iintro %a1 HI
    unfold inv_t3
    icases HI with ⟨Ht, Hx, %fo1', Ho1⟩
    sl_exec
    sl_step
    unfold OutFlightAt0 OutFlightAt1 OutFlight0 OutFlight1
    isplitr; · iexact Hmw
    isplitl [Ht]; · iexact Ht
    isplitl [Hx]; · iexact Hx
    isplitl [Hs0]
    · iexists (pieceM (k1_off36 L r 0#32) (k1_off36_inb L r 0)); isplitr
      · ipureintro; intro f; exact land_pieceM d L r.val (by omega) 0 _ _ hoff0 f
      · iexists p0, fo0'; iexact Hs0
    isplitl [Hs1]
    · iexists (pieceM (k1_off36 L r 256#32) (k1_off36_inb L r 1)); isplitr
      · ipureintro; intro f; exact land_pieceM d L r.val (by omega) 1 _ _ hoff1 f
      · iexists p1, fo1'; iexact Hs1
    isplitl [HP0]; · iexact HP0
    isplitl [HP1]; · iexact HP1
    iexists W'; isplitr
    · ipureintro; exact hW'
    · iexact HO
  · -- a later row: each chunk's previous copy is in flight
    have hc : condR r = 1#1 := (condR_iff r).mpr h0
    unfold k1_t1_body rowInv0 SlotSt0 SlotSt1
    rw [if_neg h0, if_neg h0, if_neg (Nat.succ_ne_zero _), if_neg (Nat.succ_ne_zero _), Nat.add_sub_cancel]
    unfold OutFlightAt0 OutFlightAt1
    iintro ⟨#Hmw, Ht, Hx, ⟨%q0, %hq0, HF0⟩, ⟨%q1, %hq1, HF1⟩, HP0, HP1, %W', %hW', HO⟩
    unfold OutFlight0 OutFlight1
    icases HF0 with ⟨%pp0, %fo0, HF0⟩
    icases HF1 with ⟨%pp1, %fo1, HF1⟩
    sl_exec
    -- chunk 0's copy of row n - 1 has landed: its piece joins the slot's others, the piece of row n leaves them
    ihave Hl0 := (hq0 _) $$ HF0_dst
    ihave Hall0 := ((piecesK_split (F := F) d L 0 (r.val) (by omega) (by omega)).2) $$ [HP0 Hl0]
    · isplitl [HP0]; · iexact HP0
      iexact Hl0
    ihave Hsp0 := ((piecesK_split (F := F) d L 0 (r.val + 1) (by omega) (by omega)).1) $$ Hall0
    icases Hsp0 with ⟨HP0, Hp0⟩
    ihave Hp0 := (Entails.of_eq (congrArg (fun n => (P1n (F := F) d L n 0 : sProp 𝕄)) (show r.val + 1 - 1 = r.val by omega))) $$ Hp0
    ihave Hp0' := (take_pieceM (F := F) d L (r.val) (by omega) 0 (k1_off36 L r 0#32) (k1_off36_inb L r 0) hoff0) $$ Hp0
    icases Hp0' with ⟨%p0, Hp0⟩
    ihave Ho0 := (Entails.of_eq (pts_oc0 (F := F) d L _)) $$ HF0_src
    sl_for (inv_t2 d L ft fx) $$ [Ht Hx Ho0]
    case region => intro k acc; exact trip_t2 d L r _ ft fx hfx k acc
    · unfold inv_t2
      isplitl [Ht]; · iexact Ht
      isplitl [Hx]; · iexact Hx
      iexists _; iexact Ho0
    iintro %a0 HI
    unfold inv_t2
    icases HI with ⟨Ht, Hx, %fo0', Ho0⟩
    sl_exec
    -- chunk 1 likewise
    ihave Hl1 := (hq1 _) $$ HF1_dst
    ihave Hall1 := (piecesK_split_mpr (F := F) d L 1 (r.val) (by omega) (by omega)) $$ [HP1 Hl1]
    · isplitl [HP1]; · iexact HP1
      iexact Hl1
    ihave Hsp1 := (piecesK_split_mp (F := F) d L 1 (r.val + 1) (by omega) (by omega)) $$ Hall1
    icases Hsp1 with ⟨HP1, Hp1⟩
    ihave Hp1 := (Entails.of_eq (congrArg (fun n => (P1n (F := F) d L n 1 : sProp 𝕄)) (show r.val + 1 - 1 = r.val by omega))) $$ Hp1
    ihave Hp1' := (take_pieceM (F := F) d L (r.val) (by omega) 1 (k1_off36 L r 256#32) (k1_off36_inb L r 1) hoff1) $$ Hp1
    icases Hp1' with ⟨%p1, Hp1⟩
    ihave Ho1 := (Entails.of_eq (pts_oc1 (F := F) d L _)) $$ HF1_src
    sl_for (inv_t3 d L ft fx) $$ [Ht Hx Ho1]
    case region => intro k acc; exact trip_t3 d L r _ ft fx hfx k acc
    · unfold inv_t3
      isplitl [Ht]; · iexact Ht
      isplitl [Hx]; · iexact Hx
      iexists _; iexact Ho1
    iintro %a1 HI
    unfold inv_t3
    icases HI with ⟨Ht, Hx, %fo1', Ho1⟩
    sl_exec
    sl_step
    isplitr; · iexact Hmw
    isplitl [Ht]; · iexact Ht
    isplitl [Hx]; · iexact Hx
    isplitl [HF0]
    · iexists (pieceM (k1_off36 L r 0#32) (k1_off36_inb L r 0)); isplitr
      · ipureintro; intro f; exact land_pieceM d L (r.val) (by omega) 0 _ _ hoff0 f
      · iexists p0, fo0'; iexact HF0
    isplitl [HF1]
    · iexists (pieceM (k1_off36 L r 256#32) (k1_off36_inb L r 1)); isplitr
      · ipureintro; intro f; exact land_pieceM d L (r.val) (by omega) 1 _ _ hoff1 f
      · iexists p1, fo1'; iexact HF1
    isplitl [HP0]; · iexact HP0
    isplitl [HP1]; · iexact HP1
    iexists (insert (SemLoc.dma cc1_scratch8.sem, (default : HIx 1)) (insert (SemLoc.dma cc1_scratch7.sem, (default : HIx 1)) W')); isplitr
    · ipureintro; intro p hp
      rcases Finset.mem_insert.mp hp with hp | hp
      · exact .inr (by subst hp; rfl)
      rcases Finset.mem_insert.mp hp with hp | hp
      · exact .inr (by subst hp; rfl)
      · exact hW' p hp
    · iexact HO

end Cert.Proof.KI

end
-- ==== Proof.KI.Group1.lean ====
/-
  The group loops of stage 1 (rows 40 to 79 of out_t): as in stage 0, sixteen index words are loaded from
  the staged block and the flattened table is gathered at them plus 1000 c into row c of the output chunk.
-/
import proofs.«203934_g28930899706482_cont_9to1_1937_23_alg».proof.Proof.KI.TileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- What a trip of the group loop t5 keeps: the flattened table and the staged index block unchanged, the
    output chunk at some contents. -/
def inv_t5 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc0W).view.loc (thrV d L) ↦{fullShare} fo)

set_option maxRecDepth 65536 in
/-- One trip of t5: sixteen index words are loaded, thirty-two gathers read the table at them plus 1000 c
    (each in range: the words are below 1000), and the thirty-two gathered vectors are stored into the chunk. -/
theorem trip_t5 (d : Dev nD) (L : grid1.Coords) (r : Fin k1_t4_loop.trips) (arg14 : BitVec 32)
    (ft : Buf (Elt F) ((tvW).view.loc (thrV d L))) (fx : Buf (Elt F) ((xs1W).view.loc (thrV d L))) (hfx : XsOK fx)
    (g : Fin k1_t5_loop.trips) (acc : BitVec 32) :
    inv_t5 d L ft fx g acc
      ⊢ wp frame (wpE (defs₀ (F := F)) 𝒱₀ (thrV d L) none) Set.univ
          (k1_t5_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t5 d L ft fx (g.val + 1)) := by
  unfold k1_t5_body
  simp only [k1_part15_eq_skeleton, k1_part16_eq_skeleton, k1_part17_eq_skeleton]
  unfold k1_part15_skel k1_part16_skel k1_part17_skel
  simp only [SparseCore.vectorLoadIdx_bind (c := thrV d L)]
  unfold inv_t5
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

/-- What a trip of the group loop t6 keeps: the flattened table and the staged index block unchanged, the
    output chunk at some contents. -/
def inv_t6 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc1W).view.loc (thrV d L) ↦{fullShare} fo)

set_option maxRecDepth 65536 in
/-- One trip of t6: sixteen index words are loaded, thirty-two gathers read the table at them plus 1000 c
    (each in range: the words are below 1000), and the thirty-two gathered vectors are stored into the chunk. -/
theorem trip_t6 (d : Dev nD) (L : grid1.Coords) (r : Fin k1_t4_loop.trips) (arg14 : BitVec 32)
    (ft : Buf (Elt F) ((tvW).view.loc (thrV d L))) (fx : Buf (Elt F) ((xs1W).view.loc (thrV d L))) (hfx : XsOK fx)
    (g : Fin k1_t6_loop.trips) (acc : BitVec 32) :
    inv_t6 d L ft fx g acc
      ⊢ wp frame (wpE (defs₀ (F := F)) 𝒱₀ (thrV d L) none) Set.univ
          (k1_t6_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t6 d L ft fx (g.val + 1)) := by
  unfold k1_t6_body
  simp only [k1_part22_eq_skeleton, k1_part23_eq_skeleton, k1_part24_eq_skeleton]
  unfold k1_part22_skel k1_part23_skel k1_part24_skel
  simp only [SparseCore.vectorLoadIdx_bind (c := thrV d L)]
  unfold inv_t6
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

end Cert.Proof.KI

end
-- ==== Proof.KI.Row1.lean ====
/-
  The row loop of stage 1: rows 40 to 79 of out_t. Each trip waits for the two chunks' copies of the previous row,
  refills the chunks from the staged indices and the flattened table, and starts their copies into the row's two pieces.
-/
import proofs.«203934_g28930899706482_cont_9to1_1937_23_alg».proof.Proof.KI.RowCommon
import proofs.«203934_g28930899706482_cont_9to1_1937_23_alg».proof.Proof.KI.Group1
import proofs.«203934_g28930899706482_cont_9to1_1937_23_alg».proof.Proof.KI.PiecesKLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- Between two trips of the row loop of stage 1, before row n of out_t: the table and the staged indices as they
    are, each chunk's copy of row n - 1 in flight, every other piece of each slot held, the waits recorded. -/
def rowInv1 (d : Dev nD) (L : grid1.Coords) (ft : Buf (Elt F) ((tvW).view.loc (thrV d L))) (fx : Buf (Elt F) ((xs1W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs1W).view.loc (thrV d L) ↦{fullShare} fx)
    ∗ OutFlightAt0 d L (r + 40 - 1) ∗ OutFlightAt1 d L (r + 40 - 1)
    ∗ PiecesK d L 0 (r + 40) ∗ PiecesK d L 1 (r + 40)
    ∗ ∃ W', ⌜∀ p ∈ W', p ∈ W ∨ p.2 = none⌝ ∗ owes (thrV d L) O W')

set_option maxRecDepth 65536 in
/-- Row r of stage 1: for each chunk, its previous copy is waited for (the piece of row n - 1 lands), the chunk is
    filled by its group loop, and its copy into the piece of row n = r + 40 is started. -/
theorem row_t4 (d : Dev nD) (L : grid1.Coords) (ft : Buf (Elt F) ((tvW).view.loc (thrV d L))) (fx : Buf (Elt F) ((xs1W).view.loc (thrV d L))) (hfx : XsOK fx)
    (O : CellTallies nD τ sig (HIx 1)) (W : Waits sig (HIx 1)) (r : Fin k1_t4_loop.trips) (acc : BitVec 32) :
    rowInv1 d L ft fx O W r acc
      ⊢ wp frame (wpE (defs₀ (F := F)) 𝒱₀ (thrV d L) none) Set.univ
          (k1_t4_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r acc)
          (rowInv1 d L ft fx O W (r.val + 1)) := by
  have hr : r.val < 40 := lt_of_lt_of_le r.isLt k1_t4_abs.2.1
  have hoff0 : k1_off104 L r 0#32 = ![r.val + 40, 0, col0 L + 256 * (0 : Fin 2).val] := by
    have h := k1_off104_eq L r 0; simpa [col0] using h
  have hoff1 : k1_off104 L r 256#32 = ![r.val + 40, 0, col0 L + 256 * (1 : Fin 2).val] := by
    have h := k1_off104_eq L r 1; simpa [col0] using h
  unfold k1_t4_body rowInv1 OutFlightAt0 OutFlightAt1
  rw [show r.val + 1 + 40 = r.val + 40 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 40) (by omega) (by omega)).2) $$ [HP0 Hl0]
  · isplitl [HP0]; · iexact HP0
    iexact Hl0
  ihave Hsp0 := ((piecesK_split (F := F) d L 0 (r.val + 40 + 1) (by omega) (by omega)).1) $$ Hall0
  icases Hsp0 with ⟨HP0, Hp0⟩
  ihave Hp0 := (Entails.of_eq (congrArg (fun n => (P1n (F := F) d L n 0 : sProp 𝕄)) (show r.val + 40 + 1 - 1 = r.val + 40 by omega))) $$ Hp0
  ihave Hp0' := (take_pieceM (F := F) d L (r.val + 40) (by omega) 0 (k1_off104 L r 0#32) (k1_off104_inb L r 0) hoff0) $$ Hp0
  icases Hp0' with ⟨%p0, Hp0⟩
  ihave Ho0 := (Entails.of_eq (pts_oc0 (F := F) d L _)) $$ HF0_src
  sl_for (inv_t5 d L ft fx) $$ [Ht Hx Ho0]
  case region => intro k acc; exact trip_t5 d L r _ ft fx hfx k acc
  · unfold inv_t5
    isplitl [Ht]; · iexact Ht
    isplitl [Hx]; · iexact Hx
    iexists _; iexact Ho0
  iintro %a0 HI
  unfold inv_t5
  icases HI with ⟨Ht, Hx, %fo0', Ho0⟩
  sl_exec
  -- chunk 1 likewise
  ihave Hl1 := (hq1 _) $$ HF1_dst
  ihave Hall1 := (piecesK_split_mpr (F := F) d L 1 (r.val + 40) (by omega) (by omega)) $$ [HP1 Hl1]
  · isplitl [HP1]; · iexact HP1
    iexact Hl1
  ihave Hsp1 := (piecesK_split_mp (F := F) d L 1 (r.val + 40 + 1) (by omega) (by omega)) $$ Hall1
  icases Hsp1 with ⟨HP1, Hp1⟩
  ihave Hp1 := (Entails.of_eq (congrArg (fun n => (P1n (F := F) d L n 1 : sProp 𝕄)) (show r.val + 40 + 1 - 1 = r.val + 40 by omega))) $$ Hp1
  ihave Hp1' := (take_pieceM (F := F) d L (r.val + 40) (by omega) 1 (k1_off104 L r 256#32) (k1_off104_inb L r 1) hoff1) $$ Hp1
  icases Hp1' with ⟨%p1, Hp1⟩
  ihave Ho1 := (Entails.of_eq (pts_oc1 (F := F) d L _)) $$ HF1_src
  sl_for (inv_t6 d L ft fx) $$ [Ht Hx Ho1]
  case region => intro k acc; exact trip_t6 d L r _ ft fx hfx k acc
  · unfold inv_t6
    isplitl [Ht]; · iexact Ht
    isplitl [Hx]; · iexact Hx
    iexists _; iexact Ho1
  iintro %a1 HI
  unfold inv_t6
  icases HI with ⟨Ht, Hx, %fo1', Ho1⟩
  sl_exec
  sl_step
  isplitr; · iexact Hmw
  isplitl [Ht]; · iexact Ht
  isplitl [Hx]; · iexact Hx
  isplitl [HF0]
  · iexists (pieceM (k1_off104 L r 0#32) (k1_off104_inb L r 0)); isplitr
    · ipureintro; intro f; exact land_pieceM d L (r.val + 40) (by omega) 0 _ _ hoff0 f
    · iexists p0, fo0'; iexact HF0
  isplitl [HF1]
  · iexists (pieceM (k1_off104 L r 256#32) (k1_off104_inb L r 1)); isplitr
    · ipureintro; intro f; exact land_pieceM d L (r.val + 40) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.Group2.lean ====
/-
  The group loops of stage 2 (rows 80 to 119 of out_t): as in stage 0, sixteen index words are loaded from
  the staged block and the flattened table is gathered at them plus 1000 c into row c of the output chunk.
-/
import proofs.«203934_g28930899706482_cont_9to1_1937_23_alg».proof.Proof.KI.TileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- What a trip of the group loop t8 keeps: the flattened table and the staged index block unchanged, the
    output chunk at some contents. -/
def inv_t8 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc0W).view.loc (thrV d L) ↦{fullShare} fo)

set_option maxRecDepth 65536 in
/-- One trip of t8: sixteen index words are loaded, thirty-two gathers read the table at them plus 1000 c
    (each in range: the words are below 1000), and the thirty-two gathered vectors are stored into the chunk. -/
theorem trip_t8 (d : Dev nD) (L : grid1.Coords) (v2 : BitVec 32) (r : Fin k1_t7_loop.trips) (arg14 : BitVec 32)
    (ft : Buf (Elt F) ((tvW).view.loc (thrV d L))) (fx : Buf (Elt F) ((xs0W).view.loc (thrV d L))) (hfx : XsOK fx)
    (g : Fin k1_t8_loop.trips) (acc : BitVec 32) :
    inv_t8 d L ft fx g acc
      ⊢ wp frame (wpE (defs₀ (F := F)) 𝒱₀ (thrV d L) none) Set.univ
          (k1_t8_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t8 d L ft fx (g.val + 1)) := by
  unfold k1_t8_body
  simp only [k1_part29_eq_skeleton, k1_part30_eq_skeleton, k1_part31_eq_skeleton]
  unfold k1_part29_skel k1_part30_skel k1_part31_skel
  simp only [SparseCore.vectorLoadIdx_bind (c := thrV d L)]
  unfold inv_t8
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

/-- What a trip of the group loop t9 keeps: the flattened table and the staged index block unchanged, the
    output chunk at some contents. -/
def inv_t9 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc1W).view.loc (thrV d L) ↦{fullShare} fo)

set_option maxRecDepth 65536 in
/-- One trip of t9: sixteen index words are loaded, thirty-two gathers read the table at them plus 1000 c
    (each in range: the words are below 1000), and the thirty-two gathered vectors are stored into the chunk. -/
theorem trip_t9 (d : Dev nD) (L : grid1.Coords) (v2 : BitVec 32) (r : Fin k1_t7_loop.trips) (arg14 : BitVec 32)
    (ft : Buf (Elt F) ((tvW).view.loc (thrV d L))) (fx : Buf (Elt F) ((xs0W).view.loc (thrV d L))) (hfx : XsOK fx)
    (g : Fin k1_t9_loop.trips) (acc : BitVec 32) :
    inv_t9 d L ft fx g acc
      ⊢ wp frame (wpE (defs₀ (F := F)) 𝒱₀ (thrV d L) none) Set.univ
          (k1_t9_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t9 d L ft fx (g.val + 1)) := by
  unfold k1_t9_body
  simp only [k1_part36_eq_skeleton, k1_part37_eq_skeleton, k1_part38_eq_skeleton]
  unfold k1_part36_skel k1_part37_skel k1_part38_skel
  simp only [SparseCore.vectorLoadIdx_bind (c := thrV d L)]
  unfold inv_t9
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

end Cert.Proof.KI

end
-- ==== Proof.KI.Row2.lean ====
/-
  The row loop of stage 2: rows 80 to 119 of out_t. Each trip waits for the two chunks' copies of the previous row,
  refills the chunks from the staged indices and the flattened table, and starts their copies into the row's two pieces.
-/
import proofs.«203934_g28930899706482_cont_9to1_1937_23_alg».proof.Proof.KI.RowCommon
import proofs.«203934_g28930899706482_cont_9to1_1937_23_alg».proof.Proof.KI.Group2
import proofs.«203934_g28930899706482_cont_9to1_1937_23_alg».proof.Proof.KI.PiecesKLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- Between two trips of the row loop of stage 2, before row n of out_t: the table and the staged indices as they
    are, each chunk's copy of row n - 1 in flight, every other piece of each slot held, the waits recorded. -/
def rowInv2 (d : Dev nD) (L : grid1.Coords) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ OutFlightAt0 d L (r + 80 - 1) ∗ OutFlightAt1 d L (r + 80 - 1)
    ∗ PiecesK d L 0 (r + 80) ∗ PiecesK d L 1 (r + 80)
    ∗ ∃ W', ⌜∀ p ∈ W', p ∈ W ∨ p.2 = none⌝ ∗ owes (thrV d L) O W')

set_option maxRecDepth 65536 in
/-- Row r of stage 2: for each chunk, its previous copy is waited for (the piece of row n - 1 lands), the chunk is
    filled by its group loop, and its copy into the piece of row n = r + 80 is started. -/
theorem row_t7 (d : Dev nD) (L : grid1.Coords) (v2 : BitVec 32) (ft : Buf (Elt F) ((tvW).view.loc (thrV d L))) (fx : Buf (Elt F) ((xs0W).view.loc (thrV d L))) (hfx : XsOK fx)
    (O : CellTallies nD τ sig (HIx 1)) (W : Waits sig (HIx 1)) (r : Fin k1_t7_loop.trips) (acc : BitVec 32) :
    rowInv2 d L ft fx O W r acc
      ⊢ wp frame (wpE (defs₀ (F := F)) 𝒱₀ (thrV d L) none) Set.univ
          (k1_t7_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInv2 d L ft fx O W (r.val + 1)) := by
  have hr : r.val < 40 := lt_of_lt_of_le r.isLt k1_t7_abs.2.1
  have hoff0 : k1_off172 L r 0#32 = ![r.val + 80, 0, col0 L + 256 * (0 : Fin 2).val] := by
    have h := k1_off172_eq L r 0; simpa [col0] using h
  have hoff1 : k1_off172 L r 256#32 = ![r.val + 80, 0, col0 L + 256 * (1 : Fin 2).val] := by
    have h := k1_off172_eq L r 1; simpa [col0] using h
  unfold k1_t7_body rowInv2 OutFlightAt0 OutFlightAt1
  rw [show r.val + 1 + 80 = r.val + 80 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 80) (by omega) (by omega)).2) $$ [HP0 Hl0]
  · isplitl [HP0]; · iexact HP0
    iexact Hl0
  ihave Hsp0 := ((piecesK_split (F := F) d L 0 (r.val + 80 + 1) (by omega) (by omega)).1) $$ Hall0
  icases Hsp0 with ⟨HP0, Hp0⟩
  ihave Hp0 := (Entails.of_eq (congrArg (fun n => (P1n (F := F) d L n 0 : sProp 𝕄)) (show r.val + 80 + 1 - 1 = r.val + 80 by omega))) $$ Hp0
  ihave Hp0' := (take_pieceM (F := F) d L (r.val + 80) (by omega) 0 (k1_off172 L r 0#32) (k1_off172_inb L r 0) hoff0) $$ Hp0
  icases Hp0' with ⟨%p0, Hp0⟩
  ihave Ho0 := (Entails.of_eq (pts_oc0 (F := F) d L _)) $$ HF0_src
  sl_for (inv_t8 d L ft fx) $$ [Ht Hx Ho0]
  case region => intro k acc; exact trip_t8 d L v2 r _ ft fx hfx k acc
  · unfold inv_t8
    isplitl [Ht]; · iexact Ht
    isplitl [Hx]; · iexact Hx
    iexists _; iexact Ho0
  iintro %a0 HI
  unfold inv_t8
  icases HI with ⟨Ht, Hx, %fo0', Ho0⟩
  sl_exec
  -- chunk 1 likewise
  ihave Hl1 := (hq1 _) $$ HF1_dst
  ihave Hall1 := (piecesK_split_mpr (F := F) d L 1 (r.val + 80) (by omega) (by omega)) $$ [HP1 Hl1]
  · isplitl [HP1]; · iexact HP1
    iexact Hl1
  ihave Hsp1 := (piecesK_split_mp (F := F) d L 1 (r.val + 80 + 1) (by omega) (by omega)) $$ Hall1
  icases Hsp1 with ⟨HP1, Hp1⟩
  ihave Hp1 := (Entails.of_eq (congrArg (fun n => (P1n (F := F) d L n 1 : sProp 𝕄)) (show r.val + 80 + 1 - 1 = r.val + 80 by omega))) $$ Hp1
  ihave Hp1' := (take_pieceM (F := F) d L (r.val + 80) (by omega) 1 (k1_off172 L r 256#32) (k1_off172_inb L r 1) hoff1) $$ Hp1
  icases Hp1' with ⟨%p1, Hp1⟩
  ihave Ho1 := (Entails.of_eq (pts_oc1 (F := F) d L _)) $$ HF1_src
  sl_for (inv_t9 d L ft fx) $$ [Ht Hx Ho1]
  case region => intro k acc; exact trip_t9 d L v2 r _ ft fx hfx k acc
  · unfold inv_t9
    isplitl [Ht]; · iexact Ht
    isplitl [Hx]; · iexact Hx
    iexists _; iexact Ho1
  iintro %a1 HI
  unfold inv_t9
  icases HI with ⟨Ht, Hx, %fo1', Ho1⟩
  sl_exec
  sl_step
  isplitr; · iexact Hmw
  isplitl [Ht]; · iexact Ht
  isplitl [Hx]; · iexact Hx
  isplitl [HF0]
  · iexists (pieceM (k1_off172 L r 0#32) (k1_off172_inb L r 0)); isplitr
    · ipureintro; intro f; exact land_pieceM d L (r.val + 80) (by omega) 0 _ _ hoff0 f
    · iexists p0, fo0'; iexact HF0
  isplitl [HF1]
  · iexists (pieceM (k1_off172 L r 256#32) (k1_off172_inb L r 1)); isplitr
    · ipureintro; intro f; exact land_pieceM d L (r.val + 80) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.Group3.lean ====
/-
  The group loops of stage 3 (rows 120 to 159 of out_t): as in stage 0, sixteen index words are loaded from
  the staged block and the flattened table is gathered at them plus 1000 c into row c of the output chunk.
-/
import proofs.«203934_g28930899706482_cont_9to1_1937_23_alg».proof.Proof.KI.TileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- What a trip of the group loop t11 keeps: the flattened table and the staged index block unchanged, the
    output chunk at some contents. -/
def inv_t11 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc0W).view.loc (thrV d L) ↦{fullShare} fo)

set_option maxRecDepth 65536 in
/-- One trip of t11: sixteen index words are loaded, thirty-two gathers read the table at them plus 1000 c
    (each in range: the words are below 1000), and the thirty-two gathered vectors are stored into the chunk. -/
theorem trip_t11 (d : Dev nD) (L : grid1.Coords) (v2 : BitVec 32) (r : Fin k1_t10_loop.trips) (arg14 : BitVec 32)
    (ft : Buf (Elt F) ((tvW).view.loc (thrV d L))) (fx : Buf (Elt F) ((xs1W).view.loc (thrV d L))) (hfx : XsOK fx)
    (g : Fin k1_t11_loop.trips) (acc : BitVec 32) :
    inv_t11 d L ft fx g acc
      ⊢ wp frame (wpE (defs₀ (F := F)) 𝒱₀ (thrV d L) none) Set.univ
          (k1_t11_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t11 d L ft fx (g.val + 1)) := by
  unfold k1_t11_body
  simp only [k1_part43_eq_skeleton, k1_part44_eq_skeleton, k1_part45_eq_skeleton]
  unfold k1_part43_skel k1_part44_skel k1_part45_skel
  simp only [SparseCore.vectorLoadIdx_bind (c := thrV d L)]
  unfold inv_t11
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

/-- What a trip of the group loop t12 keeps: the flattened table and the staged index block unchanged, the
    output chunk at some contents. -/
def inv_t12 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc1W).view.loc (thrV d L) ↦{fullShare} fo)

set_option maxRecDepth 65536 in
/-- One trip of t12: sixteen index words are loaded, thirty-two gathers read the table at them plus 1000 c
    (each in range: the words are below 1000), and the thirty-two gathered vectors are stored into the chunk. -/
theorem trip_t12 (d : Dev nD) (L : grid1.Coords) (v2 : BitVec 32) (r : Fin k1_t10_loop.trips) (arg14 : BitVec 32)
    (ft : Buf (Elt F) ((tvW).view.loc (thrV d L))) (fx : Buf (Elt F) ((xs1W).view.loc (thrV d L))) (hfx : XsOK fx)
    (g : Fin k1_t12_loop.trips) (acc : BitVec 32) :
    inv_t12 d L ft fx g acc
      ⊢ wp frame (wpE (defs₀ (F := F)) 𝒱₀ (thrV d L) none) Set.univ
          (k1_t12_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t12 d L ft fx (g.val + 1)) := by
  unfold k1_t12_body
  simp only [k1_part50_eq_skeleton, k1_part51_eq_skeleton, k1_part52_eq_skeleton]
  unfold k1_part50_skel k1_part51_skel k1_part52_skel
  simp only [SparseCore.vectorLoadIdx_bind (c := thrV d L)]
  unfold inv_t12
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

end Cert.Proof.KI

end
-- ==== Proof.KI.Row3.lean ====
/-
  The row loop of stage 3: rows 120 to 159 of out_t. Each trip waits for the two chunks' copies of the previous row,
  refills the chunks from the staged indices and the flattened table, and starts their copies into the row's two pieces.
-/
import proofs.«203934_g28930899706482_cont_9to1_1937_23_alg».proof.Proof.KI.RowCommon
import proofs.«203934_g28930899706482_cont_9to1_1937_23_alg».proof.Proof.KI.Group3
import proofs.«203934_g28930899706482_cont_9to1_1937_23_alg».proof.Proof.KI.PiecesKLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- Between two trips of the row loop of stage 3, before row n of out_t: the table and the staged indices as they
    are, each chunk's copy of row n - 1 in flight, every other piece of each slot held, the waits recorded. -/
def rowInv3 (d : Dev nD) (L : grid1.Coords) (ft : Buf (Elt F) ((tvW).view.loc (thrV d L))) (fx : Buf (Elt F) ((xs1W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs1W).view.loc (thrV d L) ↦{fullShare} fx)
    ∗ OutFlightAt0 d L (r + 120 - 1) ∗ OutFlightAt1 d L (r + 120 - 1)
    ∗ PiecesK d L 0 (r + 120) ∗ PiecesK d L 1 (r + 120)
    ∗ ∃ W', ⌜∀ p ∈ W', p ∈ W ∨ p.2 = none⌝ ∗ owes (thrV d L) O W')

set_option maxRecDepth 65536 in
/-- Row r of stage 3: for each chunk, its previous copy is waited for (the piece of row n - 1 lands), the chunk is
    filled by its group loop, and its copy into the piece of row n = r + 120 is started. -/
theorem row_t10 (d : Dev nD) (L : grid1.Coords) (v2 : BitVec 32) (ft : Buf (Elt F) ((tvW).view.loc (thrV d L))) (fx : Buf (Elt F) ((xs1W).view.loc (thrV d L))) (hfx : XsOK fx)
    (O : CellTallies nD τ sig (HIx 1)) (W : Waits sig (HIx 1)) (r : Fin k1_t10_loop.trips) (acc : BitVec 32) :
    rowInv3 d L ft fx O W r acc
      ⊢ wp frame (wpE (defs₀ (F := F)) 𝒱₀ (thrV d L) none) Set.univ
          (k1_t10_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInv3 d L ft fx O W (r.val + 1)) := by
  have hr : r.val < 40 := lt_of_lt_of_le r.isLt k1_t10_abs.2.1
  have hoff0 : k1_off240 L r 0#32 = ![r.val + 120, 0, col0 L + 256 * (0 : Fin 2).val] := by
    have h := k1_off240_eq L r 0; simpa [col0] using h
  have hoff1 : k1_off240 L r 256#32 = ![r.val + 120, 0, col0 L + 256 * (1 : Fin 2).val] := by
    have h := k1_off240_eq L r 1; simpa [col0] using h
  unfold k1_t10_body rowInv3 OutFlightAt0 OutFlightAt1
  rw [show r.val + 1 + 120 = r.val + 120 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 120) (by omega) (by omega)).2) $$ [HP0 Hl0]
  · isplitl [HP0]; · iexact HP0
    iexact Hl0
  ihave Hsp0 := ((piecesK_split (F := F) d L 0 (r.val + 120 + 1) (by omega) (by omega)).1) $$ Hall0
  icases Hsp0 with ⟨HP0, Hp0⟩
  ihave Hp0 := (Entails.of_eq (congrArg (fun n => (P1n (F := F) d L n 0 : sProp 𝕄)) (show r.val + 120 + 1 - 1 = r.val + 120 by omega))) $$ Hp0
  ihave Hp0' := (take_pieceM (F := F) d L (r.val + 120) (by omega) 0 (k1_off240 L r 0#32) (k1_off240_inb L r 0) hoff0) $$ Hp0
  icases Hp0' with ⟨%p0, Hp0⟩
  ihave Ho0 := (Entails.of_eq (pts_oc0 (F := F) d L _)) $$ HF0_src
  sl_for (inv_t11 d L ft fx) $$ [Ht Hx Ho0]
  case region => intro k acc; exact trip_t11 d L v2 r _ ft fx hfx k acc
  · unfold inv_t11
    isplitl [Ht]; · iexact Ht
    isplitl [Hx]; · iexact Hx
    iexists _; iexact Ho0
  iintro %a0 HI
  unfold inv_t11
  icases HI with ⟨Ht, Hx, %fo0', Ho0⟩
  sl_exec
  -- chunk 1 likewise
  ihave Hl1 := (hq1 _) $$ HF1_dst
  ihave Hall1 := (piecesK_split_mpr (F := F) d L 1 (r.val + 120) (by omega) (by omega)) $$ [HP1 Hl1]
  · isplitl [HP1]; · iexact HP1
    iexact Hl1
  ihave Hsp1 := (piecesK_split_mp (F := F) d L 1 (r.val + 120 + 1) (by omega) (by omega)) $$ Hall1
  icases Hsp1 with ⟨HP1, Hp1⟩
  ihave Hp1 := (Entails.of_eq (congrArg (fun n => (P1n (F := F) d L n 1 : sProp 𝕄)) (show r.val + 120 + 1 - 1 = r.val + 120 by omega))) $$ Hp1
  ihave Hp1' := (take_pieceM (F := F) d L (r.val + 120) (by omega) 1 (k1_off240 L r 256#32) (k1_off240_inb L r 1) hoff1) $$ Hp1
  icases Hp1' with ⟨%p1, Hp1⟩
  ihave Ho1 := (Entails.of_eq (pts_oc1 (F := F) d L _)) $$ HF1_src
  sl_for (inv_t12 d L ft fx) $$ [Ht Hx Ho1]
  case region => intro k acc; exact trip_t12 d L v2 r _ ft fx hfx k acc
  · unfold inv_t12
    isplitl [Ht]; · iexact Ht
    isplitl [Hx]; · iexact Hx
    iexists _; iexact Ho1
  iintro %a1 HI
  unfold inv_t12
  icases HI with ⟨Ht, Hx, %fo1', Ho1⟩
  sl_exec
  sl_step
  isplitr; · iexact Hmw
  isplitl [Ht]; · iexact Ht
  isplitl [Hx]; · iexact Hx
  isplitl [HF0]
  · iexists (pieceM (k1_off240 L r 0#32) (k1_off240_inb L r 0)); isplitr
    · ipureintro; intro f; exact land_pieceM d L (r.val + 120) (by omega) 0 _ _ hoff0 f
    · iexists p0, fo0'; iexact HF0
  isplitl [HF1]
  · iexists (pieceM (k1_off240 L r 256#32) (k1_off240_inb L r 1)); isplitr
    · ipureintro; intro f; exact land_pieceM d L (r.val + 120) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.Group4.lean ====
/-
  The group loops of stage 4 (rows 160 to 199 of out_t): as in stage 0, sixteen index words are loaded from
  the staged block and the flattened table is gathered at them plus 1000 c into row c of the output chunk.
-/
import proofs.«203934_g28930899706482_cont_9to1_1937_23_alg».proof.Proof.KI.TileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- What a trip of the group loop t14 keeps: the flattened table and the staged index block unchanged, the
    output chunk at some contents. -/
def inv_t14 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc0W).view.loc (thrV d L) ↦{fullShare} fo)

set_option maxRecDepth 65536 in
/-- One trip of t14: sixteen index words are loaded, thirty-two gathers read the table at them plus 1000 c
    (each in range: the words are below 1000), and the thirty-two gathered vectors are stored into the chunk. -/
theorem trip_t14 (d : Dev nD) (L : grid1.Coords) (v2 : BitVec 32) (r : Fin k1_t13_loop.trips) (arg14 : BitVec 32)
    (ft : Buf (Elt F) ((tvW).view.loc (thrV d L))) (fx : Buf (Elt F) ((xs0W).view.loc (thrV d L))) (hfx : XsOK fx)
    (g : Fin k1_t14_loop.trips) (acc : BitVec 32) :
    inv_t14 d L ft fx g acc
      ⊢ wp frame (wpE (defs₀ (F := F)) 𝒱₀ (thrV d L) none) Set.univ
          (k1_t14_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t14 d L ft fx (g.val + 1)) := by
  unfold k1_t14_body
  simp only [k1_part57_eq_skeleton, k1_part58_eq_skeleton, k1_part59_eq_skeleton]
  unfold k1_part57_skel k1_part58_skel k1_part59_skel
  simp only [SparseCore.vectorLoadIdx_bind (c := thrV d L)]
  unfold inv_t14
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

/-- What a trip of the group loop t15 keeps: the flattened table and the staged index block unchanged, the
    output chunk at some contents. -/
def inv_t15 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc1W).view.loc (thrV d L) ↦{fullShare} fo)

set_option maxRecDepth 65536 in
/-- One trip of t15: sixteen index words are loaded, thirty-two gathers read the table at them plus 1000 c
    (each in range: the words are below 1000), and the thirty-two gathered vectors are stored into the chunk. -/
theorem trip_t15 (d : Dev nD) (L : grid1.Coords) (v2 : BitVec 32) (r : Fin k1_t13_loop.trips) (arg14 : BitVec 32)
    (ft : Buf (Elt F) ((tvW).view.loc (thrV d L))) (fx : Buf (Elt F) ((xs0W).view.loc (thrV d L))) (hfx : XsOK fx)
    (g : Fin k1_t15_loop.trips) (acc : BitVec 32) :
    inv_t15 d L ft fx g acc
      ⊢ wp frame (wpE (defs₀ (F := F)) 𝒱₀ (thrV d L) none) Set.univ
          (k1_t15_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t15 d L ft fx (g.val + 1)) := by
  unfold k1_t15_body
  simp only [k1_part64_eq_skeleton, k1_part65_eq_skeleton, k1_part66_eq_skeleton]
  unfold k1_part64_skel k1_part65_skel k1_part66_skel
  simp only [SparseCore.vectorLoadIdx_bind (c := thrV d L)]
  unfold inv_t15
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

end Cert.Proof.KI

end
-- ==== Proof.KI.Row4.lean ====
/-
  The row loop of stage 4: rows 160 to 199 of out_t. Each trip waits for the two chunks' copies of the previous row,
  refills the chunks from the staged indices and the flattened table, and starts their copies into the row's two pieces.
-/
import proofs.«203934_g28930899706482_cont_9to1_1937_23_alg».proof.Proof.KI.RowCommon
import proofs.«203934_g28930899706482_cont_9to1_1937_23_alg».proof.Proof.KI.Group4
import proofs.«203934_g28930899706482_cont_9to1_1937_23_alg».proof.Proof.KI.PiecesKLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

/-- Between two trips of the row loop of stage 4, before row n of out_t: the table and the staged indices as they
    are, each chunk's copy of row n - 1 in flight, every other piece of each slot held, the waits recorded. -/
def rowInv4 (d : Dev nD) (L : grid1.Coords) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ OutFlightAt0 d L (r + 160 - 1) ∗ OutFlightAt1 d L (r + 160 - 1)
    ∗ PiecesK d L 0 (r + 160) ∗ PiecesK d L 1 (r + 160)
    ∗ ∃ W', ⌜∀ p ∈ W', p ∈ W ∨ p.2 = none⌝ ∗ owes (thrV d L) O W')

set_option maxRecDepth 65536 in
/-- Row r of stage 4: for each chunk, its previous copy is waited for (the piece of row n - 1 lands), the chunk is
    filled by its group loop, and its copy into the piece of row n = r + 160 is started. -/
theorem row_t13 (d : Dev nD) (L : grid1.Coords) (v2 : BitVec 32) (ft : Buf (Elt F) ((tvW).view.loc (thrV d L))) (fx : Buf (Elt F) ((xs0W).view.loc (thrV d L))) (hfx : XsOK fx)
    (O : CellTallies nD τ sig (HIx 1)) (W : Waits sig (HIx 1)) (r : Fin k1_t13_loop.trips) (acc : BitVec 32) :
    rowInv4 d L ft fx O W r acc
      ⊢ wp frame (wpE (defs₀ (F := F)) 𝒱₀ (thrV d L) none) Set.univ
          (k1_t13_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInv4 d L ft fx O W (r.val + 1)) := by
  have hr : r.val < 40 := lt_of_lt_of_le r.isLt k1_t13_abs.2.1
  have hoff0 : k1_off307 L r 0#32 = ![r.val + 160, 0, col0 L + 256 * (0 : Fin 2).val] := by
    have h := k1_off307_eq L r 0; simpa [col0] using h
  have hoff1 : k1_off307 L r 256#32 = ![r.val + 160, 0, col0 L + 256 * (1 : Fin 2).val] := by
    have h := k1_off307_eq L r 1; simpa [col0] using h
  unfold k1_t13_body rowInv4 OutFlightAt0 OutFlightAt1
  rw [show r.val + 1 + 160 = r.val + 160 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 160) (by omega) (by omega)).2) $$ [HP0 Hl0]
  · isplitl [HP0]; · iexact HP0
    iexact Hl0
  ihave Hsp0 := ((piecesK_split (F := F) d L 0 (r.val + 160 + 1) (by omega) (by omega)).1) $$ Hall0
  icases Hsp0 with ⟨HP0, Hp0⟩
  ihave Hp0 := (Entails.of_eq (congrArg (fun n => (P1n (F := F) d L n 0 : sProp 𝕄)) (show r.val + 160 + 1 - 1 = r.val + 160 by omega))) $$ Hp0
  ihave Hp0' := (take_pieceM (F := F) d L (r.val + 160) (by omega) 0 (k1_off307 L r 0#32) (k1_off307_inb L r 0) hoff0) $$ Hp0
  icases Hp0' with ⟨%p0, Hp0⟩
  ihave Ho0 := (Entails.of_eq (pts_oc0 (F := F) d L _)) $$ HF0_src
  sl_for (inv_t14 d L ft fx) $$ [Ht Hx Ho0]
  case region => intro k acc; exact trip_t14 d L v2 r _ ft fx hfx k acc
  · unfold inv_t14
    isplitl [Ht]; · iexact Ht
    isplitl [Hx]; · iexact Hx
    iexists _; iexact Ho0
  iintro %a0 HI
  unfold inv_t14
  icases HI with ⟨Ht, Hx, %fo0', Ho0⟩
  sl_exec
  -- chunk 1 likewise
  ihave Hl1 := (hq1 _) $$ HF1_dst
  ihave Hall1 := (piecesK_split_mpr (F := F) d L 1 (r.val + 160) (by omega) (by omega)) $$ [HP1 Hl1]
  · isplitl [HP1]; · iexact HP1
    iexact Hl1
  ihave Hsp1 := (piecesK_split_mp (F := F) d L 1 (r.val + 160 + 1) (by omega) (by omega)) $$ Hall1
  icases Hsp1 with ⟨HP1, Hp1⟩
  ihave Hp1 := (Entails.of_eq (congrArg (fun n => (P1n (F := F) d L n 1 : sProp 𝕄)) (show r.val + 160 + 1 - 1 = r.val + 160 by omega))) $$ Hp1
  ihave Hp1' := (take_pieceM (F := F) d L (r.val + 160) (by omega) 1 (k1_off307 L r 256#32) (k1_off307_inb L r 1) hoff1) $$ Hp1
  icases Hp1' with ⟨%p1, Hp1⟩
  ihave Ho1 := (Entails.of_eq (pts_oc1 (F := F) d L _)) $$ HF1_src
  sl_for (inv_t15 d L ft fx) $$ [Ht Hx Ho1]
  case region => intro k acc; exact trip_t15 d L v2 r _ ft fx hfx k acc
  · unfold inv_t15
    isplitl [Ht]; · iexact Ht
    isplitl [Hx]; · iexact Hx
    iexists _; iexact Ho1
  iintro %a1 HI
  unfold inv_t15
  icases HI with ⟨Ht, Hx, %fo1', Ho1⟩
  sl_exec
  sl_step
  isplitr; · iexact Hmw
  isplitl [Ht]; · iexact Ht
  isplitl [Hx]; · iexact Hx
  isplitl [HF0]
  · iexists (pieceM (k1_off307 L r 0#32) (k1_off307_inb L r 0)); isplitr
    · ipureintro; intro f; exact land_pieceM d L (r.val + 160) (by omega) 0 _ _ hoff0 f
    · iexists p0, fo0'; iexact HF0
  isplitl [HF1]
  · iexists (pieceM (k1_off307 L r 256#32) (k1_off307_inb L r 1)); isplitr
    · ipureintro; intro f; exact land_pieceM d L (r.val + 160) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.Pay.lean ====
/-
  What the one SparseCore call hands over and takes back. Every vector subcore reads the transposed indices xt and
  the flattened table whole, and writes its own column block of out_t: the call lends SparseCore c a read share of xt
  and of the flattened table and hands it its sixteen subcores' blocks of out_t; each subcore is lent a share of that
  share and handed its block. The blocks come back at whatever the subcores wrote.
-/
import proofs.«203934_g28930899706482_cont_9to1_1937_23_alg».proof.Proof.KI.PiecesK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The read share of SparseCore c, and of its vector subcore i. -/
abbrev qCore (c : Fin 2) : PosShare TreeShare := Transfers.shareTok fullShare 2 c
abbrev qTile (c : Fin 2) (i : Fin 16) : PosShare TreeShare := Transfers.shareTok (qCore c) 16 i

theorem nCore_bound : (K (F := F)).nCore 0 = grid1.bound 0 := rfl
theorem nSub_bound : (K (F := F)).nSub 0 = grid1.bound 1 := rfl

variable [FloatOps F]
variable (m : (ℓ : Loc nD τ sig) → Buf (Elt F) ℓ)

/-- The transposed indices and the flattened scaled table computed from device d's arguments. -/
def XTv (d : Dev nD) : Buf (Elt F) (xtLoc d) := XT (m (xLoc d))
def FLv (d : Dev nD) : Buf (Elt F) (flLoc d) := FL (m (tbLoc d))

/-- What SparseCore c is handed: read shares of the two inputs at their computed contents, its block of out_t. -/
def coreRes (d : Dev nD) (c : Fin (grid1.bound 0)) : sProp 𝕄 :=
  iprop((flLoc d ↦{qCore c} FLv m d) ∗ (xtLoc d ↦{qCore c} XTv m d) ∗ ∃ f, oLoc d ↦[cset c]{fullShare} f)
/-- What vector subcore (c, i) is handed. -/
def tileRes (d : Dev nD) (c : Fin (grid1.bound 0)) (i : Fin (grid1.bound 1)) : sProp 𝕄 :=
  iprop((flLoc d ↦{qTile c i} FLv m d) ∗ (xtLoc d ↦{qTile c i} XTv m d) ∗ ∃ f, oLoc d ↦[tset (coordsV c i)]{fullShare} f)

def P : (K (F := F)).Pay (nD := nD) (Val := Elt F) (Name := ℕ) (U := UU) where
  st := fun q d c => match q with | 0 => coreRes m d (Fin.cast nCore_bound c)
  dn := fun q d c => match q with | 0 => coreRes m d (Fin.cast nCore_bound c)
  go := fun q d c i => match q with | 0 => tileRes m d (Fin.cast nCore_bound c) (Fin.cast nSub_bound i)
  td := fun q d c i => match q with | 0 => tileRes m d (Fin.cast nCore_bound c) (Fin.cast nSub_bound i)
  x := fun _ _ => iprop(emp)

instance coreRes_storable (d : Dev nD) (c : Fin (grid1.bound 0)) : BI.Storable (upEmb : UEmb _ 𝕄) (coreRes m d c) := by
  unfold coreRes; infer_instance
instance tileRes_storable (d : Dev nD) (c : Fin (grid1.bound 0)) (i : Fin (grid1.bound 1)) : BI.Storable (upEmb : UEmb _ 𝕄) (tileRes m d c i) := by
  unfold tileRes; infer_instance

instance P_storable : (P (F := F) m).IsStorable where
  st q d c := match q with | 0 => (inferInstance : BI.Storable (upEmb : UEmb _ 𝕄) (coreRes m d (Fin.cast nCore_bound c)))
  dn q d c := match q with | 0 => (inferInstance : BI.Storable (upEmb : UEmb _ 𝕄) (coreRes m d (Fin.cast nCore_bound c)))
  go q d c i := match q with | 0 => (inferInstance : BI.Storable (upEmb : UEmb _ 𝕄) (tileRes m d (Fin.cast nCore_bound c) (Fin.cast nSub_bound i)))
  td q d c i := match q with | 0 => (inferInstance : BI.Storable (upEmb : UEmb _ 𝕄) (tileRes m d (Fin.cast nCore_bound c) (Fin.cast nSub_bound i)))

end Cert.Proof.KI

end
-- ==== Proof.KI.TileRes.lean ====
/-
  What a vector subcore's task runs from and what it leaves, in the kernel's own spelling of its operands: a read
  share of the flattened table, two read shares of the transposed indices (the two staged index blocks are fetched on
  two semaphores, at most one fetch in flight on each), the five scratch buffers at some contents, the five DMA
  semaphores at zero, the 400 pieces of its block of out_t slot by slot, and what it owes.
-/
import proofs.«203934_g28930899706482_cont_9to1_1937_23_alg».proof.Proof.KI.RowCommon
import proofs.«203934_g28930899706482_cont_9to1_1937_23_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

variable (m : (ℓ : Loc nD τ sig) → Buf (Elt F) ℓ)

/-- Every index word of device d names a row of the table. -/
def XOK (d : Dev nD) : Prop := ∀ j, BitVec.toNat (m (xLoc d) j) < 1000

def topRes (d : Dev nD) (L : grid1.Coords) (qT : PosShare TreeShare)
    (O : CellTallies nD τ sig (HIx 1)) (W : Waits sig (HIx 1)) : sProp 𝕄 :=
  iprop(levAts (K (F := F)).L (K (F := F)).lev
    ∗ ((tW).view.loc (thrV d L) ↦{qT} FLv m d)
    ∗ ((xW).view.loc (thrV d L) ↦{Transfers.shareTok qT 7 2} XTv m d)
    ∗ ((xW).view.loc (thrV d L) ↦{Transfers.shareTok qT 7 3} XTv m d)
    ∗ (∃ f, (tvW).view.loc (thrV d L) ↦{fullShare} f) ∗ (∃ f, (xs0W).view.loc (thrV d L) ↦{fullShare} f) ∗ (∃ f, (xs1W).view.loc (thrV d L) ↦{fullShare} f)
    ∗ (∃ f, (oc0W).view.loc (thrV d L) ↦{fullShare} f) ∗ (∃ f, (oc1W).view.loc (thrV d L) ↦{fullShare} f)
    ∗ semVal (thrV d L, SemLoc.dma cc1_scratch5.sem) 0 ∗ semVal (thrV d L, SemLoc.dma cc1_scratch6.sem) 0
    ∗ semVal (thrV d L, SemLoc.dma cc1_scratch7.sem) 0 ∗ semVal (thrV d L, SemLoc.dma cc1_scratch8.sem) 0
    ∗ semVal (thrV d L, SemLoc.dma cc1_scoped0.sem) 0
    ∗ AllK d L 0 ∗ AllK d L 1
    ∗ owes (thrV d L) O W)

def topPost (d : Dev nD) (L : grid1.Coords) (qT : PosShare TreeShare)
    (O : CellTallies nD τ sig (HIx 1)) (W : Waits sig (HIx 1)) : sProp 𝕄 :=
  iprop(((tW).view.loc (thrV d L) ↦{qT} FLv m d)
    ∗ ((xW).view.loc (thrV d L) ↦{Transfers.shareTok qT 7 2} XTv m d)
    ∗ ((xW).view.loc (thrV d L) ↦{Transfers.shareTok qT 7 3} XTv m d)
    ∗ (∃ f, (tvW).view.loc (thrV d L) ↦{fullShare} f) ∗ (∃ f, (xs0W).view.loc (thrV d L) ↦{fullShare} f) ∗ (∃ f, (xs1W).view.loc (thrV d L) ↦{fullShare} f)
    ∗ (∃ f, (oc0W).view.loc (thrV d L) ↦{fullShare} f) ∗ (∃ f, (oc1W).view.loc (thrV d L) ↦{fullShare} f)
    ∗ semVal (thrV d L, SemLoc.dma cc1_scratch5.sem) 0 ∗ semVal (thrV d L, SemLoc.dma cc1_scratch6.sem) 0
    ∗ semVal (thrV d L, SemLoc.dma cc1_scratch7.sem) 0 ∗ semVal (thrV d L, SemLoc.dma cc1_scratch8.sem) 0
    ∗ semVal (thrV d L, SemLoc.dma cc1_scoped0.sem) 0
    ∗ AllK d L 0 ∗ AllK d L 1
    ∗ ∃ W', ⌜∀ p ∈ W', p ∈ W ∨ p.2 = none⌝ ∗ owes (thrV d L) O W')

end Cert.Proof.KI

end
-- ==== Proof.KI.TileBody.lean ====
/-
  A vector subcore's whole task: the flattened table is fetched into the subcore's memory; the five blocks of 40 rows
  of transposed indices are fetched two ahead into two staging buffers; for each block a row loop fills the two output
  chunks from the staged indices and the table and copies them into the pieces of out_t; at the end the last two copies
  are waited for. Every index staged is a word of the transposed index array, hence a row number of the table.
-/
import proofs.«203934_g28930899706482_cont_9to1_1937_23_alg».proof.Proof.KI.Row0
import proofs.«203934_g28930899706482_cont_9to1_1937_23_alg».proof.Proof.KI.Row1
import proofs.«203934_g28930899706482_cont_9to1_1937_23_alg».proof.Proof.KI.Row2
import proofs.«203934_g28930899706482_cont_9to1_1937_23_alg».proof.Proof.KI.Row3
import proofs.«203934_g28930899706482_cont_9to1_1937_23_alg».proof.Proof.KI.Row4
import proofs.«203934_g28930899706482_cont_9to1_1937_23_alg».proof.Proof.KI.Pay
import proofs.«203934_g28930899706482_cont_9to1_1937_23_alg».proof.Proof.KI.TileRes
import proofs.«203934_g28930899706482_cont_9to1_1937_23_alg».proof.Proof.KI.ValueEq

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

variable (m : (ℓ : Loc nD τ sig) → Buf (Elt F) ℓ)

omit [FloatOps F] in
theorem trips_t1 : k1_t1_loop.trips = 40 := by decide
omit [FloatOps F] in
theorem trips_t4 : k1_t4_loop.trips = 40 := by decide
omit [FloatOps F] in
theorem trips_t7 : k1_t7_loop.trips = 40 := by decide
omit [FloatOps F] in
theorem trips_t10 : k1_t10_loop.trips = 40 := by decide
omit [FloatOps F] in
theorem trips_t13 : k1_t13_loop.trips = 40 := by decide

/-- Every word of the transposed index array is a word of the index array. -/
theorem xtv_lt (d : Dev nD) (hx : XOK m d) (i : S200x16384.Idx) : BitVec.toNat (XTv m d i) < 1000 := by
  obtain ⟨p, q, rfl⟩ : ∃ (p : Fin 200) (q : Fin 16384), i = ValueIdx.ix2 p q := ⟨i 0, i 1, ValueIdx.eq_ix2 i⟩
  unfold XTv; rw [xt_apply]; exact hx _

set_option maxRecDepth 65536 in
theorem tile_run (d : Dev nD) (L : grid1.Coords) (qT : PosShare TreeShare)
    (O : CellTallies nD τ sig (HIx 1)) (W : Waits sig (HIx 1)) (hO : ∀ g, O g none = 0) (hx : XOK m d) :
    topRes m d L qT O W
      ⊢ wp frame (wpE (defs₀ (F := F)) 𝒱₀ (thrV d L) none) Set.univ
          (cc1__gather_t L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0)
          fun _ => topPost m d L qT O W := by
  simp only [cc1__gather_t_eq_skeleton]; unfold cc1__gather_t_skel
  simp only [k1_part71_eq_skeleton, k1_part72_eq_skeleton]; unfold k1_part71_skel k1_part72_skel
  unfold topRes
  iintro ⟨#Hlv, Htw, Hxw0, Hxw1, ⟨%ftv, Htv⟩, ⟨%fx0, Hx0⟩, ⟨%fx1, Hx1⟩, ⟨%fo0, Ho0⟩, ⟨%fo1, Ho1⟩, Hs5, Hs6, Hs7, Hs8, Hsc, HA0, HA1, HO⟩
  ihave Hmw := ((K (F := F)).mayWaits_none (thr := thrV d L) hO) $$ Hlv
  sl_exec
  have hfx0 : XsOK (View.write (Elt F) (xs0W).view fx0 (tile_run.sl.dma0_1 m d L) Finset.univ) := by
    rw [show View.write (Elt F) (xs0W).view fx0 (tile_run.sl.dma0_1 m d L) Finset.univ = tile_run.sl.dma0_1 m d L from View.write_whole_univ _ _ _]
    intro j; exact xtv_lt m d hx _
  generalize View.write (Elt F) (tvW).view ftv (tile_run.sl.dma0 m d) Finset.univ = FT
  generalize View.write (Elt F) (xs0W).view fx0 (tile_run.sl.dma0_1 m d L) Finset.univ = FX0 at hfx0 ⊢
  sl_rw [Prog.bind_assoc]
  sl_for (rowInv0 d L FT FX0 O W) $$ [Htv Hx0 Hs7 Ho0 Hs8 Ho1 HA0 HA1 HO]
  case region => intro k acc; exact row_t1 d L _ _ hfx0 O W k acc
  · unfold rowInv0 SlotSt0 SlotSt1
    rw [if_pos rfl, if_pos rfl, piecesK_zero, piecesK_zero]
    isplitr; · iexact Hmw
    isplitl [Htv]; · iexact Htv
    isplitl [Hx0]; · iexact Hx0
    isplitl [Hs7 Ho0]
    · isplitl [Hs7]; · iexact Hs7
      iexists _; iexact Ho0
    isplitl [Hs8 Ho1]
    · isplitl [Hs8]; · iexact Hs8
      iexists _; iexact Ho1
    isplitl [HA0]; · iexact HA0
    isplitl [HA1]; · iexact HA1
    iexists (insert (SemLoc.dma cc1_scratch5.sem, (default : HIx 1)) (insert (SemLoc.dma cc1_scoped0.sem, (default : HIx 1)) W)); isplitr
    · ipureintro; intro p hp
      rcases Finset.mem_insert.mp hp with hp | hp
      · exact .inr (by subst hp; rfl)
      rcases Finset.mem_insert.mp hp with hp | hp
      · exact .inr (by subst hp; rfl)
      · exact .inl hp
    · iexact HO
  iintro %a0 HI
  ihave HI := (Entails.of_eq (congrArg (fun n => rowInv0 d L FT FX0 O W n a0) trips_t1)) $$ HI
  unfold rowInv0 SlotSt0 SlotSt1
  rw [if_neg (by decide : ¬ (40 = 0)), if_neg (by decide : ¬ (40 = 0))]
  icases HI with ⟨-, Htv, Hx0, HF0, HF1, HP0, HP1, %W0, %hW0, HO⟩
  sl_exec

  -- stage 1
  generalize hFX1 : View.write (Elt F) (xs1W).view _ _ Finset.univ = FX1
  have hfx1 : XsOK FX1 := by
    rw [← hFX1, show ∀ f g, View.write (Elt F) (xs1W).view f g Finset.univ = g from fun f g => View.write_whole_univ _ f g]
    intro j; exact xtv_lt m d hx _
  clear hFX1
  try sl_rw [Prog.bind_assoc]
  sl_for (rowInv1 d L FT FX1 O W) $$ [Htv Hx1 HF0 HF1 HP0 HP1 HO]
  case region => intro k acc; exact row_t4 d L FT FX1 hfx1 O W k acc
  · unfold rowInv1
    isplitr; · iexact Hmw
    isplitl [Htv]; · iexact Htv
    isplitl [Hx1]; · iexact Hx1
    isplitl [HF0]; · iexact HF0
    isplitl [HF1]; · iexact HF1
    isplitl [HP0]; · iexact HP0
    isplitl [HP1]; · iexact HP1
    iexists (insert (SemLoc.dma cc1_scratch6.sem, (default : HIx 1)) W0); isplitr
    · ipureintro; intro p hp
      rcases Finset.mem_insert.mp hp with hp | hp
      · exact .inr (by subst hp; rfl)
      · exact hW0 p hp
    · iexact HO
  iintro %a1 HI
  ihave HI := (Entails.of_eq (congrArg (fun n => rowInv1 d L FT FX1 O W n a1) trips_t4)) $$ HI
  unfold rowInv1
  icases HI with ⟨-, Htv, Hx1, HF0, HF1, HP0, HP1, %W1, %hW1, HO⟩
  sl_exec

  -- stage 2
  generalize hFX2 : View.write (Elt F) (xs0W).view _ _ Finset.univ = FX2
  have hfx2 : XsOK FX2 := by
    rw [← hFX2, show ∀ f g, View.write (Elt F) (xs0W).view f g Finset.univ = g from fun f g => View.write_whole_univ _ f g]
    intro j; exact xtv_lt m d hx _
  clear hFX2
  try sl_rw [Prog.bind_assoc]
  sl_for (rowInv2 d L FT FX2 O W) $$ [Htv Hx0 HF0 HF1 HP0 HP1 HO]
  case region => intro k acc; exact row_t7 d L _ FT FX2 hfx2 O W k acc
  · unfold rowInv2
    isplitr; · iexact Hmw
    isplitl [Htv]; · iexact Htv
    isplitl [Hx0]; · iexact Hx0
    isplitl [HF0]; · iexact HF0
    isplitl [HF1]; · iexact HF1
    isplitl [HP0]; · iexact HP0
    isplitl [HP1]; · iexact HP1
    iexists (insert (SemLoc.dma cc1_scratch5.sem, (default : HIx 1)) W1); isplitr
    · ipureintro; intro p hp
      rcases Finset.mem_insert.mp hp with hp | hp
      · exact .inr (by subst hp; rfl)
      · exact hW1 p hp
    · iexact HO
  iintro %a2 HI
  ihave HI := (Entails.of_eq (congrArg (fun n => rowInv2 d L FT FX2 O W n a2) trips_t7)) $$ HI
  unfold rowInv2
  icases HI with ⟨-, Htv, Hx0, HF0, HF1, HP0, HP1, %W2, %hW2, HO⟩
  sl_exec

  -- stage 3
  generalize hFX3 : View.write (Elt F) (xs1W).view _ _ Finset.univ = FX3
  have hfx3 : XsOK FX3 := by
    rw [← hFX3, show ∀ f g, View.write (Elt F) (xs1W).view f g Finset.univ = g from fun f g => View.write_whole_univ _ f g]
    intro j; exact xtv_lt m d hx _
  clear hFX3
  try sl_rw [Prog.bind_assoc]
  sl_for (rowInv3 d L FT FX3 O W) $$ [Htv Hx1 HF0 HF1 HP0 HP1 HO]
  case region => intro k acc; exact row_t10 d L _ FT FX3 hfx3 O W k acc
  · unfold rowInv3
    isplitr; · iexact Hmw
    isplitl [Htv]; · iexact Htv
    isplitl [Hx1]; · iexact Hx1
    isplitl [HF0]; · iexact HF0
    isplitl [HF1]; · iexact HF1
    isplitl [HP0]; · iexact HP0
    isplitl [HP1]; · iexact HP1
    iexists (insert (SemLoc.dma cc1_scratch6.sem, (default : HIx 1)) W2); isplitr
    · ipureintro; intro p hp
      rcases Finset.mem_insert.mp hp with hp | hp
      · exact .inr (by subst hp; rfl)
      · exact hW2 p hp
    · iexact HO
  iintro %a3 HI
  ihave HI := (Entails.of_eq (congrArg (fun n => rowInv3 d L FT FX3 O W n a3) trips_t10)) $$ HI
  unfold rowInv3
  icases HI with ⟨-, Htv, Hx1, HF0, HF1, HP0, HP1, %W3, %hW3, HO⟩
  sl_exec

  -- stage 4
  generalize hFX4 : View.write (Elt F) (xs0W).view _ _ Finset.univ = FX4
  have hfx4 : XsOK FX4 := by
    rw [← hFX4, show ∀ f g, View.write (Elt F) (xs0W).view f g Finset.univ = g from fun f g => View.write_whole_univ _ f g]
    intro j; exact xtv_lt m d hx _
  clear hFX4
  try sl_rw [Prog.bind_assoc]
  sl_for (rowInv4 d L FT FX4 O W) $$ [Htv Hx0 HF0 HF1 HP0 HP1 HO]
  case region => intro k acc; exact row_t13 d L _ FT FX4 hfx4 O W k acc
  · unfold rowInv4
    isplitr; · iexact Hmw
    isplitl [Htv]; · iexact Htv
    isplitl [Hx0]; · iexact Hx0
    isplitl [HF0]; · iexact HF0
    isplitl [HF1]; · iexact HF1
    isplitl [HP0]; · iexact HP0
    isplitl [HP1]; · iexact HP1
    iexists (insert (SemLoc.dma cc1_scratch5.sem, (default : HIx 1)) W3); isplitr
    · ipureintro; intro p hp
      rcases Finset.mem_insert.mp hp with hp | hp
      · exact .inr (by subst hp; rfl)
      · exact hW3 p hp
    · iexact HO
  iintro %a4 HI
  ihave HI := (Entails.of_eq (congrArg (fun n => rowInv4 d L FT FX4 O W n a4) trips_t13)) $$ HI
  unfold rowInv4
  icases HI with ⟨-, Htv, Hx0, HF0, HF1, HP0, HP1, %W4, %hW4, HO⟩
  unfold OutFlightAt0 OutFlightAt1 OutFlight0 OutFlight1
  icases HF0 with ⟨%q0, %hq0, %pp0, %fo0', HF0⟩
  icases HF1 with ⟨%q1, %hq1, %pp1, %fo1', HF1⟩
  sl_exec
  sl_step
  ihave Hl0 := (hq0 _) $$ HF0_dst
  ihave HA0 := (piecesK_split_mpr (F := F) d L 0 200 (by omega) (by omega)) $$ [HP0 Hl0]
  · isplitl [HP0]; · iexact HP0
    iexact Hl0
  ihave Hl1 := (hq1 _) $$ HF1_dst
  ihave HA1 := (piecesK_split_mpr (F := F) d L 1 200 (by omega) (by omega)) $$ [HP1 Hl1]
  · isplitl [HP1]; · iexact HP1
    iexact Hl1
  ihave Ho0 := (Entails.of_eq (pts_oc0 (F := F) d L _)) $$ HF0_src
  ihave Ho1 := (Entails.of_eq (pts_oc1 (F := F) d L _)) $$ HF1_src
  unfold topPost
  isplitl [Htw]; · iexact Htw
  isplitl [Hxw0]; · iexact Hxw0
  isplitl [Hxw1]; · iexact Hxw1
  isplitl [Htv]; · iexists _; iexact Htv
  isplitl [Hx0]; · iexists _; iexact Hx0
  isplitl [Hx1]; · iexists _; iexact Hx1
  isplitl [Ho0]; · iexists _; iexact Ho0
  isplitl [Ho1]; · iexists _; iexact Ho1
  isplitl [Hs5]; · iexact Hs5
  isplitl [Hs6]; · iexact Hs6
  isplitl [HF0]; · iexact HF0
  isplitl [HF1]; · iexact HF1
  isplitl [Hsc]; · iexact Hsc
  isplitl [HA0]; · iexact HA0
  isplitl [HA1]; · iexact HA1
  iexists (insert (SemLoc.dma cc1_scratch8.sem, (default : HIx 1)) (insert (SemLoc.dma cc1_scratch7.sem, (default : HIx 1)) W4)); isplitr
  · ipureintro; intro p hp
    rcases Finset.mem_insert.mp hp with hp | hp
    · exact .inr (by subst hp; rfl)
    rcases Finset.mem_insert.mp hp with hp | hp
    · exact .inr (by subst hp; rfl)
    · exact hW4 p hp
  · iexact HO

end Cert.Proof.KI

end
-- ==== Proof.KI.OwnV.lean ====
/-
  A vector subcore's own storage, opened: its scoped semaphore cells are the five DMA semaphores the task uses and
  the rest, all at 0; its own buffers are the five scratch buffers and the rest, each whole at some contents.
-/
import proofs.«203934_g28930899706482_cont_9to1_1937_23_alg».proof.Proof.KI.TileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The semaphore cells -/

/-- A scoped DMA semaphore of the subcore is one of its own cells. -/
theorem mem_ownCells_dma (d : Dev nD) (L : grid1.Coords) (s : DmaSem sig)
    (h : (SemLoc.dma s : SemLoc sig).isScoped .scVector = true) :
    ((thrV d L, SemLoc.dma s) : GSem nD τ sig) ∈ ownCells (thrV d L) :=
  (mem_ownCells (g := (thrV d L, SemLoc.dma s))).mpr ⟨rfl, h⟩

/-- Cells of different semaphores are different. -/
theorem cell_ne (d : Dev nD) (L : grid1.Coords) {s s' : DmaSem sig} (h : s ≠ s') :
    ((thrV d L, SemLoc.dma s) : GSem nD τ sig) ≠ (thrV d L, SemLoc.dma s') :=
  fun e => h (SemLoc.dma.inj (Prod.mk.inj e).2)

/-- The subcore's own cells other than the task's five DMA semaphores. -/
abbrev restCells (d : Dev nD) (L : grid1.Coords) : Finset (GSem nD τ sig) :=
  (((((ownCells (thrV d L)).erase (thrV d L, SemLoc.dma cc1_scratch5.sem)).erase (thrV d L, SemLoc.dma cc1_scratch6.sem)).erase
    (thrV d L, SemLoc.dma cc1_scratch7.sem)).erase (thrV d L, SemLoc.dma cc1_scratch8.sem)).erase (thrV d L, SemLoc.dma cc1_scoped0.sem)

theorem ownSems0_V (d : Dev nD) (L : grid1.Coords) :
    (ownSems0 (thrV d L) : sProp 𝕄)
      = iprop(semVal (thrV d L, SemLoc.dma cc1_scratch5.sem) 0 ∗ semVal (thrV d L, SemLoc.dma cc1_scratch6.sem) 0
          ∗ semVal (thrV d L, SemLoc.dma cc1_scratch7.sem) 0 ∗ semVal (thrV d L, SemLoc.dma cc1_scratch8.sem) 0
          ∗ semVal (thrV d L, SemLoc.dma cc1_scoped0.sem) 0 ∗ bigSep (restCells d L) fun g => semVal g 0) := by
  unfold SparseCore.Cfg.ownSems0
  have m5 := mem_ownCells_dma d L cc1_scratch5.sem (by decide)
  have m6 := mem_ownCells_dma d L cc1_scratch6.sem (by decide)
  have m7 := mem_ownCells_dma d L cc1_scratch7.sem (by decide)
  have m8 := mem_ownCells_dma d L cc1_scratch8.sem (by decide)
  have m0 := mem_ownCells_dma d L cc1_scoped0.sem (by decide)
  rw [SparseCore.bigSep_erase' m5,
    SparseCore.bigSep_erase' (Finset.mem_erase.mpr ⟨cell_ne d L (show cc1_scratch6.sem ≠ cc1_scratch5.sem by decide), m6⟩),
    SparseCore.bigSep_erase' (Finset.mem_erase.mpr ⟨cell_ne d L (show cc1_scratch7.sem ≠ cc1_scratch6.sem by decide),
      Finset.mem_erase.mpr ⟨cell_ne d L (show cc1_scratch7.sem ≠ cc1_scratch5.sem by decide), m7⟩⟩),
    SparseCore.bigSep_erase' (Finset.mem_erase.mpr ⟨cell_ne d L (show cc1_scratch8.sem ≠ cc1_scratch7.sem by decide),
      Finset.mem_erase.mpr ⟨cell_ne d L (show cc1_scratch8.sem ≠ cc1_scratch6.sem by decide),
        Finset.mem_erase.mpr ⟨cell_ne d L (show cc1_scratch8.sem ≠ cc1_scratch5.sem by decide), m8⟩⟩⟩),
    SparseCore.bigSep_erase' (Finset.mem_erase.mpr ⟨cell_ne d L (show cc1_scoped0.sem ≠ cc1_scratch8.sem by decide),
      Finset.mem_erase.mpr ⟨cell_ne d L (show cc1_scoped0.sem ≠ cc1_scratch7.sem by decide),
        Finset.mem_erase.mpr ⟨cell_ne d L (show cc1_scoped0.sem ≠ cc1_scratch6.sem by decide),
          Finset.mem_erase.mpr ⟨cell_ne d L (show cc1_scoped0.sem ≠ cc1_scratch5.sem by decide), m0⟩⟩⟩⟩)]

/-! ## The buffers -/

/-- Different references are different buffers of the subcore. -/
theorem devRef_ne (L : grid1.Coords) {r r' : Ref sig .scVector} (h : r ≠ r') :
    (Proc.scVector (cV L) (jV L)).devRef r ≠ (Proc.scVector (cV L) (jV L)).devRef r' :=
  fun e => h (Proc.devRef_injective _ e)

/-- The subcore's own buffers other than the task's five scratch buffers. -/
abbrev restRefs (L : grid1.Coords) : Finset (DevRef τ sig) :=
  (((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)).erase ((Proc.scVector (cV L) (jV L)).devRef cc1_scratch4)

theorem ownBufs_V (d : Dev nD) (L : grid1.Coords) :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (restRefs L) fun b => iprop(∃ f, ((d, b) : Loc nD τ sig) ↦{fullShare} f)) := by
  unfold SparseCore.Cfg.ownBufs
  have b0 := SparseCore.Cfg.mem_ownRefs_of_owner (p := Proc.scVector (cV L) (jV L)) (b := (Proc.scVector (cV L) (jV L)).devRef (sig := sig) cc1_scratch0) rfl
  have b1 := SparseCore.Cfg.mem_ownRefs_of_owner (p := Proc.scVector (cV L) (jV L)) (b := (Proc.scVector (cV L) (jV L)).devRef (sig := sig) cc1_scratch1) rfl
  have b2 := SparseCore.Cfg.mem_ownRefs_of_owner (p := Proc.scVector (cV L) (jV L)) (b := (Proc.scVector (cV L) (jV L)).devRef (sig := sig) cc1_scratch2) rfl
  have b3 := SparseCore.Cfg.mem_ownRefs_of_owner (p := Proc.scVector (cV L) (jV L)) (b := (Proc.scVector (cV L) (jV L)).devRef (sig := sig) cc1_scratch3) rfl
  have b4 := SparseCore.Cfg.mem_ownRefs_of_owner (p := Proc.scVector (cV L) (jV L)) (b := (Proc.scVector (cV L) (jV L)).devRef (sig := sig) cc1_scratch4) rfl
  refine (SparseCore.bigSep_erase' b0).trans ?_
  rw [SparseCore.bigSep_erase' (Finset.mem_erase.mpr ⟨devRef_ne L (show (cc1_scratch1 : Ref sig .scVector) ≠ cc1_scratch0 by decide),
      b1⟩),
    SparseCore.bigSep_erase' (Finset.mem_erase.mpr ⟨devRef_ne L (show (cc1_scratch2 : Ref sig .scVector) ≠ cc1_scratch1 by decide),
      Finset.mem_erase.mpr ⟨devRef_ne L (show (cc1_scratch2 : Ref sig .scVector) ≠ cc1_scratch0 by decide), b2⟩⟩),
    SparseCore.bigSep_erase' (Finset.mem_erase.mpr ⟨devRef_ne L (show (cc1_scratch3 : Ref sig .scVector) ≠ cc1_scratch2 by decide),
      Finset.mem_erase.mpr ⟨devRef_ne L (show (cc1_scratch3 : Ref sig .scVector) ≠ cc1_scratch1 by decide),
        Finset.mem_erase.mpr ⟨devRef_ne L (show (cc1_scratch3 : Ref sig .scVector) ≠ cc1_scratch0 by decide), b3⟩⟩⟩),
    SparseCore.bigSep_erase' (Finset.mem_erase.mpr ⟨devRef_ne L (show (cc1_scratch4 : Ref sig .scVector) ≠ cc1_scratch3 by decide),
      Finset.mem_erase.mpr ⟨devRef_ne L (show (cc1_scratch4 : Ref sig .scVector) ≠ cc1_scratch2 by decide),
        Finset.mem_erase.mpr ⟨devRef_ne L (show (cc1_scratch4 : Ref sig .scVector) ≠ cc1_scratch1 by decide),
          Finset.mem_erase.mpr ⟨devRef_ne L (show (cc1_scratch4 : Ref sig .scVector) ≠ cc1_scratch0 by decide), b4⟩⟩⟩⟩)]

end Cert.Proof.KI

end
-- ==== Proof.KI.PiecesLemmas.lean ====
/-
  How the array out_t splits. The block of one vector subcore is the disjoint union of its 400 pieces; the block of
  one SparseCore is the disjoint union of its sixteen subcores' blocks; the whole array is the disjoint union of the
  two SparseCores' blocks. Each fact is stated for the points-to assertions over those element sets.
-/
import proofs.«203934_g28930899706482_cont_9to1_1937_23_alg».proof.Proof.KI.PiecesKLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## A subcore's block is the disjoint union of its pieces -/

theorem forall_axis3 {P : Fin 3 → Prop} : (∀ a, P a) ↔ P 0 ∧ P 1 ∧ P 2 := by
  constructor
  · intro h; exact ⟨h 0, h 1, h 2⟩
  · rintro ⟨h0, h1, h2⟩ a
    fin_cases a
    · exact h0
    · exact h1
    · exact h2

/-- Piece (i1, k): row i1, batch columns [col0 + 256 k, col0 + 256 k + 256). -/
theorem mem_pset {L : grid1.Coords} {i1 : Fin 200} {k : Fin 2} {j : S200x32x16384.Idx} :
    j ∈ pset L i1 k ↔ (j 0).val = i1.val ∧ col0 L + 256 * k.val ≤ (j 2).val ∧ (j 2).val < col0 L + 256 * k.val + 256 := by
  have h1 : (j 1).val < 32 := (j 1).isLt
  unfold pset
  refine Rect.mem_set_unit.trans (forall_axis3.trans ?_)
  simp
  omega

/-- The block: batch columns [col0, col0 + 512). -/
theorem mem_tset {L : grid1.Coords} {j : S200x32x16384.Idx} :
    j ∈ tset L ↔ col0 L ≤ (j 2).val ∧ (j 2).val < col0 L + 512 := by
  have h0 : (j 0).val < 200 := (j 0).isLt
  have h1 : (j 1).val < 32 := (j 1).isLt
  unfold tset
  refine Rect.mem_set_unit.trans (forall_axis3.trans ?_)
  simp
  omega

/-- Two different pieces differ in their row or, in one row, in their half of the block's columns. -/
theorem pieces_disjoint (L : grid1.Coords) :
    ∀ p ∈ (Finset.univ : Finset (Fin 200 × Fin 2)), ∀ p' ∈ (Finset.univ : Finset (Fin 200 × Fin 2)), p ≠ p' →
      Disjoint (pset L p.1 p.2) (pset L p'.1 p'.2) := by
  intro p _ p' _ hne
  rw [Finset.disjoint_left]
  intro j hj hj'
  rw [mem_pset] at hj hj'
  have hk := p.2.isLt
  have hk' := p'.2.isLt
  exact hne (Prod.ext (Fin.ext (by omega)) (Fin.ext (by omega)))

/-- Every element of the block lies in the piece of its row and of its half of the columns. -/
theorem pieces_cover (L : grid1.Coords) :
    (Finset.univ : Finset (Fin 200 × Fin 2)).biUnion (fun p => pset L p.1 p.2) = tset L := by
  ext j
  rw [Finset.mem_biUnion, mem_tset]
  constructor
  · rintro ⟨p, -, hp⟩
    rw [mem_pset] at hp
    have hk := p.2.isLt
    omega
  · intro h
    have h0 : (j 0).val < 200 := (j 0).isLt
    refine ⟨(⟨(j 0).val, h0⟩, ⟨((j 2).val - col0 L) / 256, by omega⟩), Finset.mem_univ _, ?_⟩
    rw [mem_pset]
    show (j 0).val = (j 0).val ∧ col0 L + 256 * (((j 2).val - col0 L) / 256) ≤ (j 2).val
      ∧ (j 2).val < col0 L + 256 * (((j 2).val - col0 L) / 256) + 256
    omega

/-- The block held at f is its 400 pieces held at f. -/
theorem tile_pts_eq (d : Dev nD) (L : grid1.Coords) (f : Buf (Elt F) (oLoc d)) :
    (oLoc d ↦[tset L]{fullShare} f : sProp 𝕄)
      = bigSep (Finset.univ : Finset (Fin 200 × Fin 2)) fun p => oLoc d ↦[pset L p.1 p.2]{fullShare} f := by
  rw [← pointsTo_biUnion Finset.univ (ℓ := oLoc d) (fun p : Fin 200 × Fin 2 => pset L p.1 p.2) (pieces_disjoint L), pieces_cover]

theorem P1_intro (d : Dev nD) (L : grid1.Coords) (p : Fin 200 × Fin 2) (f : Buf (Elt F) (oLoc d)) :
    (oLoc d ↦[pset L p.1 p.2]{fullShare} f : sProp 𝕄) ⊢ P1 d L p := by
  unfold P1
  iintro H; iexists f; iexact H

theorem tile_split (d : Dev nD) (L : grid1.Coords) (f : Buf (Elt F) (oLoc d)) :
    (oLoc d ↦[tset L]{fullShare} f : sProp 𝕄) ⊢ AllPieces d L := by
  rw [tile_pts_eq]
  unfold AllPieces
  exact bigSep_mono fun p _ => P1_intro d L p f

theorem tile_join_at (d : Dev nD) (L : grid1.Coords) (g : Buf (Elt F) (oLoc d)) :
    (bigSep (Finset.univ : Finset (Fin 200 × Fin 2)) fun p => (oLoc d ↦[pset L p.1 p.2]{fullShare} g : sProp 𝕄))
      ⊢ oLoc d ↦[tset L]{fullShare} g := by
  rw [tile_pts_eq]

theorem tile_join [FloatOps F] (d : Dev nD) (L : grid1.Coords) :
    AllPieces (F := F) d L ⊢ iprop(∃ f, oLoc d ↦[tset L]{fullShare} f) := by
  refine (bigSep_exists_pi Finset.univ
    (fun (p : Fin 200 × Fin 2) (f : Buf (Elt F) (oLoc d)) => (oLoc d ↦[pset L p.1 p.2]{fullShare} f : sProp 𝕄))).trans ?_
  iintro ⟨%fs, H⟩
  ihave H' := (pointsTo_biUnion_join Finset.univ (fun p : Fin 200 × Fin 2 => pset L p.1 p.2) fs (fs (0, 0)) (pieces_disjoint L)) $$ H
  icases H' with ⟨%g, -, Hg⟩
  rw [pieces_cover]
  iexists g; iexact Hg

/-! ## A SparseCore's block is the disjoint union of its subcores' blocks, and the array that of the two SparseCores' blocks -/

theorem col0_coordsV (c : Fin (grid1.bound 0)) (i : Fin (grid1.bound 1)) :
    col0 (coordsV c i) = 1024 * i.val + 512 * c.val := rfl

/-- The blocks of two subcores of one SparseCore start 1024 or more columns apart. -/
theorem tsets_disjoint (c : Fin (grid1.bound 0)) :
    ∀ i ∈ (Finset.univ : Finset (Fin (grid1.bound 1))), ∀ i' ∈ (Finset.univ : Finset (Fin (grid1.bound 1))), i ≠ i' →
      Disjoint (tset (coordsV c i)) (tset (coordsV c i')) := by
  intro i _ i' _ hne
  rw [Finset.disjoint_left]
  intro j hj hj'
  rw [mem_tset, col0_coordsV] at hj hj'
  exact hne (Fin.ext (by omega))

theorem core_split_eq (d : Dev nD) (c : Fin (grid1.bound 0)) (f : Buf (Elt F) (oLoc d)) :
    (oLoc d ↦[cset c]{fullShare} f : sProp 𝕄)
      = bigSep Finset.univ fun i : Fin (grid1.bound 1) => oLoc d ↦[tset (coordsV c i)]{fullShare} f := by
  unfold cset
  exact pointsTo_biUnion Finset.univ (ℓ := oLoc d) (fun i : Fin (grid1.bound 1) => tset (coordsV c i)) (tsets_disjoint c)

theorem core_split (d : Dev nD) (c : Fin (grid1.bound 0)) (f : Buf (Elt F) (oLoc d)) :
    (oLoc d ↦[cset c]{fullShare} f : sProp 𝕄)
      ⊣⊢ bigSep Finset.univ fun i : Fin (grid1.bound 1) => oLoc d ↦[tset (coordsV c i)]{fullShare} f := by
  rw [core_split_eq]

/-- SparseCore c holds the batch columns whose 512-column group has parity c. -/
theorem mem_cset {c : Fin (grid1.bound 0)} {j : S200x32x16384.Idx} : j ∈ cset c ↔ (j 2).val / 512 % 2 = c.val := by
  have hc : c.val < 2 := c.isLt
  have h2 : (j 2).val < 16384 := (j 2).isLt
  unfold cset
  rw [Finset.mem_biUnion]
  constructor
  · rintro ⟨i, -, hi⟩
    rw [mem_tset, col0_coordsV] at hi
    omega
  · intro h
    have hb : (j 2).val / 1024 < grid1.bound 1 := by show _ < 16; omega
    refine ⟨⟨(j 2).val / 1024, hb⟩, Finset.mem_univ _, ?_⟩
    rw [mem_tset, col0_coordsV]
    show 1024 * ((j 2).val / 1024) + 512 * c.val ≤ (j 2).val ∧ (j 2).val < 1024 * ((j 2).val / 1024) + 512 * c.val + 512
    omega

theorem csets_disjoint :
    ∀ c ∈ (Finset.univ : Finset (Fin (grid1.bound 0))), ∀ c' ∈ (Finset.univ : Finset (Fin (grid1.bound 0))), c ≠ c' →
      Disjoint (cset c) (cset c') := by
  intro c _ c' _ hne
  rw [Finset.disjoint_left]
  intro j hj hj'
  rw [mem_cset] at hj hj'
  exact hne (Fin.ext (by omega))

theorem csets_cover : (Finset.univ : Finset (Fin (grid1.bound 0))).biUnion cset = Finset.univ := by
  ext j
  simp only [Finset.mem_biUnion, Finset.mem_univ, true_and, iff_true]
  have hb : (j 2).val / 512 % 2 < grid1.bound 0 := by show _ < 2; omega
  exact ⟨⟨(j 2).val / 512 % 2, hb⟩, mem_cset.mpr rfl⟩

theorem whole_split_eq (d : Dev nD) (f : Buf (Elt F) (oLoc d)) :
    (oLoc d ↦{fullShare} f : sProp 𝕄) = bigSep Finset.univ fun c : Fin (grid1.bound 0) => oLoc d ↦[cset c]{fullShare} f := by
  rw [← pointsTo_biUnion Finset.univ (ℓ := oLoc d) cset csets_disjoint, csets_cover]; try rfl

theorem whole_split (d : Dev nD) (f : Buf (Elt F) (oLoc d)) :
    (oLoc d ↦{fullShare} f : sProp 𝕄) ⊣⊢ bigSep Finset.univ fun c : Fin (grid1.bound 0) => oLoc d ↦[cset c]{fullShare} f := by
  rw [whole_split_eq]

end Cert.Proof.KI

end
-- ==== Proof.KI.TileObl.lean ====
/-
  The vector subcore's task as the launch theorem asks for it. What the launch hands the subcore — its read shares
  of the flattened table and of the transposed indices, its block of out_t, its scoped buffers and semaphores — is
  regrouped into what the task's body runs from: two read tokens of the index share are split off for the two staged
  index fetches, the five scratch buffers and five DMA semaphores are taken out of the subcore's own, and the block is
  cut into its pieces, slot by slot. What the body leaves is regrouped back the same way.
-/
import proofs.«203934_g28930899706482_cont_9to1_1937_23_alg».proof.Proof.KI.TileRes
import proofs.«203934_g28930899706482_cont_9to1_1937_23_alg».proof.Proof.KI.OwnV
import proofs.«203934_g28930899706482_cont_9to1_1937_23_alg».proof.Proof.KI.PiecesLemmas
import proofs.«203934_g28930899706482_cont_9to1_1937_23_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

variable (m : (ℓ : Loc nD τ sig) → Buf (Elt F) ℓ)

/-! ## Four read tokens of a share -/

omit [FloatOps F] in
/-- A points-to at q is what remains after four read tokens are split off, and the four tokens. -/
theorem pts_toks4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTok q 7 2} f) ∗ (ℓ ↦{Transfers.shareTok q 7 3} f)) := by
  have hs : ∀ k, (ℓ ↦{Transfers.shareDrop q k} f : sProp 𝕄)
      ⊣⊢ iprop((ℓ ↦{Transfers.shareDrop q (k + 1)} f) ∗ ℓ ↦{Transfers.shareTokN q k} f) :=
    fun k => pointsTo_share (PosShare.mem_left_op_right _)
  have h0 : (ℓ ↦{q} f : sProp 𝕄) ⊣⊢ iprop((ℓ ↦{Transfers.shareDrop q 1} f) ∗ ℓ ↦{Transfers.shareTokN q 0} f) := hs 0
  have h1 : (ℓ ↦{Transfers.shareDrop q 1} f : sProp 𝕄)
      ⊣⊢ iprop((ℓ ↦{Transfers.shareDrop q 2} f) ∗ ℓ ↦{Transfers.shareTokN q 1} f) := hs 1
  have h2 : (ℓ ↦{Transfers.shareDrop q 2} f : sProp 𝕄)
      ⊣⊢ iprop((ℓ ↦{Transfers.shareDrop q 3} f) ∗ ℓ ↦{Transfers.shareTok q 7 2} f) := hs 2
  have h3 : (ℓ ↦{Transfers.shareDrop q 3} f : sProp 𝕄)
      ⊣⊢ iprop((ℓ ↦{Transfers.shareDrop q 4} f) ∗ ℓ ↦{Transfers.shareTok q 7 3} f) := hs 3
  constructor
  · iintro H
    ihave H := (h0.1) $$ H
    icases H with ⟨H, T0⟩
    ihave H := (h1.1) $$ H
    icases H with ⟨H, T1⟩
    ihave H := (h2.1) $$ H
    icases H with ⟨H, T2⟩
    ihave H := (h3.1) $$ H
    icases H with ⟨H, T3⟩
    isplitl [H]; · iexact H
    isplitl [T0]; · iexact T0
    isplitl [T1]; · iexact T1
    isplitl [T2]; · iexact T2
    iexact T3
  · iintro ⟨H, T0, T1, T2, T3⟩
    ihave H := (h3.2) $$ [H T3]
    · isplitl [H]; · iexact H
      iexact T3
    ihave H := (h2.2) $$ [H T2]
    · isplitl [H]; · iexact H
      iexact T2
    ihave H := (h1.2) $$ [H T1]
    · isplitl [H]; · iexact H
      iexact T1
    ihave H := (h0.2) $$ [H T0]
    · isplitl [H]; · iexact H
      iexact T0
    iexact H

/-! ## The launch theorem's obligation -/

theorem defs₀_vector (c : Fin τ.nSC) (s : Fin τ.nSub) :
    defs₀ (F := F) (.scVector c s) 1 ⟨⟩
      = SparseCore.onTile hcore1 hsub1 (fun c s => cc1__gather_t (coordsV c s)
          tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task from what the launch hands the subcore, given the body from its own spelling of it. -/
theorem tile_wrap
    (hrun : ∀ (d : Dev nD) (L : grid1.Coords) (qT : PosShare TreeShare) (O : CellTallies nD τ sig (HIx 1)) (W : Waits sig (HIx 1)),
      (∀ g, O g none = 0) → XOK m d →
      (topRes m d L qT O W ⊢ wp frame (wpE (defs₀ (F := F)) 𝒱₀ (thrV d L) none) Set.univ
        (cc1__gather_t L tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) (fun _ => topPost m d L qT O W)))
    (hx : ∀ d, XOK m d) (d : Dev nD) (c : Fin (grid1.bound 0)) (i : Fin (grid1.bound 1))
    (O : CellTallies nD τ sig (HIx 1)) (W : Waits sig (HIx 1)) (hO : ∀ g, O g none = 0) :
    iprop(levAts (K (F := F)).L (K (F := F)).lev ∗ emp ∗ tileRes m d c i
        ∗ scopedBufs (thrV d (coordsV c i)) ∗ scopedSems0 (thrV d (coordsV c i)) ∗ owes (thrV d (coordsV c i)) O W)
      ⊢ wp frame (wpE (defs₀ (F := F)) 𝒱₀ (thrV d (coordsV c i)) none) Set.univ
          (cc1__gather_t (coordsV c i) tW (Memref.isWhole_whole _) xW (Memref.isWhole_whole _) oW (Memref.isWhole_whole _)
            tvW (Memref.isWhole_whole _) xs0W (Memref.isWhole_whole _) xs1W (Memref.isWhole_whole _)
            oc0W (Memref.isWhole_whole _) oc1W (Memref.isWhole_whole _)
            cc1_scratch5 cc1_scratch6 cc1_scratch7 cc1_scratch8 cc1_scoped0)
          fun _ => iprop(tileRes m d c i ∗ scopedBufs (thrV d (coordsV c i)) ∗ scopedSems0 (thrV d (coordsV c i))
            ∗ ∃ W', ⌜∀ p ∈ W', p ∈ W ∨ p.2 = none⌝ ∗ owes (thrV d (coordsV c i)) O W') := by
  rw [(K (F := F)).scopedBufs_V facts d (cV (coordsV c i)) (jV (coordsV c i)),
    SparseCore.Cfg.scopedSems0_V (Val := Elt F) d (cV (coordsV c i)) (jV (coordsV c i)), ownSems0_V, ownBufs_V]
  unfold tileRes
  iintro ⟨#Hlv, -, ⟨Hfl, Hxt, ⟨%fo, Ho⟩⟩, ⟨Hb0, Hb1, Hb2, Hb3, Hb4, Hbufs⟩, ⟨Hs5, Hs6, Hs7, Hs8, Hs0, Hsems⟩, HO⟩
  ihave Hx := (pts_toks4 (F := F) (qTile c i) (XTv m d)).1 $$ Hxt
  icases Hx with ⟨Hxd, Hx0, Hx1, Hx2, Hx3⟩
  ihave Hall := (tile_split (F := F) d (coordsV c i) fo) $$ Ho
  ihave Hall2 := (all_slots (F := F) d (coordsV c i)).1 $$ Hall
  icases Hall2 with ⟨HA0, HA1⟩
  iapply (wp_wand_r frame _ _)
  isplitl [Hfl Hx2 Hx3 Hb0 Hb1 Hb2 Hb3 Hb4 Hs5 Hs6 Hs7 Hs8 Hs0 HA0 HA1 HO]
  · iapply (hrun d (coordsV c i) (qTile c i) O W hO (hx d))
    unfold topRes
    isplitr; · iexact Hlv
    isplitl [Hfl]; · iexact Hfl
    isplitl [Hx2]; · iexact Hx2
    isplitl [Hx3]; · iexact Hx3
    isplitl [Hb0]; · iexact Hb0
    isplitl [Hb1]; · iexact Hb1
    isplitl [Hb2]; · iexact Hb2
    isplitl [Hb3]; · iexact Hb3
    isplitl [Hb4]; · iexact Hb4
    isplitl [Hs5]; · iexact Hs5
    isplitl [Hs6]; · iexact Hs6
    isplitl [Hs7]; · iexact Hs7
    isplitl [Hs8]; · iexact Hs8
    isplitl [Hs0]; · iexact Hs0
    isplitl [HA0]; · iexact HA0
    isplitl [HA1]; · iexact HA1
    iexact HO
  · iintro %a Hpost
    unfold topPost
    icases Hpost with ⟨Hfl, Hx2, Hx3, Hb0, Hb1, Hb2, Hb3, Hb4, Hs5, Hs6, Hs7, Hs8, Hs0, HA0, HA1, HW⟩
    ihave Hxt := (pts_toks4 (F := F) (qTile c i) (XTv m d)).2 $$ [Hxd Hx0 Hx1 Hx2 Hx3]
    · isplitl [Hxd]; · iexact Hxd
      isplitl [Hx0]; · iexact Hx0
      isplitl [Hx1]; · iexact Hx1
      isplitl [Hx2]; · iexact Hx2
      iexact Hx3
    ihave Hall := (all_slots (F := F) d (coordsV c i)).2 $$ [HA0 HA1]
    · isplitl [HA0]; · iexact HA0
      iexact HA1
    ihave Ho := (tile_join (F := F) d (coordsV c i)) $$ Hall
    isplitl [Hfl Hxt Ho]
    · isplitl [Hfl]; · iexact Hfl
      isplitl [Hxt]; · iexact Hxt
      iexact Ho
    isplitl [Hb0 Hb1 Hb2 Hb3 Hb4 Hbufs]
    · isplitl [Hb0]; · iexact Hb0
      isplitl [Hb1]; · iexact Hb1
      isplitl [Hb2]; · iexact Hb2
      isplitl [Hb3]; · iexact Hb3
      isplitl [Hb4]; · iexact Hb4
      iexact Hbufs
    isplitl [Hs5 Hs6 Hs7 Hs8 Hs0 Hsems]
    · isplitl [Hs5]; · iexact Hs5
      isplitl [Hs6]; · iexact Hs6
      isplitl [Hs7]; · iexact Hs7
      isplitl [Hs8]; · iexact Hs8
      isplitl [Hs0]; · iexact Hs0
      iexact Hsems
    iexact HW

theorem tileObl
    (hrun : ∀ (d : Dev nD) (L : grid1.Coords) (qT : PosShare TreeShare) (O : CellTallies nD τ sig (HIx 1)) (W : Waits sig (HIx 1)),
      (∀ g, O g none = 0) → XOK m d →
      (topRes m d L qT O W ⊢ wp frame (wpE (defs₀ (F := F)) 𝒱₀ (thrV d L) none) Set.univ
        (cc1__gather_t L tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) (fun _ => topPost m d L qT O W)))
    (hx : ∀ d, XOK m d) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_wrap m hrun hx d ⟨_, hc.1⟩ ⟨_, hc.2⟩ O W hO).trans (wp_mono frame _ _ fun _ => obl_post)

end Cert.Proof.KI

end
-- ==== Proof.KI.VecSplit.lean ====
/-
  How one SparseCore's share of the call's operands splits among its sixteen vector subcores, and how the results
  gather. The two arrays every subcore reads whole, the transposed indices and the flattened table, are held by the
  SparseCore at a read share; that share is cut into sixteen tokens, one per subcore, and a remainder the SparseCore
  keeps until the tokens come back. Its block of out_t is by definition the union of its subcores' blocks, which are
  pairwise disjoint (they are different ranges of batch columns), so the points-to assertion over it is the separating
  conjunction of theirs; coming back, each at whatever its subcore wrote, they join into one array's contents over the
  union.
-/
import proofs.«203934_g28930899706482_cont_9to1_1937_23_alg».proof.Proof.KI.Pay
import proofs.«203934_g28930899706482_cont_9to1_1937_23_alg».proof.Proof.KI.PiecesLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ)

omit [FloatOps F] in
/-- A conjunction over the call's tasks of one SparseCore is one over the grid's second axis. -/
theorem bigSep_tasks (Φ : Fin (grid1.bound 1) → sProp 𝕄) :
    (bigSep Finset.univ fun i : Fin ((K (F := F)).nSub 0) => Φ (Fin.cast nSub_bound i)) = bigSep Finset.univ Φ :=
  bigSep_congr fun _ _ => congrArg Φ (Fin.ext rfl)

omit [FloatOps F] in
/-- Blocks held at one array's contents are blocks held at some contents. -/
theorem oTiles_some (d : Dev nD) (c : Fin (grid1.bound 0)) (f : Buf (Elt F) (oLoc d)) :
    (bigSep Finset.univ fun i : Fin (grid1.bound 1) => (oLoc d ↦[tset (coordsV c i)]{fullShare} f : sProp 𝕄))
      ⊢ (bigSep Finset.univ fun i : Fin (grid1.bound 1) => iprop(∃ f, oLoc d ↦[tset (coordsV c i)]{fullShare} f) : sProp 𝕄) :=
  bigSep_mono fun i _ => exists_intro (Φ := fun g : Buf (Elt F) (oLoc d) => (oLoc d ↦[tset (coordsV c i)]{fullShare} g : sProp 𝕄)) f

set_option maxRecDepth 4096 in
/-- The subcores' blocks, each at some contents, are the SparseCore's block at some contents. -/
theorem oTiles_join (d : Dev nD) (c : Fin (grid1.bound 0)) :
    (bigSep Finset.univ fun i : Fin (grid1.bound 1) => iprop(∃ f, oLoc d ↦[tset (coordsV c i)]{fullShare} f))
      ⊢ (iprop(∃ f, oLoc d ↦[cset c]{fullShare} f) : sProp 𝕄) := by
  refine (bigSep_exists_pi Finset.univ (fun (i : Fin (grid1.bound 1)) (f : Buf (Elt F) (oLoc d)) => oLoc d ↦[tset (coordsV c i)]{fullShare} f)).trans ?_
  iintro ⟨%fs, H⟩
  ihave H' := (pointsTo_biUnion_join Finset.univ (fun i : Fin (grid1.bound 1) => tset (coordsV c i)) fs (fs ⟨0, by decide⟩) (tsets_disjoint c)) $$ H
  icases H' with ⟨%g, -, Hg⟩
  iexists g
  unfold cset
  iexact Hg

/-- The split of SparseCore c's operands into its sixteen tasks' and the gathering of their results. -/
theorem vecSplit : (K (F := F)).VecSplit' (P m) 0 := by
  intro d c
  show coreRes m d (Fin.cast nCore_bound c) ⊢ |={Set.univ}=> iprop(
      (bigSep Finset.univ fun i : Fin ((K (F := F)).nSub 0) => tileRes m d (Fin.cast nCore_bound c) (Fin.cast nSub_bound i))
      ∗ ((bigSep Finset.univ fun i : Fin ((K (F := F)).nSub 0) => tileRes m d (Fin.cast nCore_bound c) (Fin.cast nSub_bound i))
          -∗ coreRes m d (Fin.cast nCore_bound c)))
  generalize Fin.cast nCore_bound c = c'
  rw [bigSep_tasks (F := F) (fun i => tileRes m d c' i)]
  unfold coreRes tileRes
  rw [bigSep_sep', bigSep_sep']
  iintro ⟨Hfl, Hxt, %f, Ho⟩
  ihave Hfl' := (Transfers.pointsTo_toks_split (qCore c') 16) $$ Hfl
  icases Hfl' with ⟨Hflr, Hfls⟩
  ihave Hxt' := (Transfers.pointsTo_toks_split (qCore c') 16) $$ Hxt
  icases Hxt' with ⟨Hxtr, Hxts⟩
  ihave Ho' := (Entails.of_eq (core_split_eq d c' f)) $$ Ho
  imodintro
  isplitl [Hfls Hxts Ho']
  · isplitl [Hfls]; · iexact Hfls
    isplitl [Hxts]; · iexact Hxts
    iapply (oTiles_some d c' f)
    iexact Ho'
  iintro ⟨Hfls, Hxts, Hos⟩
  isplitl [Hflr Hfls]
  · iapply (Transfers.pointsTo_toks_join (qCore c') 16)
    isplitl [Hflr]; · iexact Hflr
    iexact Hfls
  isplitl [Hxtr Hxts]
  · iapply (Transfers.pointsTo_toks_join (qCore c') 16)
    isplitl [Hxtr]; · iexact Hxtr
    iexact Hxts
  iapply (oTiles_join d c')
  iexact Hos

end Cert.Proof.KI

end
-- ==== Proof.KI.Main.lean ====
/-
  @main on the TensorCore. The program transposes the indices, runs the TensorCore kernel that scales and
  transposes the table, flattens the result, calls the SparseCore kernel and transposes its output. Each host
  operation runs over the two arrays it names, held whole; the SparseCore call is handed, per SparseCore, a read
  share of the transposed indices and of the flattened table and that SparseCore's block of out_t, and hands the
  blocks back at whatever the subcores wrote. The two arguments are never written: they end at their launch
  contents. The TensorCore kernel's region is stated here as an obligation and proved apart.
-/
import proofs.«203934_g28930899706482_cont_9to1_1937_23_alg».proof.Proof.KI.VecSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The arrays as device references, the host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The transposition of the indices, the flattening of the scaled table, the transposition of out_t. -/
abbrev opT0 : HloOp τ sig (Elt F) :=
  StableHlo.unary main_arg0 main_v0 ((transpose S200x16384 [1, 0] · transposes_S16384x200_S200x16384_1_0) : (⟨S16384x200, .i32⟩ : BufTy).Contents (Elt F) → (⟨S200x16384, .i32⟩ : BufTy).Contents (Elt F))
abbrev opR : HloOp τ sig (Elt F) := StableHlo.reshape main_v1 main_v2 rfl shapeCasts_S32x1000_S32000
abbrev opT1 : HloOp τ sig (Elt F) :=
  StableHlo.unary main_v3 main_v4 ((transpose S16384x200x32 [2, 0, 1] · transposes_S200x32x16384_S16384x200x32_2_0_1) : (⟨S200x32x16384, .f32⟩ : BufTy).Contents (Elt F) → (⟨S16384x200x32, .f32⟩ : BufTy).Contents (Elt F))

omit [FloatOps F] in
/-- Two arrays held whole. -/
theorem held_pair (d : Dev nD) {a y : DevRef τ sig} (h : a ≠ y) (W : Valuation τ sig (Elt F)) :
    (held (T d) {a, y} W : sProp 𝕄) = iprop(((d, a) ↦{fullShare} W a) ∗ ((d, y) ↦{fullShare} W y)) := by
  unfold held
  rw [SparseCore.bigSep_insert' (by simpa using h), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tbLoc d ↦{fullShare} W main_arg1) ∗ (xtLoc d ↦{fullShare} W main_v0)
      ∗ (tsLoc d ↦{fullShare} W main_v1) ∗ (flLoc d ↦{fullShare} W main_v2) ∗ (oLoc d ↦{fullShare} W main_v3) ∗ (resLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation of device d, and it with one array at other contents. -/
def V0 (d : Dev nD) : Valuation τ sig (Elt F) := fun b => m (d, b)
def V1 (d : Dev nD) (r : DevRef τ sig) (f : r.ty.Contents (Elt F)) : Valuation τ sig (Elt F) := Function.update (V0 m d) r f

theorem V1_self (d : Dev nD) (r : DevRef τ sig) (f : r.ty.Contents (Elt F)) : V1 m d r f r = f := Function.update_self _ _ _
theorem V1_ne (d : Dev nD) {r b : DevRef τ sig} (h : b ≠ r) (f : r.ty.Contents (Elt F)) : V1 m d r f b = m (d, b) :=
  Function.update_of_ne h _ _

/-! ## The SparseCore call's operands, per SparseCore -/

omit [FloatOps F] in
/-- A conjunction over the call's SparseCores is one over the grid's first axis. -/
theorem bigSep_cores (Φ : Fin (grid1.bound 0) → sProp 𝕄) :
    (bigSep Finset.univ fun c : Fin ((K (F := F)).nCore 0) => Φ (Fin.cast nCore_bound c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun c : Fin (grid1.bound 0) => coreRes m d c :=
  bigSep_cores (F := F) (fun c => coreRes m d c)
theorem dn0_eq (d : Dev nD) :
    (bigSep Finset.univ fun c : Fin ((K (F := F)).nCore 0) => (P m).dn 0 d c) = bigSep Finset.univ fun c : Fin (grid1.bound 0) => coreRes m d c :=
  bigSep_cores (F := F) (fun c => coreRes m d c)

omit [FloatOps F] in
/-- The whole of out_t at one array's contents is the SparseCores' blocks, each at some contents. -/
theorem oCores_some (d : Dev nD) (f : Buf (Elt F) (oLoc d)) :
    (oLoc d ↦{fullShare} f : sProp 𝕄) ⊢ bigSep Finset.univ fun c : Fin (grid1.bound 0) => iprop(∃ g, oLoc d ↦[cset c]{fullShare} g) := by
  rw [whole_split_eq]
  exact bigSep_mono fun c _ => exists_intro (Φ := fun g : Buf (Elt F) (oLoc d) => (oLoc d ↦[cset c]{fullShare} g : sProp 𝕄)) f

set_option maxRecDepth 4096 in
/-- The SparseCores' blocks, each at some contents, are the whole of out_t at some contents. -/
theorem oCores_join (d : Dev nD) :
    (bigSep Finset.univ fun c : Fin (grid1.bound 0) => iprop(∃ g, oLoc d ↦[cset c]{fullShare} g)) ⊢ (iprop(∃ g, oLoc d ↦{fullShare} g) : sProp 𝕄) := by
  refine (bigSep_exists_pi Finset.univ (fun (c : Fin (grid1.bound 0)) (g : Buf (Elt F) (oLoc d)) => oLoc d ↦[cset c]{fullShare} g)).trans ?_
  iintro ⟨%fs, H⟩
  ihave H' := (pointsTo_biUnion_join Finset.univ cset fs (fs ⟨0, by decide⟩) csets_disjoint) $$ H
  icases H' with ⟨%g, -, Hg⟩
  rw [csets_cover]
  iexists g
  iexact Hg

/-! ## The TensorCore kernel's region, as an obligation -/

/-- What @main leaves the claim: the two arguments at their launch contents. -/
abbrev FIN (d : Dev nD) : sProp 𝕄 := iprop((xLoc d ↦{fullShare} m (xLoc d)) ∗ (tbLoc d ↦{fullShare} m (tbLoc d)))

/-- The region of the TensorCore kernel: entered holding the TensorCore's handshake state, the region boundary, the
    table whole and the result array whole as launched (nothing writes it before), and what the launch set aside for it
    (G), it returns them with the result array at the scaled transposed table. -/
def RegionObl (G : Dev nD → sProp 𝕄) : Prop :=
  ∀ (κ : GSem nD τ sig → ℕ) (d : Dev nD) (Φ : PUnit → sProp 𝕄),
    iprop((K (F := F)).ctx EH (P m) κ ∗ (K (F := F)).tcSt EH d 0 ∗ boundary (T d) ∗ (tbLoc d ↦{fullShare} m (tbLoc d))
        ∗ (tsLoc d ↦{fullShare} m (tsLoc d)) ∗ G d
        ∗ (((K (F := F)).tcSt EH d 0 ∗ boundary (T d) ∗ (tbLoc d ↦{fullShare} m (tbLoc d)) ∗ (tsLoc d ↦{fullShare} TS (m (tbLoc d)))) -∗ Φ ⟨⟩))
      ⊢ wp frame (wpE ((K (F := F)).defs (D (F := F))) 𝒱 (SparseCore.T d) none) Set.univ
          (Prog.lift (.customCall (SparseCore.inner (Pipeline.entry 0)) ())) Φ

/-! ## The host operations' arrays, before and after -/

theorem held_T0_pre (d : Dev nD) :
    (held (T d) (opT0 (F := F)).bufs (V0 m d) : sProp 𝕄) = iprop((xLoc d ↦{fullShare} m (xLoc d)) ∗ (xtLoc d ↦{fullShare} m (xtLoc d))) :=
  held_pair d (show a0' ≠ v0' by decide) _

theorem held_T0_post (d : Dev nD) :
    (held (T d) (opT0 (F := F)).bufs ((opT0 (F := F)).result (V0 m d)) : sProp 𝕄)
      = iprop((xLoc d ↦{fullShare} m (xLoc d)) ∗ (xtLoc d ↦{fullShare} XTv m d)) := by
  rw [show (opT0 (F := F)).bufs = {a0', v0'} from rfl, held_pair d (show a0' ≠ v0' by decide),
    (opT0 (F := F)).result_of_not_mem (V0 m d) (b := a0') (show a0' ∉ ({v0'} : Finset (DevRef τ sig)) by decide),
    show (opT0 (F := F)).result (V0 m d) v0' = XTv m d from StableHlo.unary_result ..]
  rfl

theorem held_R_pre (d : Dev nD) (f : Buf (Elt F) (tsLoc d)) :
    (held (T d) (opR (F := F)).bufs (V1 m d v1' f) : sProp 𝕄) = iprop((tsLoc d ↦{fullShare} f) ∗ (flLoc d ↦{fullShare} m (flLoc d))) := by
  rw [show (opR (F := F)).bufs = {v1', v2'} from rfl, held_pair d (show v1' ≠ v2' by decide), V1_self, V1_ne m d (show v2' ≠ v1' by decide)]

theorem held_R_post (d : Dev nD) :
    (held (T d) (opR (F := F)).bufs ((opR (F := F)).result (V1 m d v1' (TS (m (tbLoc d))))) : sProp 𝕄)
      = iprop((tsLoc d ↦{fullShare} TS (m (tbLoc d))) ∗ (flLoc d ↦{fullShare} FLv m d)) := by
  rw [show (opR (F := F)).bufs = {v1', v2'} from rfl, held_pair d (show v1' ≠ v2' by decide),
    (opR (F := F)).result_of_not_mem (V1 m d v1' (TS (m (tbLoc d)))) (b := v1') (show v1' ∉ ({v2'} : Finset (DevRef τ sig)) by decide),
    V1_self,
    show (opR (F := F)).result (V1 m d v1' (TS (m (tbLoc d)))) v2' = FLv m d from by
      rw [StableHlo.reshape_result, V1_self]; rfl]

theorem held_T1_pre (d : Dev nD) (g : Buf (Elt F) (oLoc d)) :
    (held (T d) (opT1 (F := F)).bufs (V1 m d v3' g) : sProp 𝕄) = iprop((oLoc d ↦{fullShare} g) ∗ (resLoc d ↦{fullShare} m (resLoc d))) := by
  rw [show (opT1 (F := F)).bufs = {v3', v4'} from rfl, held_pair d (show v3' ≠ v4' by decide), V1_self, V1_ne m d (show v4' ≠ v3' by decide)]

/-- What the SparseCores hand back holds the whole of out_t at some contents. -/
theorem cores_back (d : Dev nD) :
    (bigSep Finset.univ fun c : Fin (grid1.bound 0) => coreRes m d c) ⊢ (iprop(∃ g, oLoc d ↦{fullShare} g) : sProp 𝕄) := by
  unfold coreRes
  rw [bigSep_sep', bigSep_sep']
  iintro ⟨-, -, Ho⟩
  iapply (oCores_join d)
  iexact Ho

/-! ## @main -/

/-- @main on device d's TensorCore, given the TensorCore kernel's region: the arguments end at their launch contents. -/
theorem hmain (G : Dev nD → sProp 𝕄) (hreg : RegionObl m G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Htb, Hxt, Hts, Hfl, Ho, Hres⟩, -, -⟩, HG⟩
  -- the transposition of the indices
  iapply (wp_hlo_within 𝒱 (SparseCore.T d) none Set.univ (op := opT0) (S := (opT0 (F := F)).bufs) (Finset.Subset.refl _) (V := V0 m d)) $$ [Hb Hx Hxt]
  · isplitl [Hb]; · iexact Hb
    rw [held_T0_pre]
    isplitl [Hx]; · iexact Hx
    iexact Hxt
  iintro ⟨Hb, Hh⟩
  ihave Hh' := (Entails.of_eq (held_T0_post m d)) $$ Hh
  icases Hh' with ⟨Hx, Hxt⟩
  rw [wp_ret]; imodintro
  -- the TensorCore kernel's region
  iapply (hreg κ d _) $$ [Hst Hb Htb Hts HG Hx Hxt Hfl Ho Hres]
  isplitr; · iexact Hctx
  isplitl [Hst]; · iexact Hst
  isplitl [Hb]; · iexact Hb
  isplitl [Htb]; · iexact Htb
  isplitl [Hts]; · iexact Hts
  isplitl [HG]; · iexact HG
  iintro ⟨Hst, Hb, Htb, Hts⟩
  -- the flattening
  iapply (wp_hlo_within 𝒱 (SparseCore.T d) none Set.univ (op := opR) (S := (opR (F := F)).bufs) (Finset.Subset.refl _) (V := V1 m d v1' (TS (m (tbLoc d))))) $$ [Hb Hts Hfl]
  · isplitl [Hb]; · iexact Hb
    rw [held_R_pre]
    isplitl [Hts]; · iexact Hts
    iexact Hfl
  iintro ⟨Hb, Hh⟩
  ihave Hh' := (Entails.of_eq (held_R_post m d)) $$ Hh
  icases Hh' with ⟨Hts, Hfl⟩
  rw [wp_ret]; imodintro
  -- the SparseCore call: a read share of the flattened table and of the transposed indices and its block of out_t to each SparseCore
  ihave Hfl' := (Transfers.pointsTo_toks_split fullShare 2) $$ Hfl
  icases Hfl' with ⟨Hflr, Hfls⟩
  ihave Hxt' := (Transfers.pointsTo_toks_split fullShare 2) $$ Hxt
  icases Hxt' with ⟨Hxtr, Hxts⟩
  ihave Ho' := (oCores_some d _) $$ Ho
  iapply ((K (F := F)).wp_run (D (F := F)) 𝒱 (EH := EH) (P := P m) κ d 0) $$ [Hst Hfls Hxts Ho' Hb Hx Htb Hres]
  isplitr; · iexact Hctx
  isplitl [Hst]; · iexact Hst
  isplitl [Hfls Hxts Ho']
  · rw [st0_eq]
    unfold coreRes
    rw [bigSep_sep', bigSep_sep']
    isplitl [Hfls]; · iexact Hfls
    isplitl [Hxts]; · iexact Hxts
    iexact Ho'
  iintro ⟨Hst, Hdn⟩
  ihave Hdn' := (Entails.of_eq (dn0_eq m d)) $$ Hdn
  ihave Ho := (cores_back m d) $$ Hdn'
  icases Ho with ⟨%g, Ho⟩
  -- the transposition of out_t
  iapply (wp_hlo_within 𝒱 (SparseCore.T d) none Set.univ (op := opT1) (S := (opT1 (F := F)).bufs) (Finset.Subset.refl _) (V := V1 m d v3' g)) $$ [Hb Ho Hres]
  · isplitl [Hb]; · iexact Hb
    rw [held_T1_pre]
    isplitl [Ho]; · iexact Ho
    iexact Hres
  iintro ⟨Hb, -⟩
  rw [wp_ret]; imodintro; imodintro
  isplitl [Hst]; · iexact Hst
  isplitl [Hx]; · iexact Hx
  iexact Htb

end Cert.Proof.KI

end
-- ==== Proof.KI.Region.lean ====
/-
  The TensorCore kernel's region. The kernel is a pipeline over one grid point with two whole-array windows: the
  table (fetched) and the result array (written back). Its body reads the table's block, and stores the scaled
  transpose of it over the whole result block. The region is run by the pipeline library's rule for a kernel
  region inside @main: the windows' layout is the generated one; the kernel has no semaphore of its own; the waits
  on the staging buffers' semaphores are recorded at the index that belongs to no SparseCore call, which sits at
  level 0, below everything the TensorCore owes (it owes only later calls' start signals); what the TensorCore owes
  and the bound on its recorded pairs pass through the region unchanged. The result array ends at what the pipeline
  computes from the proof data: the launch contents with the one point's block written back.
-/
import proofs.«203934_g28930899706482_cont_9to1_1937_23_alg».proof.Proof.KI.Main
import proofs.«203934_g28930899706482_cont_9to1_1937_23_alg».proof.Proof.Gen.KernelIdeal.Launch
import proofs.«203934_g28930899706482_cont_9to1_1937_23_alg».proof.Proof.Gen.KernelIdeal.Points
import Idealize.ShloMosaic.Lib.Pipeline.Regions
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ)

/-- The one pipeline's configuration as the library's rules take it: no prefetched table. -/
abbrev pcs : Fin 1 → Pipeline.PCfg sig Λ₀ (Elt F) := pcfgs (F := F)
abbrev adm : (p : Fin 1) → (pcs (F := F) p).Adm := fun p => (cfgs p).toPCfg_adm

/-- Device d's TensorCore arrays as the region finds them: as launched. -/
abbrev Vm (d : Dev nD) (b : Ref sig .tc) : Buf (Elt F) ((d : Thread nD τ).loc b) := m ((d : Thread nD τ).loc b)

/-- Window w's block at the one point, read off its array. -/
def iblk (d : Dev nD) (w : Fin cfg0.W) (t : Fin cfg0.N) : ((cfg0.win w).xblock (cfg0.grid.coords t)).Idx → Elt F (cfg0.win w).elt :=
  ((cfg0.win w).blk t).view.read (Elt F) (Vm m d (Pipeline.arrRef spec0 w))

variable [∀ e, Nonempty (Elt F e)]

/-! ## The kernel's body -/

/-- The whole of the table block, the whole of the result block, as the body's load and store name them. -/
abbrev wholeIn : Rect S1000x32 := Rect.unit (s := S1000x32) ![0, 0] S1000x32.size inb_S1000x32_S1000x32_0_0
abbrev wholeOut : Rect S32x1000 := Rect.unit (s := S32x1000) ![0, 0] S32x1000.size inb_S32x1000_S32x1000_0_0

/-- A rectangle that is the whole of its shape places an index at itself: offset 0, stride 1 on both axes. -/
theorem wholeIn_emb (x : wholeIn.shape.Idx) : wholeIn.emb x = x := by
  funext a; apply Fin.ext; rw [Rect.emb_apply]
  fin_cases a <;> simp [Rect.unit]
theorem wholeOut_emb (x : wholeOut.shape.Idx) : wholeOut.emb x = x := by
  funext a; apply Fin.ext; rw [Rect.emb_apply]
  fin_cases a <;> simp [Rect.unit]

set_option maxHeartbeats 1000000 in
/-- The TensorCore kernel's body on whole staging memrefs: it reads the table block x, reads the result buffer (a value
    nothing uses) and stores the scaled transpose of x over the whole result buffer; the table block stays. -/
theorem scale_body_runs (c : Dev nD) (E : Set ℕ) (arg0 : Memref sig .tc .vmem S1000x32 .f32) (harg0 : arg0.IsWhole)
    (arg1 : Memref sig .tc .vmem S32x1000 .f32) (harg1 : arg1.IsWhole) (x : Vec F S1000x32 .f32) (Ψ : PUnit → sProp 𝕄) :
    iprop(owns (c : Thread nD τ) arg0 fullShare x ∗ (∃ y, owns (c : Thread nD τ) arg1 fullShare y)
        ∗ ((owns (c : Thread nD τ) arg0 fullShare x ∗ owns (c : Thread nD τ) arg1 fullShare (TS x)) -∗ Ψ ⟨⟩))
      ⊢ wp frame (wpE (defs₀ (F := F)) Variants.none c none) E (cc0__scale_body arg0 harg0 arg1 harg1) Ψ := by
  rw [cc0__scale_body_eq_skeleton]; unfold cc0__scale_body_skel
  unfold owns
  iintro ⟨⟨%f0, %hf0, H0⟩, ⟨%y, %f1, -, H1⟩, Hk⟩
  subst hf0
  sl_exec
  rw [wp_ret]; imodintro
  iapply Hk
  isplitl [H0]
  · iexists f0; isplitr; · ipureintro; rfl
    iexact H0
  iexists _; isplitr; rotate_left
  · iexact H1
  ipureintro
  -- the load of the whole table block is the block; the one store covers the result buffer
  have hload : View.readAt (Elt F) arg0.view wholeIn.toLoadRect f0 = View.read (Elt F) arg0.view f0 := by
    funext i; rw [View.readAt_apply]; exact congrArg _ (wholeIn_emb i)
  rw [hload]
  funext j
  refine View.read_writes_apply_of_pieces arg1.view f1 (TS (View.read (Elt F) arg0.view f0)) _ (fun p hp i => ?_) j
    ⟨_, List.mem_singleton_self _, ?_⟩
  · obtain rfl := List.mem_singleton.mp hp
    exact congrArg (TS (View.read (Elt F) arg0.view f0)) (wholeOut_emb i).symm
  · rw [← Rect.map_emb_univ]; exact Finset.mem_map.mpr ⟨j, Finset.mem_univ _, wholeOut_emb j⟩

/-! ## The pipeline's proof data -/

/-- On device d: the arrays as launched; after the body the table's staging buffer at its block and the result's at the
    scaled transpose of that block; no invariant of the kernel's own; full shares; the TensorCore owes, throughout,
    what it owes before the first SparseCore call, and the pairs its waits record stay at level 0. -/
def dats (_ : Fin 1) (d : Dev nD) : Dat τ (Elt F) (HIx 1) ℕ UU ℕ cfg0 d where
  A w := Vm m d (Pipeline.arrRef spec0 w)
  after w t := match w with
    | ⟨0, _⟩ => iblk m d 0 t
    | ⟨1, _⟩ => TS (iblk m d 0 t)
  Φ _ := iprop(emp)
  q _ := fullShare
  owed _ := (K (F := F)).Otc d 0
  recorded _ := {p | (K (F := F)).lev (SparseCore.T d, p.1) p.2 ≤ 0}

/-- The table's staging buffer holds the table's block when the body runs: the one point fetches it. -/
theorem staged_in (c : Dev nD) (t : Fin cfg0.N) (d) : (dats m 0 c).before 0 t d = iblk m c 0 t := by
  unfold Dat.before
  rw [if_pos (fetch0_0 t)]
  rfl

/-- The body obligation at the one point. -/
theorem body_at_point (c : Dev nD) : BodyObligation (dats (F := F) m 0 c) (defs₀ (F := F)) Variants.none (none : HIx 1) Set.univ := by
  intro t
  rw [bigSep_W0, bigSep_W0]
  -- nothing is forgotten and no window is idle at the point: the obligation reads over the two current buffers
  show iprop((dats m 0 c).Φ t.castSucc ∗ (dats m 0 c).owesAt none t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none (c : Thread nD τ) none) Set.univ (bodyAt0 t) fun _ =>
      iprop((dats m 0 c).Φ t.castSucc ∗ (dats m 0 c).owesAt none t.castSucc
        ∗ owns (c : Thread nD τ) (st0_0 t) fullShare (iblk m c 0 t) ∗ owns (c : Thread nD τ) (st0_1 t) fullShare (TS (iblk m c 0 t)))
  simp only [staged_in]
  iintro ⟨HΦ, Ho, ⟨%d0, Hin⟩, ⟨%d1, Hout⟩⟩
  iapply (scale_body_runs c Set.univ _ _ _ _ (iblk m c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-! ## The region -/

/-- What the TensorCore owes at index none: nothing (everything it owes is a later call's, at that call's index). -/
theorem otc_none (d : Dev nD) (g : GSem nD τ sig) : (K (F := F)).Otc d 0 g none = 0 := by
  by_contra h
  have := (K (F := F)).lev_of_Otc_pos (d := d) (n := 0) (g := g) (ι := none) (Nat.pos_of_ne_zero h)
  rw [SparseCore.Cfg.lev_none] at this; omega

/-- What the TensorCore owes before the first SparseCore call, with its recorded pairs at level 0. -/
def tcOwes (d : Dev nD) : sProp 𝕄 :=
  iprop(∃ W, ⌜(K (F := F)).WBelow (SparseCore.T d) W (8 * 0)⌝ ∗ owes (SparseCore.T d) ((K (F := F)).Otc d 0) W)

/-- The result array after the region, as the pipeline computes it: the launch contents with the one point's block
    written back. -/
def TSlib (d : Dev nD) : Buf (Elt F) (tsLoc d) := (dats m 0 d).arrAt 1 cfg0.N

/-- The TensorCore kernel's region as the library's record: the windows' layout; no semaphore of the kernel's own; the
    body obligation; the waits on the staging cells' semaphores sit, at index none, below everything the TensorCore owes;
    in go what it owes, the table and the result array as launched, out come what it owes, the table and the result
    array at what the pipeline computes. -/
def RS : Pipeline.RegionSeg (pcs (F := F)) adm (dats m) (none : HIx 1) (defs₀ (F := F)) 𝒱₀ (K (F := F)).L (K (F := F)).lev (0 : Fin 1) where
  win := launch0.win.to₀
  block_pos := block_pos0
  stage_whole := stage_whole0
  K := PEmpty
  osem := fun k => k.elim
  ho := Pipeline.OwnSemFacts.none _
  hbody := fun c => (body_at_point m c).loose
  hwaits := fun c => Pipeline.cellsWaits_intro (Pipeline.pin pcs adm) (dats m) (none : HIx 1) 0 c fun w s t =>
    (K (F := F)).mayWait_none (thr := (c : Thread nD τ)) _ (fun g => otc_none c g)
  pre := fun c => iprop(tcOwes (F := F) c ∗ (tbLoc c ↦{fullShare} m (tbLoc c)) ∗ (tsLoc c ↦{fullShare} m (tsLoc c)))
  post := fun c => iprop(tcOwes (F := F) c ∗ (tbLoc c ↦{fullShare} m (tbLoc c)) ∗ (tsLoc c ↦{fullShare} TSlib m c))
  X := fun _ => iprop(emp)
  Y := fun _ => iprop(emp)
  Z := fun _ => iprop(emp)
  hentry := fun c => by
    rw [Pipeline.ownSems0_none nD τ sig (Elt F) (HIx 1) ℕ UU ℕ c,
      Pipeline.arrays_eq (Pipeline.pin pcs adm) (dats m) 0 c arr_whole0 ((dats m 0 c).share_full fun _ => rfl), bigSep_W0]
    iintro ⟨⟨Ho, Htb, Hts⟩, -, -⟩
    imodintro
    isplitl [Htb Hts]
    · isplitl [Htb]; · iexact Htb
      iexact Hts
    isplitr
    · unfold Pipeline.prefHeld; rw [Finset.univ_eq_empty, bigSep_empty]; iempintro
    isplitl [Ho]
    · unfold tcOwes
      icases Ho with ⟨%W, %hW, Ho⟩
      iexists W; isplitr
      · ipureintro; exact fun p hp => Or.inl (show (K (F := F)).lev (SparseCore.T c, p.1) p.2 ≤ 0 from hW p hp)
      iexact Ho
    isplitr <;> iempintro
  hin := fun c => by
    show _ ⊢ (iprop(emp) : sProp 𝕄)
    iintro -; iempintro
  hout := fun c => by
    rw [Pipeline.ownSems0_none nD τ sig (Elt F) (HIx 1) ℕ UU ℕ c,
      show (Pipeline.scopedRest (Pipeline.pin pcs adm 0).spec c : sProp 𝕄) = BI.emp from scopedRest0_eq c]
    iintro -
    isplitr; · iempintro
    isplitr <;> iempintro
  hexit := fun c => by
    rw [Pipeline.arrays_eq (Pipeline.pin pcs adm) (dats m) 0 c arr_whole0 ((dats m 0 c).share_full fun _ => rfl), bigSep_W0,
      (dats m 0 c).arrAt_in 0 rfl]
    iintro ⟨⟨Htb, Hts⟩, Ho, -, -⟩
    imodintro
    isplitl [Ho]
    · unfold tcOwes
      icases Ho with ⟨%W, %hW, Ho⟩
      iexists W; isplitr
      · ipureintro
        intro p hp
        rcases hW hp with h | ⟨w, s, rfl⟩
        · exact h
        · exact le_of_eq (SparseCore.Cfg.lev_none _ _)
      iexact Ho
    isplitl [Htb]; · iexact Htb
    iexact Hts

theorem RS_pre (d : Dev nD) :
    (RS m).pre d = iprop(tcOwes (F := F) d ∗ (tbLoc d ↦{fullShare} m (tbLoc d)) ∗ (tsLoc d ↦{fullShare} m (tsLoc d))) := rfl
theorem RS_post (d : Dev nD) :
    (RS m).post d = iprop(tcOwes (F := F) d ∗ (tbLoc d ↦{fullShare} m (tbLoc d)) ∗ (tsLoc d ↦{fullShare} TSlib m d)) := rfl

/-! ## The region entered from @main, and the launch element -/

/-- What the launch sets aside on device d for the pipeline: its staging cells' ghost state and its transfers' tokens. -/
def Gr (d : Dev nD) : sProp 𝕄 :=
  iprop(Pipeline.cellsGhost (Pipeline.pin (pcs (F := F)) adm) (EP (F := F)) 0 d ∗ Pipeline.toksInit (Pipeline.pin (pcs (F := F)) adm) (EP (F := F)) 0 d)

/-- The pipeline's region call in the program's own signature, and as @main spells it in the extended one. -/
abbrev entryCall : Prog (TpuEff nD τ sig (Elt F) (ΛP (F := F)) .tc) PUnit := Prog.lift (.customCall (Pipeline.entry (0 : Fin 1)) ())
theorem lift_entryCall :
    (SparseCore.liftProg (Q := 1) (entryCall (F := F)) : Prog (TpuEff nD τ sig (Elt F) (SparseCore.Sig (ΛP (F := F)) 1) .tc) PUnit)
      = Prog.lift (.customCall (SparseCore.inner (Pipeline.entry (0 : Fin 1))) ()) := rfl

set_option backward.isDefEq.respectTransparency.types false in
set_option maxHeartbeats 1000000 in
/-- The region in the program's own signature, with the result array at what the pipeline computes. -/
theorem region_inner (κ : GSem nD τ sig → ℕ) (d : Dev nD) (Φ : PUnit → sProp 𝕄) :
    iprop((K (F := F)).ctx EH (P m) κ ∗ (K (F := F)).tcSt EH d 0 ∗ boundary (SparseCore.T d) ∗ (tbLoc d ↦{fullShare} m (tbLoc d))
        ∗ (tsLoc d ↦{fullShare} m (tsLoc d)) ∗ Gr (F := F) d
        ∗ (((K (F := F)).tcSt EH d 0 ∗ boundary (SparseCore.T d) ∗ (tbLoc d ↦{fullShare} m (tbLoc d)) ∗ (tsLoc d ↦{fullShare} TSlib m d)) -∗ Φ ⟨⟩))
      ⊢ wp frame (wpE (D (F := F)) 𝒱 (SparseCore.T d) none) Set.univ (entryCall (F := F)) Φ := by
  unfold SparseCore.Cfg.tcSt Gr
  iintro ⟨#Hctx, ⟨Ho, Hrest⟩, Hb, Htb, Hts, ⟨Hg, Ht⟩, Hk⟩
  ihave Hlev := (SparseCore.Cfg.ctx_levAts κ) $$ Hctx
  iapply (Pipeline.RegionSeg.wp (pcs (F := F)) adm (dats m) (none : HIx 1) cellOf_inj (EP (F := F)) (defs₀ (F := F)) 𝒱₀
    (K (F := F)).L (K (F := F)).lev (RS m) d none (fun u hu => nomatch hu) (fun _ => .ret ⟨⟩) Φ) $$ [Ho Hrest Hb Htb Hts Hg Ht Hk Hlev]
  rw [RS_pre, RS_post]
  unfold tcOwes
  isplitl [Hrest Hk]
  · iintro ⟨Hb, Ho, Htb, Hts⟩
    rw [wp_ret]; imodintro
    iapply Hk
    isplitl [Ho Hrest]
    · isplitl [Ho]; · iexact Ho
      iexact Hrest
    isplitl [Hb]; · iexact Hb
    isplitl [Htb]; · iexact Htb
    iexact Hts
  isplitl [Hb]; · iexact Hb
  isplitl [Ho Htb Hts]
  · isplitl [Ho]; · iexact Ho
    isplitl [Htb]; · iexact Htb
    iexact Hts
  isplitl [Hlev]; · iexact Hlev
  isplitl [Hg]; · iexact Hg
  iexact Ht

/-- The region as @main spells it, in the extended signature. -/
theorem region_lib (κ : GSem nD τ sig → ℕ) (d : Dev nD) (Φ : PUnit → sProp 𝕄) :
    iprop((K (F := F)).ctx EH (P m) κ ∗ (K (F := F)).tcSt EH d 0 ∗ boundary (SparseCore.T d) ∗ (tbLoc d ↦{fullShare} m (tbLoc d))
        ∗ (tsLoc d ↦{fullShare} m (tsLoc d)) ∗ Gr (F := F) d
        ∗ (((K (F := F)).tcSt EH d 0 ∗ boundary (SparseCore.T d) ∗ (tbLoc d ↦{fullShare} m (tbLoc d)) ∗ (tsLoc d ↦{fullShare} TSlib m d)) -∗ Φ ⟨⟩))
      ⊢ wp frame (wpE ((K (F := F)).defs (D (F := F))) 𝒱 (SparseCore.T d) none) Set.univ
          (Prog.lift (.customCall (SparseCore.inner (Pipeline.entry 0)) ())) Φ := by
  rw [← lift_entryCall]
  exact (region_inner m κ d Φ).trans
    ((K (F := F)).wp_liftProg (D (F := F)) 𝒱 (SparseCore.T d) Set.univ none (entryCall (F := F)) Φ)

end Cert.Proof.KI

end
-- ==== Proof.KI.Launch.lean ====
/-
  The program's run from the vector subcores' obligation. Every thread's part is proved (the subcores' task is the
  hypothesis here, @main is proved over the TensorCore kernel's region, the split of a SparseCore's operands among its
  subcores is proved), so every weakly fair execution of the 35 threads terminates, and the two argument arrays end
  at their launch contents: at the end @main still holds them whole at those contents, which the final memory must
  then agree with.
-/
import proofs.«203934_g28930899706482_cont_9to1_1937_23_alg».proof.Proof.KI.Main

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- What the final memory is asked: device d's two arguments as launched. -/
def fq (d : Dev nD) (s' : Phys nD τ sig (Elt F)) : Prop := s'.mem.mem (xLoc d) = m (xLoc d) ∧ s'.mem.mem (tbLoc d) = m (tbLoc d)

/-- An array held whole at the full share has its contents in the memory. -/
theorem hfin (d : Dev nD) (s' : Phys nD τ sig (Elt F)) : iprop(FIN m d ∗ SI s') ⊢ (⌜fq m d s'⌝ : sProp 𝕄) := by
  iintro ⟨⟨Hx, Ht⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := tbLoc d) (I := Finset.univ) (q := fullShare) (f := m (tbLoc d))) $$ [HSI Ht]
  · isplitl [HSI] <;> iassumption
  icases H with %h2
  ipureintro; exact ⟨funext fun i => h1 i (Finset.mem_univ i), funext fun i => h2 i (Finset.mem_univ i)⟩

/-- The frame's post: on every device the two arguments are as launched. -/
def QC : PUnit × MemSt nD τ sig (Elt F) → Prop := fun r => ∀ c : Dev nD, r.2.mem (xLoc c) = m (xLoc c) ∧ r.2.mem (tbLoc c) = m (tbLoc c)

/-- THE RUN, from the vector subcores' obligation, the TensorCore kernel's region and a launch element that funds
    the handshakes and what the region needs (G): every weakly fair execution of the program's threads terminates
    with the two arguments unchanged. -/
theorem run_frame [∀ e, Nonempty (Elt F e)] (htile : (K (F := F)).TileObl (D (F := F)) 𝒱 (P m) v₀ 0)
    (G : Dev nD → sProp 𝕄) (hreg : RegionObl m G) (u₀ : UU)
    (hu₀ : (ownU u₀ : sProp 𝕄) ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main G (FIN m) u₀ (sep_elim_left.trans hu₀) (hmain m ρ G hreg) (fq m) (hfin m) (QC m) (fun _ h => h)

end Cert.Proof.KI

end
-- ==== Proof.KI.RegionLaunch.lean ====
/-
  The launch element for the whole program and the run from the vector subcores' obligation. The proof's resource
  algebra has three parts side by side: the handshakes' rounds, the pipeline library's rounds for the TensorCore
  kernel's staging cells, and the transfers' counters. The launch element funds the first two and leaves the third
  at its unit; from it come the handshakes' part as the launch theorem takes it and, on every device, the ghost state
  and duty tokens the TensorCore kernel's region is entered with. With the region's result identified as the scaled
  transposed table, the region is the obligation @main was proved over, and the launch theorem gives the run.
-/
import proofs.«203934_g28930899706482_cont_9to1_1937_23_alg».proof.Proof.KI.Region
import proofs.«203934_g28930899706482_cont_9to1_1937_23_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ) (ρ : Dev nD → PrngReg)
variable [∀ e, Nonempty (Elt F e)]

/-! ## The launch element -/

/-- The launch element: the handshakes' rounds, the pipeline's staging cells and its transfers' tokens, no counter. -/
def u₀ : UU :=
  (initOf (K (F := F)).hsCells (K (F := F)).hsToks,
    (initOf (Pipeline.cells (Pipeline.pin (pcs (F := F)) adm) cellOf_inj) (Pipeline.launchToks (Pipeline.pin (pcs (F := F)) adm) cellOf_inj), 1))

omit [FloatOps F] in
theorem bigSep_emp' {I : Type} (s : Finset I) : (bigSep s fun _ => iprop(emp)) = (iprop(emp) : sProp 𝕄) := bigSep_emp_const s

/-- From the launch element: the handshakes' part as the launch theorem takes it, on every device what the region is
    entered with, and nothing of the kernel's own on any thread. -/
theorem hu₀ : (ownU (u₀ (F := F)) : sProp 𝕄)
    ⊢ |={Set.univ}=> iprop(BI.own (EH (initOf (K (F := F)).hsCells (K (F := F)).hsToks)) ∗ (bigSep Finset.univ (Gr (F := F)))
        ∗ bigSep Finset.univ fun thr : Thread nD τ => bigSep Finset.univ fun q : Fin 1 => (P m).x q thr) := by
  have e1 : (bigSep Finset.univ fun c : Dev nD => bigSep Finset.univ fun p : Fin 1 =>
        Pipeline.cellsGhost (Pipeline.pin (pcs (F := F)) adm) (EP (F := F)) p c)
      = bigSep Finset.univ fun c : Dev nD => Pipeline.cellsGhost (Pipeline.pin (pcs (F := F)) adm) (EP (F := F)) 0 c :=
    bigSep_congr fun c _ => bigSep_univ_of_subsingleton (0 : Fin 1)
  have e2 : (bigSep Finset.univ fun c : Dev nD => bigSep Finset.univ fun p : Fin 1 =>
        (Pipeline.toksInit (Pipeline.pin (pcs (F := F)) adm) (EP (F := F)) p c : sProp 𝕄))
      = bigSep Finset.univ fun c : Dev nD => Pipeline.toksInit (Pipeline.pin (pcs (F := F)) adm) (EP (F := F)) 0 c :=
    bigSep_congr fun c _ => bigSep_univ_of_subsingleton (0 : Fin 1)
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcs (F := F)) adm) (EP (F := F)) cellOf_inj) $$ HP with ⟨Hg, Ht⟩
  ihave Hg' := (Entails.of_eq e1) $$ Hg
  ihave Ht' := (Entails.of_eq e2) $$ Ht
  imodintro
  isplitl [HH]; · iexact HH
  isplitl [Hg' Ht']
  · unfold Gr
    rw [bigSep_sep']
    isplitl [Hg']; · iexact Hg'
    iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The region as @main asks it, and the run -/

/-- The region as @main was proved over it, once what the pipeline leaves in the result array is known to be the
    scaled transposed table. -/
theorem regionObl (hTS : ∀ d, TSlib m d = TS (m (tbLoc d))) : RegionObl m (Gr (F := F)) := by
  intro κ d Φ
  rw [← hTS d]
  exact region_lib m κ d Φ

/-- THE RUN from the vector subcores' obligation: every weakly fair execution of the program's threads terminates with
    the two arguments unchanged. -/
theorem run_of_tile (htile : (K (F := F)).TileObl (D (F := F)) 𝒱 (P m) v₀ 0) (hTS : ∀ d, TSlib m d = TS (m (tbLoc d))) :
    θ_run (Cert.KernelIdeal.defs (F := F)) (Cert.KernelIdeal.threads (F := F)) ⟨m, fun _ => 0, ρ⟩ (QC m) :=
  run_frame m ρ htile (Gr (F := F)) (regionObl m hTS) (u₀ (F := F)) (hu₀ m)

end Cert.Proof.KI

end
-- ==== Proof.KI.RegionValue.lean ====
/-
  The result array after the TensorCore kernel's region is the scaled transpose of the table. The pipeline computes
  that array from its proof data: the launch contents with the one point's block written back. The grid has one
  point. It fetches the table's block, which is the whole table: the window's block is the whole array at block
  index 0, so an index of the block sits at itself. The body leaves the scaled transpose of that block, and the point
  writes it back over the result array's block, again the whole array: every index of the array lies in it.
-/
import proofs.«203934_g28930899706482_cont_9to1_1937_23_alg».proof.Proof.KI.Region
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ)

variable [∀ e, Nonempty (Elt F e)]

/-- The table's window places an index of its block at itself: block index 0, the block the whole array. -/
theorem blk0_emb (t : Fin cfg0.N) (j : ((cfg0.win 0).xblock (cfg0.grid.coords t)).Idx) :
    ((cfg0.win 0).blk t).view.emb j = j := by
  funext a; apply Fin.ext
  show (cfg0.win 0).index t a * (cfg0.win 0).size a + 1 * (j a).val = (j a).val
  show 0 * (cfg0.win 0).size a + 1 * (j a).val = (j a).val
  omega

/-- So does the result array's window. -/
theorem blk1_emb (t : Fin cfg0.N) (j : ((cfg0.win 1).xblock (cfg0.grid.coords t)).Idx) :
    ((cfg0.win 1).blk t).view.emb j = j := by
  funext a; apply Fin.ext
  show (cfg0.win 1).index t a * (cfg0.win 1).size a + 1 * (j a).val = (j a).val
  show 0 * (cfg0.win 1).size a + 1 * (j a).val = (j a).val
  omega

/-- The table's block at the one point is the table. -/
theorem iblk0_eq (d : Dev nD) (t : Fin cfg0.N) : iblk m d 0 t = m (tbLoc d) := by
  funext j
  unfold iblk
  rw [View.read_apply, blk0_emb]
  rfl

/-- What the one point writes back is the block, at that point, of the scaled transpose of the table. -/
theorem flushed1_eq (d : Dev nD) (t : Fin cfg0.N) :
    (dats m 0 d).flushed 1 t = ((cfg0.win 1).blk t).view.read (Elt F) (TS (m (tbLoc d))) := by
  funext j
  rw [View.read_apply, blk1_emb]
  show TS (iblk m d 0 t) ((cfg0.win 1).xinj (cfg0.grid.coords t) j) = TS (m (tbLoc d)) j
  rw [iblk0_eq]

/-- Every index of the result array lies in the one point's block. -/
theorem mem_blk1 (d : Dev nD) (t : Fin cfg0.N) (i : ((cfg0.win 1).arr.view.loc (d.tc : Thread nD τ)).2.ty.Idx) :
    i ∈ ((cfg0.win 1).blk t).view.set := by
  have h := ((cfg0.win 1).blk t).view.emb_mem_set i
  rwa [blk1_emb] at h

/-- The result array after the region is the scaled transpose of the table. -/
theorem hTS (d : Dev nD) : TSlib m d = TS (m (tbLoc d)) := by
  unfold TSlib
  exact (dats m 0 d).arrAt_eq_of_cover 1 (TS (m (tbLoc d))) (fun t _ => flushed1_eq m d t)
    (fun i => ⟨t0_0, flush0_1 t0_0, mem_blk1 d t0_0 i⟩)

end Cert.Proof.KI

end
-- ==== Proof.KI.Frames.lean ====
/-
  The kernel's run and its frame: under the precondition every index word names a row of the table, so every vector
  subcore's task runs; with the TensorCore region and the launch, every weakly fair execution of the device's threads
  terminates, nothing faulting, the two arguments unchanged.
-/
import proofs.«203934_g28930899706482_cont_9to1_1937_23_alg».proof.Defs
import proofs.«203934_g28930899706482_cont_9to1_1937_23_alg».proof.Proof.RangeOfPre
import proofs.«203934_g28930899706482_cont_9to1_1937_23_alg».proof.Proof.RefRead
import proofs.«203934_g28930899706482_cont_9to1_1937_23_alg».proof.Proof.KI.TileBody
import proofs.«203934_g28930899706482_cont_9to1_1937_23_alg».proof.Proof.KI.TileObl
import proofs.«203934_g28930899706482_cont_9to1_1937_23_alg».proof.Proof.KI.RegionLaunch
import proofs.«203934_g28930899706482_cont_9to1_1937_23_alg».proof.Proof.KI.RegionValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

variable (m : (ℓ : Loc nD τ sig) → Buf (Elt F) ℓ) (ρ : Dev nD → PrngReg)

/-- The precondition bounds every index word: between 0 and 999 as a signed word, hence below 1000 as a natural number. -/
theorem xok_of_pre (h : ∀ c : Dev nD, Cert.Pre_input_domain.fn (F := F) (m (xLoc c)) (m (tbLoc c)) = fun _ => 1#1) :
    ∀ d, XOK m d := fun d j =>
  Cert.ReferenceIdeal.RefValue.toNat_lt_of_range (Cert.Pre_input_domain.Range.range_of_pre (m (xLoc d)) (m (tbLoc d)) (h d) j)

/-- The kernel's run, the arguments unchanged. -/
theorem run_ki [∀ e, Nonempty (Elt F e)] (hx : ∀ d, XOK m d) :
    θ_run (Cert.KernelIdeal.defs (F := F)) (Cert.KernelIdeal.threads (F := F)) ⟨m, fun _ => 0, ρ⟩ (QC m) :=
  run_of_tile m ρ (tileObl m (fun d L qT O W hO hxd => tile_run m d L qT O W hO hxd) hx) (hTS m)

end Cert.Proof.KI

end
-- ==== Proof.KI.PiecesV.lean ====
/-
  A slot's pieces with their contents: while a vector subcore works through the rows of out_t, the pieces of the
  rows whose copies have landed hold the final contents G, the piece whose copy is in flight is away, and the pieces
  of the rows still to come are at whatever they held.
-/
import proofs.«203934_g28930899706482_cont_9to1_1937_23_alg».proof.Proof.KI.PiecesKLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords) (G : Buf (Elt F) (oLoc d)) (k : Fin 2)

/-- Piece (i, k) at the final contents (nothing when i is no row). -/
def P1V (i : Nat) : sProp 𝕄 := if h : i < 200 then (oLoc d ↦[pset L ⟨i, h⟩ k]{fullShare} G : sProp 𝕄) else iprop(emp)
/-- The slot's pieces, the first n at the final contents, the others at some contents. -/
def MidV (n : Nat) : sProp 𝕄 :=
  bigSep (Finset.univ : Finset (Fin 200)) fun i => if i.val < n then (oLoc d ↦[pset L i k]{fullShare} G : sProp 𝕄) else P1 (F := F) d L (i, k)
/-- The same with the piece of row n - 1 away. -/
def PiecesKV (n : Nat) : sProp 𝕄 :=
  bigSep (Finset.univ : Finset (Fin 200)) fun i =>
    if i.val + 1 = n then iprop(emp) else if i.val + 1 < n then (oLoc d ↦[pset L i k]{fullShare} G : sProp 𝕄) else P1 (F := F) d L (i, k)
/-- All of the slot's pieces at the final contents. -/
def AllKV : sProp 𝕄 := bigSep (Finset.univ : Finset (Fin 200)) fun i => (oLoc d ↦[pset L i k]{fullShare} G : sProp 𝕄)

theorem piecesKV_zero : PiecesKV (F := F) d L G k 0 = AllK d L k := by
  unfold PiecesKV AllK
  exact bigSep_congr fun i _ => by rw [if_neg (Nat.succ_ne_zero _), if_neg (Nat.not_lt_zero _)]

theorem midV_zero : MidV (F := F) d L G k 0 = AllK d L k := by
  unfold MidV AllK
  exact bigSep_congr fun i _ => if_neg (Nat.not_lt_zero _)

theorem midV_last : MidV (F := F) d L G k 200 = AllKV d L G k := by
  unfold MidV AllKV
  exact bigSep_congr fun i _ => if_pos i.isLt

/-- With the first n pieces final: the piece of row n - 1, final, and the others. -/
theorem midV_landed (n : Nat) (hn : 0 < n) (hn' : n ≤ 200) :
    MidV (F := F) d L G k n = iprop(P1V d L G k (n - 1) ∗ PiecesKV d L G k n) := by
  have hr : n - 1 < 200 := by omega
  have e : P1V (F := F) d L G k (n - 1) = (oLoc d ↦[pset L ⟨n - 1, hr⟩ k]{fullShare} G : sProp 𝕄) := dif_pos hr
  rw [e]
  unfold MidV PiecesKV
  have h := bigSep_univ_hole (F := F) (fun i : Fin 200 => if i.val < n then (oLoc d ↦[pset L i k]{fullShare} G : sProp 𝕄) else P1 (F := F) d L (i, k))
    ⟨n - 1, hr⟩ (fun i => i.val + 1 = n) (by show n - 1 + 1 = n; omega) (fun i hi h => hi (Fin.ext (by show i.val = n - 1; omega)))
  rw [h, if_pos (show (n - 1) < n by omega)]
  congr 1
  refine bigSep_congr fun i _ => ?_
  by_cases h1 : i.val + 1 = n
  · rw [if_pos h1, if_pos h1]
  · rw [if_neg h1, if_neg h1]
    by_cases h2 : i.val < n
    · rw [if_pos h2, if_pos (by omega)]
    · rw [if_neg h2, if_neg (by omega)]

/-- With the first n pieces final: the piece of row n, still to come, and the others. -/
theorem midV_next (n : Nat) (hn' : n < 200) :
    MidV (F := F) d L G k n = iprop(P1n d L n k ∗ PiecesKV d L G k (n + 1)) := by
  have e : P1n (F := F) d L n k = P1 d L (⟨n, hn'⟩, k) := dif_pos hn'
  rw [e]
  unfold MidV PiecesKV
  have h := bigSep_univ_hole (F := F) (fun i : Fin 200 => if i.val < n then (oLoc d ↦[pset L i k]{fullShare} G : sProp 𝕄) else P1 (F := F) d L (i, k))
    ⟨n, hn'⟩ (fun i => i.val + 1 = n + 1) rfl (fun i hi h => hi (Fin.ext (by show i.val = n; omega)))
  rw [h, if_neg (Nat.lt_irrefl n)]
  congr 1
  refine bigSep_congr fun i _ => ?_
  by_cases h1 : i.val + 1 = n + 1
  · rw [if_pos h1, if_pos h1]
  · rw [if_neg h1, if_neg h1]
    by_cases h2 : i.val < n
    · rw [if_pos h2, if_pos (by omega)]
    · rw [if_neg h2, if_neg (by omega)]

end Cert.Proof.KI

end
-- ==== Proof.KI.OcVal.lean ====
/-
  The values a group loop leaves in an output chunk. After G groups of a stage working on row r of a staged index
  block, columns [koff, koff + 256), the chunk holds at (c, j), for j below 16 G, the flattened table at position
  index word (r, koff + j) plus 1000 c. One trip writes 32 pieces of one row and sixteen columns each: column
  group g, table column c; the piece for c holds the table gathered at the sixteen index words of the group plus 1000 c.
-/
import proofs.«203934_g28930899706482_cont_9to1_1937_23_alg».proof.Proof.KI.TileCommon
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- The closed form at an element of the chunk, made total by reducing the row, the column and the position. -/
def Gval (ft : S32000.Idx → Elt F .f32) (fx : S40x512.Idx → BitVec 32) (r koff : Nat) (y : S32x256.Idx) : Elt F .f32 :=
  ft (ix1 ⟨((fx (ix2 (⟨r % 40, Nat.mod_lt _ (by decide)⟩ : Fin 40) (⟨(koff + (y 1).val) % 512, Nat.mod_lt _ (by decide)⟩ : Fin 512))).toNat
    + 1000 * (y 0).val) % 32000, Nat.mod_lt _ (by decide)⟩)

/-- The chunk holds the closed form on its first 16 G columns. -/
def OcVal (ft : S32000.Idx → Elt F .f32) (fx : S40x512.Idx → BitVec 32) (r koff G : Nat) (fo : S32x256.Idx → Elt F .f32) : Prop :=
  ∀ (c : Fin 32) (j : Fin 256), j.val < 16 * G → ∀ (hr : r < 40) (hk : koff + j.val < 512),
    fo (ix2 c j) = ft (ix1 ⟨((fx (ix2 (⟨r, hr⟩ : Fin 40) (⟨koff + j.val, hk⟩ : Fin 512))).toNat + 1000 * c.val) % 32000, Nat.mod_lt _ (by decide)⟩)

omit [FloatOps F] in
theorem gval_ix2 (ft : S32000.Idx → Elt F .f32) (fx : S40x512.Idx → BitVec 32) (r koff : Nat) (c : Fin 32) (j : Fin 256)
    (hr : r < 40) (hk : koff + j.val < 512) :
    Gval ft fx r koff (ix2 c j)
      = ft (ix1 ⟨((fx (ix2 (⟨r, hr⟩ : Fin 40) (⟨koff + j.val, hk⟩ : Fin 512))).toNat + 1000 * c.val) % 32000, Nat.mod_lt _ (by decide)⟩) := by
  unfold Gval
  have e1 : (⟨r % 40, Nat.mod_lt _ (by decide)⟩ : Fin 40) = ⟨r, hr⟩ := Fin.ext (Nat.mod_eq_of_lt hr)
  have e2 : (⟨(koff + ((ix2 c j : S32x256.Idx) 1).val) % 512, Nat.mod_lt _ (by decide)⟩ : Fin 512) = ⟨koff + j.val, hk⟩ :=
    Fin.ext (Nat.mod_eq_of_lt hk)
  have e : fx (ix2 (⟨r % 40, Nat.mod_lt _ (by decide)⟩ : Fin 40)
      (⟨(koff + ((ix2 c j : S32x256.Idx) 1).val) % 512, Nat.mod_lt _ (by decide)⟩ : Fin 512)) = fx (ix2 (⟨r, hr⟩ : Fin 40) (⟨koff + j.val, hk⟩ : Fin 512)) := by
    rw [e1, e2]
  exact congrArg (fun n => ft (ix1 n)) (Fin.ext (by
    show ((fx (ix2 (⟨r % 40, Nat.mod_lt _ (by decide)⟩ : Fin 40)
      (⟨(koff + ((ix2 c j : S32x256.Idx) 1).val) % 512, Nat.mod_lt _ (by decide)⟩ : Fin 512))).toNat + 1000 * c.val) % 32000 = _
    rw [e]))

omit [FloatOps F] in
/-- In terms of the total closed form. -/
theorem ocVal_iff (ft : S32000.Idx → Elt F .f32) (fx : S40x512.Idx → BitVec 32) (r koff G : Nat) (fo : S32x256.Idx → Elt F .f32) :
    OcVal ft fx r koff G fo ↔ ∀ (c : Fin 32) (j : Fin 256), j.val < 16 * G → r < 40 → koff + j.val < 512 → fo (ix2 c j) = Gval ft fx r koff (ix2 c j) := by
  constructor
  · intro h c j hj hr hk; rw [gval_ix2 ft fx r koff c j hr hk]; exact h c j hj hr hk
  · intro h c j hj hr hk; rw [← gval_ix2 ft fx r koff c j hr hk]; exact h c j hj hr hk

theorem forall_axis2 {P : Fin 2 → Prop} : (∀ a, P a) ↔ P 0 ∧ P 1 := Fin.forall_fin_two

omit [FloatOps F] in
/-- A piece of one row and sixteen columns: its elements. -/
theorem mem_unit16 {off : Fin 2 → Nat} {inb : ∀ a, off a + S1x16.size a ≤ S32x256.size a} {y : S32x256.Idx} :
    y ∈ (Rect.unit (s := S32x256) off S1x16.size inb).set ↔ (y 0).val = off 0 ∧ off 1 ≤ (y 1).val ∧ (y 1).val < off 1 + 16 := by
  refine Rect.mem_set_unit.trans (forall_axis2.trans ?_)
  simp
  omega

/-- The piece for table column c of group g: the table gathered at the group's sixteen index words plus 1000 c, read
    at an element of the piece, is the closed form there. -/
theorem piece_G (ft : S32000.Idx → Elt F .f32) (fx : S40x512.Idx → BitVec 32) (hfx : XsOK fx) (r koff g : Nat)
    (Xs : IVec S16 32)
    (hXs : ∀ l : Fin 16, Xs (ix1 l) = fx (ix2 (⟨r % 40, Nat.mod_lt _ (by decide)⟩ : Fin 40)
      (⟨(koff + 16 * g + l.val) % 512, Nat.mod_lt _ (by decide)⟩ : Fin 512)))
    (c : Nat) (hc : c < 32)
    (off : Fin 2 → Nat) (inb : ∀ a, off a + S1x16.size a ≤ S32x256.size a) (h0 : off 0 = c) (h1 : off 1 = 16 * g)
    (FT : Vec F S32000 .f32) (hFT : FT = ft)
    (chk : ∀ a x, ((![addi Xs (broadcast S16 (BitVec.ofNat 32 (1000 * c)))] : Fin 1 → IVec S16 32) a x).toNat < S32000.size a)
    (hsc : S16.ShapeCasts S1x16)
    (x : (Rect.unit (s := S32x256) off S1x16.size inb).shape.Idx) :
    shapeCast S1x16 (loadIdx FT ![addi Xs (broadcast S16 (BitVec.ofNat 32 (1000 * c)))] chk) hsc x
      = Gval ft fx r koff ((Rect.unit (s := S32x256) off S1x16.size inb).emb x) := by
  subst hFT
  have hx0 : (x 0).val < 1 := (x 0).isLt
  have hx1 : (x 1).val < 16 := (x 1).isLt
  have e0 : (((Rect.unit (s := S32x256) off S1x16.size inb).emb x) 0).val = c := by
    rw [Rect.emb_apply]; simp only [Rect.off_unit, Rect.stride_unit]; omega
  have e1 : (((Rect.unit (s := S32x256) off S1x16.size inb).emb x) 1).val = 16 * g + (x 1).val := by
    rw [Rect.emb_apply]; simp only [Rect.off_unit, Rect.stride_unit]; omega
  generalize (Rect.unit (s := S32x256) off S1x16.size inb).emb x = y at e0 e1
  rw [shapeCast_apply _ hsc x (ix1 (⟨(x 1).val, hx1⟩ : Fin 16)) (by
    rw [Shape.rowMajor_val_one, Shape.rowMajor_val_two]
    show (x 1).val = (x 0).val * 16 + (x 1).val
    omega)]
  unfold loadIdx Gval
  congr 1
  funext a
  obtain rfl : a = 0 := Subsingleton.elim _ _
  apply Fin.ext
  have hw := hXs (⟨(x 1).val, hx1⟩ : Fin 16)
  have hidx : (⟨(koff + (y 1).val) % 512, Nat.mod_lt _ (by decide)⟩ : Fin 512)
      = ⟨(koff + 16 * g + (x 1).val) % 512, Nat.mod_lt _ (by decide)⟩ := Fin.ext (by show (koff + (y 1).val) % 512 = _; rw [e1, Nat.add_assoc])
  show (IntOp.addi (Xs (ix1 (⟨(x 1).val, hx1⟩ : Fin 16))) (BitVec.ofNat 32 (1000 * c))).toNat
    = ((fx (ix2 (⟨r % 40, Nat.mod_lt _ (by decide)⟩ : Fin 40) (⟨(koff + (y 1).val) % 512, Nat.mod_lt _ (by decide)⟩ : Fin 512))).toNat + 1000 * (y 0).val) % 32000
  rw [hw, hidx, e0]
  have hlt := hfx (ix2 (⟨r % 40, Nat.mod_lt _ (by decide)⟩ : Fin 40) (⟨(koff + 16 * g + (x 1).val) % 512, Nat.mod_lt _ (by decide)⟩ : Fin 512))
  simp only [IntOp.addi, BitVec.toNat_add, BitVec.toNat_ofNat]
  generalize (fx (ix2 (⟨r % 40, Nat.mod_lt _ (by decide)⟩ : Fin 40) (⟨(koff + 16 * g + (x 1).val) % 512, Nat.mod_lt _ (by decide)⟩ : Fin 512))).toNat = w at hlt
  rw [Nat.mod_eq_of_lt (show 1000 * c < 2 ^ 32 by omega), Nat.mod_eq_of_lt (show w + 1000 * c < 2 ^ 32 by omega),
    Nat.mod_eq_of_lt (show w + 1000 * c < 32000 by omega)]

omit [FloatOps F] in
/-- One trip: pieces that agree with the closed form, lie in column group g and cover it extend the chunk's
    closed-form columns from 16 g to 16 (g + 1). -/
theorem ocVal_step {κ : Kind} {sp : Space} (v : View sig κ sp S32x256 .f32) (ft : S32000.Idx → Elt F .f32) (fx : S40x512.Idx → BitVec 32)
    (r koff g : Nat) (fo : v.ty.Contents (Elt F)) (L : List (View.Piece (Elt F) S32x256 .f32))
    (hG : ∀ p ∈ L, ∀ x, p.2 x = Gval ft fx r koff (p.1.emb x))
    (hset : ∀ p ∈ L, ∀ y : S32x256.Idx, y ∈ p.1.set → 16 * g ≤ (y 1).val)
    (hcov : ∀ y : S32x256.Idx, 16 * g ≤ (y 1).val → (y 1).val < 16 * g + 16 → ∃ p ∈ L, y ∈ p.1.set)
    (h : OcVal ft fx r koff g (v.read (Elt F) fo)) :
    OcVal ft fx r koff (g + 1) (v.read (Elt F) (v.writes (Elt F) fo L)) := by
  rw [ocVal_iff] at h ⊢
  intro c j hj hr hk
  by_cases hlt : j.val < 16 * g
  · rw [View.read_writes_apply_of_forall_not_mem v fo (ix2 c j) L (fun p hp hy => by
      have := hset p hp _ hy
      have e : ((ix2 c j : S32x256.Idx) 1).val = j.val := rfl
      omega)]
    exact h c j hlt hr hk
  · exact View.read_writes_apply_of_pieces v fo (Gval ft fx r koff) L hG (ix2 c j)
      (hcov _ (by show 16 * g ≤ j.val; omega) (by show j.val < 16 * g + 16; omega))

omit [FloatOps F] in
/-- A row of sixteen index words cast to a vector of sixteen lanes: lane l is word (0, l). -/
theorem cast16_apply {α : Type} (X : S1x16.Idx → α) (hsc : S1x16.ShapeCasts S16) (l : Fin 16) :
    shapeCast S16 X hsc (ix1 l) = X (ix2 (⟨0, Nat.one_pos⟩ : Fin 1) l) :=
  shapeCast_apply X hsc _ _ (by
    rw [Shape.rowMajor_val_one, Shape.rowMajor_val_two]
    show 0 * 16 + l.val = l.val
    omega)

omit [FloatOps F] in
/-- The element of the staged index block that lane l of the group's index load reads. -/
theorem loadRow_idx (r koff g : Nat) (hr : r < 40) (hk : koff + 16 * g + 16 ≤ 512) (offx : Fin 2 → Nat)
    (inbx : ∀ a, offx a + S1x16.size a ≤ S40x512.size a) (h0 : offx 0 = r) (h1 : offx 1 = koff + 16 * g) (l : Fin 16) :
    (Rect.unit (s := S40x512) offx S1x16.size inbx).toLoadRect.idx (ix2 (⟨0, Nat.one_pos⟩ : Fin 1) l)
      = ix2 (⟨r % 40, Nat.mod_lt _ (by decide)⟩ : Fin 40) (⟨(koff + 16 * g + l.val) % 512, Nat.mod_lt _ (by decide)⟩ : Fin 512) := by
  have hl := l.isLt
  funext a
  apply Fin.ext
  rw [LoadRect.idx_apply]
  match a with
  | ⟨0, _⟩ =>
    show offx 0 + 1 * 0 = r % 40
    rw [Nat.mod_eq_of_lt hr]; omega
  | ⟨1, _⟩ =>
    show offx 1 + 1 * l.val = (koff + 16 * g + l.val) % 512
    rw [Nat.mod_eq_of_lt (by omega)]; omega

omit [FloatOps F] in
/-- A piece lies in its group's columns. -/
theorem unit16_lb {off : Fin 2 → Nat} {inb : ∀ a, off a + S1x16.size a ≤ S32x256.size a} (g : Nat) (h1 : off 1 = 16 * g)
    (y : S32x256.Idx) (hy : y ∈ (Rect.unit (s := S32x256) off S1x16.size inb).set) : 16 * g ≤ (y 1).val :=
  h1 ▸ (mem_unit16.mp hy).2.1

omit [FloatOps F] in
/-- An element of row c in the group's columns lies in the piece for c. -/
theorem unit16_mem {off : Fin 2 → Nat} {inb : ∀ a, off a + S1x16.size a ≤ S32x256.size a} (c g : Nat) (h0 : off 0 = c) (h1 : off 1 = 16 * g)
    (y : S32x256.Idx) (hy0 : (y 0).val = c) (hy1 : 16 * g ≤ (y 1).val) (hy2 : (y 1).val < 16 * g + 16) :
    y ∈ (Rect.unit (s := S32x256) off S1x16.size inb).set :=
  mem_unit16.mpr ⟨by omega, by omega, by omega⟩

omit [FloatOps F] in
/-- After all sixteen groups the chunk is the closed form. -/
theorem ocVal_full (ft : S32000.Idx → Elt F .f32) (fx : S40x512.Idx → BitVec 32) (r koff : Nat) (hr : r < 40) (hkoff : koff + 256 ≤ 512)
    (fo : S32x256.Idx → Elt F .f32) (h : OcVal ft fx r koff 16 fo) : fo = Gval ft fx r koff := by
  funext y
  obtain ⟨c, j, rfl⟩ : ∃ (c : Fin 32) (j : Fin 256), y = ix2 c j := ⟨y 0, y 1, eq_ix2 y⟩
  have hj := j.isLt
  exact (ocVal_iff ft fx r koff 16 fo).mp h c j (by omega) hr (by omega)

omit [FloatOps F] in
/-- Before the first group nothing is asked. -/
theorem ocVal_zero (ft : S32000.Idx → Elt F .f32) (fx : S40x512.Idx → BitVec 32) (r koff : Nat) (fo : S32x256.Idx → Elt F .f32) :
    OcVal ft fx r koff 0 fo := fun _ j hj => absurd hj (by omega)

omit [FloatOps F] in
/-- The step for the first output chunk, whose view is the whole buffer: what is read through it is the contents. -/
theorem ocVal_step_oc0 (d : Dev nD) (L : grid1.Coords) (ft : S32000.Idx → Elt F .f32) (fx : S40x512.Idx → BitVec 32) (r koff g : Nat)
    (fo : Buf (Elt F) ((oc0W).view.loc (thrV d L))) (Ls : List (View.Piece (Elt F) S32x256 .f32))
    (hG : ∀ p ∈ Ls, ∀ x, p.2 x = Gval ft fx r koff (p.1.emb x))
    (hset : ∀ p ∈ Ls, ∀ y : S32x256.Idx, y ∈ p.1.set → 16 * g ≤ (y 1).val)
    (hcov : ∀ y : S32x256.Idx, 16 * g ≤ (y 1).val → (y 1).val < 16 * g + 16 → ∃ p ∈ Ls, y ∈ p.1.set)
    (h : OcVal ft fx r koff g fo) : OcVal ft fx r koff (g + 1) ((oc0W).view.writes (Elt F) fo Ls) :=
  ocVal_step (oc0W).view ft fx r koff g fo Ls hG hset hcov h

omit [FloatOps F] in
/-- The same for the second output chunk. -/
theorem ocVal_step_oc1 (d : Dev nD) (L : grid1.Coords) (ft : S32000.Idx → Elt F .f32) (fx : S40x512.Idx → BitVec 32) (r koff g : Nat)
    (fo : Buf (Elt F) ((oc1W).view.loc (thrV d L))) (Ls : List (View.Piece (Elt F) S32x256 .f32))
    (hG : ∀ p ∈ Ls, ∀ x, p.2 x = Gval ft fx r koff (p.1.emb x))
    (hset : ∀ p ∈ Ls, ∀ y : S32x256.Idx, y ∈ p.1.set → 16 * g ≤ (y 1).val)
    (hcov : ∀ y : S32x256.Idx, 16 * g ≤ (y 1).val → (y 1).val < 16 * g + 16 → ∃ p ∈ Ls, y ∈ p.1.set)
    (h : OcVal ft fx r koff g fo) : OcVal ft fx r koff (g + 1) ((oc1W).view.writes (Elt F) fo Ls) :=
  ocVal_step (oc1W).view ft fx r koff g fo Ls hG hset hcov h

end Cert.Proof.KI

end
-- ==== Proof.KI.EmbLemmas.lean ====
/-
  Where the elements of a sliced view sit in its array. Element (c, j) of a 1 × 32 × 256 box of out_t with its unit
  axis squeezed away is element (row offset, c, column offset + j) of out_t: squeezing keeps the row-major number,
  256 c + j on both sides, and a box adds its offsets coordinate by coordinate. Element (r, j) of a 40 × 512 box of
  xt is element (row offset + r, column offset + j) of xt. With these, a box of out_t held at the contents a copy
  lands in it is the piece held at the final contents, once the landed values are the final ones.
-/
import proofs.«203934_g28930899706482_cont_9to1_1937_23_alg».proof.Proof.KI.RowCommon
import proofs.«203934_g28930899706482_cont_9to1_1937_23_alg».proof.Proof.KI.PiecesV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

omit [FloatOps F] in
/-- Squeezing the unit axis away: (c, j) of the 32 × 256 shape is (0, c, j) of the 1 × 32 × 256 shape, both at
    row-major number 256 c + j. -/
theorem squeeze_ix2 (c : Fin 32) (j : Fin 256) :
    Shape.reshapeEquiv squeezes_S1x32x256_S32x256.numel_eq (ix2 c j) = (ix3 (0 : Fin 1) c j : S1x32x256.Idx) := by
  apply Shape.reshapeEquiv_eq_of_rowMajor
  rw [Shape.rowMajor_val_three, Shape.rowMajor_val_two]
  show ((0 : Fin 1).val * 32 + c.val) * 256 + j.val = c.val * 256 + j.val
  simp

omit [FloatOps F] in
/-- Element (c, j) of a squeezed 1 × 32 × 256 box of out_t is element (row offset, c, column offset + j) of out_t. -/
theorem emb_pieceM (off : Fin 3 → Nat) (inb : ∀ a, off a + S1x32x256.size a ≤ S200x32x16384.size a) (c : Fin 32) (j : Fin 256)
    (i0 : Fin 200) (b0 : Fin 16384) (h0 : off 0 = i0.val) (h1 : off 1 = 0) (h2 : off 2 + j.val = b0.val) :
    (pieceM off inb).view.emb (ix2 c j) = ix3 i0 c b0 := by
  show (Rect.unit (s := S200x32x16384) off S1x32x256.size inb).emb
      (Shape.reshapeEquiv squeezes_S1x32x256_S32x256.numel_eq (ix2 c j)) = ix3 i0 c b0
  rw [squeeze_ix2]
  funext a; apply Fin.ext
  match a with
  | ⟨0, _⟩ => show off 0 + 1 * (0 : Fin 1).val = i0.val; simp [h0]
  | ⟨1, _⟩ => show off 1 + 1 * c.val = c.val; omega
  | ⟨2, _⟩ => show off 2 + 1 * j.val = b0.val; omega

omit [FloatOps F] in
/-- Element (r, j) of a 40 × 512 box of xt is element (row offset + r, column offset + j) of xt. -/
theorem emb_stage (off : Fin 2 → Nat) (inb : ∀ a, off a + S40x512.size a ≤ S200x16384.size a) (r : Fin 40) (j : Fin 512)
    (i0 : Fin 200) (b0 : Fin 16384) (h0 : off 0 + r.val = i0.val) (h1 : off 1 + j.val = b0.val) :
    ((xW).slice (Rect.unit (s := S200x16384) off S40x512.size inb) (fun _ => rfl)).view.emb (ix2 r j) = ix2 i0 b0 := by
  show (Rect.unit (s := S200x16384) off S40x512.size inb).emb (ix2 r j) = ix2 i0 b0
  funext a; apply Fin.ext
  match a with
  | ⟨0, _⟩ => show off 0 + 1 * r.val = i0.val; omega
  | ⟨1, _⟩ => show off 1 + 1 * j.val = b0.val; omega

omit [FloatOps F] in
/-- What a 40 × 512 box of xt reads at (r, j) off contents f of xt is f at (row offset + r, column offset + j). -/
theorem read_stage (d : Dev nD) (L : grid1.Coords) (off : Fin 2 → Nat) (inb : ∀ a, off a + S40x512.size a ≤ S200x16384.size a)
    (r : Fin 40) (j : Fin 512) (i0 : Fin 200) (b0 : Fin 16384) (h0 : off 0 + r.val = i0.val) (h1 : off 1 + j.val = b0.val)
    (f : Buf (Elt F) ((xW).view.loc (thrV d L))) :
    ReadAs.same.apply (((xW).slice (Rect.unit (s := S200x16384) off S40x512.size inb) (fun _ => rfl)).view.read (Elt F) f) (ix2 r j)
      = f (ix2 i0 b0) := by
  show ((xW).slice (Rect.unit (s := S200x16384) off S40x512.size inb) (fun _ => rfl)).view.read (Elt F) f (ix2 r j) = f (ix2 i0 b0)
  rw [View.read_apply, emb_stage off inb r j i0 b0 h0 h1]
  rfl

omit [FloatOps F] in
/-- A squeezed box of out_t at the offsets of piece (i, k), held by its own elements at what a copy of g into it
    leaves, is piece (i, k) held at the final contents G, when g is G's values over the piece. -/
theorem land_pieceV (d : Dev nD) (L : grid1.Coords) (G : Buf (Elt F) (oLoc d)) (i : Nat) (hi : i < 200) (k : Fin 2) (off : Fin 3 → Nat)
    (inb : ∀ a, off a + S1x32x256.size a ≤ S200x32x16384.size a) (h : off = ![i, 0, col0 L + 256 * k.val])
    (g : S32x256.Idx → Elt F .f32)
    (hg : ∀ (c : Fin 32) (j : Fin 256) (hb : col0 L + 256 * k.val + j.val < 16384),
      g (ix2 c j) = G (ix3 ⟨i, hi⟩ c ⟨col0 L + 256 * k.val + j.val, hb⟩))
    (p : Buf (Elt F) (oLoc d)) :
    ((pieceM off inb).view.loc (thrV d L) ↦[(pieceM off inb).view.set]{fullShare}
        (pieceM off inb).view.writes (Elt F) p [⟨Rect.whole S32x256, g⟩] : sProp 𝕄) ⊢ P1V d L G k i := by
  have key : ∀ x ∈ (pieceM off inb).view.set,
      (pieceM off inb).view.writes (Elt F) p [⟨Rect.whole S32x256, g⟩] x = G x := by
    intro x hx
    have hx' : x ∈ Finset.univ.map (pieceM off inb).view.emb := hx
    obtain ⟨y, -, rfl⟩ := Finset.mem_map.mp hx'
    obtain ⟨c, j, rfl⟩ : ∃ c j, y = ix2 c j := ⟨y 0, y 1, eq_ix2 y⟩
    have hb : col0 L + 256 * k.val + j.val < 16384 := by
      have := col0_le L; have := k.isLt; have := j.isLt; omega
    have hemb : (pieceM off inb).view.emb (ix2 c j) = ix3 ⟨i, hi⟩ c ⟨col0 L + 256 * k.val + j.val, hb⟩ :=
      emb_pieceM off inb c j ⟨i, hi⟩ ⟨_, hb⟩ (by rw [h]; rfl) (by rw [h]; rfl) (by rw [h]; rfl)
    have e : ((pieceM off inb).view.slice (Rect.whole S32x256)).emb (ix2 c j) = (pieceM off inb).view.emb (ix2 c j) := by
      show (pieceM off inb).view.emb ((Rect.whole S32x256).emb (ix2 c j)) = _
      rw [Rect.emb_whole_apply]
    rw [View.writes_singleton, ← e, View.write_emb_of_mem _ _ (Finset.mem_univ _), e, hemb, ← hg c j hb]
    rfl
  rw [pointsTo_congr key, set_pieceM_of L ⟨i, hi⟩ k off inb h]
  unfold P1V; rw [dif_pos hi]

end Cert.Proof.KI

end
-- ==== Proof.KI.RowCommonV.lean ====
/-
  The row loops with values. A landed copy leaves its piece of out_t at the final contents G as soon as the chunk
  it carried held G's values there; the chunk does when the staged indices and the table reproduce G on the stage's
  rows (RowsOK) and the group loops have filled all sixteen groups (OcVal … 16).
-/
import proofs.«203934_g28930899706482_cont_9to1_1937_23_alg».proof.Proof.KI.RowCommon
import proofs.«203934_g28930899706482_cont_9to1_1937_23_alg».proof.Proof.KI.PiecesV
import proofs.«203934_g28930899706482_cont_9to1_1937_23_alg».proof.Proof.KI.OcVal
import proofs.«203934_g28930899706482_cont_9to1_1937_23_alg».proof.Proof.KI.EmbLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- The staged indices and the table reproduce G on rows b0 … b0 + 39 of the subcore's column block:
    G (b0 + r, c, col0 + j) is the table's entry at the staged index (r, j) plus 1000 c. -/
def RowsOK (L : grid1.Coords) (G : S200x32x16384.Idx → Elt F .f32) (ft : S32000.Idx → Elt F .f32) (fx : S40x512.Idx → BitVec 32) (b0 : Nat) : Prop :=
  ∀ (r : Fin 40) (c : Fin 32) (j : Fin 512) (hi : b0 + r.val < 200) (hb : col0 L + j.val < 16384),
    ft (ix1 ⟨((fx (ix2 r j)).toNat + 1000 * c.val) % 32000, Nat.mod_lt _ (by decide)⟩) = G (ix3 ⟨b0 + r.val, hi⟩ c ⟨col0 L + j.val, hb⟩)

omit [FloatOps F] in
/-- A chunk filled by its sixteen groups at row r of a stage whose rows are reproduced holds G's values of piece (r + b0, k). -/
theorem chunk_is_G (L : grid1.Coords) (G : S200x32x16384.Idx → Elt F .f32) (ft : S32000.Idx → Elt F .f32) (fx : S40x512.Idx → BitVec 32)
    (b0 : Nat) (hrows : RowsOK L G ft fx b0) (r : Nat) (hr : r < 40) (k : Fin 2) (fo : S32x256.Idx → Elt F .f32)
    (hfo : OcVal ft fx r (256 * k.val) 16 fo) (i : Nat) (hi : i < 200) (hir : i = r + b0) :
    ∀ (c : Fin 32) (j : Fin 256) (hb : col0 L + 256 * k.val + j.val < 16384),
      fo (ix2 c j) = G (ix3 ⟨i, hi⟩ c ⟨col0 L + 256 * k.val + j.val, hb⟩) := by
  intro c j hb
  have hjl := j.isLt
  have hkl := k.isLt
  have hk : 256 * k.val + j.val < 512 := by omega
  rw [hfo c j (by omega) hr hk]
  have h := hrows ⟨r, hr⟩ c ⟨256 * k.val + j.val, hk⟩ (by show b0 + r < 200; omega) (by show col0 L + (256 * k.val + j.val) < 16384; omega)
  rw [h]
  subst hir
  congr 2
  · exact Fin.ext (by show b0 + r = r + b0; omega)
  · exact Fin.ext (by show col0 L + (256 * k.val + j.val) = col0 L + 256 * k.val + j.val; omega)

variable (d : Dev nD) (L : grid1.Coords) (G : Buf (Elt F) (oLoc d))

/-- Chunk 0's copy of row i in flight, into some spelling of piece (i, 0), carrying contents that leave the piece at G. -/
def OutFlightAtV0 (i : Nat) : sProp 𝕄 :=
  iprop(∃ (pc : Memref sig .scVector .hbm S32x256 .f32) (fo : Buf (Elt F) ((oc0W).view.loc (thrV d L))),
    ⌜∀ p : Buf (Elt F) (pc.view.loc (thrV d L)), (pc.view.loc (thrV d L) ↦[pc.view.set]{fullShare}
        pc.view.writes (Elt F) p [⟨Rect.whole S32x256, ReadAs.same.apply ((oc0W).view.read (Elt F) fo)⟩] : sProp 𝕄) ⊢ P1V d L G 0 i⌝
    ∗ ∃ p, Transfers.Flight countersEmb (thrV d L) (SemLoc.dma cc1_scratch7.sem) default 262144
       iprop((pc.view.loc (thrV d L) ↦[pc.view.set]{fullShare} pc.view.writes (Elt F) p [⟨Rect.whole S32x256, ReadAs.same.apply ((oc0W).view.read (Elt F) fo)⟩])
          ∗ ((oc0W).view.loc (thrV d L) ↦[(oc0W).view.set]{fullShare} fo)))
def OutFlightAtV1 (i : Nat) : sProp 𝕄 :=
  iprop(∃ (pc : Memref sig .scVector .hbm S32x256 .f32) (fo : Buf (Elt F) ((oc1W).view.loc (thrV d L))),
    ⌜∀ p : Buf (Elt F) (pc.view.loc (thrV d L)), (pc.view.loc (thrV d L) ↦[pc.view.set]{fullShare}
        pc.view.writes (Elt F) p [⟨Rect.whole S32x256, ReadAs.same.apply ((oc1W).view.read (Elt F) fo)⟩] : sProp 𝕄) ⊢ P1V d L G 1 i⌝
    ∗ ∃ p, Transfers.Flight countersEmb (thrV d L) (SemLoc.dma cc1_scratch8.sem) default 262144
       iprop((pc.view.loc (thrV d L) ↦[pc.view.set]{fullShare} pc.view.writes (Elt F) p [⟨Rect.whole S32x256, ReadAs.same.apply ((oc1W).view.read (Elt F) fo)⟩])
          ∗ ((oc1W).view.loc (thrV d L) ↦[(oc1W).view.set]{fullShare} fo)))

end Cert.Proof.KI

end
-- ==== Proof.KI.GroupV0.lean ====
/-
  The group loops of stage 0 with values: a trip keeps, beside the table and the staged index block, that the output
  chunk holds the closed form — the flattened table at index word plus 1000 c — on the columns of the groups done.
-/
import proofs.«203934_g28930899706482_cont_9to1_1937_23_alg».proof.Proof.KI.Group0
import proofs.«203934_g28930899706482_cont_9to1_1937_23_alg».proof.Proof.KI.OcVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- What a trip of the group loop t2 keeps: the flattened table and the staged index block unchanged, the output
    chunk at contents that hold the closed form on the columns of the groups done so far. -/
def invV_t2 (d : Dev nD) (L : grid1.Coords) (r : Nat) (ft : Buf (Elt F) ((tvW).view.loc (thrV d L))) (fx : Buf (Elt F) ((xs0W).view.loc (thrV d L)))
    (g : Nat) (_ : BitVec 32) : sProp 𝕄 :=
  iprop(((tvW).view.loc (thrV d L) ↦{fullShare} ft) ∗ ((xs0W).view.loc (thrV d L) ↦{fullShare} fx)
    ∗ ∃ fo, ⌜OcVal ft fx r 0 g fo⌝ ∗ (oc0W).view.loc (thrV d L) ↦{fullShare} fo)

set_option maxRecDepth 65536 in
/-- One trip of t2: the thirty-two gathered vectors stored into the chunk are the closed form on the group's sixteen
    columns, and the columns of the earlier groups are not touched. -/
theorem tripV_t2 (d : Dev nD) (L : grid1.Coords) (r : Fin k1_t1_loop.trips) (arg14 : BitVec 32)
    (ft : Buf (Elt F) ((tvW).view.loc (thrV d L))) (fx : Buf (Elt F) ((xs0W).view.loc (thrV d L))) (hfx : XsOK fx)
    (g : Fin k1_t2_loop.trips) (acc : BitVec 32) :
    invV_t2 d L r.val ft fx g acc
      ⊢ wp frame (wpE (defs₀ (F := F)) 𝒱₀ (thrV d L) none) Set.univ
          (k1_t2_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (invV_t2 d L r.val ft fx (g.val + 1)) := by
  unfold k1_t2_body
  simp only [k1_part1_eq_skeleton, k1_part2_eq_skeleton, k1_part3_eq_skeleton]
  unfold k1_part1_skel k1_part2_skel k1_part3_skel
  simp only [SparseCore.vectorLoadIdx_bind (c := thrV d L)]
  unfold invV_t2
  iintro ⟨Ht, Hx, %fo, %hfo, Ho⟩
  sl_exec (disch := exact chk_addi _ _ (fun _ => ldrow0_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay1 (View.readAt (Elt F) (xs0W).view
        (Rect.unit (s := S40x512) (k1_off3 r g) S1x16.size (k1_off3_inb r g)).toLoadRect fx) (ix1 l)
          = fx (ix2 (⟨r.val % 40, Nat.mod_lt _ (by decide)⟩ : Fin 40) (⟨(0 + 16 * g.val + l.val) % 512, Nat.mod_lt _ (by decide)⟩ : Fin 512)) :=
      fun l => by
        refine Eq.trans (cast16_apply (View.readAt (Elt F) (xs0W).view
          (Rect.unit (s := S40x512) (k1_off3 r g) S1x16.size (k1_off3_inb r g)).toLoadRect fx) shapeCasts_S1x16_S16 l) ?_
        exact congrArg fx (loadRow_idx r.val 0 g.val hr (by omega) (k1_off3 r g) (k1_off3_inb r g)
          (by rw [k1_off3_eq]; rfl) (by rw [k1_off3_eq]; show 16 * g.val = 0 + 16 * g.val; omega) l)
    refine ocVal_step_oc0 d L ft fx r.val 0 g.val fo _ ?hG ?hset ?hcov hfo
    case hG =>
      exact (List.forall_mem_cons.mpr ⟨piece_G ft fx hfx r.val 0 g.val _ hXs 31 (by decide) _ (k1_off35_inb g) (by rw [k1_off35_eq]; rfl) (by rw [k1_off35_eq]; rfl) _ (Memref.readAt_whole (Elt F) cc1_scratch0 ft) _ _,
      (List.forall_mem_cons.mpr ⟨piece_G ft fx hfx r.val 0 g.val _ hXs 30 (by decide) _ (k1_off34_inb g) (by rw [k1_off34_eq]; rfl) (by rw [k1_off34_eq]; rfl) _ (Memref.readAt_whole (Elt F) cc1_scratch0 ft) _ _,
      (List.forall_mem_cons.mpr ⟨piece_G ft fx hfx r.val 0 g.val _ hXs 29 (by decide) _ (k1_off33_inb g) (by rw [k1_off33_eq]; rfl) (by rw [k1_off33_eq]; rfl) _ (Memref.readAt_whole (Elt F) cc1_scratch0 ft) _ _,
      (List.forall_mem_cons.mpr ⟨piece_G ft fx hfx r.val 0 g.val _ hXs 28 (by decide) _ (k1_off32_inb g) (by rw [k1_off32_eq]; rfl) (by rw [k1_off32_eq]; rfl) _ (Memref.readAt_whole (Elt F) cc1_scratch0 ft) _ _,
      (List.forall_mem_cons.mpr ⟨piece_G ft fx hfx r.val 0 g.val _ hXs 27 (by decide) _ (k1_off31_inb g) (by rw [k1_off31_eq]; rfl) (by rw [k1_off31_eq]; rfl) _ (Memref.readAt_whole (Elt F) cc1_scratch0 ft) _ _,
      (List.forall_mem_cons.mpr ⟨piece_G ft fx hfx r.val 0 g.val _ hXs 26 (by decide) _ (k1_off30_inb g) (by rw [k1_off30_eq]; rfl) (by rw [k1_off30_eq]; rfl) _ (Memref.readAt_whole (Elt F) cc1_scratch0 ft) _ _,
      (List.forall_mem_cons.mpr ⟨piece_G ft fx hfx r.val 0 g.val _ hXs 25 (by decide) _ (k1_off29_inb g) (by rw [k1_off29_eq]; rfl) (by rw [k1_off29_eq]; rfl) _ (Memref.readAt_whole (Elt F) cc1_scratch0 ft) _ _,
      (List.forall_mem_cons.mpr ⟨piece_G ft fx hfx r.val 0 g.val _ hXs 24 (by decide) _ (k1_off28_inb g) (by rw [k1_off28_eq]; rfl) (by rw [k1_off28_eq]; rfl) _ (Memref.readAt_whole (Elt F) cc1_scratch0 ft) _ _,
      (List.forall_mem_cons.mpr ⟨piece_G ft fx hfx r.val 0 g.val _ hXs 23 (by decide) _ (k1_off27_inb g) (by rw [k1_off27_eq]; rfl) (by rw [k1_off27_eq]; rfl) _ (Memref.readAt_whole (Elt F) cc1_scratch0 ft) _ _,
      (List.forall_mem_cons.mpr ⟨piece_G ft fx hfx r.val 0 g.val _ hXs 22 (by decide) _ (k1_off26_inb g) (by rw [k1_off26_eq]; rfl) (by rw [k1_off26_eq]; rfl) _ (Memref.readAt_whole (Elt F) cc1_scratch0 ft) _ _,
      (List.forall_mem_cons.mpr ⟨piece_G ft fx hfx r.val 0 g.val _ hXs 21 (by decide) _ (k1_off25_inb g) (by rw [k1_off25_eq]; rfl) (by rw [k1_off25_eq]; rfl) _ (Memref.readAt_whole (Elt F) cc1_scratch0 ft) _ _,
      (List.forall_mem_cons.mpr ⟨piece_G ft fx hfx r.val 0 g.val _ hXs 20 (by decide) _ (k1_off24_inb g) (by rw [k1_off24_eq]; rfl) (by rw [k1_off24_eq]; rfl) _ (Memref.readAt_whole (Elt F) cc1_scratch0 ft) _ _,
      (List.forall_mem_cons.mpr ⟨piece_G ft fx hfx r.val 0 g.val _ hXs 19 (by decide) _ (k1_off23_inb g) (by rw [k1_off23_eq]; rfl) (by rw [k1_off23_eq]; rfl) _ (Memref.readAt_whole (Elt F) cc1_scratch0 ft) _ _,
      (List.forall_mem_cons.mpr ⟨piece_G ft fx hfx r.val 0 g.val _ hXs 18 (by decide) _ (k1_off22_inb g) (by rw [k1_off22_eq]; rfl) (by rw [k1_off22_eq]; rfl) _ (Memref.readAt_whole (Elt F) cc1_scratch0 ft) _ _,
      (List.forall_mem_cons.mpr ⟨piece_G ft fx hfx r.val 0 g.val _ hXs 17 (by decide) _ (k1_off21_inb g) (by rw [k1_off21_eq]; rfl) (by rw [k1_off21_eq]; rfl) _ (Memref.readAt_whole (Elt F) cc1_scratch0 ft) _ _,
      (List.forall_mem_cons.mpr ⟨piece_G ft fx hfx r.val 0 g.val _ hXs 16 (by decide) _ (k1_off20_inb g) (by rw [k1_off20_eq]; rfl) (by rw [k1_off20_eq]; rfl) _ (Memref.readAt_whole (Elt F) cc1_scratch0 ft) _ _,
      (List.forall_mem_cons.mpr ⟨piece_G ft fx hfx r.val 0 g.val _ hXs 15 (by decide) _ (k1_off19_inb g) (by rw [k1_off19_eq]; rfl) (by rw [k1_off19_eq]; rfl) _ (Memref.readAt_whole (Elt F) cc1_scratch0 ft) _ _,
      (List.forall_mem_cons.mpr ⟨piece_G ft fx hfx r.val 0 g.val _ hXs 14 (by decide) _ (k1_off18_inb g) (by rw [k1_off18_eq]; rfl) (by rw [k1_off18_eq]; rfl) _ (Memref.readAt_whole (Elt F) cc1_scratch0 ft) _ _,
      (List.forall_mem_cons.mpr ⟨piece_G ft fx hfx r.val 0 g.val _ hXs 13 (by decide) _ (k1_off17_inb g) (by rw [k1_off17_eq]; rfl) (by rw [k1_off17_eq]; rfl) _ (Memref.readAt_whole (Elt F) cc1_scratch0 ft) _ _,
      (List.forall_mem_cons.mpr ⟨piece_G ft fx hfx r.val 0 g.val _ hXs 12 (by decide) _ (k1_off16_inb g) (by rw [k1_off16_eq]; rfl) (by rw [k1_off16_eq]; rfl) _ (Memref.readAt_whole (Elt F) cc1_scratch0 ft) _ _,
      (List.forall_mem_cons.mpr ⟨piece_G ft fx hfx r.val 0 g.val _ hXs 11 (by decide) _ (k1_off15_inb g) (by rw [k1_off15_eq]; rfl) (by rw [k1_off15_eq]; rfl) _ (Memref.readAt_whole (Elt F) cc1_scratch0 ft) _ _,
      (List.forall_mem_cons.mpr ⟨piece_G ft fx hfx r.val 0 g.val _ hXs 10 (by decide) _ (k1_off14_inb g) (by rw [k1_off14_eq]; rfl) (by rw [k1_off14_eq]; rfl) _ (Memref.readAt_whole (Elt F) cc1_scratch0 ft) _ _,
      (List.forall_mem_cons.mpr ⟨piece_G ft fx hfx r.val 0 g.val _ hXs 9 (by decide) _ (k1_off13_inb g) (by rw [k1_off13_eq]; rfl) (by rw [k1_off13_eq]; rfl) _ (Memref.readAt_whole (Elt F) cc1_scratch0 ft) _ _,
      (List.forall_mem_cons.mpr ⟨piece_G ft fx hfx r.val 0 g.val _ hXs 8 (by decide) _ (k1_off12_inb g) (by rw [k1_off12_eq]; rfl) (by rw [k1_off12_eq]; rfl) _ (Memref.readAt_whole (Elt F) cc1_scratch0 ft) _ _,
      (List.forall_mem_cons.mpr ⟨piece_G ft fx hfx r.val 0 g.val _ hXs 7 (by decide) _ (k1_off11_inb g) (by rw [k1_off11_eq]; rfl) (by rw [k1_off11_eq]; rfl) _ (Memref.readAt_whole (Elt F) cc1_scratch0 ft) _ _,
      (List.forall_mem_cons.mpr ⟨piece_G ft fx hfx r.val 0 g.val _ hXs 6 (by decide) _ (k1_off10_inb g) (by rw [k1_off10_eq]; rfl) (by rw [k1_off10_eq]; rfl) _ (Memref.readAt_whole (Elt F) cc1_scratch0 ft) _ _,
      (List.forall_mem_cons.mpr ⟨piece_G ft fx hfx r.val 0 g.val _ hXs 5 (by decide) _ (k1_off9_inb g) (by rw [k1_off9_eq]; rfl) (by rw [k1_off9_eq]; rfl) _ (Memref.readAt_whole (Elt F) cc1_scratch0 ft) _ _,
      (List.forall_mem_cons.mpr ⟨piece_G ft fx hfx r.val 0 g.val _ hXs 4 (by decide) _ (k1_off8_inb g) (by rw [k1_off8_eq]; rfl) (by rw [k1_off8_eq]; rfl) _ (Memref.readAt_whole (Elt F) cc1_scratch0 ft) _ _,
      (List.forall_mem_cons.mpr ⟨piece_G ft fx hfx r.val 0 g.val _ hXs 3 (by decide) _ (k1_off7_inb g) (by rw [k1_off7_eq]; rfl) (by rw [k1_off7_eq]; rfl) _ (Memref.readAt_whole (Elt F) cc1_scratch0 ft) _ _,
      (List.forall_mem_cons.mpr ⟨piece_G ft fx hfx r.val 0 g.val _ hXs 2 (by decide) _ (k1_off6_inb g) (by rw [k1_off6_eq]; rfl) (by rw [k1_off6_eq]; rfl) _ (Memref.readAt_whole (Elt F) cc1_scratch0 ft) _ _,
      (List.forall_mem_cons.mpr ⟨piece_G ft fx hfx r.val 0 g.val _ hXs 1 (by decide) _ (k1_off5_inb g) (by rw [k1_off5_eq]; rfl) (by rw [k1_off5_eq]; rfl) _ (Memref.readAt_whole (Elt F) cc1_scratch0 ft) _ _,
      (List.forall_mem_cons.mpr ⟨piece_G ft fx hfx r.val 0 g.val _ hXs 0 (by decide) _ (k1_off4_inb g) (by rw [k1_off4_eq]; rfl) (by rw [k1_off4_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off35_inb g) g.val (by rw [k1_off35_eq]; rfl),
      (List.forall_mem_cons.mpr ⟨unit16_lb (inb := k1_off34_inb g) g.val (by rw [k1_off34_eq]; rfl),
      (List.forall_mem_cons.mpr ⟨unit16_lb (inb := k1_off33_inb g) g.val (by rw [k1_off33_eq]; rfl),
      (List.forall_mem_cons.mpr ⟨unit16_lb (inb := k1_off32_inb g) g.val (by rw [k1_off32_eq]; rfl),
      (List.forall_mem_cons.mpr ⟨unit16_lb (inb := k1_off31_inb g) g.val (by rw [k1_off31_eq]; rfl),
      (List.forall_mem_cons.mpr ⟨unit16_lb (inb := k1_off30_inb g) g.val (by rw [k1_off30_eq]; rfl),
      (List.forall_mem_cons.mpr ⟨unit16_lb (inb := k1_off29_inb g) g.val (by rw [k1_off29_eq]; rfl),
      (List.forall_mem_cons.mpr ⟨unit16_lb (inb := k1_off28_inb g) g.val (by rw [k1_off28_eq]; rfl),
      (List.forall_mem_cons.mpr ⟨unit16_lb (inb := k1_off27_inb g) g.val (by rw [k1_off27_eq]; rfl),
      (List.forall_mem_cons.mpr ⟨unit16_lb (inb := k1_off26_inb g) g.val (by rw [k1_off26_eq]; rfl),
      (List.forall_mem_cons.mpr ⟨unit16_lb (inb := k1_off25_inb g) g.val (by rw [k1_off25_eq]; rfl),
      (List.forall_mem_cons.mpr ⟨unit16_lb (inb := k1_off24_inb g) g.val (by rw [k1_off24_eq]; rfl),
      (List.forall_mem_cons.mpr ⟨unit16_lb (inb := k1_off23_inb g) g.val (by rw [k1_off23_eq]; rfl),
      (List.forall_mem_cons.mpr ⟨unit16_lb (inb := k1_off22_inb g) g.val (by rw [k1_off22_eq]; rfl),
      (List.forall_mem_cons.mpr ⟨unit16_lb (inb := k1_off21_inb g) g.val (by rw [k1_off21_eq]; rfl),
      (List.forall_mem_cons.mpr ⟨unit16_lb (inb := k1_off20_inb g) g.val (by rw [k1_off20_eq]; rfl),
      (List.forall_mem_cons.mpr ⟨unit16_lb (inb := k1_off19_inb g) g.val (by rw [k1_off19_eq]; rfl),
      (List.forall_mem_cons.mpr ⟨unit16_lb (inb := k1_off18_inb g) g.val (by rw [k1_off18_eq]; rfl),
      (List.forall_mem_cons.mpr ⟨unit16_lb (inb := k1_off17_inb g) g.val (by rw [k1_off17_eq]; rfl),
      (List.forall_mem_cons.mpr ⟨unit16_lb (inb := k1_off16_inb g) g.val (by rw [k1_off16_eq]; rfl),
      (List.forall_mem_cons.mpr ⟨unit16_lb (inb := k1_off15_inb g) g.val (by rw [k1_off15_eq]; rfl),
      (List.forall_mem_cons.mpr ⟨unit16_lb (inb := k1_off14_inb g) g.val (by rw [k1_off14_eq]; rfl),
      (List.forall_mem_cons.mpr ⟨unit16_lb (inb := k1_off13_inb g) g.val (by rw [k1_off13_eq]; rfl),
      (List.forall_mem_cons.mpr ⟨unit16_lb (inb := k1_off12_inb g) g.val (by rw [k1_off12_eq]; rfl),
      (List.forall_mem_cons.mpr ⟨unit16_lb (inb := k1_off11_inb g) g.val (by rw [k1_off11_eq]; rfl),
      (List.forall_mem_cons.mpr ⟨unit16_lb (inb := k1_off10_inb g) g.val (by rw [k1_off10_eq]; rfl),
      (List.forall_mem_cons.mpr ⟨unit16_lb (inb := k1_off9_inb g) g.val (by rw [k1_off9_eq]; rfl),
      (List.forall_mem_cons.mpr ⟨unit16_lb (inb := k1_off8_inb g) g.val (by rw [k1_off8_eq]; rfl),
      (List.forall_mem_cons.mpr ⟨unit16_lb (inb := k1_off7_inb g) g.val (by rw [k1_off7_eq]; rfl),
      (List.forall_mem_cons.mpr ⟨unit16_lb (inb := k1_off6_inb g) g.val (by rw [k1_off6_eq]; rfl),
      (List.forall_mem_cons.mpr ⟨unit16_lb (inb := k1_off5_inb g) g.val (by rw [k1_off5_eq]; rfl),
      (List.forall_mem_cons.mpr ⟨unit16_lb (inb := k1_off4_inb g) g.val (by rw [k1_off4_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off4_inb g) 0 g.val (by rw [k1_off4_eq]; rfl) (by rw [k1_off4_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off5_inb g) 1 g.val (by rw [k1_off5_eq]; rfl) (by rw [k1_off5_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off6_inb g) 2 g.val (by rw [k1_off6_eq]; rfl) (by rw [k1_off6_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off7_inb g) 3 g.val (by rw [k1_off7_eq]; rfl) (by rw [k1_off7_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off8_inb g) 4 g.val (by rw [k1_off8_eq]; rfl) (by rw [k1_off8_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off9_inb g) 5 g.val (by rw [k1_off9_eq]; rfl) (by rw [k1_off9_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off10_inb g) 6 g.val (by rw [k1_off10_eq]; rfl) (by rw [k1_off10_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off11_inb g) 7 g.val (by rw [k1_off11_eq]; rfl) (by rw [k1_off11_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off12_inb g) 8 g.val (by rw [k1_off12_eq]; rfl) (by rw [k1_off12_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off13_inb g) 9 g.val (by rw [k1_off13_eq]; rfl) (by rw [k1_off13_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off14_inb g) 10 g.val (by rw [k1_off14_eq]; rfl) (by rw [k1_off14_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off15_inb g) 11 g.val (by rw [k1_off15_eq]; rfl) (by rw [k1_off15_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off16_inb g) 12 g.val (by rw [k1_off16_eq]; rfl) (by rw [k1_off16_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off17_inb g) 13 g.val (by rw [k1_off17_eq]; rfl) (by rw [k1_off17_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off18_inb g) 14 g.val (by rw [k1_off18_eq]; rfl) (by rw [k1_off18_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off19_inb g) 15 g.val (by rw [k1_off19_eq]; rfl) (by rw [k1_off19_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off20_inb g) 16 g.val (by rw [k1_off20_eq]; rfl) (by rw [k1_off20_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off21_inb g) 17 g.val (by rw [k1_off21_eq]; rfl) (by rw [k1_off21_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off22_inb g) 18 g.val (by rw [k1_off22_eq]; rfl) (by rw [k1_off22_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off23_inb g) 19 g.val (by rw [k1_off23_eq]; rfl) (by rw [k1_off23_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off24_inb g) 20 g.val (by rw [k1_off24_eq]; rfl) (by rw [k1_off24_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off25_inb g) 21 g.val (by rw [k1_off25_eq]; rfl) (by rw [k1_off25_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off26_inb g) 22 g.val (by rw [k1_off26_eq]; rfl) (by rw [k1_off26_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off27_inb g) 23 g.val (by rw [k1_off27_eq]; rfl) (by rw [k1_off27_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off28_inb g) 24 g.val (by rw [k1_off28_eq]; rfl) (by rw [k1_off28_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off29_inb g) 25 g.val (by rw [k1_off29_eq]; rfl) (by rw [k1_off29_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off30_inb g) 26 g.val (by rw [k1_off30_eq]; rfl) (by rw [k1_off30_eq]; rfl) y h hy1 hy2⟩
      · exact ⟨_, List.mem_cons_of_mem _ (List.mem_cons_of_mem _ (List.mem_cons_of_mem _ (List.mem_cons_of_mem _ (List.mem_cons_self)))), unit16_mem (inb := k1_off31_inb g) 27 g.val (by rw [k1_off31_eq]; rfl) (by rw [k1_off31_eq]; rfl) y h hy1 hy2⟩
      · exact ⟨_, List.mem_cons_of_mem _ (List.mem_cons_of_mem _ (List.mem_cons_of_mem _ (List.mem_cons_self))), unit16_mem (inb := k1_off32_inb g) 28 g.val (by rw [k1_off32_eq]; rfl) (by rw [k1_off32_eq]; rfl) y h hy1 hy2⟩
      · exact ⟨_, List.mem_cons_of_mem _ (List.mem_cons_of_mem _ (List.mem_cons_self)), unit16_mem (inb := k1_off33_inb g) 29 g.val (by rw [k1_off33_eq]; rfl) (by rw [k1_off33_eq]; rfl) y h hy1 hy2⟩
      · exact ⟨_, List.mem_cons_of_mem _ (List.mem_cons_self), unit16_mem (inb := k1_off34_inb g) 30 g.val (by rw [k1_off34_eq]; rfl) (by rw [k1_off34_eq]; rfl) y h hy1 hy2⟩
      · exact ⟨_, List.mem_cons_self, unit16_mem (inb := k1_off35_inb g) 31 g.val (by rw [k1_off35_eq]; rfl) (by rw [k1_off35_eq]; rfl) y h hy1 hy2⟩

/-- What a trip of the group loop t3 keeps: the flattened table and the staged index block unchanged, the output
    chunk at contents that hold the closed form on the columns of the groups done so far. -/
def invV_t3 (d : Dev nD) (L : grid1.Coords) (r : Nat) (ft : Buf (Elt F) ((tvW).view.loc (thrV d L))) (fx : Buf (Elt F) ((xs0W).view.loc (thrV d L)))
    (g : Nat) (_ : BitVec 32) : sProp 𝕄 :=
  iprop(((tvW).view.loc (thrV d L) ↦{fullShare} ft) ∗ ((xs0W).view.loc (thrV d L) ↦{fullShare} fx)
    ∗ ∃ fo, ⌜OcVal ft fx r 256 g fo⌝ ∗ (oc1W).view.loc (thrV d L) ↦{fullShare} fo)

set_option maxRecDepth 65536 in
/-- One trip of t3: the thirty-two gathered vectors stored into the chunk are the closed form on the group's sixteen
    columns, and the columns of the earlier groups are not touched. -/
theorem tripV_t3 (d : Dev nD) (L : grid1.Coords) (r : Fin k1_t1_loop.trips) (arg14 : BitVec 32)
    (ft : Buf (Elt F) ((tvW).view.loc (thrV d L))) (fx : Buf (Elt F) ((xs0W).view.loc (thrV d L))) (hfx : XsOK fx)
    (g : Fin k1_t3_loop.trips) (acc : BitVec 32) :
    invV_t3 d L r.val ft fx g acc
      ⊢ wp frame (wpE (defs₀ (F := F)) 𝒱₀ (thrV d L) none) Set.univ
          (k1_t3_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (invV_t3 d L r.val ft fx (g.val + 1)) := by
  unfold k1_t3_body
  simp only [k1_part8_eq_skeleton, k1_part9_eq_skeleton, k1_part10_eq_skeleton]
  unfold k1_part8_skel k1_part9_skel k1_part10_skel
  simp only [SparseCore.vectorLoadIdx_bind (c := thrV d L)]
  unfold invV_t3
  iintro ⟨Ht, Hx, %fo, %hfo, Ho⟩
  sl_exec (disch := exact chk_addi _ _ (fun _ => ldrow0_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay34 (View.readAt (Elt F) (xs0W).view
        (Rect.unit (s := S40x512) (k1_off37 r g) S1x16.size (k1_off37_inb r g)).toLoadRect fx) (ix1 l)
          = fx (ix2 (⟨r.val % 40, Nat.mod_lt _ (by decide)⟩ : Fin 40) (⟨(256 + 16 * g.val + l.val) % 512, Nat.mod_lt _ (by decide)⟩ : Fin 512)) :=
      fun l => by
        refine Eq.trans (cast16_apply (View.readAt (Elt F) (xs0W).view
          (Rect.unit (s := S40x512) (k1_off37 r g) S1x16.size (k1_off37_inb r g)).toLoadRect fx) shapeCasts_S1x16_S16 l) ?_
        exact congrArg fx (loadRow_idx r.val 256 g.val hr (by omega) (k1_off37 r g) (k1_off37_inb r g)
          (by rw [k1_off37_eq]; rfl) (by rw [k1_off37_eq]; show 16 * g.val + 256 = 256 + 16 * g.val; omega) l)
    refine ocVal_step_oc1 d L ft fx r.val 256 g.val fo _ ?hG ?hset ?hcov hfo
    case hG =>
      exact (List.forall_mem_cons.mpr ⟨piece_G ft fx hfx r.val 256 g.val _ hXs 31 (by decide) _ (k1_off69_inb g) (by rw [k1_off69_eq]; rfl) (by rw [k1_off69_eq]; rfl) _ (Memref.readAt_whole (Elt F) cc1_scratch0 ft) _ _,
      (List.forall_mem_cons.mpr ⟨piece_G ft fx hfx r.val 256 g.val _ hXs 30 (by decide) _ (k1_off68_inb g) (by rw [k1_off68_eq]; rfl) (by rw [k1_off68_eq]; rfl) _ (Memref.readAt_whole (Elt F) cc1_scratch0 ft) _ _,
      (List.forall_mem_cons.mpr ⟨piece_G ft fx hfx r.val 256 g.val _ hXs 29 (by decide) _ (k1_off67_inb g) (by rw [k1_off67_eq]; rfl) (by rw [k1_off67_eq]; rfl) _ (Memref.readAt_whole (Elt F) cc1_scratch0 ft) _ _,
      (List.forall_mem_cons.mpr ⟨piece_G ft fx hfx r.val 256 g.val _ hXs 28 (by decide) _ (k1_off66_inb g) (by rw [k1_off66_eq]; rfl) (by rw [k1_off66_eq]; rfl) _ (Memref.readAt_whole (Elt F) cc1_scratch0 ft) _ _,
      (List.forall_mem_cons.mpr ⟨piece_G ft fx hfx r.val 256 g.val _ hXs 27 (by decide) _ (k1_off65_inb g) (by rw [k1_off65_eq]; rfl) (by rw [k1_off65_eq]; rfl) _ (Memref.readAt_whole (Elt F) cc1_scratch0 ft) _ _,
      (List.forall_mem_cons.mpr ⟨piece_G ft fx hfx r.val 256 g.val _ hXs 26 (by decide) _ (k1_off64_inb g) (by rw [k1_off64_eq]; rfl) (by rw [k1_off64_eq]; rfl) _ (Memref.readAt_whole (Elt F) cc1_scratch0 ft) _ _,
      (List.forall_mem_cons.mpr ⟨piece_G ft fx hfx r.val 256 g.val _ hXs 25 (by decide) _ (k1_off63_inb g) (by rw [k1_off63_eq]; rfl) (by rw [k1_off63_eq]; rfl) _ (Memref.readAt_whole (Elt F) cc1_scratch0 ft) _ _,
      (List.forall_mem_cons.mpr ⟨piece_G ft fx hfx r.val 256 g.val _ hXs 24 (by decide) _ (k1_off62_inb g) (by rw [k1_off62_eq]; rfl) (by rw [k1_off62_eq]; rfl) _ (Memref.readAt_whole (Elt F) cc1_scratch0 ft) _ _,
      (List.forall_mem_cons.mpr ⟨piece_G ft fx hfx r.val 256 g.val _ hXs 23 (by decide) _ (k1_off61_inb g) (by rw [k1_off61_eq]; rfl) (by rw [k1_off61_eq]; rfl) _ (Memref.readAt_whole (Elt F) cc1_scratch0 ft) _ _,
      (List.forall_mem_cons.mpr ⟨piece_G ft fx hfx r.val 256 g.val _ hXs 22 (by decide) _ (k1_off60_inb g) (by rw [k1_off60_eq]; rfl) (by rw [k1_off60_eq]; rfl) _ (Memref.readAt_whole (Elt F) cc1_scratch0 ft) _ _,
      (List.forall_mem_cons.mpr ⟨piece_G ft fx hfx r.val 256 g.val _ hXs 21 (by decide) _ (k1_off59_inb g) (by rw [k1_off59_eq]; rfl) (by rw [k1_off59_eq]; rfl) _ (Memref.readAt_whole (Elt F) cc1_scratch0 ft) _ _,
      (List.forall_mem_cons.mpr ⟨piece_G ft fx hfx r.val 256 g.val _ hXs 20 (by decide) _ (k1_off58_inb g) (by rw [k1_off58_eq]; rfl) (by rw [k1_off58_eq]; rfl) _ (Memref.readAt_whole (Elt F) cc1_scratch0 ft) _ _,
      (List.forall_mem_cons.mpr ⟨piece_G ft fx hfx r.val 256 g.val _ hXs 19 (by decide) _ (k1_off57_inb g) (by rw [k1_off57_eq]; rfl) (by rw [k1_off57_eq]; rfl) _ (Memref.readAt_whole (Elt F) cc1_scratch0 ft) _ _,
      (List.forall_mem_cons.mpr ⟨piece_G ft fx hfx r.val 256 g.val _ hXs 18 (by decide) _ (k1_off56_inb g) (by rw [k1_off56_eq]; rfl) (by rw [k1_off56_eq]; rfl) _ (Memref.readAt_whole (Elt F) cc1_scratch0 ft) _ _,
      (List.forall_mem_cons.mpr ⟨piece_G ft fx hfx r.val 256 g.val _ hXs 17 (by decide) _ (k1_off55_inb g) (by rw [k1_off55_eq]; rfl) (by rw [k1_off55_eq]; rfl) _ (Memref.readAt_whole (Elt F) cc1_scratch0 ft) _ _,
      (List.forall_mem_cons.mpr ⟨piece_G ft fx hfx r.val 256 g.val _ hXs 16 (by decide) _ (k1_off54_inb g) (by rw [k1_off54_eq]; rfl) (by rw [k1_off54_eq]; rfl) _ (Memref.readAt_whole (Elt F) cc1_scratch0 ft) _ _,
      (List.forall_mem_cons.mpr ⟨piece_G ft fx hfx r.val 256 g.val _ hXs 15 (by decide) _ (k1_off53_inb g) (by rw [k1_off53_eq]; rfl) (by rw [k1_off53_eq]; rfl) _ (Memref.readAt_whole (Elt F) cc1_scratch0 ft) _ _,
      (List.forall_mem_cons.mpr ⟨piece_G ft fx hfx r.val 256 g.val _ hXs 14 (by decide) _ (k1_off52_inb g) (by rw [k1_off52_eq]; rfl) (by rw [k1_off52_eq]; rfl) _ (Memref.readAt_whole (Elt F) cc1_scratch0 ft) _ _,
      (List.forall_mem_cons.mpr ⟨piece_G ft fx hfx r.val 256 g.val _ hXs 13 (by decide) _ (k1_off51_inb g) (by rw [k1_off51_eq]; rfl) (by rw [k1_off51_eq]; rfl) _ (Memref.readAt_whole (Elt F) cc1_scratch0 ft) _ _,
      (List.forall_mem_cons.mpr ⟨piece_G ft fx hfx r.val 256 g.val _ hXs 12 (by decide) _ (k1_off50_inb g) (by rw [k1_off50_eq]; rfl) (by rw [k1_off50_eq]; rfl) _ (Memref.readAt_whole (Elt F) cc1_scratch0 ft) _ _,
      (List.forall_mem_cons.mpr ⟨piece_G ft fx hfx r.val 256 g.val _ hXs 11 (by decide) _ (k1_off49_inb g) (by rw [k1_off49_eq]; rfl) (by rw [k1_off49_eq]; rfl) _ (Memref.readAt_whole (Elt F) cc1_scratch0 ft) _ _,
      (List.forall_mem_cons.mpr ⟨piece_G ft fx hfx r.val 256 g.val _ hXs 10 (by decide) _ (k1_off48_inb g) (by rw [k1_off48_eq]; rfl) (by rw [k1_off48_eq]; rfl) _ (Memref.readAt_whole (Elt F) cc1_scratch0 ft) _ _,
      (List.forall_mem_cons.mpr ⟨piece_G ft fx hfx r.val 256 g.val _ hXs 9 (by decide) _ (k1_off47_inb g) (by rw [k1_off47_eq]; rfl) (by rw [k1_off47_eq]; rfl) _ (Memref.readAt_whole (Elt F) cc1_scratch0 ft) _ _,
      (List.forall_mem_cons.mpr ⟨piece_G ft fx hfx r.val 256 g.val _ hXs 8 (by decide) _ (k1_off46_inb g) (by rw [k1_off46_eq]; rfl) (by rw [k1_off46_eq]; rfl) _ (Memref.readAt_whole (Elt F) cc1_scratch0 ft) _ _,
      (List.forall_mem_cons.mpr ⟨piece_G ft fx hfx r.val 256 g.val _ hXs 7 (by decide) _ (k1_off45_inb g) (by rw [k1_off45_eq]; rfl) (by rw [k1_off45_eq]; rfl) _ (Memref.readAt_whole (Elt F) cc1_scratch0 ft) _ _,
      (List.forall_mem_cons.mpr ⟨piece_G ft fx hfx r.val 256 g.val _ hXs 6 (by decide) _ (k1_off44_inb g) (by rw [k1_off44_eq]; rfl) (by rw [k1_off44_eq]; rfl) _ (Memref.readAt_whole (Elt F) cc1_scratch0 ft) _ _,
      (List.forall_mem_cons.mpr ⟨piece_G ft fx hfx r.val 256 g.val _ hXs 5 (by decide) _ (k1_off43_inb g) (by rw [k1_off43_eq]; rfl) (by rw [k1_off43_eq]; rfl) _ (Memref.readAt_whole (Elt F) cc1_scratch0 ft) _ _,
      (List.forall_mem_cons.mpr ⟨piece_G ft fx hfx r.val 256 g.val _ hXs 4 (by decide) _ (k1_off42_inb g) (by rw [k1_off42_eq]; rfl) (by rw [k1_off42_eq]; rfl) _ (Memref.readAt_whole (Elt F) cc1_scratch0 ft) _ _,
      (List.forall_mem_cons.mpr ⟨piece_G ft fx hfx r.val 256 g.val _ hXs 3 (by decide) _ (k1_off41_inb g) (by rw [k1_off41_eq]; rfl) (by rw [k1_off41_eq]; rfl) _ (Memref.readAt_whole (Elt F) cc1_scratch0 ft) _ _,
      (List.forall_mem_cons.mpr ⟨piece_G ft fx hfx r.val 256 g.val _ hXs 2 (by decide) _ (k1_off40_inb g) (by rw [k1_off40_eq]; rfl) (by rw [k1_off40_eq]; rfl) _ (Memref.readAt_whole (Elt F) cc1_scratch0 ft) _ _,
      (List.forall_mem_cons.mpr ⟨piece_G ft fx hfx r.val 256 g.val _ hXs 1 (by decide) _ (k1_off39_inb g) (by rw [k1_off39_eq]; rfl) (by rw [k1_off39_eq]; rfl) _ (Memref.readAt_whole (Elt F) cc1_scratch0 ft) _ _,
      (List.forall_mem_cons.mpr ⟨piece_G ft fx hfx r.val 256 g.val _ hXs 0 (by decide) _ (k1_off38_inb g) (by rw [k1_off38_eq]; rfl) (by rw [k1_off38_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off69_inb g) g.val (by rw [k1_off69_eq]; rfl),
      (List.forall_mem_cons.mpr ⟨unit16_lb (inb := k1_off68_inb g) g.val (by rw [k1_off68_eq]; rfl),
      (List.forall_mem_cons.mpr ⟨unit16_lb (inb := k1_off67_inb g) g.val (by rw [k1_off67_eq]; rfl),
      (List.forall_mem_cons.mpr ⟨unit16_lb (inb := k1_off66_inb g) g.val (by rw [k1_off66_eq]; rfl),
      (List.forall_mem_cons.mpr ⟨unit16_lb (inb := k1_off65_inb g) g.val (by rw [k1_off65_eq]; rfl),
      (List.forall_mem_cons.mpr ⟨unit16_lb (inb := k1_off64_inb g) g.val (by rw [k1_off64_eq]; rfl),
      (List.forall_mem_cons.mpr ⟨unit16_lb (inb := k1_off63_inb g) g.val (by rw [k1_off63_eq]; rfl),
      (List.forall_mem_cons.mpr ⟨unit16_lb (inb := k1_off62_inb g) g.val (by rw [k1_off62_eq]; rfl),
      (List.forall_mem_cons.mpr ⟨unit16_lb (inb := k1_off61_inb g) g.val (by rw [k1_off61_eq]; rfl),
      (List.forall_mem_cons.mpr ⟨unit16_lb (inb := k1_off60_inb g) g.val (by rw [k1_off60_eq]; rfl),
      (List.forall_mem_cons.mpr ⟨unit16_lb (inb := k1_off59_inb g) g.val (by rw [k1_off59_eq]; rfl),
      (List.forall_mem_cons.mpr ⟨unit16_lb (inb := k1_off58_inb g) g.val (by rw [k1_off58_eq]; rfl),
      (List.forall_mem_cons.mpr ⟨unit16_lb (inb := k1_off57_inb g) g.val (by rw [k1_off57_eq]; rfl),
      (List.forall_mem_cons.mpr ⟨unit16_lb (inb := k1_off56_inb g) g.val (by rw [k1_off56_eq]; rfl),
      (List.forall_mem_cons.mpr ⟨unit16_lb (inb := k1_off55_inb g) g.val (by rw [k1_off55_eq]; rfl),
      (List.forall_mem_cons.mpr ⟨unit16_lb (inb := k1_off54_inb g) g.val (by rw [k1_off54_eq]; rfl),
      (List.forall_mem_cons.mpr ⟨unit16_lb (inb := k1_off53_inb g) g.val (by rw [k1_off53_eq]; rfl),
      (List.forall_mem_cons.mpr ⟨unit16_lb (inb := k1_off52_inb g) g.val (by rw [k1_off52_eq]; rfl),
      (List.forall_mem_cons.mpr ⟨unit16_lb (inb := k1_off51_inb g) g.val (by rw [k1_off51_eq]; rfl),
      (List.forall_mem_cons.mpr ⟨unit16_lb (inb := k1_off50_inb g) g.val (by rw [k1_off50_eq]; rfl),
      (List.forall_mem_cons.mpr ⟨unit16_lb (inb := k1_off49_inb g) g.val (by rw [k1_off49_eq]; rfl),
      (List.forall_mem_cons.mpr ⟨unit16_lb (inb := k1_off48_inb g) g.val (by rw [k1_off48_eq]; rfl),
      (List.forall_mem_cons.mpr ⟨unit16_lb (inb := k1_off47_inb g) g.val (by rw [k1_off47_eq]; rfl),
      (List.forall_mem_cons.mpr ⟨unit16_lb (inb := k1_off46_inb g) g.val (by rw [k1_off46_eq]; rfl),
      (List.forall_mem_cons.mpr ⟨unit16_lb (inb := k1_off45_inb g) g.val (by rw [k1_off45_eq]; rfl),
      (List.forall_mem_cons.mpr ⟨unit16_lb (inb := k1_off44_inb g) g.val (by rw [k1_off44_eq]; rfl),
      (List.forall_mem_cons.mpr ⟨unit16_lb (inb := k1_off43_inb g) g.val (by rw [k1_off43_eq]; rfl),
      (List.forall_mem_cons.mpr ⟨unit16_lb (inb := k1_off42_inb g) g.val (by rw [k1_off42_eq]; rfl),
      (List.forall_mem_cons.mpr ⟨unit16_lb (inb := k1_off41_inb g) g.val (by rw [k1_off41_eq]; rfl),
      (List.forall_mem_cons.mpr ⟨unit16_lb (inb := k1_off40_inb g) g.val (by rw [k1_off40_eq]; rfl),
      (List.forall_mem_cons.mpr ⟨unit16_lb (inb := k1_off39_inb g) g.val (by rw [k1_off39_eq]; rfl),
      (List.forall_mem_cons.mpr ⟨unit16_lb (inb := k1_off38_inb g) g.val (by rw [k1_off38_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off38_inb g) 0 g.val (by rw [k1_off38_eq]; rfl) (by rw [k1_off38_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off39_inb g) 1 g.val (by rw [k1_off39_eq]; rfl) (by rw [k1_off39_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off40_inb g) 2 g.val (by rw [k1_off40_eq]; rfl) (by rw [k1_off40_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off41_inb g) 3 g.val (by rw [k1_off41_eq]; rfl) (by rw [k1_off41_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off42_inb g) 4 g.val (by rw [k1_off42_eq]; rfl) (by rw [k1_off42_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off43_inb g) 5 g.val (by rw [k1_off43_eq]; rfl) (by rw [k1_off43_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off44_inb g) 6 g.val (by rw [k1_off44_eq]; rfl) (by rw [k1_off44_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off45_inb g) 7 g.val (by rw [k1_off45_eq]; rfl) (by rw [k1_off45_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off46_inb g) 8 g.val (by rw [k1_off46_eq]; rfl) (by rw [k1_off46_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off47_inb g) 9 g.val (by rw [k1_off47_eq]; rfl) (by rw [k1_off47_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off48_inb g) 10 g.val (by rw [k1_off48_eq]; rfl) (by rw [k1_off48_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off49_inb g) 11 g.val (by rw [k1_off49_eq]; rfl) (by rw [k1_off49_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off50_inb g) 12 g.val (by rw [k1_off50_eq]; rfl) (by rw [k1_off50_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off51_inb g) 13 g.val (by rw [k1_off51_eq]; rfl) (by rw [k1_off51_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off52_inb g) 14 g.val (by rw [k1_off52_eq]; rfl) (by rw [k1_off52_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off53_inb g) 15 g.val (by rw [k1_off53_eq]; rfl) (by rw [k1_off53_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off54_inb g) 16 g.val (by rw [k1_off54_eq]; rfl) (by rw [k1_off54_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off55_inb g) 17 g.val (by rw [k1_off55_eq]; rfl) (by rw [k1_off55_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off56_inb g) 18 g.val (by rw [k1_off56_eq]; rfl) (by rw [k1_off56_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off57_inb g) 19 g.val (by rw [k1_off57_eq]; rfl) (by rw [k1_off57_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off58_inb g) 20 g.val (by rw [k1_off58_eq]; rfl) (by rw [k1_off58_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off59_inb g) 21 g.val (by rw [k1_off59_eq]; rfl) (by rw [k1_off59_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off60_inb g) 22 g.val (by rw [k1_off60_eq]; rfl) (by rw [k1_off60_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off61_inb g) 23 g.val (by rw [k1_off61_eq]; rfl) (by rw [k1_off61_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off62_inb g) 24 g.val (by rw [k1_off62_eq]; rfl) (by rw [k1_off62_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off63_inb g) 25 g.val (by rw [k1_off63_eq]; rfl) (by rw [k1_off63_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off64_inb g) 26 g.val (by rw [k1_off64_eq]; rfl) (by rw [k1_off64_eq]; rfl) y h hy1 hy2⟩
      · exact ⟨_, List.mem_cons_of_mem _ (List.mem_cons_of_mem _ (List.mem_cons_of_mem _ (List.mem_cons_of_mem _ (List.mem_cons_self)))), unit16_mem (inb := k1_off65_inb g) 27 g.val (by rw [k1_off65_eq]; rfl) (by rw [k1_off65_eq]; rfl) y h hy1 hy2⟩
      · exact ⟨_, List.mem_cons_of_mem _ (List.mem_cons_of_mem _ (List.mem_cons_of_mem _ (List.mem_cons_self))), unit16_mem (inb := k1_off66_inb g) 28 g.val (by rw [k1_off66_eq]; rfl) (by rw [k1_off66_eq]; rfl) y h hy1 hy2⟩
      · exact ⟨_, List.mem_cons_of_mem _ (List.mem_cons_of_mem _ (List.mem_cons_self)), unit16_mem (inb := k1_off67_inb g) 29 g.val (by rw [k1_off67_eq]; rfl) (by rw [k1_off67_eq]; rfl) y h hy1 hy2⟩
      · exact ⟨_, List.mem_cons_of_mem _ (List.mem_cons_self), unit16_mem (inb := k1_off68_inb g) 30 g.val (by rw [k1_off68_eq]; rfl) (by rw [k1_off68_eq]; rfl) y h hy1 hy2⟩
      · exact ⟨_, List.mem_cons_self, unit16_mem (inb := k1_off69_inb g) 31 g.val (by rw [k1_off69_eq]; rfl) (by rw [k1_off69_eq]; rfl) y h hy1 hy2⟩

end Cert.Proof.KI

end
-- ==== Proof.KI.Row0V.lean ====
/-
  The row loop of stage 0 with values: rows 0 to 39 of out_t. The first trip finds both chunks free and waits for
  nothing; every later trip is as in the other stages.
-/
import proofs.«203934_g28930899706482_cont_9to1_1937_23_alg».proof.Proof.KI.RowCommonV
import proofs.«203934_g28930899706482_cont_9to1_1937_23_alg».proof.Proof.KI.Row0
import proofs.«203934_g28930899706482_cont_9to1_1937_23_alg».proof.Proof.KI.GroupV0

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- Chunk k before row n: free when nothing has been copied yet; else its copy of row n - 1 in flight, bound to leave its piece at G. -/
def SlotStV0 (d : Dev nD) (L : grid1.Coords) (G : Buf (Elt F) (oLoc d)) (n : Nat) : sProp 𝕄 :=
  if n = 0 then iprop(semVal (thrV d L, SemLoc.dma cc1_scratch7.sem) 0 ∗ ∃ f, (oc0W).view.loc (thrV d L) ↦{fullShare} f)
  else OutFlightAtV0 d L G (n - 1)
def SlotStV1 (d : Dev nD) (L : grid1.Coords) (G : Buf (Elt F) (oLoc d)) (n : Nat) : sProp 𝕄 :=
  if n = 0 then iprop(semVal (thrV d L, SemLoc.dma cc1_scratch8.sem) 0 ∗ ∃ f, (oc1W).view.loc (thrV d L) ↦{fullShare} f)
  else OutFlightAtV1 d L G (n - 1)

/-- Between two trips of the row loop of stage 0, before row r. -/
def rowInvV0 (d : Dev nD) (L : grid1.Coords) (G : Buf (Elt F) (oLoc d)) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ SlotStV0 d L G r ∗ SlotStV1 d L G r
    ∗ PiecesKV d L G 0 r ∗ PiecesKV d L G 1 r
    ∗ ∃ W', ⌜∀ p ∈ W', p ∈ W ∨ p.2 = none⌝ ∗ owes (thrV d L) O W')

set_option maxRecDepth 65536 in
/-- Row r of stage 0, with values. -/
theorem rowV_t1 (d : Dev nD) (L : grid1.Coords) (G : Buf (Elt F) (oLoc d)) (ft : Buf (Elt F) ((tvW).view.loc (thrV d L))) (fx : Buf (Elt F) ((xs0W).view.loc (thrV d L))) (hfx : XsOK fx)
    (hrows : RowsOK L G ft fx 0)
    (O : CellTallies nD τ sig (HIx 1)) (W : Waits sig (HIx 1)) (r : Fin k1_t1_loop.trips) (acc : BitVec 32) :
    rowInvV0 d L G ft fx O W r acc
      ⊢ wp frame (wpE (defs₀ (F := F)) 𝒱₀ (thrV d L) none) Set.univ
          (k1_t1_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r acc)
          (rowInvV0 d L G ft fx O W (r.val + 1)) := by
  have hr : r.val < 40 := lt_of_lt_of_le r.isLt k1_t1_abs.2.1
  have hoff0 : k1_off36 L r 0#32 = ![r.val, 0, col0 L + 256 * (0 : Fin 2).val] := by
    have h := k1_off36_eq L r 0; simpa [col0] using h
  have hoff1 : k1_off36 L r 256#32 = ![r.val, 0, col0 L + 256 * (1 : Fin 2).val] := by
    have h := k1_off36_eq L r 1; simpa [col0] using h
  by_cases h0 : r.val = 0
  · -- the first row: both chunks free, no wait; every piece still at some contents
    have hc : ¬ (condR r = 1#1) := fun h => (condR_iff r).mp h h0
    have e0 : PiecesKV (F := F) d L G 0 r.val = MidV d L G 0 r.val := by rw [h0, piecesKV_zero, midV_zero]
    have e1 : PiecesKV (F := F) d L G 1 r.val = MidV d L G 1 r.val := by rw [h0, piecesKV_zero, midV_zero]
    unfold k1_t1_body rowInvV0 SlotStV0 SlotStV1
    rw [if_pos h0, if_pos h0, if_neg (Nat.succ_ne_zero _), if_neg (Nat.succ_ne_zero _), Nat.add_sub_cancel]
    iintro ⟨#Hmw, Ht, Hx, ⟨Hs0, %fo0, Ho0⟩, ⟨Hs1, %fo1, Ho1⟩, HP0, HP1, %W', %hW', HO⟩
    ihave Hmid0 := (Entails.of_eq e0) $$ HP0
    ihave Hsp0 := (Entails.of_eq (midV_next (F := F) d L G 0 r.val (by omega))) $$ Hmid0
    icases Hsp0 with ⟨Hp0, HP0⟩
    ihave Hp0' := (take_pieceM (F := F) d L r.val (by omega) 0 (k1_off36 L r 0#32) (k1_off36_inb L r 0) hoff0) $$ Hp0
    icases Hp0' with ⟨%p0, Hp0⟩
    ihave Hmid1 := (Entails.of_eq e1) $$ HP1
    ihave Hsp1 := (Entails.of_eq (midV_next (F := F) d L G 1 r.val (by omega))) $$ Hmid1
    icases Hsp1 with ⟨Hp1, HP1⟩
    ihave Hp1' := (take_pieceM (F := F) d L r.val (by omega) 1 (k1_off36 L r 256#32) (k1_off36_inb L r 1) hoff1) $$ Hp1
    icases Hp1' with ⟨%p1, Hp1⟩
    sl_exec
    sl_for (invV_t2 d L r.val ft fx) $$ [Ht Hx Ho0]
    case region => intro k acc; exact tripV_t2 d L r _ ft fx hfx k acc
    · unfold invV_t2
      isplitl [Ht]; · iexact Ht
      isplitl [Hx]; · iexact Hx
      iexists fo0; isplitr
      · ipureintro; exact ocVal_zero _ _ _ _ _
      · iexact Ho0
    iintro %a0 HI
    unfold invV_t2
    icases HI with ⟨Ht, Hx, %fo0', %hfo0', Ho0⟩
    sl_exec
    sl_for (invV_t3 d L r.val ft fx) $$ [Ht Hx Ho1]
    case region => intro k acc; exact tripV_t3 d L r _ ft fx hfx k acc
    · unfold invV_t3
      isplitl [Ht]; · iexact Ht
      isplitl [Hx]; · iexact Hx
      iexists fo1; isplitr
      · ipureintro; exact ocVal_zero _ _ _ _ _
      · iexact Ho1
    iintro %a1 HI
    unfold invV_t3
    icases HI with ⟨Ht, Hx, %fo1', %hfo1', Ho1⟩
    sl_exec
    sl_step
    unfold OutFlightAtV0 OutFlightAtV1
    isplitr; · iexact Hmw
    isplitl [Ht]; · iexact Ht
    isplitl [Hx]; · iexact Hx
    isplitl [Hs0]
    · iexists (pieceM (k1_off36 L r 0#32) (k1_off36_inb L r 0)), fo0'; isplitr
      · ipureintro; intro p
        exact land_pieceV d L G r.val (by omega) 0 _ _ hoff0 _
          (chunk_is_G L G ft fx 0 hrows r.val hr 0 fo0' hfo0' r.val (by omega) rfl) p
      · iexists p0; iexact Hs0
    isplitl [Hs1]
    · iexists (pieceM (k1_off36 L r 256#32) (k1_off36_inb L r 1)), fo1'; isplitr
      · ipureintro; intro p
        exact land_pieceV d L G r.val (by omega) 1 _ _ hoff1 _
          (chunk_is_G L G ft fx 0 hrows r.val hr 1 fo1' hfo1' r.val (by omega) rfl) p
      · iexists p1; iexact Hs1
    isplitl [HP0]; · iexact HP0
    isplitl [HP1]; · iexact HP1
    iexists W'; isplitr
    · ipureintro; exact hW'
    · iexact HO
  · -- a later row: each chunk's previous copy is in flight
    have hc : condR r = 1#1 := (condR_iff r).mpr h0
    unfold k1_t1_body rowInvV0 SlotStV0 SlotStV1
    rw [if_neg h0, if_neg h0, if_neg (Nat.succ_ne_zero _), if_neg (Nat.succ_ne_zero _), Nat.add_sub_cancel]
    unfold OutFlightAtV0 OutFlightAtV1
    iintro ⟨#Hmw, Ht, Hx, ⟨%q0, %fo0, %hq0, %pp0, HF0⟩, ⟨%q1, %fo1, %hq1, %pp1, HF1⟩, HP0, HP1, %W', %hW', HO⟩
    sl_exec
    -- chunk 0: its copy of row n - 1 has landed, at G; the piece of row n leaves the slot's pieces
    ihave Hl0 := (hq0 _) $$ HF0_dst
    ihave Hmid0 := (Entails.of_eq (midV_landed (F := F) d L G 0 (r.val) (by omega) (by omega)).symm) $$ [Hl0 HP0]
    · isplitl [Hl0]; · iexact Hl0
      iexact HP0
    ihave Hsp0 := (Entails.of_eq (midV_next (F := F) d L G 0 (r.val) (by omega))) $$ Hmid0
    icases Hsp0 with ⟨Hp0, HP0⟩
    ihave Hp0' := (take_pieceM (F := F) d L (r.val) (by omega) 0 (k1_off36 L r 0#32) (k1_off36_inb L r 0) hoff0) $$ Hp0
    icases Hp0' with ⟨%p0, Hp0⟩
    ihave Ho0 := (Entails.of_eq (pts_oc0 (F := F) d L _)) $$ HF0_src
    sl_for (invV_t2 d L r.val ft fx) $$ [Ht Hx Ho0]
    case region => intro k acc; exact tripV_t2 d L r _ ft fx hfx k acc
    · unfold invV_t2
      isplitl [Ht]; · iexact Ht
      isplitl [Hx]; · iexact Hx
      iexists fo0; isplitr
      · ipureintro; exact ocVal_zero _ _ _ _ _
      · iexact Ho0
    iintro %a0 HI
    unfold invV_t2
    icases HI with ⟨Ht, Hx, %fo0', %hfo0', Ho0⟩
    sl_exec
    -- chunk 1: its copy of row n - 1 has landed, at G; the piece of row n leaves the slot's pieces
    ihave Hl1 := (hq1 _) $$ HF1_dst
    ihave Hmid1 := (Entails.of_eq (midV_landed (F := F) d L G 1 (r.val) (by omega) (by omega)).symm) $$ [Hl1 HP1]
    · isplitl [Hl1]; · iexact Hl1
      iexact HP1
    ihave Hsp1 := (Entails.of_eq (midV_next (F := F) d L G 1 (r.val) (by omega))) $$ Hmid1
    icases Hsp1 with ⟨Hp1, HP1⟩
    ihave Hp1' := (take_pieceM (F := F) d L (r.val) (by omega) 1 (k1_off36 L r 256#32) (k1_off36_inb L r 1) hoff1) $$ Hp1
    icases Hp1' with ⟨%p1, Hp1⟩
    ihave Ho1 := (Entails.of_eq (pts_oc1 (F := F) d L _)) $$ HF1_src
    sl_for (invV_t3 d L r.val ft fx) $$ [Ht Hx Ho1]
    case region => intro k acc; exact tripV_t3 d L r _ ft fx hfx k acc
    · unfold invV_t3
      isplitl [Ht]; · iexact Ht
      isplitl [Hx]; · iexact Hx
      iexists fo1; isplitr
      · ipureintro; exact ocVal_zero _ _ _ _ _
      · iexact Ho1
    iintro %a1 HI
    unfold invV_t3
    icases HI with ⟨Ht, Hx, %fo1', %hfo1', Ho1⟩
    sl_exec
    sl_step
    isplitr; · iexact Hmw
    isplitl [Ht]; · iexact Ht
    isplitl [Hx]; · iexact Hx
    isplitl [HF0]
    · iexists (pieceM (k1_off36 L r 0#32) (k1_off36_inb L r 0)), fo0'; isplitr
      · ipureintro; intro p
        exact land_pieceV d L G (r.val) (by omega) 0 _ _ hoff0 _
          (chunk_is_G L G ft fx 0 hrows r.val hr 0 fo0' hfo0' (r.val) (by omega) rfl) p
      · iexists p0; iexact HF0
    isplitl [HF1]
    · iexists (pieceM (k1_off36 L r 256#32) (k1_off36_inb L r 1)), fo1'; isplitr
      · ipureintro; intro p
        exact land_pieceV d L G (r.val) (by omega) 1 _ _ hoff1 _
          (chunk_is_G L G ft fx 0 hrows r.val hr 1 fo1' hfo1' (r.val) (by omega) rfl) p
      · iexists p1; iexact HF1
    isplitl [HP0]; · iexact HP0
    isplitl [HP1]; · iexact HP1
    iexists (insert (SemLoc.dma cc1_scratch8.sem, (default : HIx 1)) (insert (SemLoc.dma cc1_scratch7.sem, (default : HIx 1)) W')); isplitr
    · ipureintro; intro p hp
      rcases Finset.mem_insert.mp hp with hp | hp
      · exact .inr (by subst hp; rfl)
      rcases Finset.mem_insert.mp hp with hp | hp
      · exact .inr (by subst hp; rfl)
      · exact hW' p hp
    · iexact HO

end Cert.Proof.KI

end
-- ==== Proof.KI.GroupV1.lean ====
/-
  The group loops of stage 1 with values: a trip keeps, beside the table and the staged index block, that the output
  chunk holds the closed form — the flattened table at index word plus 1000 c — on the columns of the groups done.
-/
import proofs.«203934_g28930899706482_cont_9to1_1937_23_alg».proof.Proof.KI.Group1
import proofs.«203934_g28930899706482_cont_9to1_1937_23_alg».proof.Proof.KI.OcVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- What a trip of the group loop t5 keeps: the flattened table and the staged index block unchanged, the output
    chunk at contents that hold the closed form on the columns of the groups done so far. -/
def invV_t5 (d : Dev nD) (L : grid1.Coords) (r : Nat) (ft : Buf (Elt F) ((tvW).view.loc (thrV d L))) (fx : Buf (Elt F) ((xs1W).view.loc (thrV d L)))
    (g : Nat) (_ : BitVec 32) : sProp 𝕄 :=
  iprop(((tvW).view.loc (thrV d L) ↦{fullShare} ft) ∗ ((xs1W).view.loc (thrV d L) ↦{fullShare} fx)
    ∗ ∃ fo, ⌜OcVal ft fx r 0 g fo⌝ ∗ (oc0W).view.loc (thrV d L) ↦{fullShare} fo)

set_option maxRecDepth 65536 in
/-- One trip of t5: the thirty-two gathered vectors stored into the chunk are the closed form on the group's sixteen
    columns, and the columns of the earlier groups are not touched. -/
theorem tripV_t5 (d : Dev nD) (L : grid1.Coords) (r : Fin k1_t4_loop.trips) (arg14 : BitVec 32)
    (ft : Buf (Elt F) ((tvW).view.loc (thrV d L))) (fx : Buf (Elt F) ((xs1W).view.loc (thrV d L))) (hfx : XsOK fx)
    (g : Fin k1_t5_loop.trips) (acc : BitVec 32) :
    invV_t5 d L r.val ft fx g acc
      ⊢ wp frame (wpE (defs₀ (F := F)) 𝒱₀ (thrV d L) none) Set.univ
          (k1_t5_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (invV_t5 d L r.val ft fx (g.val + 1)) := by
  unfold k1_t5_body
  simp only [k1_part15_eq_skeleton, k1_part16_eq_skeleton, k1_part17_eq_skeleton]
  unfold k1_part15_skel k1_part16_skel k1_part17_skel
  simp only [SparseCore.vectorLoadIdx_bind (c := thrV d L)]
  unfold invV_t5
  iintro ⟨Ht, Hx, %fo, %hfo, Ho⟩
  sl_exec (disch := exact chk_addi _ _ (fun _ => ldrow1_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay67 (View.readAt (Elt F) (xs1W).view
        (Rect.unit (s := S40x512) (k1_off71 r g) S1x16.size (k1_off71_inb r g)).toLoadRect fx) (ix1 l)
          = fx (ix2 (⟨r.val % 40, Nat.mod_lt _ (by decide)⟩ : Fin 40) (⟨(0 + 16 * g.val + l.val) % 512, Nat.mod_lt _ (by decide)⟩ : Fin 512)) :=
      fun l => by
        refine Eq.trans (cast16_apply (View.readAt (Elt F) (xs1W).view
          (Rect.unit (s := S40x512) (k1_off71 r g) S1x16.size (k1_off71_inb r g)).toLoadRect fx) shapeCasts_S1x16_S16 l) ?_
        exact congrArg fx (loadRow_idx r.val 0 g.val hr (by omega) (k1_off71 r g) (k1_off71_inb r g)
          (by rw [k1_off71_eq]; rfl) (by rw [k1_off71_eq]; show 16 * g.val = 0 + 16 * g.val; omega) l)
    refine ocVal_step_oc0 d L ft fx r.val 0 g.val fo _ ?hG ?hset ?hcov hfo
    case hG =>
      exact (List.forall_mem_cons.mpr ⟨piece_G ft fx hfx r.val 0 g.val _ hXs 31 (by decide) _ (k1_off103_inb g) (by rw [k1_off103_eq]; rfl) (by rw [k1_off103_eq]; rfl) _ (Memref.readAt_whole (Elt F) cc1_scratch0 ft) _ _,
      (List.forall_mem_cons.mpr ⟨piece_G ft fx hfx r.val 0 g.val _ hXs 30 (by decide) _ (k1_off102_inb g) (by rw [k1_off102_eq]; rfl) (by rw [k1_off102_eq]; rfl) _ (Memref.readAt_whole (Elt F) cc1_scratch0 ft) _ _,
      (List.forall_mem_cons.mpr ⟨piece_G ft fx hfx r.val 0 g.val _ hXs 29 (by decide) _ (k1_off101_inb g) (by rw [k1_off101_eq]; rfl) (by rw [k1_off101_eq]; rfl) _ (Memref.readAt_whole (Elt F) cc1_scratch0 ft) _ _,
      (List.forall_mem_cons.mpr ⟨piece_G ft fx hfx r.val 0 g.val _ hXs 28 (by decide) _ (k1_off100_inb g) (by rw [k1_off100_eq]; rfl) (by rw [k1_off100_eq]; rfl) _ (Memref.readAt_whole (Elt F) cc1_scratch0 ft) _ _,
      (List.forall_mem_cons.mpr ⟨piece_G ft fx hfx r.val 0 g.val _ hXs 27 (by decide) _ (k1_off99_inb g) (by rw [k1_off99_eq]; rfl) (by rw [k1_off99_eq]; rfl) _ (Memref.readAt_whole (Elt F) cc1_scratch0 ft) _ _,
      (List.forall_mem_cons.mpr ⟨piece_G ft fx hfx r.val 0 g.val _ hXs 26 (by decide) _ (k1_off98_inb g) (by rw [k1_off98_eq]; rfl) (by rw [k1_off98_eq]; rfl) _ (Memref.readAt_whole (Elt F) cc1_scratch0 ft) _ _,
      (List.forall_mem_cons.mpr ⟨piece_G ft fx hfx r.val 0 g.val _ hXs 25 (by decide) _ (k1_off97_inb g) (by rw [k1_off97_eq]; rfl) (by rw [k1_off97_eq]; rfl) _ (Memref.readAt_whole (Elt F) cc1_scratch0 ft) _ _,
      (List.forall_mem_cons.mpr ⟨piece_G ft fx hfx r.val 0 g.val _ hXs 24 (by decide) _ (k1_off96_inb g) (by rw [k1_off96_eq]; rfl) (by rw [k1_off96_eq]; rfl) _ (Memref.readAt_whole (Elt F) cc1_scratch0 ft) _ _,
      (List.forall_mem_cons.mpr ⟨piece_G ft fx hfx r.val 0 g.val _ hXs 23 (by decide) _ (k1_off95_inb g) (by rw [k1_off95_eq]; rfl) (by rw [k1_off95_eq]; rfl) _ (Memref.readAt_whole (Elt F) cc1_scratch0 ft) _ _,
      (List.forall_mem_cons.mpr ⟨piece_G ft fx hfx r.val 0 g.val _ hXs 22 (by decide) _ (k1_off94_inb g) (by rw [k1_off94_eq]; rfl) (by rw [k1_off94_eq]; rfl) _ (Memref.readAt_whole (Elt F) cc1_scratch0 ft) _ _,
      (List.forall_mem_cons.mpr ⟨piece_G ft fx hfx r.val 0 g.val _ hXs 21 (by decide) _ (k1_off93_inb g) (by rw [k1_off93_eq]; rfl) (by rw [k1_off93_eq]; rfl) _ (Memref.readAt_whole (Elt F) cc1_scratch0 ft) _ _,
      (List.forall_mem_cons.mpr ⟨piece_G ft fx hfx r.val 0 g.val _ hXs 20 (by decide) _ (k1_off92_inb g) (by rw [k1_off92_eq]; rfl) (by rw [k1_off92_eq]; rfl) _ (Memref.readAt_whole (Elt F) cc1_scratch0 ft) _ _,
      (List.forall_mem_cons.mpr ⟨piece_G ft fx hfx r.val 0 g.val _ hXs 19 (by decide) _ (k1_off91_inb g) (by rw [k1_off91_eq]; rfl) (by rw [k1_off91_eq]; rfl) _ (Memref.readAt_whole (Elt F) cc1_scratch0 ft) _ _,
      (List.forall_mem_cons.mpr ⟨piece_G ft fx hfx r.val 0 g.val _ hXs 18 (by decide) _ (k1_off90_inb g) (by rw [k1_off90_eq]; rfl) (by rw [k1_off90_eq]; rfl) _ (Memref.readAt_whole (Elt F) cc1_scratch0 ft) _ _,
      (List.forall_mem_cons.mpr ⟨piece_G ft fx hfx r.val 0 g.val _ hXs 17 (by decide) _ (k1_off89_inb g) (by rw [k1_off89_eq]; rfl) (by rw [k1_off89_eq]; rfl) _ (Memref.readAt_whole (Elt F) cc1_scratch0 ft) _ _,
      (List.forall_mem_cons.mpr ⟨piece_G ft fx hfx r.val 0 g.val _ hXs 16 (by decide) _ (k1_off88_inb g) (by rw [k1_off88_eq]; rfl) (by rw [k1_off88_eq]; rfl) _ (Memref.readAt_whole (Elt F) cc1_scratch0 ft) _ _,
      (List.forall_mem_cons.mpr ⟨piece_G ft fx hfx r.val 0 g.val _ hXs 15 (by decide) _ (k1_off87_inb g) (by rw [k1_off87_eq]; rfl) (by rw [k1_off87_eq]; rfl) _ (Memref.readAt_whole (Elt F) cc1_scratch0 ft) _ _,
      (List.forall_mem_cons.mpr ⟨piece_G ft fx hfx r.val 0 g.val _ hXs 14 (by decide) _ (k1_off86_inb g) (by rw [k1_off86_eq]; rfl) (by rw [k1_off86_eq]; rfl) _ (Memref.readAt_whole (Elt F) cc1_scratch0 ft) _ _,
      (List.forall_mem_cons.mpr ⟨piece_G ft fx hfx r.val 0 g.val _ hXs 13 (by decide) _ (k1_off85_inb g) (by rw [k1_off85_eq]; rfl) (by rw [k1_off85_eq]; rfl) _ (Memref.readAt_whole (Elt F) cc1_scratch0 ft) _ _,
      (List.forall_mem_cons.mpr ⟨piece_G ft fx hfx r.val 0 g.val _ hXs 12 (by decide) _ (k1_off84_inb g) (by rw [k1_off84_eq]; rfl) (by rw [k1_off84_eq]; rfl) _ (Memref.readAt_whole (Elt F) cc1_scratch0 ft) _ _,
      (List.forall_mem_cons.mpr ⟨piece_G ft fx hfx r.val 0 g.val _ hXs 11 (by decide) _ (k1_off83_inb g) (by rw [k1_off83_eq]; rfl) (by rw [k1_off83_eq]; rfl) _ (Memref.readAt_whole (Elt F) cc1_scratch0 ft) _ _,
      (List.forall_mem_cons.mpr ⟨piece_G ft fx hfx r.val 0 g.val _ hXs 10 (by decide) _ (k1_off82_inb g) (by rw [k1_off82_eq]; rfl) (by rw [k1_off82_eq]; rfl) _ (Memref.readAt_whole (Elt F) cc1_scratch0 ft) _ _,
      (List.forall_mem_cons.mpr ⟨piece_G ft fx hfx r.val 0 g.val _ hXs 9 (by decide) _ (k1_off81_inb g) (by rw [k1_off81_eq]; rfl) (by rw [k1_off81_eq]; rfl) _ (Memref.readAt_whole (Elt F) cc1_scratch0 ft) _ _,
      (List.forall_mem_cons.mpr ⟨piece_G ft fx hfx r.val 0 g.val _ hXs 8 (by decide) _ (k1_off80_inb g) (by rw [k1_off80_eq]; rfl) (by rw [k1_off80_eq]; rfl) _ (Memref.readAt_whole (Elt F) cc1_scratch0 ft) _ _,
      (List.forall_mem_cons.mpr ⟨piece_G ft fx hfx r.val 0 g.val _ hXs 7 (by decide) _ (k1_off79_inb g) (by rw [k1_off79_eq]; rfl) (by rw [k1_off79_eq]; rfl) _ (Memref.readAt_whole (Elt F) cc1_scratch0 ft) _ _,
      (List.forall_mem_cons.mpr ⟨piece_G ft fx hfx r.val 0 g.val _ hXs 6 (by decide) _ (k1_off78_inb g) (by rw [k1_off78_eq]; rfl) (by rw [k1_off78_eq]; rfl) _ (Memref.readAt_whole (Elt F) cc1_scratch0 ft) _ _,
      (List.forall_mem_cons.mpr ⟨piece_G ft fx hfx r.val 0 g.val _ hXs 5 (by decide) _ (k1_off77_inb g) (by rw [k1_off77_eq]; rfl) (by rw [k1_off77_eq]; rfl) _ (Memref.readAt_whole (Elt F) cc1_scratch0 ft) _ _,
      (List.forall_mem_cons.mpr ⟨piece_G ft fx hfx r.val 0 g.val _ hXs 4 (by decide) _ (k1_off76_inb g) (by rw [k1_off76_eq]; rfl) (by rw [k1_off76_eq]; rfl) _ (Memref.readAt_whole (Elt F) cc1_scratch0 ft) _ _,
      (List.forall_mem_cons.mpr ⟨piece_G ft fx hfx r.val 0 g.val _ hXs 3 (by decide) _ (k1_off75_inb g) (by rw [k1_off75_eq]; rfl) (by rw [k1_off75_eq]; rfl) _ (Memref.readAt_whole (Elt F) cc1_scratch0 ft) _ _,
      (List.forall_mem_cons.mpr ⟨piece_G ft fx hfx r.val 0 g.val _ hXs 2 (by decide) _ (k1_off74_inb g) (by rw [k1_off74_eq]; rfl) (by rw [k1_off74_eq]; rfl) _ (Memref.readAt_whole (Elt F) cc1_scratch0 ft) _ _,
      (List.forall_mem_cons.mpr ⟨piece_G ft fx hfx r.val 0 g.val _ hXs 1 (by decide) _ (k1_off73_inb g) (by rw [k1_off73_eq]; rfl) (by rw [k1_off73_eq]; rfl) _ (Memref.readAt_whole (Elt F) cc1_scratch0 ft) _ _,
      (List.forall_mem_cons.mpr ⟨piece_G ft fx hfx r.val 0 g.val _ hXs 0 (by decide) _ (k1_off72_inb g) (by rw [k1_off72_eq]; rfl) (by rw [k1_off72_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off103_inb g) g.val (by rw [k1_off103_eq]; rfl),
      (List.forall_mem_cons.mpr ⟨unit16_lb (inb := k1_off102_inb g) g.val (by rw [k1_off102_eq]; rfl),
      (List.forall_mem_cons.mpr ⟨unit16_lb (inb := k1_off101_inb g) g.val (by rw [k1_off101_eq]; rfl),
      (List.forall_mem_cons.mpr ⟨unit16_lb (inb := k1_off100_inb g) g.val (by rw [k1_off100_eq]; rfl),
      (List.forall_mem_cons.mpr ⟨unit16_lb (inb := k1_off99_inb g) g.val (by rw [k1_off99_eq]; rfl),
      (List.forall_mem_cons.mpr ⟨unit16_lb (inb := k1_off98_inb g) g.val (by rw [k1_off98_eq]; rfl),
      (List.forall_mem_cons.mpr ⟨unit16_lb (inb := k1_off97_inb g) g.val (by rw [k1_off97_eq]; rfl),
      (List.forall_mem_cons.mpr ⟨unit16_lb (inb := k1_off96_inb g) g.val (by rw [k1_off96_eq]; rfl),
      (List.forall_mem_cons.mpr ⟨unit16_lb (inb := k1_off95_inb g) g.val (by rw [k1_off95_eq]; rfl),
      (List.forall_mem_cons.mpr ⟨unit16_lb (inb := k1_off94_inb g) g.val (by rw [k1_off94_eq]; rfl),
      (List.forall_mem_cons.mpr ⟨unit16_lb (inb := k1_off93_inb g) g.val (by rw [k1_off93_eq]; rfl),
      (List.forall_mem_cons.mpr ⟨unit16_lb (inb := k1_off92_inb g) g.val (by rw [k1_off92_eq]; rfl),
      (List.forall_mem_cons.mpr ⟨unit16_lb (inb := k1_off91_inb g) g.val (by rw [k1_off91_eq]; rfl),
      (List.forall_mem_cons.mpr ⟨unit16_lb (inb := k1_off90_inb g) g.val (by rw [k1_off90_eq]; rfl),
      (List.forall_mem_cons.mpr ⟨unit16_lb (inb := k1_off89_inb g) g.val (by rw [k1_off89_eq]; rfl),
      (List.forall_mem_cons.mpr ⟨unit16_lb (inb := k1_off88_inb g) g.val (by rw [k1_off88_eq]; rfl),
      (List.forall_mem_cons.mpr ⟨unit16_lb (inb := k1_off87_inb g) g.val (by rw [k1_off87_eq]; rfl),
      (List.forall_mem_cons.mpr ⟨unit16_lb (inb := k1_off86_inb g) g.val (by rw [k1_off86_eq]; rfl),
      (List.forall_mem_cons.mpr ⟨unit16_lb (inb := k1_off85_inb g) g.val (by rw [k1_off85_eq]; rfl),
      (List.forall_mem_cons.mpr ⟨unit16_lb (inb := k1_off84_inb g) g.val (by rw [k1_off84_eq]; rfl),
      (List.forall_mem_cons.mpr ⟨unit16_lb (inb := k1_off83_inb g) g.val (by rw [k1_off83_eq]; rfl),
      (List.forall_mem_cons.mpr ⟨unit16_lb (inb := k1_off82_inb g) g.val (by rw [k1_off82_eq]; rfl),
      (List.forall_mem_cons.mpr ⟨unit16_lb (inb := k1_off81_inb g) g.val (by rw [k1_off81_eq]; rfl),
      (List.forall_mem_cons.mpr ⟨unit16_lb (inb := k1_off80_inb g) g.val (by rw [k1_off80_eq]; rfl),
      (List.forall_mem_cons.mpr ⟨unit16_lb (inb := k1_off79_inb g) g.val (by rw [k1_off79_eq]; rfl),
      (List.forall_mem_cons.mpr ⟨unit16_lb (inb := k1_off78_inb g) g.val (by rw [k1_off78_eq]; rfl),
      (List.forall_mem_cons.mpr ⟨unit16_lb (inb := k1_off77_inb g) g.val (by rw [k1_off77_eq]; rfl),
      (List.forall_mem_cons.mpr ⟨unit16_lb (inb := k1_off76_inb g) g.val (by rw [k1_off76_eq]; rfl),
      (List.forall_mem_cons.mpr ⟨unit16_lb (inb := k1_off75_inb g) g.val (by rw [k1_off75_eq]; rfl),
      (List.forall_mem_cons.mpr ⟨unit16_lb (inb := k1_off74_inb g) g.val (by rw [k1_off74_eq]; rfl),
      (List.forall_mem_cons.mpr ⟨unit16_lb (inb := k1_off73_inb g) g.val (by rw [k1_off73_eq]; rfl),
      (List.forall_mem_cons.mpr ⟨unit16_lb (inb := k1_off72_inb g) g.val (by rw [k1_off72_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off72_inb g) 0 g.val (by rw [k1_off72_eq]; rfl) (by rw [k1_off72_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off73_inb g) 1 g.val (by rw [k1_off73_eq]; rfl) (by rw [k1_off73_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off74_inb g) 2 g.val (by rw [k1_off74_eq]; rfl) (by rw [k1_off74_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off75_inb g) 3 g.val (by rw [k1_off75_eq]; rfl) (by rw [k1_off75_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off76_inb g) 4 g.val (by rw [k1_off76_eq]; rfl) (by rw [k1_off76_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off77_inb g) 5 g.val (by rw [k1_off77_eq]; rfl) (by rw [k1_off77_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off78_inb g) 6 g.val (by rw [k1_off78_eq]; rfl) (by rw [k1_off78_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off79_inb g) 7 g.val (by rw [k1_off79_eq]; rfl) (by rw [k1_off79_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off80_inb g) 8 g.val (by rw [k1_off80_eq]; rfl) (by rw [k1_off80_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off81_inb g) 9 g.val (by rw [k1_off81_eq]; rfl) (by rw [k1_off81_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off82_inb g) 10 g.val (by rw [k1_off82_eq]; rfl) (by rw [k1_off82_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off83_inb g) 11 g.val (by rw [k1_off83_eq]; rfl) (by rw [k1_off83_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off84_inb g) 12 g.val (by rw [k1_off84_eq]; rfl) (by rw [k1_off84_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off85_inb g) 13 g.val (by rw [k1_off85_eq]; rfl) (by rw [k1_off85_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off86_inb g) 14 g.val (by rw [k1_off86_eq]; rfl) (by rw [k1_off86_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off87_inb g) 15 g.val (by rw [k1_off87_eq]; rfl) (by rw [k1_off87_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off88_inb g) 16 g.val (by rw [k1_off88_eq]; rfl) (by rw [k1_off88_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off89_inb g) 17 g.val (by rw [k1_off89_eq]; rfl) (by rw [k1_off89_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off90_inb g) 18 g.val (by rw [k1_off90_eq]; rfl) (by rw [k1_off90_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off91_inb g) 19 g.val (by rw [k1_off91_eq]; rfl) (by rw [k1_off91_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off92_inb g) 20 g.val (by rw [k1_off92_eq]; rfl) (by rw [k1_off92_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off93_inb g) 21 g.val (by rw [k1_off93_eq]; rfl) (by rw [k1_off93_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off94_inb g) 22 g.val (by rw [k1_off94_eq]; rfl) (by rw [k1_off94_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off95_inb g) 23 g.val (by rw [k1_off95_eq]; rfl) (by rw [k1_off95_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off96_inb g) 24 g.val (by rw [k1_off96_eq]; rfl) (by rw [k1_off96_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off97_inb g) 25 g.val (by rw [k1_off97_eq]; rfl) (by rw [k1_off97_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off98_inb g) 26 g.val (by rw [k1_off98_eq]; rfl) (by rw [k1_off98_eq]; rfl) y h hy1 hy2⟩
      · exact ⟨_, List.mem_cons_of_mem _ (List.mem_cons_of_mem _ (List.mem_cons_of_mem _ (List.mem_cons_of_mem _ (List.mem_cons_self)))), unit16_mem (inb := k1_off99_inb g) 27 g.val (by rw [k1_off99_eq]; rfl) (by rw [k1_off99_eq]; rfl) y h hy1 hy2⟩
      · exact ⟨_, List.mem_cons_of_mem _ (List.mem_cons_of_mem _ (List.mem_cons_of_mem _ (List.mem_cons_self))), unit16_mem (inb := k1_off100_inb g) 28 g.val (by rw [k1_off100_eq]; rfl) (by rw [k1_off100_eq]; rfl) y h hy1 hy2⟩
      · exact ⟨_, List.mem_cons_of_mem _ (List.mem_cons_of_mem _ (List.mem_cons_self)), unit16_mem (inb := k1_off101_inb g) 29 g.val (by rw [k1_off101_eq]; rfl) (by rw [k1_off101_eq]; rfl) y h hy1 hy2⟩
      · exact ⟨_, List.mem_cons_of_mem _ (List.mem_cons_self), unit16_mem (inb := k1_off102_inb g) 30 g.val (by rw [k1_off102_eq]; rfl) (by rw [k1_off102_eq]; rfl) y h hy1 hy2⟩
      · exact ⟨_, List.mem_cons_self, unit16_mem (inb := k1_off103_inb g) 31 g.val (by rw [k1_off103_eq]; rfl) (by rw [k1_off103_eq]; rfl) y h hy1 hy2⟩

/-- What a trip of the group loop t6 keeps: the flattened table and the staged index block unchanged, the output
    chunk at contents that hold the closed form on the columns of the groups done so far. -/
def invV_t6 (d : Dev nD) (L : grid1.Coords) (r : Nat) (ft : Buf (Elt F) ((tvW).view.loc (thrV d L))) (fx : Buf (Elt F) ((xs1W).view.loc (thrV d L)))
    (g : Nat) (_ : BitVec 32) : sProp 𝕄 :=
  iprop(((tvW).view.loc (thrV d L) ↦{fullShare} ft) ∗ ((xs1W).view.loc (thrV d L) ↦{fullShare} fx)
    ∗ ∃ fo, ⌜OcVal ft fx r 256 g fo⌝ ∗ (oc1W).view.loc (thrV d L) ↦{fullShare} fo)

set_option maxRecDepth 65536 in
/-- One trip of t6: the thirty-two gathered vectors stored into the chunk are the closed form on the group's sixteen
    columns, and the columns of the earlier groups are not touched. -/
theorem tripV_t6 (d : Dev nD) (L : grid1.Coords) (r : Fin k1_t4_loop.trips) (arg14 : BitVec 32)
    (ft : Buf (Elt F) ((tvW).view.loc (thrV d L))) (fx : Buf (Elt F) ((xs1W).view.loc (thrV d L))) (hfx : XsOK fx)
    (g : Fin k1_t6_loop.trips) (acc : BitVec 32) :
    invV_t6 d L r.val ft fx g acc
      ⊢ wp frame (wpE (defs₀ (F := F)) 𝒱₀ (thrV d L) none) Set.univ
          (k1_t6_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (invV_t6 d L r.val ft fx (g.val + 1)) := by
  unfold k1_t6_body
  simp only [k1_part22_eq_skeleton, k1_part23_eq_skeleton, k1_part24_eq_skeleton]
  unfold k1_part22_skel k1_part23_skel k1_part24_skel
  simp only [SparseCore.vectorLoadIdx_bind (c := thrV d L)]
  unfold invV_t6
  iintro ⟨Ht, Hx, %fo, %hfo, Ho⟩
  sl_exec (disch := exact chk_addi _ _ (fun _ => ldrow1_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay100 (View.readAt (Elt F) (xs1W).view
        (Rect.unit (s := S40x512) (k1_off105 r g) S1x16.size (k1_off105_inb r g)).toLoadRect fx) (ix1 l)
          = fx (ix2 (⟨r.val % 40, Nat.mod_lt _ (by decide)⟩ : Fin 40) (⟨(256 + 16 * g.val + l.val) % 512, Nat.mod_lt _ (by decide)⟩ : Fin 512)) :=
      fun l => by
        refine Eq.trans (cast16_apply (View.readAt (Elt F) (xs1W).view
          (Rect.unit (s := S40x512) (k1_off105 r g) S1x16.size (k1_off105_inb r g)).toLoadRect fx) shapeCasts_S1x16_S16 l) ?_
        exact congrArg fx (loadRow_idx r.val 256 g.val hr (by omega) (k1_off105 r g) (k1_off105_inb r g)
          (by rw [k1_off105_eq]; rfl) (by rw [k1_off105_eq]; show 16 * g.val + 256 = 256 + 16 * g.val; omega) l)
    refine ocVal_step_oc1 d L ft fx r.val 256 g.val fo _ ?hG ?hset ?hcov hfo
    case hG =>
      exact (List.forall_mem_cons.mpr ⟨piece_G ft fx hfx r.val 256 g.val _ hXs 31 (by decide) _ (k1_off137_inb g) (by rw [k1_off137_eq]; rfl) (by rw [k1_off137_eq]; rfl) _ (Memref.readAt_whole (Elt F) cc1_scratch0 ft) _ _,
      (List.forall_mem_cons.mpr ⟨piece_G ft fx hfx r.val 256 g.val _ hXs 30 (by decide) _ (k1_off136_inb g) (by rw [k1_off136_eq]; rfl) (by rw [k1_off136_eq]; rfl) _ (Memref.readAt_whole (Elt F) cc1_scratch0 ft) _ _,
      (List.forall_mem_cons.mpr ⟨piece_G ft fx hfx r.val 256 g.val _ hXs 29 (by decide) _ (k1_off135_inb g) (by rw [k1_off135_eq]; rfl) (by rw [k1_off135_eq]; rfl) _ (Memref.readAt_whole (Elt F) cc1_scratch0 ft) _ _,
      (List.forall_mem_cons.mpr ⟨piece_G ft fx hfx r.val 256 g.val _ hXs 28 (by decide) _ (k1_off134_inb g) (by rw [k1_off134_eq]; rfl) (by rw [k1_off134_eq]; rfl) _ (Memref.readAt_whole (Elt F) cc1_scratch0 ft) _ _,
      (List.forall_mem_cons.mpr ⟨piece_G ft fx hfx r.val 256 g.val _ hXs 27 (by decide) _ (k1_off133_inb g) (by rw [k1_off133_eq]; rfl) (by rw [k1_off133_eq]; rfl) _ (Memref.readAt_whole (Elt F) cc1_scratch0 ft) _ _,
      (List.forall_mem_cons.mpr ⟨piece_G ft fx hfx r.val 256 g.val _ hXs 26 (by decide) _ (k1_off132_inb g) (by rw [k1_off132_eq]; rfl) (by rw [k1_off132_eq]; rfl) _ (Memref.readAt_whole (Elt F) cc1_scratch0 ft) _ _,
      (List.forall_mem_cons.mpr ⟨piece_G ft fx hfx r.val 256 g.val _ hXs 25 (by decide) _ (k1_off131_inb g) (by rw [k1_off131_eq]; rfl) (by rw [k1_off131_eq]; rfl) _ (Memref.readAt_whole (Elt F) cc1_scratch0 ft) _ _,
      (List.forall_mem_cons.mpr ⟨piece_G ft fx hfx r.val 256 g.val _ hXs 24 (by decide) _ (k1_off130_inb g) (by rw [k1_off130_eq]; rfl) (by rw [k1_off130_eq]; rfl) _ (Memref.readAt_whole (Elt F) cc1_scratch0 ft) _ _,
      (List.forall_mem_cons.mpr ⟨piece_G ft fx hfx r.val 256 g.val _ hXs 23 (by decide) _ (k1_off129_inb g) (by rw [k1_off129_eq]; rfl) (by rw [k1_off129_eq]; rfl) _ (Memref.readAt_whole (Elt F) cc1_scratch0 ft) _ _,
      (List.forall_mem_cons.mpr ⟨piece_G ft fx hfx r.val 256 g.val _ hXs 22 (by decide) _ (k1_off128_inb g) (by rw [k1_off128_eq]; rfl) (by rw [k1_off128_eq]; rfl) _ (Memref.readAt_whole (Elt F) cc1_scratch0 ft) _ _,
      (List.forall_mem_cons.mpr ⟨piece_G ft fx hfx r.val 256 g.val _ hXs 21 (by decide) _ (k1_off127_inb g) (by rw [k1_off127_eq]; rfl) (by rw [k1_off127_eq]; rfl) _ (Memref.readAt_whole (Elt F) cc1_scratch0 ft) _ _,
      (List.forall_mem_cons.mpr ⟨piece_G ft fx hfx r.val 256 g.val _ hXs 20 (by decide) _ (k1_off126_inb g) (by rw [k1_off126_eq]; rfl) (by rw [k1_off126_eq]; rfl) _ (Memref.readAt_whole (Elt F) cc1_scratch0 ft) _ _,
      (List.forall_mem_cons.mpr ⟨piece_G ft fx hfx r.val 256 g.val _ hXs 19 (by decide) _ (k1_off125_inb g) (by rw [k1_off125_eq]; rfl) (by rw [k1_off125_eq]; rfl) _ (Memref.readAt_whole (Elt F) cc1_scratch0 ft) _ _,
      (List.forall_mem_cons.mpr ⟨piece_G ft fx hfx r.val 256 g.val _ hXs 18 (by decide) _ (k1_off124_inb g) (by rw [k1_off124_eq]; rfl) (by rw [k1_off124_eq]; rfl) _ (Memref.readAt_whole (Elt F) cc1_scratch0 ft) _ _,
      (List.forall_mem_cons.mpr ⟨piece_G ft fx hfx r.val 256 g.val _ hXs 17 (by decide) _ (k1_off123_inb g) (by rw [k1_off123_eq]; rfl) (by rw [k1_off123_eq]; rfl) _ (Memref.readAt_whole (Elt F) cc1_scratch0 ft) _ _,
      (List.forall_mem_cons.mpr ⟨piece_G ft fx hfx r.val 256 g.val _ hXs 16 (by decide) _ (k1_off122_inb g) (by rw [k1_off122_eq]; rfl) (by rw [k1_off122_eq]; rfl) _ (Memref.readAt_whole (Elt F) cc1_scratch0 ft) _ _,
      (List.forall_mem_cons.mpr ⟨piece_G ft fx hfx r.val 256 g.val _ hXs 15 (by decide) _ (k1_off121_inb g) (by rw [k1_off121_eq]; rfl) (by rw [k1_off121_eq]; rfl) _ (Memref.readAt_whole (Elt F) cc1_scratch0 ft) _ _,
      (List.forall_mem_cons.mpr ⟨piece_G ft fx hfx r.val 256 g.val _ hXs 14 (by decide) _ (k1_off120_inb g) (by rw [k1_off120_eq]; rfl) (by rw [k1_off120_eq]; rfl) _ (Memref.readAt_whole (Elt F) cc1_scratch0 ft) _ _,
      (List.forall_mem_cons.mpr ⟨piece_G ft fx hfx r.val 256 g.val _ hXs 13 (by decide) _ (k1_off119_inb g) (by rw [k1_off119_eq]; rfl) (by rw [k1_off119_eq]; rfl) _ (Memref.readAt_whole (Elt F) cc1_scratch0 ft) _ _,
      (List.forall_mem_cons.mpr ⟨piece_G ft fx hfx r.val 256 g.val _ hXs 12 (by decide) _ (k1_off118_inb g) (by rw [k1_off118_eq]; rfl) (by rw [k1_off118_eq]; rfl) _ (Memref.readAt_whole (Elt F) cc1_scratch0 ft) _ _,
      (List.forall_mem_cons.mpr ⟨piece_G ft fx hfx r.val 256 g.val _ hXs 11 (by decide) _ (k1_off117_inb g) (by rw [k1_off117_eq]; rfl) (by rw [k1_off117_eq]; rfl) _ (Memref.readAt_whole (Elt F) cc1_scratch0 ft) _ _,
      (List.forall_mem_cons.mpr ⟨piece_G ft fx hfx r.val 256 g.val _ hXs 10 (by decide) _ (k1_off116_inb g) (by rw [k1_off116_eq]; rfl) (by rw [k1_off116_eq]; rfl) _ (Memref.readAt_whole (Elt F) cc1_scratch0 ft) _ _,
      (List.forall_mem_cons.mpr ⟨piece_G ft fx hfx r.val 256 g.val _ hXs 9 (by decide) _ (k1_off115_inb g) (by rw [k1_off115_eq]; rfl) (by rw [k1_off115_eq]; rfl) _ (Memref.readAt_whole (Elt F) cc1_scratch0 ft) _ _,
      (List.forall_mem_cons.mpr ⟨piece_G ft fx hfx r.val 256 g.val _ hXs 8 (by decide) _ (k1_off114_inb g) (by rw [k1_off114_eq]; rfl) (by rw [k1_off114_eq]; rfl) _ (Memref.readAt_whole (Elt F) cc1_scratch0 ft) _ _,
      (List.forall_mem_cons.mpr ⟨piece_G ft fx hfx r.val 256 g.val _ hXs 7 (by decide) _ (k1_off113_inb g) (by rw [k1_off113_eq]; rfl) (by rw [k1_off113_eq]; rfl) _ (Memref.readAt_whole (Elt F) cc1_scratch0 ft) _ _,
      (List.forall_mem_cons.mpr ⟨piece_G ft fx hfx r.val 256 g.val _ hXs 6 (by decide) _ (k1_off112_inb g) (by rw [k1_off112_eq]; rfl) (by rw [k1_off112_eq]; rfl) _ (Memref.readAt_whole (Elt F) cc1_scratch0 ft) _ _,
      (List.forall_mem_cons.mpr ⟨piece_G ft fx hfx r.val 256 g.val _ hXs 5 (by decide) _ (k1_off111_inb g) (by rw [k1_off111_eq]; rfl) (by rw [k1_off111_eq]; rfl) _ (Memref.readAt_whole (Elt F) cc1_scratch0 ft) _ _,
      (List.forall_mem_cons.mpr ⟨piece_G ft fx hfx r.val 256 g.val _ hXs 4 (by decide) _ (k1_off110_inb g) (by rw [k1_off110_eq]; rfl) (by rw [k1_off110_eq]; rfl) _ (Memref.readAt_whole (Elt F) cc1_scratch0 ft) _ _,
      (List.forall_mem_cons.mpr ⟨piece_G ft fx hfx r.val 256 g.val _ hXs 3 (by decide) _ (k1_off109_inb g) (by rw [k1_off109_eq]; rfl) (by rw [k1_off109_eq]; rfl) _ (Memref.readAt_whole (Elt F) cc1_scratch0 ft) _ _,
      (List.forall_mem_cons.mpr ⟨piece_G ft fx hfx r.val 256 g.val _ hXs 2 (by decide) _ (k1_off108_inb g) (by rw [k1_off108_eq]; rfl) (by rw [k1_off108_eq]; rfl) _ (Memref.readAt_whole (Elt F) cc1_scratch0 ft) _ _,
      (List.forall_mem_cons.mpr ⟨piece_G ft fx hfx r.val 256 g.val _ hXs 1 (by decide) _ (k1_off107_inb g) (by rw [k1_off107_eq]; rfl) (by rw [k1_off107_eq]; rfl) _ (Memref.readAt_whole (Elt F) cc1_scratch0 ft) _ _,
      (List.forall_mem_cons.mpr ⟨piece_G ft fx hfx r.val 256 g.val _ hXs 0 (by decide) _ (k1_off106_inb g) (by rw [k1_off106_eq]; rfl) (by rw [k1_off106_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off137_inb g) g.val (by rw [k1_off137_eq]; rfl),
      (List.forall_mem_cons.mpr ⟨unit16_lb (inb := k1_off136_inb g) g.val (by rw [k1_off136_eq]; rfl),
      (List.forall_mem_cons.mpr ⟨unit16_lb (inb := k1_off135_inb g) g.val (by rw [k1_off135_eq]; rfl),
      (List.forall_mem_cons.mpr ⟨unit16_lb (inb := k1_off134_inb g) g.val (by rw [k1_off134_eq]; rfl),
      (List.forall_mem_cons.mpr ⟨unit16_lb (inb := k1_off133_inb g) g.val (by rw [k1_off133_eq]; rfl),
      (List.forall_mem_cons.mpr ⟨unit16_lb (inb := k1_off132_inb g) g.val (by rw [k1_off132_eq]; rfl),
      (List.forall_mem_cons.mpr ⟨unit16_lb (inb := k1_off131_inb g) g.val (by rw [k1_off131_eq]; rfl),
      (List.forall_mem_cons.mpr ⟨unit16_lb (inb := k1_off130_inb g) g.val (by rw [k1_off130_eq]; rfl),
      (List.forall_mem_cons.mpr ⟨unit16_lb (inb := k1_off129_inb g) g.val (by rw [k1_off129_eq]; rfl),
      (List.forall_mem_cons.mpr ⟨unit16_lb (inb := k1_off128_inb g) g.val (by rw [k1_off128_eq]; rfl),
      (List.forall_mem_cons.mpr ⟨unit16_lb (inb := k1_off127_inb g) g.val (by rw [k1_off127_eq]; rfl),
      (List.forall_mem_cons.mpr ⟨unit16_lb (inb := k1_off126_inb g) g.val (by rw [k1_off126_eq]; rfl),
      (List.forall_mem_cons.mpr ⟨unit16_lb (inb := k1_off125_inb g) g.val (by rw [k1_off125_eq]; rfl),
      (List.forall_mem_cons.mpr ⟨unit16_lb (inb := k1_off124_inb g) g.val (by rw [k1_off124_eq]; rfl),
      (List.forall_mem_cons.mpr ⟨unit16_lb (inb := k1_off123_inb g) g.val (by rw [k1_off123_eq]; rfl),
      (List.forall_mem_cons.mpr ⟨unit16_lb (inb := k1_off122_inb g) g.val (by rw [k1_off122_eq]; rfl),
      (List.forall_mem_cons.mpr ⟨unit16_lb (inb := k1_off121_inb g) g.val (by rw [k1_off121_eq]; rfl),
      (List.forall_mem_cons.mpr ⟨unit16_lb (inb := k1_off120_inb g) g.val (by rw [k1_off120_eq]; rfl),
      (List.forall_mem_cons.mpr ⟨unit16_lb (inb := k1_off119_inb g) g.val (by rw [k1_off119_eq]; rfl),
      (List.forall_mem_cons.mpr ⟨unit16_lb (inb := k1_off118_inb g) g.val (by rw [k1_off118_eq]; rfl),
      (List.forall_mem_cons.mpr ⟨unit16_lb (inb := k1_off117_inb g) g.val (by rw [k1_off117_eq]; rfl),
      (List.forall_mem_cons.mpr ⟨unit16_lb (inb := k1_off116_inb g) g.val (by rw [k1_off116_eq]; rfl),
      (List.forall_mem_cons.mpr ⟨unit16_lb (inb := k1_off115_inb g) g.val (by rw [k1_off115_eq]; rfl),
      (List.forall_mem_cons.mpr ⟨unit16_lb (inb := k1_off114_inb g) g.val (by rw [k1_off114_eq]; rfl),
      (List.forall_mem_cons.mpr ⟨unit16_lb (inb := k1_off113_inb g) g.val (by rw [k1_off113_eq]; rfl),
      (List.forall_mem_cons.mpr ⟨unit16_lb (inb := k1_off112_inb g) g.val (by rw [k1_off112_eq]; rfl),
      (List.forall_mem_cons.mpr ⟨unit16_lb (inb := k1_off111_inb g) g.val (by rw [k1_off111_eq]; rfl),
      (List.forall_mem_cons.mpr ⟨unit16_lb (inb := k1_off110_inb g) g.val (by rw [k1_off110_eq]; rfl),
      (List.forall_mem_cons.mpr ⟨unit16_lb (inb := k1_off109_inb g) g.val (by rw [k1_off109_eq]; rfl),
      (List.forall_mem_cons.mpr ⟨unit16_lb (inb := k1_off108_inb g) g.val (by rw [k1_off108_eq]; rfl),
      (List.forall_mem_cons.mpr ⟨unit16_lb (inb := k1_off107_inb g) g.val (by rw [k1_off107_eq]; rfl),
      (List.forall_mem_cons.mpr ⟨unit16_lb (inb := k1_off106_inb g) g.val (by rw [k1_off106_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off106_inb g) 0 g.val (by rw [k1_off106_eq]; rfl) (by rw [k1_off106_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off107_inb g) 1 g.val (by rw [k1_off107_eq]; rfl) (by rw [k1_off107_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off108_inb g) 2 g.val (by rw [k1_off108_eq]; rfl) (by rw [k1_off108_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off109_inb g) 3 g.val (by rw [k1_off109_eq]; rfl) (by rw [k1_off109_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off110_inb g) 4 g.val (by rw [k1_off110_eq]; rfl) (by rw [k1_off110_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off111_inb g) 5 g.val (by rw [k1_off111_eq]; rfl) (by rw [k1_off111_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off112_inb g) 6 g.val (by rw [k1_off112_eq]; rfl) (by rw [k1_off112_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off113_inb g) 7 g.val (by rw [k1_off113_eq]; rfl) (by rw [k1_off113_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off114_inb g) 8 g.val (by rw [k1_off114_eq]; rfl) (by rw [k1_off114_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off115_inb g) 9 g.val (by rw [k1_off115_eq]; rfl) (by rw [k1_off115_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off116_inb g) 10 g.val (by rw [k1_off116_eq]; rfl) (by rw [k1_off116_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off117_inb g) 11 g.val (by rw [k1_off117_eq]; rfl) (by rw [k1_off117_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off118_inb g) 12 g.val (by rw [k1_off118_eq]; rfl) (by rw [k1_off118_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off119_inb g) 13 g.val (by rw [k1_off119_eq]; rfl) (by rw [k1_off119_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off120_inb g) 14 g.val (by rw [k1_off120_eq]; rfl) (by rw [k1_off120_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off121_inb g) 15 g.val (by rw [k1_off121_eq]; rfl) (by rw [k1_off121_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off122_inb g) 16 g.val (by rw [k1_off122_eq]; rfl) (by rw [k1_off122_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off123_inb g) 17 g.val (by rw [k1_off123_eq]; rfl) (by rw [k1_off123_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off124_inb g) 18 g.val (by rw [k1_off124_eq]; rfl) (by rw [k1_off124_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off125_inb g) 19 g.val (by rw [k1_off125_eq]; rfl) (by rw [k1_off125_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off126_inb g) 20 g.val (by rw [k1_off126_eq]; rfl) (by rw [k1_off126_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off127_inb g) 21 g.val (by rw [k1_off127_eq]; rfl) (by rw [k1_off127_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off128_inb g) 22 g.val (by rw [k1_off128_eq]; rfl) (by rw [k1_off128_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off129_inb g) 23 g.val (by rw [k1_off129_eq]; rfl) (by rw [k1_off129_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off130_inb g) 24 g.val (by rw [k1_off130_eq]; rfl) (by rw [k1_off130_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off131_inb g) 25 g.val (by rw [k1_off131_eq]; rfl) (by rw [k1_off131_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off132_inb g) 26 g.val (by rw [k1_off132_eq]; rfl) (by rw [k1_off132_eq]; rfl) y h hy1 hy2⟩
      · exact ⟨_, List.mem_cons_of_mem _ (List.mem_cons_of_mem _ (List.mem_cons_of_mem _ (List.mem_cons_of_mem _ (List.mem_cons_self)))), unit16_mem (inb := k1_off133_inb g) 27 g.val (by rw [k1_off133_eq]; rfl) (by rw [k1_off133_eq]; rfl) y h hy1 hy2⟩
      · exact ⟨_, List.mem_cons_of_mem _ (List.mem_cons_of_mem _ (List.mem_cons_of_mem _ (List.mem_cons_self))), unit16_mem (inb := k1_off134_inb g) 28 g.val (by rw [k1_off134_eq]; rfl) (by rw [k1_off134_eq]; rfl) y h hy1 hy2⟩
      · exact ⟨_, List.mem_cons_of_mem _ (List.mem_cons_of_mem _ (List.mem_cons_self)), unit16_mem (inb := k1_off135_inb g) 29 g.val (by rw [k1_off135_eq]; rfl) (by rw [k1_off135_eq]; rfl) y h hy1 hy2⟩
      · exact ⟨_, List.mem_cons_of_mem _ (List.mem_cons_self), unit16_mem (inb := k1_off136_inb g) 30 g.val (by rw [k1_off136_eq]; rfl) (by rw [k1_off136_eq]; rfl) y h hy1 hy2⟩
      · exact ⟨_, List.mem_cons_self, unit16_mem (inb := k1_off137_inb g) 31 g.val (by rw [k1_off137_eq]; rfl) (by rw [k1_off137_eq]; rfl) y h hy1 hy2⟩

end Cert.Proof.KI

end
-- ==== Proof.KI.Row1V.lean ====
/-
  The row loop of stage 1 with values: rows 40 to 79 of out_t.
-/
import proofs.«203934_g28930899706482_cont_9to1_1937_23_alg».proof.Proof.KI.RowCommonV
import proofs.«203934_g28930899706482_cont_9to1_1937_23_alg».proof.Proof.KI.Row1
import proofs.«203934_g28930899706482_cont_9to1_1937_23_alg».proof.Proof.KI.GroupV1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- Between two trips of the row loop of stage 1, before row n = r + 40 of out_t: each chunk's copy of row n - 1 in
    flight and bound to leave its piece at G, the pieces of the rows before at G, those of the rows from n on at
    some contents. -/
def rowInvV1 (d : Dev nD) (L : grid1.Coords) (G : Buf (Elt F) (oLoc d)) (ft : Buf (Elt F) ((tvW).view.loc (thrV d L))) (fx : Buf (Elt F) ((xs1W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs1W).view.loc (thrV d L) ↦{fullShare} fx)
    ∗ OutFlightAtV0 d L G (r + 40 - 1) ∗ OutFlightAtV1 d L G (r + 40 - 1)
    ∗ PiecesKV d L G 0 (r + 40) ∗ PiecesKV d L G 1 (r + 40)
    ∗ ∃ W', ⌜∀ p ∈ W', p ∈ W ∨ p.2 = none⌝ ∗ owes (thrV d L) O W')

set_option maxRecDepth 65536 in
/-- Row r of stage 1, with values: the chunks filled from the staged indices and the table hold G's values of the
    two pieces of row n, so the copies started here will leave those pieces at G. -/
theorem rowV_t4 (d : Dev nD) (L : grid1.Coords) (G : Buf (Elt F) (oLoc d)) (ft : Buf (Elt F) ((tvW).view.loc (thrV d L))) (fx : Buf (Elt F) ((xs1W).view.loc (thrV d L))) (hfx : XsOK fx)
    (hrows : RowsOK L G ft fx 40)
    (O : CellTallies nD τ sig (HIx 1)) (W : Waits sig (HIx 1)) (r : Fin k1_t4_loop.trips) (acc : BitVec 32) :
    rowInvV1 d L G ft fx O W r acc
      ⊢ wp frame (wpE (defs₀ (F := F)) 𝒱₀ (thrV d L) none) Set.univ
          (k1_t4_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r acc)
          (rowInvV1 d L G ft fx O W (r.val + 1)) := by
  have hr : r.val < 40 := lt_of_lt_of_le r.isLt k1_t4_abs.2.1
  have hoff0 : k1_off104 L r 0#32 = ![r.val + 40, 0, col0 L + 256 * (0 : Fin 2).val] := by
    have h := k1_off104_eq L r 0; simpa [col0] using h
  have hoff1 : k1_off104 L r 256#32 = ![r.val + 40, 0, col0 L + 256 * (1 : Fin 2).val] := by
    have h := k1_off104_eq L r 1; simpa [col0] using h
  unfold k1_t4_body rowInvV1 OutFlightAtV0 OutFlightAtV1
  rw [show r.val + 1 + 40 = r.val + 40 + 1 by omega, Nat.add_sub_cancel]
  iintro ⟨#Hmw, Ht, Hx, ⟨%q0, %fo0, %hq0, %pp0, HF0⟩, ⟨%q1, %fo1, %hq1, %pp1, HF1⟩, HP0, HP1, %W', %hW', HO⟩
  sl_exec
  -- chunk 0: its copy of row n - 1 has landed, at G; the piece of row n leaves the slot's pieces
  ihave Hl0 := (hq0 _) $$ HF0_dst
  ihave Hmid0 := (Entails.of_eq (midV_landed (F := F) d L G 0 (r.val + 40) (by omega) (by omega)).symm) $$ [Hl0 HP0]
  · isplitl [Hl0]; · iexact Hl0
    iexact HP0
  ihave Hsp0 := (Entails.of_eq (midV_next (F := F) d L G 0 (r.val + 40) (by omega))) $$ Hmid0
  icases Hsp0 with ⟨Hp0, HP0⟩
  ihave Hp0' := (take_pieceM (F := F) d L (r.val + 40) (by omega) 0 (k1_off104 L r 0#32) (k1_off104_inb L r 0) hoff0) $$ Hp0
  icases Hp0' with ⟨%p0, Hp0⟩
  ihave Ho0 := (Entails.of_eq (pts_oc0 (F := F) d L _)) $$ HF0_src
  sl_for (invV_t5 d L r.val ft fx) $$ [Ht Hx Ho0]
  case region => intro k acc; exact tripV_t5 d L r _ ft fx hfx k acc
  · unfold invV_t5
    isplitl [Ht]; · iexact Ht
    isplitl [Hx]; · iexact Hx
    iexists fo0; isplitr
    · ipureintro; exact ocVal_zero _ _ _ _ _
    · iexact Ho0
  iintro %a0 HI
  unfold invV_t5
  icases HI with ⟨Ht, Hx, %fo0', %hfo0', Ho0⟩
  sl_exec
  -- chunk 1: its copy of row n - 1 has landed, at G; the piece of row n leaves the slot's pieces
  ihave Hl1 := (hq1 _) $$ HF1_dst
  ihave Hmid1 := (Entails.of_eq (midV_landed (F := F) d L G 1 (r.val + 40) (by omega) (by omega)).symm) $$ [Hl1 HP1]
  · isplitl [Hl1]; · iexact Hl1
    iexact HP1
  ihave Hsp1 := (Entails.of_eq (midV_next (F := F) d L G 1 (r.val + 40) (by omega))) $$ Hmid1
  icases Hsp1 with ⟨Hp1, HP1⟩
  ihave Hp1' := (take_pieceM (F := F) d L (r.val + 40) (by omega) 1 (k1_off104 L r 256#32) (k1_off104_inb L r 1) hoff1) $$ Hp1
  icases Hp1' with ⟨%p1, Hp1⟩
  ihave Ho1 := (Entails.of_eq (pts_oc1 (F := F) d L _)) $$ HF1_src
  sl_for (invV_t6 d L r.val ft fx) $$ [Ht Hx Ho1]
  case region => intro k acc; exact tripV_t6 d L r _ ft fx hfx k acc
  · unfold invV_t6
    isplitl [Ht]; · iexact Ht
    isplitl [Hx]; · iexact Hx
    iexists fo1; isplitr
    · ipureintro; exact ocVal_zero _ _ _ _ _
    · iexact Ho1
  iintro %a1 HI
  unfold invV_t6
  icases HI with ⟨Ht, Hx, %fo1', %hfo1', Ho1⟩
  sl_exec
  sl_step
  isplitr; · iexact Hmw
  isplitl [Ht]; · iexact Ht
  isplitl [Hx]; · iexact Hx
  isplitl [HF0]
  · iexists (pieceM (k1_off104 L r 0#32) (k1_off104_inb L r 0)), fo0'; isplitr
    · ipureintro; intro p
      exact land_pieceV d L G (r.val + 40) (by omega) 0 _ _ hoff0 _
        (chunk_is_G L G ft fx 40 hrows r.val hr 0 fo0' hfo0' (r.val + 40) (by omega) rfl) p
    · iexists p0; iexact HF0
  isplitl [HF1]
  · iexists (pieceM (k1_off104 L r 256#32) (k1_off104_inb L r 1)), fo1'; isplitr
    · ipureintro; intro p
      exact land_pieceV d L G (r.val + 40) (by omega) 1 _ _ hoff1 _
        (chunk_is_G L G ft fx 40 hrows r.val hr 1 fo1' hfo1' (r.val + 40) (by omega) rfl) p
    · iexists p1; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.GroupV2.lean ====
/-
  The group loops of stage 2 with values: a trip keeps, beside the table and the staged index block, that the output
  chunk holds the closed form — the flattened table at index word plus 1000 c — on the columns of the groups done.
-/
import proofs.«203934_g28930899706482_cont_9to1_1937_23_alg».proof.Proof.KI.Group2
import proofs.«203934_g28930899706482_cont_9to1_1937_23_alg».proof.Proof.KI.OcVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- What a trip of the group loop t8 keeps: the flattened table and the staged index block unchanged, the output
    chunk at contents that hold the closed form on the columns of the groups done so far. -/
def invV_t8 (d : Dev nD) (L : grid1.Coords) (r : Nat) (ft : Buf (Elt F) ((tvW).view.loc (thrV d L))) (fx : Buf (Elt F) ((xs0W).view.loc (thrV d L)))
    (g : Nat) (_ : BitVec 32) : sProp 𝕄 :=
  iprop(((tvW).view.loc (thrV d L) ↦{fullShare} ft) ∗ ((xs0W).view.loc (thrV d L) ↦{fullShare} fx)
    ∗ ∃ fo, ⌜OcVal ft fx r 0 g fo⌝ ∗ (oc0W).view.loc (thrV d L) ↦{fullShare} fo)

set_option maxRecDepth 65536 in
/-- One trip of t8: the thirty-two gathered vectors stored into the chunk are the closed form on the group's sixteen
    columns, and the columns of the earlier groups are not touched. -/
theorem tripV_t8 (d : Dev nD) (L : grid1.Coords) (v2 : BitVec 32) (r : Fin k1_t7_loop.trips) (arg14 : BitVec 32)
    (ft : Buf (Elt F) ((tvW).view.loc (thrV d L))) (fx : Buf (Elt F) ((xs0W).view.loc (thrV d L))) (hfx : XsOK fx)
    (g : Fin k1_t8_loop.trips) (acc : BitVec 32) :
    invV_t8 d L r.val ft fx g acc
      ⊢ wp frame (wpE (defs₀ (F := F)) 𝒱₀ (thrV d L) none) Set.univ
          (k1_t8_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (invV_t8 d L r.val ft fx (g.val + 1)) := by
  unfold k1_t8_body
  simp only [k1_part29_eq_skeleton, k1_part30_eq_skeleton, k1_part31_eq_skeleton]
  unfold k1_part29_skel k1_part30_skel k1_part31_skel
  simp only [SparseCore.vectorLoadIdx_bind (c := thrV d L)]
  unfold invV_t8
  iintro ⟨Ht, Hx, %fo, %hfo, Ho⟩
  sl_exec (disch := exact chk_addi _ _ (fun _ => ldrow0_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay133 (View.readAt (Elt F) (xs0W).view
        (Rect.unit (s := S40x512) (k1_off139 r g) S1x16.size (k1_off139_inb r g)).toLoadRect fx) (ix1 l)
          = fx (ix2 (⟨r.val % 40, Nat.mod_lt _ (by decide)⟩ : Fin 40) (⟨(0 + 16 * g.val + l.val) % 512, Nat.mod_lt _ (by decide)⟩ : Fin 512)) :=
      fun l => by
        refine Eq.trans (cast16_apply (View.readAt (Elt F) (xs0W).view
          (Rect.unit (s := S40x512) (k1_off139 r g) S1x16.size (k1_off139_inb r g)).toLoadRect fx) shapeCasts_S1x16_S16 l) ?_
        exact congrArg fx (loadRow_idx r.val 0 g.val hr (by omega) (k1_off139 r g) (k1_off139_inb r g)
          (by rw [k1_off139_eq]; rfl) (by rw [k1_off139_eq]; show 16 * g.val = 0 + 16 * g.val; omega) l)
    refine ocVal_step_oc0 d L ft fx r.val 0 g.val fo _ ?hG ?hset ?hcov hfo
    case hG =>
      exact (List.forall_mem_cons.mpr ⟨piece_G ft fx hfx r.val 0 g.val _ hXs 31 (by decide) _ (k1_off171_inb g) (by rw [k1_off171_eq]; rfl) (by rw [k1_off171_eq]; rfl) _ (Memref.readAt_whole (Elt F) cc1_scratch0 ft) _ _,
      (List.forall_mem_cons.mpr ⟨piece_G ft fx hfx r.val 0 g.val _ hXs 30 (by decide) _ (k1_off170_inb g) (by rw [k1_off170_eq]; rfl) (by rw [k1_off170_eq]; rfl) _ (Memref.readAt_whole (Elt F) cc1_scratch0 ft) _ _,
      (List.forall_mem_cons.mpr ⟨piece_G ft fx hfx r.val 0 g.val _ hXs 29 (by decide) _ (k1_off169_inb g) (by rw [k1_off169_eq]; rfl) (by rw [k1_off169_eq]; rfl) _ (Memref.readAt_whole (Elt F) cc1_scratch0 ft) _ _,
      (List.forall_mem_cons.mpr ⟨piece_G ft fx hfx r.val 0 g.val _ hXs 28 (by decide) _ (k1_off168_inb g) (by rw [k1_off168_eq]; rfl) (by rw [k1_off168_eq]; rfl) _ (Memref.readAt_whole (Elt F) cc1_scratch0 ft) _ _,
      (List.forall_mem_cons.mpr ⟨piece_G ft fx hfx r.val 0 g.val _ hXs 27 (by decide) _ (k1_off167_inb g) (by rw [k1_off167_eq]; rfl) (by rw [k1_off167_eq]; rfl) _ (Memref.readAt_whole (Elt F) cc1_scratch0 ft) _ _,
      (List.forall_mem_cons.mpr ⟨piece_G ft fx hfx r.val 0 g.val _ hXs 26 (by decide) _ (k1_off166_inb g) (by rw [k1_off166_eq]; rfl) (by rw [k1_off166_eq]; rfl) _ (Memref.readAt_whole (Elt F) cc1_scratch0 ft) _ _,
      (List.forall_mem_cons.mpr ⟨piece_G ft fx hfx r.val 0 g.val _ hXs 25 (by decide) _ (k1_off165_inb g) (by rw [k1_off165_eq]; rfl) (by rw [k1_off165_eq]; rfl) _ (Memref.readAt_whole (Elt F) cc1_scratch0 ft) _ _,
      (List.forall_mem_cons.mpr ⟨piece_G ft fx hfx r.val 0 g.val _ hXs 24 (by decide) _ (k1_off164_inb g) (by rw [k1_off164_eq]; rfl) (by rw [k1_off164_eq]; rfl) _ (Memref.readAt_whole (Elt F) cc1_scratch0 ft) _ _,
      (List.forall_mem_cons.mpr ⟨piece_G ft fx hfx r.val 0 g.val _ hXs 23 (by decide) _ (k1_off163_inb g) (by rw [k1_off163_eq]; rfl) (by rw [k1_off163_eq]; rfl) _ (Memref.readAt_whole (Elt F) cc1_scratch0 ft) _ _,
      (List.forall_mem_cons.mpr ⟨piece_G ft fx hfx r.val 0 g.val _ hXs 22 (by decide) _ (k1_off162_inb g) (by rw [k1_off162_eq]; rfl) (by rw [k1_off162_eq]; rfl) _ (Memref.readAt_whole (Elt F) cc1_scratch0 ft) _ _,
      (List.forall_mem_cons.mpr ⟨piece_G ft fx hfx r.val 0 g.val _ hXs 21 (by decide) _ (k1_off161_inb g) (by rw [k1_off161_eq]; rfl) (by rw [k1_off161_eq]; rfl) _ (Memref.readAt_whole (Elt F) cc1_scratch0 ft) _ _,
      (List.forall_mem_cons.mpr ⟨piece_G ft fx hfx r.val 0 g.val _ hXs 20 (by decide) _ (k1_off160_inb g) (by rw [k1_off160_eq]; rfl) (by rw [k1_off160_eq]; rfl) _ (Memref.readAt_whole (Elt F) cc1_scratch0 ft) _ _,
      (List.forall_mem_cons.mpr ⟨piece_G ft fx hfx r.val 0 g.val _ hXs 19 (by decide) _ (k1_off159_inb g) (by rw [k1_off159_eq]; rfl) (by rw [k1_off159_eq]; rfl) _ (Memref.readAt_whole (Elt F) cc1_scratch0 ft) _ _,
      (List.forall_mem_cons.mpr ⟨piece_G ft fx hfx r.val 0 g.val _ hXs 18 (by decide) _ (k1_off158_inb g) (by rw [k1_off158_eq]; rfl) (by rw [k1_off158_eq]; rfl) _ (Memref.readAt_whole (Elt F) cc1_scratch0 ft) _ _,
      (List.forall_mem_cons.mpr ⟨piece_G ft fx hfx r.val 0 g.val _ hXs 17 (by decide) _ (k1_off157_inb g) (by rw [k1_off157_eq]; rfl) (by rw [k1_off157_eq]; rfl) _ (Memref.readAt_whole (Elt F) cc1_scratch0 ft) _ _,
      (List.forall_mem_cons.mpr ⟨piece_G ft fx hfx r.val 0 g.val _ hXs 16 (by decide) _ (k1_off156_inb g) (by rw [k1_off156_eq]; rfl) (by rw [k1_off156_eq]; rfl) _ (Memref.readAt_whole (Elt F) cc1_scratch0 ft) _ _,
      (List.forall_mem_cons.mpr ⟨piece_G ft fx hfx r.val 0 g.val _ hXs 15 (by decide) _ (k1_off155_inb g) (by rw [k1_off155_eq]; rfl) (by rw [k1_off155_eq]; rfl) _ (Memref.readAt_whole (Elt F) cc1_scratch0 ft) _ _,
      (List.forall_mem_cons.mpr ⟨piece_G ft fx hfx r.val 0 g.val _ hXs 14 (by decide) _ (k1_off154_inb g) (by rw [k1_off154_eq]; rfl) (by rw [k1_off154_eq]; rfl) _ (Memref.readAt_whole (Elt F) cc1_scratch0 ft) _ _,
      (List.forall_mem_cons.mpr ⟨piece_G ft fx hfx r.val 0 g.val _ hXs 13 (by decide) _ (k1_off153_inb g) (by rw [k1_off153_eq]; rfl) (by rw [k1_off153_eq]; rfl) _ (Memref.readAt_whole (Elt F) cc1_scratch0 ft) _ _,
      (List.forall_mem_cons.mpr ⟨piece_G ft fx hfx r.val 0 g.val _ hXs 12 (by decide) _ (k1_off152_inb g) (by rw [k1_off152_eq]; rfl) (by rw [k1_off152_eq]; rfl) _ (Memref.readAt_whole (Elt F) cc1_scratch0 ft) _ _,
      (List.forall_mem_cons.mpr ⟨piece_G ft fx hfx r.val 0 g.val _ hXs 11 (by decide) _ (k1_off151_inb g) (by rw [k1_off151_eq]; rfl) (by rw [k1_off151_eq]; rfl) _ (Memref.readAt_whole (Elt F) cc1_scratch0 ft) _ _,
      (List.forall_mem_cons.mpr ⟨piece_G ft fx hfx r.val 0 g.val _ hXs 10 (by decide) _ (k1_off150_inb g) (by rw [k1_off150_eq]; rfl) (by rw [k1_off150_eq]; rfl) _ (Memref.readAt_whole (Elt F) cc1_scratch0 ft) _ _,
      (List.forall_mem_cons.mpr ⟨piece_G ft fx hfx r.val 0 g.val _ hXs 9 (by decide) _ (k1_off149_inb g) (by rw [k1_off149_eq]; rfl) (by rw [k1_off149_eq]; rfl) _ (Memref.readAt_whole (Elt F) cc1_scratch0 ft) _ _,
      (List.forall_mem_cons.mpr ⟨piece_G ft fx hfx r.val 0 g.val _ hXs 8 (by decide) _ (k1_off148_inb g) (by rw [k1_off148_eq]; rfl) (by rw [k1_off148_eq]; rfl) _ (Memref.readAt_whole (Elt F) cc1_scratch0 ft) _ _,
      (List.forall_mem_cons.mpr ⟨piece_G ft fx hfx r.val 0 g.val _ hXs 7 (by decide) _ (k1_off147_inb g) (by rw [k1_off147_eq]; rfl) (by rw [k1_off147_eq]; rfl) _ (Memref.readAt_whole (Elt F) cc1_scratch0 ft) _ _,
      (List.forall_mem_cons.mpr ⟨piece_G ft fx hfx r.val 0 g.val _ hXs 6 (by decide) _ (k1_off146_inb g) (by rw [k1_off146_eq]; rfl) (by rw [k1_off146_eq]; rfl) _ (Memref.readAt_whole (Elt F) cc1_scratch0 ft) _ _,
      (List.forall_mem_cons.mpr ⟨piece_G ft fx hfx r.val 0 g.val _ hXs 5 (by decide) _ (k1_off145_inb g) (by rw [k1_off145_eq]; rfl) (by rw [k1_off145_eq]; rfl) _ (Memref.readAt_whole (Elt F) cc1_scratch0 ft) _ _,
      (List.forall_mem_cons.mpr ⟨piece_G ft fx hfx r.val 0 g.val _ hXs 4 (by decide) _ (k1_off144_inb g) (by rw [k1_off144_eq]; rfl) (by rw [k1_off144_eq]; rfl) _ (Memref.readAt_whole (Elt F) cc1_scratch0 ft) _ _,
      (List.forall_mem_cons.mpr ⟨piece_G ft fx hfx r.val 0 g.val _ hXs 3 (by decide) _ (k1_off143_inb g) (by rw [k1_off143_eq]; rfl) (by rw [k1_off143_eq]; rfl) _ (Memref.readAt_whole (Elt F) cc1_scratch0 ft) _ _,
      (List.forall_mem_cons.mpr ⟨piece_G ft fx hfx r.val 0 g.val _ hXs 2 (by decide) _ (k1_off142_inb g) (by rw [k1_off142_eq]; rfl) (by rw [k1_off142_eq]; rfl) _ (Memref.readAt_whole (Elt F) cc1_scratch0 ft) _ _,
      (List.forall_mem_cons.mpr ⟨piece_G ft fx hfx r.val 0 g.val _ hXs 1 (by decide) _ (k1_off141_inb g) (by rw [k1_off141_eq]; rfl) (by rw [k1_off141_eq]; rfl) _ (Memref.readAt_whole (Elt F) cc1_scratch0 ft) _ _,
      (List.forall_mem_cons.mpr ⟨piece_G ft fx hfx r.val 0 g.val _ hXs 0 (by decide) _ (k1_off140_inb g) (by rw [k1_off140_eq]; rfl) (by rw [k1_off140_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off171_inb g) g.val (by rw [k1_off171_eq]; rfl),
      (List.forall_mem_cons.mpr ⟨unit16_lb (inb := k1_off170_inb g) g.val (by rw [k1_off170_eq]; rfl),
      (List.forall_mem_cons.mpr ⟨unit16_lb (inb := k1_off169_inb g) g.val (by rw [k1_off169_eq]; rfl),
      (List.forall_mem_cons.mpr ⟨unit16_lb (inb := k1_off168_inb g) g.val (by rw [k1_off168_eq]; rfl),
      (List.forall_mem_cons.mpr ⟨unit16_lb (inb := k1_off167_inb g) g.val (by rw [k1_off167_eq]; rfl),
      (List.forall_mem_cons.mpr ⟨unit16_lb (inb := k1_off166_inb g) g.val (by rw [k1_off166_eq]; rfl),
      (List.forall_mem_cons.mpr ⟨unit16_lb (inb := k1_off165_inb g) g.val (by rw [k1_off165_eq]; rfl),
      (List.forall_mem_cons.mpr ⟨unit16_lb (inb := k1_off164_inb g) g.val (by rw [k1_off164_eq]; rfl),
      (List.forall_mem_cons.mpr ⟨unit16_lb (inb := k1_off163_inb g) g.val (by rw [k1_off163_eq]; rfl),
      (List.forall_mem_cons.mpr ⟨unit16_lb (inb := k1_off162_inb g) g.val (by rw [k1_off162_eq]; rfl),
      (List.forall_mem_cons.mpr ⟨unit16_lb (inb := k1_off161_inb g) g.val (by rw [k1_off161_eq]; rfl),
      (List.forall_mem_cons.mpr ⟨unit16_lb (inb := k1_off160_inb g) g.val (by rw [k1_off160_eq]; rfl),
      (List.forall_mem_cons.mpr ⟨unit16_lb (inb := k1_off159_inb g) g.val (by rw [k1_off159_eq]; rfl),
      (List.forall_mem_cons.mpr ⟨unit16_lb (inb := k1_off158_inb g) g.val (by rw [k1_off158_eq]; rfl),
      (List.forall_mem_cons.mpr ⟨unit16_lb (inb := k1_off157_inb g) g.val (by rw [k1_off157_eq]; rfl),
      (List.forall_mem_cons.mpr ⟨unit16_lb (inb := k1_off156_inb g) g.val (by rw [k1_off156_eq]; rfl),
      (List.forall_mem_cons.mpr ⟨unit16_lb (inb := k1_off155_inb g) g.val (by rw [k1_off155_eq]; rfl),
      (List.forall_mem_cons.mpr ⟨unit16_lb (inb := k1_off154_inb g) g.val (by rw [k1_off154_eq]; rfl),
      (List.forall_mem_cons.mpr ⟨unit16_lb (inb := k1_off153_inb g) g.val (by rw [k1_off153_eq]; rfl),
      (List.forall_mem_cons.mpr ⟨unit16_lb (inb := k1_off152_inb g) g.val (by rw [k1_off152_eq]; rfl),
      (List.forall_mem_cons.mpr ⟨unit16_lb (inb := k1_off151_inb g) g.val (by rw [k1_off151_eq]; rfl),
      (List.forall_mem_cons.mpr ⟨unit16_lb (inb := k1_off150_inb g) g.val (by rw [k1_off150_eq]; rfl),
      (List.forall_mem_cons.mpr ⟨unit16_lb (inb := k1_off149_inb g) g.val (by rw [k1_off149_eq]; rfl),
      (List.forall_mem_cons.mpr ⟨unit16_lb (inb := k1_off148_inb g) g.val (by rw [k1_off148_eq]; rfl),
      (List.forall_mem_cons.mpr ⟨unit16_lb (inb := k1_off147_inb g) g.val (by rw [k1_off147_eq]; rfl),
      (List.forall_mem_cons.mpr ⟨unit16_lb (inb := k1_off146_inb g) g.val (by rw [k1_off146_eq]; rfl),
      (List.forall_mem_cons.mpr ⟨unit16_lb (inb := k1_off145_inb g) g.val (by rw [k1_off145_eq]; rfl),
      (List.forall_mem_cons.mpr ⟨unit16_lb (inb := k1_off144_inb g) g.val (by rw [k1_off144_eq]; rfl),
      (List.forall_mem_cons.mpr ⟨unit16_lb (inb := k1_off143_inb g) g.val (by rw [k1_off143_eq]; rfl),
      (List.forall_mem_cons.mpr ⟨unit16_lb (inb := k1_off142_inb g) g.val (by rw [k1_off142_eq]; rfl),
      (List.forall_mem_cons.mpr ⟨unit16_lb (inb := k1_off141_inb g) g.val (by rw [k1_off141_eq]; rfl),
      (List.forall_mem_cons.mpr ⟨unit16_lb (inb := k1_off140_inb g) g.val (by rw [k1_off140_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off140_inb g) 0 g.val (by rw [k1_off140_eq]; rfl) (by rw [k1_off140_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off141_inb g) 1 g.val (by rw [k1_off141_eq]; rfl) (by rw [k1_off141_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off142_inb g) 2 g.val (by rw [k1_off142_eq]; rfl) (by rw [k1_off142_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off143_inb g) 3 g.val (by rw [k1_off143_eq]; rfl) (by rw [k1_off143_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off144_inb g) 4 g.val (by rw [k1_off144_eq]; rfl) (by rw [k1_off144_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off145_inb g) 5 g.val (by rw [k1_off145_eq]; rfl) (by rw [k1_off145_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off146_inb g) 6 g.val (by rw [k1_off146_eq]; rfl) (by rw [k1_off146_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off147_inb g) 7 g.val (by rw [k1_off147_eq]; rfl) (by rw [k1_off147_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off148_inb g) 8 g.val (by rw [k1_off148_eq]; rfl) (by rw [k1_off148_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off149_inb g) 9 g.val (by rw [k1_off149_eq]; rfl) (by rw [k1_off149_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off150_inb g) 10 g.val (by rw [k1_off150_eq]; rfl) (by rw [k1_off150_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off151_inb g) 11 g.val (by rw [k1_off151_eq]; rfl) (by rw [k1_off151_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off152_inb g) 12 g.val (by rw [k1_off152_eq]; rfl) (by rw [k1_off152_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off153_inb g) 13 g.val (by rw [k1_off153_eq]; rfl) (by rw [k1_off153_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off154_inb g) 14 g.val (by rw [k1_off154_eq]; rfl) (by rw [k1_off154_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off155_inb g) 15 g.val (by rw [k1_off155_eq]; rfl) (by rw [k1_off155_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off156_inb g) 16 g.val (by rw [k1_off156_eq]; rfl) (by rw [k1_off156_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off157_inb g) 17 g.val (by rw [k1_off157_eq]; rfl) (by rw [k1_off157_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off158_inb g) 18 g.val (by rw [k1_off158_eq]; rfl) (by rw [k1_off158_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off159_inb g) 19 g.val (by rw [k1_off159_eq]; rfl) (by rw [k1_off159_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off160_inb g) 20 g.val (by rw [k1_off160_eq]; rfl) (by rw [k1_off160_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off161_inb g) 21 g.val (by rw [k1_off161_eq]; rfl) (by rw [k1_off161_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off162_inb g) 22 g.val (by rw [k1_off162_eq]; rfl) (by rw [k1_off162_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off163_inb g) 23 g.val (by rw [k1_off163_eq]; rfl) (by rw [k1_off163_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off164_inb g) 24 g.val (by rw [k1_off164_eq]; rfl) (by rw [k1_off164_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off165_inb g) 25 g.val (by rw [k1_off165_eq]; rfl) (by rw [k1_off165_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off166_inb g) 26 g.val (by rw [k1_off166_eq]; rfl) (by rw [k1_off166_eq]; rfl) y h hy1 hy2⟩
      · exact ⟨_, List.mem_cons_of_mem _ (List.mem_cons_of_mem _ (List.mem_cons_of_mem _ (List.mem_cons_of_mem _ (List.mem_cons_self)))), unit16_mem (inb := k1_off167_inb g) 27 g.val (by rw [k1_off167_eq]; rfl) (by rw [k1_off167_eq]; rfl) y h hy1 hy2⟩
      · exact ⟨_, List.mem_cons_of_mem _ (List.mem_cons_of_mem _ (List.mem_cons_of_mem _ (List.mem_cons_self))), unit16_mem (inb := k1_off168_inb g) 28 g.val (by rw [k1_off168_eq]; rfl) (by rw [k1_off168_eq]; rfl) y h hy1 hy2⟩
      · exact ⟨_, List.mem_cons_of_mem _ (List.mem_cons_of_mem _ (List.mem_cons_self)), unit16_mem (inb := k1_off169_inb g) 29 g.val (by rw [k1_off169_eq]; rfl) (by rw [k1_off169_eq]; rfl) y h hy1 hy2⟩
      · exact ⟨_, List.mem_cons_of_mem _ (List.mem_cons_self), unit16_mem (inb := k1_off170_inb g) 30 g.val (by rw [k1_off170_eq]; rfl) (by rw [k1_off170_eq]; rfl) y h hy1 hy2⟩
      · exact ⟨_, List.mem_cons_self, unit16_mem (inb := k1_off171_inb g) 31 g.val (by rw [k1_off171_eq]; rfl) (by rw [k1_off171_eq]; rfl) y h hy1 hy2⟩

/-- What a trip of the group loop t9 keeps: the flattened table and the staged index block unchanged, the output
    chunk at contents that hold the closed form on the columns of the groups done so far. -/
def invV_t9 (d : Dev nD) (L : grid1.Coords) (r : Nat) (ft : Buf (Elt F) ((tvW).view.loc (thrV d L))) (fx : Buf (Elt F) ((xs0W).view.loc (thrV d L)))
    (g : Nat) (_ : BitVec 32) : sProp 𝕄 :=
  iprop(((tvW).view.loc (thrV d L) ↦{fullShare} ft) ∗ ((xs0W).view.loc (thrV d L) ↦{fullShare} fx)
    ∗ ∃ fo, ⌜OcVal ft fx r 256 g fo⌝ ∗ (oc1W).view.loc (thrV d L) ↦{fullShare} fo)

set_option maxRecDepth 65536 in
/-- One trip of t9: the thirty-two gathered vectors stored into the chunk are the closed form on the group's sixteen
    columns, and the columns of the earlier groups are not touched. -/
theorem tripV_t9 (d : Dev nD) (L : grid1.Coords) (v2 : BitVec 32) (r : Fin k1_t7_loop.trips) (arg14 : BitVec 32)
    (ft : Buf (Elt F) ((tvW).view.loc (thrV d L))) (fx : Buf (Elt F) ((xs0W).view.loc (thrV d L))) (hfx : XsOK fx)
    (g : Fin k1_t9_loop.trips) (acc : BitVec 32) :
    invV_t9 d L r.val ft fx g acc
      ⊢ wp frame (wpE (defs₀ (F := F)) 𝒱₀ (thrV d L) none) Set.univ
          (k1_t9_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (invV_t9 d L r.val ft fx (g.val + 1)) := by
  unfold k1_t9_body
  simp only [k1_part36_eq_skeleton, k1_part37_eq_skeleton, k1_part38_eq_skeleton]
  unfold k1_part36_skel k1_part37_skel k1_part38_skel
  simp only [SparseCore.vectorLoadIdx_bind (c := thrV d L)]
  unfold invV_t9
  iintro ⟨Ht, Hx, %fo, %hfo, Ho⟩
  sl_exec (disch := exact chk_addi _ _ (fun _ => ldrow0_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay166 (View.readAt (Elt F) (xs0W).view
        (Rect.unit (s := S40x512) (k1_off173 r g) S1x16.size (k1_off173_inb r g)).toLoadRect fx) (ix1 l)
          = fx (ix2 (⟨r.val % 40, Nat.mod_lt _ (by decide)⟩ : Fin 40) (⟨(256 + 16 * g.val + l.val) % 512, Nat.mod_lt _ (by decide)⟩ : Fin 512)) :=
      fun l => by
        refine Eq.trans (cast16_apply (View.readAt (Elt F) (xs0W).view
          (Rect.unit (s := S40x512) (k1_off173 r g) S1x16.size (k1_off173_inb r g)).toLoadRect fx) shapeCasts_S1x16_S16 l) ?_
        exact congrArg fx (loadRow_idx r.val 256 g.val hr (by omega) (k1_off173 r g) (k1_off173_inb r g)
          (by rw [k1_off173_eq]; rfl) (by rw [k1_off173_eq]; show 16 * g.val + 256 = 256 + 16 * g.val; omega) l)
    refine ocVal_step_oc1 d L ft fx r.val 256 g.val fo _ ?hG ?hset ?hcov hfo
    case hG =>
      exact (List.forall_mem_cons.mpr ⟨piece_G ft fx hfx r.val 256 g.val _ hXs 31 (by decide) _ (k1_off205_inb g) (by rw [k1_off205_eq]; rfl) (by rw [k1_off205_eq]; rfl) _ (Memref.readAt_whole (Elt F) cc1_scratch0 ft) _ _,
      (List.forall_mem_cons.mpr ⟨piece_G ft fx hfx r.val 256 g.val _ hXs 30 (by decide) _ (k1_off204_inb g) (by rw [k1_off204_eq]; rfl) (by rw [k1_off204_eq]; rfl) _ (Memref.readAt_whole (Elt F) cc1_scratch0 ft) _ _,
      (List.forall_mem_cons.mpr ⟨piece_G ft fx hfx r.val 256 g.val _ hXs 29 (by decide) _ (k1_off203_inb g) (by rw [k1_off203_eq]; rfl) (by rw [k1_off203_eq]; rfl) _ (Memref.readAt_whole (Elt F) cc1_scratch0 ft) _ _,
      (List.forall_mem_cons.mpr ⟨piece_G ft fx hfx r.val 256 g.val _ hXs 28 (by decide) _ (k1_off202_inb g) (by rw [k1_off202_eq]; rfl) (by rw [k1_off202_eq]; rfl) _ (Memref.readAt_whole (Elt F) cc1_scratch0 ft) _ _,
      (List.forall_mem_cons.mpr ⟨piece_G ft fx hfx r.val 256 g.val _ hXs 27 (by decide) _ (k1_off201_inb g) (by rw [k1_off201_eq]; rfl) (by rw [k1_off201_eq]; rfl) _ (Memref.readAt_whole (Elt F) cc1_scratch0 ft) _ _,
      (List.forall_mem_cons.mpr ⟨piece_G ft fx hfx r.val 256 g.val _ hXs 26 (by decide) _ (k1_off200_inb g) (by rw [k1_off200_eq]; rfl) (by rw [k1_off200_eq]; rfl) _ (Memref.readAt_whole (Elt F) cc1_scratch0 ft) _ _,
      (List.forall_mem_cons.mpr ⟨piece_G ft fx hfx r.val 256 g.val _ hXs 25 (by decide) _ (k1_off199_inb g) (by rw [k1_off199_eq]; rfl) (by rw [k1_off199_eq]; rfl) _ (Memref.readAt_whole (Elt F) cc1_scratch0 ft) _ _,
      (List.forall_mem_cons.mpr ⟨piece_G ft fx hfx r.val 256 g.val _ hXs 24 (by decide) _ (k1_off198_inb g) (by rw [k1_off198_eq]; rfl) (by rw [k1_off198_eq]; rfl) _ (Memref.readAt_whole (Elt F) cc1_scratch0 ft) _ _,
      (List.forall_mem_cons.mpr ⟨piece_G ft fx hfx r.val 256 g.val _ hXs 23 (by decide) _ (k1_off197_inb g) (by rw [k1_off197_eq]; rfl) (by rw [k1_off197_eq]; rfl) _ (Memref.readAt_whole (Elt F) cc1_scratch0 ft) _ _,
      (List.forall_mem_cons.mpr ⟨piece_G ft fx hfx r.val 256 g.val _ hXs 22 (by decide) _ (k1_off196_inb g) (by rw [k1_off196_eq]; rfl) (by rw [k1_off196_eq]; rfl) _ (Memref.readAt_whole (Elt F) cc1_scratch0 ft) _ _,
      (List.forall_mem_cons.mpr ⟨piece_G ft fx hfx r.val 256 g.val _ hXs 21 (by decide) _ (k1_off195_inb g) (by rw [k1_off195_eq]; rfl) (by rw [k1_off195_eq]; rfl) _ (Memref.readAt_whole (Elt F) cc1_scratch0 ft) _ _,
      (List.forall_mem_cons.mpr ⟨piece_G ft fx hfx r.val 256 g.val _ hXs 20 (by decide) _ (k1_off194_inb g) (by rw [k1_off194_eq]; rfl) (by rw [k1_off194_eq]; rfl) _ (Memref.readAt_whole (Elt F) cc1_scratch0 ft) _ _,
      (List.forall_mem_cons.mpr ⟨piece_G ft fx hfx r.val 256 g.val _ hXs 19 (by decide) _ (k1_off193_inb g) (by rw [k1_off193_eq]; rfl) (by rw [k1_off193_eq]; rfl) _ (Memref.readAt_whole (Elt F) cc1_scratch0 ft) _ _,
      (List.forall_mem_cons.mpr ⟨piece_G ft fx hfx r.val 256 g.val _ hXs 18 (by decide) _ (k1_off192_inb g) (by rw [k1_off192_eq]; rfl) (by rw [k1_off192_eq]; rfl) _ (Memref.readAt_whole (Elt F) cc1_scratch0 ft) _ _,
      (List.forall_mem_cons.mpr ⟨piece_G ft fx hfx r.val 256 g.val _ hXs 17 (by decide) _ (k1_off191_inb g) (by rw [k1_off191_eq]; rfl) (by rw [k1_off191_eq]; rfl) _ (Memref.readAt_whole (Elt F) cc1_scratch0 ft) _ _,
      (List.forall_mem_cons.mpr ⟨piece_G ft fx hfx r.val 256 g.val _ hXs 16 (by decide) _ (k1_off190_inb g) (by rw [k1_off190_eq]; rfl) (by rw [k1_off190_eq]; rfl) _ (Memref.readAt_whole (Elt F) cc1_scratch0 ft) _ _,
      (List.forall_mem_cons.mpr ⟨piece_G ft fx hfx r.val 256 g.val _ hXs 15 (by decide) _ (k1_off189_inb g) (by rw [k1_off189_eq]; rfl) (by rw [k1_off189_eq]; rfl) _ (Memref.readAt_whole (Elt F) cc1_scratch0 ft) _ _,
      (List.forall_mem_cons.mpr ⟨piece_G ft fx hfx r.val 256 g.val _ hXs 14 (by decide) _ (k1_off188_inb g) (by rw [k1_off188_eq]; rfl) (by rw [k1_off188_eq]; rfl) _ (Memref.readAt_whole (Elt F) cc1_scratch0 ft) _ _,
      (List.forall_mem_cons.mpr ⟨piece_G ft fx hfx r.val 256 g.val _ hXs 13 (by decide) _ (k1_off187_inb g) (by rw [k1_off187_eq]; rfl) (by rw [k1_off187_eq]; rfl) _ (Memref.readAt_whole (Elt F) cc1_scratch0 ft) _ _,
      (List.forall_mem_cons.mpr ⟨piece_G ft fx hfx r.val 256 g.val _ hXs 12 (by decide) _ (k1_off186_inb g) (by rw [k1_off186_eq]; rfl) (by rw [k1_off186_eq]; rfl) _ (Memref.readAt_whole (Elt F) cc1_scratch0 ft) _ _,
      (List.forall_mem_cons.mpr ⟨piece_G ft fx hfx r.val 256 g.val _ hXs 11 (by decide) _ (k1_off185_inb g) (by rw [k1_off185_eq]; rfl) (by rw [k1_off185_eq]; rfl) _ (Memref.readAt_whole (Elt F) cc1_scratch0 ft) _ _,
      (List.forall_mem_cons.mpr ⟨piece_G ft fx hfx r.val 256 g.val _ hXs 10 (by decide) _ (k1_off184_inb g) (by rw [k1_off184_eq]; rfl) (by rw [k1_off184_eq]; rfl) _ (Memref.readAt_whole (Elt F) cc1_scratch0 ft) _ _,
      (List.forall_mem_cons.mpr ⟨piece_G ft fx hfx r.val 256 g.val _ hXs 9 (by decide) _ (k1_off183_inb g) (by rw [k1_off183_eq]; rfl) (by rw [k1_off183_eq]; rfl) _ (Memref.readAt_whole (Elt F) cc1_scratch0 ft) _ _,
      (List.forall_mem_cons.mpr ⟨piece_G ft fx hfx r.val 256 g.val _ hXs 8 (by decide) _ (k1_off182_inb g) (by rw [k1_off182_eq]; rfl) (by rw [k1_off182_eq]; rfl) _ (Memref.readAt_whole (Elt F) cc1_scratch0 ft) _ _,
      (List.forall_mem_cons.mpr ⟨piece_G ft fx hfx r.val 256 g.val _ hXs 7 (by decide) _ (k1_off181_inb g) (by rw [k1_off181_eq]; rfl) (by rw [k1_off181_eq]; rfl) _ (Memref.readAt_whole (Elt F) cc1_scratch0 ft) _ _,
      (List.forall_mem_cons.mpr ⟨piece_G ft fx hfx r.val 256 g.val _ hXs 6 (by decide) _ (k1_off180_inb g) (by rw [k1_off180_eq]; rfl) (by rw [k1_off180_eq]; rfl) _ (Memref.readAt_whole (Elt F) cc1_scratch0 ft) _ _,
      (List.forall_mem_cons.mpr ⟨piece_G ft fx hfx r.val 256 g.val _ hXs 5 (by decide) _ (k1_off179_inb g) (by rw [k1_off179_eq]; rfl) (by rw [k1_off179_eq]; rfl) _ (Memref.readAt_whole (Elt F) cc1_scratch0 ft) _ _,
      (List.forall_mem_cons.mpr ⟨piece_G ft fx hfx r.val 256 g.val _ hXs 4 (by decide) _ (k1_off178_inb g) (by rw [k1_off178_eq]; rfl) (by rw [k1_off178_eq]; rfl) _ (Memref.readAt_whole (Elt F) cc1_scratch0 ft) _ _,
      (List.forall_mem_cons.mpr ⟨piece_G ft fx hfx r.val 256 g.val _ hXs 3 (by decide) _ (k1_off177_inb g) (by rw [k1_off177_eq]; rfl) (by rw [k1_off177_eq]; rfl) _ (Memref.readAt_whole (Elt F) cc1_scratch0 ft) _ _,
      (List.forall_mem_cons.mpr ⟨piece_G ft fx hfx r.val 256 g.val _ hXs 2 (by decide) _ (k1_off176_inb g) (by rw [k1_off176_eq]; rfl) (by rw [k1_off176_eq]; rfl) _ (Memref.readAt_whole (Elt F) cc1_scratch0 ft) _ _,
      (List.forall_mem_cons.mpr ⟨piece_G ft fx hfx r.val 256 g.val _ hXs 1 (by decide) _ (k1_off175_inb g) (by rw [k1_off175_eq]; rfl) (by rw [k1_off175_eq]; rfl) _ (Memref.readAt_whole (Elt F) cc1_scratch0 ft) _ _,
      (List.forall_mem_cons.mpr ⟨piece_G ft fx hfx r.val 256 g.val _ hXs 0 (by decide) _ (k1_off174_inb g) (by rw [k1_off174_eq]; rfl) (by rw [k1_off174_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off205_inb g) g.val (by rw [k1_off205_eq]; rfl),
      (List.forall_mem_cons.mpr ⟨unit16_lb (inb := k1_off204_inb g) g.val (by rw [k1_off204_eq]; rfl),
      (List.forall_mem_cons.mpr ⟨unit16_lb (inb := k1_off203_inb g) g.val (by rw [k1_off203_eq]; rfl),
      (List.forall_mem_cons.mpr ⟨unit16_lb (inb := k1_off202_inb g) g.val (by rw [k1_off202_eq]; rfl),
      (List.forall_mem_cons.mpr ⟨unit16_lb (inb := k1_off201_inb g) g.val (by rw [k1_off201_eq]; rfl),
      (List.forall_mem_cons.mpr ⟨unit16_lb (inb := k1_off200_inb g) g.val (by rw [k1_off200_eq]; rfl),
      (List.forall_mem_cons.mpr ⟨unit16_lb (inb := k1_off199_inb g) g.val (by rw [k1_off199_eq]; rfl),
      (List.forall_mem_cons.mpr ⟨unit16_lb (inb := k1_off198_inb g) g.val (by rw [k1_off198_eq]; rfl),
      (List.forall_mem_cons.mpr ⟨unit16_lb (inb := k1_off197_inb g) g.val (by rw [k1_off197_eq]; rfl),
      (List.forall_mem_cons.mpr ⟨unit16_lb (inb := k1_off196_inb g) g.val (by rw [k1_off196_eq]; rfl),
      (List.forall_mem_cons.mpr ⟨unit16_lb (inb := k1_off195_inb g) g.val (by rw [k1_off195_eq]; rfl),
      (List.forall_mem_cons.mpr ⟨unit16_lb (inb := k1_off194_inb g) g.val (by rw [k1_off194_eq]; rfl),
      (List.forall_mem_cons.mpr ⟨unit16_lb (inb := k1_off193_inb g) g.val (by rw [k1_off193_eq]; rfl),
      (List.forall_mem_cons.mpr ⟨unit16_lb (inb := k1_off192_inb g) g.val (by rw [k1_off192_eq]; rfl),
      (List.forall_mem_cons.mpr ⟨unit16_lb (inb := k1_off191_inb g) g.val (by rw [k1_off191_eq]; rfl),
      (List.forall_mem_cons.mpr ⟨unit16_lb (inb := k1_off190_inb g) g.val (by rw [k1_off190_eq]; rfl),
      (List.forall_mem_cons.mpr ⟨unit16_lb (inb := k1_off189_inb g) g.val (by rw [k1_off189_eq]; rfl),
      (List.forall_mem_cons.mpr ⟨unit16_lb (inb := k1_off188_inb g) g.val (by rw [k1_off188_eq]; rfl),
      (List.forall_mem_cons.mpr ⟨unit16_lb (inb := k1_off187_inb g) g.val (by rw [k1_off187_eq]; rfl),
      (List.forall_mem_cons.mpr ⟨unit16_lb (inb := k1_off186_inb g) g.val (by rw [k1_off186_eq]; rfl),
      (List.forall_mem_cons.mpr ⟨unit16_lb (inb := k1_off185_inb g) g.val (by rw [k1_off185_eq]; rfl),
      (List.forall_mem_cons.mpr ⟨unit16_lb (inb := k1_off184_inb g) g.val (by rw [k1_off184_eq]; rfl),
      (List.forall_mem_cons.mpr ⟨unit16_lb (inb := k1_off183_inb g) g.val (by rw [k1_off183_eq]; rfl),
      (List.forall_mem_cons.mpr ⟨unit16_lb (inb := k1_off182_inb g) g.val (by rw [k1_off182_eq]; rfl),
      (List.forall_mem_cons.mpr ⟨unit16_lb (inb := k1_off181_inb g) g.val (by rw [k1_off181_eq]; rfl),
      (List.forall_mem_cons.mpr ⟨unit16_lb (inb := k1_off180_inb g) g.val (by rw [k1_off180_eq]; rfl),
      (List.forall_mem_cons.mpr ⟨unit16_lb (inb := k1_off179_inb g) g.val (by rw [k1_off179_eq]; rfl),
      (List.forall_mem_cons.mpr ⟨unit16_lb (inb := k1_off178_inb g) g.val (by rw [k1_off178_eq]; rfl),
      (List.forall_mem_cons.mpr ⟨unit16_lb (inb := k1_off177_inb g) g.val (by rw [k1_off177_eq]; rfl),
      (List.forall_mem_cons.mpr ⟨unit16_lb (inb := k1_off176_inb g) g.val (by rw [k1_off176_eq]; rfl),
      (List.forall_mem_cons.mpr ⟨unit16_lb (inb := k1_off175_inb g) g.val (by rw [k1_off175_eq]; rfl),
      (List.forall_mem_cons.mpr ⟨unit16_lb (inb := k1_off174_inb g) g.val (by rw [k1_off174_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off174_inb g) 0 g.val (by rw [k1_off174_eq]; rfl) (by rw [k1_off174_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off175_inb g) 1 g.val (by rw [k1_off175_eq]; rfl) (by rw [k1_off175_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off176_inb g) 2 g.val (by rw [k1_off176_eq]; rfl) (by rw [k1_off176_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off177_inb g) 3 g.val (by rw [k1_off177_eq]; rfl) (by rw [k1_off177_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off178_inb g) 4 g.val (by rw [k1_off178_eq]; rfl) (by rw [k1_off178_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off179_inb g) 5 g.val (by rw [k1_off179_eq]; rfl) (by rw [k1_off179_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off180_inb g) 6 g.val (by rw [k1_off180_eq]; rfl) (by rw [k1_off180_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off181_inb g) 7 g.val (by rw [k1_off181_eq]; rfl) (by rw [k1_off181_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off182_inb g) 8 g.val (by rw [k1_off182_eq]; rfl) (by rw [k1_off182_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off183_inb g) 9 g.val (by rw [k1_off183_eq]; rfl) (by rw [k1_off183_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off184_inb g) 10 g.val (by rw [k1_off184_eq]; rfl) (by rw [k1_off184_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off185_inb g) 11 g.val (by rw [k1_off185_eq]; rfl) (by rw [k1_off185_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off186_inb g) 12 g.val (by rw [k1_off186_eq]; rfl) (by rw [k1_off186_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off187_inb g) 13 g.val (by rw [k1_off187_eq]; rfl) (by rw [k1_off187_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off188_inb g) 14 g.val (by rw [k1_off188_eq]; rfl) (by rw [k1_off188_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off189_inb g) 15 g.val (by rw [k1_off189_eq]; rfl) (by rw [k1_off189_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off190_inb g) 16 g.val (by rw [k1_off190_eq]; rfl) (by rw [k1_off190_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off191_inb g) 17 g.val (by rw [k1_off191_eq]; rfl) (by rw [k1_off191_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off192_inb g) 18 g.val (by rw [k1_off192_eq]; rfl) (by rw [k1_off192_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off193_inb g) 19 g.val (by rw [k1_off193_eq]; rfl) (by rw [k1_off193_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off194_inb g) 20 g.val (by rw [k1_off194_eq]; rfl) (by rw [k1_off194_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off195_inb g) 21 g.val (by rw [k1_off195_eq]; rfl) (by rw [k1_off195_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off196_inb g) 22 g.val (by rw [k1_off196_eq]; rfl) (by rw [k1_off196_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off197_inb g) 23 g.val (by rw [k1_off197_eq]; rfl) (by rw [k1_off197_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off198_inb g) 24 g.val (by rw [k1_off198_eq]; rfl) (by rw [k1_off198_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off199_inb g) 25 g.val (by rw [k1_off199_eq]; rfl) (by rw [k1_off199_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off200_inb g) 26 g.val (by rw [k1_off200_eq]; rfl) (by rw [k1_off200_eq]; rfl) y h hy1 hy2⟩
      · exact ⟨_, List.mem_cons_of_mem _ (List.mem_cons_of_mem _ (List.mem_cons_of_mem _ (List.mem_cons_of_mem _ (List.mem_cons_self)))), unit16_mem (inb := k1_off201_inb g) 27 g.val (by rw [k1_off201_eq]; rfl) (by rw [k1_off201_eq]; rfl) y h hy1 hy2⟩
      · exact ⟨_, List.mem_cons_of_mem _ (List.mem_cons_of_mem _ (List.mem_cons_of_mem _ (List.mem_cons_self))), unit16_mem (inb := k1_off202_inb g) 28 g.val (by rw [k1_off202_eq]; rfl) (by rw [k1_off202_eq]; rfl) y h hy1 hy2⟩
      · exact ⟨_, List.mem_cons_of_mem _ (List.mem_cons_of_mem _ (List.mem_cons_self)), unit16_mem (inb := k1_off203_inb g) 29 g.val (by rw [k1_off203_eq]; rfl) (by rw [k1_off203_eq]; rfl) y h hy1 hy2⟩
      · exact ⟨_, List.mem_cons_of_mem _ (List.mem_cons_self), unit16_mem (inb := k1_off204_inb g) 30 g.val (by rw [k1_off204_eq]; rfl) (by rw [k1_off204_eq]; rfl) y h hy1 hy2⟩
      · exact ⟨_, List.mem_cons_self, unit16_mem (inb := k1_off205_inb g) 31 g.val (by rw [k1_off205_eq]; rfl) (by rw [k1_off205_eq]; rfl) y h hy1 hy2⟩

end Cert.Proof.KI

end
-- ==== Proof.KI.Row2V.lean ====
/-
  The row loop of stage 2 with values: rows 80 to 119 of out_t.
-/
import proofs.«203934_g28930899706482_cont_9to1_1937_23_alg».proof.Proof.KI.RowCommonV
import proofs.«203934_g28930899706482_cont_9to1_1937_23_alg».proof.Proof.KI.Row2
import proofs.«203934_g28930899706482_cont_9to1_1937_23_alg».proof.Proof.KI.GroupV2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- Between two trips of the row loop of stage 2, before row n = r + 80 of out_t: each chunk's copy of row n - 1 in
    flight and bound to leave its piece at G, the pieces of the rows before at G, those of the rows from n on at
    some contents. -/
def rowInvV2 (d : Dev nD) (L : grid1.Coords) (G : Buf (Elt F) (oLoc d)) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ OutFlightAtV0 d L G (r + 80 - 1) ∗ OutFlightAtV1 d L G (r + 80 - 1)
    ∗ PiecesKV d L G 0 (r + 80) ∗ PiecesKV d L G 1 (r + 80)
    ∗ ∃ W', ⌜∀ p ∈ W', p ∈ W ∨ p.2 = none⌝ ∗ owes (thrV d L) O W')

set_option maxRecDepth 65536 in
/-- Row r of stage 2, with values: the chunks filled from the staged indices and the table hold G's values of the
    two pieces of row n, so the copies started here will leave those pieces at G. -/
theorem rowV_t7 (d : Dev nD) (L : grid1.Coords) (G : Buf (Elt F) (oLoc d)) (v2 : BitVec 32) (ft : Buf (Elt F) ((tvW).view.loc (thrV d L))) (fx : Buf (Elt F) ((xs0W).view.loc (thrV d L))) (hfx : XsOK fx)
    (hrows : RowsOK L G ft fx 80)
    (O : CellTallies nD τ sig (HIx 1)) (W : Waits sig (HIx 1)) (r : Fin k1_t7_loop.trips) (acc : BitVec 32) :
    rowInvV2 d L G ft fx O W r acc
      ⊢ wp frame (wpE (defs₀ (F := F)) 𝒱₀ (thrV d L) none) Set.univ
          (k1_t7_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInvV2 d L G ft fx O W (r.val + 1)) := by
  have hr : r.val < 40 := lt_of_lt_of_le r.isLt k1_t7_abs.2.1
  have hoff0 : k1_off172 L r 0#32 = ![r.val + 80, 0, col0 L + 256 * (0 : Fin 2).val] := by
    have h := k1_off172_eq L r 0; simpa [col0] using h
  have hoff1 : k1_off172 L r 256#32 = ![r.val + 80, 0, col0 L + 256 * (1 : Fin 2).val] := by
    have h := k1_off172_eq L r 1; simpa [col0] using h
  unfold k1_t7_body rowInvV2 OutFlightAtV0 OutFlightAtV1
  rw [show r.val + 1 + 80 = r.val + 80 + 1 by omega, Nat.add_sub_cancel]
  iintro ⟨#Hmw, Ht, Hx, ⟨%q0, %fo0, %hq0, %pp0, HF0⟩, ⟨%q1, %fo1, %hq1, %pp1, HF1⟩, HP0, HP1, %W', %hW', HO⟩
  sl_exec
  -- chunk 0: its copy of row n - 1 has landed, at G; the piece of row n leaves the slot's pieces
  ihave Hl0 := (hq0 _) $$ HF0_dst
  ihave Hmid0 := (Entails.of_eq (midV_landed (F := F) d L G 0 (r.val + 80) (by omega) (by omega)).symm) $$ [Hl0 HP0]
  · isplitl [Hl0]; · iexact Hl0
    iexact HP0
  ihave Hsp0 := (Entails.of_eq (midV_next (F := F) d L G 0 (r.val + 80) (by omega))) $$ Hmid0
  icases Hsp0 with ⟨Hp0, HP0⟩
  ihave Hp0' := (take_pieceM (F := F) d L (r.val + 80) (by omega) 0 (k1_off172 L r 0#32) (k1_off172_inb L r 0) hoff0) $$ Hp0
  icases Hp0' with ⟨%p0, Hp0⟩
  ihave Ho0 := (Entails.of_eq (pts_oc0 (F := F) d L _)) $$ HF0_src
  sl_for (invV_t8 d L r.val ft fx) $$ [Ht Hx Ho0]
  case region => intro k acc; exact tripV_t8 d L v2 r _ ft fx hfx k acc
  · unfold invV_t8
    isplitl [Ht]; · iexact Ht
    isplitl [Hx]; · iexact Hx
    iexists fo0; isplitr
    · ipureintro; exact ocVal_zero _ _ _ _ _
    · iexact Ho0
  iintro %a0 HI
  unfold invV_t8
  icases HI with ⟨Ht, Hx, %fo0', %hfo0', Ho0⟩
  sl_exec
  -- chunk 1: its copy of row n - 1 has landed, at G; the piece of row n leaves the slot's pieces
  ihave Hl1 := (hq1 _) $$ HF1_dst
  ihave Hmid1 := (Entails.of_eq (midV_landed (F := F) d L G 1 (r.val + 80) (by omega) (by omega)).symm) $$ [Hl1 HP1]
  · isplitl [Hl1]; · iexact Hl1
    iexact HP1
  ihave Hsp1 := (Entails.of_eq (midV_next (F := F) d L G 1 (r.val + 80) (by omega))) $$ Hmid1
  icases Hsp1 with ⟨Hp1, HP1⟩
  ihave Hp1' := (take_pieceM (F := F) d L (r.val + 80) (by omega) 1 (k1_off172 L r 256#32) (k1_off172_inb L r 1) hoff1) $$ Hp1
  icases Hp1' with ⟨%p1, Hp1⟩
  ihave Ho1 := (Entails.of_eq (pts_oc1 (F := F) d L _)) $$ HF1_src
  sl_for (invV_t9 d L r.val ft fx) $$ [Ht Hx Ho1]
  case region => intro k acc; exact tripV_t9 d L v2 r _ ft fx hfx k acc
  · unfold invV_t9
    isplitl [Ht]; · iexact Ht
    isplitl [Hx]; · iexact Hx
    iexists fo1; isplitr
    · ipureintro; exact ocVal_zero _ _ _ _ _
    · iexact Ho1
  iintro %a1 HI
  unfold invV_t9
  icases HI with ⟨Ht, Hx, %fo1', %hfo1', Ho1⟩
  sl_exec
  sl_step
  isplitr; · iexact Hmw
  isplitl [Ht]; · iexact Ht
  isplitl [Hx]; · iexact Hx
  isplitl [HF0]
  · iexists (pieceM (k1_off172 L r 0#32) (k1_off172_inb L r 0)), fo0'; isplitr
    · ipureintro; intro p
      exact land_pieceV d L G (r.val + 80) (by omega) 0 _ _ hoff0 _
        (chunk_is_G L G ft fx 80 hrows r.val hr 0 fo0' hfo0' (r.val + 80) (by omega) rfl) p
    · iexists p0; iexact HF0
  isplitl [HF1]
  · iexists (pieceM (k1_off172 L r 256#32) (k1_off172_inb L r 1)), fo1'; isplitr
    · ipureintro; intro p
      exact land_pieceV d L G (r.val + 80) (by omega) 1 _ _ hoff1 _
        (chunk_is_G L G ft fx 80 hrows r.val hr 1 fo1' hfo1' (r.val + 80) (by omega) rfl) p
    · iexists p1; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.GroupV3.lean ====
/-
  The group loops of stage 3 with values: a trip keeps, beside the table and the staged index block, that the output
  chunk holds the closed form — the flattened table at index word plus 1000 c — on the columns of the groups done.
-/
import proofs.«203934_g28930899706482_cont_9to1_1937_23_alg».proof.Proof.KI.Group3
import proofs.«203934_g28930899706482_cont_9to1_1937_23_alg».proof.Proof.KI.OcVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- What a trip of the group loop t11 keeps: the flattened table and the staged index block unchanged, the output
    chunk at contents that hold the closed form on the columns of the groups done so far. -/
def invV_t11 (d : Dev nD) (L : grid1.Coords) (r : Nat) (ft : Buf (Elt F) ((tvW).view.loc (thrV d L))) (fx : Buf (Elt F) ((xs1W).view.loc (thrV d L)))
    (g : Nat) (_ : BitVec 32) : sProp 𝕄 :=
  iprop(((tvW).view.loc (thrV d L) ↦{fullShare} ft) ∗ ((xs1W).view.loc (thrV d L) ↦{fullShare} fx)
    ∗ ∃ fo, ⌜OcVal ft fx r 0 g fo⌝ ∗ (oc0W).view.loc (thrV d L) ↦{fullShare} fo)

set_option maxRecDepth 65536 in
/-- One trip of t11: the thirty-two gathered vectors stored into the chunk are the closed form on the group's sixteen
    columns, and the columns of the earlier groups are not touched. -/
theorem tripV_t11 (d : Dev nD) (L : grid1.Coords) (v2 : BitVec 32) (r : Fin k1_t10_loop.trips) (arg14 : BitVec 32)
    (ft : Buf (Elt F) ((tvW).view.loc (thrV d L))) (fx : Buf (Elt F) ((xs1W).view.loc (thrV d L))) (hfx : XsOK fx)
    (g : Fin k1_t11_loop.trips) (acc : BitVec 32) :
    invV_t11 d L r.val ft fx g acc
      ⊢ wp frame (wpE (defs₀ (F := F)) 𝒱₀ (thrV d L) none) Set.univ
          (k1_t11_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (invV_t11 d L r.val ft fx (g.val + 1)) := by
  unfold k1_t11_body
  simp only [k1_part43_eq_skeleton, k1_part44_eq_skeleton, k1_part45_eq_skeleton]
  unfold k1_part43_skel k1_part44_skel k1_part45_skel
  simp only [SparseCore.vectorLoadIdx_bind (c := thrV d L)]
  unfold invV_t11
  iintro ⟨Ht, Hx, %fo, %hfo, Ho⟩
  sl_exec (disch := exact chk_addi _ _ (fun _ => ldrow1_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay199 (View.readAt (Elt F) (xs1W).view
        (Rect.unit (s := S40x512) (k1_off207 r g) S1x16.size (k1_off207_inb r g)).toLoadRect fx) (ix1 l)
          = fx (ix2 (⟨r.val % 40, Nat.mod_lt _ (by decide)⟩ : Fin 40) (⟨(0 + 16 * g.val + l.val) % 512, Nat.mod_lt _ (by decide)⟩ : Fin 512)) :=
      fun l => by
        refine Eq.trans (cast16_apply (View.readAt (Elt F) (xs1W).view
          (Rect.unit (s := S40x512) (k1_off207 r g) S1x16.size (k1_off207_inb r g)).toLoadRect fx) shapeCasts_S1x16_S16 l) ?_
        exact congrArg fx (loadRow_idx r.val 0 g.val hr (by omega) (k1_off207 r g) (k1_off207_inb r g)
          (by rw [k1_off207_eq]; rfl) (by rw [k1_off207_eq]; show 16 * g.val = 0 + 16 * g.val; omega) l)
    refine ocVal_step_oc0 d L ft fx r.val 0 g.val fo _ ?hG ?hset ?hcov hfo
    case hG =>
      exact (List.forall_mem_cons.mpr ⟨piece_G ft fx hfx r.val 0 g.val _ hXs 31 (by decide) _ (k1_off239_inb g) (by rw [k1_off239_eq]; rfl) (by rw [k1_off239_eq]; rfl) _ (Memref.readAt_whole (Elt F) cc1_scratch0 ft) _ _,
      (List.forall_mem_cons.mpr ⟨piece_G ft fx hfx r.val 0 g.val _ hXs 30 (by decide) _ (k1_off238_inb g) (by rw [k1_off238_eq]; rfl) (by rw [k1_off238_eq]; rfl) _ (Memref.readAt_whole (Elt F) cc1_scratch0 ft) _ _,
      (List.forall_mem_cons.mpr ⟨piece_G ft fx hfx r.val 0 g.val _ hXs 29 (by decide) _ (k1_off237_inb g) (by rw [k1_off237_eq]; rfl) (by rw [k1_off237_eq]; rfl) _ (Memref.readAt_whole (Elt F) cc1_scratch0 ft) _ _,
      (List.forall_mem_cons.mpr ⟨piece_G ft fx hfx r.val 0 g.val _ hXs 28 (by decide) _ (k1_off236_inb g) (by rw [k1_off236_eq]; rfl) (by rw [k1_off236_eq]; rfl) _ (Memref.readAt_whole (Elt F) cc1_scratch0 ft) _ _,
      (List.forall_mem_cons.mpr ⟨piece_G ft fx hfx r.val 0 g.val _ hXs 27 (by decide) _ (k1_off235_inb g) (by rw [k1_off235_eq]; rfl) (by rw [k1_off235_eq]; rfl) _ (Memref.readAt_whole (Elt F) cc1_scratch0 ft) _ _,
      (List.forall_mem_cons.mpr ⟨piece_G ft fx hfx r.val 0 g.val _ hXs 26 (by decide) _ (k1_off234_inb g) (by rw [k1_off234_eq]; rfl) (by rw [k1_off234_eq]; rfl) _ (Memref.readAt_whole (Elt F) cc1_scratch0 ft) _ _,
      (List.forall_mem_cons.mpr ⟨piece_G ft fx hfx r.val 0 g.val _ hXs 25 (by decide) _ (k1_off233_inb g) (by rw [k1_off233_eq]; rfl) (by rw [k1_off233_eq]; rfl) _ (Memref.readAt_whole (Elt F) cc1_scratch0 ft) _ _,
      (List.forall_mem_cons.mpr ⟨piece_G ft fx hfx r.val 0 g.val _ hXs 24 (by decide) _ (k1_off232_inb g) (by rw [k1_off232_eq]; rfl) (by rw [k1_off232_eq]; rfl) _ (Memref.readAt_whole (Elt F) cc1_scratch0 ft) _ _,
      (List.forall_mem_cons.mpr ⟨piece_G ft fx hfx r.val 0 g.val _ hXs 23 (by decide) _ (k1_off231_inb g) (by rw [k1_off231_eq]; rfl) (by rw [k1_off231_eq]; rfl) _ (Memref.readAt_whole (Elt F) cc1_scratch0 ft) _ _,
      (List.forall_mem_cons.mpr ⟨piece_G ft fx hfx r.val 0 g.val _ hXs 22 (by decide) _ (k1_off230_inb g) (by rw [k1_off230_eq]; rfl) (by rw [k1_off230_eq]; rfl) _ (Memref.readAt_whole (Elt F) cc1_scratch0 ft) _ _,
      (List.forall_mem_cons.mpr ⟨piece_G ft fx hfx r.val 0 g.val _ hXs 21 (by decide) _ (k1_off229_inb g) (by rw [k1_off229_eq]; rfl) (by rw [k1_off229_eq]; rfl) _ (Memref.readAt_whole (Elt F) cc1_scratch0 ft) _ _,
      (List.forall_mem_cons.mpr ⟨piece_G ft fx hfx r.val 0 g.val _ hXs 20 (by decide) _ (k1_off228_inb g) (by rw [k1_off228_eq]; rfl) (by rw [k1_off228_eq]; rfl) _ (Memref.readAt_whole (Elt F) cc1_scratch0 ft) _ _,
      (List.forall_mem_cons.mpr ⟨piece_G ft fx hfx r.val 0 g.val _ hXs 19 (by decide) _ (k1_off227_inb g) (by rw [k1_off227_eq]; rfl) (by rw [k1_off227_eq]; rfl) _ (Memref.readAt_whole (Elt F) cc1_scratch0 ft) _ _,
      (List.forall_mem_cons.mpr ⟨piece_G ft fx hfx r.val 0 g.val _ hXs 18 (by decide) _ (k1_off226_inb g) (by rw [k1_off226_eq]; rfl) (by rw [k1_off226_eq]; rfl) _ (Memref.readAt_whole (Elt F) cc1_scratch0 ft) _ _,
      (List.forall_mem_cons.mpr ⟨piece_G ft fx hfx r.val 0 g.val _ hXs 17 (by decide) _ (k1_off225_inb g) (by rw [k1_off225_eq]; rfl) (by rw [k1_off225_eq]; rfl) _ (Memref.readAt_whole (Elt F) cc1_scratch0 ft) _ _,
      (List.forall_mem_cons.mpr ⟨piece_G ft fx hfx r.val 0 g.val _ hXs 16 (by decide) _ (k1_off224_inb g) (by rw [k1_off224_eq]; rfl) (by rw [k1_off224_eq]; rfl) _ (Memref.readAt_whole (Elt F) cc1_scratch0 ft) _ _,
      (List.forall_mem_cons.mpr ⟨piece_G ft fx hfx r.val 0 g.val _ hXs 15 (by decide) _ (k1_off223_inb g) (by rw [k1_off223_eq]; rfl) (by rw [k1_off223_eq]; rfl) _ (Memref.readAt_whole (Elt F) cc1_scratch0 ft) _ _,
      (List.forall_mem_cons.mpr ⟨piece_G ft fx hfx r.val 0 g.val _ hXs 14 (by decide) _ (k1_off222_inb g) (by rw [k1_off222_eq]; rfl) (by rw [k1_off222_eq]; rfl) _ (Memref.readAt_whole (Elt F) cc1_scratch0 ft) _ _,
      (List.forall_mem_cons.mpr ⟨piece_G ft fx hfx r.val 0 g.val _ hXs 13 (by decide) _ (k1_off221_inb g) (by rw [k1_off221_eq]; rfl) (by rw [k1_off221_eq]; rfl) _ (Memref.readAt_whole (Elt F) cc1_scratch0 ft) _ _,
      (List.forall_mem_cons.mpr ⟨piece_G ft fx hfx r.val 0 g.val _ hXs 12 (by decide) _ (k1_off220_inb g) (by rw [k1_off220_eq]; rfl) (by rw [k1_off220_eq]; rfl) _ (Memref.readAt_whole (Elt F) cc1_scratch0 ft) _ _,
      (List.forall_mem_cons.mpr ⟨piece_G ft fx hfx r.val 0 g.val _ hXs 11 (by decide) _ (k1_off219_inb g) (by rw [k1_off219_eq]; rfl) (by rw [k1_off219_eq]; rfl) _ (Memref.readAt_whole (Elt F) cc1_scratch0 ft) _ _,
      (List.forall_mem_cons.mpr ⟨piece_G ft fx hfx r.val 0 g.val _ hXs 10 (by decide) _ (k1_off218_inb g) (by rw [k1_off218_eq]; rfl) (by rw [k1_off218_eq]; rfl) _ (Memref.readAt_whole (Elt F) cc1_scratch0 ft) _ _,
      (List.forall_mem_cons.mpr ⟨piece_G ft fx hfx r.val 0 g.val _ hXs 9 (by decide) _ (k1_off217_inb g) (by rw [k1_off217_eq]; rfl) (by rw [k1_off217_eq]; rfl) _ (Memref.readAt_whole (Elt F) cc1_scratch0 ft) _ _,
      (List.forall_mem_cons.mpr ⟨piece_G ft fx hfx r.val 0 g.val _ hXs 8 (by decide) _ (k1_off216_inb g) (by rw [k1_off216_eq]; rfl) (by rw [k1_off216_eq]; rfl) _ (Memref.readAt_whole (Elt F) cc1_scratch0 ft) _ _,
      (List.forall_mem_cons.mpr ⟨piece_G ft fx hfx r.val 0 g.val _ hXs 7 (by decide) _ (k1_off215_inb g) (by rw [k1_off215_eq]; rfl) (by rw [k1_off215_eq]; rfl) _ (Memref.readAt_whole (Elt F) cc1_scratch0 ft) _ _,
      (List.forall_mem_cons.mpr ⟨piece_G ft fx hfx r.val 0 g.val _ hXs 6 (by decide) _ (k1_off214_inb g) (by rw [k1_off214_eq]; rfl) (by rw [k1_off214_eq]; rfl) _ (Memref.readAt_whole (Elt F) cc1_scratch0 ft) _ _,
      (List.forall_mem_cons.mpr ⟨piece_G ft fx hfx r.val 0 g.val _ hXs 5 (by decide) _ (k1_off213_inb g) (by rw [k1_off213_eq]; rfl) (by rw [k1_off213_eq]; rfl) _ (Memref.readAt_whole (Elt F) cc1_scratch0 ft) _ _,
      (List.forall_mem_cons.mpr ⟨piece_G ft fx hfx r.val 0 g.val _ hXs 4 (by decide) _ (k1_off212_inb g) (by rw [k1_off212_eq]; rfl) (by rw [k1_off212_eq]; rfl) _ (Memref.readAt_whole (Elt F) cc1_scratch0 ft) _ _,
      (List.forall_mem_cons.mpr ⟨piece_G ft fx hfx r.val 0 g.val _ hXs 3 (by decide) _ (k1_off211_inb g) (by rw [k1_off211_eq]; rfl) (by rw [k1_off211_eq]; rfl) _ (Memref.readAt_whole (Elt F) cc1_scratch0 ft) _ _,
      (List.forall_mem_cons.mpr ⟨piece_G ft fx hfx r.val 0 g.val _ hXs 2 (by decide) _ (k1_off210_inb g) (by rw [k1_off210_eq]; rfl) (by rw [k1_off210_eq]; rfl) _ (Memref.readAt_whole (Elt F) cc1_scratch0 ft) _ _,
      (List.forall_mem_cons.mpr ⟨piece_G ft fx hfx r.val 0 g.val _ hXs 1 (by decide) _ (k1_off209_inb g) (by rw [k1_off209_eq]; rfl) (by rw [k1_off209_eq]; rfl) _ (Memref.readAt_whole (Elt F) cc1_scratch0 ft) _ _,
      (List.forall_mem_cons.mpr ⟨piece_G ft fx hfx r.val 0 g.val _ hXs 0 (by decide) _ (k1_off208_inb g) (by rw [k1_off208_eq]; rfl) (by rw [k1_off208_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off239_inb g) g.val (by rw [k1_off239_eq]; rfl),
      (List.forall_mem_cons.mpr ⟨unit16_lb (inb := k1_off238_inb g) g.val (by rw [k1_off238_eq]; rfl),
      (List.forall_mem_cons.mpr ⟨unit16_lb (inb := k1_off237_inb g) g.val (by rw [k1_off237_eq]; rfl),
      (List.forall_mem_cons.mpr ⟨unit16_lb (inb := k1_off236_inb g) g.val (by rw [k1_off236_eq]; rfl),
      (List.forall_mem_cons.mpr ⟨unit16_lb (inb := k1_off235_inb g) g.val (by rw [k1_off235_eq]; rfl),
      (List.forall_mem_cons.mpr ⟨unit16_lb (inb := k1_off234_inb g) g.val (by rw [k1_off234_eq]; rfl),
      (List.forall_mem_cons.mpr ⟨unit16_lb (inb := k1_off233_inb g) g.val (by rw [k1_off233_eq]; rfl),
      (List.forall_mem_cons.mpr ⟨unit16_lb (inb := k1_off232_inb g) g.val (by rw [k1_off232_eq]; rfl),
      (List.forall_mem_cons.mpr ⟨unit16_lb (inb := k1_off231_inb g) g.val (by rw [k1_off231_eq]; rfl),
      (List.forall_mem_cons.mpr ⟨unit16_lb (inb := k1_off230_inb g) g.val (by rw [k1_off230_eq]; rfl),
      (List.forall_mem_cons.mpr ⟨unit16_lb (inb := k1_off229_inb g) g.val (by rw [k1_off229_eq]; rfl),
      (List.forall_mem_cons.mpr ⟨unit16_lb (inb := k1_off228_inb g) g.val (by rw [k1_off228_eq]; rfl),
      (List.forall_mem_cons.mpr ⟨unit16_lb (inb := k1_off227_inb g) g.val (by rw [k1_off227_eq]; rfl),
      (List.forall_mem_cons.mpr ⟨unit16_lb (inb := k1_off226_inb g) g.val (by rw [k1_off226_eq]; rfl),
      (List.forall_mem_cons.mpr ⟨unit16_lb (inb := k1_off225_inb g) g.val (by rw [k1_off225_eq]; rfl),
      (List.forall_mem_cons.mpr ⟨unit16_lb (inb := k1_off224_inb g) g.val (by rw [k1_off224_eq]; rfl),
      (List.forall_mem_cons.mpr ⟨unit16_lb (inb := k1_off223_inb g) g.val (by rw [k1_off223_eq]; rfl),
      (List.forall_mem_cons.mpr ⟨unit16_lb (inb := k1_off222_inb g) g.val (by rw [k1_off222_eq]; rfl),
      (List.forall_mem_cons.mpr ⟨unit16_lb (inb := k1_off221_inb g) g.val (by rw [k1_off221_eq]; rfl),
      (List.forall_mem_cons.mpr ⟨unit16_lb (inb := k1_off220_inb g) g.val (by rw [k1_off220_eq]; rfl),
      (List.forall_mem_cons.mpr ⟨unit16_lb (inb := k1_off219_inb g) g.val (by rw [k1_off219_eq]; rfl),
      (List.forall_mem_cons.mpr ⟨unit16_lb (inb := k1_off218_inb g) g.val (by rw [k1_off218_eq]; rfl),
      (List.forall_mem_cons.mpr ⟨unit16_lb (inb := k1_off217_inb g) g.val (by rw [k1_off217_eq]; rfl),
      (List.forall_mem_cons.mpr ⟨unit16_lb (inb := k1_off216_inb g) g.val (by rw [k1_off216_eq]; rfl),
      (List.forall_mem_cons.mpr ⟨unit16_lb (inb := k1_off215_inb g) g.val (by rw [k1_off215_eq]; rfl),
      (List.forall_mem_cons.mpr ⟨unit16_lb (inb := k1_off214_inb g) g.val (by rw [k1_off214_eq]; rfl),
      (List.forall_mem_cons.mpr ⟨unit16_lb (inb := k1_off213_inb g) g.val (by rw [k1_off213_eq]; rfl),
      (List.forall_mem_cons.mpr ⟨unit16_lb (inb := k1_off212_inb g) g.val (by rw [k1_off212_eq]; rfl),
      (List.forall_mem_cons.mpr ⟨unit16_lb (inb := k1_off211_inb g) g.val (by rw [k1_off211_eq]; rfl),
      (List.forall_mem_cons.mpr ⟨unit16_lb (inb := k1_off210_inb g) g.val (by rw [k1_off210_eq]; rfl),
      (List.forall_mem_cons.mpr ⟨unit16_lb (inb := k1_off209_inb g) g.val (by rw [k1_off209_eq]; rfl),
      (List.forall_mem_cons.mpr ⟨unit16_lb (inb := k1_off208_inb g) g.val (by rw [k1_off208_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off208_inb g) 0 g.val (by rw [k1_off208_eq]; rfl) (by rw [k1_off208_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off209_inb g) 1 g.val (by rw [k1_off209_eq]; rfl) (by rw [k1_off209_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off210_inb g) 2 g.val (by rw [k1_off210_eq]; rfl) (by rw [k1_off210_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off211_inb g) 3 g.val (by rw [k1_off211_eq]; rfl) (by rw [k1_off211_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off212_inb g) 4 g.val (by rw [k1_off212_eq]; rfl) (by rw [k1_off212_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off213_inb g) 5 g.val (by rw [k1_off213_eq]; rfl) (by rw [k1_off213_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off214_inb g) 6 g.val (by rw [k1_off214_eq]; rfl) (by rw [k1_off214_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off215_inb g) 7 g.val (by rw [k1_off215_eq]; rfl) (by rw [k1_off215_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off216_inb g) 8 g.val (by rw [k1_off216_eq]; rfl) (by rw [k1_off216_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off217_inb g) 9 g.val (by rw [k1_off217_eq]; rfl) (by rw [k1_off217_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off218_inb g) 10 g.val (by rw [k1_off218_eq]; rfl) (by rw [k1_off218_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off219_inb g) 11 g.val (by rw [k1_off219_eq]; rfl) (by rw [k1_off219_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off220_inb g) 12 g.val (by rw [k1_off220_eq]; rfl) (by rw [k1_off220_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off221_inb g) 13 g.val (by rw [k1_off221_eq]; rfl) (by rw [k1_off221_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off222_inb g) 14 g.val (by rw [k1_off222_eq]; rfl) (by rw [k1_off222_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off223_inb g) 15 g.val (by rw [k1_off223_eq]; rfl) (by rw [k1_off223_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off224_inb g) 16 g.val (by rw [k1_off224_eq]; rfl) (by rw [k1_off224_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off225_inb g) 17 g.val (by rw [k1_off225_eq]; rfl) (by rw [k1_off225_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off226_inb g) 18 g.val (by rw [k1_off226_eq]; rfl) (by rw [k1_off226_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off227_inb g) 19 g.val (by rw [k1_off227_eq]; rfl) (by rw [k1_off227_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off228_inb g) 20 g.val (by rw [k1_off228_eq]; rfl) (by rw [k1_off228_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off229_inb g) 21 g.val (by rw [k1_off229_eq]; rfl) (by rw [k1_off229_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off230_inb g) 22 g.val (by rw [k1_off230_eq]; rfl) (by rw [k1_off230_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off231_inb g) 23 g.val (by rw [k1_off231_eq]; rfl) (by rw [k1_off231_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off232_inb g) 24 g.val (by rw [k1_off232_eq]; rfl) (by rw [k1_off232_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off233_inb g) 25 g.val (by rw [k1_off233_eq]; rfl) (by rw [k1_off233_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off234_inb g) 26 g.val (by rw [k1_off234_eq]; rfl) (by rw [k1_off234_eq]; rfl) y h hy1 hy2⟩
      · exact ⟨_, List.mem_cons_of_mem _ (List.mem_cons_of_mem _ (List.mem_cons_of_mem _ (List.mem_cons_of_mem _ (List.mem_cons_self)))), unit16_mem (inb := k1_off235_inb g) 27 g.val (by rw [k1_off235_eq]; rfl) (by rw [k1_off235_eq]; rfl) y h hy1 hy2⟩
      · exact ⟨_, List.mem_cons_of_mem _ (List.mem_cons_of_mem _ (List.mem_cons_of_mem _ (List.mem_cons_self))), unit16_mem (inb := k1_off236_inb g) 28 g.val (by rw [k1_off236_eq]; rfl) (by rw [k1_off236_eq]; rfl) y h hy1 hy2⟩
      · exact ⟨_, List.mem_cons_of_mem _ (List.mem_cons_of_mem _ (List.mem_cons_self)), unit16_mem (inb := k1_off237_inb g) 29 g.val (by rw [k1_off237_eq]; rfl) (by rw [k1_off237_eq]; rfl) y h hy1 hy2⟩
      · exact ⟨_, List.mem_cons_of_mem _ (List.mem_cons_self), unit16_mem (inb := k1_off238_inb g) 30 g.val (by rw [k1_off238_eq]; rfl) (by rw [k1_off238_eq]; rfl) y h hy1 hy2⟩
      · exact ⟨_, List.mem_cons_self, unit16_mem (inb := k1_off239_inb g) 31 g.val (by rw [k1_off239_eq]; rfl) (by rw [k1_off239_eq]; rfl) y h hy1 hy2⟩

/-- What a trip of the group loop t12 keeps: the flattened table and the staged index block unchanged, the output
    chunk at contents that hold the closed form on the columns of the groups done so far. -/
def invV_t12 (d : Dev nD) (L : grid1.Coords) (r : Nat) (ft : Buf (Elt F) ((tvW).view.loc (thrV d L))) (fx : Buf (Elt F) ((xs1W).view.loc (thrV d L)))
    (g : Nat) (_ : BitVec 32) : sProp 𝕄 :=
  iprop(((tvW).view.loc (thrV d L) ↦{fullShare} ft) ∗ ((xs1W).view.loc (thrV d L) ↦{fullShare} fx)
    ∗ ∃ fo, ⌜OcVal ft fx r 256 g fo⌝ ∗ (oc1W).view.loc (thrV d L) ↦{fullShare} fo)

set_option maxRecDepth 65536 in
/-- One trip of t12: the thirty-two gathered vectors stored into the chunk are the closed form on the group's sixteen
    columns, and the columns of the earlier groups are not touched. -/
theorem tripV_t12 (d : Dev nD) (L : grid1.Coords) (v2 : BitVec 32) (r : Fin k1_t10_loop.trips) (arg14 : BitVec 32)
    (ft : Buf (Elt F) ((tvW).view.loc (thrV d L))) (fx : Buf (Elt F) ((xs1W).view.loc (thrV d L))) (hfx : XsOK fx)
    (g : Fin k1_t12_loop.trips) (acc : BitVec 32) :
    invV_t12 d L r.val ft fx g acc
      ⊢ wp frame (wpE (defs₀ (F := F)) 𝒱₀ (thrV d L) none) Set.univ
          (k1_t12_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (invV_t12 d L r.val ft fx (g.val + 1)) := by
  unfold k1_t12_body
  simp only [k1_part50_eq_skeleton, k1_part51_eq_skeleton, k1_part52_eq_skeleton]
  unfold k1_part50_skel k1_part51_skel k1_part52_skel
  simp only [SparseCore.vectorLoadIdx_bind (c := thrV d L)]
  unfold invV_t12
  iintro ⟨Ht, Hx, %fo, %hfo, Ho⟩
  sl_exec (disch := exact chk_addi _ _ (fun _ => ldrow1_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay232 (View.readAt (Elt F) (xs1W).view
        (Rect.unit (s := S40x512) (k1_off241 r g) S1x16.size (k1_off241_inb r g)).toLoadRect fx) (ix1 l)
          = fx (ix2 (⟨r.val % 40, Nat.mod_lt _ (by decide)⟩ : Fin 40) (⟨(256 + 16 * g.val + l.val) % 512, Nat.mod_lt _ (by decide)⟩ : Fin 512)) :=
      fun l => by
        refine Eq.trans (cast16_apply (View.readAt (Elt F) (xs1W).view
          (Rect.unit (s := S40x512) (k1_off241 r g) S1x16.size (k1_off241_inb r g)).toLoadRect fx) shapeCasts_S1x16_S16 l) ?_
        exact congrArg fx (loadRow_idx r.val 256 g.val hr (by omega) (k1_off241 r g) (k1_off241_inb r g)
          (by rw [k1_off241_eq]; rfl) (by rw [k1_off241_eq]; show 16 * g.val + 256 = 256 + 16 * g.val; omega) l)
    refine ocVal_step_oc1 d L ft fx r.val 256 g.val fo _ ?hG ?hset ?hcov hfo
    case hG =>
      exact (List.forall_mem_cons.mpr ⟨piece_G ft fx hfx r.val 256 g.val _ hXs 31 (by decide) _ (k1_off273_inb g) (by rw [k1_off273_eq]; rfl) (by rw [k1_off273_eq]; rfl) _ (Memref.readAt_whole (Elt F) cc1_scratch0 ft) _ _,
      (List.forall_mem_cons.mpr ⟨piece_G ft fx hfx r.val 256 g.val _ hXs 30 (by decide) _ (k1_off272_inb g) (by rw [k1_off272_eq]; rfl) (by rw [k1_off272_eq]; rfl) _ (Memref.readAt_whole (Elt F) cc1_scratch0 ft) _ _,
      (List.forall_mem_cons.mpr ⟨piece_G ft fx hfx r.val 256 g.val _ hXs 29 (by decide) _ (k1_off271_inb g) (by rw [k1_off271_eq]; rfl) (by rw [k1_off271_eq]; rfl) _ (Memref.readAt_whole (Elt F) cc1_scratch0 ft) _ _,
      (List.forall_mem_cons.mpr ⟨piece_G ft fx hfx r.val 256 g.val _ hXs 28 (by decide) _ (k1_off270_inb g) (by rw [k1_off270_eq]; rfl) (by rw [k1_off270_eq]; rfl) _ (Memref.readAt_whole (Elt F) cc1_scratch0 ft) _ _,
      (List.forall_mem_cons.mpr ⟨piece_G ft fx hfx r.val 256 g.val _ hXs 27 (by decide) _ (k1_off269_inb g) (by rw [k1_off269_eq]; rfl) (by rw [k1_off269_eq]; rfl) _ (Memref.readAt_whole (Elt F) cc1_scratch0 ft) _ _,
      (List.forall_mem_cons.mpr ⟨piece_G ft fx hfx r.val 256 g.val _ hXs 26 (by decide) _ (k1_off268_inb g) (by rw [k1_off268_eq]; rfl) (by rw [k1_off268_eq]; rfl) _ (Memref.readAt_whole (Elt F) cc1_scratch0 ft) _ _,
      (List.forall_mem_cons.mpr ⟨piece_G ft fx hfx r.val 256 g.val _ hXs 25 (by decide) _ (k1_off267_inb g) (by rw [k1_off267_eq]; rfl) (by rw [k1_off267_eq]; rfl) _ (Memref.readAt_whole (Elt F) cc1_scratch0 ft) _ _,
      (List.forall_mem_cons.mpr ⟨piece_G ft fx hfx r.val 256 g.val _ hXs 24 (by decide) _ (k1_off266_inb g) (by rw [k1_off266_eq]; rfl) (by rw [k1_off266_eq]; rfl) _ (Memref.readAt_whole (Elt F) cc1_scratch0 ft) _ _,
      (List.forall_mem_cons.mpr ⟨piece_G ft fx hfx r.val 256 g.val _ hXs 23 (by decide) _ (k1_off265_inb g) (by rw [k1_off265_eq]; rfl) (by rw [k1_off265_eq]; rfl) _ (Memref.readAt_whole (Elt F) cc1_scratch0 ft) _ _,
      (List.forall_mem_cons.mpr ⟨piece_G ft fx hfx r.val 256 g.val _ hXs 22 (by decide) _ (k1_off264_inb g) (by rw [k1_off264_eq]; rfl) (by rw [k1_off264_eq]; rfl) _ (Memref.readAt_whole (Elt F) cc1_scratch0 ft) _ _,
      (List.forall_mem_cons.mpr ⟨piece_G ft fx hfx r.val 256 g.val _ hXs 21 (by decide) _ (k1_off263_inb g) (by rw [k1_off263_eq]; rfl) (by rw [k1_off263_eq]; rfl) _ (Memref.readAt_whole (Elt F) cc1_scratch0 ft) _ _,
      (List.forall_mem_cons.mpr ⟨piece_G ft fx hfx r.val 256 g.val _ hXs 20 (by decide) _ (k1_off262_inb g) (by rw [k1_off262_eq]; rfl) (by rw [k1_off262_eq]; rfl) _ (Memref.readAt_whole (Elt F) cc1_scratch0 ft) _ _,
      (List.forall_mem_cons.mpr ⟨piece_G ft fx hfx r.val 256 g.val _ hXs 19 (by decide) _ (k1_off261_inb g) (by rw [k1_off261_eq]; rfl) (by rw [k1_off261_eq]; rfl) _ (Memref.readAt_whole (Elt F) cc1_scratch0 ft) _ _,
      (List.forall_mem_cons.mpr ⟨piece_G ft fx hfx r.val 256 g.val _ hXs 18 (by decide) _ (k1_off260_inb g) (by rw [k1_off260_eq]; rfl) (by rw [k1_off260_eq]; rfl) _ (Memref.readAt_whole (Elt F) cc1_scratch0 ft) _ _,
      (List.forall_mem_cons.mpr ⟨piece_G ft fx hfx r.val 256 g.val _ hXs 17 (by decide) _ (k1_off259_inb g) (by rw [k1_off259_eq]; rfl) (by rw [k1_off259_eq]; rfl) _ (Memref.readAt_whole (Elt F) cc1_scratch0 ft) _ _,
      (List.forall_mem_cons.mpr ⟨piece_G ft fx hfx r.val 256 g.val _ hXs 16 (by decide) _ (k1_off258_inb g) (by rw [k1_off258_eq]; rfl) (by rw [k1_off258_eq]; rfl) _ (Memref.readAt_whole (Elt F) cc1_scratch0 ft) _ _,
      (List.forall_mem_cons.mpr ⟨piece_G ft fx hfx r.val 256 g.val _ hXs 15 (by decide) _ (k1_off257_inb g) (by rw [k1_off257_eq]; rfl) (by rw [k1_off257_eq]; rfl) _ (Memref.readAt_whole (Elt F) cc1_scratch0 ft) _ _,
      (List.forall_mem_cons.mpr ⟨piece_G ft fx hfx r.val 256 g.val _ hXs 14 (by decide) _ (k1_off256_inb g) (by rw [k1_off256_eq]; rfl) (by rw [k1_off256_eq]; rfl) _ (Memref.readAt_whole (Elt F) cc1_scratch0 ft) _ _,
      (List.forall_mem_cons.mpr ⟨piece_G ft fx hfx r.val 256 g.val _ hXs 13 (by decide) _ (k1_off255_inb g) (by rw [k1_off255_eq]; rfl) (by rw [k1_off255_eq]; rfl) _ (Memref.readAt_whole (Elt F) cc1_scratch0 ft) _ _,
      (List.forall_mem_cons.mpr ⟨piece_G ft fx hfx r.val 256 g.val _ hXs 12 (by decide) _ (k1_off254_inb g) (by rw [k1_off254_eq]; rfl) (by rw [k1_off254_eq]; rfl) _ (Memref.readAt_whole (Elt F) cc1_scratch0 ft) _ _,
      (List.forall_mem_cons.mpr ⟨piece_G ft fx hfx r.val 256 g.val _ hXs 11 (by decide) _ (k1_off253_inb g) (by rw [k1_off253_eq]; rfl) (by rw [k1_off253_eq]; rfl) _ (Memref.readAt_whole (Elt F) cc1_scratch0 ft) _ _,
      (List.forall_mem_cons.mpr ⟨piece_G ft fx hfx r.val 256 g.val _ hXs 10 (by decide) _ (k1_off252_inb g) (by rw [k1_off252_eq]; rfl) (by rw [k1_off252_eq]; rfl) _ (Memref.readAt_whole (Elt F) cc1_scratch0 ft) _ _,
      (List.forall_mem_cons.mpr ⟨piece_G ft fx hfx r.val 256 g.val _ hXs 9 (by decide) _ (k1_off251_inb g) (by rw [k1_off251_eq]; rfl) (by rw [k1_off251_eq]; rfl) _ (Memref.readAt_whole (Elt F) cc1_scratch0 ft) _ _,
      (List.forall_mem_cons.mpr ⟨piece_G ft fx hfx r.val 256 g.val _ hXs 8 (by decide) _ (k1_off250_inb g) (by rw [k1_off250_eq]; rfl) (by rw [k1_off250_eq]; rfl) _ (Memref.readAt_whole (Elt F) cc1_scratch0 ft) _ _,
      (List.forall_mem_cons.mpr ⟨piece_G ft fx hfx r.val 256 g.val _ hXs 7 (by decide) _ (k1_off249_inb g) (by rw [k1_off249_eq]; rfl) (by rw [k1_off249_eq]; rfl) _ (Memref.readAt_whole (Elt F) cc1_scratch0 ft) _ _,
      (List.forall_mem_cons.mpr ⟨piece_G ft fx hfx r.val 256 g.val _ hXs 6 (by decide) _ (k1_off248_inb g) (by rw [k1_off248_eq]; rfl) (by rw [k1_off248_eq]; rfl) _ (Memref.readAt_whole (Elt F) cc1_scratch0 ft) _ _,
      (List.forall_mem_cons.mpr ⟨piece_G ft fx hfx r.val 256 g.val _ hXs 5 (by decide) _ (k1_off247_inb g) (by rw [k1_off247_eq]; rfl) (by rw [k1_off247_eq]; rfl) _ (Memref.readAt_whole (Elt F) cc1_scratch0 ft) _ _,
      (List.forall_mem_cons.mpr ⟨piece_G ft fx hfx r.val 256 g.val _ hXs 4 (by decide) _ (k1_off246_inb g) (by rw [k1_off246_eq]; rfl) (by rw [k1_off246_eq]; rfl) _ (Memref.readAt_whole (Elt F) cc1_scratch0 ft) _ _,
      (List.forall_mem_cons.mpr ⟨piece_G ft fx hfx r.val 256 g.val _ hXs 3 (by decide) _ (k1_off245_inb g) (by rw [k1_off245_eq]; rfl) (by rw [k1_off245_eq]; rfl) _ (Memref.readAt_whole (Elt F) cc1_scratch0 ft) _ _,
      (List.forall_mem_cons.mpr ⟨piece_G ft fx hfx r.val 256 g.val _ hXs 2 (by decide) _ (k1_off244_inb g) (by rw [k1_off244_eq]; rfl) (by rw [k1_off244_eq]; rfl) _ (Memref.readAt_whole (Elt F) cc1_scratch0 ft) _ _,
      (List.forall_mem_cons.mpr ⟨piece_G ft fx hfx r.val 256 g.val _ hXs 1 (by decide) _ (k1_off243_inb g) (by rw [k1_off243_eq]; rfl) (by rw [k1_off243_eq]; rfl) _ (Memref.readAt_whole (Elt F) cc1_scratch0 ft) _ _,
      (List.forall_mem_cons.mpr ⟨piece_G ft fx hfx r.val 256 g.val _ hXs 0 (by decide) _ (k1_off242_inb g) (by rw [k1_off242_eq]; rfl) (by rw [k1_off242_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off273_inb g) g.val (by rw [k1_off273_eq]; rfl),
      (List.forall_mem_cons.mpr ⟨unit16_lb (inb := k1_off272_inb g) g.val (by rw [k1_off272_eq]; rfl),
      (List.forall_mem_cons.mpr ⟨unit16_lb (inb := k1_off271_inb g) g.val (by rw [k1_off271_eq]; rfl),
      (List.forall_mem_cons.mpr ⟨unit16_lb (inb := k1_off270_inb g) g.val (by rw [k1_off270_eq]; rfl),
      (List.forall_mem_cons.mpr ⟨unit16_lb (inb := k1_off269_inb g) g.val (by rw [k1_off269_eq]; rfl),
      (List.forall_mem_cons.mpr ⟨unit16_lb (inb := k1_off268_inb g) g.val (by rw [k1_off268_eq]; rfl),
      (List.forall_mem_cons.mpr ⟨unit16_lb (inb := k1_off267_inb g) g.val (by rw [k1_off267_eq]; rfl),
      (List.forall_mem_cons.mpr ⟨unit16_lb (inb := k1_off266_inb g) g.val (by rw [k1_off266_eq]; rfl),
      (List.forall_mem_cons.mpr ⟨unit16_lb (inb := k1_off265_inb g) g.val (by rw [k1_off265_eq]; rfl),
      (List.forall_mem_cons.mpr ⟨unit16_lb (inb := k1_off264_inb g) g.val (by rw [k1_off264_eq]; rfl),
      (List.forall_mem_cons.mpr ⟨unit16_lb (inb := k1_off263_inb g) g.val (by rw [k1_off263_eq]; rfl),
      (List.forall_mem_cons.mpr ⟨unit16_lb (inb := k1_off262_inb g) g.val (by rw [k1_off262_eq]; rfl),
      (List.forall_mem_cons.mpr ⟨unit16_lb (inb := k1_off261_inb g) g.val (by rw [k1_off261_eq]; rfl),
      (List.forall_mem_cons.mpr ⟨unit16_lb (inb := k1_off260_inb g) g.val (by rw [k1_off260_eq]; rfl),
      (List.forall_mem_cons.mpr ⟨unit16_lb (inb := k1_off259_inb g) g.val (by rw [k1_off259_eq]; rfl),
      (List.forall_mem_cons.mpr ⟨unit16_lb (inb := k1_off258_inb g) g.val (by rw [k1_off258_eq]; rfl),
      (List.forall_mem_cons.mpr ⟨unit16_lb (inb := k1_off257_inb g) g.val (by rw [k1_off257_eq]; rfl),
      (List.forall_mem_cons.mpr ⟨unit16_lb (inb := k1_off256_inb g) g.val (by rw [k1_off256_eq]; rfl),
      (List.forall_mem_cons.mpr ⟨unit16_lb (inb := k1_off255_inb g) g.val (by rw [k1_off255_eq]; rfl),
      (List.forall_mem_cons.mpr ⟨unit16_lb (inb := k1_off254_inb g) g.val (by rw [k1_off254_eq]; rfl),
      (List.forall_mem_cons.mpr ⟨unit16_lb (inb := k1_off253_inb g) g.val (by rw [k1_off253_eq]; rfl),
      (List.forall_mem_cons.mpr ⟨unit16_lb (inb := k1_off252_inb g) g.val (by rw [k1_off252_eq]; rfl),
      (List.forall_mem_cons.mpr ⟨unit16_lb (inb := k1_off251_inb g) g.val (by rw [k1_off251_eq]; rfl),
      (List.forall_mem_cons.mpr ⟨unit16_lb (inb := k1_off250_inb g) g.val (by rw [k1_off250_eq]; rfl),
      (List.forall_mem_cons.mpr ⟨unit16_lb (inb := k1_off249_inb g) g.val (by rw [k1_off249_eq]; rfl),
      (List.forall_mem_cons.mpr ⟨unit16_lb (inb := k1_off248_inb g) g.val (by rw [k1_off248_eq]; rfl),
      (List.forall_mem_cons.mpr ⟨unit16_lb (inb := k1_off247_inb g) g.val (by rw [k1_off247_eq]; rfl),
      (List.forall_mem_cons.mpr ⟨unit16_lb (inb := k1_off246_inb g) g.val (by rw [k1_off246_eq]; rfl),
      (List.forall_mem_cons.mpr ⟨unit16_lb (inb := k1_off245_inb g) g.val (by rw [k1_off245_eq]; rfl),
      (List.forall_mem_cons.mpr ⟨unit16_lb (inb := k1_off244_inb g) g.val (by rw [k1_off244_eq]; rfl),
      (List.forall_mem_cons.mpr ⟨unit16_lb (inb := k1_off243_inb g) g.val (by rw [k1_off243_eq]; rfl),
      (List.forall_mem_cons.mpr ⟨unit16_lb (inb := k1_off242_inb g) g.val (by rw [k1_off242_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off242_inb g) 0 g.val (by rw [k1_off242_eq]; rfl) (by rw [k1_off242_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off243_inb g) 1 g.val (by rw [k1_off243_eq]; rfl) (by rw [k1_off243_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off244_inb g) 2 g.val (by rw [k1_off244_eq]; rfl) (by rw [k1_off244_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off245_inb g) 3 g.val (by rw [k1_off245_eq]; rfl) (by rw [k1_off245_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off246_inb g) 4 g.val (by rw [k1_off246_eq]; rfl) (by rw [k1_off246_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off247_inb g) 5 g.val (by rw [k1_off247_eq]; rfl) (by rw [k1_off247_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off248_inb g) 6 g.val (by rw [k1_off248_eq]; rfl) (by rw [k1_off248_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off249_inb g) 7 g.val (by rw [k1_off249_eq]; rfl) (by rw [k1_off249_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off250_inb g) 8 g.val (by rw [k1_off250_eq]; rfl) (by rw [k1_off250_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off251_inb g) 9 g.val (by rw [k1_off251_eq]; rfl) (by rw [k1_off251_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off252_inb g) 10 g.val (by rw [k1_off252_eq]; rfl) (by rw [k1_off252_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off253_inb g) 11 g.val (by rw [k1_off253_eq]; rfl) (by rw [k1_off253_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off254_inb g) 12 g.val (by rw [k1_off254_eq]; rfl) (by rw [k1_off254_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off255_inb g) 13 g.val (by rw [k1_off255_eq]; rfl) (by rw [k1_off255_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off256_inb g) 14 g.val (by rw [k1_off256_eq]; rfl) (by rw [k1_off256_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off257_inb g) 15 g.val (by rw [k1_off257_eq]; rfl) (by rw [k1_off257_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off258_inb g) 16 g.val (by rw [k1_off258_eq]; rfl) (by rw [k1_off258_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off259_inb g) 17 g.val (by rw [k1_off259_eq]; rfl) (by rw [k1_off259_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off260_inb g) 18 g.val (by rw [k1_off260_eq]; rfl) (by rw [k1_off260_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off261_inb g) 19 g.val (by rw [k1_off261_eq]; rfl) (by rw [k1_off261_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off262_inb g) 20 g.val (by rw [k1_off262_eq]; rfl) (by rw [k1_off262_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off263_inb g) 21 g.val (by rw [k1_off263_eq]; rfl) (by rw [k1_off263_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off264_inb g) 22 g.val (by rw [k1_off264_eq]; rfl) (by rw [k1_off264_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off265_inb g) 23 g.val (by rw [k1_off265_eq]; rfl) (by rw [k1_off265_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off266_inb g) 24 g.val (by rw [k1_off266_eq]; rfl) (by rw [k1_off266_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off267_inb g) 25 g.val (by rw [k1_off267_eq]; rfl) (by rw [k1_off267_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off268_inb g) 26 g.val (by rw [k1_off268_eq]; rfl) (by rw [k1_off268_eq]; rfl) y h hy1 hy2⟩
      · exact ⟨_, List.mem_cons_of_mem _ (List.mem_cons_of_mem _ (List.mem_cons_of_mem _ (List.mem_cons_of_mem _ (List.mem_cons_self)))), unit16_mem (inb := k1_off269_inb g) 27 g.val (by rw [k1_off269_eq]; rfl) (by rw [k1_off269_eq]; rfl) y h hy1 hy2⟩
      · exact ⟨_, List.mem_cons_of_mem _ (List.mem_cons_of_mem _ (List.mem_cons_of_mem _ (List.mem_cons_self))), unit16_mem (inb := k1_off270_inb g) 28 g.val (by rw [k1_off270_eq]; rfl) (by rw [k1_off270_eq]; rfl) y h hy1 hy2⟩
      · exact ⟨_, List.mem_cons_of_mem _ (List.mem_cons_of_mem _ (List.mem_cons_self)), unit16_mem (inb := k1_off271_inb g) 29 g.val (by rw [k1_off271_eq]; rfl) (by rw [k1_off271_eq]; rfl) y h hy1 hy2⟩
      · exact ⟨_, List.mem_cons_of_mem _ (List.mem_cons_self), unit16_mem (inb := k1_off272_inb g) 30 g.val (by rw [k1_off272_eq]; rfl) (by rw [k1_off272_eq]; rfl) y h hy1 hy2⟩
      · exact ⟨_, List.mem_cons_self, unit16_mem (inb := k1_off273_inb g) 31 g.val (by rw [k1_off273_eq]; rfl) (by rw [k1_off273_eq]; rfl) y h hy1 hy2⟩

end Cert.Proof.KI

end
-- ==== Proof.KI.Row3V.lean ====
/-
  The row loop of stage 3 with values: rows 120 to 159 of out_t.
-/
import proofs.«203934_g28930899706482_cont_9to1_1937_23_alg».proof.Proof.KI.RowCommonV
import proofs.«203934_g28930899706482_cont_9to1_1937_23_alg».proof.Proof.KI.Row3
import proofs.«203934_g28930899706482_cont_9to1_1937_23_alg».proof.Proof.KI.GroupV3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- Between two trips of the row loop of stage 3, before row n = r + 120 of out_t: each chunk's copy of row n - 1 in
    flight and bound to leave its piece at G, the pieces of the rows before at G, those of the rows from n on at
    some contents. -/
def rowInvV3 (d : Dev nD) (L : grid1.Coords) (G : Buf (Elt F) (oLoc d)) (ft : Buf (Elt F) ((tvW).view.loc (thrV d L))) (fx : Buf (Elt F) ((xs1W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs1W).view.loc (thrV d L) ↦{fullShare} fx)
    ∗ OutFlightAtV0 d L G (r + 120 - 1) ∗ OutFlightAtV1 d L G (r + 120 - 1)
    ∗ PiecesKV d L G 0 (r + 120) ∗ PiecesKV d L G 1 (r + 120)
    ∗ ∃ W', ⌜∀ p ∈ W', p ∈ W ∨ p.2 = none⌝ ∗ owes (thrV d L) O W')

set_option maxRecDepth 65536 in
/-- Row r of stage 3, with values: the chunks filled from the staged indices and the table hold G's values of the
    two pieces of row n, so the copies started here will leave those pieces at G. -/
theorem rowV_t10 (d : Dev nD) (L : grid1.Coords) (G : Buf (Elt F) (oLoc d)) (v2 : BitVec 32) (ft : Buf (Elt F) ((tvW).view.loc (thrV d L))) (fx : Buf (Elt F) ((xs1W).view.loc (thrV d L))) (hfx : XsOK fx)
    (hrows : RowsOK L G ft fx 120)
    (O : CellTallies nD τ sig (HIx 1)) (W : Waits sig (HIx 1)) (r : Fin k1_t10_loop.trips) (acc : BitVec 32) :
    rowInvV3 d L G ft fx O W r acc
      ⊢ wp frame (wpE (defs₀ (F := F)) 𝒱₀ (thrV d L) none) Set.univ
          (k1_t10_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInvV3 d L G ft fx O W (r.val + 1)) := by
  have hr : r.val < 40 := lt_of_lt_of_le r.isLt k1_t10_abs.2.1
  have hoff0 : k1_off240 L r 0#32 = ![r.val + 120, 0, col0 L + 256 * (0 : Fin 2).val] := by
    have h := k1_off240_eq L r 0; simpa [col0] using h
  have hoff1 : k1_off240 L r 256#32 = ![r.val + 120, 0, col0 L + 256 * (1 : Fin 2).val] := by
    have h := k1_off240_eq L r 1; simpa [col0] using h
  unfold k1_t10_body rowInvV3 OutFlightAtV0 OutFlightAtV1
  rw [show r.val + 1 + 120 = r.val + 120 + 1 by omega, Nat.add_sub_cancel]
  iintro ⟨#Hmw, Ht, Hx, ⟨%q0, %fo0, %hq0, %pp0, HF0⟩, ⟨%q1, %fo1, %hq1, %pp1, HF1⟩, HP0, HP1, %W', %hW', HO⟩
  sl_exec
  -- chunk 0: its copy of row n - 1 has landed, at G; the piece of row n leaves the slot's pieces
  ihave Hl0 := (hq0 _) $$ HF0_dst
  ihave Hmid0 := (Entails.of_eq (midV_landed (F := F) d L G 0 (r.val + 120) (by omega) (by omega)).symm) $$ [Hl0 HP0]
  · isplitl [Hl0]; · iexact Hl0
    iexact HP0
  ihave Hsp0 := (Entails.of_eq (midV_next (F := F) d L G 0 (r.val + 120) (by omega))) $$ Hmid0
  icases Hsp0 with ⟨Hp0, HP0⟩
  ihave Hp0' := (take_pieceM (F := F) d L (r.val + 120) (by omega) 0 (k1_off240 L r 0#32) (k1_off240_inb L r 0) hoff0) $$ Hp0
  icases Hp0' with ⟨%p0, Hp0⟩
  ihave Ho0 := (Entails.of_eq (pts_oc0 (F := F) d L _)) $$ HF0_src
  sl_for (invV_t11 d L r.val ft fx) $$ [Ht Hx Ho0]
  case region => intro k acc; exact tripV_t11 d L v2 r _ ft fx hfx k acc
  · unfold invV_t11
    isplitl [Ht]; · iexact Ht
    isplitl [Hx]; · iexact Hx
    iexists fo0; isplitr
    · ipureintro; exact ocVal_zero _ _ _ _ _
    · iexact Ho0
  iintro %a0 HI
  unfold invV_t11
  icases HI with ⟨Ht, Hx, %fo0', %hfo0', Ho0⟩
  sl_exec
  -- chunk 1: its copy of row n - 1 has landed, at G; the piece of row n leaves the slot's pieces
  ihave Hl1 := (hq1 _) $$ HF1_dst
  ihave Hmid1 := (Entails.of_eq (midV_landed (F := F) d L G 1 (r.val + 120) (by omega) (by omega)).symm) $$ [Hl1 HP1]
  · isplitl [Hl1]; · iexact Hl1
    iexact HP1
  ihave Hsp1 := (Entails.of_eq (midV_next (F := F) d L G 1 (r.val + 120) (by omega))) $$ Hmid1
  icases Hsp1 with ⟨Hp1, HP1⟩
  ihave Hp1' := (take_pieceM (F := F) d L (r.val + 120) (by omega) 1 (k1_off240 L r 256#32) (k1_off240_inb L r 1) hoff1) $$ Hp1
  icases Hp1' with ⟨%p1, Hp1⟩
  ihave Ho1 := (Entails.of_eq (pts_oc1 (F := F) d L _)) $$ HF1_src
  sl_for (invV_t12 d L r.val ft fx) $$ [Ht Hx Ho1]
  case region => intro k acc; exact tripV_t12 d L v2 r _ ft fx hfx k acc
  · unfold invV_t12
    isplitl [Ht]; · iexact Ht
    isplitl [Hx]; · iexact Hx
    iexists fo1; isplitr
    · ipureintro; exact ocVal_zero _ _ _ _ _
    · iexact Ho1
  iintro %a1 HI
  unfold invV_t12
  icases HI with ⟨Ht, Hx, %fo1', %hfo1', Ho1⟩
  sl_exec
  sl_step
  isplitr; · iexact Hmw
  isplitl [Ht]; · iexact Ht
  isplitl [Hx]; · iexact Hx
  isplitl [HF0]
  · iexists (pieceM (k1_off240 L r 0#32) (k1_off240_inb L r 0)), fo0'; isplitr
    · ipureintro; intro p
      exact land_pieceV d L G (r.val + 120) (by omega) 0 _ _ hoff0 _
        (chunk_is_G L G ft fx 120 hrows r.val hr 0 fo0' hfo0' (r.val + 120) (by omega) rfl) p
    · iexists p0; iexact HF0
  isplitl [HF1]
  · iexists (pieceM (k1_off240 L r 256#32) (k1_off240_inb L r 1)), fo1'; isplitr
    · ipureintro; intro p
      exact land_pieceV d L G (r.val + 120) (by omega) 1 _ _ hoff1 _
        (chunk_is_G L G ft fx 120 hrows r.val hr 1 fo1' hfo1' (r.val + 120) (by omega) rfl) p
    · iexists p1; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.GroupV4.lean ====
/-
  The group loops of stage 4 with values: a trip keeps, beside the table and the staged index block, that the output
  chunk holds the closed form — the flattened table at index word plus 1000 c — on the columns of the groups done.
-/
import proofs.«203934_g28930899706482_cont_9to1_1937_23_alg».proof.Proof.KI.Group4
import proofs.«203934_g28930899706482_cont_9to1_1937_23_alg».proof.Proof.KI.OcVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- What a trip of the group loop t14 keeps: the flattened table and the staged index block unchanged, the output
    chunk at contents that hold the closed form on the columns of the groups done so far. -/
def invV_t14 (d : Dev nD) (L : grid1.Coords) (r : Nat) (ft : Buf (Elt F) ((tvW).view.loc (thrV d L))) (fx : Buf (Elt F) ((xs0W).view.loc (thrV d L)))
    (g : Nat) (_ : BitVec 32) : sProp 𝕄 :=
  iprop(((tvW).view.loc (thrV d L) ↦{fullShare} ft) ∗ ((xs0W).view.loc (thrV d L) ↦{fullShare} fx)
    ∗ ∃ fo, ⌜OcVal ft fx r 0 g fo⌝ ∗ (oc0W).view.loc (thrV d L) ↦{fullShare} fo)

set_option maxRecDepth 65536 in
/-- One trip of t14: the thirty-two gathered vectors stored into the chunk are the closed form on the group's sixteen
    columns, and the columns of the earlier groups are not touched. -/
theorem tripV_t14 (d : Dev nD) (L : grid1.Coords) (v2 : BitVec 32) (r : Fin k1_t13_loop.trips) (arg14 : BitVec 32)
    (ft : Buf (Elt F) ((tvW).view.loc (thrV d L))) (fx : Buf (Elt F) ((xs0W).view.loc (thrV d L))) (hfx : XsOK fx)
    (g : Fin k1_t14_loop.trips) (acc : BitVec 32) :
    invV_t14 d L r.val ft fx g acc
      ⊢ wp frame (wpE (defs₀ (F := F)) 𝒱₀ (thrV d L) none) Set.univ
          (k1_t14_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (invV_t14 d L r.val ft fx (g.val + 1)) := by
  unfold k1_t14_body
  simp only [k1_part57_eq_skeleton, k1_part58_eq_skeleton, k1_part59_eq_skeleton]
  unfold k1_part57_skel k1_part58_skel k1_part59_skel
  simp only [SparseCore.vectorLoadIdx_bind (c := thrV d L)]
  unfold invV_t14
  iintro ⟨Ht, Hx, %fo, %hfo, Ho⟩
  sl_exec (disch := exact chk_addi _ _ (fun _ => ldrow0_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay265 (View.readAt (Elt F) (xs0W).view
        (Rect.unit (s := S40x512) (k1_off274 r g) S1x16.size (k1_off274_inb r g)).toLoadRect fx) (ix1 l)
          = fx (ix2 (⟨r.val % 40, Nat.mod_lt _ (by decide)⟩ : Fin 40) (⟨(0 + 16 * g.val + l.val) % 512, Nat.mod_lt _ (by decide)⟩ : Fin 512)) :=
      fun l => by
        refine Eq.trans (cast16_apply (View.readAt (Elt F) (xs0W).view
          (Rect.unit (s := S40x512) (k1_off274 r g) S1x16.size (k1_off274_inb r g)).toLoadRect fx) shapeCasts_S1x16_S16 l) ?_
        exact congrArg fx (loadRow_idx r.val 0 g.val hr (by omega) (k1_off274 r g) (k1_off274_inb r g)
          (by rw [k1_off274_eq]; rfl) (by rw [k1_off274_eq]; show 16 * g.val = 0 + 16 * g.val; omega) l)
    refine ocVal_step_oc0 d L ft fx r.val 0 g.val fo _ ?hG ?hset ?hcov hfo
    case hG =>
      exact (List.forall_mem_cons.mpr ⟨piece_G ft fx hfx r.val 0 g.val _ hXs 31 (by decide) _ (k1_off306_inb g) (by rw [k1_off306_eq]; rfl) (by rw [k1_off306_eq]; rfl) _ (Memref.readAt_whole (Elt F) cc1_scratch0 ft) _ _,
      (List.forall_mem_cons.mpr ⟨piece_G ft fx hfx r.val 0 g.val _ hXs 30 (by decide) _ (k1_off305_inb g) (by rw [k1_off305_eq]; rfl) (by rw [k1_off305_eq]; rfl) _ (Memref.readAt_whole (Elt F) cc1_scratch0 ft) _ _,
      (List.forall_mem_cons.mpr ⟨piece_G ft fx hfx r.val 0 g.val _ hXs 29 (by decide) _ (k1_off304_inb g) (by rw [k1_off304_eq]; rfl) (by rw [k1_off304_eq]; rfl) _ (Memref.readAt_whole (Elt F) cc1_scratch0 ft) _ _,
      (List.forall_mem_cons.mpr ⟨piece_G ft fx hfx r.val 0 g.val _ hXs 28 (by decide) _ (k1_off303_inb g) (by rw [k1_off303_eq]; rfl) (by rw [k1_off303_eq]; rfl) _ (Memref.readAt_whole (Elt F) cc1_scratch0 ft) _ _,
      (List.forall_mem_cons.mpr ⟨piece_G ft fx hfx r.val 0 g.val _ hXs 27 (by decide) _ (k1_off302_inb g) (by rw [k1_off302_eq]; rfl) (by rw [k1_off302_eq]; rfl) _ (Memref.readAt_whole (Elt F) cc1_scratch0 ft) _ _,
      (List.forall_mem_cons.mpr ⟨piece_G ft fx hfx r.val 0 g.val _ hXs 26 (by decide) _ (k1_off301_inb g) (by rw [k1_off301_eq]; rfl) (by rw [k1_off301_eq]; rfl) _ (Memref.readAt_whole (Elt F) cc1_scratch0 ft) _ _,
      (List.forall_mem_cons.mpr ⟨piece_G ft fx hfx r.val 0 g.val _ hXs 25 (by decide) _ (k1_off300_inb g) (by rw [k1_off300_eq]; rfl) (by rw [k1_off300_eq]; rfl) _ (Memref.readAt_whole (Elt F) cc1_scratch0 ft) _ _,
      (List.forall_mem_cons.mpr ⟨piece_G ft fx hfx r.val 0 g.val _ hXs 24 (by decide) _ (k1_off299_inb g) (by rw [k1_off299_eq]; rfl) (by rw [k1_off299_eq]; rfl) _ (Memref.readAt_whole (Elt F) cc1_scratch0 ft) _ _,
      (List.forall_mem_cons.mpr ⟨piece_G ft fx hfx r.val 0 g.val _ hXs 23 (by decide) _ (k1_off298_inb g) (by rw [k1_off298_eq]; rfl) (by rw [k1_off298_eq]; rfl) _ (Memref.readAt_whole (Elt F) cc1_scratch0 ft) _ _,
      (List.forall_mem_cons.mpr ⟨piece_G ft fx hfx r.val 0 g.val _ hXs 22 (by decide) _ (k1_off297_inb g) (by rw [k1_off297_eq]; rfl) (by rw [k1_off297_eq]; rfl) _ (Memref.readAt_whole (Elt F) cc1_scratch0 ft) _ _,
      (List.forall_mem_cons.mpr ⟨piece_G ft fx hfx r.val 0 g.val _ hXs 21 (by decide) _ (k1_off296_inb g) (by rw [k1_off296_eq]; rfl) (by rw [k1_off296_eq]; rfl) _ (Memref.readAt_whole (Elt F) cc1_scratch0 ft) _ _,
      (List.forall_mem_cons.mpr ⟨piece_G ft fx hfx r.val 0 g.val _ hXs 20 (by decide) _ (k1_off295_inb g) (by rw [k1_off295_eq]; rfl) (by rw [k1_off295_eq]; rfl) _ (Memref.readAt_whole (Elt F) cc1_scratch0 ft) _ _,
      (List.forall_mem_cons.mpr ⟨piece_G ft fx hfx r.val 0 g.val _ hXs 19 (by decide) _ (k1_off294_inb g) (by rw [k1_off294_eq]; rfl) (by rw [k1_off294_eq]; rfl) _ (Memref.readAt_whole (Elt F) cc1_scratch0 ft) _ _,
      (List.forall_mem_cons.mpr ⟨piece_G ft fx hfx r.val 0 g.val _ hXs 18 (by decide) _ (k1_off293_inb g) (by rw [k1_off293_eq]; rfl) (by rw [k1_off293_eq]; rfl) _ (Memref.readAt_whole (Elt F) cc1_scratch0 ft) _ _,
      (List.forall_mem_cons.mpr ⟨piece_G ft fx hfx r.val 0 g.val _ hXs 17 (by decide) _ (k1_off292_inb g) (by rw [k1_off292_eq]; rfl) (by rw [k1_off292_eq]; rfl) _ (Memref.readAt_whole (Elt F) cc1_scratch0 ft) _ _,
      (List.forall_mem_cons.mpr ⟨piece_G ft fx hfx r.val 0 g.val _ hXs 16 (by decide) _ (k1_off291_inb g) (by rw [k1_off291_eq]; rfl) (by rw [k1_off291_eq]; rfl) _ (Memref.readAt_whole (Elt F) cc1_scratch0 ft) _ _,
      (List.forall_mem_cons.mpr ⟨piece_G ft fx hfx r.val 0 g.val _ hXs 15 (by decide) _ (k1_off290_inb g) (by rw [k1_off290_eq]; rfl) (by rw [k1_off290_eq]; rfl) _ (Memref.readAt_whole (Elt F) cc1_scratch0 ft) _ _,
      (List.forall_mem_cons.mpr ⟨piece_G ft fx hfx r.val 0 g.val _ hXs 14 (by decide) _ (k1_off289_inb g) (by rw [k1_off289_eq]; rfl) (by rw [k1_off289_eq]; rfl) _ (Memref.readAt_whole (Elt F) cc1_scratch0 ft) _ _,
      (List.forall_mem_cons.mpr ⟨piece_G ft fx hfx r.val 0 g.val _ hXs 13 (by decide) _ (k1_off288_inb g) (by rw [k1_off288_eq]; rfl) (by rw [k1_off288_eq]; rfl) _ (Memref.readAt_whole (Elt F) cc1_scratch0 ft) _ _,
      (List.forall_mem_cons.mpr ⟨piece_G ft fx hfx r.val 0 g.val _ hXs 12 (by decide) _ (k1_off287_inb g) (by rw [k1_off287_eq]; rfl) (by rw [k1_off287_eq]; rfl) _ (Memref.readAt_whole (Elt F) cc1_scratch0 ft) _ _,
      (List.forall_mem_cons.mpr ⟨piece_G ft fx hfx r.val 0 g.val _ hXs 11 (by decide) _ (k1_off286_inb g) (by rw [k1_off286_eq]; rfl) (by rw [k1_off286_eq]; rfl) _ (Memref.readAt_whole (Elt F) cc1_scratch0 ft) _ _,
      (List.forall_mem_cons.mpr ⟨piece_G ft fx hfx r.val 0 g.val _ hXs 10 (by decide) _ (k1_off285_inb g) (by rw [k1_off285_eq]; rfl) (by rw [k1_off285_eq]; rfl) _ (Memref.readAt_whole (Elt F) cc1_scratch0 ft) _ _,
      (List.forall_mem_cons.mpr ⟨piece_G ft fx hfx r.val 0 g.val _ hXs 9 (by decide) _ (k1_off284_inb g) (by rw [k1_off284_eq]; rfl) (by rw [k1_off284_eq]; rfl) _ (Memref.readAt_whole (Elt F) cc1_scratch0 ft) _ _,
      (List.forall_mem_cons.mpr ⟨piece_G ft fx hfx r.val 0 g.val _ hXs 8 (by decide) _ (k1_off283_inb g) (by rw [k1_off283_eq]; rfl) (by rw [k1_off283_eq]; rfl) _ (Memref.readAt_whole (Elt F) cc1_scratch0 ft) _ _,
      (List.forall_mem_cons.mpr ⟨piece_G ft fx hfx r.val 0 g.val _ hXs 7 (by decide) _ (k1_off282_inb g) (by rw [k1_off282_eq]; rfl) (by rw [k1_off282_eq]; rfl) _ (Memref.readAt_whole (Elt F) cc1_scratch0 ft) _ _,
      (List.forall_mem_cons.mpr ⟨piece_G ft fx hfx r.val 0 g.val _ hXs 6 (by decide) _ (k1_off281_inb g) (by rw [k1_off281_eq]; rfl) (by rw [k1_off281_eq]; rfl) _ (Memref.readAt_whole (Elt F) cc1_scratch0 ft) _ _,
      (List.forall_mem_cons.mpr ⟨piece_G ft fx hfx r.val 0 g.val _ hXs 5 (by decide) _ (k1_off280_inb g) (by rw [k1_off280_eq]; rfl) (by rw [k1_off280_eq]; rfl) _ (Memref.readAt_whole (Elt F) cc1_scratch0 ft) _ _,
      (List.forall_mem_cons.mpr ⟨piece_G ft fx hfx r.val 0 g.val _ hXs 4 (by decide) _ (k1_off279_inb g) (by rw [k1_off279_eq]; rfl) (by rw [k1_off279_eq]; rfl) _ (Memref.readAt_whole (Elt F) cc1_scratch0 ft) _ _,
      (List.forall_mem_cons.mpr ⟨piece_G ft fx hfx r.val 0 g.val _ hXs 3 (by decide) _ (k1_off278_inb g) (by rw [k1_off278_eq]; rfl) (by rw [k1_off278_eq]; rfl) _ (Memref.readAt_whole (Elt F) cc1_scratch0 ft) _ _,
      (List.forall_mem_cons.mpr ⟨piece_G ft fx hfx r.val 0 g.val _ hXs 2 (by decide) _ (k1_off277_inb g) (by rw [k1_off277_eq]; rfl) (by rw [k1_off277_eq]; rfl) _ (Memref.readAt_whole (Elt F) cc1_scratch0 ft) _ _,
      (List.forall_mem_cons.mpr ⟨piece_G ft fx hfx r.val 0 g.val _ hXs 1 (by decide) _ (k1_off276_inb g) (by rw [k1_off276_eq]; rfl) (by rw [k1_off276_eq]; rfl) _ (Memref.readAt_whole (Elt F) cc1_scratch0 ft) _ _,
      (List.forall_mem_cons.mpr ⟨piece_G ft fx hfx r.val 0 g.val _ hXs 0 (by decide) _ (k1_off275_inb g) (by rw [k1_off275_eq]; rfl) (by rw [k1_off275_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off306_inb g) g.val (by rw [k1_off306_eq]; rfl),
      (List.forall_mem_cons.mpr ⟨unit16_lb (inb := k1_off305_inb g) g.val (by rw [k1_off305_eq]; rfl),
      (List.forall_mem_cons.mpr ⟨unit16_lb (inb := k1_off304_inb g) g.val (by rw [k1_off304_eq]; rfl),
      (List.forall_mem_cons.mpr ⟨unit16_lb (inb := k1_off303_inb g) g.val (by rw [k1_off303_eq]; rfl),
      (List.forall_mem_cons.mpr ⟨unit16_lb (inb := k1_off302_inb g) g.val (by rw [k1_off302_eq]; rfl),
      (List.forall_mem_cons.mpr ⟨unit16_lb (inb := k1_off301_inb g) g.val (by rw [k1_off301_eq]; rfl),
      (List.forall_mem_cons.mpr ⟨unit16_lb (inb := k1_off300_inb g) g.val (by rw [k1_off300_eq]; rfl),
      (List.forall_mem_cons.mpr ⟨unit16_lb (inb := k1_off299_inb g) g.val (by rw [k1_off299_eq]; rfl),
      (List.forall_mem_cons.mpr ⟨unit16_lb (inb := k1_off298_inb g) g.val (by rw [k1_off298_eq]; rfl),
      (List.forall_mem_cons.mpr ⟨unit16_lb (inb := k1_off297_inb g) g.val (by rw [k1_off297_eq]; rfl),
      (List.forall_mem_cons.mpr ⟨unit16_lb (inb := k1_off296_inb g) g.val (by rw [k1_off296_eq]; rfl),
      (List.forall_mem_cons.mpr ⟨unit16_lb (inb := k1_off295_inb g) g.val (by rw [k1_off295_eq]; rfl),
      (List.forall_mem_cons.mpr ⟨unit16_lb (inb := k1_off294_inb g) g.val (by rw [k1_off294_eq]; rfl),
      (List.forall_mem_cons.mpr ⟨unit16_lb (inb := k1_off293_inb g) g.val (by rw [k1_off293_eq]; rfl),
      (List.forall_mem_cons.mpr ⟨unit16_lb (inb := k1_off292_inb g) g.val (by rw [k1_off292_eq]; rfl),
      (List.forall_mem_cons.mpr ⟨unit16_lb (inb := k1_off291_inb g) g.val (by rw [k1_off291_eq]; rfl),
      (List.forall_mem_cons.mpr ⟨unit16_lb (inb := k1_off290_inb g) g.val (by rw [k1_off290_eq]; rfl),
      (List.forall_mem_cons.mpr ⟨unit16_lb (inb := k1_off289_inb g) g.val (by rw [k1_off289_eq]; rfl),
      (List.forall_mem_cons.mpr ⟨unit16_lb (inb := k1_off288_inb g) g.val (by rw [k1_off288_eq]; rfl),
      (List.forall_mem_cons.mpr ⟨unit16_lb (inb := k1_off287_inb g) g.val (by rw [k1_off287_eq]; rfl),
      (List.forall_mem_cons.mpr ⟨unit16_lb (inb := k1_off286_inb g) g.val (by rw [k1_off286_eq]; rfl),
      (List.forall_mem_cons.mpr ⟨unit16_lb (inb := k1_off285_inb g) g.val (by rw [k1_off285_eq]; rfl),
      (List.forall_mem_cons.mpr ⟨unit16_lb (inb := k1_off284_inb g) g.val (by rw [k1_off284_eq]; rfl),
      (List.forall_mem_cons.mpr ⟨unit16_lb (inb := k1_off283_inb g) g.val (by rw [k1_off283_eq]; rfl),
      (List.forall_mem_cons.mpr ⟨unit16_lb (inb := k1_off282_inb g) g.val (by rw [k1_off282_eq]; rfl),
      (List.forall_mem_cons.mpr ⟨unit16_lb (inb := k1_off281_inb g) g.val (by rw [k1_off281_eq]; rfl),
      (List.forall_mem_cons.mpr ⟨unit16_lb (inb := k1_off280_inb g) g.val (by rw [k1_off280_eq]; rfl),
      (List.forall_mem_cons.mpr ⟨unit16_lb (inb := k1_off279_inb g) g.val (by rw [k1_off279_eq]; rfl),
      (List.forall_mem_cons.mpr ⟨unit16_lb (inb := k1_off278_inb g) g.val (by rw [k1_off278_eq]; rfl),
      (List.forall_mem_cons.mpr ⟨unit16_lb (inb := k1_off277_inb g) g.val (by rw [k1_off277_eq]; rfl),
      (List.forall_mem_cons.mpr ⟨unit16_lb (inb := k1_off276_inb g) g.val (by rw [k1_off276_eq]; rfl),
      (List.forall_mem_cons.mpr ⟨unit16_lb (inb := k1_off275_inb g) g.val (by rw [k1_off275_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off275_inb g) 0 g.val (by rw [k1_off275_eq]; rfl) (by rw [k1_off275_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off276_inb g) 1 g.val (by rw [k1_off276_eq]; rfl) (by rw [k1_off276_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off277_inb g) 2 g.val (by rw [k1_off277_eq]; rfl) (by rw [k1_off277_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off278_inb g) 3 g.val (by rw [k1_off278_eq]; rfl) (by rw [k1_off278_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off279_inb g) 4 g.val (by rw [k1_off279_eq]; rfl) (by rw [k1_off279_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off280_inb g) 5 g.val (by rw [k1_off280_eq]; rfl) (by rw [k1_off280_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off281_inb g) 6 g.val (by rw [k1_off281_eq]; rfl) (by rw [k1_off281_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off282_inb g) 7 g.val (by rw [k1_off282_eq]; rfl) (by rw [k1_off282_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off283_inb g) 8 g.val (by rw [k1_off283_eq]; rfl) (by rw [k1_off283_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off284_inb g) 9 g.val (by rw [k1_off284_eq]; rfl) (by rw [k1_off284_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off285_inb g) 10 g.val (by rw [k1_off285_eq]; rfl) (by rw [k1_off285_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off286_inb g) 11 g.val (by rw [k1_off286_eq]; rfl) (by rw [k1_off286_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off287_inb g) 12 g.val (by rw [k1_off287_eq]; rfl) (by rw [k1_off287_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off288_inb g) 13 g.val (by rw [k1_off288_eq]; rfl) (by rw [k1_off288_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off289_inb g) 14 g.val (by rw [k1_off289_eq]; rfl) (by rw [k1_off289_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off290_inb g) 15 g.val (by rw [k1_off290_eq]; rfl) (by rw [k1_off290_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off291_inb g) 16 g.val (by rw [k1_off291_eq]; rfl) (by rw [k1_off291_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off292_inb g) 17 g.val (by rw [k1_off292_eq]; rfl) (by rw [k1_off292_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off293_inb g) 18 g.val (by rw [k1_off293_eq]; rfl) (by rw [k1_off293_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off294_inb g) 19 g.val (by rw [k1_off294_eq]; rfl) (by rw [k1_off294_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off295_inb g) 20 g.val (by rw [k1_off295_eq]; rfl) (by rw [k1_off295_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off296_inb g) 21 g.val (by rw [k1_off296_eq]; rfl) (by rw [k1_off296_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off297_inb g) 22 g.val (by rw [k1_off297_eq]; rfl) (by rw [k1_off297_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off298_inb g) 23 g.val (by rw [k1_off298_eq]; rfl) (by rw [k1_off298_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off299_inb g) 24 g.val (by rw [k1_off299_eq]; rfl) (by rw [k1_off299_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off300_inb g) 25 g.val (by rw [k1_off300_eq]; rfl) (by rw [k1_off300_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off301_inb g) 26 g.val (by rw [k1_off301_eq]; rfl) (by rw [k1_off301_eq]; rfl) y h hy1 hy2⟩
      · exact ⟨_, List.mem_cons_of_mem _ (List.mem_cons_of_mem _ (List.mem_cons_of_mem _ (List.mem_cons_of_mem _ (List.mem_cons_self)))), unit16_mem (inb := k1_off302_inb g) 27 g.val (by rw [k1_off302_eq]; rfl) (by rw [k1_off302_eq]; rfl) y h hy1 hy2⟩
      · exact ⟨_, List.mem_cons_of_mem _ (List.mem_cons_of_mem _ (List.mem_cons_of_mem _ (List.mem_cons_self))), unit16_mem (inb := k1_off303_inb g) 28 g.val (by rw [k1_off303_eq]; rfl) (by rw [k1_off303_eq]; rfl) y h hy1 hy2⟩
      · exact ⟨_, List.mem_cons_of_mem _ (List.mem_cons_of_mem _ (List.mem_cons_self)), unit16_mem (inb := k1_off304_inb g) 29 g.val (by rw [k1_off304_eq]; rfl) (by rw [k1_off304_eq]; rfl) y h hy1 hy2⟩
      · exact ⟨_, List.mem_cons_of_mem _ (List.mem_cons_self), unit16_mem (inb := k1_off305_inb g) 30 g.val (by rw [k1_off305_eq]; rfl) (by rw [k1_off305_eq]; rfl) y h hy1 hy2⟩
      · exact ⟨_, List.mem_cons_self, unit16_mem (inb := k1_off306_inb g) 31 g.val (by rw [k1_off306_eq]; rfl) (by rw [k1_off306_eq]; rfl) y h hy1 hy2⟩

/-- What a trip of the group loop t15 keeps: the flattened table and the staged index block unchanged, the output
    chunk at contents that hold the closed form on the columns of the groups done so far. -/
def invV_t15 (d : Dev nD) (L : grid1.Coords) (r : Nat) (ft : Buf (Elt F) ((tvW).view.loc (thrV d L))) (fx : Buf (Elt F) ((xs0W).view.loc (thrV d L)))
    (g : Nat) (_ : BitVec 32) : sProp 𝕄 :=
  iprop(((tvW).view.loc (thrV d L) ↦{fullShare} ft) ∗ ((xs0W).view.loc (thrV d L) ↦{fullShare} fx)
    ∗ ∃ fo, ⌜OcVal ft fx r 256 g fo⌝ ∗ (oc1W).view.loc (thrV d L) ↦{fullShare} fo)

set_option maxRecDepth 65536 in
/-- One trip of t15: the thirty-two gathered vectors stored into the chunk are the closed form on the group's sixteen
    columns, and the columns of the earlier groups are not touched. -/
theorem tripV_t15 (d : Dev nD) (L : grid1.Coords) (v2 : BitVec 32) (r : Fin k1_t13_loop.trips) (arg14 : BitVec 32)
    (ft : Buf (Elt F) ((tvW).view.loc (thrV d L))) (fx : Buf (Elt F) ((xs0W).view.loc (thrV d L))) (hfx : XsOK fx)
    (g : Fin k1_t15_loop.trips) (acc : BitVec 32) :
    invV_t15 d L r.val ft fx g acc
      ⊢ wp frame (wpE (defs₀ (F := F)) 𝒱₀ (thrV d L) none) Set.univ
          (k1_t15_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (invV_t15 d L r.val ft fx (g.val + 1)) := by
  unfold k1_t15_body
  simp only [k1_part64_eq_skeleton, k1_part65_eq_skeleton, k1_part66_eq_skeleton]
  unfold k1_part64_skel k1_part65_skel k1_part66_skel
  simp only [SparseCore.vectorLoadIdx_bind (c := thrV d L)]
  unfold invV_t15
  iintro ⟨Ht, Hx, %fo, %hfo, Ho⟩
  sl_exec (disch := exact chk_addi _ _ (fun _ => ldrow0_lt d L fx hfx _ _) (by decide))
  sl_step
  isplitl [Ht]; · iexact Ht
  isplitl [Hx]; · iexact Hx
  iexists _; isplitr
  rotate_left
  · iexact Ho
  · ipureintro
    have hr : r.val < 40 := r.isLt
    have hg : g.val < 16 := g.isLt
    have hXs : ∀ l : Fin 16, k1_pay298 (View.readAt (Elt F) (xs0W).view
        (Rect.unit (s := S40x512) (k1_off308 r g) S1x16.size (k1_off308_inb r g)).toLoadRect fx) (ix1 l)
          = fx (ix2 (⟨r.val % 40, Nat.mod_lt _ (by decide)⟩ : Fin 40) (⟨(256 + 16 * g.val + l.val) % 512, Nat.mod_lt _ (by decide)⟩ : Fin 512)) :=
      fun l => by
        refine Eq.trans (cast16_apply (View.readAt (Elt F) (xs0W).view
          (Rect.unit (s := S40x512) (k1_off308 r g) S1x16.size (k1_off308_inb r g)).toLoadRect fx) shapeCasts_S1x16_S16 l) ?_
        exact congrArg fx (loadRow_idx r.val 256 g.val hr (by omega) (k1_off308 r g) (k1_off308_inb r g)
          (by rw [k1_off308_eq]; rfl) (by rw [k1_off308_eq]; show 16 * g.val + 256 = 256 + 16 * g.val; omega) l)
    refine ocVal_step_oc1 d L ft fx r.val 256 g.val fo _ ?hG ?hset ?hcov hfo
    case hG =>
      exact (List.forall_mem_cons.mpr ⟨piece_G ft fx hfx r.val 256 g.val _ hXs 31 (by decide) _ (k1_off340_inb g) (by rw [k1_off340_eq]; rfl) (by rw [k1_off340_eq]; rfl) _ (Memref.readAt_whole (Elt F) cc1_scratch0 ft) _ _,
      (List.forall_mem_cons.mpr ⟨piece_G ft fx hfx r.val 256 g.val _ hXs 30 (by decide) _ (k1_off339_inb g) (by rw [k1_off339_eq]; rfl) (by rw [k1_off339_eq]; rfl) _ (Memref.readAt_whole (Elt F) cc1_scratch0 ft) _ _,
      (List.forall_mem_cons.mpr ⟨piece_G ft fx hfx r.val 256 g.val _ hXs 29 (by decide) _ (k1_off338_inb g) (by rw [k1_off338_eq]; rfl) (by rw [k1_off338_eq]; rfl) _ (Memref.readAt_whole (Elt F) cc1_scratch0 ft) _ _,
      (List.forall_mem_cons.mpr ⟨piece_G ft fx hfx r.val 256 g.val _ hXs 28 (by decide) _ (k1_off337_inb g) (by rw [k1_off337_eq]; rfl) (by rw [k1_off337_eq]; rfl) _ (Memref.readAt_whole (Elt F) cc1_scratch0 ft) _ _,
      (List.forall_mem_cons.mpr ⟨piece_G ft fx hfx r.val 256 g.val _ hXs 27 (by decide) _ (k1_off336_inb g) (by rw [k1_off336_eq]; rfl) (by rw [k1_off336_eq]; rfl) _ (Memref.readAt_whole (Elt F) cc1_scratch0 ft) _ _,
      (List.forall_mem_cons.mpr ⟨piece_G ft fx hfx r.val 256 g.val _ hXs 26 (by decide) _ (k1_off335_inb g) (by rw [k1_off335_eq]; rfl) (by rw [k1_off335_eq]; rfl) _ (Memref.readAt_whole (Elt F) cc1_scratch0 ft) _ _,
      (List.forall_mem_cons.mpr ⟨piece_G ft fx hfx r.val 256 g.val _ hXs 25 (by decide) _ (k1_off334_inb g) (by rw [k1_off334_eq]; rfl) (by rw [k1_off334_eq]; rfl) _ (Memref.readAt_whole (Elt F) cc1_scratch0 ft) _ _,
      (List.forall_mem_cons.mpr ⟨piece_G ft fx hfx r.val 256 g.val _ hXs 24 (by decide) _ (k1_off333_inb g) (by rw [k1_off333_eq]; rfl) (by rw [k1_off333_eq]; rfl) _ (Memref.readAt_whole (Elt F) cc1_scratch0 ft) _ _,
      (List.forall_mem_cons.mpr ⟨piece_G ft fx hfx r.val 256 g.val _ hXs 23 (by decide) _ (k1_off332_inb g) (by rw [k1_off332_eq]; rfl) (by rw [k1_off332_eq]; rfl) _ (Memref.readAt_whole (Elt F) cc1_scratch0 ft) _ _,
      (List.forall_mem_cons.mpr ⟨piece_G ft fx hfx r.val 256 g.val _ hXs 22 (by decide) _ (k1_off331_inb g) (by rw [k1_off331_eq]; rfl) (by rw [k1_off331_eq]; rfl) _ (Memref.readAt_whole (Elt F) cc1_scratch0 ft) _ _,
      (List.forall_mem_cons.mpr ⟨piece_G ft fx hfx r.val 256 g.val _ hXs 21 (by decide) _ (k1_off330_inb g) (by rw [k1_off330_eq]; rfl) (by rw [k1_off330_eq]; rfl) _ (Memref.readAt_whole (Elt F) cc1_scratch0 ft) _ _,
      (List.forall_mem_cons.mpr ⟨piece_G ft fx hfx r.val 256 g.val _ hXs 20 (by decide) _ (k1_off329_inb g) (by rw [k1_off329_eq]; rfl) (by rw [k1_off329_eq]; rfl) _ (Memref.readAt_whole (Elt F) cc1_scratch0 ft) _ _,
      (List.forall_mem_cons.mpr ⟨piece_G ft fx hfx r.val 256 g.val _ hXs 19 (by decide) _ (k1_off328_inb g) (by rw [k1_off328_eq]; rfl) (by rw [k1_off328_eq]; rfl) _ (Memref.readAt_whole (Elt F) cc1_scratch0 ft) _ _,
      (List.forall_mem_cons.mpr ⟨piece_G ft fx hfx r.val 256 g.val _ hXs 18 (by decide) _ (k1_off327_inb g) (by rw [k1_off327_eq]; rfl) (by rw [k1_off327_eq]; rfl) _ (Memref.readAt_whole (Elt F) cc1_scratch0 ft) _ _,
      (List.forall_mem_cons.mpr ⟨piece_G ft fx hfx r.val 256 g.val _ hXs 17 (by decide) _ (k1_off326_inb g) (by rw [k1_off326_eq]; rfl) (by rw [k1_off326_eq]; rfl) _ (Memref.readAt_whole (Elt F) cc1_scratch0 ft) _ _,
      (List.forall_mem_cons.mpr ⟨piece_G ft fx hfx r.val 256 g.val _ hXs 16 (by decide) _ (k1_off325_inb g) (by rw [k1_off325_eq]; rfl) (by rw [k1_off325_eq]; rfl) _ (Memref.readAt_whole (Elt F) cc1_scratch0 ft) _ _,
      (List.forall_mem_cons.mpr ⟨piece_G ft fx hfx r.val 256 g.val _ hXs 15 (by decide) _ (k1_off324_inb g) (by rw [k1_off324_eq]; rfl) (by rw [k1_off324_eq]; rfl) _ (Memref.readAt_whole (Elt F) cc1_scratch0 ft) _ _,
      (List.forall_mem_cons.mpr ⟨piece_G ft fx hfx r.val 256 g.val _ hXs 14 (by decide) _ (k1_off323_inb g) (by rw [k1_off323_eq]; rfl) (by rw [k1_off323_eq]; rfl) _ (Memref.readAt_whole (Elt F) cc1_scratch0 ft) _ _,
      (List.forall_mem_cons.mpr ⟨piece_G ft fx hfx r.val 256 g.val _ hXs 13 (by decide) _ (k1_off322_inb g) (by rw [k1_off322_eq]; rfl) (by rw [k1_off322_eq]; rfl) _ (Memref.readAt_whole (Elt F) cc1_scratch0 ft) _ _,
      (List.forall_mem_cons.mpr ⟨piece_G ft fx hfx r.val 256 g.val _ hXs 12 (by decide) _ (k1_off321_inb g) (by rw [k1_off321_eq]; rfl) (by rw [k1_off321_eq]; rfl) _ (Memref.readAt_whole (Elt F) cc1_scratch0 ft) _ _,
      (List.forall_mem_cons.mpr ⟨piece_G ft fx hfx r.val 256 g.val _ hXs 11 (by decide) _ (k1_off320_inb g) (by rw [k1_off320_eq]; rfl) (by rw [k1_off320_eq]; rfl) _ (Memref.readAt_whole (Elt F) cc1_scratch0 ft) _ _,
      (List.forall_mem_cons.mpr ⟨piece_G ft fx hfx r.val 256 g.val _ hXs 10 (by decide) _ (k1_off319_inb g) (by rw [k1_off319_eq]; rfl) (by rw [k1_off319_eq]; rfl) _ (Memref.readAt_whole (Elt F) cc1_scratch0 ft) _ _,
      (List.forall_mem_cons.mpr ⟨piece_G ft fx hfx r.val 256 g.val _ hXs 9 (by decide) _ (k1_off318_inb g) (by rw [k1_off318_eq]; rfl) (by rw [k1_off318_eq]; rfl) _ (Memref.readAt_whole (Elt F) cc1_scratch0 ft) _ _,
      (List.forall_mem_cons.mpr ⟨piece_G ft fx hfx r.val 256 g.val _ hXs 8 (by decide) _ (k1_off317_inb g) (by rw [k1_off317_eq]; rfl) (by rw [k1_off317_eq]; rfl) _ (Memref.readAt_whole (Elt F) cc1_scratch0 ft) _ _,
      (List.forall_mem_cons.mpr ⟨piece_G ft fx hfx r.val 256 g.val _ hXs 7 (by decide) _ (k1_off316_inb g) (by rw [k1_off316_eq]; rfl) (by rw [k1_off316_eq]; rfl) _ (Memref.readAt_whole (Elt F) cc1_scratch0 ft) _ _,
      (List.forall_mem_cons.mpr ⟨piece_G ft fx hfx r.val 256 g.val _ hXs 6 (by decide) _ (k1_off315_inb g) (by rw [k1_off315_eq]; rfl) (by rw [k1_off315_eq]; rfl) _ (Memref.readAt_whole (Elt F) cc1_scratch0 ft) _ _,
      (List.forall_mem_cons.mpr ⟨piece_G ft fx hfx r.val 256 g.val _ hXs 5 (by decide) _ (k1_off314_inb g) (by rw [k1_off314_eq]; rfl) (by rw [k1_off314_eq]; rfl) _ (Memref.readAt_whole (Elt F) cc1_scratch0 ft) _ _,
      (List.forall_mem_cons.mpr ⟨piece_G ft fx hfx r.val 256 g.val _ hXs 4 (by decide) _ (k1_off313_inb g) (by rw [k1_off313_eq]; rfl) (by rw [k1_off313_eq]; rfl) _ (Memref.readAt_whole (Elt F) cc1_scratch0 ft) _ _,
      (List.forall_mem_cons.mpr ⟨piece_G ft fx hfx r.val 256 g.val _ hXs 3 (by decide) _ (k1_off312_inb g) (by rw [k1_off312_eq]; rfl) (by rw [k1_off312_eq]; rfl) _ (Memref.readAt_whole (Elt F) cc1_scratch0 ft) _ _,
      (List.forall_mem_cons.mpr ⟨piece_G ft fx hfx r.val 256 g.val _ hXs 2 (by decide) _ (k1_off311_inb g) (by rw [k1_off311_eq]; rfl) (by rw [k1_off311_eq]; rfl) _ (Memref.readAt_whole (Elt F) cc1_scratch0 ft) _ _,
      (List.forall_mem_cons.mpr ⟨piece_G ft fx hfx r.val 256 g.val _ hXs 1 (by decide) _ (k1_off310_inb g) (by rw [k1_off310_eq]; rfl) (by rw [k1_off310_eq]; rfl) _ (Memref.readAt_whole (Elt F) cc1_scratch0 ft) _ _,
      (List.forall_mem_cons.mpr ⟨piece_G ft fx hfx r.val 256 g.val _ hXs 0 (by decide) _ (k1_off309_inb g) (by rw [k1_off309_eq]; rfl) (by rw [k1_off309_eq]; rfl) _ (Memref.readAt_whole (Elt F) cc1_scratch0 ft) _ _,
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hset =>
      exact (List.forall_mem_cons.mpr ⟨unit16_lb (inb := k1_off340_inb g) g.val (by rw [k1_off340_eq]; rfl),
      (List.forall_mem_cons.mpr ⟨unit16_lb (inb := k1_off339_inb g) g.val (by rw [k1_off339_eq]; rfl),
      (List.forall_mem_cons.mpr ⟨unit16_lb (inb := k1_off338_inb g) g.val (by rw [k1_off338_eq]; rfl),
      (List.forall_mem_cons.mpr ⟨unit16_lb (inb := k1_off337_inb g) g.val (by rw [k1_off337_eq]; rfl),
      (List.forall_mem_cons.mpr ⟨unit16_lb (inb := k1_off336_inb g) g.val (by rw [k1_off336_eq]; rfl),
      (List.forall_mem_cons.mpr ⟨unit16_lb (inb := k1_off335_inb g) g.val (by rw [k1_off335_eq]; rfl),
      (List.forall_mem_cons.mpr ⟨unit16_lb (inb := k1_off334_inb g) g.val (by rw [k1_off334_eq]; rfl),
      (List.forall_mem_cons.mpr ⟨unit16_lb (inb := k1_off333_inb g) g.val (by rw [k1_off333_eq]; rfl),
      (List.forall_mem_cons.mpr ⟨unit16_lb (inb := k1_off332_inb g) g.val (by rw [k1_off332_eq]; rfl),
      (List.forall_mem_cons.mpr ⟨unit16_lb (inb := k1_off331_inb g) g.val (by rw [k1_off331_eq]; rfl),
      (List.forall_mem_cons.mpr ⟨unit16_lb (inb := k1_off330_inb g) g.val (by rw [k1_off330_eq]; rfl),
      (List.forall_mem_cons.mpr ⟨unit16_lb (inb := k1_off329_inb g) g.val (by rw [k1_off329_eq]; rfl),
      (List.forall_mem_cons.mpr ⟨unit16_lb (inb := k1_off328_inb g) g.val (by rw [k1_off328_eq]; rfl),
      (List.forall_mem_cons.mpr ⟨unit16_lb (inb := k1_off327_inb g) g.val (by rw [k1_off327_eq]; rfl),
      (List.forall_mem_cons.mpr ⟨unit16_lb (inb := k1_off326_inb g) g.val (by rw [k1_off326_eq]; rfl),
      (List.forall_mem_cons.mpr ⟨unit16_lb (inb := k1_off325_inb g) g.val (by rw [k1_off325_eq]; rfl),
      (List.forall_mem_cons.mpr ⟨unit16_lb (inb := k1_off324_inb g) g.val (by rw [k1_off324_eq]; rfl),
      (List.forall_mem_cons.mpr ⟨unit16_lb (inb := k1_off323_inb g) g.val (by rw [k1_off323_eq]; rfl),
      (List.forall_mem_cons.mpr ⟨unit16_lb (inb := k1_off322_inb g) g.val (by rw [k1_off322_eq]; rfl),
      (List.forall_mem_cons.mpr ⟨unit16_lb (inb := k1_off321_inb g) g.val (by rw [k1_off321_eq]; rfl),
      (List.forall_mem_cons.mpr ⟨unit16_lb (inb := k1_off320_inb g) g.val (by rw [k1_off320_eq]; rfl),
      (List.forall_mem_cons.mpr ⟨unit16_lb (inb := k1_off319_inb g) g.val (by rw [k1_off319_eq]; rfl),
      (List.forall_mem_cons.mpr ⟨unit16_lb (inb := k1_off318_inb g) g.val (by rw [k1_off318_eq]; rfl),
      (List.forall_mem_cons.mpr ⟨unit16_lb (inb := k1_off317_inb g) g.val (by rw [k1_off317_eq]; rfl),
      (List.forall_mem_cons.mpr ⟨unit16_lb (inb := k1_off316_inb g) g.val (by rw [k1_off316_eq]; rfl),
      (List.forall_mem_cons.mpr ⟨unit16_lb (inb := k1_off315_inb g) g.val (by rw [k1_off315_eq]; rfl),
      (List.forall_mem_cons.mpr ⟨unit16_lb (inb := k1_off314_inb g) g.val (by rw [k1_off314_eq]; rfl),
      (List.forall_mem_cons.mpr ⟨unit16_lb (inb := k1_off313_inb g) g.val (by rw [k1_off313_eq]; rfl),
      (List.forall_mem_cons.mpr ⟨unit16_lb (inb := k1_off312_inb g) g.val (by rw [k1_off312_eq]; rfl),
      (List.forall_mem_cons.mpr ⟨unit16_lb (inb := k1_off311_inb g) g.val (by rw [k1_off311_eq]; rfl),
      (List.forall_mem_cons.mpr ⟨unit16_lb (inb := k1_off310_inb g) g.val (by rw [k1_off310_eq]; rfl),
      (List.forall_mem_cons.mpr ⟨unit16_lb (inb := k1_off309_inb g) g.val (by rw [k1_off309_eq]; rfl),
      (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    case hcov =>
      intro y hy1 hy2
      have hy0 : (y 0).val < 32 := (y 0).isLt
      rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 ∨ (y 0).val = 31 by omega) with h | h | h | h | h | h | h | h | h | h | h | h | h | h | h | h | h | h | h | h | h | h | h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), unit16_mem (inb := k1_off309_inb g) 0 g.val (by rw [k1_off309_eq]; rfl) (by rw [k1_off309_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), unit16_mem (inb := k1_off310_inb g) 1 g.val (by rw [k1_off310_eq]; rfl) (by rw [k1_off310_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), unit16_mem (inb := k1_off311_inb g) 2 g.val (by rw [k1_off311_eq]; rfl) (by rw [k1_off311_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), unit16_mem (inb := k1_off312_inb g) 3 g.val (by rw [k1_off312_eq]; rfl) (by rw [k1_off312_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), unit16_mem (inb := k1_off313_inb g) 4 g.val (by rw [k1_off313_eq]; rfl) (by rw [k1_off313_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), unit16_mem (inb := k1_off314_inb g) 5 g.val (by rw [k1_off314_eq]; rfl) (by rw [k1_off314_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), unit16_mem (inb := k1_off315_inb g) 6 g.val (by rw [k1_off315_eq]; rfl) (by rw [k1_off315_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), unit16_mem (inb := k1_off316_inb g) 7 g.val (by rw [k1_off316_eq]; rfl) (by rw [k1_off316_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), unit16_mem (inb := k1_off317_inb g) 8 g.val (by rw [k1_off317_eq]; rfl) (by rw [k1_off317_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), unit16_mem (inb := k1_off318_inb g) 9 g.val (by rw [k1_off318_eq]; rfl) (by rw [k1_off318_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), unit16_mem (inb := k1_off319_inb g) 10 g.val (by rw [k1_off319_eq]; rfl) (by rw [k1_off319_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), unit16_mem (inb := k1_off320_inb g) 11 g.val (by rw [k1_off320_eq]; rfl) (by rw [k1_off320_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), unit16_mem (inb := k1_off321_inb g) 12 g.val (by rw [k1_off321_eq]; rfl) (by rw [k1_off321_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), unit16_mem (inb := k1_off322_inb g) 13 g.val (by rw [k1_off322_eq]; rfl) (by rw [k1_off322_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), unit16_mem (inb := k1_off323_inb g) 14 g.val (by rw [k1_off323_eq]; rfl) (by rw [k1_off323_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), unit16_mem (inb := k1_off324_inb g) 15 g.val (by rw [k1_off324_eq]; rfl) (by rw [k1_off324_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), unit16_mem (inb := k1_off325_inb g) 16 g.val (by rw [k1_off325_eq]; rfl) (by rw [k1_off325_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), unit16_mem (inb := k1_off326_inb g) 17 g.val (by rw [k1_off326_eq]; rfl) (by rw [k1_off326_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), unit16_mem (inb := k1_off327_inb g) 18 g.val (by rw [k1_off327_eq]; rfl) (by rw [k1_off327_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), unit16_mem (inb := k1_off328_inb g) 19 g.val (by rw [k1_off328_eq]; rfl) (by rw [k1_off328_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), unit16_mem (inb := k1_off329_inb g) 20 g.val (by rw [k1_off329_eq]; rfl) (by rw [k1_off329_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), unit16_mem (inb := k1_off330_inb g) 21 g.val (by rw [k1_off330_eq]; rfl) (by rw [k1_off330_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit16_mem (inb := k1_off331_inb g) 22 g.val (by rw [k1_off331_eq]; rfl) (by rw [k1_off331_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit16_mem (inb := k1_off332_inb g) 23 g.val (by rw [k1_off332_eq]; rfl) (by rw [k1_off332_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit16_mem (inb := k1_off333_inb g) 24 g.val (by rw [k1_off333_eq]; rfl) (by rw [k1_off333_eq]; rfl) y h hy1 hy2⟩
      · exact ⟨_, List.mem_cons_of_mem _ (List.mem_cons_of_mem _ (List.mem_cons_of_mem _ (List.mem_cons_of_mem _ (List.mem_cons_of_mem _ (List.mem_cons_of_mem _ (List.mem_cons_self)))))), unit16_mem (inb := k1_off334_inb g) 25 g.val (by rw [k1_off334_eq]; rfl) (by rw [k1_off334_eq]; rfl) y h hy1 hy2⟩
      · exact ⟨_, List.mem_cons_of_mem _ (List.mem_cons_of_mem _ (List.mem_cons_of_mem _ (List.mem_cons_of_mem _ (List.mem_cons_of_mem _ (List.mem_cons_self))))), unit16_mem (inb := k1_off335_inb g) 26 g.val (by rw [k1_off335_eq]; rfl) (by rw [k1_off335_eq]; rfl) y h hy1 hy2⟩
      · exact ⟨_, List.mem_cons_of_mem _ (List.mem_cons_of_mem _ (List.mem_cons_of_mem _ (List.mem_cons_of_mem _ (List.mem_cons_self)))), unit16_mem (inb := k1_off336_inb g) 27 g.val (by rw [k1_off336_eq]; rfl) (by rw [k1_off336_eq]; rfl) y h hy1 hy2⟩
      · exact ⟨_, List.mem_cons_of_mem _ (List.mem_cons_of_mem _ (List.mem_cons_of_mem _ (List.mem_cons_self))), unit16_mem (inb := k1_off337_inb g) 28 g.val (by rw [k1_off337_eq]; rfl) (by rw [k1_off337_eq]; rfl) y h hy1 hy2⟩
      · exact ⟨_, List.mem_cons_of_mem _ (List.mem_cons_of_mem _ (List.mem_cons_self)), unit16_mem (inb := k1_off338_inb g) 29 g.val (by rw [k1_off338_eq]; rfl) (by rw [k1_off338_eq]; rfl) y h hy1 hy2⟩
      · exact ⟨_, List.mem_cons_of_mem _ (List.mem_cons_self), unit16_mem (inb := k1_off339_inb g) 30 g.val (by rw [k1_off339_eq]; rfl) (by rw [k1_off339_eq]; rfl) y h hy1 hy2⟩
      · exact ⟨_, List.mem_cons_self, unit16_mem (inb := k1_off340_inb g) 31 g.val (by rw [k1_off340_eq]; rfl) (by rw [k1_off340_eq]; rfl) y h hy1 hy2⟩

end Cert.Proof.KI

end
-- ==== Proof.KI.Row4V.lean ====
/-
  The row loop of stage 4 with values: rows 160 to 199 of out_t.
-/
import proofs.«203934_g28930899706482_cont_9to1_1937_23_alg».proof.Proof.KI.RowCommonV
import proofs.«203934_g28930899706482_cont_9to1_1937_23_alg».proof.Proof.KI.Row4
import proofs.«203934_g28930899706482_cont_9to1_1937_23_alg».proof.Proof.KI.GroupV4

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

/-- Between two trips of the row loop of stage 4, before row n = r + 160 of out_t: each chunk's copy of row n - 1 in
    flight and bound to leave its piece at G, the pieces of the rows before at G, those of the rows from n on at
    some contents. -/
def rowInvV4 (d : Dev nD) (L : grid1.Coords) (G : Buf (Elt F) (oLoc d)) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ OutFlightAtV0 d L G (r + 160 - 1) ∗ OutFlightAtV1 d L G (r + 160 - 1)
    ∗ PiecesKV d L G 0 (r + 160) ∗ PiecesKV d L G 1 (r + 160)
    ∗ ∃ W', ⌜∀ p ∈ W', p ∈ W ∨ p.2 = none⌝ ∗ owes (thrV d L) O W')

set_option maxRecDepth 65536 in
/-- Row r of stage 4, with values: the chunks filled from the staged indices and the table hold G's values of the
    two pieces of row n, so the copies started here will leave those pieces at G. -/
theorem rowV_t13 (d : Dev nD) (L : grid1.Coords) (G : Buf (Elt F) (oLoc d)) (v2 : BitVec 32) (ft : Buf (Elt F) ((tvW).view.loc (thrV d L))) (fx : Buf (Elt F) ((xs0W).view.loc (thrV d L))) (hfx : XsOK fx)
    (hrows : RowsOK L G ft fx 160)
    (O : CellTallies nD τ sig (HIx 1)) (W : Waits sig (HIx 1)) (r : Fin k1_t13_loop.trips) (acc : BitVec 32) :
    rowInvV4 d L G ft fx O W r acc
      ⊢ wp frame (wpE (defs₀ (F := F)) 𝒱₀ (thrV d L) none) Set.univ
          (k1_t13_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInvV4 d L G ft fx O W (r.val + 1)) := by
  have hr : r.val < 40 := lt_of_lt_of_le r.isLt k1_t13_abs.2.1
  have hoff0 : k1_off307 L r 0#32 = ![r.val + 160, 0, col0 L + 256 * (0 : Fin 2).val] := by
    have h := k1_off307_eq L r 0; simpa [col0] using h
  have hoff1 : k1_off307 L r 256#32 = ![r.val + 160, 0, col0 L + 256 * (1 : Fin 2).val] := by
    have h := k1_off307_eq L r 1; simpa [col0] using h
  unfold k1_t13_body rowInvV4 OutFlightAtV0 OutFlightAtV1
  rw [show r.val + 1 + 160 = r.val + 160 + 1 by omega, Nat.add_sub_cancel]
  iintro ⟨#Hmw, Ht, Hx, ⟨%q0, %fo0, %hq0, %pp0, HF0⟩, ⟨%q1, %fo1, %hq1, %pp1, HF1⟩, HP0, HP1, %W', %hW', HO⟩
  sl_exec
  -- chunk 0: its copy of row n - 1 has landed, at G; the piece of row n leaves the slot's pieces
  ihave Hl0 := (hq0 _) $$ HF0_dst
  ihave Hmid0 := (Entails.of_eq (midV_landed (F := F) d L G 0 (r.val + 160) (by omega) (by omega)).symm) $$ [Hl0 HP0]
  · isplitl [Hl0]; · iexact Hl0
    iexact HP0
  ihave Hsp0 := (Entails.of_eq (midV_next (F := F) d L G 0 (r.val + 160) (by omega))) $$ Hmid0
  icases Hsp0 with ⟨Hp0, HP0⟩
  ihave Hp0' := (take_pieceM (F := F) d L (r.val + 160) (by omega) 0 (k1_off307 L r 0#32) (k1_off307_inb L r 0) hoff0) $$ Hp0
  icases Hp0' with ⟨%p0, Hp0⟩
  ihave Ho0 := (Entails.of_eq (pts_oc0 (F := F) d L _)) $$ HF0_src
  sl_for (invV_t14 d L r.val ft fx) $$ [Ht Hx Ho0]
  case region => intro k acc; exact tripV_t14 d L v2 r _ ft fx hfx k acc
  · unfold invV_t14
    isplitl [Ht]; · iexact Ht
    isplitl [Hx]; · iexact Hx
    iexists fo0; isplitr
    · ipureintro; exact ocVal_zero _ _ _ _ _
    · iexact Ho0
  iintro %a0 HI
  unfold invV_t14
  icases HI with ⟨Ht, Hx, %fo0', %hfo0', Ho0⟩
  sl_exec
  -- chunk 1: its copy of row n - 1 has landed, at G; the piece of row n leaves the slot's pieces
  ihave Hl1 := (hq1 _) $$ HF1_dst
  ihave Hmid1 := (Entails.of_eq (midV_landed (F := F) d L G 1 (r.val + 160) (by omega) (by omega)).symm) $$ [Hl1 HP1]
  · isplitl [Hl1]; · iexact Hl1
    iexact HP1
  ihave Hsp1 := (Entails.of_eq (midV_next (F := F) d L G 1 (r.val + 160) (by omega))) $$ Hmid1
  icases Hsp1 with ⟨Hp1, HP1⟩
  ihave Hp1' := (take_pieceM (F := F) d L (r.val + 160) (by omega) 1 (k1_off307 L r 256#32) (k1_off307_inb L r 1) hoff1) $$ Hp1
  icases Hp1' with ⟨%p1, Hp1⟩
  ihave Ho1 := (Entails.of_eq (pts_oc1 (F := F) d L _)) $$ HF1_src
  sl_for (invV_t15 d L r.val ft fx) $$ [Ht Hx Ho1]
  case region => intro k acc; exact tripV_t15 d L v2 r _ ft fx hfx k acc
  · unfold invV_t15
    isplitl [Ht]; · iexact Ht
    isplitl [Hx]; · iexact Hx
    iexists fo1; isplitr
    · ipureintro; exact ocVal_zero _ _ _ _ _
    · iexact Ho1
  iintro %a1 HI
  unfold invV_t15
  icases HI with ⟨Ht, Hx, %fo1', %hfo1', Ho1⟩
  sl_exec
  sl_step
  isplitr; · iexact Hmw
  isplitl [Ht]; · iexact Ht
  isplitl [Hx]; · iexact Hx
  isplitl [HF0]
  · iexists (pieceM (k1_off307 L r 0#32) (k1_off307_inb L r 0)), fo0'; isplitr
    · ipureintro; intro p
      exact land_pieceV d L G (r.val + 160) (by omega) 0 _ _ hoff0 _
        (chunk_is_G L G ft fx 160 hrows r.val hr 0 fo0' hfo0' (r.val + 160) (by omega) rfl) p
    · iexists p0; iexact HF0
  isplitl [HF1]
  · iexists (pieceM (k1_off307 L r 256#32) (k1_off307_inb L r 1)), fo1'; isplitr
    · ipureintro; intro p
      exact land_pieceV d L G (r.val + 160) (by omega) 1 _ _ hoff1 _
        (chunk_is_G L G ft fx 160 hrows r.val hr 1 fo1' hfo1' (r.val + 160) (by omega) rfl) p
    · iexists p1; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.KI.StageFacts.lean ====
/-
  What a vector subcore's memory holds after its fetches, as plain equations. The table fetched whole is the
  flattened scaled table. A 40 × 512 box of xt at rows s0 … s0 + 39 and the subcore's 512 batch columns, fetched
  whole into a staging buffer, holds xt (s0 + r, col0 + j) at (r, j). With the table and such a stage in memory, the
  table's entry at the staged index (r, j) plus 1000 c is out_t (s0 + r, c, col0 + j): the rows are reproduced.
  Last, the five stages' offsets in closed form: rows 0, 40, 80, 120, 160 and column col0.
-/
import proofs.«203934_g28930899706482_cont_9to1_1937_23_alg».proof.Proof.KI.RowCommonV
import proofs.«203934_g28930899706482_cont_9to1_1937_23_alg».proof.Proof.KI.Pay
import proofs.«203934_g28930899706482_cont_9to1_1937_23_alg».proof.Proof.KI.ValueEq

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

variable (m : (ℓ : Loc nD τ sig) → Buf (Elt F) ℓ)

/-- out_t computed from device d's arguments. -/
def OUTv (d : Dev nD) : Buf (Elt F) (oLoc d) := OUT (m (xLoc d)) (m (tbLoc d))

/-- The flattened table fetched whole into the subcore's memory: the memory holds the flattened table. -/
theorem table_landed (d : Dev nD) (L : grid1.Coords) (ftv : Buf (Elt F) ((tvW).view.loc (thrV d L))) :
    View.write (Elt F) (tvW).view ftv (ReadAs.same.apply ((tW).view.read (Elt F) (FLv m d))) Finset.univ = FLv m d :=
  View.write_whole_univ cc1_scratch0 ftv _

/-- A 40 × 512 box of xt at rows s0 … and the subcore's batch columns, fetched whole into staging buffer 0: the buffer
    holds xt (s0 + r, col0 + j) at (r, j). -/
theorem stage_landed0 (d : Dev nD) (L : grid1.Coords) (off : Fin 2 → Nat) (inb : ∀ a, off a + S40x512.size a ≤ S200x16384.size a)
    (s0 : Nat) (h : off = ![s0, col0 L]) (fx : Buf (Elt F) ((xs0W).view.loc (thrV d L))) (r : Fin 40) (j : Fin 512)
    (hi : s0 + r.val < 200) (hb : col0 L + j.val < 16384) :
    (View.write (Elt F) (xs0W).view fx
        (ReadAs.same.apply (((xW).slice (Rect.unit (s := S200x16384) off S40x512.size inb) (fun _ => rfl)).view.read (Elt F) (XTv m d)))
        Finset.univ) (ix2 r j)
      = XTv m d (ix2 ⟨s0 + r.val, hi⟩ ⟨col0 L + j.val, hb⟩) := by
  have hw := congrFun (View.write_whole_univ cc1_scratch1 fx
    (ReadAs.same.apply (((xW).slice (Rect.unit (s := S200x16384) off S40x512.size inb) (fun _ => rfl)).view.read (Elt F) (XTv m d)))) (ix2 r j)
  exact hw.trans (read_stage d L off inb r j ⟨s0 + r.val, hi⟩ ⟨col0 L + j.val, hb⟩ (by rw [h]; rfl) (by rw [h]; rfl) (XTv m d))

/-- A 40 × 512 box of xt at rows s0 … and the subcore's batch columns, fetched whole into staging buffer 1: the buffer
    holds xt (s0 + r, col0 + j) at (r, j). -/
theorem stage_landed1 (d : Dev nD) (L : grid1.Coords) (off : Fin 2 → Nat) (inb : ∀ a, off a + S40x512.size a ≤ S200x16384.size a)
    (s0 : Nat) (h : off = ![s0, col0 L]) (fx : Buf (Elt F) ((xs1W).view.loc (thrV d L))) (r : Fin 40) (j : Fin 512)
    (hi : s0 + r.val < 200) (hb : col0 L + j.val < 16384) :
    (View.write (Elt F) (xs1W).view fx
        (ReadAs.same.apply (((xW).slice (Rect.unit (s := S200x16384) off S40x512.size inb) (fun _ => rfl)).view.read (Elt F) (XTv m d)))
        Finset.univ) (ix2 r j)
      = XTv m d (ix2 ⟨s0 + r.val, hi⟩ ⟨col0 L + j.val, hb⟩) := by
  have hw := congrFun (View.write_whole_univ cc1_scratch2 fx
    (ReadAs.same.apply (((xW).slice (Rect.unit (s := S200x16384) off S40x512.size inb) (fun _ => rfl)).view.read (Elt F) (XTv m d)))) (ix2 r j)
  exact hw.trans (read_stage d L off inb r j ⟨s0 + r.val, hi⟩ ⟨col0 L + j.val, hb⟩ (by rw [h]; rfl) (by rw [h]; rfl) (XTv m d))

/-- out_t at (a, c, b) is the flattened table at position xt (a, b) + 1000 c, reduced modulo the table's size. -/
theorem outv_apply (d : Dev nD) (a : Fin 200) (c : Fin 32) (b : Fin 16384) :
    OUTv m d (ix3 a c b)
      = FLv m d (ix1 ⟨((XTv m d (ix2 a b)).toNat + 1000 * c.val) % 32000, Nat.mod_lt _ (by decide)⟩) := rfl

/-- With the flattened table and a stage of xt's rows b0 … b0 + 39 in memory, the rows are reproduced: the table's entry
    at the staged index (r, j) plus 1000 c is out_t (b0 + r, c, col0 + j). -/
theorem rowsOK_of (d : Dev nD) (L : grid1.Coords) (ft : S32000.Idx → Elt F .f32) (fx : S40x512.Idx → BitVec 32) (b0 : Nat)
    (hft : ft = FLv m d)
    (hfx : ∀ (r : Fin 40) (j : Fin 512) (hi : b0 + r.val < 200) (hb : col0 L + j.val < 16384),
      fx (ix2 r j) = XTv m d (ix2 ⟨b0 + r.val, hi⟩ ⟨col0 L + j.val, hb⟩)) :
    RowsOK L (OUTv m d) ft fx b0 := by
  intro r c j hi hb
  subst hft
  rw [outv_apply]
  refine congrArg (fun n : Fin 32000 => FLv m d (ix1 n)) (Fin.ext ?_)
  show ((fx (ix2 r j)).toNat + 1000 * c.val) % 32000
    = ((XTv m d (ix2 ⟨b0 + r.val, hi⟩ ⟨col0 L + j.val, hb⟩)).toNat + 1000 * c.val) % 32000
  rw [hfx r j hi hb]

/-- Stage offsets in closed form: rows from 0, the subcore's batch columns. -/
theorem k1_off1_col0 (L : grid1.Coords) : k1_off1 L = ![0, col0 L] := by rw [k1_off1_eq]; rfl
/-- Stage offsets in closed form: rows from 40, the subcore's batch columns. -/
theorem k1_off2_col0 (L : grid1.Coords) : k1_off2 L = ![40, col0 L] := by rw [k1_off2_eq]; rfl
/-- Stage offsets in closed form: rows from 80, the subcore's batch columns. -/
theorem k1_off70_col0 (L : grid1.Coords) : k1_off70 L = ![80, col0 L] := by rw [k1_off70_eq]; rfl
/-- Stage offsets in closed form: rows from 120, the subcore's batch columns. -/
theorem k1_off138_col0 (L : grid1.Coords) : k1_off138 L = ![120, col0 L] := by rw [k1_off138_eq]; rfl
/-- Stage offsets in closed form: rows from 160, the subcore's batch columns. -/
theorem k1_off206_col0 (L : grid1.Coords) : k1_off206 L = ![160, col0 L] := by rw [k1_off206_eq]; rfl

end Cert.Proof.KI

end
-- ==== Proof.KI.TileBodyV.lean ====
/-
  A vector subcore's whole task, with values: the table fetched is the flattened scaled table, each staged block is
  its slice of the transposed indices, so every stage's rows are reproduced and every piece ends at out_t's contents
  OUT (out_t (s, d, b) = flat (xt (s, b) + 1000 d)).
-/
import proofs.«203934_g28930899706482_cont_9to1_1937_23_alg».proof.Proof.KI.TileBody
import proofs.«203934_g28930899706482_cont_9to1_1937_23_alg».proof.Proof.KI.Row0V
import proofs.«203934_g28930899706482_cont_9to1_1937_23_alg».proof.Proof.KI.Row1V
import proofs.«203934_g28930899706482_cont_9to1_1937_23_alg».proof.Proof.KI.Row2V
import proofs.«203934_g28930899706482_cont_9to1_1937_23_alg».proof.Proof.KI.Row3V
import proofs.«203934_g28930899706482_cont_9to1_1937_23_alg».proof.Proof.KI.Row4V
import proofs.«203934_g28930899706482_cont_9to1_1937_23_alg».proof.Proof.KI.StageFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

open Idealize.ShloMosaic.ValueIdx

variable (m : (ℓ : Loc nD τ sig) → Buf (Elt F) ℓ)

/-- What the task leaves: as the frame version, with every piece of the subcore's block at out_t's final contents. -/
def topPostV (d : Dev nD) (L : grid1.Coords) (qT : PosShare TreeShare)
    (O : CellTallies nD τ sig (HIx 1)) (W : Waits sig (HIx 1)) : sProp 𝕄 :=
  iprop(((tW).view.loc (thrV d L) ↦{qT} FLv m d)
    ∗ ((xW).view.loc (thrV d L) ↦{Transfers.shareTok qT 7 2} XTv m d)
    ∗ ((xW).view.loc (thrV d L) ↦{Transfers.shareTok qT 7 3} XTv m d)
    ∗ (∃ f, (tvW).view.loc (thrV d L) ↦{fullShare} f) ∗ (∃ f, (xs0W).view.loc (thrV d L) ↦{fullShare} f) ∗ (∃ f, (xs1W).view.loc (thrV d L) ↦{fullShare} f)
    ∗ (∃ f, (oc0W).view.loc (thrV d L) ↦{fullShare} f) ∗ (∃ f, (oc1W).view.loc (thrV d L) ↦{fullShare} f)
    ∗ semVal (thrV d L, SemLoc.dma cc1_scratch5.sem) 0 ∗ semVal (thrV d L, SemLoc.dma cc1_scratch6.sem) 0
    ∗ semVal (thrV d L, SemLoc.dma cc1_scratch7.sem) 0 ∗ semVal (thrV d L, SemLoc.dma cc1_scratch8.sem) 0
    ∗ semVal (thrV d L, SemLoc.dma cc1_scoped0.sem) 0
    ∗ AllKV d L (OUTv m d) 0 ∗ AllKV d L (OUTv m d) 1
    ∗ ∃ W', ⌜∀ p ∈ W', p ∈ W ∨ p.2 = none⌝ ∗ owes (thrV d L) O W')

set_option maxRecDepth 65536 in
theorem tile_runV (d : Dev nD) (L : grid1.Coords) (qT : PosShare TreeShare)
    (O : CellTallies nD τ sig (HIx 1)) (W : Waits sig (HIx 1)) (hO : ∀ g, O g none = 0) (hx : XOK m d) :
    topRes m d L qT O W
      ⊢ wp frame (wpE (defs₀ (F := F)) 𝒱₀ (thrV d L) none) Set.univ
          (cc1__gather_t L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0)
          fun _ => topPostV m d L qT O W := by
  simp only [cc1__gather_t_eq_skeleton]; unfold cc1__gather_t_skel
  simp only [k1_part71_eq_skeleton, k1_part72_eq_skeleton]; unfold k1_part71_skel k1_part72_skel
  unfold topRes
  iintro ⟨#Hlv, Htw, Hxw0, Hxw1, ⟨%ftv, Htv⟩, ⟨%fx0, Hx0⟩, ⟨%fx1, Hx1⟩, ⟨%fo0, Ho0⟩, ⟨%fo1, Ho1⟩, Hs5, Hs6, Hs7, Hs8, Hsc, HA0, HA1, HO⟩
  ihave Hmw := ((K (F := F)).mayWaits_none (thr := thrV d L) hO) $$ Hlv
  sl_exec
  have hfx0 : XsOK (View.write (Elt F) (xs0W).view fx0 (tile_runV.sl.dma0_1 m d L) Finset.univ) := by
    rw [show View.write (Elt F) (xs0W).view fx0 (tile_runV.sl.dma0_1 m d L) Finset.univ = tile_runV.sl.dma0_1 m d L from View.write_whole_univ _ _ _]
    intro j; exact xtv_lt m d hx _
  have hFT0 : View.write (Elt F) (tvW).view ftv (tile_runV.sl.dma0 m d) Finset.univ = FLv m d := table_landed m d L ftv
  have hFXv0 : ∀ (r : Fin 40) (j : Fin 512) (hi : 0 + r.val < 200) (hb : col0 L + j.val < 16384),
      (View.write (Elt F) (xs0W).view fx0 (tile_runV.sl.dma0_1 m d L) Finset.univ) (ix2 r j) = XTv m d (ix2 ⟨0 + r.val, hi⟩ ⟨col0 L + j.val, hb⟩) :=
    fun r j hi hb => stage_landed0 m d L (k1_off1 L) (k1_off1_inb L) 0 (k1_off1_col0 L) fx0 r j hi hb
  generalize View.write (Elt F) (tvW).view ftv (tile_runV.sl.dma0 m d) Finset.univ = FT at hFT0 ⊢
  generalize View.write (Elt F) (xs0W).view fx0 (tile_runV.sl.dma0_1 m d L) Finset.univ = FX0 at hfx0 hFXv0 ⊢
  have hrows0 : RowsOK L (OUTv m d) FT FX0 0 := rowsOK_of m d L FT FX0 0 hFT0 hFXv0
  sl_rw [Prog.bind_assoc]
  sl_for (rowInvV0 d L (OUTv m d) FT FX0 O W) $$ [Htv Hx0 Hs7 Ho0 Hs8 Ho1 HA0 HA1 HO]
  case region => intro k acc; exact rowV_t1 d L (OUTv m d) FT FX0 hfx0 hrows0 O W k acc
  · unfold rowInvV0 SlotStV0 SlotStV1
    rw [if_pos rfl, if_pos rfl, piecesKV_zero, piecesKV_zero]
    isplitr; · iexact Hmw
    isplitl [Htv]; · iexact Htv
    isplitl [Hx0]; · iexact Hx0
    isplitl [Hs7 Ho0]
    · isplitl [Hs7]; · iexact Hs7
      iexists _; iexact Ho0
    isplitl [Hs8 Ho1]
    · isplitl [Hs8]; · iexact Hs8
      iexists _; iexact Ho1
    isplitl [HA0]; · iexact HA0
    isplitl [HA1]; · iexact HA1
    iexists (insert (SemLoc.dma cc1_scratch5.sem, (default : HIx 1)) (insert (SemLoc.dma cc1_scoped0.sem, (default : HIx 1)) W)); isplitr
    · ipureintro; intro p hp
      rcases Finset.mem_insert.mp hp with hp | hp
      · exact .inr (by subst hp; rfl)
      rcases Finset.mem_insert.mp hp with hp | hp
      · exact .inr (by subst hp; rfl)
      · exact .inl hp
    · iexact HO
  iintro %a0 HI
  ihave HI := (Entails.of_eq (congrArg (fun n => rowInvV0 d L (OUTv m d) FT FX0 O W n a0) trips_t1)) $$ HI
  unfold rowInvV0 SlotStV0 SlotStV1
  rw [if_neg (by decide : ¬ (40 = 0)), if_neg (by decide : ¬ (40 = 0))]
  icases HI with ⟨-, Htv, Hx0, HF0, HF1, HP0, HP1, %W0, %hW0, HO⟩
  sl_exec

  -- stage 1
  generalize hFX1 : View.write (Elt F) (xs1W).view _ _ Finset.univ = FX1
  have hfx1 : XsOK FX1 := by
    rw [← hFX1, show ∀ f g, View.write (Elt F) (xs1W).view f g Finset.univ = g from fun f g => View.write_whole_univ _ f g]
    intro j; exact xtv_lt m d hx _
  have hFXv1 : ∀ (r : Fin 40) (j : Fin 512) (hi : 40 + r.val < 200) (hb : col0 L + j.val < 16384),
      FX1 (ix2 r j) = XTv m d (ix2 ⟨40 + r.val, hi⟩ ⟨col0 L + j.val, hb⟩) := by
    intro r j hi hb; rw [← hFX1]
    exact stage_landed1 m d L (k1_off2 L) (k1_off2_inb L) 40 (k1_off2_col0 L) _ r j hi hb
  clear hFX1
  have hrows1 : RowsOK L (OUTv m d) FT FX1 40 := rowsOK_of m d L FT FX1 40 hFT0 hFXv1
  try sl_rw [Prog.bind_assoc]
  sl_for (rowInvV1 d L (OUTv m d) FT FX1 O W) $$ [Htv Hx1 HF0 HF1 HP0 HP1 HO]
  case region => intro k acc; exact rowV_t4 d L (OUTv m d) FT FX1 hfx1 hrows1 O W k acc
  · unfold rowInvV1
    isplitr; · iexact Hmw
    isplitl [Htv]; · iexact Htv
    isplitl [Hx1]; · iexact Hx1
    isplitl [HF0]; · iexact HF0
    isplitl [HF1]; · iexact HF1
    isplitl [HP0]; · iexact HP0
    isplitl [HP1]; · iexact HP1
    iexists (insert (SemLoc.dma cc1_scratch6.sem, (default : HIx 1)) W0); isplitr
    · ipureintro; intro p hp
      rcases Finset.mem_insert.mp hp with hp | hp
      · exact .inr (by subst hp; rfl)
      · exact hW0 p hp
    · iexact HO
  iintro %a1 HI
  ihave HI := (Entails.of_eq (congrArg (fun n => rowInvV1 d L (OUTv m d) FT FX1 O W n a1) trips_t4)) $$ HI
  unfold rowInvV1
  icases HI with ⟨-, Htv, Hx1, HF0, HF1, HP0, HP1, %W1, %hW1, HO⟩
  sl_exec

  -- stage 2
  generalize hFX2 : View.write (Elt F) (xs0W).view _ _ Finset.univ = FX2
  have hfx2 : XsOK FX2 := by
    rw [← hFX2, show ∀ f g, View.write (Elt F) (xs0W).view f g Finset.univ = g from fun f g => View.write_whole_univ _ f g]
    intro j; exact xtv_lt m d hx _
  have hFXv2 : ∀ (r : Fin 40) (j : Fin 512) (hi : 80 + r.val < 200) (hb : col0 L + j.val < 16384),
      FX2 (ix2 r j) = XTv m d (ix2 ⟨80 + r.val, hi⟩ ⟨col0 L + j.val, hb⟩) := by
    intro r j hi hb; rw [← hFX2]
    exact stage_landed0 m d L (k1_off70 L) (k1_off70_inb L) 80 (k1_off70_col0 L) _ r j hi hb
  clear hFX2
  have hrows2 : RowsOK L (OUTv m d) FT FX2 80 := rowsOK_of m d L FT FX2 80 hFT0 hFXv2
  try sl_rw [Prog.bind_assoc]
  sl_for (rowInvV2 d L (OUTv m d) FT FX2 O W) $$ [Htv Hx0 HF0 HF1 HP0 HP1 HO]
  case region => intro k acc; exact rowV_t7 d L (OUTv m d) _ FT FX2 hfx2 hrows2 O W k acc
  · unfold rowInvV2
    isplitr; · iexact Hmw
    isplitl [Htv]; · iexact Htv
    isplitl [Hx0]; · iexact Hx0
    isplitl [HF0]; · iexact HF0
    isplitl [HF1]; · iexact HF1
    isplitl [HP0]; · iexact HP0
    isplitl [HP1]; · iexact HP1
    iexists (insert (SemLoc.dma cc1_scratch5.sem, (default : HIx 1)) W1); isplitr
    · ipureintro; intro p hp
      rcases Finset.mem_insert.mp hp with hp | hp
      · exact .inr (by subst hp; rfl)
      · exact hW1 p hp
    · iexact HO
  iintro %a2 HI
  ihave HI := (Entails.of_eq (congrArg (fun n => rowInvV2 d L (OUTv m d) FT FX2 O W n a2) trips_t7)) $$ HI
  unfold rowInvV2
  icases HI with ⟨-, Htv, Hx0, HF0, HF1, HP0, HP1, %W2, %hW2, HO⟩
  sl_exec

  -- stage 3
  generalize hFX3 : View.write (Elt F) (xs1W).view _ _ Finset.univ = FX3
  have hfx3 : XsOK FX3 := by
    rw [← hFX3, show ∀ f g, View.write (Elt F) (xs1W).view f g Finset.univ = g from fun f g => View.write_whole_univ _ f g]
    intro j; exact xtv_lt m d hx _
  have hFXv3 : ∀ (r : Fin 40) (j : Fin 512) (hi : 120 + r.val < 200) (hb : col0 L + j.val < 16384),
      FX3 (ix2 r j) = XTv m d (ix2 ⟨120 + r.val, hi⟩ ⟨col0 L + j.val, hb⟩) := by
    intro r j hi hb; rw [← hFX3]
    exact stage_landed1 m d L (k1_off138 L) (k1_off138_inb L) 120 (k1_off138_col0 L) _ r j hi hb
  clear hFX3
  have hrows3 : RowsOK L (OUTv m d) FT FX3 120 := rowsOK_of m d L FT FX3 120 hFT0 hFXv3
  try sl_rw [Prog.bind_assoc]
  sl_for (rowInvV3 d L (OUTv m d) FT FX3 O W) $$ [Htv Hx1 HF0 HF1 HP0 HP1 HO]
  case region => intro k acc; exact rowV_t10 d L (OUTv m d) _ FT FX3 hfx3 hrows3 O W k acc
  · unfold rowInvV3
    isplitr; · iexact Hmw
    isplitl [Htv]; · iexact Htv
    isplitl [Hx1]; · iexact Hx1
    isplitl [HF0]; · iexact HF0
    isplitl [HF1]; · iexact HF1
    isplitl [HP0]; · iexact HP0
    isplitl [HP1]; · iexact HP1
    iexists (insert (SemLoc.dma cc1_scratch6.sem, (default : HIx 1)) W2); isplitr
    · ipureintro; intro p hp
      rcases Finset.mem_insert.mp hp with hp | hp
      · exact .inr (by subst hp; rfl)
      · exact hW2 p hp
    · iexact HO
  iintro %a3 HI
  ihave HI := (Entails.of_eq (congrArg (fun n => rowInvV3 d L (OUTv m d) FT FX3 O W n a3) trips_t10)) $$ HI
  unfold rowInvV3
  icases HI with ⟨-, Htv, Hx1, HF0, HF1, HP0, HP1, %W3, %hW3, HO⟩
  sl_exec

  -- stage 4
  generalize hFX4 : View.write (Elt F) (xs0W).view _ _ Finset.univ = FX4
  have hfx4 : XsOK FX4 := by
    rw [← hFX4, show ∀ f g, View.write (Elt F) (xs0W).view f g Finset.univ = g from fun f g => View.write_whole_univ _ f g]
    intro j; exact xtv_lt m d hx _
  have hFXv4 : ∀ (r : Fin 40) (j : Fin 512) (hi : 160 + r.val < 200) (hb : col0 L + j.val < 16384),
      FX4 (ix2 r j) = XTv m d (ix2 ⟨160 + r.val, hi⟩ ⟨col0 L + j.val, hb⟩) := by
    intro r j hi hb; rw [← hFX4]
    exact stage_landed0 m d L (k1_off206 L) (k1_off206_inb L) 160 (k1_off206_col0 L) _ r j hi hb
  clear hFX4
  have hrows4 : RowsOK L (OUTv m d) FT FX4 160 := rowsOK_of m d L FT FX4 160 hFT0 hFXv4
  try sl_rw [Prog.bind_assoc]
  sl_for (rowInvV4 d L (OUTv m d) FT FX4 O W) $$ [Htv Hx0 HF0 HF1 HP0 HP1 HO]
  case region => intro k acc; exact rowV_t13 d L (OUTv m d) _ FT FX4 hfx4 hrows4 O W k acc
  · unfold rowInvV4
    isplitr; · iexact Hmw
    isplitl [Htv]; · iexact Htv
    isplitl [Hx0]; · iexact Hx0
    isplitl [HF0]; · iexact HF0
    isplitl [HF1]; · iexact HF1
    isplitl [HP0]; · iexact HP0
    isplitl [HP1]; · iexact HP1
    iexists (insert (SemLoc.dma cc1_scratch5.sem, (default : HIx 1)) W3); isplitr
    · ipureintro; intro p hp
      rcases Finset.mem_insert.mp hp with hp | hp
      · exact .inr (by subst hp; rfl)
      · exact hW3 p hp
    · iexact HO
  iintro %a4 HI
  ihave HI := (Entails.of_eq (congrArg (fun n => rowInvV4 d L (OUTv m d) FT FX4 O W n a4) trips_t13)) $$ HI
  unfold rowInvV4
  icases HI with ⟨-, Htv, Hx0, HF0, HF1, HP0, HP1, %W4, %hW4, HO⟩
  unfold OutFlightAtV0 OutFlightAtV1
  icases HF0 with ⟨%q0, %fo0', %hq0, %pp0, HF0⟩
  icases HF1 with ⟨%q1, %fo1', %hq1, %pp1, HF1⟩
  sl_exec
  sl_step
  ihave Hl0 := (hq0 _) $$ HF0_dst
  ihave HM0 := (Entails.of_eq (midV_landed (F := F) d L (OUTv m d) 0 200 (by omega) (by omega)).symm) $$ [Hl0 HP0]
  · isplitl [Hl0]; · iexact Hl0
    iexact HP0
  ihave HA0 := (Entails.of_eq (midV_last (F := F) d L (OUTv m d) 0)) $$ HM0
  ihave Hl1 := (hq1 _) $$ HF1_dst
  ihave HM1 := (Entails.of_eq (midV_landed (F := F) d L (OUTv m d) 1 200 (by omega) (by omega)).symm) $$ [Hl1 HP1]
  · isplitl [Hl1]; · iexact Hl1
    iexact HP1
  ihave HA1 := (Entails.of_eq (midV_last (F := F) d L (OUTv m d) 1)) $$ HM1
  ihave Ho0 := (Entails.of_eq (pts_oc0 (F := F) d L _)) $$ HF0_src
  ihave Ho1 := (Entails.of_eq (pts_oc1 (F := F) d L _)) $$ HF1_src
  unfold topPostV
  isplitl [Htw]; · iexact Htw
  isplitl [Hxw0]; · iexact Hxw0
  isplitl [Hxw1]; · iexact Hxw1
  isplitl [Htv]; · iexists _; iexact Htv
  isplitl [Hx0]; · iexists _; iexact Hx0
  isplitl [Hx1]; · iexists _; iexact Hx1
  isplitl [Ho0]; · iexists _; iexact Ho0
  isplitl [Ho1]; · iexists _; iexact Ho1
  isplitl [Hs5]; · iexact Hs5
  isplitl [Hs6]; · iexact Hs6
  isplitl [HF0]; · iexact HF0
  isplitl [HF1]; · iexact HF1
  isplitl [Hsc]; · iexact Hsc
  isplitl [HA0]; · iexact HA0
  isplitl [HA1]; · iexact HA1
  iexists (insert (SemLoc.dma cc1_scratch8.sem, (default : HIx 1)) (insert (SemLoc.dma cc1_scratch7.sem, (default : HIx 1)) W4)); isplitr
  · ipureintro; intro p hp
    rcases Finset.mem_insert.mp hp with hp | hp
    · exact .inr (by subst hp; rfl)
    rcases Finset.mem_insert.mp hp with hp | hp
    · exact .inr (by subst hp; rfl)
    · exact hW4 p hp
  · iexact HO

end Cert.Proof.KI

end
-- ==== Proof.KI.PayV.lean ====
/-
  What the SparseCore call takes back, with values: every subcore's block of out_t comes back at out_t's final
  contents OUT, so each SparseCore's block does, and the whole array.
-/
import proofs.«203934_g28930899706482_cont_9to1_1937_23_alg».proof.Proof.KI.StageFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-- The result computed from device d's arguments. -/
def RESv (d : Dev nD) : Buf (Elt F) (resLoc d) := RES (m (xLoc d)) (m (tbLoc d))

/-- What SparseCore c hands back: the read shares, its block of out_t at the final contents. -/
def coreResV (d : Dev nD) (c : Fin (grid1.bound 0)) : sProp 𝕄 :=
  iprop((flLoc d ↦{qCore c} FLv m d) ∗ (xtLoc d ↦{qCore c} XTv m d) ∗ (oLoc d ↦[cset c]{fullShare} OUTv m d))
/-- What vector subcore (c, i) hands back. -/
def tileResV (d : Dev nD) (c : Fin (grid1.bound 0)) (i : Fin (grid1.bound 1)) : sProp 𝕄 :=
  iprop((flLoc d ↦{qTile c i} FLv m d) ∗ (xtLoc d ↦{qTile c i} XTv m d) ∗ (oLoc d ↦[tset (coordsV c i)]{fullShare} OUTv m d))

/-- The call's payloads with values: handed over as before, taken back at the final contents. -/
def PV : (K (F := F)).Pay (nD := nD) (Val := Elt F) (Name := ℕ) (U := UU) where
  st := fun q d c => match q with | 0 => coreRes m d (Fin.cast nCore_bound c)
  dn := fun q d c => match q with | 0 => coreResV m d (Fin.cast nCore_bound c)
  go := fun q d c i => match q with | 0 => tileRes m d (Fin.cast nCore_bound c) (Fin.cast nSub_bound i)
  td := fun q d c i => match q with | 0 => tileResV m d (Fin.cast nCore_bound c) (Fin.cast nSub_bound i)
  x := fun _ _ => iprop(emp)

instance coreResV_storable (d : Dev nD) (c : Fin (grid1.bound 0)) : BI.Storable (upEmb : UEmb _ 𝕄) (coreResV m d c) := by
  unfold coreResV; infer_instance
instance tileResV_storable (d : Dev nD) (c : Fin (grid1.bound 0)) (i : Fin (grid1.bound 1)) : BI.Storable (upEmb : UEmb _ 𝕄) (tileResV m d c i) := by
  unfold tileResV; infer_instance

instance PV_storable : (PV (F := F) m).IsStorable where
  st q d c := match q with | 0 => (inferInstance : BI.Storable (upEmb : UEmb _ 𝕄) (coreRes m d (Fin.cast nCore_bound c)))
  dn q d c := match q with | 0 => (inferInstance : BI.Storable (upEmb : UEmb _ 𝕄) (coreResV m d (Fin.cast nCore_bound c)))
  go q d c i := match q with | 0 => (inferInstance : BI.Storable (upEmb : UEmb _ 𝕄) (tileRes m d (Fin.cast nCore_bound c) (Fin.cast nSub_bound i)))
  td q d c i := match q with | 0 => (inferInstance : BI.Storable (upEmb : UEmb _ 𝕄) (tileResV m d (Fin.cast nCore_bound c) (Fin.cast nSub_bound i)))

end Cert.Proof.KI

end
-- ==== Proof.KI.TileOblV.lean ====
/-
  The vector subcore's task as the launch theorem asks for it, with values: what the body leaves, the pieces of the
  subcore's block of out_t slot by slot at out_t's final contents, is regrouped into the block at those contents.
-/
import proofs.«203934_g28930899706482_cont_9to1_1937_23_alg».proof.Proof.KI.TileObl
import proofs.«203934_g28930899706482_cont_9to1_1937_23_alg».proof.Proof.KI.PayV
import proofs.«203934_g28930899706482_cont_9to1_1937_23_alg».proof.Proof.KI.PiecesV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

variable (m : (ℓ : Loc nD τ sig) → Buf (Elt F) ℓ)

/-- What the task leaves, with values: as without them, but the pieces of both slots at out_t's final contents. -/
def topPostV' (d : Dev nD) (L : grid1.Coords) (qT : PosShare TreeShare)
    (O : CellTallies nD τ sig (HIx 1)) (W : Waits sig (HIx 1)) : sProp 𝕄 :=
  iprop(((tW).view.loc (thrV d L) ↦{qT} FLv m d)
    ∗ ((xW).view.loc (thrV d L) ↦{Transfers.shareTok qT 7 2} XTv m d)
    ∗ ((xW).view.loc (thrV d L) ↦{Transfers.shareTok qT 7 3} XTv m d)
    ∗ (∃ f, (tvW).view.loc (thrV d L) ↦{fullShare} f) ∗ (∃ f, (xs0W).view.loc (thrV d L) ↦{fullShare} f) ∗ (∃ f, (xs1W).view.loc (thrV d L) ↦{fullShare} f)
    ∗ (∃ f, (oc0W).view.loc (thrV d L) ↦{fullShare} f) ∗ (∃ f, (oc1W).view.loc (thrV d L) ↦{fullShare} f)
    ∗ semVal (thrV d L, SemLoc.dma cc1_scratch5.sem) 0 ∗ semVal (thrV d L, SemLoc.dma cc1_scratch6.sem) 0
    ∗ semVal (thrV d L, SemLoc.dma cc1_scratch7.sem) 0 ∗ semVal (thrV d L, SemLoc.dma cc1_scratch8.sem) 0
    ∗ semVal (thrV d L, SemLoc.dma cc1_scoped0.sem) 0
    ∗ AllKV d L (OUTv m d) 0 ∗ AllKV d L (OUTv m d) 1
    ∗ ∃ W', ⌜∀ p ∈ W', p ∈ W ∨ p.2 = none⌝ ∗ owes (thrV d L) O W')

omit [FloatOps F] in
/-- All pieces at contents G are the pieces of slot 0 and those of slot 1 at G. -/
theorem allV_slots_eq (d : Dev nD) (L : grid1.Coords) (G : Buf (Elt F) (oLoc d)) :
    (bigSep (Finset.univ : Finset (Fin 200 × Fin 2)) fun p => (oLoc d ↦[pset L p.1 p.2]{fullShare} G : sProp 𝕄))
      = iprop(AllKV d L G 0 ∗ AllKV d L G 1) := by
  unfold AllKV
  rw [bigSep_univ_prod (fun p : Fin 200 × Fin 2 => (oLoc d ↦[pset L p.1 p.2]{fullShare} G : sProp 𝕄)),
    bigSep_univ_comm (fun (a : Fin 200) (b : Fin 2) => (oLoc d ↦[pset L a b]{fullShare} G : sProp 𝕄)), bigSep_univ_two]

omit [FloatOps F] in
/-- The block at G is its pieces at G, slot by slot. -/
theorem tileV_eq (d : Dev nD) (L : grid1.Coords) (G : Buf (Elt F) (oLoc d)) :
    (oLoc d ↦[tset L]{fullShare} G : sProp 𝕄) = iprop(AllKV d L G 0 ∗ AllKV d L G 1) :=
  (tile_pts_eq d L G).trans (allV_slots_eq d L G)

/-- The task from what the launch hands the subcore, given the body from its own spelling of it. -/
theorem tile_wrapV
    (hrunV : ∀ (d : Dev nD) (L : grid1.Coords) (qT : PosShare TreeShare) (O : CellTallies nD τ sig (HIx 1)) (W : Waits sig (HIx 1)),
      (∀ g, O g none = 0) → XOK m d →
      (topRes m d L qT O W ⊢ wp frame (wpE (defs₀ (F := F)) 𝒱₀ (thrV d L) none) Set.univ
        (cc1__gather_t L tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) (fun _ => topPostV' m d L qT O W)))
    (hx : ∀ d, XOK m d) (d : Dev nD) (c : Fin (grid1.bound 0)) (i : Fin (grid1.bound 1))
    (O : CellTallies nD τ sig (HIx 1)) (W : Waits sig (HIx 1)) (hO : ∀ g, O g none = 0) :
    iprop(levAts (K (F := F)).L (K (F := F)).lev ∗ emp ∗ tileRes m d c i
        ∗ scopedBufs (thrV d (coordsV c i)) ∗ scopedSems0 (thrV d (coordsV c i)) ∗ owes (thrV d (coordsV c i)) O W)
      ⊢ wp frame (wpE (defs₀ (F := F)) 𝒱₀ (thrV d (coordsV c i)) none) Set.univ
          (cc1__gather_t (coordsV c i) tW (Memref.isWhole_whole _) xW (Memref.isWhole_whole _) oW (Memref.isWhole_whole _)
            tvW (Memref.isWhole_whole _) xs0W (Memref.isWhole_whole _) xs1W (Memref.isWhole_whole _)
            oc0W (Memref.isWhole_whole _) oc1W (Memref.isWhole_whole _)
            cc1_scratch5 cc1_scratch6 cc1_scratch7 cc1_scratch8 cc1_scoped0)
          fun _ => iprop(tileResV m d c i ∗ scopedBufs (thrV d (coordsV c i)) ∗ scopedSems0 (thrV d (coordsV c i))
            ∗ ∃ W', ⌜∀ p ∈ W', p ∈ W ∨ p.2 = none⌝ ∗ owes (thrV d (coordsV c i)) O W') := by
  rw [(K (F := F)).scopedBufs_V facts d (cV (coordsV c i)) (jV (coordsV c i)),
    SparseCore.Cfg.scopedSems0_V (Val := Elt F) d (cV (coordsV c i)) (jV (coordsV c i)), ownSems0_V, ownBufs_V]
  unfold tileRes tileResV
  iintro ⟨#Hlv, -, ⟨Hfl, Hxt, ⟨%fo, Ho⟩⟩, ⟨Hb0, Hb1, Hb2, Hb3, Hb4, Hbufs⟩, ⟨Hs5, Hs6, Hs7, Hs8, Hs0, Hsems⟩, HO⟩
  ihave Hx := (pts_toks4 (F := F) (qTile c i) (XTv m d)).1 $$ Hxt
  icases Hx with ⟨Hxd, Hx0, Hx1, Hx2, Hx3⟩
  ihave Hall := (tile_split (F := F) d (coordsV c i) fo) $$ Ho
  ihave Hall2 := (all_slots (F := F) d (coordsV c i)).1 $$ Hall
  icases Hall2 with ⟨HA0, HA1⟩
  iapply (wp_wand_r frame _ _)
  isplitl [Hfl Hx2 Hx3 Hb0 Hb1 Hb2 Hb3 Hb4 Hs5 Hs6 Hs7 Hs8 Hs0 HA0 HA1 HO]
  · iapply (hrunV d (coordsV c i) (qTile c i) O W hO (hx d))
    unfold topRes
    isplitr; · iexact Hlv
    isplitl [Hfl]; · iexact Hfl
    isplitl [Hx2]; · iexact Hx2
    isplitl [Hx3]; · iexact Hx3
    isplitl [Hb0]; · iexact Hb0
    isplitl [Hb1]; · iexact Hb1
    isplitl [Hb2]; · iexact Hb2
    isplitl [Hb3]; · iexact Hb3
    isplitl [Hb4]; · iexact Hb4
    isplitl [Hs5]; · iexact Hs5
    isplitl [Hs6]; · iexact Hs6
    isplitl [Hs7]; · iexact Hs7
    isplitl [Hs8]; · iexact Hs8
    isplitl [Hs0]; · iexact Hs0
    isplitl [HA0]; · iexact HA0
    isplitl [HA1]; · iexact HA1
    iexact HO
  · iintro %a Hpost
    unfold topPostV'
    icases Hpost with ⟨Hfl, Hx2, Hx3, Hb0, Hb1, Hb2, Hb3, Hb4, Hs5, Hs6, Hs7, Hs8, Hs0, HA0, HA1, HW⟩
    ihave Hxt := (pts_toks4 (F := F) (qTile c i) (XTv m d)).2 $$ [Hxd Hx0 Hx1 Hx2 Hx3]
    · isplitl [Hxd]; · iexact Hxd
      isplitl [Hx0]; · iexact Hx0
      isplitl [Hx1]; · iexact Hx1
      isplitl [Hx2]; · iexact Hx2
      iexact Hx3
    ihave Ho := (Entails.of_eq (tileV_eq (F := F) d (coordsV c i) (OUTv m d)).symm) $$ [HA0 HA1]
    · isplitl [HA0]; · iexact HA0
      iexact HA1
    isplitl [Hfl Hxt Ho]
    · isplitl [Hfl]; · iexact Hfl
      isplitl [Hxt]; · iexact Hxt
      iexact Ho
    isplitl [Hb0 Hb1 Hb2 Hb3 Hb4 Hbufs]
    · isplitl [Hb0]; · iexact Hb0
      isplitl [Hb1]; · iexact Hb1
      isplitl [Hb2]; · iexact Hb2
      isplitl [Hb3]; · iexact Hb3
      isplitl [Hb4]; · iexact Hb4
      iexact Hbufs
    isplitl [Hs5 Hs6 Hs7 Hs8 Hs0 Hsems]
    · isplitl [Hs5]; · iexact Hs5
      isplitl [Hs6]; · iexact Hs6
      isplitl [Hs7]; · iexact Hs7
      isplitl [Hs8]; · iexact Hs8
      isplitl [Hs0]; · iexact Hs0
      iexact Hsems
    iexact HW

theorem tileOblV
    (hrunV : ∀ (d : Dev nD) (L : grid1.Coords) (qT : PosShare TreeShare) (O : CellTallies nD τ sig (HIx 1)) (W : Waits sig (HIx 1)),
      (∀ g, O g none = 0) → XOK m d →
      (topRes m d L qT O W ⊢ wp frame (wpE (defs₀ (F := F)) 𝒱₀ (thrV d L) none) Set.univ
        (cc1__gather_t L tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) (fun _ => topPostV' m d L qT O W)))
    (hx : ∀ d, XOK m d) : (K (F := F)).TileObl (D (F := F)) 𝒱 (PV m) v₀ 0 := by
  intro d c i O W hO _ _
  simp only [show (PV m).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_wrapV m hrunV hx d ⟨_, hc.1⟩ ⟨_, hc.2⟩ O W hO).trans (wp_mono frame _ _ fun _ => obl_post)

end Cert.Proof.KI

end
-- ==== Proof.KI.RegionV.lean ====
/-
  The TensorCore kernel's region over the SparseCore call's payloads with values. The region reads the payloads only
  through the persistent record of the cells' invariants and the level facts, so its proof is the same.
-/
import proofs.«203934_g28930899706482_cont_9to1_1937_23_alg».proof.Proof.KI.Region
import proofs.«203934_g28930899706482_cont_9to1_1937_23_alg».proof.Proof.KI.PayV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ)
variable [∀ e, Nonempty (Elt F e)]

set_option backward.isDefEq.respectTransparency.types false in
set_option maxHeartbeats 1000000 in
/-- The region in the program's own signature, with the result array at what the pipeline computes. -/
theorem region_innerV (κ : GSem nD τ sig → ℕ) (d : Dev nD) (Φ : PUnit → sProp 𝕄) :
    iprop((K (F := F)).ctx EH (PV m) κ ∗ (K (F := F)).tcSt EH d 0 ∗ boundary (SparseCore.T d) ∗ (tbLoc d ↦{fullShare} m (tbLoc d))
        ∗ (tsLoc d ↦{fullShare} m (tsLoc d)) ∗ Gr (F := F) d
        ∗ (((K (F := F)).tcSt EH d 0 ∗ boundary (SparseCore.T d) ∗ (tbLoc d ↦{fullShare} m (tbLoc d)) ∗ (tsLoc d ↦{fullShare} TSlib m d)) -∗ Φ ⟨⟩))
      ⊢ wp frame (wpE (D (F := F)) 𝒱 (SparseCore.T d) none) Set.univ (entryCall (F := F)) Φ := by
  unfold SparseCore.Cfg.tcSt Gr
  iintro ⟨#Hctx, ⟨Ho, Hrest⟩, Hb, Htb, Hts, ⟨Hg, Ht⟩, Hk⟩
  ihave Hlev := (SparseCore.Cfg.ctx_levAts κ) $$ Hctx
  iapply (Pipeline.RegionSeg.wp (pcs (F := F)) adm (dats m) (none : HIx 1) cellOf_inj (EP (F := F)) (defs₀ (F := F)) 𝒱₀
    (K (F := F)).L (K (F := F)).lev (RS m) d none (fun u hu => nomatch hu) (fun _ => .ret ⟨⟩) Φ) $$ [Ho Hrest Hb Htb Hts Hg Ht Hk Hlev]
  rw [RS_pre, RS_post]
  unfold tcOwes
  isplitl [Hrest Hk]
  · iintro ⟨Hb, Ho, Htb, Hts⟩
    rw [wp_ret]; imodintro
    iapply Hk
    isplitl [Ho Hrest]
    · isplitl [Ho]; · iexact Ho
      iexact Hrest
    isplitl [Hb]; · iexact Hb
    isplitl [Htb]; · iexact Htb
    iexact Hts
  isplitl [Hb]; · iexact Hb
  isplitl [Ho Htb Hts]
  · isplitl [Ho]; · iexact Ho
    isplitl [Htb]; · iexact Htb
    iexact Hts
  isplitl [Hlev]; · iexact Hlev
  isplitl [Hg]; · iexact Hg
  iexact Ht

/-- The region as @main spells it, in the extended signature. -/
theorem region_libV (κ : GSem nD τ sig → ℕ) (d : Dev nD) (Φ : PUnit → sProp 𝕄) :
    iprop((K (F := F)).ctx EH (PV m) κ ∗ (K (F := F)).tcSt EH d 0 ∗ boundary (SparseCore.T d) ∗ (tbLoc d ↦{fullShare} m (tbLoc d))
        ∗ (tsLoc d ↦{fullShare} m (tsLoc d)) ∗ Gr (F := F) d
        ∗ (((K (F := F)).tcSt EH d 0 ∗ boundary (SparseCore.T d) ∗ (tbLoc d ↦{fullShare} m (tbLoc d)) ∗ (tsLoc d ↦{fullShare} TSlib m d)) -∗ Φ ⟨⟩))
      ⊢ wp frame (wpE ((K (F := F)).defs (D (F := F))) 𝒱 (SparseCore.T d) none) Set.univ
          (Prog.lift (.customCall (SparseCore.inner (Pipeline.entry 0)) ())) Φ := by
  rw [← lift_entryCall]
  exact (region_innerV m κ d Φ).trans
    ((K (F := F)).wp_liftProg (D (F := F)) 𝒱 (SparseCore.T d) Set.univ none (entryCall (F := F)) Φ)

end Cert.Proof.KI

end
-- ==== Proof.KI.MainV.lean ====
/-
  @main on the TensorCore, with values. As before, but the SparseCore call hands back each SparseCore's block of
  out_t at out_t's final contents; the two blocks are the whole array at those contents, and the last transposition
  then leaves the result array at the transpose of them, which is the result computed from the arguments.
-/
import proofs.«203934_g28930899706482_cont_9to1_1937_23_alg».proof.Proof.KI.Main
import proofs.«203934_g28930899706482_cont_9to1_1937_23_alg».proof.Proof.KI.PayV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

theorem st0V_eq (d : Dev nD) :
    (bigSep Finset.univ fun c : Fin ((K (F := F)).nCore 0) => (PV m).st 0 d c) = bigSep Finset.univ fun c : Fin (grid1.bound 0) => coreRes m d c :=
  bigSep_cores (F := F) (fun c => coreRes m d c)
theorem dn0V_eq (d : Dev nD) :
    (bigSep Finset.univ fun c : Fin ((K (F := F)).nCore 0) => (PV m).dn 0 d c) = bigSep Finset.univ fun c : Fin (grid1.bound 0) => coreResV m d c :=
  bigSep_cores (F := F) (fun c => coreResV m d c)

/-- What the SparseCores hand back holds the whole of out_t at its final contents. -/
theorem cores_backV (d : Dev nD) :
    (bigSep Finset.univ fun c : Fin (grid1.bound 0) => coreResV m d c) ⊢ (oLoc d ↦{fullShare} OUTv m d : sProp 𝕄) := by
  unfold coreResV
  rw [bigSep_sep', bigSep_sep', whole_split_eq d (OUTv m d)]
  iintro ⟨-, -, Ho⟩
  iexact Ho

/-- After the last transposition: out_t as it was, the result array at the result. -/
theorem held_T1_post (d : Dev nD) :
    (held (T d) (opT1 (F := F)).bufs ((opT1 (F := F)).result (V1 m d v3' (OUTv m d))) : sProp 𝕄)
      = iprop((oLoc d ↦{fullShare} OUTv m d) ∗ (resLoc d ↦{fullShare} RESv m d)) := by
  rw [show (opT1 (F := F)).bufs = {v3', v4'} from rfl, held_pair d (show v3' ≠ v4' by decide),
    (opT1 (F := F)).result_of_not_mem (V1 m d v3' (OUTv m d)) (b := v3') (show v3' ∉ ({v4'} : Finset (DevRef τ sig)) by decide),
    V1_self,
    show (opT1 (F := F)).result (V1 m d v3' (OUTv m d)) v4' = RESv m d from by
      rw [StableHlo.unary_result, V1_self]; rfl]

/-- What @main leaves the claim: the two arguments at their launch contents, the result array at the result. -/
abbrev FINV (d : Dev nD) : sProp 𝕄 :=
  iprop((xLoc d ↦{fullShare} m (xLoc d)) ∗ (tbLoc d ↦{fullShare} m (tbLoc d)) ∗ (resLoc d ↦{fullShare} RESv m d))

/-- The TensorCore kernel's region as an obligation, over the payloads with values (the region does not read them). -/
def RegionOblV (G : Dev nD → sProp 𝕄) : Prop :=
  ∀ (κ : GSem nD τ sig → ℕ) (d : Dev nD) (Φ : PUnit → sProp 𝕄),
    iprop((K (F := F)).ctx EH (PV m) κ ∗ (K (F := F)).tcSt EH d 0 ∗ boundary (T d) ∗ (tbLoc d ↦{fullShare} m (tbLoc d))
        ∗ (tsLoc d ↦{fullShare} m (tsLoc d)) ∗ G d
        ∗ (((K (F := F)).tcSt EH d 0 ∗ boundary (T d) ∗ (tbLoc d ↦{fullShare} m (tbLoc d)) ∗ (tsLoc d ↦{fullShare} TS (m (tbLoc d)))) -∗ Φ ⟨⟩))
      ⊢ wp frame (wpE ((K (F := F)).defs (D (F := F))) 𝒱 (SparseCore.T d) none) Set.univ
          (Prog.lift (.customCall (SparseCore.inner (Pipeline.entry 0)) ())) Φ

/-- @main on device d's TensorCore, given the TensorCore kernel's region: the arguments end at their launch contents and
    the result array at the result computed from them. -/
theorem hmainV (G : Dev nD → sProp 𝕄) (hreg : RegionOblV m G) (κ : GSem nD τ sig → ℕ) (d : Dev nD) :
    iprop((K (F := F)).ctx EH (PV m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [unscopedBufs_eq]
  simp only [main, wp_bind, wp_pure]
  iintro ⟨#Hctx, Hst, ⟨Hb, ⟨Hx, Htb, Hxt, Hts, Hfl, Ho, Hres⟩, -, -⟩, HG⟩
  -- the transposition of the indices
  iapply (wp_hlo_within 𝒱 (SparseCore.T d) none Set.univ (op := opT0) (S := (opT0 (F := F)).bufs) (Finset.Subset.refl _) (V := V0 m d)) $$ [Hb Hx Hxt]
  · isplitl [Hb]; · iexact Hb
    rw [held_T0_pre]
    isplitl [Hx]; · iexact Hx
    iexact Hxt
  iintro ⟨Hb, Hh⟩
  ihave Hh' := (Entails.of_eq (held_T0_post m d)) $$ Hh
  icases Hh' with ⟨Hx, Hxt⟩
  rw [wp_ret]; imodintro
  -- the TensorCore kernel's region
  iapply (hreg κ d _) $$ [Hst Hb Htb Hts HG Hx Hxt Hfl Ho Hres]
  isplitr; · iexact Hctx
  isplitl [Hst]; · iexact Hst
  isplitl [Hb]; · iexact Hb
  isplitl [Htb]; · iexact Htb
  isplitl [Hts]; · iexact Hts
  isplitl [HG]; · iexact HG
  iintro ⟨Hst, Hb, Htb, Hts⟩
  -- the flattening
  iapply (wp_hlo_within 𝒱 (SparseCore.T d) none Set.univ (op := opR) (S := (opR (F := F)).bufs) (Finset.Subset.refl _) (V := V1 m d v1' (TS (m (tbLoc d))))) $$ [Hb Hts Hfl]
  · isplitl [Hb]; · iexact Hb
    rw [held_R_pre]
    isplitl [Hts]; · iexact Hts
    iexact Hfl
  iintro ⟨Hb, Hh⟩
  ihave Hh' := (Entails.of_eq (held_R_post m d)) $$ Hh
  icases Hh' with ⟨Hts, Hfl⟩
  rw [wp_ret]; imodintro
  -- the SparseCore call: a read share of the flattened table and of the transposed indices and its block of out_t to each SparseCore
  ihave Hfl' := (Transfers.pointsTo_toks_split fullShare 2) $$ Hfl
  icases Hfl' with ⟨Hflr, Hfls⟩
  ihave Hxt' := (Transfers.pointsTo_toks_split fullShare 2) $$ Hxt
  icases Hxt' with ⟨Hxtr, Hxts⟩
  ihave Ho' := (oCores_some d _) $$ Ho
  iapply ((K (F := F)).wp_run (D (F := F)) 𝒱 (EH := EH) (P := PV m) κ d 0) $$ [Hst Hfls Hxts Ho' Hb Hx Htb Hres]
  isplitr; · iexact Hctx
  isplitl [Hst]; · iexact Hst
  isplitl [Hfls Hxts Ho']
  · rw [st0V_eq]
    unfold coreRes
    rw [bigSep_sep', bigSep_sep']
    isplitl [Hfls]; · iexact Hfls
    isplitl [Hxts]; · iexact Hxts
    iexact Ho'
  iintro ⟨Hst, Hdn⟩
  ihave Hdn' := (Entails.of_eq (dn0V_eq m d)) $$ Hdn
  ihave Ho := (cores_backV m d) $$ Hdn'
  -- the transposition of out_t
  iapply (wp_hlo_within 𝒱 (SparseCore.T d) none Set.univ (op := opT1) (S := (opT1 (F := F)).bufs) (Finset.Subset.refl _) (V := V1 m d v3' (OUTv m d))) $$ [Hb Ho Hres]
  · isplitl [Hb]; · iexact Hb
    rw [held_T1_pre]
    isplitl [Ho]; · iexact Ho
    iexact Hres
  iintro ⟨Hb, Hh⟩
  ihave Hh' := (Entails.of_eq (held_T1_post m d)) $$ Hh
  icases Hh' with ⟨-, Hres⟩
  rw [wp_ret]; imodintro; imodintro
  isplitl [Hst]; · iexact Hst
  isplitl [Hx]; · iexact Hx
  isplitl [Htb]; · iexact Htb
  iexact Hres

end Cert.Proof.KI

end
-- ==== Proof.KI.VecSplitV.lean ====
/-
  The split of one SparseCore's operands among its sixteen vector subcores, with values: the subcores' blocks of
  out_t come back at out_t's final contents, so their separating conjunction is the SparseCore's block at those
  contents (the block is the disjoint union of theirs); the read shares rejoin as before.
-/
import proofs.«203934_g28930899706482_cont_9to1_1937_23_alg».proof.Proof.KI.VecSplit
import proofs.«203934_g28930899706482_cont_9to1_1937_23_alg».proof.Proof.KI.PayV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-- The split of SparseCore c's operands into its sixteen tasks' and the gathering of their results at the final contents. -/
theorem vecSplitV : (K (F := F)).VecSplit' (PV m) 0 := by
  intro d c
  show coreRes m d (Fin.cast nCore_bound c) ⊢ |={Set.univ}=> iprop(
      (bigSep Finset.univ fun i : Fin ((K (F := F)).nSub 0) => tileRes m d (Fin.cast nCore_bound c) (Fin.cast nSub_bound i))
      ∗ ((bigSep Finset.univ fun i : Fin ((K (F := F)).nSub 0) => tileResV m d (Fin.cast nCore_bound c) (Fin.cast nSub_bound i))
          -∗ coreResV m d (Fin.cast nCore_bound c)))
  generalize Fin.cast nCore_bound c = c'
  rw [bigSep_tasks (F := F) (fun i => tileRes m d c' i), bigSep_tasks (F := F) (fun i => tileResV m d c' i)]
  unfold coreRes tileRes coreResV tileResV
  rw [bigSep_sep', bigSep_sep', bigSep_sep', bigSep_sep']
  iintro ⟨Hfl, Hxt, %f, Ho⟩
  ihave Hfl' := (Transfers.pointsTo_toks_split (qCore c') 16) $$ Hfl
  icases Hfl' with ⟨Hflr, Hfls⟩
  ihave Hxt' := (Transfers.pointsTo_toks_split (qCore c') 16) $$ Hxt
  icases Hxt' with ⟨Hxtr, Hxts⟩
  ihave Ho' := (Entails.of_eq (core_split_eq d c' f)) $$ Ho
  imodintro
  isplitl [Hfls Hxts Ho']
  · isplitl [Hfls]; · iexact Hfls
    isplitl [Hxts]; · iexact Hxts
    iapply (oTiles_some d c' f)
    iexact Ho'
  iintro ⟨Hfls, Hxts, Hos⟩
  isplitl [Hflr Hfls]
  · iapply (Transfers.pointsTo_toks_join (qCore c') 16)
    isplitl [Hflr]; · iexact Hflr
    iexact Hfls
  isplitl [Hxtr Hxts]
  · iapply (Transfers.pointsTo_toks_join (qCore c') 16)
    isplitl [Hxtr]; · iexact Hxtr
    iexact Hxts
  rw [core_split_eq d c' (OUTv m d)]
  iexact Hos

end Cert.Proof.KI

end
-- ==== Proof.KI.LaunchV.lean ====
/-
  The program's run with values: as the frame's run, and at the end @main still holds the result array whole at the
  result computed from the arguments, which the final memory must then agree with.
-/
import proofs.«203934_g28930899706482_cont_9to1_1937_23_alg».proof.Proof.KI.MainV
import proofs.«203934_g28930899706482_cont_9to1_1937_23_alg».proof.Proof.KI.VecSplitV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- What the final memory is asked: device d's result array at the result, its two arguments as launched. -/
def fqV (d : Dev nD) (s' : Phys nD τ sig (Elt F)) : Prop :=
  s'.mem.mem (resLoc d) = RESv m d ∧ s'.mem.mem (xLoc d) = m (xLoc d) ∧ s'.mem.mem (tbLoc d) = m (tbLoc d)

/-- An array held whole at the full share has its contents in the memory. -/
theorem hfinV (d : Dev nD) (s' : Phys nD τ sig (Elt F)) : iprop(FINV m d ∗ SI s') ⊢ (⌜fqV m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tbLoc d) (I := Finset.univ) (q := fullShare) (f := m (tbLoc d)))) $$ [HSI Ht]
  · isplitl [HSI] <;> iassumption
  icases H with ⟨%h2, HSI, -⟩
  ihave H := (SI_pointsTo_agree (st := s') (ℓ := resLoc d) (I := Finset.univ) (q := fullShare) (f := RESv m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The post with values: on every device the result array holds the result and the two arguments are as launched. -/
def QCV : PUnit × MemSt nD τ sig (Elt F) → Prop := fun r => ∀ c : Dev nD,
  r.2.mem (resLoc c) = RESv m c ∧ r.2.mem (xLoc c) = m (xLoc c) ∧ r.2.mem (tbLoc c) = m (tbLoc c)

/-- THE RUN WITH VALUES, from the vector subcores' obligation over the payloads with values, the TensorCore kernel's
    region and a launch element that funds the handshakes and what the region needs. -/
theorem run_frameV [∀ e, Nonempty (Elt F e)] (htile : (K (F := F)).TileObl (D (F := F)) 𝒱 (PV m) v₀ 0)
    (G : Dev nD → sProp 𝕄) (hreg : RegionOblV m G) (u₀ : UU)
    (hu₀ : (ownU u₀ : sProp 𝕄) ⊢ |={Set.univ}=> iprop(BI.own (EH (initOf (K (F := F)).hsCells (K (F := F)).hsToks)) ∗ (bigSep Finset.univ G)
        ∗ bigSep Finset.univ fun thr : Thread nD τ => bigSep Finset.univ fun q : Fin 1 => (PV m).x q thr)) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := PV m) facts v₀
    (fun q hq => match q with | 0 => nomatch hq)
    (fun q _ => match q with | 0 => htile)
    (fun q _ => match q with | 0 => SparseCore.Cfg.VecSplit.of_plain (vecSplitV m))
    m ρ main G (FINV m) u₀ (sep_elim_left.trans hu₀) (hmainV m ρ G hreg) (fqV m) (hfinV m) (QCV m) (fun _ h => h)

end Cert.Proof.KI

end
-- ==== Proof.KI.RegionLaunchV.lean ====
/-
  The launch element and the run with values. The launch element is the frame's; nothing of the kernel's own is dealt
  to any thread under the payloads with values either. With the region's result identified as the scaled transposed
  table, the launch theorem gives the run to the post with values.
-/
import proofs.«203934_g28930899706482_cont_9to1_1937_23_alg».proof.Proof.KI.RegionV
import proofs.«203934_g28930899706482_cont_9to1_1937_23_alg».proof.Proof.KI.RegionLaunch
import proofs.«203934_g28930899706482_cont_9to1_1937_23_alg».proof.Proof.KI.LaunchV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ) (ρ : Dev nD → PrngReg)
variable [∀ e, Nonempty (Elt F e)]

/-- From the launch element: the handshakes' part as the launch theorem takes it, on every device what the region is
    entered with, and nothing of the kernel's own on any thread. -/
theorem hu₀V : (ownU (u₀ (F := F)) : sProp 𝕄)
    ⊢ |={Set.univ}=> iprop(BI.own (EH (initOf (K (F := F)).hsCells (K (F := F)).hsToks)) ∗ (bigSep Finset.univ (Gr (F := F)))
        ∗ bigSep Finset.univ fun thr : Thread nD τ => bigSep Finset.univ fun q : Fin 1 => (PV m).x q thr) := by
  have e1 : (bigSep Finset.univ fun c : Dev nD => bigSep Finset.univ fun p : Fin 1 =>
        Pipeline.cellsGhost (Pipeline.pin (pcs (F := F)) adm) (EP (F := F)) p c)
      = bigSep Finset.univ fun c : Dev nD => Pipeline.cellsGhost (Pipeline.pin (pcs (F := F)) adm) (EP (F := F)) 0 c :=
    bigSep_congr fun c _ => bigSep_univ_of_subsingleton (0 : Fin 1)
  have e2 : (bigSep Finset.univ fun c : Dev nD => bigSep Finset.univ fun p : Fin 1 =>
        (Pipeline.toksInit (Pipeline.pin (pcs (F := F)) adm) (EP (F := F)) p c : sProp 𝕄))
      = bigSep Finset.univ fun c : Dev nD => Pipeline.toksInit (Pipeline.pin (pcs (F := F)) adm) (EP (F := F)) 0 c :=
    bigSep_congr fun c _ => bigSep_univ_of_subsingleton (0 : Fin 1)
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcs (F := F)) adm) (EP (F := F)) cellOf_inj) $$ HP with ⟨Hg, Ht⟩
  ihave Hg' := (Entails.of_eq e1) $$ Hg
  ihave Ht' := (Entails.of_eq e2) $$ Ht
  imodintro
  isplitl [HH]; · iexact HH
  isplitl [Hg' Ht']
  · unfold Gr
    rw [bigSep_sep']
    isplitl [Hg']; · iexact Hg'
    iexact Ht'
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The region as @main with values was proved over it. -/
theorem regionOblV (hTS : ∀ d, TSlib m d = TS (m (tbLoc d))) : RegionOblV m (Gr (F := F)) := by
  intro κ d Φ
  rw [← hTS d]
  exact region_libV m κ d Φ

/-- THE RUN WITH VALUES from the vector subcores' obligation: every weakly fair execution of the program's threads
    terminates with the result array at the result computed from the arguments and the two arguments unchanged. -/
theorem run_of_tileV (htile : (K (F := F)).TileObl (D (F := F)) 𝒱 (PV m) v₀ 0) (hTS : ∀ d, TSlib m d = TS (m (tbLoc d))) :
    θ_run (Cert.KernelIdeal.defs (F := F)) (Cert.KernelIdeal.threads (F := F)) ⟨m, fun _ => 0, ρ⟩ (QCV m) :=
  run_frameV m ρ htile (Gr (F := F)) (regionOblV m hTS) (u₀ (F := F)) (hu₀V m)

end Cert.Proof.KI

end
-- ==== Proof.KI.FramesV.lean ====
/-
  The kernel's run with its result: under the precondition the device's threads run to the end and the result array
  holds RES, the transposed gather of the flattened scaled table at the transposed indices; the arguments unchanged.
-/
import proofs.«203934_g28930899706482_cont_9to1_1937_23_alg».proof.Proof.KI.Frames
import proofs.«203934_g28930899706482_cont_9to1_1937_23_alg».proof.Proof.KI.TileBodyV
import proofs.«203934_g28930899706482_cont_9to1_1937_23_alg».proof.Proof.KI.TileOblV
import proofs.«203934_g28930899706482_cont_9to1_1937_23_alg».proof.Proof.KI.RegionLaunchV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.KernelIdeal.main_v2_scv : Memref Cert.KernelIdeal.sig Kind.scVector Space.hbm Cert.KernelIdeal.S32000 EltTy.f32)
local notation "xW" => (Memref.whole Cert.KernelIdeal.main_v0_scv : Memref Cert.KernelIdeal.sig Kind.scVector Space.hbm Cert.KernelIdeal.S200x16384 EltTy.i32)
local notation "oW" => (Memref.whole Cert.KernelIdeal.main_v3_scv : Memref Cert.KernelIdeal.sig Kind.scVector Space.hbm Cert.KernelIdeal.S200x32x16384 EltTy.f32)
local notation "tvW" => (Memref.whole Cert.KernelIdeal.cc1_scratch0 : Memref Cert.KernelIdeal.sig Kind.scVector Space.vmem Cert.KernelIdeal.S32000 EltTy.f32)
local notation "xs0W" => (Memref.whole Cert.KernelIdeal.cc1_scratch1 : Memref Cert.KernelIdeal.sig Kind.scVector Space.vmem Cert.KernelIdeal.S40x512 EltTy.i32)
local notation "xs1W" => (Memref.whole Cert.KernelIdeal.cc1_scratch2 : Memref Cert.KernelIdeal.sig Kind.scVector Space.vmem Cert.KernelIdeal.S40x512 EltTy.i32)
local notation "oc0W" => (Memref.whole Cert.KernelIdeal.cc1_scratch3 : Memref Cert.KernelIdeal.sig Kind.scVector Space.vmem Cert.KernelIdeal.S32x256 EltTy.f32)
local notation "oc1W" => (Memref.whole Cert.KernelIdeal.cc1_scratch4 : Memref Cert.KernelIdeal.sig Kind.scVector Space.vmem Cert.KernelIdeal.S32x256 EltTy.f32)

variable (m : (ℓ : Loc nD τ sig) → Buf (Elt F) ℓ) (ρ : Dev nD → PrngReg)

/-- The kernel's run, the result named. -/
theorem run_kiV [∀ e, Nonempty (Elt F e)] (hx : ∀ d, XOK m d) :
    θ_run (Cert.KernelIdeal.defs (F := F)) (Cert.KernelIdeal.threads (F := F)) ⟨m, fun _ => 0, ρ⟩ (QCV m) :=
  run_of_tileV m ρ (tileOblV m (fun d L qT O W hO hxd => tile_runV m d L qT O W hO hxd) hx) (hTS m)

end Cert.Proof.KI

end
-- ==== Proof.KB.Setup.lean ====
/-
  The program as the SparseCore launch theorem sees it, the ghost state, and what the one SparseCore call hands
  over. The kernel computes out_t[s, d, b] = flat[xt[s, b] + 1000 d] with xt the transposed indices and flat the
  flattened scaled transposed table; vector subcore (c, i) writes the 512 columns b ∈ [512 (2 i + c), +512) of out_t
  and only reads xt and flat, so the call lends every subcore a read share of xt and of flat, whole, and its own
  column block of out_t.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«203934_g28930899706482_cont_9to1_1937_23_alg».proof.Proof.Gen.Kernel
import proofs.«203934_g28930899706482_cont_9to1_1937_23_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The TensorCore pallas_call's staging cells live in the pipeline library's rounds algebra. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP; infer_instance

/-! ## The arrays -/

/-- The index array x, the table, the transposed indices, the scaled transposed table, its flattening, the
    kernel's output out_t and the result, as locations of device d. -/
abbrev xLoc (d : Dev nD) : Loc nD τ sig := (SparseCore.T d).loc main_arg0
abbrev tbLoc (d : Dev nD) : Loc nD τ sig := (SparseCore.T d).loc main_arg1
abbrev xtLoc (d : Dev nD) : Loc nD τ sig := (SparseCore.T d).loc main_v0
abbrev tsLoc (d : Dev nD) : Loc nD τ sig := (SparseCore.T d).loc main_v1
abbrev flLoc (d : Dev nD) : Loc nD τ sig := (SparseCore.T d).loc main_v2
abbrev oLoc (d : Dev nD) : Loc nD τ sig := (SparseCore.T d).loc main_v3
abbrev resLoc (d : Dev nD) : Loc nD τ sig := (SparseCore.T d).loc main_v4

variable [FloatOps F]

/-- xt = x transposed. -/
def XT (x : IVec S16384x200 32) : IVec S200x16384 32 := transpose S200x16384 [1, 0] x transposes_S16384x200_S200x16384_1_0
/-- The scaled transposed table: entry (d, v) is table (v, d) times the literal. -/
def TS (t : FVec F S1000x32 .f32) : FVec F S32x1000 .f32 := k0_pay1 t
/-- Its flattening: entry 1000 d + v. -/
def FL (t : FVec F S1000x32 .f32) : FVec F S32000 .f32 := shapeCast S32000 (TS t) shapeCasts_S32x1000_S32000
/-- out_t (s, d, b) = flat (xt (s, b) + 1000 d) (the index taken modulo the table's size, so that the function is total). -/
def OUT (x : IVec S16384x200 32) (t : FVec F S1000x32 .f32) : FVec F S200x32x16384 .f32 :=
  fun j => FL t (ValueIdx.ix1 ⟨((XT x (ValueIdx.ix2 (j 0) (j 2))).toNat + 1000 * (j 1).val) % 32000, Nat.mod_lt _ (by decide)⟩)
/-- The result: out_t with the batch axis first. -/
def RES (x : IVec S16384x200 32) (t : FVec F S1000x32 .f32) : FVec F S16384x200x32 .f32 :=
  transpose S16384x200x32 [2, 0, 1] (OUT x t) transposes_S200x32x16384_S16384x200x32_2_0_1

end Cert.Proof.KB

end
-- ==== Proof.KB.TileCommon.lean ====
/-
  A vector subcore's task, common part: the thread, the scratch buffers, and the pure facts behind the gathers'
  range checks. An index word below 1000 plus a row offset 1000 c with c ≤ 31 is below 32000, the size of the
  flattened table.
-/
import proofs.«203934_g28930899706482_cont_9to1_1937_23_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- The SparseCore and vector subcore of grid coordinates L, and the subcore's thread on device d. -/
abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

/-- Every word of a staged index block is a row number of the table: below 1000. -/
def XsOK (fx : S40x512.Idx → BitVec 32) : Prop := ∀ j, (fx j).toNat < 1000

omit [FloatOps F] in
/-- Lanes loaded from the first staged index block are words of it. -/
theorem ldrow0_lt (d : Dev nD) (L : grid1.Coords) (fx : Buf (Elt F) ((xs0W).view.loc (thrV d L))) (hfx : XsOK fx)
    (R : LoadRect S40x512) (x : R.shape.Idx) :
    BitVec.toNat ((xs0W).view.readAt (Elt F) R fx x) < 1000 := by
  simp only [View.readAt_apply, Memref.view_whole, View.read_whole]
  exact hfx _
omit [FloatOps F] in
/-- Lanes loaded from the second staged index block are words of it. -/
theorem ldrow1_lt (d : Dev nD) (L : grid1.Coords) (fx : Buf (Elt F) ((xs1W).view.loc (thrV d L))) (hfx : XsOK fx)
    (R : LoadRect S40x512) (x : R.shape.Idx) :
    BitVec.toNat ((xs1W).view.readAt (Elt F) R fx x) < 1000 := by
  simp only [View.readAt_apply, Memref.view_whole, View.read_whole]
  exact hfx _

omit [FloatOps F] in
/-- A word below 1000 plus a constant at most 31000 is below 32000, lane by lane. -/
theorem chk_addi (v : IVec S16 32) (c : BitVec 32) (hv : ∀ x, (v x).toNat < 1000) (hc : c.toNat ≤ 31000) :
    ∀ a x, ((![addi v (broadcast S16 c)] : Fin 1 → IVec S16 32) a x).toNat < S32000.size a := by
  intro a x
  obtain rfl : a = 0 := Subsingleton.elim _ _
  show (IntOp.addi (v x) c).toNat < 32000
  have h1 := hv x
  simp only [IntOp.addi, BitVec.toNat_add]
  omega

end Cert.Proof.KB

end
-- ==== Proof.KB.Pieces.lean ====
/-
  The column block of out_t that one vector subcore writes, cut into the 400 pieces its copies write: piece
  (i1, k) is row i1, all 32 table columns, batch columns [col0 + 256 k, col0 + 256 k + 256), where
  col0 = 512 (2 i + c) for vector subcore i of SparseCore c. The pieces are pairwise disjoint and their union is the
  subcore's block, rows [0, 200) × columns [0, 32) × batch columns [col0, col0 + 512).
-/
import proofs.«203934_g28930899706482_cont_9to1_1937_23_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The first batch column of the subcore at grid coordinates L. -/
def col0 (L : grid1.Coords) : Nat := 1024 * (L 1).val + 512 * (L 0).val

theorem col0_le (L : grid1.Coords) : col0 L + 512 ≤ 16384 := by
  have h0 : (L 0).val < 2 := (L 0).isLt
  have h1 : (L 1).val < 16 := (L 1).isLt
  unfold col0; omega

theorem pieceRect_inb (L : grid1.Coords) (i1 : Fin 200) (k : Fin 2) :
    ∀ a, (![i1.val, 0, col0 L + 256 * k.val] : Fin 3 → Nat) a + S1x32x256.size a ≤ S200x32x16384.size a := by
  have h := col0_le L
  have hi := i1.isLt
  have hk := k.isLt
  intro a; fin_cases a <;> simp <;> omega

/-- Piece (i1, k) as a rectangle of out_t. -/
abbrev pieceRect (L : grid1.Coords) (i1 : Fin 200) (k : Fin 2) : Rect S200x32x16384 :=
  Rect.unit (s := S200x32x16384) ![i1.val, 0, col0 L + 256 * k.val] S1x32x256.size (pieceRect_inb L i1 k)

/-- Its elements. -/
def pset (L : grid1.Coords) (i1 : Fin 200) (k : Fin 2) : Finset S200x32x16384.Idx := (pieceRect L i1 k).set

abbrev tileShape : Shape := ⟨3, ![200, 32, 512]⟩

theorem tileRect_inb (L : grid1.Coords) : ∀ a, (![0, 0, col0 L] : Fin 3 → Nat) a + tileShape.size a ≤ S200x32x16384.size a := by
  have h := col0_le L
  intro a; fin_cases a <;> simp <;> omega

/-- The subcore's whole block. -/
abbrev tileRect (L : grid1.Coords) : Rect S200x32x16384 := Rect.unit (s := S200x32x16384) ![0, 0, col0 L] tileShape.size (tileRect_inb L)
def tset (L : grid1.Coords) : Finset S200x32x16384.Idx := (tileRect L).set

/-- Grid coordinates from a SparseCore and a vector subcore of the call's grid, as the body table builds them. -/
def coordsV (c : Fin (grid1.bound 0)) (s : Fin (grid1.bound 1)) : grid1.Coords :=
  fun | 0 => c | 1 => s | ⟨_ + 2, h⟩ => absurd h (Nat.not_lt.2 (Nat.le_add_left _ _))

/-- The block of SparseCore c: its sixteen subcores' blocks together. -/
def cset (c : Fin (grid1.bound 0)) : Finset S200x32x16384.Idx :=
  (Finset.univ : Finset (Fin (grid1.bound 1))).biUnion fun i => tset (coordsV c i)

/-- A piece held at some contents. -/
def P1 (d : Dev nD) (L : grid1.Coords) (p : Fin 200 × Fin 2) : sProp 𝕄 := iprop(∃ f, oLoc d ↦[pset L p.1 p.2]{fullShare} f)
/-- All 400 pieces. -/
def AllPieces (d : Dev nD) (L : grid1.Coords) : sProp 𝕄 := bigSep (Finset.univ : Finset (Fin 200 × Fin 2)) (P1 (F := F) d L)
/-- All pieces but the two of row n - 1 (all of them when n = 0): what the subcore holds while the copies of row
    n - 1 are in flight. -/
def Pieces (d : Dev nD) (L : grid1.Coords) (n : Nat) : sProp 𝕄 :=
  bigSep (Finset.univ : Finset (Fin 200 × Fin 2)) fun p => if p.1.val + 1 = n then iprop(emp) else P1 (F := F) d L p

end Cert.Proof.KB

end
-- ==== Proof.KB.PiecesK.lean ====
/-
  The pieces of a subcore's block, slot by slot: the copies of output chunk k write the pieces (i1, k), one row
  i1 after another, so while the copy of row n - 1 is in flight the subcore holds every piece of slot k but that one.
-/
import proofs.«203934_g28930899706482_cont_9to1_1937_23_alg».proof.Proof.KB.Pieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- Piece (i, k) at some contents, for a row number given as a natural number (nothing when it is no row). -/
def P1n (d : Dev nD) (L : grid1.Coords) (i : Nat) (k : Fin 2) : sProp 𝕄 :=
  if h : i < 200 then P1 (F := F) d L (⟨i, h⟩, k) else iprop(emp)
/-- All 200 pieces of slot k. -/
def AllK (d : Dev nD) (L : grid1.Coords) (k : Fin 2) : sProp 𝕄 := bigSep (Finset.univ : Finset (Fin 200)) fun i => P1 (F := F) d L (i, k)
/-- All pieces of slot k but the one of row n - 1 (all of them when n = 0). -/
def PiecesK (d : Dev nD) (L : grid1.Coords) (k : Fin 2) (n : Nat) : sProp 𝕄 :=
  bigSep (Finset.univ : Finset (Fin 200)) fun i => if i.val + 1 = n then iprop(emp) else P1 (F := F) d L (i, k)

end Cert.Proof.KB

end
-- ==== Proof.KB.RowCommon.lean ====
/-
  A vector subcore's row loops, common part. Output chunk k (32 table columns by 256 batch columns) is copied to
  piece (i1, k) of out_t on the chunk's own semaphore; the copy of row i1 is waited for only before the chunk is
  written again, at row i1 + 1, so between two trips of a row loop each chunk's copy is in flight. What the
  subcore then holds of a flight: that whatever the copy lands in its piece, the piece is held afterwards.
-/
import proofs.«203934_g28930899706482_cont_9to1_1937_23_alg».proof.Proof.KB.TileCommon
import proofs.«203934_g28930899706482_cont_9to1_1937_23_alg».proof.Proof.KB.PiecesK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- A piece of out_t as the kernel slices it: the 1 × 32 × 256 box at the given offsets, its unit axis squeezed. -/
abbrev pieceM (off : Fin 3 → Nat) (inb : ∀ a, off a + S1x32x256.size a ≤ S200x32x16384.size a) : Memref sig .scVector .hbm S32x256 .f32 :=
  ((oW).slice (Rect.unit (s := S200x32x16384) off S1x32x256.size inb) (fun _ => rfl)).squeeze S32x256 squeezes_S1x32x256_S32x256

omit [FloatOps F] in
/-- Its elements are the box's. -/
theorem set_pieceM (off : Fin 3 → Nat) (inb : ∀ a, off a + S1x32x256.size a ≤ S200x32x16384.size a) :
    (pieceM off inb).view.set = (Rect.unit (s := S200x32x16384) off S1x32x256.size inb).set := by
  show (((oW).view.slice (Rect.unit (s := S200x32x16384) off S1x32x256.size inb)).reshape S32x256 squeezes_S1x32x256_S32x256.numel_eq).set = _
  rw [View.set_reshape, View.set_slice]
  exact Finset.map_refl

omit [FloatOps F] in
theorem rect_eq_of_off {off off' : Fin 3 → Nat} (h : off = off') (inb : ∀ a, off a + S1x32x256.size a ≤ S200x32x16384.size a)
    (inb' : ∀ a, off' a + S1x32x256.size a ≤ S200x32x16384.size a) :
    Rect.unit (s := S200x32x16384) off S1x32x256.size inb = Rect.unit (s := S200x32x16384) off' S1x32x256.size inb' := by
  subst h; rfl

omit [FloatOps F] in
/-- A piece sliced at the closed-form offsets of piece (i1, k) has that piece's elements. -/
theorem set_pieceM_of (L : grid1.Coords) (i1 : Fin 200) (k : Fin 2) (off : Fin 3 → Nat)
    (inb : ∀ a, off a + S1x32x256.size a ≤ S200x32x16384.size a) (h : off = ![i1.val, 0, col0 L + 256 * k.val]) :
    (pieceM off inb).view.set = pset L i1 k :=
  (set_pieceM off inb).trans (by rw [rect_eq_of_off h inb (pieceRect_inb L i1 k)]; rfl)

/-- The copy of output chunk 0 into the piece `pc` of out_t, in flight on the chunk's semaphore: at its landing the
    piece holds the chunk's contents and the chunk comes back. -/
def OutFlight0 (d : Dev nD) (L : grid1.Coords) (pc : Memref sig .scVector .hbm S32x256 .f32) : sProp 𝕄 :=
  iprop(∃ (p : Buf (Elt F) (pc.view.loc (thrV d L))) (fo : Buf (Elt F) ((oc0W).view.loc (thrV d L))),
     Transfers.Flight countersEmb (thrV d L) (SemLoc.dma cc1_scratch7.sem) default 262144
       iprop((pc.view.loc (thrV d L) ↦[pc.view.set]{fullShare} pc.view.writes (Elt F) p [⟨Rect.whole S32x256, ReadAs.same.apply ((oc0W).view.read (Elt F) fo)⟩])
          ∗ ((oc0W).view.loc (thrV d L) ↦[(oc0W).view.set]{fullShare} fo)))
/-- The same for output chunk 1. -/
def OutFlight1 (d : Dev nD) (L : grid1.Coords) (pc : Memref sig .scVector .hbm S32x256 .f32) : sProp 𝕄 :=
  iprop(∃ (p : Buf (Elt F) (pc.view.loc (thrV d L))) (fo : Buf (Elt F) ((oc1W).view.loc (thrV d L))),
     Transfers.Flight countersEmb (thrV d L) (SemLoc.dma cc1_scratch8.sem) default 262144
       iprop((pc.view.loc (thrV d L) ↦[pc.view.set]{fullShare} pc.view.writes (Elt F) p [⟨Rect.whole S32x256, ReadAs.same.apply ((oc1W).view.read (Elt F) fo)⟩])
          ∗ ((oc1W).view.loc (thrV d L) ↦[(oc1W).view.set]{fullShare} fo)))

/-- Chunk 0's copy of row i in flight, into some spelling of piece (i, 0): whatever lands, piece (i, 0) is held. -/
def OutFlightAt0 (d : Dev nD) (L : grid1.Coords) (i : Nat) : sProp 𝕄 :=
  iprop(∃ pc : Memref sig .scVector .hbm S32x256 .f32,
    ⌜∀ f, (pc.view.loc (thrV d L) ↦[pc.view.set]{fullShare} f : sProp 𝕄) ⊢ P1n d L i 0⌝ ∗ OutFlight0 d L pc)
def OutFlightAt1 (d : Dev nD) (L : grid1.Coords) (i : Nat) : sProp 𝕄 :=
  iprop(∃ pc : Memref sig .scVector .hbm S32x256 .f32,
    ⌜∀ f, (pc.view.loc (thrV d L) ↦[pc.view.set]{fullShare} f : sProp 𝕄) ⊢ P1n d L i 1⌝ ∗ OutFlight1 d L pc)

omit [FloatOps F] in
/-- A chunk held by its own elements is the chunk held whole. -/
theorem pts_oc0 (d : Dev nD) (L : grid1.Coords) (f : Buf (Elt F) ((oc0W).view.loc (thrV d L))) :
    ((oc0W).view.loc (thrV d L) ↦[(oc0W).view.set]{fullShare} f : sProp 𝕄) = ((oc0W).view.loc (thrV d L) ↦{fullShare} f) := by
  have h : ((oc0W).view.loc (thrV d L) ↦[(oc0W).view.set]{fullShare} f : sProp 𝕄) = ((thrV d L).loc cc1_scratch3 ↦{fullShare} f) := by
    simp only [Memref.view_whole, View.set_whole]
  exact h
omit [FloatOps F] in
theorem pts_oc1 (d : Dev nD) (L : grid1.Coords) (f : Buf (Elt F) ((oc1W).view.loc (thrV d L))) :
    ((oc1W).view.loc (thrV d L) ↦[(oc1W).view.set]{fullShare} f : sProp 𝕄) = ((oc1W).view.loc (thrV d L) ↦{fullShare} f) := by
  have h : ((oc1W).view.loc (thrV d L) ↦[(oc1W).view.set]{fullShare} f : sProp 𝕄) = ((thrV d L).loc cc1_scratch4 ↦{fullShare} f) := by
    simp only [Memref.view_whole, View.set_whole]
  exact h

omit [FloatOps F] in
/-- A sliced piece at the closed-form offsets of piece (i, k), held by its own elements at any contents, is piece (i, k) held. -/
theorem land_pieceM (d : Dev nD) (L : grid1.Coords) (i : Nat) (hi : i < 200) (k : Fin 2) (off : Fin 3 → Nat)
    (inb : ∀ a, off a + S1x32x256.size a ≤ S200x32x16384.size a) (h : off = ![i, 0, col0 L + 256 * k.val])
    (f : Buf (Elt F) (oLoc d)) :
    ((pieceM off inb).view.loc (thrV d L) ↦[(pieceM off inb).view.set]{fullShare} f : sProp 𝕄) ⊢ P1n d L i k := by
  rw [set_pieceM_of L ⟨i, hi⟩ k off inb h]
  unfold P1n; rw [dif_pos hi]; unfold P1
  iintro H; iexists f; iexact H

omit [FloatOps F] in
/-- and piece (i, k) held is the sliced piece held by its own elements, at some contents. -/
theorem take_pieceM (d : Dev nD) (L : grid1.Coords) (i : Nat) (hi : i < 200) (k : Fin 2) (off : Fin 3 → Nat)
    (inb : ∀ a, off a + S1x32x256.size a ≤ S200x32x16384.size a) (h : off = ![i, 0, col0 L + 256 * k.val]) :
    (P1n (F := F) d L i k : sProp 𝕄) ⊢ iprop(∃ f : Buf (Elt F) (oLoc d), (pieceM off inb).view.loc (thrV d L) ↦[(pieceM off inb).view.set]{fullShare} f) := by
  rw [set_pieceM_of L ⟨i, hi⟩ k off inb h]
  unfold P1n; rw [dif_pos hi]; unfold P1
  exact BI.Entails.refl _

end Cert.Proof.KB

end
-- ==== Proof.KB.Group0.lean ====
/-
  The group loops of stage 0: for each of sixteen groups of sixteen batch columns of a 256-column chunk, the
  staged indices xs[r, 256 k + 16 g + lane] are loaded and, for each of the 32 table columns c, the flattened
  table is gathered at index + 1000 c into row c, columns [16 g, 16 g + 16), of the output chunk.
-/
import proofs.«203934_g28930899706482_cont_9to1_1937_23_alg».proof.Proof.KB.TileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- What a trip of the group loop t2 keeps: the flattened table and the staged index block unchanged, the
    output chunk at some contents. -/
def inv_t2 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc0W).view.loc (thrV d L) ↦{fullShare} fo)

set_option maxRecDepth 65536 in
/-- One trip of t2: sixteen index words are loaded, thirty-two gathers read the table at them plus 1000 c
    (each in range: the words are below 1000), and the thirty-two gathered vectors are stored into the chunk. -/
theorem trip_t2 (d : Dev nD) (L : grid1.Coords) (r : Fin k1_t1_loop.trips) (arg14 : BitVec 32)
    (ft : Buf (Elt F) ((tvW).view.loc (thrV d L))) (fx : Buf (Elt F) ((xs0W).view.loc (thrV d L))) (hfx : XsOK fx)
    (g : Fin k1_t2_loop.trips) (acc : BitVec 32) :
    inv_t2 d L ft fx g acc
      ⊢ wp frame (wpE (defs₀ (F := F)) 𝒱₀ (thrV d L) none) Set.univ
          (k1_t2_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t2 d L ft fx (g.val + 1)) := by
  unfold k1_t2_body
  simp only [k1_part1_eq_skeleton, k1_part2_eq_skeleton, k1_part3_eq_skeleton]
  unfold k1_part1_skel k1_part2_skel k1_part3_skel
  simp only [SparseCore.vectorLoadIdx_bind (c := thrV d L)]
  unfold inv_t2
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

/-- What a trip of the group loop t3 keeps: the flattened table and the staged index block unchanged, the
    output chunk at some contents. -/
def inv_t3 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc1W).view.loc (thrV d L) ↦{fullShare} fo)

set_option maxRecDepth 65536 in
/-- One trip of t3: sixteen index words are loaded, thirty-two gathers read the table at them plus 1000 c
    (each in range: the words are below 1000), and the thirty-two gathered vectors are stored into the chunk. -/
theorem trip_t3 (d : Dev nD) (L : grid1.Coords) (r : Fin k1_t1_loop.trips) (arg14 : BitVec 32)
    (ft : Buf (Elt F) ((tvW).view.loc (thrV d L))) (fx : Buf (Elt F) ((xs0W).view.loc (thrV d L))) (hfx : XsOK fx)
    (g : Fin k1_t3_loop.trips) (acc : BitVec 32) :
    inv_t3 d L ft fx g acc
      ⊢ wp frame (wpE (defs₀ (F := F)) 𝒱₀ (thrV d L) none) Set.univ
          (k1_t3_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t3 d L ft fx (g.val + 1)) := by
  unfold k1_t3_body
  simp only [k1_part8_eq_skeleton, k1_part9_eq_skeleton, k1_part10_eq_skeleton]
  unfold k1_part8_skel k1_part9_skel k1_part10_skel
  simp only [SparseCore.vectorLoadIdx_bind (c := thrV d L)]
  unfold inv_t3
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

end Cert.Proof.KB

end
-- ==== Proof.KB.PiecesKLemmas.lean ====
/-
  One piece of a slot is taken out of, and put back into, the separating conjunction of that slot's pieces, and all
  pieces of a subcore's block are the pieces of slot 0 and those of slot 1.
-/
import proofs.«203934_g28930899706482_cont_9to1_1937_23_alg».proof.Proof.KB.PiecesK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Taking one piece out of a slot's pieces -/

/-- A separating conjunction over a finite type with the summand at r first, the others kept under a
    conjunction in which the summands at a predicate p, true at r only, are left out. -/
theorem bigSep_univ_hole {I : Type} [Fintype I] [DecidableEq I] (Φ : I → sProp 𝕄) (r : I) (p : I → Prop) [DecidablePred p]
    (hr : p r) (hne : ∀ i, i ≠ r → ¬ p i) :
    bigSep Finset.univ Φ = iprop(Φ r ∗ bigSep Finset.univ fun i => if p i then iprop(emp) else Φ i) := by
  have a1 : bigSep Finset.univ Φ = BI.sep (Φ r) (bigSep (Finset.univ.erase r) Φ) := bigSep_univ_split r
  have a2 : bigSep Finset.univ (fun i => if p i then (iprop(emp) : sProp 𝕄) else Φ i)
      = BI.sep (if p r then (iprop(emp) : sProp 𝕄) else Φ r)
          (bigSep (Finset.univ.erase r) (fun i => if p i then (iprop(emp) : sProp 𝕄) else Φ i)) := bigSep_univ_split r
  have a3 : (if p r then (iprop(emp) : sProp 𝕄) else Φ r) = iprop(emp) := if_pos hr
  have a4 : bigSep (Finset.univ.erase r) (fun i => if p i then (iprop(emp) : sProp 𝕄) else Φ i) = bigSep (Finset.univ.erase r) Φ :=
    bigSep_congr fun i hi => if_neg (hne i (Finset.mem_erase.mp hi).1)
  have a5 : ∀ R : sProp 𝕄, BI.sep (iprop(emp) : sProp 𝕄) R = R := fun R => equiv_iff.mp emp_sep
  rw [a1, a2, a3, a4, a5]; rfl

/-- No piece belongs to row -1: with n = 0 nothing is left out. -/
theorem piecesK_zero (d : Dev nD) (L : grid1.Coords) (k : Fin 2) : PiecesK (F := F) d L k 0 = AllK d L k := by
  unfold PiecesK AllK
  exact bigSep_congr fun i _ => if_neg (Nat.succ_ne_zero _)

/-- A slot's pieces are the piece of row n - 1 and the others. -/
theorem piecesK_split_eq (d : Dev nD) (L : grid1.Coords) (k : Fin 2) (n : Nat) (hn : 0 < n) (hn' : n ≤ 200) :
    AllK (F := F) d L k = iprop(P1n d L (n - 1) k ∗ PiecesK d L k n) := by
  have hr : n - 1 < 200 := by omega
  have e : P1n (F := F) d L (n - 1) k = P1 d L (⟨n - 1, hr⟩, k) := dif_pos hr
  rw [e]
  exact bigSep_univ_hole (fun i : Fin 200 => P1 (F := F) d L (i, k)) ⟨n - 1, hr⟩ (fun i => i.val + 1 = n)
    (by show n - 1 + 1 = n; omega) (fun i hi h => hi (Fin.ext (by show i.val = n - 1; omega)))

theorem piecesK_split (d : Dev nD) (L : grid1.Coords) (k : Fin 2) (n : Nat) (hn : 0 < n) (hn' : n ≤ 200) :
    AllK (F := F) d L k ⊣⊢ iprop(PiecesK d L k n ∗ P1n d L (n - 1) k) := by
  rw [piecesK_split_eq d L k n hn hn']
  constructor
  · iintro ⟨H0, HP⟩
    isplitl [HP]; · iexact HP
    iexact H0
  · iintro ⟨HP, H0⟩
    isplitl [H0]; · iexact H0
    iexact HP

theorem piecesK_split_mp (d : Dev nD) (L : grid1.Coords) (k : Fin 2) (n : Nat) (hn : 0 < n) (hn' : n ≤ 200) :
    AllK (F := F) d L k ⊢ iprop(PiecesK d L k n ∗ P1n d L (n - 1) k) := (piecesK_split d L k n hn hn').1
theorem piecesK_split_mpr (d : Dev nD) (L : grid1.Coords) (k : Fin 2) (n : Nat) (hn : 0 < n) (hn' : n ≤ 200) :
    iprop(PiecesK d L k n ∗ P1n d L (n - 1) k) ⊢ AllK (F := F) d L k := (piecesK_split d L k n hn hn').2

/-- All pieces are the pieces of slot 0 and those of slot 1. -/
theorem all_slots_eq (d : Dev nD) (L : grid1.Coords) : AllPieces (F := F) d L = iprop(AllK d L 0 ∗ AllK d L 1) := by
  unfold AllPieces AllK
  rw [bigSep_univ_prod (P1 (F := F) d L), bigSep_univ_comm (fun (a : Fin 200) (b : Fin 2) => P1 (F := F) d L (a, b)), bigSep_univ_two]

theorem all_slots (d : Dev nD) (L : grid1.Coords) : AllPieces (F := F) d L ⊣⊢ iprop(AllK d L 0 ∗ AllK d L 1) := by
  rw [all_slots_eq d L]

end Cert.Proof.KB

end
-- ==== Proof.KB.Row0.lean ====
/-
  The row loop of stage 0: rows 0 to 39 of out_t. Its first trip finds both chunks free (nothing was copied yet)
  and waits for nothing; every later trip is as in the other stages.
-/
import proofs.«203934_g28930899706482_cont_9to1_1937_23_alg».proof.Proof.KB.RowCommon
import proofs.«203934_g28930899706482_cont_9to1_1937_23_alg».proof.Proof.KB.Group0
import proofs.«203934_g28930899706482_cont_9to1_1937_23_alg».proof.Proof.KB.PiecesKLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- The guard of the two waits of a row of stage 0: the row is not the first. -/
abbrev condR (r : Fin k1_t1_loop.trips) : BitVec 1 := Scalar.cmpi .ne (Scalar.extui (Scalar.cmpi .sgt (Scf.iv 0#32 1#32 r) 0#32)) 0#32
omit [FloatOps F] in
theorem condR_iff : ∀ r : Fin k1_t1_loop.trips, (condR r = 1#1 ↔ r.val ≠ 0) := by decide +kernel

/-- Chunk 0 before row n of out_t: free, its semaphore at zero, when nothing has been copied yet; else its copy of
    row n - 1 in flight. -/
def SlotSt0 (d : Dev nD) (L : grid1.Coords) (n : Nat) : sProp 𝕄 :=
  if n = 0 then iprop(semVal (thrV d L, SemLoc.dma cc1_scratch7.sem) 0 ∗ ∃ f, (oc0W).view.loc (thrV d L) ↦{fullShare} f)
  else OutFlightAt0 d L (n - 1)
def SlotSt1 (d : Dev nD) (L : grid1.Coords) (n : Nat) : sProp 𝕄 :=
  if n = 0 then iprop(semVal (thrV d L, SemLoc.dma cc1_scratch8.sem) 0 ∗ ∃ f, (oc1W).view.loc (thrV d L) ↦{fullShare} f)
  else OutFlightAt1 d L (n - 1)

/-- Between two trips of the row loop of stage 0, before row r. -/
def rowInv0 (d : Dev nD) (L : grid1.Coords) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ SlotSt0 d L r ∗ SlotSt1 d L r
    ∗ PiecesK d L 0 r ∗ PiecesK d L 1 r
    ∗ ∃ W', ⌜∀ p ∈ W', p ∈ W ∨ p.2 = none⌝ ∗ owes (thrV d L) O W')

set_option maxRecDepth 65536 in
/-- Row r of stage 0. -/
theorem row_t1 (d : Dev nD) (L : grid1.Coords) (ft : Buf (Elt F) ((tvW).view.loc (thrV d L))) (fx : Buf (Elt F) ((xs0W).view.loc (thrV d L))) (hfx : XsOK fx)
    (O : CellTallies nD τ sig (HIx 1)) (W : Waits sig (HIx 1)) (r : Fin k1_t1_loop.trips) (acc : BitVec 32) :
    rowInv0 d L ft fx O W r acc
      ⊢ wp frame (wpE (defs₀ (F := F)) 𝒱₀ (thrV d L) none) Set.univ
          (k1_t1_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r acc)
          (rowInv0 d L ft fx O W (r.val + 1)) := by
  have hr : r.val < 40 := lt_of_lt_of_le r.isLt k1_t1_abs.2.1
  have hoff0 : k1_off36 L r 0#32 = ![r.val, 0, col0 L + 256 * (0 : Fin 2).val] := by
    have h := k1_off36_eq L r 0; simpa [col0] using h
  have hoff1 : k1_off36 L r 256#32 = ![r.val, 0, col0 L + 256 * (1 : Fin 2).val] := by
    have h := k1_off36_eq L r 1; simpa [col0] using h
  by_cases h0 : r.val = 0
  · -- the first row: both chunks free, no wait
    have hc : ¬ (condR r = 1#1) := fun h => (condR_iff r).mp h h0
    have e0 : PiecesK (F := F) d L 0 r.val = AllK d L 0 := by rw [h0]; exact piecesK_zero d L 0
    have e1 : PiecesK (F := F) d L 1 r.val = AllK d L 1 := by rw [h0]; exact piecesK_zero d L 1
    unfold k1_t1_body rowInv0 SlotSt0 SlotSt1
    rw [if_pos h0, if_pos h0, if_neg (Nat.succ_ne_zero _), if_neg (Nat.succ_ne_zero _), Nat.add_sub_cancel]
    iintro ⟨#Hmw, Ht, Hx, ⟨Hs0, %fo0, Ho0⟩, ⟨Hs1, %fo1, Ho1⟩, HP0, HP1, %W', %hW', HO⟩
    ihave Hall0 := (Entails.of_eq e0) $$ HP0
    ihave Hsp0 := (piecesK_split_mp (F := F) d L 0 (r.val + 1) (by omega) (by omega)) $$ Hall0
    icases Hsp0 with ⟨HP0, Hp0⟩
    ihave Hp0 := (Entails.of_eq (congrArg (fun n => (P1n (F := F) d L n 0 : sProp 𝕄)) (show r.val + 1 - 1 = r.val by omega))) $$ Hp0
    ihave Hp0' := (take_pieceM (F := F) d L r.val (by omega) 0 (k1_off36 L r 0#32) (k1_off36_inb L r 0) hoff0) $$ Hp0
    icases Hp0' with ⟨%p0, Hp0⟩
    ihave Hall1 := (Entails.of_eq e1) $$ HP1
    ihave Hsp1 := (piecesK_split_mp (F := F) d L 1 (r.val + 1) (by omega) (by omega)) $$ Hall1
    icases Hsp1 with ⟨HP1, Hp1⟩
    ihave Hp1 := (Entails.of_eq (congrArg (fun n => (P1n (F := F) d L n 1 : sProp 𝕄)) (show r.val + 1 - 1 = r.val by omega))) $$ Hp1
    ihave Hp1' := (take_pieceM (F := F) d L r.val (by omega) 1 (k1_off36 L r 256#32) (k1_off36_inb L r 1) hoff1) $$ Hp1
    icases Hp1' with ⟨%p1, Hp1⟩
    sl_exec
    sl_for (inv_t2 d L ft fx) $$ [Ht Hx Ho0]
    case region => intro k acc; exact trip_t2 d L r _ ft fx hfx k acc
    · unfold inv_t2
      isplitl [Ht]; · iexact Ht
      isplitl [Hx]; · iexact Hx
      iexists _; iexact Ho0
    iintro %a0 HI
    unfold inv_t2
    icases HI with ⟨Ht, Hx, %fo0', Ho0⟩
    sl_exec
    sl_for (inv_t3 d L ft fx) $$ [Ht Hx Ho1]
    case region => intro k acc; exact trip_t3 d L r _ ft fx hfx k acc
    · unfold inv_t3
      isplitl [Ht]; · iexact Ht
      isplitl [Hx]; · iexact Hx
      iexists _; iexact Ho1
    iintro %a1 HI
    unfold inv_t3
    icases HI with ⟨Ht, Hx, %fo1', Ho1⟩
    sl_exec
    sl_step
    unfold OutFlightAt0 OutFlightAt1 OutFlight0 OutFlight1
    isplitr; · iexact Hmw
    isplitl [Ht]; · iexact Ht
    isplitl [Hx]; · iexact Hx
    isplitl [Hs0]
    · iexists (pieceM (k1_off36 L r 0#32) (k1_off36_inb L r 0)); isplitr
      · ipureintro; intro f; exact land_pieceM d L r.val (by omega) 0 _ _ hoff0 f
      · iexists p0, fo0'; iexact Hs0
    isplitl [Hs1]
    · iexists (pieceM (k1_off36 L r 256#32) (k1_off36_inb L r 1)); isplitr
      · ipureintro; intro f; exact land_pieceM d L r.val (by omega) 1 _ _ hoff1 f
      · iexists p1, fo1'; iexact Hs1
    isplitl [HP0]; · iexact HP0
    isplitl [HP1]; · iexact HP1
    iexists W'; isplitr
    · ipureintro; exact hW'
    · iexact HO
  · -- a later row: each chunk's previous copy is in flight
    have hc : condR r = 1#1 := (condR_iff r).mpr h0
    unfold k1_t1_body rowInv0 SlotSt0 SlotSt1
    rw [if_neg h0, if_neg h0, if_neg (Nat.succ_ne_zero _), if_neg (Nat.succ_ne_zero _), Nat.add_sub_cancel]
    unfold OutFlightAt0 OutFlightAt1
    iintro ⟨#Hmw, Ht, Hx, ⟨%q0, %hq0, HF0⟩, ⟨%q1, %hq1, HF1⟩, HP0, HP1, %W', %hW', HO⟩
    unfold OutFlight0 OutFlight1
    icases HF0 with ⟨%pp0, %fo0, HF0⟩
    icases HF1 with ⟨%pp1, %fo1, HF1⟩
    sl_exec
    -- chunk 0's copy of row n - 1 has landed: its piece joins the slot's others, the piece of row n leaves them
    ihave Hl0 := (hq0 _) $$ HF0_dst
    ihave Hall0 := ((piecesK_split (F := F) d L 0 (r.val) (by omega) (by omega)).2) $$ [HP0 Hl0]
    · isplitl [HP0]; · iexact HP0
      iexact Hl0
    ihave Hsp0 := ((piecesK_split (F := F) d L 0 (r.val + 1) (by omega) (by omega)).1) $$ Hall0
    icases Hsp0 with ⟨HP0, Hp0⟩
    ihave Hp0 := (Entails.of_eq (congrArg (fun n => (P1n (F := F) d L n 0 : sProp 𝕄)) (show r.val + 1 - 1 = r.val by omega))) $$ Hp0
    ihave Hp0' := (take_pieceM (F := F) d L (r.val) (by omega) 0 (k1_off36 L r 0#32) (k1_off36_inb L r 0) hoff0) $$ Hp0
    icases Hp0' with ⟨%p0, Hp0⟩
    ihave Ho0 := (Entails.of_eq (pts_oc0 (F := F) d L _)) $$ HF0_src
    sl_for (inv_t2 d L ft fx) $$ [Ht Hx Ho0]
    case region => intro k acc; exact trip_t2 d L r _ ft fx hfx k acc
    · unfold inv_t2
      isplitl [Ht]; · iexact Ht
      isplitl [Hx]; · iexact Hx
      iexists _; iexact Ho0
    iintro %a0 HI
    unfold inv_t2
    icases HI with ⟨Ht, Hx, %fo0', Ho0⟩
    sl_exec
    -- chunk 1 likewise
    ihave Hl1 := (hq1 _) $$ HF1_dst
    ihave Hall1 := (piecesK_split_mpr (F := F) d L 1 (r.val) (by omega) (by omega)) $$ [HP1 Hl1]
    · isplitl [HP1]; · iexact HP1
      iexact Hl1
    ihave Hsp1 := (piecesK_split_mp (F := F) d L 1 (r.val + 1) (by omega) (by omega)) $$ Hall1
    icases Hsp1 with ⟨HP1, Hp1⟩
    ihave Hp1 := (Entails.of_eq (congrArg (fun n => (P1n (F := F) d L n 1 : sProp 𝕄)) (show r.val + 1 - 1 = r.val by omega))) $$ Hp1
    ihave Hp1' := (take_pieceM (F := F) d L (r.val) (by omega) 1 (k1_off36 L r 256#32) (k1_off36_inb L r 1) hoff1) $$ Hp1
    icases Hp1' with ⟨%p1, Hp1⟩
    ihave Ho1 := (Entails.of_eq (pts_oc1 (F := F) d L _)) $$ HF1_src
    sl_for (inv_t3 d L ft fx) $$ [Ht Hx Ho1]
    case region => intro k acc; exact trip_t3 d L r _ ft fx hfx k acc
    · unfold inv_t3
      isplitl [Ht]; · iexact Ht
      isplitl [Hx]; · iexact Hx
      iexists _; iexact Ho1
    iintro %a1 HI
    unfold inv_t3
    icases HI with ⟨Ht, Hx, %fo1', Ho1⟩
    sl_exec
    sl_step
    isplitr; · iexact Hmw
    isplitl [Ht]; · iexact Ht
    isplitl [Hx]; · iexact Hx
    isplitl [HF0]
    · iexists (pieceM (k1_off36 L r 0#32) (k1_off36_inb L r 0)); isplitr
      · ipureintro; intro f; exact land_pieceM d L (r.val) (by omega) 0 _ _ hoff0 f
      · iexists p0, fo0'; iexact HF0
    isplitl [HF1]
    · iexists (pieceM (k1_off36 L r 256#32) (k1_off36_inb L r 1)); isplitr
      · ipureintro; intro f; exact land_pieceM d L (r.val) (by omega) 1 _ _ hoff1 f
      · iexists p1, fo1'; iexact HF1
    isplitl [HP0]; · iexact HP0
    isplitl [HP1]; · iexact HP1
    iexists (insert (SemLoc.dma cc1_scratch8.sem, (default : HIx 1)) (insert (SemLoc.dma cc1_scratch7.sem, (default : HIx 1)) W')); isplitr
    · ipureintro; intro p hp
      rcases Finset.mem_insert.mp hp with hp | hp
      · exact .inr (by subst hp; rfl)
      rcases Finset.mem_insert.mp hp with hp | hp
      · exact .inr (by subst hp; rfl)
      · exact hW' p hp
    · iexact HO

end Cert.Proof.KB

end
-- ==== Proof.KB.Group1.lean ====
/-
  The group loops of stage 1 (rows 40 to 79 of out_t): as in stage 0, sixteen index words are loaded from
  the staged block and the flattened table is gathered at them plus 1000 c into row c of the output chunk.
-/
import proofs.«203934_g28930899706482_cont_9to1_1937_23_alg».proof.Proof.KB.TileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- What a trip of the group loop t5 keeps: the flattened table and the staged index block unchanged, the
    output chunk at some contents. -/
def inv_t5 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc0W).view.loc (thrV d L) ↦{fullShare} fo)

set_option maxRecDepth 65536 in
/-- One trip of t5: sixteen index words are loaded, thirty-two gathers read the table at them plus 1000 c
    (each in range: the words are below 1000), and the thirty-two gathered vectors are stored into the chunk. -/
theorem trip_t5 (d : Dev nD) (L : grid1.Coords) (r : Fin k1_t4_loop.trips) (arg14 : BitVec 32)
    (ft : Buf (Elt F) ((tvW).view.loc (thrV d L))) (fx : Buf (Elt F) ((xs1W).view.loc (thrV d L))) (hfx : XsOK fx)
    (g : Fin k1_t5_loop.trips) (acc : BitVec 32) :
    inv_t5 d L ft fx g acc
      ⊢ wp frame (wpE (defs₀ (F := F)) 𝒱₀ (thrV d L) none) Set.univ
          (k1_t5_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t5 d L ft fx (g.val + 1)) := by
  unfold k1_t5_body
  simp only [k1_part15_eq_skeleton, k1_part16_eq_skeleton, k1_part17_eq_skeleton]
  unfold k1_part15_skel k1_part16_skel k1_part17_skel
  simp only [SparseCore.vectorLoadIdx_bind (c := thrV d L)]
  unfold inv_t5
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

/-- What a trip of the group loop t6 keeps: the flattened table and the staged index block unchanged, the
    output chunk at some contents. -/
def inv_t6 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc1W).view.loc (thrV d L) ↦{fullShare} fo)

set_option maxRecDepth 65536 in
/-- One trip of t6: sixteen index words are loaded, thirty-two gathers read the table at them plus 1000 c
    (each in range: the words are below 1000), and the thirty-two gathered vectors are stored into the chunk. -/
theorem trip_t6 (d : Dev nD) (L : grid1.Coords) (r : Fin k1_t4_loop.trips) (arg14 : BitVec 32)
    (ft : Buf (Elt F) ((tvW).view.loc (thrV d L))) (fx : Buf (Elt F) ((xs1W).view.loc (thrV d L))) (hfx : XsOK fx)
    (g : Fin k1_t6_loop.trips) (acc : BitVec 32) :
    inv_t6 d L ft fx g acc
      ⊢ wp frame (wpE (defs₀ (F := F)) 𝒱₀ (thrV d L) none) Set.univ
          (k1_t6_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r arg14 g acc)
          (inv_t6 d L ft fx (g.val + 1)) := by
  unfold k1_t6_body
  simp only [k1_part22_eq_skeleton, k1_part23_eq_skeleton, k1_part24_eq_skeleton]
  unfold k1_part22_skel k1_part23_skel k1_part24_skel
  simp only [SparseCore.vectorLoadIdx_bind (c := thrV d L)]
  unfold inv_t6
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

end Cert.Proof.KB

end
-- ==== Proof.KB.Row1.lean ====
/-
  The row loop of stage 1: rows 40 to 79 of out_t. Each trip waits for the two chunks' copies of the previous row,
  refills the chunks from the staged indices and the flattened table, and starts their copies into the row's two pieces.
-/
import proofs.«203934_g28930899706482_cont_9to1_1937_23_alg».proof.Proof.KB.RowCommon
import proofs.«203934_g28930899706482_cont_9to1_1937_23_alg».proof.Proof.KB.Group1
import proofs.«203934_g28930899706482_cont_9to1_1937_23_alg».proof.Proof.KB.PiecesKLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- Between two trips of the row loop of stage 1, before row n of out_t: the table and the staged indices as they
    are, each chunk's copy of row n - 1 in flight, every other piece of each slot held, the waits recorded. -/
def rowInv1 (d : Dev nD) (L : grid1.Coords) (ft : Buf (Elt F) ((tvW).view.loc (thrV d L))) (fx : Buf (Elt F) ((xs1W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs1W).view.loc (thrV d L) ↦{fullShare} fx)
    ∗ OutFlightAt0 d L (r + 40 - 1) ∗ OutFlightAt1 d L (r + 40 - 1)
    ∗ PiecesK d L 0 (r + 40) ∗ PiecesK d L 1 (r + 40)
    ∗ ∃ W', ⌜∀ p ∈ W', p ∈ W ∨ p.2 = none⌝ ∗ owes (thrV d L) O W')

set_option maxRecDepth 65536 in
/-- Row r of stage 1: for each chunk, its previous copy is waited for (the piece of row n - 1 lands), the chunk is
    filled by its group loop, and its copy into the piece of row n = r + 40 is started. -/
theorem row_t4 (d : Dev nD) (L : grid1.Coords) (ft : Buf (Elt F) ((tvW).view.loc (thrV d L))) (fx : Buf (Elt F) ((xs1W).view.loc (thrV d L))) (hfx : XsOK fx)
    (O : CellTallies nD τ sig (HIx 1)) (W : Waits sig (HIx 1)) (r : Fin k1_t4_loop.trips) (acc : BitVec 32) :
    rowInv1 d L ft fx O W r acc
      ⊢ wp frame (wpE (defs₀ (F := F)) 𝒱₀ (thrV d L) none) Set.univ
          (k1_t4_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 r acc)
          (rowInv1 d L ft fx O W (r.val + 1)) := by
  have hr : r.val < 40 := lt_of_lt_of_le r.isLt k1_t4_abs.2.1
  have hoff0 : k1_off104 L r 0#32 = ![r.val + 40, 0, col0 L + 256 * (0 : Fin 2).val] := by
    have h := k1_off104_eq L r 0; simpa [col0] using h
  have hoff1 : k1_off104 L r 256#32 = ![r.val + 40, 0, col0 L + 256 * (1 : Fin 2).val] := by
    have h := k1_off104_eq L r 1; simpa [col0] using h
  unfold k1_t4_body rowInv1 OutFlightAt0 OutFlightAt1
  rw [show r.val + 1 + 40 = r.val + 40 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 40) (by omega) (by omega)).2) $$ [HP0 Hl0]
  · isplitl [HP0]; · iexact HP0
    iexact Hl0
  ihave Hsp0 := ((piecesK_split (F := F) d L 0 (r.val + 40 + 1) (by omega) (by omega)).1) $$ Hall0
  icases Hsp0 with ⟨HP0, Hp0⟩
  ihave Hp0 := (Entails.of_eq (congrArg (fun n => (P1n (F := F) d L n 0 : sProp 𝕄)) (show r.val + 40 + 1 - 1 = r.val + 40 by omega))) $$ Hp0
  ihave Hp0' := (take_pieceM (F := F) d L (r.val + 40) (by omega) 0 (k1_off104 L r 0#32) (k1_off104_inb L r 0) hoff0) $$ Hp0
  icases Hp0' with ⟨%p0, Hp0⟩
  ihave Ho0 := (Entails.of_eq (pts_oc0 (F := F) d L _)) $$ HF0_src
  sl_for (inv_t5 d L ft fx) $$ [Ht Hx Ho0]
  case region => intro k acc; exact trip_t5 d L r _ ft fx hfx k acc
  · unfold inv_t5
    isplitl [Ht]; · iexact Ht
    isplitl [Hx]; · iexact Hx
    iexists _; iexact Ho0
  iintro %a0 HI
  unfold inv_t5
  icases HI with ⟨Ht, Hx, %fo0', Ho0⟩
  sl_exec
  -- chunk 1 likewise
  ihave Hl1 := (hq1 _) $$ HF1_dst
  ihave Hall1 := (piecesK_split_mpr (F := F) d L 1 (r.val + 40) (by omega) (by omega)) $$ [HP1 Hl1]
  · isplitl [HP1]; · iexact HP1
    iexact Hl1
  ihave Hsp1 := (piecesK_split_mp (F := F) d L 1 (r.val + 40 + 1) (by omega) (by omega)) $$ Hall1
  icases Hsp1 with ⟨HP1, Hp1⟩
  ihave Hp1 := (Entails.of_eq (congrArg (fun n => (P1n (F := F) d L n 1 : sProp 𝕄)) (show r.val + 40 + 1 - 1 = r.val + 40 by omega))) $$ Hp1
  ihave Hp1' := (take_pieceM (F := F) d L (r.val + 40) (by omega) 1 (k1_off104 L r 256#32) (k1_off104_inb L r 1) hoff1) $$ Hp1
  icases Hp1' with ⟨%p1, Hp1⟩
  ihave Ho1 := (Entails.of_eq (pts_oc1 (F := F) d L _)) $$ HF1_src
  sl_for (inv_t6 d L ft fx) $$ [Ht Hx Ho1]
  case region => intro k acc; exact trip_t6 d L r _ ft fx hfx k acc
  · unfold inv_t6
    isplitl [Ht]; · iexact Ht
    isplitl [Hx]; · iexact Hx
    iexists _; iexact Ho1
  iintro %a1 HI
  unfold inv_t6
  icases HI with ⟨Ht, Hx, %fo1', Ho1⟩
  sl_exec
  sl_step
  isplitr; · iexact Hmw
  isplitl [Ht]; · iexact Ht
  isplitl [Hx]; · iexact Hx
  isplitl [HF0]
  · iexists (pieceM (k1_off104 L r 0#32) (k1_off104_inb L r 0)); isplitr
    · ipureintro; intro f; exact land_pieceM d L (r.val + 40) (by omega) 0 _ _ hoff0 f
    · iexists p0, fo0'; iexact HF0
  isplitl [HF1]
  · iexists (pieceM (k1_off104 L r 256#32) (k1_off104_inb L r 1)); isplitr
    · ipureintro; intro f; exact land_pieceM d L (r.val + 40) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KB

end
-- ==== Proof.KB.Group2.lean ====
/-
  The group loops of stage 2 (rows 80 to 119 of out_t): as in stage 0, sixteen index words are loaded from
  the staged block and the flattened table is gathered at them plus 1000 c into row c of the output chunk.
-/
import proofs.«203934_g28930899706482_cont_9to1_1937_23_alg».proof.Proof.KB.TileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- What a trip of the group loop t8 keeps: the flattened table and the staged index block unchanged, the
    output chunk at some contents. -/
def inv_t8 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc0W).view.loc (thrV d L) ↦{fullShare} fo)

set_option maxRecDepth 65536 in
/-- One trip of t8: sixteen index words are loaded, thirty-two gathers read the table at them plus 1000 c
    (each in range: the words are below 1000), and the thirty-two gathered vectors are stored into the chunk. -/
theorem trip_t8 (d : Dev nD) (L : grid1.Coords) (v2 : BitVec 32) (r : Fin k1_t7_loop.trips) (arg14 : BitVec 32)
    (ft : Buf (Elt F) ((tvW).view.loc (thrV d L))) (fx : Buf (Elt F) ((xs0W).view.loc (thrV d L))) (hfx : XsOK fx)
    (g : Fin k1_t8_loop.trips) (acc : BitVec 32) :
    inv_t8 d L ft fx g acc
      ⊢ wp frame (wpE (defs₀ (F := F)) 𝒱₀ (thrV d L) none) Set.univ
          (k1_t8_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t8 d L ft fx (g.val + 1)) := by
  unfold k1_t8_body
  simp only [k1_part29_eq_skeleton, k1_part30_eq_skeleton, k1_part31_eq_skeleton]
  unfold k1_part29_skel k1_part30_skel k1_part31_skel
  simp only [SparseCore.vectorLoadIdx_bind (c := thrV d L)]
  unfold inv_t8
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

/-- What a trip of the group loop t9 keeps: the flattened table and the staged index block unchanged, the
    output chunk at some contents. -/
def inv_t9 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc1W).view.loc (thrV d L) ↦{fullShare} fo)

set_option maxRecDepth 65536 in
/-- One trip of t9: sixteen index words are loaded, thirty-two gathers read the table at them plus 1000 c
    (each in range: the words are below 1000), and the thirty-two gathered vectors are stored into the chunk. -/
theorem trip_t9 (d : Dev nD) (L : grid1.Coords) (v2 : BitVec 32) (r : Fin k1_t7_loop.trips) (arg14 : BitVec 32)
    (ft : Buf (Elt F) ((tvW).view.loc (thrV d L))) (fx : Buf (Elt F) ((xs0W).view.loc (thrV d L))) (hfx : XsOK fx)
    (g : Fin k1_t9_loop.trips) (acc : BitVec 32) :
    inv_t9 d L ft fx g acc
      ⊢ wp frame (wpE (defs₀ (F := F)) 𝒱₀ (thrV d L) none) Set.univ
          (k1_t9_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t9 d L ft fx (g.val + 1)) := by
  unfold k1_t9_body
  simp only [k1_part36_eq_skeleton, k1_part37_eq_skeleton, k1_part38_eq_skeleton]
  unfold k1_part36_skel k1_part37_skel k1_part38_skel
  simp only [SparseCore.vectorLoadIdx_bind (c := thrV d L)]
  unfold inv_t9
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

end Cert.Proof.KB

end
-- ==== Proof.KB.Row2.lean ====
/-
  The row loop of stage 2: rows 80 to 119 of out_t. Each trip waits for the two chunks' copies of the previous row,
  refills the chunks from the staged indices and the flattened table, and starts their copies into the row's two pieces.
-/
import proofs.«203934_g28930899706482_cont_9to1_1937_23_alg».proof.Proof.KB.RowCommon
import proofs.«203934_g28930899706482_cont_9to1_1937_23_alg».proof.Proof.KB.Group2
import proofs.«203934_g28930899706482_cont_9to1_1937_23_alg».proof.Proof.KB.PiecesKLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- Between two trips of the row loop of stage 2, before row n of out_t: the table and the staged indices as they
    are, each chunk's copy of row n - 1 in flight, every other piece of each slot held, the waits recorded. -/
def rowInv2 (d : Dev nD) (L : grid1.Coords) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ OutFlightAt0 d L (r + 80 - 1) ∗ OutFlightAt1 d L (r + 80 - 1)
    ∗ PiecesK d L 0 (r + 80) ∗ PiecesK d L 1 (r + 80)
    ∗ ∃ W', ⌜∀ p ∈ W', p ∈ W ∨ p.2 = none⌝ ∗ owes (thrV d L) O W')

set_option maxRecDepth 65536 in
/-- Row r of stage 2: for each chunk, its previous copy is waited for (the piece of row n - 1 lands), the chunk is
    filled by its group loop, and its copy into the piece of row n = r + 80 is started. -/
theorem row_t7 (d : Dev nD) (L : grid1.Coords) (v2 : BitVec 32) (ft : Buf (Elt F) ((tvW).view.loc (thrV d L))) (fx : Buf (Elt F) ((xs0W).view.loc (thrV d L))) (hfx : XsOK fx)
    (O : CellTallies nD τ sig (HIx 1)) (W : Waits sig (HIx 1)) (r : Fin k1_t7_loop.trips) (acc : BitVec 32) :
    rowInv2 d L ft fx O W r acc
      ⊢ wp frame (wpE (defs₀ (F := F)) 𝒱₀ (thrV d L) none) Set.univ
          (k1_t7_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInv2 d L ft fx O W (r.val + 1)) := by
  have hr : r.val < 40 := lt_of_lt_of_le r.isLt k1_t7_abs.2.1
  have hoff0 : k1_off172 L r 0#32 = ![r.val + 80, 0, col0 L + 256 * (0 : Fin 2).val] := by
    have h := k1_off172_eq L r 0; simpa [col0] using h
  have hoff1 : k1_off172 L r 256#32 = ![r.val + 80, 0, col0 L + 256 * (1 : Fin 2).val] := by
    have h := k1_off172_eq L r 1; simpa [col0] using h
  unfold k1_t7_body rowInv2 OutFlightAt0 OutFlightAt1
  rw [show r.val + 1 + 80 = r.val + 80 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 80) (by omega) (by omega)).2) $$ [HP0 Hl0]
  · isplitl [HP0]; · iexact HP0
    iexact Hl0
  ihave Hsp0 := ((piecesK_split (F := F) d L 0 (r.val + 80 + 1) (by omega) (by omega)).1) $$ Hall0
  icases Hsp0 with ⟨HP0, Hp0⟩
  ihave Hp0 := (Entails.of_eq (congrArg (fun n => (P1n (F := F) d L n 0 : sProp 𝕄)) (show r.val + 80 + 1 - 1 = r.val + 80 by omega))) $$ Hp0
  ihave Hp0' := (take_pieceM (F := F) d L (r.val + 80) (by omega) 0 (k1_off172 L r 0#32) (k1_off172_inb L r 0) hoff0) $$ Hp0
  icases Hp0' with ⟨%p0, Hp0⟩
  ihave Ho0 := (Entails.of_eq (pts_oc0 (F := F) d L _)) $$ HF0_src
  sl_for (inv_t8 d L ft fx) $$ [Ht Hx Ho0]
  case region => intro k acc; exact trip_t8 d L v2 r _ ft fx hfx k acc
  · unfold inv_t8
    isplitl [Ht]; · iexact Ht
    isplitl [Hx]; · iexact Hx
    iexists _; iexact Ho0
  iintro %a0 HI
  unfold inv_t8
  icases HI with ⟨Ht, Hx, %fo0', Ho0⟩
  sl_exec
  -- chunk 1 likewise
  ihave Hl1 := (hq1 _) $$ HF1_dst
  ihave Hall1 := (piecesK_split_mpr (F := F) d L 1 (r.val + 80) (by omega) (by omega)) $$ [HP1 Hl1]
  · isplitl [HP1]; · iexact HP1
    iexact Hl1
  ihave Hsp1 := (piecesK_split_mp (F := F) d L 1 (r.val + 80 + 1) (by omega) (by omega)) $$ Hall1
  icases Hsp1 with ⟨HP1, Hp1⟩
  ihave Hp1 := (Entails.of_eq (congrArg (fun n => (P1n (F := F) d L n 1 : sProp 𝕄)) (show r.val + 80 + 1 - 1 = r.val + 80 by omega))) $$ Hp1
  ihave Hp1' := (take_pieceM (F := F) d L (r.val + 80) (by omega) 1 (k1_off172 L r 256#32) (k1_off172_inb L r 1) hoff1) $$ Hp1
  icases Hp1' with ⟨%p1, Hp1⟩
  ihave Ho1 := (Entails.of_eq (pts_oc1 (F := F) d L _)) $$ HF1_src
  sl_for (inv_t9 d L ft fx) $$ [Ht Hx Ho1]
  case region => intro k acc; exact trip_t9 d L v2 r _ ft fx hfx k acc
  · unfold inv_t9
    isplitl [Ht]; · iexact Ht
    isplitl [Hx]; · iexact Hx
    iexists _; iexact Ho1
  iintro %a1 HI
  unfold inv_t9
  icases HI with ⟨Ht, Hx, %fo1', Ho1⟩
  sl_exec
  sl_step
  isplitr; · iexact Hmw
  isplitl [Ht]; · iexact Ht
  isplitl [Hx]; · iexact Hx
  isplitl [HF0]
  · iexists (pieceM (k1_off172 L r 0#32) (k1_off172_inb L r 0)); isplitr
    · ipureintro; intro f; exact land_pieceM d L (r.val + 80) (by omega) 0 _ _ hoff0 f
    · iexists p0, fo0'; iexact HF0
  isplitl [HF1]
  · iexists (pieceM (k1_off172 L r 256#32) (k1_off172_inb L r 1)); isplitr
    · ipureintro; intro f; exact land_pieceM d L (r.val + 80) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KB

end
-- ==== Proof.KB.Group3.lean ====
/-
  The group loops of stage 3 (rows 120 to 159 of out_t): as in stage 0, sixteen index words are loaded from
  the staged block and the flattened table is gathered at them plus 1000 c into row c of the output chunk.
-/
import proofs.«203934_g28930899706482_cont_9to1_1937_23_alg».proof.Proof.KB.TileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- What a trip of the group loop t11 keeps: the flattened table and the staged index block unchanged, the
    output chunk at some contents. -/
def inv_t11 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc0W).view.loc (thrV d L) ↦{fullShare} fo)

set_option maxRecDepth 65536 in
/-- One trip of t11: sixteen index words are loaded, thirty-two gathers read the table at them plus 1000 c
    (each in range: the words are below 1000), and the thirty-two gathered vectors are stored into the chunk. -/
theorem trip_t11 (d : Dev nD) (L : grid1.Coords) (v2 : BitVec 32) (r : Fin k1_t10_loop.trips) (arg14 : BitVec 32)
    (ft : Buf (Elt F) ((tvW).view.loc (thrV d L))) (fx : Buf (Elt F) ((xs1W).view.loc (thrV d L))) (hfx : XsOK fx)
    (g : Fin k1_t11_loop.trips) (acc : BitVec 32) :
    inv_t11 d L ft fx g acc
      ⊢ wp frame (wpE (defs₀ (F := F)) 𝒱₀ (thrV d L) none) Set.univ
          (k1_t11_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t11 d L ft fx (g.val + 1)) := by
  unfold k1_t11_body
  simp only [k1_part43_eq_skeleton, k1_part44_eq_skeleton, k1_part45_eq_skeleton]
  unfold k1_part43_skel k1_part44_skel k1_part45_skel
  simp only [SparseCore.vectorLoadIdx_bind (c := thrV d L)]
  unfold inv_t11
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

/-- What a trip of the group loop t12 keeps: the flattened table and the staged index block unchanged, the
    output chunk at some contents. -/
def inv_t12 (d : Dev nD) (L : grid1.Coords) (ft : Buf (Elt F) ((tvW).view.loc (thrV d L))) (fx : Buf (Elt F) ((xs1W).view.loc (thrV d L)))
    (_ : Nat) (_ : BitVec 32) : sProp 𝕄 :=
  iprop(((tvW).view.loc (thrV d L) ↦{fullShare} ft) ∗ ((xs1W).view.loc (thrV d L) ↦{fullShare} fx) ∗ ∃ fo, (oc1W).view.loc (thrV d L) ↦{fullShare} fo)

set_option maxRecDepth 65536 in
/-- One trip of t12: sixteen index words are loaded, thirty-two gathers read the table at them plus 1000 c
    (each in range: the words are below 1000), and the thirty-two gathered vectors are stored into the chunk. -/
theorem trip_t12 (d : Dev nD) (L : grid1.Coords) (v2 : BitVec 32) (r : Fin k1_t10_loop.trips) (arg14 : BitVec 32)
    (ft : Buf (Elt F) ((tvW).view.loc (thrV d L))) (fx : Buf (Elt F) ((xs1W).view.loc (thrV d L))) (hfx : XsOK fx)
    (g : Fin k1_t12_loop.trips) (acc : BitVec 32) :
    inv_t12 d L ft fx g acc
      ⊢ wp frame (wpE (defs₀ (F := F)) 𝒱₀ (thrV d L) none) Set.univ
          (k1_t12_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t12 d L ft fx (g.val + 1)) := by
  unfold k1_t12_body
  simp only [k1_part50_eq_skeleton, k1_part51_eq_skeleton, k1_part52_eq_skeleton]
  unfold k1_part50_skel k1_part51_skel k1_part52_skel
  simp only [SparseCore.vectorLoadIdx_bind (c := thrV d L)]
  unfold inv_t12
  iintro ⟨Ht, Hx, %fo, Ho⟩
  sl_exec (disch := exact chk_addi _ _ (fun _ => ldrow1_lt d L fx hfx _ _) (by decide))
  sl_step
  isplitl [Ht]; · iexact Ht
  isplitl [Hx]; · iexact Hx
  iexists _; iexact Ho

end Cert.Proof.KB

end
-- ==== Proof.KB.Row3.lean ====
/-
  The row loop of stage 3: rows 120 to 159 of out_t. Each trip waits for the two chunks' copies of the previous row,
  refills the chunks from the staged indices and the flattened table, and starts their copies into the row's two pieces.
-/
import proofs.«203934_g28930899706482_cont_9to1_1937_23_alg».proof.Proof.KB.RowCommon
import proofs.«203934_g28930899706482_cont_9to1_1937_23_alg».proof.Proof.KB.Group3
import proofs.«203934_g28930899706482_cont_9to1_1937_23_alg».proof.Proof.KB.PiecesKLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- Between two trips of the row loop of stage 3, before row n of out_t: the table and the staged indices as they
    are, each chunk's copy of row n - 1 in flight, every other piece of each slot held, the waits recorded. -/
def rowInv3 (d : Dev nD) (L : grid1.Coords) (ft : Buf (Elt F) ((tvW).view.loc (thrV d L))) (fx : Buf (Elt F) ((xs1W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs1W).view.loc (thrV d L) ↦{fullShare} fx)
    ∗ OutFlightAt0 d L (r + 120 - 1) ∗ OutFlightAt1 d L (r + 120 - 1)
    ∗ PiecesK d L 0 (r + 120) ∗ PiecesK d L 1 (r + 120)
    ∗ ∃ W', ⌜∀ p ∈ W', p ∈ W ∨ p.2 = none⌝ ∗ owes (thrV d L) O W')

set_option maxRecDepth 65536 in
/-- Row r of stage 3: for each chunk, its previous copy is waited for (the piece of row n - 1 lands), the chunk is
    filled by its group loop, and its copy into the piece of row n = r + 120 is started. -/
theorem row_t10 (d : Dev nD) (L : grid1.Coords) (v2 : BitVec 32) (ft : Buf (Elt F) ((tvW).view.loc (thrV d L))) (fx : Buf (Elt F) ((xs1W).view.loc (thrV d L))) (hfx : XsOK fx)
    (O : CellTallies nD τ sig (HIx 1)) (W : Waits sig (HIx 1)) (r : Fin k1_t10_loop.trips) (acc : BitVec 32) :
    rowInv3 d L ft fx O W r acc
      ⊢ wp frame (wpE (defs₀ (F := F)) 𝒱₀ (thrV d L) none) Set.univ
          (k1_t10_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInv3 d L ft fx O W (r.val + 1)) := by
  have hr : r.val < 40 := lt_of_lt_of_le r.isLt k1_t10_abs.2.1
  have hoff0 : k1_off240 L r 0#32 = ![r.val + 120, 0, col0 L + 256 * (0 : Fin 2).val] := by
    have h := k1_off240_eq L r 0; simpa [col0] using h
  have hoff1 : k1_off240 L r 256#32 = ![r.val + 120, 0, col0 L + 256 * (1 : Fin 2).val] := by
    have h := k1_off240_eq L r 1; simpa [col0] using h
  unfold k1_t10_body rowInv3 OutFlightAt0 OutFlightAt1
  rw [show r.val + 1 + 120 = r.val + 120 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 120) (by omega) (by omega)).2) $$ [HP0 Hl0]
  · isplitl [HP0]; · iexact HP0
    iexact Hl0
  ihave Hsp0 := ((piecesK_split (F := F) d L 0 (r.val + 120 + 1) (by omega) (by omega)).1) $$ Hall0
  icases Hsp0 with ⟨HP0, Hp0⟩
  ihave Hp0 := (Entails.of_eq (congrArg (fun n => (P1n (F := F) d L n 0 : sProp 𝕄)) (show r.val + 120 + 1 - 1 = r.val + 120 by omega))) $$ Hp0
  ihave Hp0' := (take_pieceM (F := F) d L (r.val + 120) (by omega) 0 (k1_off240 L r 0#32) (k1_off240_inb L r 0) hoff0) $$ Hp0
  icases Hp0' with ⟨%p0, Hp0⟩
  ihave Ho0 := (Entails.of_eq (pts_oc0 (F := F) d L _)) $$ HF0_src
  sl_for (inv_t11 d L ft fx) $$ [Ht Hx Ho0]
  case region => intro k acc; exact trip_t11 d L v2 r _ ft fx hfx k acc
  · unfold inv_t11
    isplitl [Ht]; · iexact Ht
    isplitl [Hx]; · iexact Hx
    iexists _; iexact Ho0
  iintro %a0 HI
  unfold inv_t11
  icases HI with ⟨Ht, Hx, %fo0', Ho0⟩
  sl_exec
  -- chunk 1 likewise
  ihave Hl1 := (hq1 _) $$ HF1_dst
  ihave Hall1 := (piecesK_split_mpr (F := F) d L 1 (r.val + 120) (by omega) (by omega)) $$ [HP1 Hl1]
  · isplitl [HP1]; · iexact HP1
    iexact Hl1
  ihave Hsp1 := (piecesK_split_mp (F := F) d L 1 (r.val + 120 + 1) (by omega) (by omega)) $$ Hall1
  icases Hsp1 with ⟨HP1, Hp1⟩
  ihave Hp1 := (Entails.of_eq (congrArg (fun n => (P1n (F := F) d L n 1 : sProp 𝕄)) (show r.val + 120 + 1 - 1 = r.val + 120 by omega))) $$ Hp1
  ihave Hp1' := (take_pieceM (F := F) d L (r.val + 120) (by omega) 1 (k1_off240 L r 256#32) (k1_off240_inb L r 1) hoff1) $$ Hp1
  icases Hp1' with ⟨%p1, Hp1⟩
  ihave Ho1 := (Entails.of_eq (pts_oc1 (F := F) d L _)) $$ HF1_src
  sl_for (inv_t12 d L ft fx) $$ [Ht Hx Ho1]
  case region => intro k acc; exact trip_t12 d L v2 r _ ft fx hfx k acc
  · unfold inv_t12
    isplitl [Ht]; · iexact Ht
    isplitl [Hx]; · iexact Hx
    iexists _; iexact Ho1
  iintro %a1 HI
  unfold inv_t12
  icases HI with ⟨Ht, Hx, %fo1', Ho1⟩
  sl_exec
  sl_step
  isplitr; · iexact Hmw
  isplitl [Ht]; · iexact Ht
  isplitl [Hx]; · iexact Hx
  isplitl [HF0]
  · iexists (pieceM (k1_off240 L r 0#32) (k1_off240_inb L r 0)); isplitr
    · ipureintro; intro f; exact land_pieceM d L (r.val + 120) (by omega) 0 _ _ hoff0 f
    · iexists p0, fo0'; iexact HF0
  isplitl [HF1]
  · iexists (pieceM (k1_off240 L r 256#32) (k1_off240_inb L r 1)); isplitr
    · ipureintro; intro f; exact land_pieceM d L (r.val + 120) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KB

end
-- ==== Proof.KB.Group4.lean ====
/-
  The group loops of stage 4 (rows 160 to 199 of out_t): as in stage 0, sixteen index words are loaded from
  the staged block and the flattened table is gathered at them plus 1000 c into row c of the output chunk.
-/
import proofs.«203934_g28930899706482_cont_9to1_1937_23_alg».proof.Proof.KB.TileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- What a trip of the group loop t14 keeps: the flattened table and the staged index block unchanged, the
    output chunk at some contents. -/
def inv_t14 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc0W).view.loc (thrV d L) ↦{fullShare} fo)

set_option maxRecDepth 65536 in
/-- One trip of t14: sixteen index words are loaded, thirty-two gathers read the table at them plus 1000 c
    (each in range: the words are below 1000), and the thirty-two gathered vectors are stored into the chunk. -/
theorem trip_t14 (d : Dev nD) (L : grid1.Coords) (v2 : BitVec 32) (r : Fin k1_t13_loop.trips) (arg14 : BitVec 32)
    (ft : Buf (Elt F) ((tvW).view.loc (thrV d L))) (fx : Buf (Elt F) ((xs0W).view.loc (thrV d L))) (hfx : XsOK fx)
    (g : Fin k1_t14_loop.trips) (acc : BitVec 32) :
    inv_t14 d L ft fx g acc
      ⊢ wp frame (wpE (defs₀ (F := F)) 𝒱₀ (thrV d L) none) Set.univ
          (k1_t14_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t14 d L ft fx (g.val + 1)) := by
  unfold k1_t14_body
  simp only [k1_part57_eq_skeleton, k1_part58_eq_skeleton, k1_part59_eq_skeleton]
  unfold k1_part57_skel k1_part58_skel k1_part59_skel
  simp only [SparseCore.vectorLoadIdx_bind (c := thrV d L)]
  unfold inv_t14
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

/-- What a trip of the group loop t15 keeps: the flattened table and the staged index block unchanged, the
    output chunk at some contents. -/
def inv_t15 (d : Dev nD) (L : grid1.Coords) (ft : Buf (Elt F) ((tvW).view.loc (thrV d L))) (fx : Buf (Elt F) ((xs0W).view.loc (thrV d L)))
    (_ : Nat) (_ : BitVec 32) : sProp 𝕄 :=
  iprop(((tvW).view.loc (thrV d L) ↦{fullShare} ft) ∗ ((xs0W).view.loc (thrV d L) ↦{fullShare} fx) ∗ ∃ fo, (oc1W).view.loc (thrV d L) ↦{fullShare} fo)

set_option maxRecDepth 65536 in
/-- One trip of t15: sixteen index words are loaded, thirty-two gathers read the table at them plus 1000 c
    (each in range: the words are below 1000), and the thirty-two gathered vectors are stored into the chunk. -/
theorem trip_t15 (d : Dev nD) (L : grid1.Coords) (v2 : BitVec 32) (r : Fin k1_t13_loop.trips) (arg14 : BitVec 32)
    (ft : Buf (Elt F) ((tvW).view.loc (thrV d L))) (fx : Buf (Elt F) ((xs0W).view.loc (thrV d L))) (hfx : XsOK fx)
    (g : Fin k1_t15_loop.trips) (acc : BitVec 32) :
    inv_t15 d L ft fx g acc
      ⊢ wp frame (wpE (defs₀ (F := F)) 𝒱₀ (thrV d L) none) Set.univ
          (k1_t15_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r arg14 g acc)
          (inv_t15 d L ft fx (g.val + 1)) := by
  unfold k1_t15_body
  simp only [k1_part64_eq_skeleton, k1_part65_eq_skeleton, k1_part66_eq_skeleton]
  unfold k1_part64_skel k1_part65_skel k1_part66_skel
  simp only [SparseCore.vectorLoadIdx_bind (c := thrV d L)]
  unfold inv_t15
  iintro ⟨Ht, Hx, %fo, Ho⟩
  sl_exec (disch := exact chk_addi _ _ (fun _ => ldrow0_lt d L fx hfx _ _) (by decide))
  sl_step
  isplitl [Ht]; · iexact Ht
  isplitl [Hx]; · iexact Hx
  iexists _; iexact Ho

end Cert.Proof.KB

end
-- ==== Proof.KB.Row4.lean ====
/-
  The row loop of stage 4: rows 160 to 199 of out_t. Each trip waits for the two chunks' copies of the previous row,
  refills the chunks from the staged indices and the flattened table, and starts their copies into the row's two pieces.
-/
import proofs.«203934_g28930899706482_cont_9to1_1937_23_alg».proof.Proof.KB.RowCommon
import proofs.«203934_g28930899706482_cont_9to1_1937_23_alg».proof.Proof.KB.Group4
import proofs.«203934_g28930899706482_cont_9to1_1937_23_alg».proof.Proof.KB.PiecesKLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

/-- Between two trips of the row loop of stage 4, before row n of out_t: the table and the staged indices as they
    are, each chunk's copy of row n - 1 in flight, every other piece of each slot held, the waits recorded. -/
def rowInv4 (d : Dev nD) (L : grid1.Coords) (ft : Buf (Elt F) ((tvW).view.loc (thrV d L))) (fx : Buf (Elt F) ((xs0W).view.loc (thrV d L)))
    (O : CellTallies nD τ sig (HIx 1)) (W : Waits sig (HIx 1)) (r : Nat) (_ : BitVec 32) : sProp 𝕄 :=
  iprop(Transfers.MayWaits (thrV d L) (none : HIx 1) O
    ∗ ((tvW).view.loc (thrV d L) ↦{fullShare} ft) ∗ ((xs0W).view.loc (thrV d L) ↦{fullShare} fx)
    ∗ OutFlightAt0 d L (r + 160 - 1) ∗ OutFlightAt1 d L (r + 160 - 1)
    ∗ PiecesK d L 0 (r + 160) ∗ PiecesK d L 1 (r + 160)
    ∗ ∃ W', ⌜∀ p ∈ W', p ∈ W ∨ p.2 = none⌝ ∗ owes (thrV d L) O W')

set_option maxRecDepth 65536 in
/-- Row r of stage 4: for each chunk, its previous copy is waited for (the piece of row n - 1 lands), the chunk is
    filled by its group loop, and its copy into the piece of row n = r + 160 is started. -/
theorem row_t13 (d : Dev nD) (L : grid1.Coords) (v2 : BitVec 32) (ft : Buf (Elt F) ((tvW).view.loc (thrV d L))) (fx : Buf (Elt F) ((xs0W).view.loc (thrV d L))) (hfx : XsOK fx)
    (O : CellTallies nD τ sig (HIx 1)) (W : Waits sig (HIx 1)) (r : Fin k1_t13_loop.trips) (acc : BitVec 32) :
    rowInv4 d L ft fx O W r acc
      ⊢ wp frame (wpE (defs₀ (F := F)) 𝒱₀ (thrV d L) none) Set.univ
          (k1_t13_body L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0 v2 r acc)
          (rowInv4 d L ft fx O W (r.val + 1)) := by
  have hr : r.val < 40 := lt_of_lt_of_le r.isLt k1_t13_abs.2.1
  have hoff0 : k1_off307 L r 0#32 = ![r.val + 160, 0, col0 L + 256 * (0 : Fin 2).val] := by
    have h := k1_off307_eq L r 0; simpa [col0] using h
  have hoff1 : k1_off307 L r 256#32 = ![r.val + 160, 0, col0 L + 256 * (1 : Fin 2).val] := by
    have h := k1_off307_eq L r 1; simpa [col0] using h
  unfold k1_t13_body rowInv4 OutFlightAt0 OutFlightAt1
  rw [show r.val + 1 + 160 = r.val + 160 + 1 by omega, Nat.add_sub_cancel]
  iintro ⟨#Hmw, Ht, Hx, ⟨%q0, %hq0, HF0⟩, ⟨%q1, %hq1, HF1⟩, HP0, HP1, %W', %hW', HO⟩
  unfold OutFlight0 OutFlight1
  icases HF0 with ⟨%pp0, %fo0, HF0⟩
  icases HF1 with ⟨%pp1, %fo1, HF1⟩
  sl_exec
  -- chunk 0's copy of row n - 1 has landed: its piece joins the slot's others, the piece of row n leaves them
  ihave Hl0 := (hq0 _) $$ HF0_dst
  ihave Hall0 := ((piecesK_split (F := F) d L 0 (r.val + 160) (by omega) (by omega)).2) $$ [HP0 Hl0]
  · isplitl [HP0]; · iexact HP0
    iexact Hl0
  ihave Hsp0 := ((piecesK_split (F := F) d L 0 (r.val + 160 + 1) (by omega) (by omega)).1) $$ Hall0
  icases Hsp0 with ⟨HP0, Hp0⟩
  ihave Hp0 := (Entails.of_eq (congrArg (fun n => (P1n (F := F) d L n 0 : sProp 𝕄)) (show r.val + 160 + 1 - 1 = r.val + 160 by omega))) $$ Hp0
  ihave Hp0' := (take_pieceM (F := F) d L (r.val + 160) (by omega) 0 (k1_off307 L r 0#32) (k1_off307_inb L r 0) hoff0) $$ Hp0
  icases Hp0' with ⟨%p0, Hp0⟩
  ihave Ho0 := (Entails.of_eq (pts_oc0 (F := F) d L _)) $$ HF0_src
  sl_for (inv_t14 d L ft fx) $$ [Ht Hx Ho0]
  case region => intro k acc; exact trip_t14 d L v2 r _ ft fx hfx k acc
  · unfold inv_t14
    isplitl [Ht]; · iexact Ht
    isplitl [Hx]; · iexact Hx
    iexists _; iexact Ho0
  iintro %a0 HI
  unfold inv_t14
  icases HI with ⟨Ht, Hx, %fo0', Ho0⟩
  sl_exec
  -- chunk 1 likewise
  ihave Hl1 := (hq1 _) $$ HF1_dst
  ihave Hall1 := (piecesK_split_mpr (F := F) d L 1 (r.val + 160) (by omega) (by omega)) $$ [HP1 Hl1]
  · isplitl [HP1]; · iexact HP1
    iexact Hl1
  ihave Hsp1 := (piecesK_split_mp (F := F) d L 1 (r.val + 160 + 1) (by omega) (by omega)) $$ Hall1
  icases Hsp1 with ⟨HP1, Hp1⟩
  ihave Hp1 := (Entails.of_eq (congrArg (fun n => (P1n (F := F) d L n 1 : sProp 𝕄)) (show r.val + 160 + 1 - 1 = r.val + 160 by omega))) $$ Hp1
  ihave Hp1' := (take_pieceM (F := F) d L (r.val + 160) (by omega) 1 (k1_off307 L r 256#32) (k1_off307_inb L r 1) hoff1) $$ Hp1
  icases Hp1' with ⟨%p1, Hp1⟩
  ihave Ho1 := (Entails.of_eq (pts_oc1 (F := F) d L _)) $$ HF1_src
  sl_for (inv_t15 d L ft fx) $$ [Ht Hx Ho1]
  case region => intro k acc; exact trip_t15 d L v2 r _ ft fx hfx k acc
  · unfold inv_t15
    isplitl [Ht]; · iexact Ht
    isplitl [Hx]; · iexact Hx
    iexists _; iexact Ho1
  iintro %a1 HI
  unfold inv_t15
  icases HI with ⟨Ht, Hx, %fo1', Ho1⟩
  sl_exec
  sl_step
  isplitr; · iexact Hmw
  isplitl [Ht]; · iexact Ht
  isplitl [Hx]; · iexact Hx
  isplitl [HF0]
  · iexists (pieceM (k1_off307 L r 0#32) (k1_off307_inb L r 0)); isplitr
    · ipureintro; intro f; exact land_pieceM d L (r.val + 160) (by omega) 0 _ _ hoff0 f
    · iexists p0, fo0'; iexact HF0
  isplitl [HF1]
  · iexists (pieceM (k1_off307 L r 256#32) (k1_off307_inb L r 1)); isplitr
    · ipureintro; intro f; exact land_pieceM d L (r.val + 160) (by omega) 1 _ _ hoff1 f
    · iexists p1, fo1'; iexact HF1
  isplitl [HP0]; · iexact HP0
  isplitl [HP1]; · iexact HP1
  iexists (insert (SemLoc.dma cc1_scratch8.sem, (default : HIx 1)) (insert (SemLoc.dma cc1_scratch7.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KB

end
-- ==== Proof.KB.Pay.lean ====
/-
  What the one SparseCore call hands over and takes back. Every vector subcore reads the transposed indices xt and
  the flattened table whole, and writes its own column block of out_t: the call lends SparseCore c a read share of xt
  and of the flattened table and hands it its sixteen subcores' blocks of out_t; each subcore is lent a share of that
  share and handed its block. The blocks come back at whatever the subcores wrote.
-/
import proofs.«203934_g28930899706482_cont_9to1_1937_23_alg».proof.Proof.KB.PiecesK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The read share of SparseCore c, and of its vector subcore i. -/
abbrev qCore (c : Fin 2) : PosShare TreeShare := Transfers.shareTok fullShare 2 c
abbrev qTile (c : Fin 2) (i : Fin 16) : PosShare TreeShare := Transfers.shareTok (qCore c) 16 i

theorem nCore_bound : (K (F := F)).nCore 0 = grid1.bound 0 := rfl
theorem nSub_bound : (K (F := F)).nSub 0 = grid1.bound 1 := rfl

variable [FloatOps F]
variable (m : (ℓ : Loc nD τ sig) → Buf (Elt F) ℓ)

/-- The transposed indices and the flattened scaled table computed from device d's arguments. -/
def XTv (d : Dev nD) : Buf (Elt F) (xtLoc d) := XT (m (xLoc d))
def FLv (d : Dev nD) : Buf (Elt F) (flLoc d) := FL (m (tbLoc d))

/-- What SparseCore c is handed: read shares of the two inputs at their computed contents, its block of out_t. -/
def coreRes (d : Dev nD) (c : Fin (grid1.bound 0)) : sProp 𝕄 :=
  iprop((flLoc d ↦{qCore c} FLv m d) ∗ (xtLoc d ↦{qCore c} XTv m d) ∗ ∃ f, oLoc d ↦[cset c]{fullShare} f)
/-- What vector subcore (c, i) is handed. -/
def tileRes (d : Dev nD) (c : Fin (grid1.bound 0)) (i : Fin (grid1.bound 1)) : sProp 𝕄 :=
  iprop((flLoc d ↦{qTile c i} FLv m d) ∗ (xtLoc d ↦{qTile c i} XTv m d) ∗ ∃ f, oLoc d ↦[tset (coordsV c i)]{fullShare} f)

def P : (K (F := F)).Pay (nD := nD) (Val := Elt F) (Name := ℕ) (U := UU) where
  st := fun q d c => match q with | 0 => coreRes m d (Fin.cast nCore_bound c)
  dn := fun q d c => match q with | 0 => coreRes m d (Fin.cast nCore_bound c)
  go := fun q d c i => match q with | 0 => tileRes m d (Fin.cast nCore_bound c) (Fin.cast nSub_bound i)
  td := fun q d c i => match q with | 0 => tileRes m d (Fin.cast nCore_bound c) (Fin.cast nSub_bound i)
  x := fun _ _ => iprop(emp)

instance coreRes_storable (d : Dev nD) (c : Fin (grid1.bound 0)) : BI.Storable (upEmb : UEmb _ 𝕄) (coreRes m d c) := by
  unfold coreRes; infer_instance
instance tileRes_storable (d : Dev nD) (c : Fin (grid1.bound 0)) (i : Fin (grid1.bound 1)) : BI.Storable (upEmb : UEmb _ 𝕄) (tileRes m d c i) := by
  unfold tileRes; infer_instance

instance P_storable : (P (F := F) m).IsStorable where
  st q d c := match q with | 0 => (inferInstance : BI.Storable (upEmb : UEmb _ 𝕄) (coreRes m d (Fin.cast nCore_bound c)))
  dn q d c := match q with | 0 => (inferInstance : BI.Storable (upEmb : UEmb _ 𝕄) (coreRes m d (Fin.cast nCore_bound c)))
  go q d c i := match q with | 0 => (inferInstance : BI.Storable (upEmb : UEmb _ 𝕄) (tileRes m d (Fin.cast nCore_bound c) (Fin.cast nSub_bound i)))
  td q d c i := match q with | 0 => (inferInstance : BI.Storable (upEmb : UEmb _ 𝕄) (tileRes m d (Fin.cast nCore_bound c) (Fin.cast nSub_bound i)))

end Cert.Proof.KB

end
-- ==== Proof.KB.TileRes.lean ====
/-
  What a vector subcore's task runs from and what it leaves, in the kernel's own spelling of its operands: a read
  share of the flattened table, two read shares of the transposed indices (the two staged index blocks are fetched on
  two semaphores, at most one fetch in flight on each), the five scratch buffers at some contents, the five DMA
  semaphores at zero, the 400 pieces of its block of out_t slot by slot, and what it owes.
-/
import proofs.«203934_g28930899706482_cont_9to1_1937_23_alg».proof.Proof.KB.RowCommon
import proofs.«203934_g28930899706482_cont_9to1_1937_23_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

variable (m : (ℓ : Loc nD τ sig) → Buf (Elt F) ℓ)

/-- Every index word of device d names a row of the table. -/
def XOK (d : Dev nD) : Prop := ∀ j, BitVec.toNat (m (xLoc d) j) < 1000

def topRes (d : Dev nD) (L : grid1.Coords) (qT : PosShare TreeShare)
    (O : CellTallies nD τ sig (HIx 1)) (W : Waits sig (HIx 1)) : sProp 𝕄 :=
  iprop(levAts (K (F := F)).L (K (F := F)).lev
    ∗ ((tW).view.loc (thrV d L) ↦{qT} FLv m d)
    ∗ ((xW).view.loc (thrV d L) ↦{Transfers.shareTok qT 7 2} XTv m d)
    ∗ ((xW).view.loc (thrV d L) ↦{Transfers.shareTok qT 7 3} XTv m d)
    ∗ (∃ f, (tvW).view.loc (thrV d L) ↦{fullShare} f) ∗ (∃ f, (xs0W).view.loc (thrV d L) ↦{fullShare} f) ∗ (∃ f, (xs1W).view.loc (thrV d L) ↦{fullShare} f)
    ∗ (∃ f, (oc0W).view.loc (thrV d L) ↦{fullShare} f) ∗ (∃ f, (oc1W).view.loc (thrV d L) ↦{fullShare} f)
    ∗ semVal (thrV d L, SemLoc.dma cc1_scratch5.sem) 0 ∗ semVal (thrV d L, SemLoc.dma cc1_scratch6.sem) 0
    ∗ semVal (thrV d L, SemLoc.dma cc1_scratch7.sem) 0 ∗ semVal (thrV d L, SemLoc.dma cc1_scratch8.sem) 0
    ∗ semVal (thrV d L, SemLoc.dma cc1_scoped0.sem) 0
    ∗ AllK d L 0 ∗ AllK d L 1
    ∗ owes (thrV d L) O W)

def topPost (d : Dev nD) (L : grid1.Coords) (qT : PosShare TreeShare)
    (O : CellTallies nD τ sig (HIx 1)) (W : Waits sig (HIx 1)) : sProp 𝕄 :=
  iprop(((tW).view.loc (thrV d L) ↦{qT} FLv m d)
    ∗ ((xW).view.loc (thrV d L) ↦{Transfers.shareTok qT 7 2} XTv m d)
    ∗ ((xW).view.loc (thrV d L) ↦{Transfers.shareTok qT 7 3} XTv m d)
    ∗ (∃ f, (tvW).view.loc (thrV d L) ↦{fullShare} f) ∗ (∃ f, (xs0W).view.loc (thrV d L) ↦{fullShare} f) ∗ (∃ f, (xs1W).view.loc (thrV d L) ↦{fullShare} f)
    ∗ (∃ f, (oc0W).view.loc (thrV d L) ↦{fullShare} f) ∗ (∃ f, (oc1W).view.loc (thrV d L) ↦{fullShare} f)
    ∗ semVal (thrV d L, SemLoc.dma cc1_scratch5.sem) 0 ∗ semVal (thrV d L, SemLoc.dma cc1_scratch6.sem) 0
    ∗ semVal (thrV d L, SemLoc.dma cc1_scratch7.sem) 0 ∗ semVal (thrV d L, SemLoc.dma cc1_scratch8.sem) 0
    ∗ semVal (thrV d L, SemLoc.dma cc1_scoped0.sem) 0
    ∗ AllK d L 0 ∗ AllK d L 1
    ∗ ∃ W', ⌜∀ p ∈ W', p ∈ W ∨ p.2 = none⌝ ∗ owes (thrV d L) O W')

end Cert.Proof.KB

end
-- ==== Proof.KB.ValueEq.lean ====
/-
  The kernel's closed form and the reference's agree. The kernel's result at (b, s, d) is out_t at (s, d, b), which is
  the flattened scaled transposed table at position xt (s, b) + 1000 d; xt (s, b) is the index word x (b, s), and for a
  word v below 1000 and d below 32 that position is below 32000 and is row-major position (d, v) of the scaled
  transposed table, whose entry there is table (v, d) times the constant. This is the reference's value at (b, s, d).
-/
import proofs.«203934_g28930899706482_cont_9to1_1937_23_alg».proof.Proof.KB.Setup
import proofs.«203934_g28930899706482_cont_9to1_1937_23_alg».proof.Proof.RefRead

noncomputable section

namespace Cert.Proof.KB

open Cert.Kernel Cert.Kernel.Gen

open Idealize.ShloMosaic Idealize.ShloMosaic.ValueIdx Idealize.SL.Sem

/-! ## Each layout step read at an index -/

/-- The transposed indices at (s, b) are the indices at (b, s). -/
theorem xt_apply (x : IVec S16384x200 32) (s : Fin 200) (b : Fin 16384) : XT x (ix2 s b) = x (ix2 b s) := by
  unfold XT
  exact transpose_apply _ x _ _ _ fun c => match c with | ⟨0, _⟩ => rfl | ⟨1, _⟩ => rfl

section AnyInstance
variable {F : FTy → Type} [FloatOps F]

/-- The flattening at position 1000 d + v is the scaled transposed table at (d, v). -/
theorem fl_apply (t : FVec F S1000x32 .f32) (d : Fin 32) (v : Fin 1000) (n : Fin 32000) (hn : n.val = v.val + 1000 * d.val) :
    FL t (ix1 n) = TS t (ix2 d v) := by
  unfold FL
  refine shapeCast_apply (TS t) _ _ (ix2 d v) ?_
  rw [Shape.rowMajor_val_two, Shape.rowMajor_val_one]
  show d.val * 1000 + v.val = n.val
  omega

/-- out_t at (s, d, b), for an index word below 1000: the position needs no reduction modulo the table's size. -/
theorem out_apply_inrange (x : IVec S16384x200 32) (t : FVec F S1000x32 .f32) (s : Fin 200) (d : Fin 32) (b : Fin 16384)
    (h : (x (ix2 b s)).toNat < 1000) :
    OUT x t (ix3 s d b)
      = FL t (ix1 ⟨(XT x (ix2 s b)).toNat + 1000 * d.val, by have := d.isLt; rw [xt_apply]; omega⟩) := by
  have hd := d.isLt
  have hlt : (XT x (ix2 s b)).toNat + 1000 * d.val < 32000 := by rw [xt_apply]; omega
  show FL t (ix1 ⟨((XT x (ix2 s b)).toNat + 1000 * d.val) % 32000, _⟩) = _
  exact congrArg (fun n => FL t (ix1 n)) (Fin.ext (Nat.mod_eq_of_lt hlt))

/-- The result at (b, s, d) is out_t at (s, d, b). -/
theorem res_out (x : IVec S16384x200 32) (t : FVec F S1000x32 .f32) (b : Fin 16384) (s : Fin 200) (d : Fin 32) :
    RES x t (ix3 b s d) = OUT x t (ix3 s d b) := by
  unfold RES
  exact transpose_apply _ (OUT x t) _ _ _ fun c => match c with | ⟨0, _⟩ => rfl | ⟨1, _⟩ => rfl | ⟨2, _⟩ => rfl

end AnyInstance

/-! ## At the ideal instance -/

/-- The scaled transposed table at (d, v) is the table at (v, d) times the constant. -/
theorem ts_apply (t : FVec Ideal S1000x32 .f32) (d : Fin 32) (v : Fin 1000) :
    TS (F := Ideal) t (ix2 d v) = t (ix2 v d) * Ideal.ofBits .f32 0x40B504F3#32 := by
  unfold TS k0_pay1
  show mulf (transpose S32x1000 [1, 0] t transposes_S1000x32_p1_0_S32x1000)
      (broadcast S32x1000 (Scalar.ofBits .f32 0x40B504F3#32)) (ix2 d v) = _
  rw [mulf_apply, broadcast_apply,
    transpose_apply [1, 0] t transposes_S1000x32_p1_0_S32x1000 (ix2 d v) (ix2 v d)
      (fun c => match c with | ⟨0, _⟩ => rfl | ⟨1, _⟩ => rfl)]
  rfl

/-- The kernel's closed form at (b, s, d), for index words in [0, 999]. -/
theorem res_apply (x : IVec S16384x200 32) (t : FVec Ideal S1000x32 .f32) (hx : ∀ j, 0 ≤ (x j).toInt ∧ (x j).toInt ≤ 999)
    (b : Fin 16384) (s : Fin 200) (d : Fin 32) :
    RES (F := Ideal) x t (ix3 b s d)
      = t (ix2 (⟨(x (ix2 b s)).toNat, Cert.ReferenceIdeal.RefValue.toNat_lt_of_range (hx _)⟩ : Fin 1000) d)
          * Ideal.ofBits .f32 0x40B504F3#32 := by
  have hv : (x (ix2 b s)).toNat < 1000 := Cert.ReferenceIdeal.RefValue.toNat_lt_of_range (hx _)
  rw [res_out, out_apply_inrange x t s d b hv,
    fl_apply t d ⟨(x (ix2 b s)).toNat, hv⟩ _ (by show (XT x (ix2 s b)).toNat + 1000 * d.val = _; rw [xt_apply]),
    ts_apply]

/-- The kernel's closed form is the reference's. -/
theorem res_eq_ref (x : IVec S16384x200 32) (t : FVec Ideal S1000x32 .f32) (hx : ∀ j, 0 ≤ (x j).toInt ∧ (x j).toInt ≤ 999) :
    RES (F := Ideal) x t = Cert.ReferenceIdeal.RefValue.refOut x t := by
  funext j
  obtain ⟨b, s, d, rfl⟩ : ∃ (b : Fin 16384) (s : Fin 200) (d : Fin 32), j = ix3 b s d := ⟨j 0, j 1, j 2, eq_ix3 j⟩
  rw [res_apply x t hx, Cert.ReferenceIdeal.RefValue.refOut_apply x t hx]

end Cert.Proof.KB

end
-- ==== Proof.KB.TileBody.lean ====
/-
  A vector subcore's whole task: the flattened table is fetched into the subcore's memory; the five blocks of 40 rows
  of transposed indices are fetched two ahead into two staging buffers; for each block a row loop fills the two output
  chunks from the staged indices and the table and copies them into the pieces of out_t; at the end the last two copies
  are waited for. Every index staged is a word of the transposed index array, hence a row number of the table.
-/
import proofs.«203934_g28930899706482_cont_9to1_1937_23_alg».proof.Proof.KB.Row0
import proofs.«203934_g28930899706482_cont_9to1_1937_23_alg».proof.Proof.KB.Row1
import proofs.«203934_g28930899706482_cont_9to1_1937_23_alg».proof.Proof.KB.Row2
import proofs.«203934_g28930899706482_cont_9to1_1937_23_alg».proof.Proof.KB.Row3
import proofs.«203934_g28930899706482_cont_9to1_1937_23_alg».proof.Proof.KB.Row4
import proofs.«203934_g28930899706482_cont_9to1_1937_23_alg».proof.Proof.KB.Pay
import proofs.«203934_g28930899706482_cont_9to1_1937_23_alg».proof.Proof.KB.TileRes
import proofs.«203934_g28930899706482_cont_9to1_1937_23_alg».proof.Proof.KB.ValueEq

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

variable (m : (ℓ : Loc nD τ sig) → Buf (Elt F) ℓ)

omit [FloatOps F] in
theorem trips_t1 : k1_t1_loop.trips = 40 := by decide
omit [FloatOps F] in
theorem trips_t4 : k1_t4_loop.trips = 40 := by decide
omit [FloatOps F] in
theorem trips_t7 : k1_t7_loop.trips = 40 := by decide
omit [FloatOps F] in
theorem trips_t10 : k1_t10_loop.trips = 40 := by decide
omit [FloatOps F] in
theorem trips_t13 : k1_t13_loop.trips = 40 := by decide

/-- Every word of the transposed index array is a word of the index array. -/
theorem xtv_lt (d : Dev nD) (hx : XOK m d) (i : S200x16384.Idx) : BitVec.toNat (XTv m d i) < 1000 := by
  obtain ⟨p, q, rfl⟩ : ∃ (p : Fin 200) (q : Fin 16384), i = ValueIdx.ix2 p q := ⟨i 0, i 1, ValueIdx.eq_ix2 i⟩
  unfold XTv; rw [xt_apply]; exact hx _

set_option maxRecDepth 65536 in
theorem tile_run (d : Dev nD) (L : grid1.Coords) (qT : PosShare TreeShare)
    (O : CellTallies nD τ sig (HIx 1)) (W : Waits sig (HIx 1)) (hO : ∀ g, O g none = 0) (hx : XOK m d) :
    topRes m d L qT O W
      ⊢ wp frame (wpE (defs₀ (F := F)) 𝒱₀ (thrV d L) none) Set.univ
          (cc1__gather_t L tW (Memref.isWhole_whole _) xW (Memref.isWhole_whole _) oW (Memref.isWhole_whole _) tvW (Memref.isWhole_whole _)
            xs0W (Memref.isWhole_whole _) xs1W (Memref.isWhole_whole _) oc0W (Memref.isWhole_whole _) oc1W (Memref.isWhole_whole _)
            cc1_scratch5 cc1_scratch6 cc1_scratch7 cc1_scratch8 cc1_scoped0)
          fun _ => topPost m d L qT O W := by
  simp only [cc1__gather_t_eq_skeleton]; unfold cc1__gather_t_skel
  simp only [k1_part71_eq_skeleton, k1_part72_eq_skeleton]; unfold k1_part71_skel k1_part72_skel
  unfold topRes
  iintro ⟨#Hlv, Htw, Hxw0, Hxw1, ⟨%ftv, Htv⟩, ⟨%fx0, Hx0⟩, ⟨%fx1, Hx1⟩, ⟨%fo0, Ho0⟩, ⟨%fo1, Ho1⟩, Hs5, Hs6, Hs7, Hs8, Hsc, HA0, HA1, HO⟩
  ihave Hmw := ((K (F := F)).mayWaits_none (thr := thrV d L) hO) $$ Hlv
  sl_exec
  have hfx0 : XsOK (View.write (Elt F) (xs0W).view fx0 (tile_run.sl.dma0_1 m d L) Finset.univ) := by
    rw [show View.write (Elt F) (xs0W).view fx0 (tile_run.sl.dma0_1 m d L) Finset.univ = tile_run.sl.dma0_1 m d L from View.write_whole_univ _ _ _]
    intro j; exact xtv_lt m d hx _
  generalize View.write (Elt F) (tvW).view ftv (tile_run.sl.dma0 m d) Finset.univ = FT
  generalize View.write (Elt F) (xs0W).view fx0 (tile_run.sl.dma0_1 m d L) Finset.univ = FX0 at hfx0 ⊢
  sl_rw [Prog.bind_assoc]
  sl_for (rowInv0 d L FT FX0 O W) $$ [Htv Hx0 Hs7 Ho0 Hs8 Ho1 HA0 HA1 HO]
  case region => intro k acc; exact row_t1 d L _ _ hfx0 O W k acc
  · unfold rowInv0 SlotSt0 SlotSt1
    rw [if_pos rfl, if_pos rfl, piecesK_zero, piecesK_zero]
    isplitr; · iexact Hmw
    isplitl [Htv]; · iexact Htv
    isplitl [Hx0]; · iexact Hx0
    isplitl [Hs7 Ho0]
    · isplitl [Hs7]; · iexact Hs7
      iexists _; iexact Ho0
    isplitl [Hs8 Ho1]
    · isplitl [Hs8]; · iexact Hs8
      iexists _; iexact Ho1
    isplitl [HA0]; · iexact HA0
    isplitl [HA1]; · iexact HA1
    iexists (insert (SemLoc.dma cc1_scratch5.sem, (default : HIx 1)) (insert (SemLoc.dma cc1_scoped0.sem, (default : HIx 1)) W)); isplitr
    · ipureintro; intro p hp
      rcases Finset.mem_insert.mp hp with hp | hp
      · exact .inr (by subst hp; rfl)
      rcases Finset.mem_insert.mp hp with hp | hp
      · exact .inr (by subst hp; rfl)
      · exact .inl hp
    · iexact HO
  iintro %a0 HI
  ihave HI := (Entails.of_eq (congrArg (fun n => rowInv0 d L FT FX0 O W n a0) trips_t1)) $$ HI
  unfold rowInv0 SlotSt0 SlotSt1
  rw [if_neg (by decide : ¬ (40 = 0)), if_neg (by decide : ¬ (40 = 0))]
  icases HI with ⟨-, Htv, Hx0, HF0, HF1, HP0, HP1, %W0, %hW0, HO⟩
  sl_exec

  -- stage 1
  generalize hFX1 : View.write (Elt F) (xs1W).view _ _ Finset.univ = FX1
  have hfx1 : XsOK FX1 := by
    rw [← hFX1, show ∀ f g, View.write (Elt F) (xs1W).view f g Finset.univ = g from fun f g => View.write_whole_univ _ f g]
    intro j; exact xtv_lt m d hx _
  clear hFX1
  try sl_rw [Prog.bind_assoc]
  sl_for (rowInv1 d L FT FX1 O W) $$ [Htv Hx1 HF0 HF1 HP0 HP1 HO]
  case region => intro k acc; exact row_t4 d L FT FX1 hfx1 O W k acc
  · unfold rowInv1
    isplitr; · iexact Hmw
    isplitl [Htv]; · iexact Htv
    isplitl [Hx1]; · iexact Hx1
    isplitl [HF0]; · iexact HF0
    isplitl [HF1]; · iexact HF1
    isplitl [HP0]; · iexact HP0
    isplitl [HP1]; · iexact HP1
    iexists (insert (SemLoc.dma cc1_scratch6.sem, (default : HIx 1)) W0); isplitr
    · ipureintro; intro p hp
      rcases Finset.mem_insert.mp hp with hp | hp
      · exact .inr (by subst hp; rfl)
      · exact hW0 p hp
    · iexact HO
  iintro %a1 HI
  ihave HI := (Entails.of_eq (congrArg (fun n => rowInv1 d L FT FX1 O W n a1) trips_t4)) $$ HI
  unfold rowInv1
  icases HI with ⟨-, Htv, Hx1, HF0, HF1, HP0, HP1, %W1, %hW1, HO⟩
  sl_exec

  -- stage 2
  generalize hFX2 : View.write (Elt F) (xs0W).view _ _ Finset.univ = FX2
  have hfx2 : XsOK FX2 := by
    rw [← hFX2, show ∀ f g, View.write (Elt F) (xs0W).view f g Finset.univ = g from fun f g => View.write_whole_univ _ f g]
    intro j; exact xtv_lt m d hx _
  clear hFX2
  try sl_rw [Prog.bind_assoc]
  sl_for (rowInv2 d L FT FX2 O W) $$ [Htv Hx0 HF0 HF1 HP0 HP1 HO]
  case region => intro k acc; exact row_t7 d L _ FT FX2 hfx2 O W k acc
  · unfold rowInv2
    isplitr; · iexact Hmw
    isplitl [Htv]; · iexact Htv
    isplitl [Hx0]; · iexact Hx0
    isplitl [HF0]; · iexact HF0
    isplitl [HF1]; · iexact HF1
    isplitl [HP0]; · iexact HP0
    isplitl [HP1]; · iexact HP1
    iexists (insert (SemLoc.dma cc1_scratch5.sem, (default : HIx 1)) W1); isplitr
    · ipureintro; intro p hp
      rcases Finset.mem_insert.mp hp with hp | hp
      · exact .inr (by subst hp; rfl)
      · exact hW1 p hp
    · iexact HO
  iintro %a2 HI
  ihave HI := (Entails.of_eq (congrArg (fun n => rowInv2 d L FT FX2 O W n a2) trips_t7)) $$ HI
  unfold rowInv2
  icases HI with ⟨-, Htv, Hx0, HF0, HF1, HP0, HP1, %W2, %hW2, HO⟩
  sl_exec

  -- stage 3
  generalize hFX3 : View.write (Elt F) (xs1W).view _ _ Finset.univ = FX3
  have hfx3 : XsOK FX3 := by
    rw [← hFX3, show ∀ f g, View.write (Elt F) (xs1W).view f g Finset.univ = g from fun f g => View.write_whole_univ _ f g]
    intro j; exact xtv_lt m d hx _
  clear hFX3
  try sl_rw [Prog.bind_assoc]
  sl_for (rowInv3 d L FT FX3 O W) $$ [Htv Hx1 HF0 HF1 HP0 HP1 HO]
  case region => intro k acc; exact row_t10 d L _ FT FX3 hfx3 O W k acc
  · unfold rowInv3
    isplitr; · iexact Hmw
    isplitl [Htv]; · iexact Htv
    isplitl [Hx1]; · iexact Hx1
    isplitl [HF0]; · iexact HF0
    isplitl [HF1]; · iexact HF1
    isplitl [HP0]; · iexact HP0
    isplitl [HP1]; · iexact HP1
    iexists (insert (SemLoc.dma cc1_scratch6.sem, (default : HIx 1)) W2); isplitr
    · ipureintro; intro p hp
      rcases Finset.mem_insert.mp hp with hp | hp
      · exact .inr (by subst hp; rfl)
      · exact hW2 p hp
    · iexact HO
  iintro %a3 HI
  ihave HI := (Entails.of_eq (congrArg (fun n => rowInv3 d L FT FX3 O W n a3) trips_t10)) $$ HI
  unfold rowInv3
  icases HI with ⟨-, Htv, Hx1, HF0, HF1, HP0, HP1, %W3, %hW3, HO⟩
  sl_exec

  -- stage 4
  generalize hFX4 : View.write (Elt F) (xs0W).view _ _ Finset.univ = FX4
  have hfx4 : XsOK FX4 := by
    rw [← hFX4, show ∀ f g, View.write (Elt F) (xs0W).view f g Finset.univ = g from fun f g => View.write_whole_univ _ f g]
    intro j; exact xtv_lt m d hx _
  clear hFX4
  try sl_rw [Prog.bind_assoc]
  sl_for (rowInv4 d L FT FX4 O W) $$ [Htv Hx0 HF0 HF1 HP0 HP1 HO]
  case region => intro k acc; exact row_t13 d L _ FT FX4 hfx4 O W k acc
  · unfold rowInv4
    isplitr; · iexact Hmw
    isplitl [Htv]; · iexact Htv
    isplitl [Hx0]; · iexact Hx0
    isplitl [HF0]; · iexact HF0
    isplitl [HF1]; · iexact HF1
    isplitl [HP0]; · iexact HP0
    isplitl [HP1]; · iexact HP1
    iexists (insert (SemLoc.dma cc1_scratch5.sem, (default : HIx 1)) W3); isplitr
    · ipureintro; intro p hp
      rcases Finset.mem_insert.mp hp with hp | hp
      · exact .inr (by subst hp; rfl)
      · exact hW3 p hp
    · iexact HO
  iintro %a4 HI
  ihave HI := (Entails.of_eq (congrArg (fun n => rowInv4 d L FT FX4 O W n a4) trips_t13)) $$ HI
  unfold rowInv4
  icases HI with ⟨-, Htv, Hx0, HF0, HF1, HP0, HP1, %W4, %hW4, HO⟩
  unfold OutFlightAt0 OutFlightAt1 OutFlight0 OutFlight1
  icases HF0 with ⟨%q0, %hq0, %pp0, %fo0', HF0⟩
  icases HF1 with ⟨%q1, %hq1, %pp1, %fo1', HF1⟩
  sl_exec
  sl_step
  ihave Hl0 := (hq0 _) $$ HF0_dst
  ihave HA0 := (piecesK_split_mpr (F := F) d L 0 200 (by omega) (by omega)) $$ [HP0 Hl0]
  · isplitl [HP0]; · iexact HP0
    iexact Hl0
  ihave Hl1 := (hq1 _) $$ HF1_dst
  ihave HA1 := (piecesK_split_mpr (F := F) d L 1 200 (by omega) (by omega)) $$ [HP1 Hl1]
  · isplitl [HP1]; · iexact HP1
    iexact Hl1
  ihave Ho0 := (Entails.of_eq (pts_oc0 (F := F) d L _)) $$ HF0_src
  ihave Ho1 := (Entails.of_eq (pts_oc1 (F := F) d L _)) $$ HF1_src
  unfold topPost
  isplitl [Htw]; · iexact Htw
  isplitl [Hxw0]; · iexact Hxw0
  isplitl [Hxw1]; · iexact Hxw1
  isplitl [Htv]; · iexists _; iexact Htv
  isplitl [Hx0]; · iexists _; iexact Hx0
  isplitl [Hx1]; · iexists _; iexact Hx1
  isplitl [Ho0]; · iexists _; iexact Ho0
  isplitl [Ho1]; · iexists _; iexact Ho1
  isplitl [Hs5]; · iexact Hs5
  isplitl [Hs6]; · iexact Hs6
  isplitl [HF0]; · iexact HF0
  isplitl [HF1]; · iexact HF1
  isplitl [Hsc]; · iexact Hsc
  isplitl [HA0]; · iexact HA0
  isplitl [HA1]; · iexact HA1
  iexists (insert (SemLoc.dma cc1_scratch8.sem, (default : HIx 1)) (insert (SemLoc.dma cc1_scratch7.sem, (default : HIx 1)) W4)); isplitr
  · ipureintro; intro p hp
    rcases Finset.mem_insert.mp hp with hp | hp
    · exact .inr (by subst hp; rfl)
    rcases Finset.mem_insert.mp hp with hp | hp
    · exact .inr (by subst hp; rfl)
    · exact hW4 p hp
  · iexact HO

end Cert.Proof.KB

end
-- ==== Proof.KB.OwnV.lean ====
/-
  A vector subcore's own storage, opened: its scoped semaphore cells are the five DMA semaphores the task uses and
  the rest, all at 0; its own buffers are the five scratch buffers and the rest, each whole at some contents.
-/
import proofs.«203934_g28930899706482_cont_9to1_1937_23_alg».proof.Proof.KB.TileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The semaphore cells -/

/-- A scoped DMA semaphore of the subcore is one of its own cells. -/
theorem mem_ownCells_dma (d : Dev nD) (L : grid1.Coords) (s : DmaSem sig)
    (h : (SemLoc.dma s : SemLoc sig).isScoped .scVector = true) :
    ((thrV d L, SemLoc.dma s) : GSem nD τ sig) ∈ ownCells (thrV d L) :=
  (mem_ownCells (g := (thrV d L, SemLoc.dma s))).mpr ⟨rfl, h⟩

/-- Cells of different semaphores are different. -/
theorem cell_ne (d : Dev nD) (L : grid1.Coords) {s s' : DmaSem sig} (h : s ≠ s') :
    ((thrV d L, SemLoc.dma s) : GSem nD τ sig) ≠ (thrV d L, SemLoc.dma s') :=
  fun e => h (SemLoc.dma.inj (Prod.mk.inj e).2)

/-- The subcore's own cells other than the task's five DMA semaphores. -/
abbrev restCells (d : Dev nD) (L : grid1.Coords) : Finset (GSem nD τ sig) :=
  (((((ownCells (thrV d L)).erase (thrV d L, SemLoc.dma cc1_scratch5.sem)).erase (thrV d L, SemLoc.dma cc1_scratch6.sem)).erase
    (thrV d L, SemLoc.dma cc1_scratch7.sem)).erase (thrV d L, SemLoc.dma cc1_scratch8.sem)).erase (thrV d L, SemLoc.dma cc1_scoped0.sem)

theorem ownSems0_V (d : Dev nD) (L : grid1.Coords) :
    (ownSems0 (thrV d L) : sProp 𝕄)
      = iprop(semVal (thrV d L, SemLoc.dma cc1_scratch5.sem) 0 ∗ semVal (thrV d L, SemLoc.dma cc1_scratch6.sem) 0
          ∗ semVal (thrV d L, SemLoc.dma cc1_scratch7.sem) 0 ∗ semVal (thrV d L, SemLoc.dma cc1_scratch8.sem) 0
          ∗ semVal (thrV d L, SemLoc.dma cc1_scoped0.sem) 0 ∗ bigSep (restCells d L) fun g => semVal g 0) := by
  unfold SparseCore.Cfg.ownSems0
  have m5 := mem_ownCells_dma d L cc1_scratch5.sem (by decide)
  have m6 := mem_ownCells_dma d L cc1_scratch6.sem (by decide)
  have m7 := mem_ownCells_dma d L cc1_scratch7.sem (by decide)
  have m8 := mem_ownCells_dma d L cc1_scratch8.sem (by decide)
  have m0 := mem_ownCells_dma d L cc1_scoped0.sem (by decide)
  rw [SparseCore.bigSep_erase' m5,
    SparseCore.bigSep_erase' (Finset.mem_erase.mpr ⟨cell_ne d L (show cc1_scratch6.sem ≠ cc1_scratch5.sem by decide), m6⟩),
    SparseCore.bigSep_erase' (Finset.mem_erase.mpr ⟨cell_ne d L (show cc1_scratch7.sem ≠ cc1_scratch6.sem by decide),
      Finset.mem_erase.mpr ⟨cell_ne d L (show cc1_scratch7.sem ≠ cc1_scratch5.sem by decide), m7⟩⟩),
    SparseCore.bigSep_erase' (Finset.mem_erase.mpr ⟨cell_ne d L (show cc1_scratch8.sem ≠ cc1_scratch7.sem by decide),
      Finset.mem_erase.mpr ⟨cell_ne d L (show cc1_scratch8.sem ≠ cc1_scratch6.sem by decide),
        Finset.mem_erase.mpr ⟨cell_ne d L (show cc1_scratch8.sem ≠ cc1_scratch5.sem by decide), m8⟩⟩⟩),
    SparseCore.bigSep_erase' (Finset.mem_erase.mpr ⟨cell_ne d L (show cc1_scoped0.sem ≠ cc1_scratch8.sem by decide),
      Finset.mem_erase.mpr ⟨cell_ne d L (show cc1_scoped0.sem ≠ cc1_scratch7.sem by decide),
        Finset.mem_erase.mpr ⟨cell_ne d L (show cc1_scoped0.sem ≠ cc1_scratch6.sem by decide),
          Finset.mem_erase.mpr ⟨cell_ne d L (show cc1_scoped0.sem ≠ cc1_scratch5.sem by decide), m0⟩⟩⟩⟩)]

/-! ## The buffers -/

/-- Different references are different buffers of the subcore. -/
theorem devRef_ne (L : grid1.Coords) {r r' : Ref sig .scVector} (h : r ≠ r') :
    (Proc.scVector (cV L) (jV L)).devRef r ≠ (Proc.scVector (cV L) (jV L)).devRef r' :=
  fun e => h (Proc.devRef_injective _ e)

/-- The subcore's own buffers other than the task's five scratch buffers. -/
abbrev restRefs (L : grid1.Coords) : Finset (DevRef τ sig) :=
  (((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)).erase ((Proc.scVector (cV L) (jV L)).devRef cc1_scratch4)

theorem ownBufs_V (d : Dev nD) (L : grid1.Coords) :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep (restRefs L) fun b => iprop(∃ f, ((d, b) : Loc nD τ sig) ↦{fullShare} f)) := by
  unfold SparseCore.Cfg.ownBufs
  have b0 := SparseCore.Cfg.mem_ownRefs_of_owner (p := Proc.scVector (cV L) (jV L)) (b := (Proc.scVector (cV L) (jV L)).devRef (sig := sig) cc1_scratch0) rfl
  have b1 := SparseCore.Cfg.mem_ownRefs_of_owner (p := Proc.scVector (cV L) (jV L)) (b := (Proc.scVector (cV L) (jV L)).devRef (sig := sig) cc1_scratch1) rfl
  have b2 := SparseCore.Cfg.mem_ownRefs_of_owner (p := Proc.scVector (cV L) (jV L)) (b := (Proc.scVector (cV L) (jV L)).devRef (sig := sig) cc1_scratch2) rfl
  have b3 := SparseCore.Cfg.mem_ownRefs_of_owner (p := Proc.scVector (cV L) (jV L)) (b := (Proc.scVector (cV L) (jV L)).devRef (sig := sig) cc1_scratch3) rfl
  have b4 := SparseCore.Cfg.mem_ownRefs_of_owner (p := Proc.scVector (cV L) (jV L)) (b := (Proc.scVector (cV L) (jV L)).devRef (sig := sig) cc1_scratch4) rfl
  refine (SparseCore.bigSep_erase' b0).trans ?_
  rw [SparseCore.bigSep_erase' (Finset.mem_erase.mpr ⟨devRef_ne L (show (cc1_scratch1 : Ref sig .scVector) ≠ cc1_scratch0 by decide),
      b1⟩),
    SparseCore.bigSep_erase' (Finset.mem_erase.mpr ⟨devRef_ne L (show (cc1_scratch2 : Ref sig .scVector) ≠ cc1_scratch1 by decide),
      Finset.mem_erase.mpr ⟨devRef_ne L (show (cc1_scratch2 : Ref sig .scVector) ≠ cc1_scratch0 by decide), b2⟩⟩),
    SparseCore.bigSep_erase' (Finset.mem_erase.mpr ⟨devRef_ne L (show (cc1_scratch3 : Ref sig .scVector) ≠ cc1_scratch2 by decide),
      Finset.mem_erase.mpr ⟨devRef_ne L (show (cc1_scratch3 : Ref sig .scVector) ≠ cc1_scratch1 by decide),
        Finset.mem_erase.mpr ⟨devRef_ne L (show (cc1_scratch3 : Ref sig .scVector) ≠ cc1_scratch0 by decide), b3⟩⟩⟩),
    SparseCore.bigSep_erase' (Finset.mem_erase.mpr ⟨devRef_ne L (show (cc1_scratch4 : Ref sig .scVector) ≠ cc1_scratch3 by decide),
      Finset.mem_erase.mpr ⟨devRef_ne L (show (cc1_scratch4 : Ref sig .scVector) ≠ cc1_scratch2 by decide),
        Finset.mem_erase.mpr ⟨devRef_ne L (show (cc1_scratch4 : Ref sig .scVector) ≠ cc1_scratch1 by decide),
          Finset.mem_erase.mpr ⟨devRef_ne L (show (cc1_scratch4 : Ref sig .scVector) ≠ cc1_scratch0 by decide), b4⟩⟩⟩⟩)]

end Cert.Proof.KB

end
-- ==== Proof.KB.PiecesLemmas.lean ====
/-
  How the array out_t splits. The block of one vector subcore is the disjoint union of its 400 pieces; the block of
  one SparseCore is the disjoint union of its sixteen subcores' blocks; the whole array is the disjoint union of the
  two SparseCores' blocks. Each fact is stated for the points-to assertions over those element sets.
-/
import proofs.«203934_g28930899706482_cont_9to1_1937_23_alg».proof.Proof.KB.PiecesKLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## A subcore's block is the disjoint union of its pieces -/

theorem forall_axis3 {P : Fin 3 → Prop} : (∀ a, P a) ↔ P 0 ∧ P 1 ∧ P 2 := by
  constructor
  · intro h; exact ⟨h 0, h 1, h 2⟩
  · rintro ⟨h0, h1, h2⟩ a
    fin_cases a
    · exact h0
    · exact h1
    · exact h2

/-- Piece (i1, k): row i1, batch columns [col0 + 256 k, col0 + 256 k + 256). -/
theorem mem_pset {L : grid1.Coords} {i1 : Fin 200} {k : Fin 2} {j : S200x32x16384.Idx} :
    j ∈ pset L i1 k ↔ (j 0).val = i1.val ∧ col0 L + 256 * k.val ≤ (j 2).val ∧ (j 2).val < col0 L + 256 * k.val + 256 := by
  have h1 : (j 1).val < 32 := (j 1).isLt
  unfold pset
  refine Rect.mem_set_unit.trans (forall_axis3.trans ?_)
  simp
  omega

/-- The block: batch columns [col0, col0 + 512). -/
theorem mem_tset {L : grid1.Coords} {j : S200x32x16384.Idx} :
    j ∈ tset L ↔ col0 L ≤ (j 2).val ∧ (j 2).val < col0 L + 512 := by
  have h0 : (j 0).val < 200 := (j 0).isLt
  have h1 : (j 1).val < 32 := (j 1).isLt
  unfold tset
  refine Rect.mem_set_unit.trans (forall_axis3.trans ?_)
  simp
  omega

/-- Two different pieces differ in their row or, in one row, in their half of the block's columns. -/
theorem pieces_disjoint (L : grid1.Coords) :
    ∀ p ∈ (Finset.univ : Finset (Fin 200 × Fin 2)), ∀ p' ∈ (Finset.univ : Finset (Fin 200 × Fin 2)), p ≠ p' →
      Disjoint (pset L p.1 p.2) (pset L p'.1 p'.2) := by
  intro p _ p' _ hne
  rw [Finset.disjoint_left]
  intro j hj hj'
  rw [mem_pset] at hj hj'
  have hk := p.2.isLt
  have hk' := p'.2.isLt
  exact hne (Prod.ext (Fin.ext (by omega)) (Fin.ext (by omega)))

/-- Every element of the block lies in the piece of its row and of its half of the columns. -/
theorem pieces_cover (L : grid1.Coords) :
    (Finset.univ : Finset (Fin 200 × Fin 2)).biUnion (fun p => pset L p.1 p.2) = tset L := by
  ext j
  rw [Finset.mem_biUnion, mem_tset]
  constructor
  · rintro ⟨p, -, hp⟩
    rw [mem_pset] at hp
    have hk := p.2.isLt
    omega
  · intro h
    have h0 : (j 0).val < 200 := (j 0).isLt
    refine ⟨(⟨(j 0).val, h0⟩, ⟨((j 2).val - col0 L) / 256, by omega⟩), Finset.mem_univ _, ?_⟩
    rw [mem_pset]
    show (j 0).val = (j 0).val ∧ col0 L + 256 * (((j 2).val - col0 L) / 256) ≤ (j 2).val
      ∧ (j 2).val < col0 L + 256 * (((j 2).val - col0 L) / 256) + 256
    omega

/-- The block held at f is its 400 pieces held at f. -/
theorem tile_pts_eq (d : Dev nD) (L : grid1.Coords) (f : Buf (Elt F) (oLoc d)) :
    (oLoc d ↦[tset L]{fullShare} f : sProp 𝕄)
      = bigSep (Finset.univ : Finset (Fin 200 × Fin 2)) fun p => oLoc d ↦[pset L p.1 p.2]{fullShare} f := by
  rw [← pointsTo_biUnion Finset.univ (ℓ := oLoc d) (fun p : Fin 200 × Fin 2 => pset L p.1 p.2) (pieces_disjoint L), pieces_cover]

theorem P1_intro (d : Dev nD) (L : grid1.Coords) (p : Fin 200 × Fin 2) (f : Buf (Elt F) (oLoc d)) :
    (oLoc d ↦[pset L p.1 p.2]{fullShare} f : sProp 𝕄) ⊢ P1 d L p := by
  unfold P1
  iintro H; iexists f; iexact H

theorem tile_split (d : Dev nD) (L : grid1.Coords) (f : Buf (Elt F) (oLoc d)) :
    (oLoc d ↦[tset L]{fullShare} f : sProp 𝕄) ⊢ AllPieces d L := by
  rw [tile_pts_eq]
  unfold AllPieces
  exact bigSep_mono fun p _ => P1_intro d L p f

theorem tile_join_at (d : Dev nD) (L : grid1.Coords) (g : Buf (Elt F) (oLoc d)) :
    (bigSep (Finset.univ : Finset (Fin 200 × Fin 2)) fun p => (oLoc d ↦[pset L p.1 p.2]{fullShare} g : sProp 𝕄))
      ⊢ oLoc d ↦[tset L]{fullShare} g := by
  rw [tile_pts_eq]

theorem tile_join [FloatOps F] (d : Dev nD) (L : grid1.Coords) :
    AllPieces (F := F) d L ⊢ iprop(∃ f, oLoc d ↦[tset L]{fullShare} f) := by
  refine (bigSep_exists_pi Finset.univ
    (fun (p : Fin 200 × Fin 2) (f : Buf (Elt F) (oLoc d)) => (oLoc d ↦[pset L p.1 p.2]{fullShare} f : sProp 𝕄))).trans ?_
  iintro ⟨%fs, H⟩
  ihave H' := (pointsTo_biUnion_join Finset.univ (fun p : Fin 200 × Fin 2 => pset L p.1 p.2) fs (fs (0, 0)) (pieces_disjoint L)) $$ H
  icases H' with ⟨%g, -, Hg⟩
  rw [pieces_cover]
  iexists g; iexact Hg

/-! ## A SparseCore's block is the disjoint union of its subcores' blocks, and the array that of the two SparseCores' blocks -/

theorem col0_coordsV (c : Fin (grid1.bound 0)) (i : Fin (grid1.bound 1)) :
    col0 (coordsV c i) = 1024 * i.val + 512 * c.val := rfl

/-- The blocks of two subcores of one SparseCore start 1024 or more columns apart. -/
theorem tsets_disjoint (c : Fin (grid1.bound 0)) :
    ∀ i ∈ (Finset.univ : Finset (Fin (grid1.bound 1))), ∀ i' ∈ (Finset.univ : Finset (Fin (grid1.bound 1))), i ≠ i' →
      Disjoint (tset (coordsV c i)) (tset (coordsV c i')) := by
  intro i _ i' _ hne
  rw [Finset.disjoint_left]
  intro j hj hj'
  rw [mem_tset, col0_coordsV] at hj hj'
  exact hne (Fin.ext (by omega))

theorem core_split_eq (d : Dev nD) (c : Fin (grid1.bound 0)) (f : Buf (Elt F) (oLoc d)) :
    (oLoc d ↦[cset c]{fullShare} f : sProp 𝕄)
      = bigSep Finset.univ fun i : Fin (grid1.bound 1) => oLoc d ↦[tset (coordsV c i)]{fullShare} f := by
  unfold cset
  exact pointsTo_biUnion Finset.univ (ℓ := oLoc d) (fun i : Fin (grid1.bound 1) => tset (coordsV c i)) (tsets_disjoint c)

theorem core_split (d : Dev nD) (c : Fin (grid1.bound 0)) (f : Buf (Elt F) (oLoc d)) :
    (oLoc d ↦[cset c]{fullShare} f : sProp 𝕄)
      ⊣⊢ bigSep Finset.univ fun i : Fin (grid1.bound 1) => oLoc d ↦[tset (coordsV c i)]{fullShare} f := by
  rw [core_split_eq]

/-- SparseCore c holds the batch columns whose 512-column group has parity c. -/
theorem mem_cset {c : Fin (grid1.bound 0)} {j : S200x32x16384.Idx} : j ∈ cset c ↔ (j 2).val / 512 % 2 = c.val := by
  have hc : c.val < 2 := c.isLt
  have h2 : (j 2).val < 16384 := (j 2).isLt
  unfold cset
  rw [Finset.mem_biUnion]
  constructor
  · rintro ⟨i, -, hi⟩
    rw [mem_tset, col0_coordsV] at hi
    omega
  · intro h
    have hb : (j 2).val / 1024 < grid1.bound 1 := by show _ < 16; omega
    refine ⟨⟨(j 2).val / 1024, hb⟩, Finset.mem_univ _, ?_⟩
    rw [mem_tset, col0_coordsV]
    show 1024 * ((j 2).val / 1024) + 512 * c.val ≤ (j 2).val ∧ (j 2).val < 1024 * ((j 2).val / 1024) + 512 * c.val + 512
    omega

theorem csets_disjoint :
    ∀ c ∈ (Finset.univ : Finset (Fin (grid1.bound 0))), ∀ c' ∈ (Finset.univ : Finset (Fin (grid1.bound 0))), c ≠ c' →
      Disjoint (cset c) (cset c') := by
  intro c _ c' _ hne
  rw [Finset.disjoint_left]
  intro j hj hj'
  rw [mem_cset] at hj hj'
  exact hne (Fin.ext (by omega))

theorem csets_cover : (Finset.univ : Finset (Fin (grid1.bound 0))).biUnion cset = Finset.univ := by
  ext j
  simp only [Finset.mem_biUnion, Finset.mem_univ, true_and, iff_true]
  have hb : (j 2).val / 512 % 2 < grid1.bound 0 := by show _ < 2; omega
  exact ⟨⟨(j 2).val / 512 % 2, hb⟩, mem_cset.mpr rfl⟩

theorem whole_split_eq (d : Dev nD) (f : Buf (Elt F) (oLoc d)) :
    (oLoc d ↦{fullShare} f : sProp 𝕄) = bigSep Finset.univ fun c : Fin (grid1.bound 0) => oLoc d ↦[cset c]{fullShare} f := by
  rw [← pointsTo_biUnion Finset.univ (ℓ := oLoc d) cset csets_disjoint, csets_cover]; try rfl

theorem whole_split (d : Dev nD) (f : Buf (Elt F) (oLoc d)) :
    (oLoc d ↦{fullShare} f : sProp 𝕄) ⊣⊢ bigSep Finset.univ fun c : Fin (grid1.bound 0) => oLoc d ↦[cset c]{fullShare} f := by
  rw [whole_split_eq]

end Cert.Proof.KB

end
-- ==== Proof.KB.TileObl.lean ====
/-
  The vector subcore's task as the launch theorem asks for it. What the launch hands the subcore — its read shares
  of the flattened table and of the transposed indices, its block of out_t, its scoped buffers and semaphores — is
  regrouped into what the task's body runs from: two read tokens of the index share are split off for the two staged
  index fetches, the five scratch buffers and five DMA semaphores are taken out of the subcore's own, and the block is
  cut into its pieces, slot by slot. What the body leaves is regrouped back the same way.
-/
import proofs.«203934_g28930899706482_cont_9to1_1937_23_alg».proof.Proof.KB.TileRes
import proofs.«203934_g28930899706482_cont_9to1_1937_23_alg».proof.Proof.KB.OwnV
import proofs.«203934_g28930899706482_cont_9to1_1937_23_alg».proof.Proof.KB.PiecesLemmas
import proofs.«203934_g28930899706482_cont_9to1_1937_23_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

variable (m : (ℓ : Loc nD τ sig) → Buf (Elt F) ℓ)

/-! ## Four read tokens of a share -/

omit [FloatOps F] in
/-- A points-to at q is what remains after four read tokens are split off, and the four tokens. -/
theorem pts_toks4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTok q 7 2} f) ∗ (ℓ ↦{Transfers.shareTok q 7 3} f)) := by
  have hs : ∀ k, (ℓ ↦{Transfers.shareDrop q k} f : sProp 𝕄)
      ⊣⊢ iprop((ℓ ↦{Transfers.shareDrop q (k + 1)} f) ∗ ℓ ↦{Transfers.shareTokN q k} f) :=
    fun k => pointsTo_share (PosShare.mem_left_op_right _)
  have h0 : (ℓ ↦{q} f : sProp 𝕄) ⊣⊢ iprop((ℓ ↦{Transfers.shareDrop q 1} f) ∗ ℓ ↦{Transfers.shareTokN q 0} f) := hs 0
  have h1 : (ℓ ↦{Transfers.shareDrop q 1} f : sProp 𝕄)
      ⊣⊢ iprop((ℓ ↦{Transfers.shareDrop q 2} f) ∗ ℓ ↦{Transfers.shareTokN q 1} f) := hs 1
  have h2 : (ℓ ↦{Transfers.shareDrop q 2} f : sProp 𝕄)
      ⊣⊢ iprop((ℓ ↦{Transfers.shareDrop q 3} f) ∗ ℓ ↦{Transfers.shareTok q 7 2} f) := hs 2
  have h3 : (ℓ ↦{Transfers.shareDrop q 3} f : sProp 𝕄)
      ⊣⊢ iprop((ℓ ↦{Transfers.shareDrop q 4} f) ∗ ℓ ↦{Transfers.shareTok q 7 3} f) := hs 3
  constructor
  · iintro H
    ihave H := (h0.1) $$ H
    icases H with ⟨H, T0⟩
    ihave H := (h1.1) $$ H
    icases H with ⟨H, T1⟩
    ihave H := (h2.1) $$ H
    icases H with ⟨H, T2⟩
    ihave H := (h3.1) $$ H
    icases H with ⟨H, T3⟩
    isplitl [H]; · iexact H
    isplitl [T0]; · iexact T0
    isplitl [T1]; · iexact T1
    isplitl [T2]; · iexact T2
    iexact T3
  · iintro ⟨H, T0, T1, T2, T3⟩
    ihave H := (h3.2) $$ [H T3]
    · isplitl [H]; · iexact H
      iexact T3
    ihave H := (h2.2) $$ [H T2]
    · isplitl [H]; · iexact H
      iexact T2
    ihave H := (h1.2) $$ [H T1]
    · isplitl [H]; · iexact H
      iexact T1
    ihave H := (h0.2) $$ [H T0]
    · isplitl [H]; · iexact H
      iexact T0
    iexact H

/-! ## The launch theorem's obligation -/

theorem defs₀_vector (c : Fin τ.nSC) (s : Fin τ.nSub) :
    defs₀ (F := F) (.scVector c s) 1 ⟨⟩
      = SparseCore.onTile hcore1 hsub1 (fun c s => cc1__gather_t (coordsV c s)
          tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task from what the launch hands the subcore, given the body from its own spelling of it. -/
theorem tile_wrap
    (hrun : ∀ (d : Dev nD) (L : grid1.Coords) (qT : PosShare TreeShare) (O : CellTallies nD τ sig (HIx 1)) (W : Waits sig (HIx 1)),
      (∀ g, O g none = 0) → XOK m d →
      (topRes m d L qT O W ⊢ wp frame (wpE (defs₀ (F := F)) 𝒱₀ (thrV d L) none) Set.univ
        (cc1__gather_t L tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) (fun _ => topPost m d L qT O W)))
    (hx : ∀ d, XOK m d) (d : Dev nD) (c : Fin (grid1.bound 0)) (i : Fin (grid1.bound 1))
    (O : CellTallies nD τ sig (HIx 1)) (W : Waits sig (HIx 1)) (hO : ∀ g, O g none = 0) :
    iprop(levAts (K (F := F)).L (K (F := F)).lev ∗ emp ∗ tileRes m d c i
        ∗ scopedBufs (thrV d (coordsV c i)) ∗ scopedSems0 (thrV d (coordsV c i)) ∗ owes (thrV d (coordsV c i)) O W)
      ⊢ wp frame (wpE (defs₀ (F := F)) 𝒱₀ (thrV d (coordsV c i)) none) Set.univ
          (cc1__gather_t (coordsV c i) tW (Memref.isWhole_whole _) xW (Memref.isWhole_whole _) oW (Memref.isWhole_whole _)
            tvW (Memref.isWhole_whole _) xs0W (Memref.isWhole_whole _) xs1W (Memref.isWhole_whole _)
            oc0W (Memref.isWhole_whole _) oc1W (Memref.isWhole_whole _)
            cc1_scratch5 cc1_scratch6 cc1_scratch7 cc1_scratch8 cc1_scoped0)
          fun _ => iprop(tileRes m d c i ∗ scopedBufs (thrV d (coordsV c i)) ∗ scopedSems0 (thrV d (coordsV c i))
            ∗ ∃ W', ⌜∀ p ∈ W', p ∈ W ∨ p.2 = none⌝ ∗ owes (thrV d (coordsV c i)) O W') := by
  rw [(K (F := F)).scopedBufs_V facts d (cV (coordsV c i)) (jV (coordsV c i)),
    SparseCore.Cfg.scopedSems0_V (Val := Elt F) d (cV (coordsV c i)) (jV (coordsV c i)), ownSems0_V, ownBufs_V]
  unfold tileRes
  iintro ⟨#Hlv, -, ⟨Hfl, Hxt, ⟨%fo, Ho⟩⟩, ⟨Hb0, Hb1, Hb2, Hb3, Hb4, Hbufs⟩, ⟨Hs5, Hs6, Hs7, Hs8, Hs0, Hsems⟩, HO⟩
  ihave Hx := (pts_toks4 (F := F) (qTile c i) (XTv m d)).1 $$ Hxt
  icases Hx with ⟨Hxd, Hx0, Hx1, Hx2, Hx3⟩
  ihave Hall := (tile_split (F := F) d (coordsV c i) fo) $$ Ho
  ihave Hall2 := (all_slots (F := F) d (coordsV c i)).1 $$ Hall
  icases Hall2 with ⟨HA0, HA1⟩
  iapply (wp_wand_r frame _ _)
  isplitl [Hfl Hx2 Hx3 Hb0 Hb1 Hb2 Hb3 Hb4 Hs5 Hs6 Hs7 Hs8 Hs0 HA0 HA1 HO]
  · iapply (hrun d (coordsV c i) (qTile c i) O W hO (hx d))
    unfold topRes
    isplitr; · iexact Hlv
    isplitl [Hfl]; · iexact Hfl
    isplitl [Hx2]; · iexact Hx2
    isplitl [Hx3]; · iexact Hx3
    isplitl [Hb0]; · iexact Hb0
    isplitl [Hb1]; · iexact Hb1
    isplitl [Hb2]; · iexact Hb2
    isplitl [Hb3]; · iexact Hb3
    isplitl [Hb4]; · iexact Hb4
    isplitl [Hs5]; · iexact Hs5
    isplitl [Hs6]; · iexact Hs6
    isplitl [Hs7]; · iexact Hs7
    isplitl [Hs8]; · iexact Hs8
    isplitl [Hs0]; · iexact Hs0
    isplitl [HA0]; · iexact HA0
    isplitl [HA1]; · iexact HA1
    iexact HO
  · iintro %a Hpost
    unfold topPost
    icases Hpost with ⟨Hfl, Hx2, Hx3, Hb0, Hb1, Hb2, Hb3, Hb4, Hs5, Hs6, Hs7, Hs8, Hs0, HA0, HA1, HW⟩
    ihave Hxt := (pts_toks4 (F := F) (qTile c i) (XTv m d)).2 $$ [Hxd Hx0 Hx1 Hx2 Hx3]
    · isplitl [Hxd]; · iexact Hxd
      isplitl [Hx0]; · iexact Hx0
      isplitl [Hx1]; · iexact Hx1
      isplitl [Hx2]; · iexact Hx2
      iexact Hx3
    ihave Hall := (all_slots (F := F) d (coordsV c i)).2 $$ [HA0 HA1]
    · isplitl [HA0]; · iexact HA0
      iexact HA1
    ihave Ho := (tile_join (F := F) d (coordsV c i)) $$ Hall
    isplitl [Hfl Hxt Ho]
    · isplitl [Hfl]; · iexact Hfl
      isplitl [Hxt]; · iexact Hxt
      iexact Ho
    isplitl [Hb0 Hb1 Hb2 Hb3 Hb4 Hbufs]
    · isplitl [Hb0]; · iexact Hb0
      isplitl [Hb1]; · iexact Hb1
      isplitl [Hb2]; · iexact Hb2
      isplitl [Hb3]; · iexact Hb3
      isplitl [Hb4]; · iexact Hb4
      iexact Hbufs
    isplitl [Hs5 Hs6 Hs7 Hs8 Hs0 Hsems]
    · isplitl [Hs5]; · iexact Hs5
      isplitl [Hs6]; · iexact Hs6
      isplitl [Hs7]; · iexact Hs7
      isplitl [Hs8]; · iexact Hs8
      isplitl [Hs0]; · iexact Hs0
      iexact Hsems
    iexact HW

theorem tileObl
    (hrun : ∀ (d : Dev nD) (L : grid1.Coords) (qT : PosShare TreeShare) (O : CellTallies nD τ sig (HIx 1)) (W : Waits sig (HIx 1)),
      (∀ g, O g none = 0) → XOK m d →
      (topRes m d L qT O W ⊢ wp frame (wpE (defs₀ (F := F)) 𝒱₀ (thrV d L) none) Set.univ
        (cc1__gather_t L tW (Memref.isWhole_whole _) xW (Memref.isWhole_whole _) oW (Memref.isWhole_whole _)
          tvW (Memref.isWhole_whole _) xs0W (Memref.isWhole_whole _) xs1W (Memref.isWhole_whole _)
          oc0W (Memref.isWhole_whole _) oc1W (Memref.isWhole_whole _)
          cc1_scratch5 cc1_scratch6 cc1_scratch7 cc1_scratch8 cc1_scoped0) (fun _ => topPost m d L qT O W)))
    (hx : ∀ d, XOK m d) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_wrap m hrun hx d ⟨_, hc.1⟩ ⟨_, hc.2⟩ O W hO).trans (wp_mono frame _ _ fun _ => obl_post)

end Cert.Proof.KB

end
-- ==== Proof.KB.VecSplit.lean ====
/-
  How one SparseCore's share of the call's operands splits among its sixteen vector subcores, and how the results
  gather. The two arrays every subcore reads whole, the transposed indices and the flattened table, are held by the
  SparseCore at a read share; that share is cut into sixteen tokens, one per subcore, and a remainder the SparseCore
  keeps until the tokens come back. Its block of out_t is by definition the union of its subcores' blocks, which are
  pairwise disjoint (they are different ranges of batch columns), so the points-to assertion over it is the separating
  conjunction of theirs; coming back, each at whatever its subcore wrote, they join into one array's contents over the
  union.
-/
import proofs.«203934_g28930899706482_cont_9to1_1937_23_alg».proof.Proof.KB.Pay
import proofs.«203934_g28930899706482_cont_9to1_1937_23_alg».proof.Proof.KB.PiecesLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ)

omit [FloatOps F] in
/-- A conjunction over the call's tasks of one SparseCore is one over the grid's second axis. -/
theorem bigSep_tasks (Φ : Fin (grid1.bound 1) → sProp 𝕄) :
    (bigSep Finset.univ fun i : Fin ((K (F := F)).nSub 0) => Φ (Fin.cast nSub_bound i)) = bigSep Finset.univ Φ :=
  bigSep_congr fun _ _ => congrArg Φ (Fin.ext rfl)

omit [FloatOps F] in
/-- Blocks held at one array's contents are blocks held at some contents. -/
theorem oTiles_some (d : Dev nD) (c : Fin (grid1.bound 0)) (f : Buf (Elt F) (oLoc d)) :
    (bigSep Finset.univ fun i : Fin (grid1.bound 1) => (oLoc d ↦[tset (coordsV c i)]{fullShare} f : sProp 𝕄))
      ⊢ (bigSep Finset.univ fun i : Fin (grid1.bound 1) => iprop(∃ f, oLoc d ↦[tset (coordsV c i)]{fullShare} f) : sProp 𝕄) :=
  bigSep_mono fun i _ => exists_intro (Φ := fun g : Buf (Elt F) (oLoc d) => (oLoc d ↦[tset (coordsV c i)]{fullShare} g : sProp 𝕄)) f

set_option maxRecDepth 4096 in
/-- The subcores' blocks, each at some contents, are the SparseCore's block at some contents. -/
theorem oTiles_join (d : Dev nD) (c : Fin (grid1.bound 0)) :
    (bigSep Finset.univ fun i : Fin (grid1.bound 1) => iprop(∃ f, oLoc d ↦[tset (coordsV c i)]{fullShare} f))
      ⊢ (iprop(∃ f, oLoc d ↦[cset c]{fullShare} f) : sProp 𝕄) := by
  refine (bigSep_exists_pi Finset.univ (fun (i : Fin (grid1.bound 1)) (f : Buf (Elt F) (oLoc d)) => oLoc d ↦[tset (coordsV c i)]{fullShare} f)).trans ?_
  iintro ⟨%fs, H⟩
  ihave H' := (pointsTo_biUnion_join Finset.univ (fun i : Fin (grid1.bound 1) => tset (coordsV c i)) fs (fs ⟨0, by decide⟩) (tsets_disjoint c)) $$ H
  icases H' with ⟨%g, -, Hg⟩
  iexists g
  unfold cset
  iexact Hg

/-- The split of SparseCore c's operands into its sixteen tasks' and the gathering of their results. -/
theorem vecSplit : (K (F := F)).VecSplit' (P m) 0 := by
  intro d c
  show coreRes m d (Fin.cast nCore_bound c) ⊢ |={Set.univ}=> iprop(
      (bigSep Finset.univ fun i : Fin ((K (F := F)).nSub 0) => tileRes m d (Fin.cast nCore_bound c) (Fin.cast nSub_bound i))
      ∗ ((bigSep Finset.univ fun i : Fin ((K (F := F)).nSub 0) => tileRes m d (Fin.cast nCore_bound c) (Fin.cast nSub_bound i))
          -∗ coreRes m d (Fin.cast nCore_bound c)))
  generalize Fin.cast nCore_bound c = c'
  rw [bigSep_tasks (F := F) (fun i => tileRes m d c' i)]
  unfold coreRes tileRes
  rw [bigSep_sep', bigSep_sep']
  iintro ⟨Hfl, Hxt, %f, Ho⟩
  ihave Hfl' := (Transfers.pointsTo_toks_split (qCore c') 16) $$ Hfl
  icases Hfl' with ⟨Hflr, Hfls⟩
  ihave Hxt' := (Transfers.pointsTo_toks_split (qCore c') 16) $$ Hxt
  icases Hxt' with ⟨Hxtr, Hxts⟩
  ihave Ho' := (Entails.of_eq (core_split_eq d c' f)) $$ Ho
  imodintro
  isplitl [Hfls Hxts Ho']
  · isplitl [Hfls]; · iexact Hfls
    isplitl [Hxts]; · iexact Hxts
    iapply (oTiles_some d c' f)
    iexact Ho'
  iintro ⟨Hfls, Hxts, Hos⟩
  isplitl [Hflr Hfls]
  · iapply (Transfers.pointsTo_toks_join (qCore c') 16)
    isplitl [Hflr]; · iexact Hflr
    iexact Hfls
  isplitl [Hxtr Hxts]
  · iapply (Transfers.pointsTo_toks_join (qCore c') 16)
    isplitl [Hxtr]; · iexact Hxtr
    iexact Hxts
  iapply (oTiles_join d c')
  iexact Hos

end Cert.Proof.KB

end
-- ==== Proof.KB.Main.lean ====
/-
  @main on the TensorCore. The program transposes the indices, runs the TensorCore kernel that scales and
  transposes the table, flattens the result, calls the SparseCore kernel and transposes its output. Each host
  operation runs over the two arrays it names, held whole; the SparseCore call is handed, per SparseCore, a read
  share of the transposed indices and of the flattened table and that SparseCore's block of out_t, and hands the
  blocks back at whatever the subcores wrote. The two arguments are never written: they end at their launch
  contents. The TensorCore kernel's region is stated here as an obligation and proved apart.
-/
import proofs.«203934_g28930899706482_cont_9to1_1937_23_alg».proof.Proof.KB.VecSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The arrays as device references, the host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The transposition of the indices, the flattening of the scaled table, the transposition of out_t. -/
abbrev opT0 : HloOp τ sig (Elt F) :=
  StableHlo.unary main_arg0 main_v0 ((transpose S200x16384 [1, 0] · transposes_S16384x200_S200x16384_1_0) : (⟨S16384x200, .i32⟩ : BufTy).Contents (Elt F) → (⟨S200x16384, .i32⟩ : BufTy).Contents (Elt F))
abbrev opR : HloOp τ sig (Elt F) := StableHlo.reshape main_v1 main_v2 rfl shapeCasts_S32x1000_S32000
abbrev opT1 : HloOp τ sig (Elt F) :=
  StableHlo.unary main_v3 main_v4 ((transpose S16384x200x32 [2, 0, 1] · transposes_S200x32x16384_S16384x200x32_2_0_1) : (⟨S200x32x16384, .f32⟩ : BufTy).Contents (Elt F) → (⟨S16384x200x32, .f32⟩ : BufTy).Contents (Elt F))

omit [FloatOps F] in
/-- Two arrays held whole. -/
theorem held_pair (d : Dev nD) {a y : DevRef τ sig} (h : a ≠ y) (W : Valuation τ sig (Elt F)) :
    (held (T d) {a, y} W : sProp 𝕄) = iprop(((d, a) ↦{fullShare} W a) ∗ ((d, y) ↦{fullShare} W y)) := by
  unfold held
  rw [SparseCore.bigSep_insert' (by simpa using h), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tbLoc d ↦{fullShare} W main_arg1) ∗ (xtLoc d ↦{fullShare} W main_v0)
      ∗ (tsLoc d ↦{fullShare} W main_v1) ∗ (flLoc d ↦{fullShare} W main_v2) ∗ (oLoc d ↦{fullShare} W main_v3) ∗ (resLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation of device d, and it with one array at other contents. -/
def V0 (d : Dev nD) : Valuation τ sig (Elt F) := fun b => m (d, b)
def V1 (d : Dev nD) (r : DevRef τ sig) (f : r.ty.Contents (Elt F)) : Valuation τ sig (Elt F) := Function.update (V0 m d) r f

theorem V1_self (d : Dev nD) (r : DevRef τ sig) (f : r.ty.Contents (Elt F)) : V1 m d r f r = f := Function.update_self _ _ _
theorem V1_ne (d : Dev nD) {r b : DevRef τ sig} (h : b ≠ r) (f : r.ty.Contents (Elt F)) : V1 m d r f b = m (d, b) :=
  Function.update_of_ne h _ _

/-! ## The SparseCore call's operands, per SparseCore -/

omit [FloatOps F] in
/-- A conjunction over the call's SparseCores is one over the grid's first axis. -/
theorem bigSep_cores (Φ : Fin (grid1.bound 0) → sProp 𝕄) :
    (bigSep Finset.univ fun c : Fin ((K (F := F)).nCore 0) => Φ (Fin.cast nCore_bound c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun c : Fin (grid1.bound 0) => coreRes m d c :=
  bigSep_cores (F := F) (fun c => coreRes m d c)
theorem dn0_eq (d : Dev nD) :
    (bigSep Finset.univ fun c : Fin ((K (F := F)).nCore 0) => (P m).dn 0 d c) = bigSep Finset.univ fun c : Fin (grid1.bound 0) => coreRes m d c :=
  bigSep_cores (F := F) (fun c => coreRes m d c)

omit [FloatOps F] in
/-- The whole of out_t at one array's contents is the SparseCores' blocks, each at some contents. -/
theorem oCores_some (d : Dev nD) (f : Buf (Elt F) (oLoc d)) :
    (oLoc d ↦{fullShare} f : sProp 𝕄) ⊢ bigSep Finset.univ fun c : Fin (grid1.bound 0) => iprop(∃ g, oLoc d ↦[cset c]{fullShare} g) := by
  rw [whole_split_eq]
  exact bigSep_mono fun c _ => exists_intro (Φ := fun g : Buf (Elt F) (oLoc d) => (oLoc d ↦[cset c]{fullShare} g : sProp 𝕄)) f

set_option maxRecDepth 4096 in
/-- The SparseCores' blocks, each at some contents, are the whole of out_t at some contents. -/
theorem oCores_join (d : Dev nD) :
    (bigSep Finset.univ fun c : Fin (grid1.bound 0) => iprop(∃ g, oLoc d ↦[cset c]{fullShare} g)) ⊢ (iprop(∃ g, oLoc d ↦{fullShare} g) : sProp 𝕄) := by
  refine (bigSep_exists_pi Finset.univ (fun (c : Fin (grid1.bound 0)) (g : Buf (Elt F) (oLoc d)) => oLoc d ↦[cset c]{fullShare} g)).trans ?_
  iintro ⟨%fs, H⟩
  ihave H' := (pointsTo_biUnion_join Finset.univ cset fs (fs ⟨0, by decide⟩) csets_disjoint) $$ H
  icases H' with ⟨%g, -, Hg⟩
  rw [csets_cover]
  iexists g
  iexact Hg

/-! ## The TensorCore kernel's region, as an obligation -/

/-- What @main leaves the claim: the two arguments at their launch contents. -/
abbrev FIN (d : Dev nD) : sProp 𝕄 := iprop((xLoc d ↦{fullShare} m (xLoc d)) ∗ (tbLoc d ↦{fullShare} m (tbLoc d)))

/-- The region of the TensorCore kernel: entered holding the TensorCore's handshake state, the region boundary, the
    table whole and the result array whole as launched (nothing writes it before), and what the launch set aside for it
    (G), it returns them with the result array at the scaled transposed table. -/
def RegionObl (G : Dev nD → sProp 𝕄) : Prop :=
  ∀ (κ : GSem nD τ sig → ℕ) (d : Dev nD) (Φ : PUnit → sProp 𝕄),
    iprop((K (F := F)).ctx EH (P m) κ ∗ (K (F := F)).tcSt EH d 0 ∗ boundary (T d) ∗ (tbLoc d ↦{fullShare} m (tbLoc d))
        ∗ (tsLoc d ↦{fullShare} m (tsLoc d)) ∗ G d
        ∗ (((K (F := F)).tcSt EH d 0 ∗ boundary (T d) ∗ (tbLoc d ↦{fullShare} m (tbLoc d)) ∗ (tsLoc d ↦{fullShare} TS (m (tbLoc d)))) -∗ Φ ⟨⟩))
      ⊢ wp frame (wpE ((K (F := F)).defs (D (F := F))) 𝒱 (SparseCore.T d) none) Set.univ
          (Prog.lift (.customCall (SparseCore.inner (Pipeline.entry 0)) ())) Φ

/-! ## The host operations' arrays, before and after -/

theorem held_T0_pre (d : Dev nD) :
    (held (T d) (opT0 (F := F)).bufs (V0 m d) : sProp 𝕄) = iprop((xLoc d ↦{fullShare} m (xLoc d)) ∗ (xtLoc d ↦{fullShare} m (xtLoc d))) :=
  held_pair d (show a0' ≠ v0' by decide) _

theorem held_T0_post (d : Dev nD) :
    (held (T d) (opT0 (F := F)).bufs ((opT0 (F := F)).result (V0 m d)) : sProp 𝕄)
      = iprop((xLoc d ↦{fullShare} m (xLoc d)) ∗ (xtLoc d ↦{fullShare} XTv m d)) := by
  rw [show (opT0 (F := F)).bufs = {a0', v0'} from rfl, held_pair d (show a0' ≠ v0' by decide),
    (opT0 (F := F)).result_of_not_mem (V0 m d) (b := a0') (show a0' ∉ ({v0'} : Finset (DevRef τ sig)) by decide),
    show (opT0 (F := F)).result (V0 m d) v0' = XTv m d from StableHlo.unary_result ..]
  rfl

theorem held_R_pre (d : Dev nD) (f : Buf (Elt F) (tsLoc d)) :
    (held (T d) (opR (F := F)).bufs (V1 m d v1' f) : sProp 𝕄) = iprop((tsLoc d ↦{fullShare} f) ∗ (flLoc d ↦{fullShare} m (flLoc d))) := by
  rw [show (opR (F := F)).bufs = {v1', v2'} from rfl, held_pair d (show v1' ≠ v2' by decide), V1_self, V1_ne m d (show v2' ≠ v1' by decide)]

theorem held_R_post (d : Dev nD) :
    (held (T d) (opR (F := F)).bufs ((opR (F := F)).result (V1 m d v1' (TS (m (tbLoc d))))) : sProp 𝕄)
      = iprop((tsLoc d ↦{fullShare} TS (m (tbLoc d))) ∗ (flLoc d ↦{fullShare} FLv m d)) := by
  rw [show (opR (F := F)).bufs = {v1', v2'} from rfl, held_pair d (show v1' ≠ v2' by decide),
    (opR (F := F)).result_of_not_mem (V1 m d v1' (TS (m (tbLoc d)))) (b := v1') (show v1' ∉ ({v2'} : Finset (DevRef τ sig)) by decide),
    V1_self,
    show (opR (F := F)).result (V1 m d v1' (TS (m (tbLoc d)))) v2' = FLv m d from by
      rw [StableHlo.reshape_result, V1_self]; rfl]

theorem held_T1_pre (d : Dev nD) (g : Buf (Elt F) (oLoc d)) :
    (held (T d) (opT1 (F := F)).bufs (V1 m d v3' g) : sProp 𝕄) = iprop((oLoc d ↦{fullShare} g) ∗ (resLoc d ↦{fullShare} m (resLoc d))) := by
  rw [show (opT1 (F := F)).bufs = {v3', v4'} from rfl, held_pair d (show v3' ≠ v4' by decide), V1_self, V1_ne m d (show v4' ≠ v3' by decide)]

/-- What the SparseCores hand back holds the whole of out_t at some contents. -/
theorem cores_back (d : Dev nD) :
    (bigSep Finset.univ fun c : Fin (grid1.bound 0) => coreRes m d c) ⊢ (iprop(∃ g, oLoc d ↦{fullShare} g) : sProp 𝕄) := by
  unfold coreRes
  rw [bigSep_sep', bigSep_sep']
  iintro ⟨-, -, Ho⟩
  iapply (oCores_join d)
  iexact Ho

/-! ## @main -/

/-- @main on device d's TensorCore, given the TensorCore kernel's region: the arguments end at their launch contents. -/
theorem hmain (G : Dev nD → sProp 𝕄) (hreg : RegionObl m G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Htb, Hxt, Hts, Hfl, Ho, Hres⟩, -, -⟩, HG⟩
  -- the transposition of the indices
  iapply (wp_hlo_within 𝒱 (SparseCore.T d) none Set.univ (op := opT0) (S := (opT0 (F := F)).bufs) (Finset.Subset.refl _) (V := V0 m d)) $$ [Hb Hx Hxt]
  · isplitl [Hb]; · iexact Hb
    rw [held_T0_pre]
    isplitl [Hx]; · iexact Hx
    iexact Hxt
  iintro ⟨Hb, Hh⟩
  ihave Hh' := (Entails.of_eq (held_T0_post m d)) $$ Hh
  icases Hh' with ⟨Hx, Hxt⟩
  rw [wp_ret]; imodintro
  -- the TensorCore kernel's region
  iapply (hreg κ d _) $$ [Hst Hb Htb Hts HG Hx Hxt Hfl Ho Hres]
  isplitr; · iexact Hctx
  isplitl [Hst]; · iexact Hst
  isplitl [Hb]; · iexact Hb
  isplitl [Htb]; · iexact Htb
  isplitl [Hts]; · iexact Hts
  isplitl [HG]; · iexact HG
  iintro ⟨Hst, Hb, Htb, Hts⟩
  -- the flattening
  iapply (wp_hlo_within 𝒱 (SparseCore.T d) none Set.univ (op := opR) (S := (opR (F := F)).bufs) (Finset.Subset.refl _) (V := V1 m d v1' (TS (m (tbLoc d))))) $$ [Hb Hts Hfl]
  · isplitl [Hb]; · iexact Hb
    rw [held_R_pre]
    isplitl [Hts]; · iexact Hts
    iexact Hfl
  iintro ⟨Hb, Hh⟩
  ihave Hh' := (Entails.of_eq (held_R_post m d)) $$ Hh
  icases Hh' with ⟨Hts, Hfl⟩
  rw [wp_ret]; imodintro
  -- the SparseCore call: a read share of the flattened table and of the transposed indices and its block of out_t to each SparseCore
  ihave Hfl' := (Transfers.pointsTo_toks_split fullShare 2) $$ Hfl
  icases Hfl' with ⟨Hflr, Hfls⟩
  ihave Hxt' := (Transfers.pointsTo_toks_split fullShare 2) $$ Hxt
  icases Hxt' with ⟨Hxtr, Hxts⟩
  ihave Ho' := (oCores_some d _) $$ Ho
  iapply ((K (F := F)).wp_run (D (F := F)) 𝒱 (EH := EH) (P := P m) κ d 0) $$ [Hst Hfls Hxts Ho' Hb Hx Htb Hres]
  isplitr; · iexact Hctx
  isplitl [Hst]; · iexact Hst
  isplitl [Hfls Hxts Ho']
  · rw [st0_eq]
    unfold coreRes
    rw [bigSep_sep', bigSep_sep']
    isplitl [Hfls]; · iexact Hfls
    isplitl [Hxts]; · iexact Hxts
    iexact Ho'
  iintro ⟨Hst, Hdn⟩
  ihave Hdn' := (Entails.of_eq (dn0_eq m d)) $$ Hdn
  ihave Ho := (cores_back m d) $$ Hdn'
  icases Ho with ⟨%g, Ho⟩
  -- the transposition of out_t
  iapply (wp_hlo_within 𝒱 (SparseCore.T d) none Set.univ (op := opT1) (S := (opT1 (F := F)).bufs) (Finset.Subset.refl _) (V := V1 m d v3' g)) $$ [Hb Ho Hres]
  · isplitl [Hb]; · iexact Hb
    rw [held_T1_pre]
    isplitl [Ho]; · iexact Ho
    iexact Hres
  iintro ⟨Hb, -⟩
  rw [wp_ret]; imodintro; imodintro
  isplitl [Hst]; · iexact Hst
  isplitl [Hx]; · iexact Hx
  iexact Htb

end Cert.Proof.KB

end
-- ==== Proof.KB.Region.lean ====
/-
  The TensorCore kernel's region. The kernel is a pipeline over one grid point with two whole-array windows: the
  table (fetched) and the result array (written back). Its body reads the table's block, and stores the scaled
  transpose of it over the whole result block. The region is run by the pipeline library's rule for a kernel
  region inside @main: the windows' layout is the generated one; the kernel has no semaphore of its own; the waits
  on the staging buffers' semaphores are recorded at the index that belongs to no SparseCore call, which sits at
  level 0, below everything the TensorCore owes (it owes only later calls' start signals); what the TensorCore owes
  and the bound on its recorded pairs pass through the region unchanged. The result array ends at what the pipeline
  computes from the proof data: the launch contents with the one point's block written back.
-/
import proofs.«203934_g28930899706482_cont_9to1_1937_23_alg».proof.Proof.KB.Main
import proofs.«203934_g28930899706482_cont_9to1_1937_23_alg».proof.Proof.Gen.Kernel.Launch
import proofs.«203934_g28930899706482_cont_9to1_1937_23_alg».proof.Proof.Gen.Kernel.Points
import Idealize.ShloMosaic.Lib.Pipeline.Regions
import Idealize.ShloMosaic.Lib.Pipeline.FrameBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ)

/-- The one pipeline's configuration as the library's rules take it: no prefetched table. -/
abbrev pcs : Fin 1 → Pipeline.PCfg sig Λ₀ (Elt F) := pcfgs (F := F)
abbrev adm : (p : Fin 1) → (pcs (F := F) p).Adm := fun p => (cfgs p).toPCfg_adm

/-- Device d's TensorCore arrays as the region finds them: as launched. -/
abbrev Vm (d : Dev nD) (b : Ref sig .tc) : Buf (Elt F) ((d : Thread nD τ).loc b) := m ((d : Thread nD τ).loc b)

/-- Window w's block at the one point, read off its array. -/
def iblk (d : Dev nD) (w : Fin cfg0.W) (t : Fin cfg0.N) : ((cfg0.win w).xblock (cfg0.grid.coords t)).Idx → Elt F (cfg0.win w).elt :=
  ((cfg0.win w).blk t).view.read (Elt F) (Vm m d (Pipeline.arrRef spec0 w))

variable [∀ e, Nonempty (Elt F e)]

/-! ## The kernel's body -/

/-- The whole of the table block, the whole of the result block, as the body's load and store name them. -/
abbrev wholeIn : Rect S1000x32 := Rect.unit (s := S1000x32) ![0, 0] S1000x32.size inb_S1000x32_S1000x32_0_0
abbrev wholeOut : Rect S32x1000 := Rect.unit (s := S32x1000) ![0, 0] S32x1000.size inb_S32x1000_S32x1000_0_0

/-- A rectangle that is the whole of its shape places an index at itself: offset 0, stride 1 on both axes. -/
theorem wholeIn_emb (x : wholeIn.shape.Idx) : wholeIn.emb x = x := by
  funext a; apply Fin.ext; rw [Rect.emb_apply]
  fin_cases a <;> simp [Rect.unit]
theorem wholeOut_emb (x : wholeOut.shape.Idx) : wholeOut.emb x = x := by
  funext a; apply Fin.ext; rw [Rect.emb_apply]
  fin_cases a <;> simp [Rect.unit]

set_option maxHeartbeats 1000000 in
/-- The TensorCore kernel's body on whole staging memrefs: it reads the table block x, reads the result buffer (a value
    nothing uses) and stores the scaled transpose of x over the whole result buffer; the table block stays. -/
theorem scale_body_runs (c : Dev nD) (E : Set ℕ) (arg0 : Memref sig .tc .vmem S1000x32 .f32) (harg0 : arg0.IsWhole)
    (arg1 : Memref sig .tc .vmem S32x1000 .f32) (harg1 : arg1.IsWhole) (x : Vec F S1000x32 .f32) (Ψ : PUnit → sProp 𝕄) :
    iprop(owns (c : Thread nD τ) arg0 fullShare x ∗ (∃ y, owns (c : Thread nD τ) arg1 fullShare y)
        ∗ ((owns (c : Thread nD τ) arg0 fullShare x ∗ owns (c : Thread nD τ) arg1 fullShare (TS x)) -∗ Ψ ⟨⟩))
      ⊢ wp frame (wpE (defs₀ (F := F)) Variants.none c none) E (cc0__scale_body arg0 harg0 arg1 harg1) Ψ := by
  rw [cc0__scale_body_eq_skeleton]; unfold cc0__scale_body_skel
  unfold owns
  iintro ⟨⟨%f0, %hf0, H0⟩, ⟨%y, %f1, -, H1⟩, Hk⟩
  subst hf0
  sl_exec
  rw [wp_ret]; imodintro
  iapply Hk
  isplitl [H0]
  · iexists f0; isplitr; · ipureintro; rfl
    iexact H0
  iexists _; isplitr; rotate_left
  · iexact H1
  ipureintro
  -- the load of the whole table block is the block; the one store covers the result buffer
  have hload : View.readAt (Elt F) arg0.view wholeIn.toLoadRect f0 = View.read (Elt F) arg0.view f0 := by
    funext i; rw [View.readAt_apply]; exact congrArg _ (wholeIn_emb i)
  rw [hload]
  funext j
  refine View.read_writes_apply_of_pieces arg1.view f1 (TS (View.read (Elt F) arg0.view f0)) _ (fun p hp i => ?_) j
    ⟨_, List.mem_singleton_self _, ?_⟩
  · obtain rfl := List.mem_singleton.mp hp
    exact congrArg (TS (View.read (Elt F) arg0.view f0)) (wholeOut_emb i).symm
  · rw [← Rect.map_emb_univ]; exact Finset.mem_map.mpr ⟨j, Finset.mem_univ _, wholeOut_emb j⟩

/-! ## The pipeline's proof data -/

/-- On device d: the arrays as launched; after the body the table's staging buffer at its block and the result's at the
    scaled transpose of that block; no invariant of the kernel's own; full shares; the TensorCore owes, throughout,
    what it owes before the first SparseCore call, and the pairs its waits record stay at level 0. -/
def dats (_ : Fin 1) (d : Dev nD) : Dat τ (Elt F) (HIx 1) ℕ UU ℕ cfg0 d where
  A w := Vm m d (Pipeline.arrRef spec0 w)
  after w t := match w with
    | ⟨0, _⟩ => iblk m d 0 t
    | ⟨1, _⟩ => TS (iblk m d 0 t)
  Φ _ := iprop(emp)
  q _ := fullShare
  owed _ := (K (F := F)).Otc d 0
  recorded _ := {p | (K (F := F)).lev (SparseCore.T d, p.1) p.2 ≤ 0}

/-- The table's staging buffer holds the table's block when the body runs: the one point fetches it. -/
theorem staged_in (c : Dev nD) (t : Fin cfg0.N) (d) : (dats m 0 c).before 0 t d = iblk m c 0 t := by
  unfold Dat.before
  rw [if_pos (fetch0_0 t)]
  rfl

/-- The body obligation at the one point. -/
theorem body_at_point (c : Dev nD) : BodyObligation (dats (F := F) m 0 c) (defs₀ (F := F)) Variants.none (none : HIx 1) Set.univ := by
  intro t
  rw [bigSep_W0, bigSep_W0]
  -- nothing is forgotten and no window is idle at the point: the obligation reads over the two current buffers
  show iprop((dats m 0 c).Φ t.castSucc ∗ (dats m 0 c).owesAt none t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none (c : Thread nD τ) none) Set.univ (bodyAt0 t) fun _ =>
      iprop((dats m 0 c).Φ t.castSucc ∗ (dats m 0 c).owesAt none t.castSucc
        ∗ owns (c : Thread nD τ) (st0_0 t) fullShare (iblk m c 0 t) ∗ owns (c : Thread nD τ) (st0_1 t) fullShare (TS (iblk m c 0 t)))
  simp only [staged_in]
  iintro ⟨HΦ, Ho, ⟨%d0, Hin⟩, ⟨%d1, Hout⟩⟩
  iapply (scale_body_runs c Set.univ _ _ _ _ (iblk m c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-! ## The region -/

/-- What the TensorCore owes at index none: nothing (everything it owes is a later call's, at that call's index). -/
theorem otc_none (d : Dev nD) (g : GSem nD τ sig) : (K (F := F)).Otc d 0 g none = 0 := by
  by_contra h
  have := (K (F := F)).lev_of_Otc_pos (d := d) (n := 0) (g := g) (ι := none) (Nat.pos_of_ne_zero h)
  rw [SparseCore.Cfg.lev_none] at this; omega

/-- What the TensorCore owes before the first SparseCore call, with its recorded pairs at level 0. -/
def tcOwes (d : Dev nD) : sProp 𝕄 :=
  iprop(∃ W, ⌜(K (F := F)).WBelow (SparseCore.T d) W (8 * 0)⌝ ∗ owes (SparseCore.T d) ((K (F := F)).Otc d 0) W)

/-- The result array after the region, as the pipeline computes it: the launch contents with the one point's block
    written back. -/
def TSlib (d : Dev nD) : Buf (Elt F) (tsLoc d) := (dats m 0 d).arrAt 1 cfg0.N

/-- The TensorCore kernel's region as the library's record: the windows' layout; no semaphore of the kernel's own; the
    body obligation; the waits on the staging cells' semaphores sit, at index none, below everything the TensorCore owes;
    in go what it owes, the table and the result array as launched, out come what it owes, the table and the result
    array at what the pipeline computes. -/
def RS : Pipeline.RegionSeg (pcs (F := F)) adm (dats m) (none : HIx 1) (defs₀ (F := F)) 𝒱₀ (K (F := F)).L (K (F := F)).lev (0 : Fin 1) where
  win := launch0.win.to₀
  block_pos := block_pos0
  stage_whole := stage_whole0
  K := PEmpty
  osem := fun k => k.elim
  ho := Pipeline.OwnSemFacts.none _
  hbody := fun c => (body_at_point m c).loose
  hwaits := fun c => Pipeline.cellsWaits_intro (Pipeline.pin pcs adm) (dats m) (none : HIx 1) 0 c fun w s t =>
    (K (F := F)).mayWait_none (thr := (c : Thread nD τ)) _ (fun g => otc_none c g)
  pre := fun c => iprop(tcOwes (F := F) c ∗ (tbLoc c ↦{fullShare} m (tbLoc c)) ∗ (tsLoc c ↦{fullShare} m (tsLoc c)))
  post := fun c => iprop(tcOwes (F := F) c ∗ (tbLoc c ↦{fullShare} m (tbLoc c)) ∗ (tsLoc c ↦{fullShare} TSlib m c))
  X := fun _ => iprop(emp)
  Y := fun _ => iprop(emp)
  Z := fun _ => iprop(emp)
  hentry := fun c => by
    rw [Pipeline.ownSems0_none nD τ sig (Elt F) (HIx 1) ℕ UU ℕ c,
      Pipeline.arrays_eq (Pipeline.pin pcs adm) (dats m) 0 c arr_whole0 ((dats m 0 c).share_full fun _ => rfl), bigSep_W0]
    iintro ⟨⟨Ho, Htb, Hts⟩, -, -⟩
    imodintro
    isplitl [Htb Hts]
    · isplitl [Htb]; · iexact Htb
      iexact Hts
    isplitr
    · unfold Pipeline.prefHeld; rw [Finset.univ_eq_empty, bigSep_empty]; iempintro
    isplitl [Ho]
    · unfold tcOwes
      icases Ho with ⟨%W, %hW, Ho⟩
      iexists W; isplitr
      · ipureintro; exact fun p hp => Or.inl (show (K (F := F)).lev (SparseCore.T c, p.1) p.2 ≤ 0 from hW p hp)
      iexact Ho
    isplitr <;> iempintro
  hin := fun c => by
    show _ ⊢ (iprop(emp) : sProp 𝕄)
    iintro -; iempintro
  hout := fun c => by
    rw [Pipeline.ownSems0_none nD τ sig (Elt F) (HIx 1) ℕ UU ℕ c,
      show (Pipeline.scopedRest (Pipeline.pin pcs adm 0).spec c : sProp 𝕄) = BI.emp from scopedRest0_eq c]
    iintro -
    isplitr; · iempintro
    isplitr <;> iempintro
  hexit := fun c => by
    rw [Pipeline.arrays_eq (Pipeline.pin pcs adm) (dats m) 0 c arr_whole0 ((dats m 0 c).share_full fun _ => rfl), bigSep_W0,
      (dats m 0 c).arrAt_in 0 rfl]
    iintro ⟨⟨Htb, Hts⟩, Ho, -, -⟩
    imodintro
    isplitl [Ho]
    · unfold tcOwes
      icases Ho with ⟨%W, %hW, Ho⟩
      iexists W; isplitr
      · ipureintro
        intro p hp
        rcases hW hp with h | ⟨w, s, rfl⟩
        · exact h
        · exact le_of_eq (SparseCore.Cfg.lev_none _ _)
      iexact Ho
    isplitl [Htb]; · iexact Htb
    iexact Hts

theorem RS_pre (d : Dev nD) :
    (RS m).pre d = iprop(tcOwes (F := F) d ∗ (tbLoc d ↦{fullShare} m (tbLoc d)) ∗ (tsLoc d ↦{fullShare} m (tsLoc d))) := rfl
theorem RS_post (d : Dev nD) :
    (RS m).post d = iprop(tcOwes (F := F) d ∗ (tbLoc d ↦{fullShare} m (tbLoc d)) ∗ (tsLoc d ↦{fullShare} TSlib m d)) := rfl

/-! ## The region entered from @main, and the launch element -/

/-- What the launch sets aside on device d for the pipeline: its staging cells' ghost state and its transfers' tokens. -/
def Gr (d : Dev nD) : sProp 𝕄 :=
  iprop(Pipeline.cellsGhost (Pipeline.pin (pcs (F := F)) adm) (EP (F := F)) 0 d ∗ Pipeline.toksInit (Pipeline.pin (pcs (F := F)) adm) (EP (F := F)) 0 d)

/-- The pipeline's region call in the program's own signature, and as @main spells it in the extended one. -/
abbrev entryCall : Prog (TpuEff nD τ sig (Elt F) (ΛP (F := F)) .tc) PUnit := Prog.lift (.customCall (Pipeline.entry (0 : Fin 1)) ())
theorem lift_entryCall :
    (SparseCore.liftProg (Q := 1) (entryCall (F := F)) : Prog (TpuEff nD τ sig (Elt F) (SparseCore.Sig (ΛP (F := F)) 1) .tc) PUnit)
      = Prog.lift (.customCall (SparseCore.inner (Pipeline.entry (0 : Fin 1))) ()) := rfl

set_option backward.isDefEq.respectTransparency.types false in
set_option maxHeartbeats 1000000 in
/-- The region in the program's own signature, with the result array at what the pipeline computes. -/
theorem region_inner (κ : GSem nD τ sig → ℕ) (d : Dev nD) (Φ : PUnit → sProp 𝕄) :
    iprop((K (F := F)).ctx EH (P m) κ ∗ (K (F := F)).tcSt EH d 0 ∗ boundary (SparseCore.T d) ∗ (tbLoc d ↦{fullShare} m (tbLoc d))
        ∗ (tsLoc d ↦{fullShare} m (tsLoc d)) ∗ Gr (F := F) d
        ∗ (((K (F := F)).tcSt EH d 0 ∗ boundary (SparseCore.T d) ∗ (tbLoc d ↦{fullShare} m (tbLoc d)) ∗ (tsLoc d ↦{fullShare} TSlib m d)) -∗ Φ ⟨⟩))
      ⊢ wp frame (wpE (D (F := F)) 𝒱 (SparseCore.T d) none) Set.univ (entryCall (F := F)) Φ := by
  unfold SparseCore.Cfg.tcSt Gr
  iintro ⟨#Hctx, ⟨Ho, Hrest⟩, Hb, Htb, Hts, ⟨Hg, Ht⟩, Hk⟩
  ihave Hlev := (SparseCore.Cfg.ctx_levAts κ) $$ Hctx
  iapply (Pipeline.RegionSeg.wp (pcs (F := F)) adm (dats m) (none : HIx 1) cellOf_inj (EP (F := F)) (defs₀ (F := F)) 𝒱₀
    (K (F := F)).L (K (F := F)).lev (RS m) d none (fun u hu => nomatch hu) (fun _ => .ret ⟨⟩) Φ) $$ [Ho Hrest Hb Htb Hts Hg Ht Hk Hlev]
  rw [RS_pre, RS_post]
  unfold tcOwes
  isplitl [Hrest Hk]
  · iintro ⟨Hb, Ho, Htb, Hts⟩
    rw [wp_ret]; imodintro
    iapply Hk
    isplitl [Ho Hrest]
    · isplitl [Ho]; · iexact Ho
      iexact Hrest
    isplitl [Hb]; · iexact Hb
    isplitl [Htb]; · iexact Htb
    iexact Hts
  isplitl [Hb]; · iexact Hb
  isplitl [Ho Htb Hts]
  · isplitl [Ho]; · iexact Ho
    isplitl [Htb]; · iexact Htb
    iexact Hts
  isplitl [Hlev]; · iexact Hlev
  isplitl [Hg]; · iexact Hg
  iexact Ht

/-- The region as @main spells it, in the extended signature. -/
theorem region_lib (κ : GSem nD τ sig → ℕ) (d : Dev nD) (Φ : PUnit → sProp 𝕄) :
    iprop((K (F := F)).ctx EH (P m) κ ∗ (K (F := F)).tcSt EH d 0 ∗ boundary (SparseCore.T d) ∗ (tbLoc d ↦{fullShare} m (tbLoc d))
        ∗ (tsLoc d ↦{fullShare} m (tsLoc d)) ∗ Gr (F := F) d
        ∗ (((K (F := F)).tcSt EH d 0 ∗ boundary (SparseCore.T d) ∗ (tbLoc d ↦{fullShare} m (tbLoc d)) ∗ (tsLoc d ↦{fullShare} TSlib m d)) -∗ Φ ⟨⟩))
      ⊢ wp frame (wpE ((K (F := F)).defs (D (F := F))) 𝒱 (SparseCore.T d) none) Set.univ
          (Prog.lift (.customCall (SparseCore.inner (Pipeline.entry 0)) ())) Φ := by
  rw [← lift_entryCall]
  exact (region_inner m κ d Φ).trans
    ((K (F := F)).wp_liftProg (D (F := F)) 𝒱 (SparseCore.T d) Set.univ none (entryCall (F := F)) Φ)

end Cert.Proof.KB

end
-- ==== Proof.KB.Launch.lean ====
/-
  The program's run from the vector subcores' obligation. Every thread's part is proved (the subcores' task is the
  hypothesis here, @main is proved over the TensorCore kernel's region, the split of a SparseCore's operands among its
  subcores is proved), so every weakly fair execution of the 35 threads terminates, and the two argument arrays end
  at their launch contents: at the end @main still holds them whole at those contents, which the final memory must
  then agree with.
-/
import proofs.«203934_g28930899706482_cont_9to1_1937_23_alg».proof.Proof.KB.Main

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- What the final memory is asked: device d's two arguments as launched. -/
def fq (d : Dev nD) (s' : Phys nD τ sig (Elt F)) : Prop := s'.mem.mem (xLoc d) = m (xLoc d) ∧ s'.mem.mem (tbLoc d) = m (tbLoc d)

/-- An array held whole at the full share has its contents in the memory. -/
theorem hfin (d : Dev nD) (s' : Phys nD τ sig (Elt F)) : iprop(FIN m d ∗ SI s') ⊢ (⌜fq m d s'⌝ : sProp 𝕄) := by
  iintro ⟨⟨Hx, Ht⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := tbLoc d) (I := Finset.univ) (q := fullShare) (f := m (tbLoc d))) $$ [HSI Ht]
  · isplitl [HSI] <;> iassumption
  icases H with %h2
  ipureintro; exact ⟨funext fun i => h1 i (Finset.mem_univ i), funext fun i => h2 i (Finset.mem_univ i)⟩

/-- The frame's post: on every device the two arguments are as launched. -/
def QC : PUnit × MemSt nD τ sig (Elt F) → Prop := fun r => ∀ c : Dev nD, r.2.mem (xLoc c) = m (xLoc c) ∧ r.2.mem (tbLoc c) = m (tbLoc c)

/-- THE RUN, from the vector subcores' obligation, the TensorCore kernel's region and a launch element that funds
    the handshakes and what the region needs (G): every weakly fair execution of the program's threads terminates
    with the two arguments unchanged. -/
theorem run_frame [∀ e, Nonempty (Elt F e)] (htile : (K (F := F)).TileObl (D (F := F)) 𝒱 (P m) v₀ 0)
    (G : Dev nD → sProp 𝕄) (hreg : RegionObl m G) (u₀ : UU)
    (hu₀ : (ownU u₀ : sProp 𝕄) ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main G (FIN m) u₀ (sep_elim_left.trans hu₀) (hmain m ρ G hreg) (fq m) (hfin m) (QC m) (fun _ h => h)

end Cert.Proof.KB

end
-- ==== Proof.KB.RegionLaunch.lean ====
/-
  The launch element for the whole program and the run from the vector subcores' obligation. The proof's resource
  algebra has three parts side by side: the handshakes' rounds, the pipeline library's rounds for the TensorCore
  kernel's staging cells, and the transfers' counters. The launch element funds the first two and leaves the third
  at its unit; from it come the handshakes' part as the launch theorem takes it and, on every device, the ghost state
  and duty tokens the TensorCore kernel's region is entered with. With the region's result identified as the scaled
  transposed table, the region is the obligation @main was proved over, and the launch theorem gives the run.
-/
import proofs.«203934_g28930899706482_cont_9to1_1937_23_alg».proof.Proof.KB.Region
import proofs.«203934_g28930899706482_cont_9to1_1937_23_alg».proof.Proof.KB.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ) (ρ : Dev nD → PrngReg)
variable [∀ e, Nonempty (Elt F e)]

/-! ## The launch element -/

/-- The launch element: the handshakes' rounds, the pipeline's staging cells and its transfers' tokens, no counter. -/
def u₀ : UU :=
  (initOf (K (F := F)).hsCells (K (F := F)).hsToks,
    (initOf (Pipeline.cells (Pipeline.pin (pcs (F := F)) adm) cellOf_inj) (Pipeline.launchToks (Pipeline.pin (pcs (F := F)) adm) cellOf_inj), 1))

omit [FloatOps F] in
theorem bigSep_emp' {I : Type} (s : Finset I) : (bigSep s fun _ => iprop(emp)) = (iprop(emp) : sProp 𝕄) := bigSep_emp_const s

/-- From the launch element: the handshakes' part as the launch theorem takes it, on every device what the region is
    entered with, and nothing of the kernel's own on any thread. -/
theorem hu₀ : (ownU (u₀ (F := F)) : sProp 𝕄)
    ⊢ |={Set.univ}=> iprop(BI.own (EH (initOf (K (F := F)).hsCells (K (F := F)).hsToks)) ∗ (bigSep Finset.univ (Gr (F := F)))
        ∗ bigSep Finset.univ fun thr : Thread nD τ => bigSep Finset.univ fun q : Fin 1 => (P m).x q thr) := by
  have e1 : (bigSep Finset.univ fun c : Dev nD => bigSep Finset.univ fun p : Fin 1 =>
        Pipeline.cellsGhost (Pipeline.pin (pcs (F := F)) adm) (EP (F := F)) p c)
      = bigSep Finset.univ fun c : Dev nD => Pipeline.cellsGhost (Pipeline.pin (pcs (F := F)) adm) (EP (F := F)) 0 c :=
    bigSep_congr fun c _ => bigSep_univ_of_subsingleton (0 : Fin 1)
  have e2 : (bigSep Finset.univ fun c : Dev nD => bigSep Finset.univ fun p : Fin 1 =>
        (Pipeline.toksInit (Pipeline.pin (pcs (F := F)) adm) (EP (F := F)) p c : sProp 𝕄))
      = bigSep Finset.univ fun c : Dev nD => Pipeline.toksInit (Pipeline.pin (pcs (F := F)) adm) (EP (F := F)) 0 c :=
    bigSep_congr fun c _ => bigSep_univ_of_subsingleton (0 : Fin 1)
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcs (F := F)) adm) (EP (F := F)) cellOf_inj) $$ HP with ⟨Hg, Ht⟩
  ihave Hg' := (Entails.of_eq e1) $$ Hg
  ihave Ht' := (Entails.of_eq e2) $$ Ht
  imodintro
  isplitl [HH]; · iexact HH
  isplitl [Hg' Ht']
  · unfold Gr
    rw [bigSep_sep']
    isplitl [Hg']; · iexact Hg'
    iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The region as @main asks it, and the run -/

/-- The region as @main was proved over it, once what the pipeline leaves in the result array is known to be the
    scaled transposed table. -/
theorem regionObl (hTS : ∀ d, TSlib m d = TS (m (tbLoc d))) : RegionObl m (Gr (F := F)) := by
  intro κ d Φ
  rw [← hTS d]
  exact region_lib m κ d Φ

/-- THE RUN from the vector subcores' obligation: every weakly fair execution of the program's threads terminates with
    the two arguments unchanged. -/
theorem run_of_tile (htile : (K (F := F)).TileObl (D (F := F)) 𝒱 (P m) v₀ 0) (hTS : ∀ d, TSlib m d = TS (m (tbLoc d))) :
    θ_run (Cert.Kernel.defs (F := F)) (Cert.Kernel.threads (F := F)) ⟨m, fun _ => 0, ρ⟩ (QC m) :=
  run_frame m ρ htile (Gr (F := F)) (regionObl m hTS) (u₀ (F := F)) (hu₀ m)

end Cert.Proof.KB

end
-- ==== Proof.KB.RegionValue.lean ====
/-
  The result array after the TensorCore kernel's region is the scaled transpose of the table. The pipeline computes
  that array from its proof data: the launch contents with the one point's block written back. The grid has one
  point. It fetches the table's block, which is the whole table: the window's block is the whole array at block
  index 0, so an index of the block sits at itself. The body leaves the scaled transpose of that block, and the point
  writes it back over the result array's block, again the whole array: every index of the array lies in it.
-/
import proofs.«203934_g28930899706482_cont_9to1_1937_23_alg».proof.Proof.KB.Region
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]
variable (m : (ℓ : Loc nD τ sig) → Buf (Elt F) ℓ)

variable [∀ e, Nonempty (Elt F e)]

/-- The table's window places an index of its block at itself: block index 0, the block the whole array. -/
theorem blk0_emb (t : Fin cfg0.N) (j : ((cfg0.win 0).xblock (cfg0.grid.coords t)).Idx) :
    ((cfg0.win 0).blk t).view.emb j = j := by
  funext a; apply Fin.ext
  show (cfg0.win 0).index t a * (cfg0.win 0).size a + 1 * (j a).val = (j a).val
  show 0 * (cfg0.win 0).size a + 1 * (j a).val = (j a).val
  omega

/-- So does the result array's window. -/
theorem blk1_emb (t : Fin cfg0.N) (j : ((cfg0.win 1).xblock (cfg0.grid.coords t)).Idx) :
    ((cfg0.win 1).blk t).view.emb j = j := by
  funext a; apply Fin.ext
  show (cfg0.win 1).index t a * (cfg0.win 1).size a + 1 * (j a).val = (j a).val
  show 0 * (cfg0.win 1).size a + 1 * (j a).val = (j a).val
  omega

/-- The table's block at the one point is the table. -/
theorem iblk0_eq (d : Dev nD) (t : Fin cfg0.N) : iblk m d 0 t = m (tbLoc d) := by
  funext j
  unfold iblk
  rw [View.read_apply, blk0_emb]
  rfl

/-- What the one point writes back is the block, at that point, of the scaled transpose of the table. -/
theorem flushed1_eq (d : Dev nD) (t : Fin cfg0.N) :
    (dats m 0 d).flushed 1 t = ((cfg0.win 1).blk t).view.read (Elt F) (TS (m (tbLoc d))) := by
  funext j
  rw [View.read_apply, blk1_emb]
  show TS (iblk m d 0 t) ((cfg0.win 1).xinj (cfg0.grid.coords t) j) = TS (m (tbLoc d)) j
  rw [iblk0_eq]

/-- Every index of the result array lies in the one point's block. -/
theorem mem_blk1 (d : Dev nD) (t : Fin cfg0.N) (i : ((cfg0.win 1).arr.view.loc (d.tc : Thread nD τ)).2.ty.Idx) :
    i ∈ ((cfg0.win 1).blk t).view.set := by
  have h := ((cfg0.win 1).blk t).view.emb_mem_set i
  rwa [blk1_emb] at h

/-- The result array after the region is the scaled transpose of the table. -/
theorem hTS (d : Dev nD) : TSlib m d = TS (m (tbLoc d)) := by
  unfold TSlib
  exact (dats m 0 d).arrAt_eq_of_cover 1 (TS (m (tbLoc d))) (fun t _ => flushed1_eq m d t)
    (fun i => ⟨t0_0, flush0_1 t0_0, mem_blk1 d t0_0 i⟩)

end Cert.Proof.KB

end
-- ==== Proof.KB.Frames.lean ====
/-
  The kernel's run and its frame: under the precondition every index word names a row of the table, so every vector
  subcore's task runs; with the TensorCore region and the launch, every weakly fair execution of the device's threads
  terminates, nothing faulting, the two arguments unchanged.
-/
import proofs.«203934_g28930899706482_cont_9to1_1937_23_alg».proof.Defs
import proofs.«203934_g28930899706482_cont_9to1_1937_23_alg».proof.Proof.RangeOfPre
import proofs.«203934_g28930899706482_cont_9to1_1937_23_alg».proof.Proof.RefRead
import proofs.«203934_g28930899706482_cont_9to1_1937_23_alg».proof.Proof.KB.TileBody
import proofs.«203934_g28930899706482_cont_9to1_1937_23_alg».proof.Proof.KB.TileObl
import proofs.«203934_g28930899706482_cont_9to1_1937_23_alg».proof.Proof.KB.RegionLaunch
import proofs.«203934_g28930899706482_cont_9to1_1937_23_alg».proof.Proof.KB.RegionValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
variable [FloatOps F]

local notation "tW" => (Memref.whole Cert.Kernel.main_v2_scv : Memref Cert.Kernel.sig Kind.scVector Space.hbm Cert.Kernel.S32000 EltTy.f32)
local notation "xW" => (Memref.whole Cert.Kernel.main_v0_scv : Memref Cert.Kernel.sig Kind.scVector Space.hbm Cert.Kernel.S200x16384 EltTy.i32)
local notation "oW" => (Memref.whole Cert.Kernel.main_v3_scv : Memref Cert.Kernel.sig Kind.scVector Space.hbm Cert.Kernel.S200x32x16384 EltTy.f32)
local notation "tvW" => (Memref.whole Cert.Kernel.cc1_scratch0 : Memref Cert.Kernel.sig Kind.scVector Space.vmem Cert.Kernel.S32000 EltTy.f32)
local notation "xs0W" => (Memref.whole Cert.Kernel.cc1_scratch1 : Memref Cert.Kernel.sig Kind.scVector Space.vmem Cert.Kernel.S40x512 EltTy.i32)
local notation "xs1W" => (Memref.whole Cert.Kernel.cc1_scratch2 : Memref Cert.Kernel.sig Kind.scVector Space.vmem Cert.Kernel.S40x512 EltTy.i32)
local notation "oc0W" => (Memref.whole Cert.Kernel.cc1_scratch3 : Memref Cert.Kernel.sig Kind.scVector Space.vmem Cert.Kernel.S32x256 EltTy.f32)
local notation "oc1W" => (Memref.whole Cert.Kernel.cc1_scratch4 : Memref Cert.Kernel.sig Kind.scVector Space.vmem Cert.Kernel.S32x256 EltTy.f32)

variable (m : (ℓ : Loc nD τ sig) → Buf (Elt F) ℓ) (ρ : Dev nD → PrngReg)

/-- The precondition bounds every index word: between 0 and 999 as a signed word, hence below 1000 as a natural number. -/
theorem xok_of_pre (h : ∀ c : Dev nD, Cert.Pre_input_domain.fn (F := F) (m (xLoc c)) (m (tbLoc c)) = fun _ => 1#1) :
    ∀ d, XOK m d := fun d j =>
  Cert.ReferenceIdeal.RefValue.toNat_lt_of_range (Cert.Pre_input_domain.Range.range_of_pre (m (xLoc d)) (m (tbLoc d)) (h d) j)

/-- The kernel's run, the arguments unchanged. -/
theorem run_ki [∀ e, Nonempty (Elt F e)] (hx : ∀ d, XOK m d) :
    θ_run (Cert.Kernel.defs (F := F)) (Cert.Kernel.threads (F := F)) ⟨m, fun _ => 0, ρ⟩ (QC m) :=
  run_of_tile m ρ (tileObl m (fun d L qT O W hO hxd => tile_run m d L qT O W hO hxd) hx) (hTS m)

end Cert.Proof.KB

end
-- ==== Proof.lean ====
/-
  The certificate's five claims. The kernel scales and transposes the table on the TensorCore (entry (d, v) is
  table (v, d) times the literal 0x40B504F3), flattens it, and on the SparseCores' 32 vector subcores gathers, for
  every sequence position s, table column d and batch element b, the flattened entry at xt (s, b) + 1000 d into
  out_t (s, d, b); the result is out_t with the batch axis first: result (b, s, d) = table (x (b, s), d) · literal.
  The reference takes row x (b, s) of the table and multiplies by the same literal. Under the precondition every index
  is a row number, so both programs name the same table entry: an index equation, no arithmetic on the extended
  reals. The three frames are the three runs with the values dropped; the ideal pass rewrote nothing.
-/
import proofs.«203934_g28930899706482_cont_9to1_1937_23_alg».proof.Defs
import proofs.«203934_g28930899706482_cont_9to1_1937_23_alg».proof.Proof.Gen.Kernel
import proofs.«203934_g28930899706482_cont_9to1_1937_23_alg».proof.Proof.Gen.KernelIdeal
import proofs.«203934_g28930899706482_cont_9to1_1937_23_alg».proof.Proof.Gen.ReferenceIdeal
import proofs.«203934_g28930899706482_cont_9to1_1937_23_alg».proof.Proof.Gen.Pre_input_domain
import proofs.«203934_g28930899706482_cont_9to1_1937_23_alg».proof.Proof.RangeOfPre
import proofs.«203934_g28930899706482_cont_9to1_1937_23_alg».proof.Proof.RefRun
import proofs.«203934_g28930899706482_cont_9to1_1937_23_alg».proof.Proof.RefRead
import proofs.«203934_g28930899706482_cont_9to1_1937_23_alg».proof.Proof.KI.ValueEq
import proofs.«203934_g28930899706482_cont_9to1_1937_23_alg».proof.Proof.KI.FramesV
import proofs.«203934_g28930899706482_cont_9to1_1937_23_alg».proof.Proof.KB.Frames

noncomputable section

namespace Cert.Proof

open Idealize.ShloMosaic Idealize.SL.Sem

/-- The word-level kernel runs and leaves its arguments unchanged. -/
theorem frame_k : Cert.frame_Kernel (hKernel := Cert.Kernel.Gen.facts) (hPre_input_domain := Cert.Pre_input_domain.Gen.facts) := fun m ρ hpre =>
  (θ_run Cert.Kernel.defs _ _).mono (fun _ h c => h c) (Cert.Proof.KB.run_ki (F := Bits) m ρ (Cert.Proof.KB.xok_of_pre m hpre))

/-- The idealized kernel runs and leaves its arguments unchanged. -/
theorem frame_ki : Cert.frame_KernelIdeal (hKernelIdeal := Cert.KernelIdeal.Gen.facts) (hPre_input_domain := Cert.Pre_input_domain.Gen.facts) := fun m ρ hpre =>
  (θ_run Cert.KernelIdeal.defs _ _).mono (fun _ h c => h c) (Cert.Proof.KI.run_ki (F := Ideal) m ρ (Cert.Proof.KI.xok_of_pre m hpre))

/-- The reference runs and leaves its arguments unchanged. -/
theorem frame_ri : Cert.frame_ReferenceIdeal (hReferenceIdeal := Cert.ReferenceIdeal.Gen.facts) (hPre_input_domain := Cert.Pre_input_domain.Gen.facts) := fun m ρ _ =>
  Cert.ReferenceIdeal.RefValue.run_frame (F := Ideal) m ρ

/-- From memories agreeing on the arguments both programs end with the same result: RES of the arguments. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  refine ⟨fun c => Cert.Proof.KI.RESv (F := Ideal) m c, ?_, ?_⟩
  · exact (θ_run Cert.KernelIdeal.defs _ _).mono (fun _ h c => h c) (Cert.Proof.KI.run_kiV (F := Ideal) m ρ (Cert.Proof.KI.xok_of_pre m hpre))
  · refine (θ_run Cert.ReferenceIdeal.defs _ _).mono (fun _ h c => ⟨(h c).1.trans ?_, (h c).2⟩) (Cert.ReferenceIdeal.RefValue.run (F := Ideal) m' ρ')
    rw [(hagree c).1, (hagree c).2]
    exact (Cert.Proof.KI.res_eq_ref _ _ (Cert.Pre_input_domain.Range.range_of_pre _ _ (hpre c))).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
